-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x256x256 : Shape := ⟨4, ![32, 3, 256, 256]⟩
abbrev S128x3x256x256 : Shape := ⟨4, ![128, 3, 256, 256]⟩
abbrev S_ : Shape := ⟨0, ![]⟩

class Facts : Prop where
  bcast_S_S32x3x256x256 : S_.BroadcastsInDim S32x3x256x256 (![] : Fin 0 → Fin S32x3x256x256.rank)
  reducesTo_S32x3x256x256_S_d0_1_2_3 : S32x3x256x256.ReducesTo [0, 1, 2, 3] S_
  h_S_ : 0 < S_.numel
  bcast_S_S128x3x256x256 : S_.BroadcastsInDim S128x3x256x256 (![] : Fin 0 → Fin S128x3x256x256.rank)
  reducesTo_S128x3x256x256_S_d0_1_2_3 : S128x3x256x256.ReducesTo [0, 1, 2, 3] S_

variable [Facts]

def fn {F : FTy → Type} [FloatOps F] (main_arg0 : FVec F S32x3x256x256 .f32) (main_arg1 : FVec F S128x3x256x256 .f32) : IVec S_ 1 :=
  let main_v0 : FVec F S32x3x256x256 .f32 := Host.absf main_arg0
  let main_cst : FVec F S_ .f32 := constant S_ .f32 0x7F800000#32
  let main_v1 : FVec F S32x3x256x256 .f32 := broadcastInDim S32x3x256x256 ![] bcast_S_S32x3x256x256 main_cst
  let main_v2 : IVec S32x3x256x256 1 := cmpf .olt main_v0 main_v1
  let main_c : IVec S_ 1 := constantI S_ 1 1#1
  let main_v3 : IVec S_ 1 := (fun x v => Host.reduce IntOp.andi x v reducesTo_S32x3x256x256_S_d0_1_2_3 h_S_) main_v2 main_c
  let main_v4 : FVec F S128x3x256x256 .f32 := Host.absf main_arg1
  let main_cst_0 : FVec F S_ .f32 := constant S_ .f32 0x7F800000#32
  let main_v5 : FVec F S128x3x256x256 .f32 := broadcastInDim S128x3x256x256 ![] bcast_S_S128x3x256x256 main_cst_0
  let main_v6 : IVec S128x3x256x256 1 := cmpf .olt main_v4 main_v5
  let main_c_1 : IVec S_ 1 := constantI S_ 1 1#1
  let main_v7 : IVec S_ 1 := (fun x v => Host.reduce IntOp.andi x v reducesTo_S128x3x256x256_S_d0_1_2_3 h_S_) main_v6 main_c_1
  let main_v8 : IVec S_ 1 := andi main_v3 main_v7
  main_v8
-- ==== Kernel.lean ====
abbrev S32x3x256x256 : Shape := ⟨4, ![32, 3, 256, 256]⟩
abbrev S128x3x256x256 : Shape := ⟨4, ![128, 3, 256, 256]⟩
abbrev S49152x128 : Shape := ⟨2, ![49152, 128]⟩
abbrev S196608x128 : Shape := ⟨2, ![196608, 128]⟩
abbrev S4x48x128 : Shape := ⟨3, ![4, 48, 128]⟩
abbrev S4 : Shape := ⟨1, ![4]⟩
abbrev S1x48x128 : Shape := ⟨3, ![1, 48, 128]⟩
abbrev S48x128 : Shape := ⟨2, ![48, 128]⟩
abbrev S1 : Shape := ⟨1, ![1]⟩
abbrev S_ : Shape := ⟨0, ![]⟩
abbrev S8x1536x128 : Shape := ⟨3, ![8, 1536, 128]⟩
abbrev S8 : Shape := ⟨1, ![8]⟩
abbrev S1x1536x128 : Shape := ⟨3, ![1, 1536, 128]⟩
abbrev S1536x128 : Shape := ⟨2, ![1536, 128]⟩

abbrev nBuf : Table → Nat
  | .hbm => 8
  | .local .tc .vmem => 1
  | .local .scVector .vmem => 1
  | _ => 0

abbrev bufTy : (tb : Table) → Fin (nBuf tb) → BufTy
  | .hbm, ⟨0, _⟩ => ⟨S32x3x256x256, .f32⟩
  | .hbm, ⟨1, _⟩ => ⟨S128x3x256x256, .f32⟩
  | .hbm, ⟨2, _⟩ => ⟨S49152x128, .f32⟩
  | .hbm, ⟨3, _⟩ => ⟨S196608x128, .f32⟩
  | .hbm, ⟨4, _⟩ => ⟨S49152x128, .f32⟩
  | .hbm, ⟨5, _⟩ => ⟨S196608x128, .f32⟩
  | .hbm, ⟨6, _⟩ => ⟨S32x3x256x256, .f32⟩
  | .hbm, ⟨7, _⟩ => ⟨S128x3x256x256, .f32⟩
  | .local .tc .vmem, ⟨0, _⟩ => ⟨S8x1536x128, .f32⟩
  | .local .scVector .vmem, ⟨0, _⟩ => ⟨S4x48x128, .f32⟩
  | _, _ => ⟨S32x3x256x256, .f32⟩

abbrev bufScoped : (cs : CoreSpace) → Fin (nBuf (.local .tc cs)) → Bool
  | .vmem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc1_scratch0 : Ref sig .tc := ⟨.vmem, 0, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c127488_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c48_i32 : BitVec 32 := 48#32
  let v2 : BitVec 32 := Scalar.muli v1 c48_i32
  let v3 : BitVec 32 := Scalar.addi c127488_i32 v2
  let c0_i32_18 : BitVec 32 := 0#32
  ![v3.toNat, 0]
def k0_off1_at (r : Fin 22) : BitVec 32 :=
  if r.val < 11 then
    if r.val < 5 then
      if r.val < 2 then
        if r.val < 1 then
          127488#32
        else
          99840#32
      else
        if r.val < 3 then
          112128#32
        else
          if r.val < 4 then
            119808#32
          else
            49152#32
    else
      if r.val < 8 then
        if r.val < 6 then
          23040#32
        else
          if r.val < 7 then
            73728#32
          else
            130560#32
      else
        if r.val < 9 then
          38400#32
        else
          if r.val < 10 then
            178176#32
          else
            167424#32
  else
    if r.val < 16 then
      if r.val < 13 then
        if r.val < 12 then
          118272#32
        else
          43008#32
      else
        if r.val < 14 then
          142848#32
        else
          if r.val < 15 then
            0#32
          else
            75264#32
    else
      if r.val < 19 then
        if r.val < 17 then
          105984#32
        else
          if r.val < 18 then
            133632#32
          else
            136704#32
      else
        if r.val < 20 then
          159744#32
        else
          if r.val < 21 then
            115200#32
          else
            138240#32
def k0_off2 (i : grid0.Coords) (c1536_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c48_i32 : BitVec 32 := 48#32
  let v2 : BitVec 32 := Scalar.muli v1 c48_i32
  let v5 : BitVec 32 := Scalar.addi c1536_i32 v2
  let c0_i32_25 : BitVec 32 := 0#32
  ![v5.toNat, 0]
abbrev grid1 : Pipeline.Grid := .none

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S32x3x256x256_S49152x128 : S32x3x256x256.ShapeCasts S49152x128
  shapeCasts_S128x3x256x256_S196608x128 : S128x3x256x256.ShapeCasts S196608x128
  inb_S4x48x128_S1x48x128_0_0_0 : ∀ a, (![0, 0, 0] : Fin 3 → Nat) a + S1x48x128.size a ≤ S4x48x128.size a
  squeezes_S1x48x128_S48x128 : S1x48x128.Squeezes S48x128
  inb_S4_S1_0 : ∀ a, (![0] : Fin 1 → Nat) a + S1.size a ≤ S4.size a
  squeezes_S1_S_ : S1.Squeezes S_
  inb_S4x48x128_S1x48x128_1_0_0 : ∀ a, (![1, 0, 0] : Fin 3 → Nat) a + S1x48x128.size a ≤ S4x48x128.size a
  inb_S4_S1_1 : ∀ a, (![1] : Fin 1 → Nat) a + S1.size a ≤ S4.size a
  inb_S4x48x128_S1x48x128_2_0_0 : ∀ a, (![2, 0, 0] : Fin 3 → Nat) a + S1x48x128.size a ≤ S4x48x128.size a
  inb_S4_S1_2 : ∀ a, (![2] : Fin 1 → Nat) a + S1.size a ≤ S4.size a
  inb_S4x48x128_S1x48x128_3_0_0 : ∀ a, (![3, 0, 0] : Fin 3 → Nat) a + S1x48x128.size a ≤ S4x48x128.size a
  inb_S4_S1_3 : ∀ a, (![3] : Fin 1 → Nat) a + S1.size a ≤ S4.size a
  inb_S8_S1_0 : ∀ a, (![0] : Fin 1 → Nat) a + S1.size a ≤ S8.size a
  inb_S8x1536x128_S1x1536x128_0_0_0 : ∀ a, (![0, 0, 0] : Fin 3 → Nat) a + S1x1536x128.size a ≤ S8x1536x128.size a
  squeezes_S1x1536x128_S1536x128 : S1x1536x128.Squeezes S1536x128
  inb_S49152x128_S1536x128_0_0 : ∀ a, (![0, 0] : Fin 2 → Nat) a + S1536x128.size a ≤ S49152x128.size a
  inb_S8_S1_1 : ∀ a, (![1] : Fin 1 → Nat) a + S1.size a ≤ S8.size a
  inb_S8x1536x128_S1x1536x128_1_0_0 : ∀ a, (![1, 0, 0] : Fin 3 → Nat) a + S1x1536x128.size a ≤ S8x1536x128.size a
  inb_S49152x128_S1536x128_3072_0 : ∀ a, (![3072, 0] : Fin 2 → Nat) a + S1536x128.size a ≤ S49152x128.size a
  inb_S8_S1_2 : ∀ a, (![2] : Fin 1 → Nat) a + S1.size a ≤ S8.size a
  inb_S8x1536x128_S1x1536x128_2_0_0 : ∀ a, (![2, 0, 0] : Fin 3 → Nat) a + S1x1536x128.size a ≤ S8x1536x128.size a
  inb_S49152x128_S1536x128_4608_0 : ∀ a, (![4608, 0] : Fin 2 → Nat) a + S1536x128.size a ≤ S49152x128.size a
  inb_S8_S1_3 : ∀ a, (![3] : Fin 1 → Nat) a + S1.size a ≤ S8.size a
  inb_S8x1536x128_S1x1536x128_3_0_0 : ∀ a, (![3, 0, 0] : Fin 3 → Nat) a + S1x1536x128.size a ≤ S8x1536x128.size a
  inb_S49152x128_S1536x128_6144_0 : ∀ a, (![6144, 0] : Fin 2 → Nat) a + S1536x128.size a ≤ S49152x128.size a
  inb_S196608x128_S1536x128_127488_0 : ∀ a, (![127488, 0] : Fin 2 → Nat) a + S1536x128.size a ≤ S196608x128.size a
  inb_S8_S1_4 : ∀ a, (![4] : Fin 1 → Nat) a + S1.size a ≤ S8.size a
  inb_S8x1536x128_S1x1536x128_4_0_0 : ∀ a, (![4, 0, 0] : Fin 3 → Nat) a + S1x1536x128.size a ≤ S8x1536x128.size a
  inb_S49152x128_S1536x128_7680_0 : ∀ a, (![7680, 0] : Fin 2 → Nat) a + S1536x128.size a ≤ S49152x128.size a
  inb_S196608x128_S1536x128_99840_0 : ∀ a, (![99840, 0] : Fin 2 → Nat) a + S1536x128.size a ≤ S196608x128.size a
  inb_S8_S1_5 : ∀ a, (![5] : Fin 1 → Nat) a + S1.size a ≤ S8.size a
  inb_S8x1536x128_S1x1536x128_5_0_0 : ∀ a, (![5, 0, 0] : Fin 3 → Nat) a + S1x1536x128.size a ≤ S8x1536x128.size a
  inb_S49152x128_S1536x128_9216_0 : ∀ a, (![9216, 0] : Fin 2 → Nat) a + S1536x128.size a ≤ S49152x128.size a
  inb_S196608x128_S1536x128_112128_0 : ∀ a, (![112128, 0] : Fin 2 → Nat) a + S1536x128.size a ≤ S196608x128.size a
  inb_S8_S1_6 : ∀ a, (![6] : Fin 1 → Nat) a + S1.size a ≤ S8.size a
  inb_S8x1536x128_S1x1536x128_6_0_0 : ∀ a, (![6, 0, 0] : Fin 3 → Nat) a + S1x1536x128.size a ≤ S8x1536x128.size a
  inb_S49152x128_S1536x128_13824_0 : ∀ a, (![13824, 0] : Fin 2 → Nat) a + S1536x128.size a ≤ S49152x128.size a
  inb_S196608x128_S1536x128_119808_0 : ∀ a, (![119808, 0] : Fin 2 → Nat) a + S1536x128.size a ≤ S196608x128.size a
  inb_S8_S1_7 : ∀ a, (![7] : Fin 1 → Nat) a + S1.size a ≤ S8.size a
  inb_S8x1536x128_S1x1536x128_7_0_0 : ∀ a, (![7, 0, 0] : Fin 3 → Nat) a + S1x1536x128.size a ≤ S8x1536x128.size a
  inb_S49152x128_S1536x128_15360_0 : ∀ a, (![15360, 0] : Fin 2 → Nat) a + S1536x128.size a ≤ S49152x128.size a
  inb_S196608x128_S1536x128_49152_0 : ∀ a, (![49152, 0] : Fin 2 → Nat) a + S1536x128.size a ≤ S196608x128.size a
  inb_S49152x128_S1536x128_16896_0 : ∀ a, (![16896, 0] : Fin 2 → Nat) a + S1536x128.size a ≤ S49152x128.size a
  inb_S196608x128_S1536x128_23040_0 : ∀ a, (![23040, 0] : Fin 2 → Nat) a + S1536x128.size a ≤ S196608x128.size a
  inb_S49152x128_S1536x128_18432_0 : ∀ a, (![18432, 0] : Fin 2 → Nat) a + S1536x128.size a ≤ S49152x128.size a
  inb_S196608x128_S1536x128_73728_0 : ∀ a, (![73728, 0] : Fin 2 → Nat) a + S1536x128.size a ≤ S196608x128.size a
  inb_S49152x128_S1536x128_19968_0 : ∀ a, (![19968, 0] : Fin 2 → Nat) a + S1536x128.size a ≤ S49152x128.size a
  inb_S196608x128_S1536x128_130560_0 : ∀ a, (![130560, 0] : Fin 2 → Nat) a + S1536x128.size a ≤ S196608x128.size a
  inb_S49152x128_S1536x128_24576_0 : ∀ a, (![24576, 0] : Fin 2 → Nat) a + S1536x128.size a ≤ S49152x128.size a
  inb_S196608x128_S1536x128_38400_0 : ∀ a, (![38400, 0] : Fin 2 → Nat) a + S1536x128.size a ≤ S196608x128.size a
  inb_S49152x128_S1536x128_26112_0 : ∀ a, (![26112, 0] : Fin 2 → Nat) a + S1536x128.size a ≤ S49152x128.size a
  inb_S196608x128_S1536x128_178176_0 : ∀ a, (![178176, 0] : Fin 2 → Nat) a + S1536x128.size a ≤ S196608x128.size a
  inb_S49152x128_S1536x128_29184_0 : ∀ a, (![29184, 0] : Fin 2 → Nat) a + S1536x128.size a ≤ S49152x128.size a
  inb_S196608x128_S1536x128_167424_0 : ∀ a, (![167424, 0] : Fin 2 → Nat) a + S1536x128.size a ≤ S196608x128.size a
  inb_S49152x128_S1536x128_32256_0 : ∀ a, (![32256, 0] : Fin 2 → Nat) a + S1536x128.size a ≤ S49152x128.size a
  inb_S196608x128_S1536x128_118272_0 : ∀ a, (![118272, 0] : Fin 2 → Nat) a + S1536x128.size a ≤ S196608x128.size a
  inb_S49152x128_S1536x128_35328_0 : ∀ a, (![35328, 0] : Fin 2 → Nat) a + S1536x128.size a ≤ S49152x128.size a
  inb_S196608x128_S1536x128_43008_0 : ∀ a, (![43008, 0] : Fin 2 → Nat) a + S1536x128.size a ≤ S196608x128.size a
  inb_S49152x128_S1536x128_36864_0 : ∀ a, (![36864, 0] : Fin 2 → Nat) a + S1536x128.size a ≤ S49152x128.size a
  inb_S196608x128_S1536x128_142848_0 : ∀ a, (![142848, 0] : Fin 2 → Nat) a + S1536x128.size a ≤ S196608x128.size a
  inb_S49152x128_S1536x128_38400_0 : ∀ a, (![38400, 0] : Fin 2 → Nat) a + S1536x128.size a ≤ S49152x128.size a
  inb_S196608x128_S1536x128_0_0 : ∀ a, (![0, 0] : Fin 2 → Nat) a + S1536x128.size a ≤ S196608x128.size a
  inb_S49152x128_S1536x128_39936_0 : ∀ a, (![39936, 0] : Fin 2 → Nat) a + S1536x128.size a ≤ S49152x128.size a
  inb_S196608x128_S1536x128_75264_0 : ∀ a, (![75264, 0] : Fin 2 → Nat) a + S1536x128.size a ≤ S196608x128.size a
  inb_S49152x128_S1536x128_41472_0 : ∀ a, (![41472, 0] : Fin 2 → Nat) a + S1536x128.size a ≤ S49152x128.size a
  inb_S196608x128_S1536x128_105984_0 : ∀ a, (![105984, 0] : Fin 2 → Nat) a + S1536x128.size a ≤ S196608x128.size a
  inb_S49152x128_S1536x128_43008_0 : ∀ a, (![43008, 0] : Fin 2 → Nat) a + S1536x128.size a ≤ S49152x128.size a
  inb_S196608x128_S1536x128_133632_0 : ∀ a, (![133632, 0] : Fin 2 → Nat) a + S1536x128.size a ≤ S196608x128.size a
  inb_S49152x128_S1536x128_46080_0 : ∀ a, (![46080, 0] : Fin 2 → Nat) a + S1536x128.size a ≤ S49152x128.size a
  inb_S196608x128_S1536x128_136704_0 : ∀ a, (![136704, 0] : Fin 2 → Nat) a + S1536x128.size a ≤ S196608x128.size a
  inb_S196608x128_S1536x128_159744_0 : ∀ a, (![159744, 0] : Fin 2 → Nat) a + S1536x128.size a ≤ S196608x128.size a
  inb_S196608x128_S1536x128_115200_0 : ∀ a, (![115200, 0] : Fin 2 → Nat) a + S1536x128.size a ≤ S196608x128.size a
  inb_S196608x128_S1536x128_138240_0 : ∀ a, (![138240, 0] : Fin 2 → Nat) a + S1536x128.size a ≤ S196608x128.size a
  shapeCasts_S49152x128_S32x3x256x256 : S49152x128.ShapeCasts S32x3x256x256
  shapeCasts_S196608x128_S128x3x256x256 : S196608x128.ShapeCasts S128x3x256x256
  hcc0_scratch1 : 0 + S4.numel ≤ 24
  hcc0_scratch2 : 4 + S4.numel ≤ 24
  hcc1_scratch1 : 8 + S8.numel ≤ 24
  hcc1_scratch2 : 16 + S8.numel ≤ 24
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 22), ∀ a, (k0_off1 i (k0_off1_at r)) a + S48x128.size a ≤ S196608x128.size a
  k0_off2_inb : ∀ i : grid0.Coords, ∀ (r : Fin 32), ∀ a, (k0_off2 i (BitVec.ofNat 32 (1536 * r.val))) a + S48x128.size a ≤ S49152x128.size a

variable [Facts₀]

abbrev cc0_scratch1 : DmaSems sig S4 := SemArray.consecutive 0 S4 hcc0_scratch1
abbrev cc0_scratch2 : DmaSems sig S4 := SemArray.consecutive 4 S4 hcc0_scratch2
abbrev cc1_scratch1 : DmaSems sig S8 := SemArray.consecutive 8 S8 hcc1_scratch1
abbrev cc1_scratch2 : DmaSems sig S8 := SemArray.consecutive 16 S8 hcc1_scratch2

abbrev win1 : Fin 0 → Pipeline.Window sig grid1 := Fin.elim0
abbrev spec1 : Fin 0 → Pipeline.WinSpec sig grid1.rank := Fin.elim0

class Facts : Prop extends Facts₀ where

variable [Facts]
-- ==== ReferenceIdeal.lean ====
abbrev S32x3x256x256 : Shape := ⟨4, ![32, 3, 256, 256]⟩
abbrev S128x3x256x256 : Shape := ⟨4, ![128, 3, 256, 256]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S32 : Shape := ⟨1, ![32]⟩
abbrev S128 : Shape := ⟨1, ![128]⟩
abbrev S32x1x1x1 : Shape := ⟨4, ![32, 1, 1, 1]⟩
abbrev S32x1 : Shape := ⟨2, ![32, 1]⟩

abbrev nBuf : Space → Nat
  | .hbm => 1021
  | .vmem => 0
  | .smem => 0
  | _ => 0

abbrev hbmTy0_0 (i : Nat) : BufTy := match i % 128 with
  | 0 => ⟨S32x3x256x256, .f32⟩
  | 1 => ⟨S128x3x256x256, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S2, .i64⟩
  | 17 => ⟨S_, .i64⟩
  | 18 => ⟨S2, .i64⟩
  | 19 => ⟨S2, .i64⟩
  | 20 => ⟨S_, .i64⟩
  | 21 => ⟨S2, .i64⟩
  | 22 => ⟨S2, .i64⟩
  | 23 => ⟨S2, .i32⟩
  | 24 => ⟨S2, .i32⟩
  | 25 => ⟨S_, .i32⟩
  | 26 => ⟨S_, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S32x3x256x256, .f32⟩

abbrev hbmTy0_1 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2x1, .i32⟩
  | 120 => ⟨S2x1, .i32⟩
  | 121 => ⟨S2x2, .i32⟩
  | 122 => ⟨S1x2, .i32⟩
  | 123 => ⟨S2, .i32⟩
  | 124 => ⟨S1x2, .i32⟩
  | 125 => ⟨S2, .i32⟩
  | 126 => ⟨S_, .f32⟩
  | 127 => ⟨S_, .f32⟩
  | _ => ⟨S32x3x256x256, .f32⟩

abbrev hbmTy0_2 (i : Nat) : BufTy := match i % 128 with
  | 0 => ⟨S_, .f32⟩
  | 1 => ⟨S_, .f32⟩
  | 2 => ⟨S1, .f32⟩
  | 3 => ⟨S1, .f32⟩
  | 4 => ⟨S1, .i32⟩
  | 5 => ⟨S_, .i32⟩
  | 6 => ⟨S1, .i32⟩
  | 7 => ⟨S_, .i32⟩
  | 8 => ⟨S32, .i64⟩
  | 9 => ⟨S_, .i64⟩
  | 10 => ⟨S32, .i64⟩
  | 11 => ⟨S32, .i64⟩
  | 12 => ⟨S_, .i64⟩
  | 13 => ⟨S32, .i64⟩
  | 14 => ⟨S32, .i64⟩
  | 15 => ⟨S32, .i32⟩
  | 16 => ⟨S32, .i32⟩
  | 17 => ⟨S_, .i32⟩
  | 18 => ⟨S_, .i32⟩
  | 19 => ⟨S_, .i32⟩
  | 20 => ⟨S32, .i32⟩
  | 21 => ⟨S32, .i32⟩
  | 22 => ⟨S32, .i32⟩
  | 23 => ⟨S32, .i32⟩
  | 24 => ⟨S32, .i32⟩
  | 25 => ⟨S_, .i32⟩
  | 26 => ⟨S32, .i32⟩
  | 27 => ⟨S32, .i32⟩
  | 28 => ⟨S_, .i32⟩
  | 29 => ⟨S32, .i32⟩
  | 30 => ⟨S32, .i32⟩
  | 31 => ⟨S32, .i32⟩
  | 32 => ⟨S32, .i32⟩
  | 33 => ⟨S32, .i32⟩
  | 34 => ⟨S_, .i32⟩
  | 35 => ⟨S32, .i32⟩
  | 36 => ⟨S32, .i32⟩
  | 37 => ⟨S_, .i32⟩
  | 38 => ⟨S32, .i32⟩
  | 39 => ⟨S32, .i32⟩
  | 40 => ⟨S32, .i32⟩
  | 41 => ⟨S32, .i32⟩
  | 42 => ⟨S32, .i32⟩
  | 43 => ⟨S_, .i32⟩
  | 44 => ⟨S32, .i32⟩
  | 45 => ⟨S32, .i32⟩
  | 46 => ⟨S_, .i32⟩
  | 47 => ⟨S32, .i32⟩
  | 48 => ⟨S32, .i32⟩
  | 49 => ⟨S32, .i32⟩
  | 50 => ⟨S32, .i32⟩
  | 51 => ⟨S32, .i32⟩
  | 52 => ⟨S_, .i32⟩
  | 53 => ⟨S32, .i32⟩
  | 54 => ⟨S32, .i32⟩
  | 55 => ⟨S_, .i32⟩
  | 56 => ⟨S32, .i32⟩
  | 57 => ⟨S32, .i32⟩
  | 58 => ⟨S32, .i32⟩
  | 59 => ⟨S32, .i32⟩
  | 60 => ⟨S32, .i32⟩
  | 61 => ⟨S32, .i32⟩
  | 62 => ⟨S32, .i32⟩
  | 63 => ⟨S32, .i32⟩
  | 64 => ⟨S_, .i32⟩
  | 65 => ⟨S32, .i32⟩
  | 66 => ⟨S32, .i32⟩
  | 67 => ⟨S32, .i32⟩
  | 68 => ⟨S_, .i32⟩
  | 69 => ⟨S32, .i32⟩
  | 70 => ⟨S32, .i32⟩
  | 71 => ⟨S_, .i32⟩
  | 72 => ⟨S32, .i32⟩
  | 73 => ⟨S32, .i32⟩
  | 74 => ⟨S32, .i32⟩
  | 75 => ⟨S32, .i32⟩
  | 76 => ⟨S32, .i32⟩
  | 77 => ⟨S_, .i32⟩
  | 78 => ⟨S32, .i32⟩
  | 79 => ⟨S32, .i32⟩
  | 80 => ⟨S_, .i32⟩
  | 81 => ⟨S32, .i32⟩
  | 82 => ⟨S32, .i32⟩
  | 83 => ⟨S32, .i32⟩
  | 84 => ⟨S32, .i32⟩
  | 85 => ⟨S32, .i32⟩
  | 86 => ⟨S_, .i32⟩
  | 87 => ⟨S32, .i32⟩
  | 88 => ⟨S32, .i32⟩
  | 89 => ⟨S_, .i32⟩
  | 90 => ⟨S32, .i32⟩
  | 91 => ⟨S32, .i32⟩
  | 92 => ⟨S32, .i32⟩
  | 93 => ⟨S32, .i32⟩
  | 94 => ⟨S32, .i32⟩
  | 95 => ⟨S_, .i32⟩
  | 96 => ⟨S32, .i32⟩
  | 97 => ⟨S32, .i32⟩
  | 98 => ⟨S_, .i32⟩
  | 99 => ⟨S32, .i32⟩
  | 100 => ⟨S32, .i32⟩
  | 101 => ⟨S32, .i32⟩
  | 102 => ⟨S32, .i32⟩
  | 103 => ⟨S32, .i32⟩
  | 104 => ⟨S32, .i32⟩
  | 105 => ⟨S32, .i32⟩
  | 106 => ⟨S32, .i32⟩
  | 107 => ⟨S_, .i32⟩
  | 108 => ⟨S32, .i32⟩
  | 109 => ⟨S32, .i32⟩
  | 110 => ⟨S32, .i32⟩
  | 111 => ⟨S_, .i32⟩
  | 112 => ⟨S32, .i32⟩
  | 113 => ⟨S32, .i32⟩
  | 114 => ⟨S_, .i32⟩
  | 115 => ⟨S32, .i32⟩
  | 116 => ⟨S32, .i32⟩
  | 117 => ⟨S32, .i32⟩
  | 118 => ⟨S32, .i32⟩
  | 119 => ⟨S32, .i32⟩
  | 120 => ⟨S_, .i32⟩
  | 121 => ⟨S32, .i32⟩
  | 122 => ⟨S32, .i32⟩
  | 123 => ⟨S_, .i32⟩
  | 124 => ⟨S32, .i32⟩
  | 125 => ⟨S32, .i32⟩
  | 126 => ⟨S32, .i32⟩
  | 127 => ⟨S32, .i32⟩
  | _ => ⟨S32x3x256x256, .f32⟩

abbrev hbmTy0_3 (i : Nat) : BufTy := match i % 128 with
  | 0 => ⟨S32, .i32⟩
  | 1 => ⟨S_, .i32⟩
  | 2 => ⟨S32, .i32⟩
  | 3 => ⟨S32, .i32⟩
  | 4 => ⟨S_, .i32⟩
  | 5 => ⟨S32, .i32⟩
  | 6 => ⟨S32, .i32⟩
  | 7 => ⟨S32, .i32⟩
  | 8 => ⟨S32, .i32⟩
  | 9 => ⟨S32, .i32⟩
  | 10 => ⟨S_, .i32⟩
  | 11 => ⟨S32, .i32⟩
  | 12 => ⟨S32, .i32⟩
  | 13 => ⟨S_, .i32⟩
  | 14 => ⟨S32, .i32⟩
  | 15 => ⟨S32, .i32⟩
  | 16 => ⟨S32, .i32⟩
  | 17 => ⟨S32, .i32⟩
  | 18 => ⟨S32, .i32⟩
  | 19 => ⟨S32, .i32⟩
  | 20 => ⟨S32, .i32⟩
  | 21 => ⟨S32, .i32⟩
  | 22 => ⟨S_, .i32⟩
  | 23 => ⟨S32, .i32⟩
  | 24 => ⟨S32, .i32⟩
  | 25 => ⟨S32, .i32⟩
  | 26 => ⟨S_, .i32⟩
  | 27 => ⟨S32, .i32⟩
  | 28 => ⟨S32, .i32⟩
  | 29 => ⟨S_, .i32⟩
  | 30 => ⟨S32, .i32⟩
  | 31 => ⟨S32, .i32⟩
  | 32 => ⟨S32, .i32⟩
  | 33 => ⟨S32, .i32⟩
  | 34 => ⟨S32, .i32⟩
  | 35 => ⟨S_, .i32⟩
  | 36 => ⟨S32, .i32⟩
  | 37 => ⟨S32, .i32⟩
  | 38 => ⟨S_, .i32⟩
  | 39 => ⟨S32, .i32⟩
  | 40 => ⟨S32, .i32⟩
  | 41 => ⟨S32, .i32⟩
  | 42 => ⟨S32, .i32⟩
  | 43 => ⟨S32, .i32⟩
  | 44 => ⟨S_, .i32⟩
  | 45 => ⟨S32, .i32⟩
  | 46 => ⟨S32, .i32⟩
  | 47 => ⟨S_, .i32⟩
  | 48 => ⟨S32, .i32⟩
  | 49 => ⟨S32, .i32⟩
  | 50 => ⟨S32, .i32⟩
  | 51 => ⟨S32, .i32⟩
  | 52 => ⟨S32, .i32⟩
  | 53 => ⟨S_, .i32⟩
  | 54 => ⟨S32, .i32⟩
  | 55 => ⟨S32, .i32⟩
  | 56 => ⟨S_, .i32⟩
  | 57 => ⟨S32, .i32⟩
  | 58 => ⟨S32, .i32⟩
  | 59 => ⟨S32, .i32⟩
  | 60 => ⟨S32, .i32⟩
  | 61 => ⟨S32, .i32⟩
  | 62 => ⟨S32, .i32⟩
  | 63 => ⟨S32, .i32⟩
  | 64 => ⟨S32, .i32⟩
  | 65 => ⟨S_, .i32⟩
  | 66 => ⟨S32, .i32⟩
  | 67 => ⟨S32, .i32⟩
  | 68 => ⟨S32, .i32⟩
  | 69 => ⟨S_, .i32⟩
  | 70 => ⟨S32, .i32⟩
  | 71 => ⟨S32, .i32⟩
  | 72 => ⟨S_, .i32⟩
  | 73 => ⟨S32, .i32⟩
  | 74 => ⟨S32, .i32⟩
  | 75 => ⟨S32, .i32⟩
  | 76 => ⟨S32, .i32⟩
  | 77 => ⟨S32, .i32⟩
  | 78 => ⟨S_, .i32⟩
  | 79 => ⟨S32, .i32⟩
  | 80 => ⟨S32, .i32⟩
  | 81 => ⟨S_, .i32⟩
  | 82 => ⟨S32, .i32⟩
  | 83 => ⟨S32, .i32⟩
  | 84 => ⟨S32, .i32⟩
  | 85 => ⟨S32, .i32⟩
  | 86 => ⟨S32, .i32⟩
  | 87 => ⟨S_, .i32⟩
  | 88 => ⟨S32, .i32⟩
  | 89 => ⟨S32, .i32⟩
  | 90 => ⟨S_, .i32⟩
  | 91 => ⟨S32, .i32⟩
  | 92 => ⟨S32, .i32⟩
  | 93 => ⟨S32, .i32⟩
  | 94 => ⟨S32, .i32⟩
  | 95 => ⟨S32, .i32⟩
  | 96 => ⟨S_, .i32⟩
  | 97 => ⟨S32, .i32⟩
  | 98 => ⟨S32, .i32⟩
  | 99 => ⟨S_, .i32⟩
  | 100 => ⟨S32, .i32⟩
  | 101 => ⟨S32, .i32⟩
  | 102 => ⟨S32, .i32⟩
  | 103 => ⟨S32, .i32⟩
  | 104 => ⟨S32, .i32⟩
  | 105 => ⟨S32, .i32⟩
  | 106 => ⟨S32, .i32⟩
  | 107 => ⟨S32, .i32⟩
  | 108 => ⟨S_, .i32⟩
  | 109 => ⟨S32, .i32⟩
  | 110 => ⟨S32, .i32⟩
  | 111 => ⟨S32, .i32⟩
  | 112 => ⟨S_, .i32⟩
  | 113 => ⟨S32, .i32⟩
  | 114 => ⟨S32, .i32⟩
  | 115 => ⟨S_, .i32⟩
  | 116 => ⟨S32, .i32⟩
  | 117 => ⟨S32, .i32⟩
  | 118 => ⟨S32, .f32⟩
  | 119 => ⟨S_, .f32⟩
  | 120 => ⟨S32, .f32⟩
  | 121 => ⟨S32, .f32⟩
  | 122 => ⟨S1, .f32⟩
  | 123 => ⟨S32, .f32⟩
  | 124 => ⟨S32, .f32⟩
  | 125 => ⟨S32, .f32⟩
  | 126 => ⟨S32, .f32⟩
  | 127 => ⟨S32, .f32⟩
  | _ => ⟨S32x3x256x256, .f32⟩

abbrev hbmTy0_4 (i : Nat) : BufTy := match i % 128 with
  | 0 => ⟨S32, .f32⟩
  | 1 => ⟨S_, .f32⟩
  | 2 => ⟨S32, .f32⟩
  | 3 => ⟨S32, .i1⟩
  | 4 => ⟨S128, .i32⟩
  | 5 => ⟨S1, .i32⟩
  | 6 => ⟨S_, .i32⟩
  | 7 => ⟨S1, .i32⟩
  | 8 => ⟨S_, .i32⟩
  | 9 => ⟨S2, .i64⟩
  | 10 => ⟨S_, .i64⟩
  | 11 => ⟨S2, .i64⟩
  | 12 => ⟨S2, .i64⟩
  | 13 => ⟨S_, .i64⟩
  | 14 => ⟨S2, .i64⟩
  | 15 => ⟨S2, .i64⟩
  | 16 => ⟨S2, .i32⟩
  | 17 => ⟨S2, .i32⟩
  | 18 => ⟨S_, .i32⟩
  | 19 => ⟨S_, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S32x3x256x256, .f32⟩

abbrev hbmTy0_5 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S2x1, .i32⟩
  | 113 => ⟨S2x1, .i32⟩
  | 114 => ⟨S2x2, .i32⟩
  | 115 => ⟨S1x2, .i32⟩
  | 116 => ⟨S2, .i32⟩
  | 117 => ⟨S1x2, .i32⟩
  | 118 => ⟨S2, .i32⟩
  | 119 => ⟨S1, .i32⟩
  | 120 => ⟨S_, .i32⟩
  | 121 => ⟨S1, .i32⟩
  | 122 => ⟨S_, .i32⟩
  | 123 => ⟨S128, .i64⟩
  | 124 => ⟨S_, .i64⟩
  | 125 => ⟨S128, .i64⟩
  | 126 => ⟨S128, .i64⟩
  | 127 => ⟨S_, .i64⟩
  | _ => ⟨S32x3x256x256, .f32⟩

abbrev hbmTy0_6 (i : Nat) : BufTy := match i % 128 with
  | 0 => ⟨S128, .i64⟩
  | 1 => ⟨S128, .i64⟩
  | 2 => ⟨S128, .i32⟩
  | 3 => ⟨S128, .i32⟩
  | 4 => ⟨S_, .i32⟩
  | 5 => ⟨S_, .i32⟩
  | 6 => ⟨S_, .i32⟩
  | 7 => ⟨S128, .i32⟩
  | 8 => ⟨S128, .i32⟩
  | 9 => ⟨S128, .i32⟩
  | 10 => ⟨S128, .i32⟩
  | 11 => ⟨S128, .i32⟩
  | 12 => ⟨S_, .i32⟩
  | 13 => ⟨S128, .i32⟩
  | 14 => ⟨S128, .i32⟩
  | 15 => ⟨S_, .i32⟩
  | 16 => ⟨S128, .i32⟩
  | 17 => ⟨S128, .i32⟩
  | 18 => ⟨S128, .i32⟩
  | 19 => ⟨S128, .i32⟩
  | 20 => ⟨S128, .i32⟩
  | 21 => ⟨S_, .i32⟩
  | 22 => ⟨S128, .i32⟩
  | 23 => ⟨S128, .i32⟩
  | 24 => ⟨S_, .i32⟩
  | 25 => ⟨S128, .i32⟩
  | 26 => ⟨S128, .i32⟩
  | 27 => ⟨S128, .i32⟩
  | 28 => ⟨S128, .i32⟩
  | 29 => ⟨S128, .i32⟩
  | 30 => ⟨S_, .i32⟩
  | 31 => ⟨S128, .i32⟩
  | 32 => ⟨S128, .i32⟩
  | 33 => ⟨S_, .i32⟩
  | 34 => ⟨S128, .i32⟩
  | 35 => ⟨S128, .i32⟩
  | 36 => ⟨S128, .i32⟩
  | 37 => ⟨S128, .i32⟩
  | 38 => ⟨S128, .i32⟩
  | 39 => ⟨S_, .i32⟩
  | 40 => ⟨S128, .i32⟩
  | 41 => ⟨S128, .i32⟩
  | 42 => ⟨S_, .i32⟩
  | 43 => ⟨S128, .i32⟩
  | 44 => ⟨S128, .i32⟩
  | 45 => ⟨S128, .i32⟩
  | 46 => ⟨S128, .i32⟩
  | 47 => ⟨S128, .i32⟩
  | 48 => ⟨S128, .i32⟩
  | 49 => ⟨S128, .i32⟩
  | 50 => ⟨S128, .i32⟩
  | 51 => ⟨S_, .i32⟩
  | 52 => ⟨S128, .i32⟩
  | 53 => ⟨S128, .i32⟩
  | 54 => ⟨S128, .i32⟩
  | 55 => ⟨S_, .i32⟩
  | 56 => ⟨S128, .i32⟩
  | 57 => ⟨S128, .i32⟩
  | 58 => ⟨S_, .i32⟩
  | 59 => ⟨S128, .i32⟩
  | 60 => ⟨S128, .i32⟩
  | 61 => ⟨S128, .i32⟩
  | 62 => ⟨S128, .i32⟩
  | 63 => ⟨S128, .i32⟩
  | 64 => ⟨S_, .i32⟩
  | 65 => ⟨S128, .i32⟩
  | 66 => ⟨S128, .i32⟩
  | 67 => ⟨S_, .i32⟩
  | 68 => ⟨S128, .i32⟩
  | 69 => ⟨S128, .i32⟩
  | 70 => ⟨S128, .i32⟩
  | 71 => ⟨S128, .i32⟩
  | 72 => ⟨S128, .i32⟩
  | 73 => ⟨S_, .i32⟩
  | 74 => ⟨S128, .i32⟩
  | 75 => ⟨S128, .i32⟩
  | 76 => ⟨S_, .i32⟩
  | 77 => ⟨S128, .i32⟩
  | 78 => ⟨S128, .i32⟩
  | 79 => ⟨S128, .i32⟩
  | 80 => ⟨S128, .i32⟩
  | 81 => ⟨S128, .i32⟩
  | 82 => ⟨S_, .i32⟩
  | 83 => ⟨S128, .i32⟩
  | 84 => ⟨S128, .i32⟩
  | 85 => ⟨S_, .i32⟩
  | 86 => ⟨S128, .i32⟩
  | 87 => ⟨S128, .i32⟩
  | 88 => ⟨S128, .i32⟩
  | 89 => ⟨S128, .i32⟩
  | 90 => ⟨S128, .i32⟩
  | 91 => ⟨S128, .i32⟩
  | 92 => ⟨S128, .i32⟩
  | 93 => ⟨S128, .i32⟩
  | 94 => ⟨S_, .i32⟩
  | 95 => ⟨S128, .i32⟩
  | 96 => ⟨S128, .i32⟩
  | 97 => ⟨S128, .i32⟩
  | 98 => ⟨S_, .i32⟩
  | 99 => ⟨S128, .i32⟩
  | 100 => ⟨S128, .i32⟩
  | 101 => ⟨S_, .i32⟩
  | 102 => ⟨S128, .i32⟩
  | 103 => ⟨S128, .i32⟩
  | 104 => ⟨S128, .i32⟩
  | 105 => ⟨S128, .i32⟩
  | 106 => ⟨S128, .i32⟩
  | 107 => ⟨S_, .i32⟩
  | 108 => ⟨S128, .i32⟩
  | 109 => ⟨S128, .i32⟩
  | 110 => ⟨S_, .i32⟩
  | 111 => ⟨S128, .i32⟩
  | 112 => ⟨S128, .i32⟩
  | 113 => ⟨S128, .i32⟩
  | 114 => ⟨S128, .i32⟩
  | 115 => ⟨S128, .i32⟩
  | 116 => ⟨S_, .i32⟩
  | 117 => ⟨S128, .i32⟩
  | 118 => ⟨S128, .i32⟩
  | 119 => ⟨S_, .i32⟩
  | 120 => ⟨S128, .i32⟩
  | 121 => ⟨S128, .i32⟩
  | 122 => ⟨S128, .i32⟩
  | 123 => ⟨S128, .i32⟩
  | 124 => ⟨S128, .i32⟩
  | 125 => ⟨S_, .i32⟩
  | 126 => ⟨S128, .i32⟩
  | 127 => ⟨S128, .i32⟩
  | _ => ⟨S32x3x256x256, .f32⟩

abbrev hbmTy0_7 (i : Nat) : BufTy := match i % 128 with
  | 0 => ⟨S_, .i32⟩
  | 1 => ⟨S128, .i32⟩
  | 2 => ⟨S128, .i32⟩
  | 3 => ⟨S128, .i32⟩
  | 4 => ⟨S128, .i32⟩
  | 5 => ⟨S128, .i32⟩
  | 6 => ⟨S128, .i32⟩
  | 7 => ⟨S128, .i32⟩
  | 8 => ⟨S128, .i32⟩
  | 9 => ⟨S_, .i32⟩
  | 10 => ⟨S128, .i32⟩
  | 11 => ⟨S128, .i32⟩
  | 12 => ⟨S128, .i32⟩
  | 13 => ⟨S_, .i32⟩
  | 14 => ⟨S128, .i32⟩
  | 15 => ⟨S128, .i32⟩
  | 16 => ⟨S_, .i32⟩
  | 17 => ⟨S128, .i32⟩
  | 18 => ⟨S128, .i32⟩
  | 19 => ⟨S128, .i32⟩
  | 20 => ⟨S128, .i32⟩
  | 21 => ⟨S128, .i32⟩
  | 22 => ⟨S_, .i32⟩
  | 23 => ⟨S128, .i32⟩
  | 24 => ⟨S128, .i32⟩
  | 25 => ⟨S_, .i32⟩
  | 26 => ⟨S128, .i32⟩
  | 27 => ⟨S128, .i32⟩
  | 28 => ⟨S128, .i32⟩
  | 29 => ⟨S128, .i32⟩
  | 30 => ⟨S128, .i32⟩
  | 31 => ⟨S_, .i32⟩
  | 32 => ⟨S128, .i32⟩
  | 33 => ⟨S128, .i32⟩
  | 34 => ⟨S_, .i32⟩
  | 35 => ⟨S128, .i32⟩
  | 36 => ⟨S128, .i32⟩
  | 37 => ⟨S128, .i32⟩
  | 38 => ⟨S128, .i32⟩
  | 39 => ⟨S128, .i32⟩
  | 40 => ⟨S_, .i32⟩
  | 41 => ⟨S128, .i32⟩
  | 42 => ⟨S128, .i32⟩
  | 43 => ⟨S_, .i32⟩
  | 44 => ⟨S128, .i32⟩
  | 45 => ⟨S128, .i32⟩
  | 46 => ⟨S128, .i32⟩
  | 47 => ⟨S128, .i32⟩
  | 48 => ⟨S128, .i32⟩
  | 49 => ⟨S128, .i32⟩
  | 50 => ⟨S128, .i32⟩
  | 51 => ⟨S128, .i32⟩
  | 52 => ⟨S_, .i32⟩
  | 53 => ⟨S128, .i32⟩
  | 54 => ⟨S128, .i32⟩
  | 55 => ⟨S128, .i32⟩
  | 56 => ⟨S_, .i32⟩
  | 57 => ⟨S128, .i32⟩
  | 58 => ⟨S128, .i32⟩
  | 59 => ⟨S_, .i32⟩
  | 60 => ⟨S128, .i32⟩
  | 61 => ⟨S128, .i32⟩
  | 62 => ⟨S128, .i32⟩
  | 63 => ⟨S128, .i32⟩
  | 64 => ⟨S128, .i32⟩
  | 65 => ⟨S_, .i32⟩
  | 66 => ⟨S128, .i32⟩
  | 67 => ⟨S128, .i32⟩
  | 68 => ⟨S_, .i32⟩
  | 69 => ⟨S128, .i32⟩
  | 70 => ⟨S128, .i32⟩
  | 71 => ⟨S128, .i32⟩
  | 72 => ⟨S128, .i32⟩
  | 73 => ⟨S128, .i32⟩
  | 74 => ⟨S_, .i32⟩
  | 75 => ⟨S128, .i32⟩
  | 76 => ⟨S128, .i32⟩
  | 77 => ⟨S_, .i32⟩
  | 78 => ⟨S128, .i32⟩
  | 79 => ⟨S128, .i32⟩
  | 80 => ⟨S128, .i32⟩
  | 81 => ⟨S128, .i32⟩
  | 82 => ⟨S128, .i32⟩
  | 83 => ⟨S_, .i32⟩
  | 84 => ⟨S128, .i32⟩
  | 85 => ⟨S128, .i32⟩
  | 86 => ⟨S_, .i32⟩
  | 87 => ⟨S128, .i32⟩
  | 88 => ⟨S128, .i32⟩
  | 89 => ⟨S128, .i32⟩
  | 90 => ⟨S128, .i32⟩
  | 91 => ⟨S128, .i32⟩
  | 92 => ⟨S128, .i32⟩
  | 93 => ⟨S128, .i32⟩
  | 94 => ⟨S128, .i32⟩
  | 95 => ⟨S_, .i32⟩
  | 96 => ⟨S128, .i32⟩
  | 97 => ⟨S128, .i32⟩
  | 98 => ⟨S128, .i32⟩
  | 99 => ⟨S128, .i32⟩
  | 100 => ⟨S128, .i32⟩
  | 101 => ⟨S32, .i32⟩
  | 102 => ⟨S32x1x1x1, .i1⟩
  | 103 => ⟨S_, .i32⟩
  | 104 => ⟨S32, .i32⟩
  | 105 => ⟨S32, .i1⟩
  | 106 => ⟨S_, .i32⟩
  | 107 => ⟨S32, .i32⟩
  | 108 => ⟨S32, .i32⟩
  | 109 => ⟨S32, .i32⟩
  | 110 => ⟨S32x1, .i32⟩
  | 111 => ⟨S32x3x256x256, .f32⟩
  | 112 => ⟨S32x3x256x256, .i1⟩
  | 113 => ⟨S32x3x256x256, .f32⟩
  | 114 => ⟨S32x3x256x256, .i1⟩
  | 115 => ⟨S32x3x256x256, .f32⟩
  | 116 => ⟨S_, .i32⟩
  | 117 => ⟨S32, .i32⟩
  | 118 => ⟨S32, .i1⟩
  | 119 => ⟨S_, .i32⟩
  | 120 => ⟨S32, .i32⟩
  | 121 => ⟨S32, .i32⟩
  | 122 => ⟨S32, .i32⟩
  | 123 => ⟨S32x1, .i32⟩
  | 124 => ⟨S128x3x256x256, .f32⟩
  | _ => ⟨S32x3x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S32x3x256x256, .f32⟩

abbrev bufTy : (tb : Table) → Fin (tcTables nBuf tb) → BufTy
  | .hbm, ⟨i, _⟩ => hbmTy i
  | _, _ => ⟨S32x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c : Ref sig .tc := ⟨.hbm, 17, rfl⟩
abbrev main_call0_v5 : Ref sig .tc := ⟨.hbm, 18, rfl⟩
abbrev main_call0_v6 : Ref sig .tc := ⟨.hbm, 19, rfl⟩
abbrev main_call0_c_0 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_call0_v12 : Ref sig .tc := ⟨.hbm, 247, rfl⟩
abbrev main_call0_v13 : Ref sig .tc := ⟨.hbm, 248, rfl⟩
abbrev main_v7 : Ref sig .tc := ⟨.hbm, 249, rfl⟩
abbrev main_v8 : Ref sig .tc := ⟨.hbm, 250, rfl⟩
abbrev main_v9 : Ref sig .tc := ⟨.hbm, 251, rfl⟩
abbrev main_v10 : Ref sig .tc := ⟨.hbm, 252, rfl⟩
abbrev main_v11 : Ref sig .tc := ⟨.hbm, 253, rfl⟩
abbrev main_cst : Ref sig .tc := ⟨.hbm, 254, rfl⟩
abbrev main_cst_2 : Ref sig .tc := ⟨.hbm, 255, rfl⟩
abbrev main_call1_v0 : Ref sig .tc := ⟨.hbm, 256, rfl⟩
abbrev main_call1_v1 : Ref sig .tc := ⟨.hbm, 257, rfl⟩
abbrev main_call1_v2 : Ref sig .tc := ⟨.hbm, 258, rfl⟩
abbrev main_call1_v3 : Ref sig .tc := ⟨.hbm, 259, rfl⟩
abbrev main_call1_v4 : Ref sig .tc := ⟨.hbm, 260, rfl⟩
abbrev main_call1_v5 : Ref sig .tc := ⟨.hbm, 261, rfl⟩
abbrev main_call1_v6 : Ref sig .tc := ⟨.hbm, 262, rfl⟩
abbrev main_call1_v7 : Ref sig .tc := ⟨.hbm, 263, rfl⟩
abbrev main_call1_v8 : Ref sig .tc := ⟨.hbm, 264, rfl⟩
abbrev main_call1_c : Ref sig .tc := ⟨.hbm, 265, rfl⟩
abbrev main_call1_v9 : Ref sig .tc := ⟨.hbm, 266, rfl⟩
abbrev main_call1_v10 : Ref sig .tc := ⟨.hbm, 267, rfl⟩
abbrev main_call1_c_0 : Ref sig .tc := ⟨.hbm, 268, rfl⟩
abbrev main_call1_v11 : Ref sig .tc := ⟨.hbm, 269, rfl⟩
abbrev main_call1_v12 : Ref sig .tc := ⟨.hbm, 270, rfl⟩
abbrev main_call1_v13 : Ref sig .tc := ⟨.hbm, 271, rfl⟩
abbrev main_call1_v14 : Ref sig .tc := ⟨.hbm, 272, rfl⟩
abbrev main_call1_call0_v0 : Ref sig .tc := ⟨.hbm, 273, rfl⟩
abbrev main_call1_call0_c : Ref sig .tc := ⟨.hbm, 274, rfl⟩
abbrev main_call1_call0_v1 : Ref sig .tc := ⟨.hbm, 275, rfl⟩
abbrev main_call1_call0_v2 : Ref sig .tc := ⟨.hbm, 276, rfl⟩
abbrev main_call1_call0_v3 : Ref sig .tc := ⟨.hbm, 277, rfl⟩
abbrev main_call1_call0_v4 : Ref sig .tc := ⟨.hbm, 278, rfl⟩
abbrev main_call1_call0_v5 : Ref sig .tc := ⟨.hbm, 279, rfl⟩
abbrev main_call1_call0_v6 : Ref sig .tc := ⟨.hbm, 280, rfl⟩
abbrev main_call1_call0_c_0 : Ref sig .tc := ⟨.hbm, 281, rfl⟩
abbrev main_call1_call0_v7 : Ref sig .tc := ⟨.hbm, 282, rfl⟩
abbrev main_call1_call0_v8 : Ref sig .tc := ⟨.hbm, 283, rfl⟩
abbrev main_call1_call0_c_1 : Ref sig .tc := ⟨.hbm, 284, rfl⟩
abbrev main_call1_call0_v9 : Ref sig .tc := ⟨.hbm, 285, rfl⟩
abbrev main_call1_call0_v10 : Ref sig .tc := ⟨.hbm, 286, rfl⟩
abbrev main_call1_call0_v11 : Ref sig .tc := ⟨.hbm, 287, rfl⟩
abbrev main_call1_call0_v12 : Ref sig .tc := ⟨.hbm, 288, rfl⟩
abbrev main_call1_call0_v13 : Ref sig .tc := ⟨.hbm, 289, rfl⟩
abbrev main_call1_call0_c_2 : Ref sig .tc := ⟨.hbm, 290, rfl⟩
abbrev main_call1_call0_v14 : Ref sig .tc := ⟨.hbm, 291, rfl⟩
abbrev main_call1_call0_v15 : Ref sig .tc := ⟨.hbm, 292, rfl⟩
abbrev main_call1_call0_c_3 : Ref sig .tc := ⟨.hbm, 293, rfl⟩
abbrev main_call1_call0_v16 : Ref sig .tc := ⟨.hbm, 294, rfl⟩
abbrev main_call1_call0_v17 : Ref sig .tc := ⟨.hbm, 295, rfl⟩
abbrev main_call1_call0_v18 : Ref sig .tc := ⟨.hbm, 296, rfl⟩
abbrev main_call1_call0_v19 : Ref sig .tc := ⟨.hbm, 297, rfl⟩
abbrev main_call1_call0_v20 : Ref sig .tc := ⟨.hbm, 298, rfl⟩
abbrev main_call1_call0_c_4 : Ref sig .tc := ⟨.hbm, 299, rfl⟩
abbrev main_call1_call0_v21 : Ref sig .tc := ⟨.hbm, 300, rfl⟩
abbrev main_call1_call0_v22 : Ref sig .tc := ⟨.hbm, 301, rfl⟩
abbrev main_call1_call0_c_5 : Ref sig .tc := ⟨.hbm, 302, rfl⟩
abbrev main_call1_call0_v23 : Ref sig .tc := ⟨.hbm, 303, rfl⟩
abbrev main_call1_call0_v24 : Ref sig .tc := ⟨.hbm, 304, rfl⟩
abbrev main_call1_call0_v25 : Ref sig .tc := ⟨.hbm, 305, rfl⟩
abbrev main_call1_call0_v26 : Ref sig .tc := ⟨.hbm, 306, rfl⟩
abbrev main_call1_call0_v27 : Ref sig .tc := ⟨.hbm, 307, rfl⟩
abbrev main_call1_call0_c_6 : Ref sig .tc := ⟨.hbm, 308, rfl⟩
abbrev main_call1_call0_v28 : Ref sig .tc := ⟨.hbm, 309, rfl⟩
abbrev main_call1_call0_v29 : Ref sig .tc := ⟨.hbm, 310, rfl⟩
abbrev main_call1_call0_c_7 : Ref sig .tc := ⟨.hbm, 311, rfl⟩
abbrev main_call1_call0_v30 : Ref sig .tc := ⟨.hbm, 312, rfl⟩
abbrev main_call1_call0_v31 : Ref sig .tc := ⟨.hbm, 313, rfl⟩
abbrev main_call1_call0_v32 : Ref sig .tc := ⟨.hbm, 314, rfl⟩
abbrev main_call1_call0_v33 : Ref sig .tc := ⟨.hbm, 315, rfl⟩
abbrev main_call1_call0_v34 : Ref sig .tc := ⟨.hbm, 316, rfl⟩
abbrev main_call1_call0_v35 : Ref sig .tc := ⟨.hbm, 317, rfl⟩
abbrev main_call1_call0_v36 : Ref sig .tc := ⟨.hbm, 318, rfl⟩
abbrev main_call1_call0_v37 : Ref sig .tc := ⟨.hbm, 319, rfl⟩
abbrev main_call1_call0_c_8 : Ref sig .tc := ⟨.hbm, 320, rfl⟩
abbrev main_call1_call0_v38 : Ref sig .tc := ⟨.hbm, 321, rfl⟩
abbrev main_call1_call0_v39 : Ref sig .tc := ⟨.hbm, 322, rfl⟩
abbrev main_call1_call0_v40 : Ref sig .tc := ⟨.hbm, 323, rfl⟩
abbrev main_call1_call0_c_9 : Ref sig .tc := ⟨.hbm, 324, rfl⟩
abbrev main_call1_call0_v41 : Ref sig .tc := ⟨.hbm, 325, rfl⟩
abbrev main_call1_call0_v42 : Ref sig .tc := ⟨.hbm, 326, rfl⟩
abbrev main_call1_call0_c_10 : Ref sig .tc := ⟨.hbm, 327, rfl⟩
abbrev main_call1_call0_v43 : Ref sig .tc := ⟨.hbm, 328, rfl⟩
abbrev main_call1_call0_v44 : Ref sig .tc := ⟨.hbm, 329, rfl⟩
abbrev main_call1_call0_v45 : Ref sig .tc := ⟨.hbm, 330, rfl⟩
abbrev main_call1_call0_v46 : Ref sig .tc := ⟨.hbm, 331, rfl⟩
abbrev main_call1_call0_v47 : Ref sig .tc := ⟨.hbm, 332, rfl⟩
abbrev main_call1_call0_c_11 : Ref sig .tc := ⟨.hbm, 333, rfl⟩
abbrev main_call1_call0_v48 : Ref sig .tc := ⟨.hbm, 334, rfl⟩
abbrev main_call1_call0_v49 : Ref sig .tc := ⟨.hbm, 335, rfl⟩
abbrev main_call1_call0_c_12 : Ref sig .tc := ⟨.hbm, 336, rfl⟩
abbrev main_call1_call0_v50 : Ref sig .tc := ⟨.hbm, 337, rfl⟩
abbrev main_call1_call0_v51 : Ref sig .tc := ⟨.hbm, 338, rfl⟩
abbrev main_call1_call0_v52 : Ref sig .tc := ⟨.hbm, 339, rfl⟩
abbrev main_call1_call0_v53 : Ref sig .tc := ⟨.hbm, 340, rfl⟩
abbrev main_call1_call0_v54 : Ref sig .tc := ⟨.hbm, 341, rfl⟩
abbrev main_call1_call0_c_13 : Ref sig .tc := ⟨.hbm, 342, rfl⟩
abbrev main_call1_call0_v55 : Ref sig .tc := ⟨.hbm, 343, rfl⟩
abbrev main_call1_call0_v56 : Ref sig .tc := ⟨.hbm, 344, rfl⟩
abbrev main_call1_call0_c_14 : Ref sig .tc := ⟨.hbm, 345, rfl⟩
abbrev main_call1_call0_v57 : Ref sig .tc := ⟨.hbm, 346, rfl⟩
abbrev main_call1_call0_v58 : Ref sig .tc := ⟨.hbm, 347, rfl⟩
abbrev main_call1_call0_v59 : Ref sig .tc := ⟨.hbm, 348, rfl⟩
abbrev main_call1_call0_v60 : Ref sig .tc := ⟨.hbm, 349, rfl⟩
abbrev main_call1_call0_v61 : Ref sig .tc := ⟨.hbm, 350, rfl⟩
abbrev main_call1_call0_c_15 : Ref sig .tc := ⟨.hbm, 351, rfl⟩
abbrev main_call1_call0_v62 : Ref sig .tc := ⟨.hbm, 352, rfl⟩
abbrev main_call1_call0_v63 : Ref sig .tc := ⟨.hbm, 353, rfl⟩
abbrev main_call1_call0_c_16 : Ref sig .tc := ⟨.hbm, 354, rfl⟩
abbrev main_call1_call0_v64 : Ref sig .tc := ⟨.hbm, 355, rfl⟩
abbrev main_call1_call0_v65 : Ref sig .tc := ⟨.hbm, 356, rfl⟩
abbrev main_call1_call0_v66 : Ref sig .tc := ⟨.hbm, 357, rfl⟩
abbrev main_call1_call0_v67 : Ref sig .tc := ⟨.hbm, 358, rfl⟩
abbrev main_call1_call0_v68 : Ref sig .tc := ⟨.hbm, 359, rfl⟩
abbrev main_call1_call0_v69 : Ref sig .tc := ⟨.hbm, 360, rfl⟩
abbrev main_call1_call0_v70 : Ref sig .tc := ⟨.hbm, 361, rfl⟩
abbrev main_call1_call0_v71 : Ref sig .tc := ⟨.hbm, 362, rfl⟩
abbrev main_call1_call0_c_17 : Ref sig .tc := ⟨.hbm, 363, rfl⟩
abbrev main_call1_call0_v72 : Ref sig .tc := ⟨.hbm, 364, rfl⟩
abbrev main_call1_call0_v73 : Ref sig .tc := ⟨.hbm, 365, rfl⟩
abbrev main_call1_call0_v74 : Ref sig .tc := ⟨.hbm, 366, rfl⟩
abbrev main_call1_call0_c_18 : Ref sig .tc := ⟨.hbm, 367, rfl⟩
abbrev main_call1_call0_v75 : Ref sig .tc := ⟨.hbm, 368, rfl⟩
abbrev main_call1_call0_v76 : Ref sig .tc := ⟨.hbm, 369, rfl⟩
abbrev main_call1_call0_c_19 : Ref sig .tc := ⟨.hbm, 370, rfl⟩
abbrev main_call1_call0_v77 : Ref sig .tc := ⟨.hbm, 371, rfl⟩
abbrev main_call1_call0_v78 : Ref sig .tc := ⟨.hbm, 372, rfl⟩
abbrev main_call1_call0_v79 : Ref sig .tc := ⟨.hbm, 373, rfl⟩
abbrev main_call1_call0_v80 : Ref sig .tc := ⟨.hbm, 374, rfl⟩
abbrev main_call1_call0_v81 : Ref sig .tc := ⟨.hbm, 375, rfl⟩
abbrev main_call1_call0_c_20 : Ref sig .tc := ⟨.hbm, 376, rfl⟩
abbrev main_call1_call0_v82 : Ref sig .tc := ⟨.hbm, 377, rfl⟩
abbrev main_call1_call0_v83 : Ref sig .tc := ⟨.hbm, 378, rfl⟩
abbrev main_call1_call0_c_21 : Ref sig .tc := ⟨.hbm, 379, rfl⟩
abbrev main_call1_call0_v84 : Ref sig .tc := ⟨.hbm, 380, rfl⟩
abbrev main_call1_call0_v85 : Ref sig .tc := ⟨.hbm, 381, rfl⟩
abbrev main_call1_call0_v86 : Ref sig .tc := ⟨.hbm, 382, rfl⟩
abbrev main_call1_call0_v87 : Ref sig .tc := ⟨.hbm, 383, rfl⟩
abbrev main_call1_call0_v88 : Ref sig .tc := ⟨.hbm, 384, rfl⟩
abbrev main_call1_call0_c_22 : Ref sig .tc := ⟨.hbm, 385, rfl⟩
abbrev main_call1_call0_v89 : Ref sig .tc := ⟨.hbm, 386, rfl⟩
abbrev main_call1_call0_v90 : Ref sig .tc := ⟨.hbm, 387, rfl⟩
abbrev main_call1_call0_c_23 : Ref sig .tc := ⟨.hbm, 388, rfl⟩
abbrev main_call1_call0_v91 : Ref sig .tc := ⟨.hbm, 389, rfl⟩
abbrev main_call1_call0_v92 : Ref sig .tc := ⟨.hbm, 390, rfl⟩
abbrev main_call1_call0_v93 : Ref sig .tc := ⟨.hbm, 391, rfl⟩
abbrev main_call1_call0_v94 : Ref sig .tc := ⟨.hbm, 392, rfl⟩
abbrev main_call1_call0_v95 : Ref sig .tc := ⟨.hbm, 393, rfl⟩
abbrev main_call1_call0_c_24 : Ref sig .tc := ⟨.hbm, 394, rfl⟩
abbrev main_call1_call0_v96 : Ref sig .tc := ⟨.hbm, 395, rfl⟩
abbrev main_call1_call0_v97 : Ref sig .tc := ⟨.hbm, 396, rfl⟩
abbrev main_call1_call0_c_25 : Ref sig .tc := ⟨.hbm, 397, rfl⟩
abbrev main_call1_call0_v98 : Ref sig .tc := ⟨.hbm, 398, rfl⟩
abbrev main_call1_call0_v99 : Ref sig .tc := ⟨.hbm, 399, rfl⟩
abbrev main_call1_call0_v100 : Ref sig .tc := ⟨.hbm, 400, rfl⟩
abbrev main_call1_call0_v101 : Ref sig .tc := ⟨.hbm, 401, rfl⟩
abbrev main_call1_call0_v102 : Ref sig .tc := ⟨.hbm, 402, rfl⟩
abbrev main_call1_call0_v103 : Ref sig .tc := ⟨.hbm, 403, rfl⟩
abbrev main_call1_call0_v104 : Ref sig .tc := ⟨.hbm, 404, rfl⟩
abbrev main_call1_call0_v105 : Ref sig .tc := ⟨.hbm, 405, rfl⟩
abbrev main_call1_call0_c_26 : Ref sig .tc := ⟨.hbm, 406, rfl⟩
abbrev main_call1_call0_v106 : Ref sig .tc := ⟨.hbm, 407, rfl⟩
abbrev main_call1_call0_v107 : Ref sig .tc := ⟨.hbm, 408, rfl⟩
abbrev main_call1_call0_v108 : Ref sig .tc := ⟨.hbm, 409, rfl⟩
abbrev main_call1_call0_c_27 : Ref sig .tc := ⟨.hbm, 410, rfl⟩
abbrev main_call1_call0_v109 : Ref sig .tc := ⟨.hbm, 411, rfl⟩
abbrev main_call1_call0_v110 : Ref sig .tc := ⟨.hbm, 412, rfl⟩
abbrev main_call1_call0_c_28 : Ref sig .tc := ⟨.hbm, 413, rfl⟩
abbrev main_call1_call0_v111 : Ref sig .tc := ⟨.hbm, 414, rfl⟩
abbrev main_call1_call0_v112 : Ref sig .tc := ⟨.hbm, 415, rfl⟩
abbrev main_call1_call0_v113 : Ref sig .tc := ⟨.hbm, 416, rfl⟩
abbrev main_call1_call0_v114 : Ref sig .tc := ⟨.hbm, 417, rfl⟩
abbrev main_call1_call0_v115 : Ref sig .tc := ⟨.hbm, 418, rfl⟩
abbrev main_call1_call0_c_29 : Ref sig .tc := ⟨.hbm, 419, rfl⟩
abbrev main_call1_call0_v116 : Ref sig .tc := ⟨.hbm, 420, rfl⟩
abbrev main_call1_call0_v117 : Ref sig .tc := ⟨.hbm, 421, rfl⟩
abbrev main_call1_call0_c_30 : Ref sig .tc := ⟨.hbm, 422, rfl⟩
abbrev main_call1_call0_v118 : Ref sig .tc := ⟨.hbm, 423, rfl⟩
abbrev main_call1_call0_v119 : Ref sig .tc := ⟨.hbm, 424, rfl⟩
abbrev main_call1_call0_v120 : Ref sig .tc := ⟨.hbm, 425, rfl⟩
abbrev main_call1_call0_v121 : Ref sig .tc := ⟨.hbm, 426, rfl⟩
abbrev main_call1_call0_v122 : Ref sig .tc := ⟨.hbm, 427, rfl⟩
abbrev main_call1_call0_c_31 : Ref sig .tc := ⟨.hbm, 428, rfl⟩
abbrev main_call1_call0_v123 : Ref sig .tc := ⟨.hbm, 429, rfl⟩
abbrev main_call1_call0_v124 : Ref sig .tc := ⟨.hbm, 430, rfl⟩
abbrev main_call1_call0_c_32 : Ref sig .tc := ⟨.hbm, 431, rfl⟩
abbrev main_call1_call0_v125 : Ref sig .tc := ⟨.hbm, 432, rfl⟩
abbrev main_call1_call0_v126 : Ref sig .tc := ⟨.hbm, 433, rfl⟩
abbrev main_call1_call0_v127 : Ref sig .tc := ⟨.hbm, 434, rfl⟩
abbrev main_call1_call0_v128 : Ref sig .tc := ⟨.hbm, 435, rfl⟩
abbrev main_call1_call0_v129 : Ref sig .tc := ⟨.hbm, 436, rfl⟩
abbrev main_call1_call0_c_33 : Ref sig .tc := ⟨.hbm, 437, rfl⟩
abbrev main_call1_call0_v130 : Ref sig .tc := ⟨.hbm, 438, rfl⟩
abbrev main_call1_call0_v131 : Ref sig .tc := ⟨.hbm, 439, rfl⟩
abbrev main_call1_call0_c_34 : Ref sig .tc := ⟨.hbm, 440, rfl⟩
abbrev main_call1_call0_v132 : Ref sig .tc := ⟨.hbm, 441, rfl⟩
abbrev main_call1_call0_v133 : Ref sig .tc := ⟨.hbm, 442, rfl⟩
abbrev main_call1_call0_v134 : Ref sig .tc := ⟨.hbm, 443, rfl⟩
abbrev main_call1_call0_v135 : Ref sig .tc := ⟨.hbm, 444, rfl⟩
abbrev main_call1_call0_v136 : Ref sig .tc := ⟨.hbm, 445, rfl⟩
abbrev main_call1_call0_v137 : Ref sig .tc := ⟨.hbm, 446, rfl⟩
abbrev main_call1_call0_v138 : Ref sig .tc := ⟨.hbm, 447, rfl⟩
abbrev main_call1_call0_v139 : Ref sig .tc := ⟨.hbm, 448, rfl⟩
abbrev main_call1_call0_c_35 : Ref sig .tc := ⟨.hbm, 449, rfl⟩
abbrev main_call1_call0_v140 : Ref sig .tc := ⟨.hbm, 450, rfl⟩
abbrev main_call1_call0_v141 : Ref sig .tc := ⟨.hbm, 451, rfl⟩
abbrev main_call1_call0_v142 : Ref sig .tc := ⟨.hbm, 452, rfl⟩
abbrev main_call1_call0_c_36 : Ref sig .tc := ⟨.hbm, 453, rfl⟩
abbrev main_call1_call0_v143 : Ref sig .tc := ⟨.hbm, 454, rfl⟩
abbrev main_call1_call0_v144 : Ref sig .tc := ⟨.hbm, 455, rfl⟩
abbrev main_call1_call0_c_37 : Ref sig .tc := ⟨.hbm, 456, rfl⟩
abbrev main_call1_call0_v145 : Ref sig .tc := ⟨.hbm, 457, rfl⟩
abbrev main_call1_call0_v146 : Ref sig .tc := ⟨.hbm, 458, rfl⟩
abbrev main_call1_call0_v147 : Ref sig .tc := ⟨.hbm, 459, rfl⟩
abbrev main_call1_call0_v148 : Ref sig .tc := ⟨.hbm, 460, rfl⟩
abbrev main_call1_call0_v149 : Ref sig .tc := ⟨.hbm, 461, rfl⟩
abbrev main_call1_call0_c_38 : Ref sig .tc := ⟨.hbm, 462, rfl⟩
abbrev main_call1_call0_v150 : Ref sig .tc := ⟨.hbm, 463, rfl⟩
abbrev main_call1_call0_v151 : Ref sig .tc := ⟨.hbm, 464, rfl⟩
abbrev main_call1_call0_c_39 : Ref sig .tc := ⟨.hbm, 465, rfl⟩
abbrev main_call1_call0_v152 : Ref sig .tc := ⟨.hbm, 466, rfl⟩
abbrev main_call1_call0_v153 : Ref sig .tc := ⟨.hbm, 467, rfl⟩
abbrev main_call1_call0_v154 : Ref sig .tc := ⟨.hbm, 468, rfl⟩
abbrev main_call1_call0_v155 : Ref sig .tc := ⟨.hbm, 469, rfl⟩
abbrev main_call1_call0_v156 : Ref sig .tc := ⟨.hbm, 470, rfl⟩
abbrev main_call1_call0_c_40 : Ref sig .tc := ⟨.hbm, 471, rfl⟩
abbrev main_call1_call0_v157 : Ref sig .tc := ⟨.hbm, 472, rfl⟩
abbrev main_call1_call0_v158 : Ref sig .tc := ⟨.hbm, 473, rfl⟩
abbrev main_call1_call0_c_41 : Ref sig .tc := ⟨.hbm, 474, rfl⟩
abbrev main_call1_call0_v159 : Ref sig .tc := ⟨.hbm, 475, rfl⟩
abbrev main_call1_call0_v160 : Ref sig .tc := ⟨.hbm, 476, rfl⟩
abbrev main_call1_call0_v161 : Ref sig .tc := ⟨.hbm, 477, rfl⟩
abbrev main_call1_call0_v162 : Ref sig .tc := ⟨.hbm, 478, rfl⟩
abbrev main_call1_call0_v163 : Ref sig .tc := ⟨.hbm, 479, rfl⟩
abbrev main_call1_call0_c_42 : Ref sig .tc := ⟨.hbm, 480, rfl⟩
abbrev main_call1_call0_v164 : Ref sig .tc := ⟨.hbm, 481, rfl⟩
abbrev main_call1_call0_v165 : Ref sig .tc := ⟨.hbm, 482, rfl⟩
abbrev main_call1_call0_c_43 : Ref sig .tc := ⟨.hbm, 483, rfl⟩
abbrev main_call1_call0_v166 : Ref sig .tc := ⟨.hbm, 484, rfl⟩
abbrev main_call1_call0_v167 : Ref sig .tc := ⟨.hbm, 485, rfl⟩
abbrev main_call1_call0_v168 : Ref sig .tc := ⟨.hbm, 486, rfl⟩
abbrev main_call1_call0_v169 : Ref sig .tc := ⟨.hbm, 487, rfl⟩
abbrev main_call1_call0_v170 : Ref sig .tc := ⟨.hbm, 488, rfl⟩
abbrev main_call1_v15_0 : Ref sig .tc := ⟨.hbm, 489, rfl⟩
abbrev main_call1_call0_v172 : Ref sig .tc := ⟨.hbm, 490, rfl⟩
abbrev main_call1_call0_v173 : Ref sig .tc := ⟨.hbm, 491, rfl⟩
abbrev main_call1_call0_c_44 : Ref sig .tc := ⟨.hbm, 492, rfl⟩
abbrev main_call1_call0_v174 : Ref sig .tc := ⟨.hbm, 493, rfl⟩
abbrev main_call1_v15_1 : Ref sig .tc := ⟨.hbm, 494, rfl⟩
abbrev main_call1_v16 : Ref sig .tc := ⟨.hbm, 495, rfl⟩
abbrev main_call1_c_1 : Ref sig .tc := ⟨.hbm, 496, rfl⟩
abbrev main_call1_v17 : Ref sig .tc := ⟨.hbm, 497, rfl⟩
abbrev main_call1_v18 : Ref sig .tc := ⟨.hbm, 498, rfl⟩
abbrev main_call1_c_2 : Ref sig .tc := ⟨.hbm, 499, rfl⟩
abbrev main_call1_v19 : Ref sig .tc := ⟨.hbm, 500, rfl⟩
abbrev main_call1_v20 : Ref sig .tc := ⟨.hbm, 501, rfl⟩
abbrev main_call1_v21 : Ref sig .tc := ⟨.hbm, 502, rfl⟩
abbrev main_call1_cst : Ref sig .tc := ⟨.hbm, 503, rfl⟩
abbrev main_call1_v22 : Ref sig .tc := ⟨.hbm, 504, rfl⟩
abbrev main_call1_v23 : Ref sig .tc := ⟨.hbm, 505, rfl⟩
abbrev main_call1_v24 : Ref sig .tc := ⟨.hbm, 506, rfl⟩
abbrev main_call1_v25 : Ref sig .tc := ⟨.hbm, 507, rfl⟩
abbrev main_call1_v26 : Ref sig .tc := ⟨.hbm, 508, rfl⟩
abbrev main_call1_v27 : Ref sig .tc := ⟨.hbm, 509, rfl⟩
abbrev main_call1_v28 : Ref sig .tc := ⟨.hbm, 510, rfl⟩
abbrev main_call1_v29 : Ref sig .tc := ⟨.hbm, 511, rfl⟩
abbrev main_v12 : Ref sig .tc := ⟨.hbm, 512, rfl⟩
abbrev main_cst_3 : Ref sig .tc := ⟨.hbm, 513, rfl⟩
abbrev main_v13 : Ref sig .tc := ⟨.hbm, 514, rfl⟩
abbrev main_v14 : Ref sig .tc := ⟨.hbm, 515, rfl⟩
abbrev main_v15 : Ref sig .tc := ⟨.hbm, 516, rfl⟩
abbrev main_call2_call0_v0 : Ref sig .tc := ⟨.hbm, 517, rfl⟩
abbrev main_call2_call0_v1 : Ref sig .tc := ⟨.hbm, 518, rfl⟩
abbrev main_call2_call0_v2 : Ref sig .tc := ⟨.hbm, 519, rfl⟩
abbrev main_call2_call0_v3 : Ref sig .tc := ⟨.hbm, 520, rfl⟩
abbrev main_call2_call0_v4 : Ref sig .tc := ⟨.hbm, 521, rfl⟩
abbrev main_call2_call0_c : Ref sig .tc := ⟨.hbm, 522, rfl⟩
abbrev main_call2_call0_v5 : Ref sig .tc := ⟨.hbm, 523, rfl⟩
abbrev main_call2_call0_v6 : Ref sig .tc := ⟨.hbm, 524, rfl⟩
abbrev main_call2_call0_c_0 : Ref sig .tc := ⟨.hbm, 525, rfl⟩
abbrev main_call2_call0_v7 : Ref sig .tc := ⟨.hbm, 526, rfl⟩
abbrev main_call2_call0_v8 : Ref sig .tc := ⟨.hbm, 527, rfl⟩
abbrev main_call2_call0_v9 : Ref sig .tc := ⟨.hbm, 528, rfl⟩
abbrev main_call2_call0_v10 : Ref sig .tc := ⟨.hbm, 529, rfl⟩
abbrev main_call2_call0_call0_v0 : Ref sig .tc := ⟨.hbm, 530, rfl⟩
abbrev main_call2_call0_call0_c : Ref sig .tc := ⟨.hbm, 531, rfl⟩
abbrev main_call2_call0_call0_v1 : Ref sig .tc := ⟨.hbm, 532, rfl⟩
abbrev main_call2_call0_call0_v2 : Ref sig .tc := ⟨.hbm, 533, rfl⟩
abbrev main_call2_call0_call0_v3 : Ref sig .tc := ⟨.hbm, 534, rfl⟩
abbrev main_call2_call0_call0_v4 : Ref sig .tc := ⟨.hbm, 535, rfl⟩
abbrev main_call2_call0_call0_v5 : Ref sig .tc := ⟨.hbm, 536, rfl⟩
abbrev main_call2_call0_call0_v6 : Ref sig .tc := ⟨.hbm, 537, rfl⟩
abbrev main_call2_call0_call0_c_0 : Ref sig .tc := ⟨.hbm, 538, rfl⟩
abbrev main_call2_call0_call0_v7 : Ref sig .tc := ⟨.hbm, 539, rfl⟩
abbrev main_call2_call0_call0_v8 : Ref sig .tc := ⟨.hbm, 540, rfl⟩
abbrev main_call2_call0_call0_c_1 : Ref sig .tc := ⟨.hbm, 541, rfl⟩
abbrev main_call2_call0_call0_v9 : Ref sig .tc := ⟨.hbm, 542, rfl⟩
abbrev main_call2_call0_call0_v10 : Ref sig .tc := ⟨.hbm, 543, rfl⟩
abbrev main_call2_call0_call0_v11 : Ref sig .tc := ⟨.hbm, 544, rfl⟩
abbrev main_call2_call0_call0_v12 : Ref sig .tc := ⟨.hbm, 545, rfl⟩
abbrev main_call2_call0_call0_v13 : Ref sig .tc := ⟨.hbm, 546, rfl⟩
abbrev main_call2_call0_call0_c_2 : Ref sig .tc := ⟨.hbm, 547, rfl⟩
abbrev main_call2_call0_call0_v14 : Ref sig .tc := ⟨.hbm, 548, rfl⟩
abbrev main_call2_call0_call0_v15 : Ref sig .tc := ⟨.hbm, 549, rfl⟩
abbrev main_call2_call0_call0_c_3 : Ref sig .tc := ⟨.hbm, 550, rfl⟩
abbrev main_call2_call0_call0_v16 : Ref sig .tc := ⟨.hbm, 551, rfl⟩
abbrev main_call2_call0_call0_v17 : Ref sig .tc := ⟨.hbm, 552, rfl⟩
abbrev main_call2_call0_call0_v18 : Ref sig .tc := ⟨.hbm, 553, rfl⟩
abbrev main_call2_call0_call0_v19 : Ref sig .tc := ⟨.hbm, 554, rfl⟩
abbrev main_call2_call0_call0_v20 : Ref sig .tc := ⟨.hbm, 555, rfl⟩
abbrev main_call2_call0_call0_c_4 : Ref sig .tc := ⟨.hbm, 556, rfl⟩
abbrev main_call2_call0_call0_v21 : Ref sig .tc := ⟨.hbm, 557, rfl⟩
abbrev main_call2_call0_call0_v22 : Ref sig .tc := ⟨.hbm, 558, rfl⟩
abbrev main_call2_call0_call0_c_5 : Ref sig .tc := ⟨.hbm, 559, rfl⟩
abbrev main_call2_call0_call0_v23 : Ref sig .tc := ⟨.hbm, 560, rfl⟩
abbrev main_call2_call0_call0_v24 : Ref sig .tc := ⟨.hbm, 561, rfl⟩
abbrev main_call2_call0_call0_v25 : Ref sig .tc := ⟨.hbm, 562, rfl⟩
abbrev main_call2_call0_call0_v26 : Ref sig .tc := ⟨.hbm, 563, rfl⟩
abbrev main_call2_call0_call0_v27 : Ref sig .tc := ⟨.hbm, 564, rfl⟩
abbrev main_call2_call0_call0_c_6 : Ref sig .tc := ⟨.hbm, 565, rfl⟩
abbrev main_call2_call0_call0_v28 : Ref sig .tc := ⟨.hbm, 566, rfl⟩
abbrev main_call2_call0_call0_v29 : Ref sig .tc := ⟨.hbm, 567, rfl⟩
abbrev main_call2_call0_call0_c_7 : Ref sig .tc := ⟨.hbm, 568, rfl⟩
abbrev main_call2_call0_call0_v30 : Ref sig .tc := ⟨.hbm, 569, rfl⟩
abbrev main_call2_call0_call0_v31 : Ref sig .tc := ⟨.hbm, 570, rfl⟩
abbrev main_call2_call0_call0_v32 : Ref sig .tc := ⟨.hbm, 571, rfl⟩
abbrev main_call2_call0_call0_v33 : Ref sig .tc := ⟨.hbm, 572, rfl⟩
abbrev main_call2_call0_call0_v34 : Ref sig .tc := ⟨.hbm, 573, rfl⟩
abbrev main_call2_call0_call0_v35 : Ref sig .tc := ⟨.hbm, 574, rfl⟩
abbrev main_call2_call0_call0_v36 : Ref sig .tc := ⟨.hbm, 575, rfl⟩
abbrev main_call2_call0_call0_v37 : Ref sig .tc := ⟨.hbm, 576, rfl⟩
abbrev main_call2_call0_call0_c_8 : Ref sig .tc := ⟨.hbm, 577, rfl⟩
abbrev main_call2_call0_call0_v38 : Ref sig .tc := ⟨.hbm, 578, rfl⟩
abbrev main_call2_call0_call0_v39 : Ref sig .tc := ⟨.hbm, 579, rfl⟩
abbrev main_call2_call0_call0_v40 : Ref sig .tc := ⟨.hbm, 580, rfl⟩
abbrev main_call2_call0_call0_c_9 : Ref sig .tc := ⟨.hbm, 581, rfl⟩
abbrev main_call2_call0_call0_v41 : Ref sig .tc := ⟨.hbm, 582, rfl⟩
abbrev main_call2_call0_call0_v42 : Ref sig .tc := ⟨.hbm, 583, rfl⟩
abbrev main_call2_call0_call0_c_10 : Ref sig .tc := ⟨.hbm, 584, rfl⟩
abbrev main_call2_call0_call0_v43 : Ref sig .tc := ⟨.hbm, 585, rfl⟩
abbrev main_call2_call0_call0_v44 : Ref sig .tc := ⟨.hbm, 586, rfl⟩
abbrev main_call2_call0_call0_v45 : Ref sig .tc := ⟨.hbm, 587, rfl⟩
abbrev main_call2_call0_call0_v46 : Ref sig .tc := ⟨.hbm, 588, rfl⟩
abbrev main_call2_call0_call0_v47 : Ref sig .tc := ⟨.hbm, 589, rfl⟩
abbrev main_call2_call0_call0_c_11 : Ref sig .tc := ⟨.hbm, 590, rfl⟩
abbrev main_call2_call0_call0_v48 : Ref sig .tc := ⟨.hbm, 591, rfl⟩
abbrev main_call2_call0_call0_v49 : Ref sig .tc := ⟨.hbm, 592, rfl⟩
abbrev main_call2_call0_call0_c_12 : Ref sig .tc := ⟨.hbm, 593, rfl⟩
abbrev main_call2_call0_call0_v50 : Ref sig .tc := ⟨.hbm, 594, rfl⟩
abbrev main_call2_call0_call0_v51 : Ref sig .tc := ⟨.hbm, 595, rfl⟩
abbrev main_call2_call0_call0_v52 : Ref sig .tc := ⟨.hbm, 596, rfl⟩
abbrev main_call2_call0_call0_v53 : Ref sig .tc := ⟨.hbm, 597, rfl⟩
abbrev main_call2_call0_call0_v54 : Ref sig .tc := ⟨.hbm, 598, rfl⟩
abbrev main_call2_call0_call0_c_13 : Ref sig .tc := ⟨.hbm, 599, rfl⟩
abbrev main_call2_call0_call0_v55 : Ref sig .tc := ⟨.hbm, 600, rfl⟩
abbrev main_call2_call0_call0_v56 : Ref sig .tc := ⟨.hbm, 601, rfl⟩
abbrev main_call2_call0_call0_c_14 : Ref sig .tc := ⟨.hbm, 602, rfl⟩
abbrev main_call2_call0_call0_v57 : Ref sig .tc := ⟨.hbm, 603, rfl⟩
abbrev main_call2_call0_call0_v58 : Ref sig .tc := ⟨.hbm, 604, rfl⟩
abbrev main_call2_call0_call0_v59 : Ref sig .tc := ⟨.hbm, 605, rfl⟩
abbrev main_call2_call0_call0_v60 : Ref sig .tc := ⟨.hbm, 606, rfl⟩
abbrev main_call2_call0_call0_v61 : Ref sig .tc := ⟨.hbm, 607, rfl⟩
abbrev main_call2_call0_call0_c_15 : Ref sig .tc := ⟨.hbm, 608, rfl⟩
abbrev main_call2_call0_call0_v62 : Ref sig .tc := ⟨.hbm, 609, rfl⟩
abbrev main_call2_call0_call0_v63 : Ref sig .tc := ⟨.hbm, 610, rfl⟩
abbrev main_call2_call0_call0_c_16 : Ref sig .tc := ⟨.hbm, 611, rfl⟩
abbrev main_call2_call0_call0_v64 : Ref sig .tc := ⟨.hbm, 612, rfl⟩
abbrev main_call2_call0_call0_v65 : Ref sig .tc := ⟨.hbm, 613, rfl⟩
abbrev main_call2_call0_call0_v66 : Ref sig .tc := ⟨.hbm, 614, rfl⟩
abbrev main_call2_call0_call0_v67 : Ref sig .tc := ⟨.hbm, 615, rfl⟩
abbrev main_call2_call0_call0_v68 : Ref sig .tc := ⟨.hbm, 616, rfl⟩
abbrev main_call2_call0_call0_v69 : Ref sig .tc := ⟨.hbm, 617, rfl⟩
abbrev main_call2_call0_call0_v70 : Ref sig .tc := ⟨.hbm, 618, rfl⟩
abbrev main_call2_call0_call0_v71 : Ref sig .tc := ⟨.hbm, 619, rfl⟩
abbrev main_call2_call0_call0_c_17 : Ref sig .tc := ⟨.hbm, 620, rfl⟩
abbrev main_call2_call0_call0_v72 : Ref sig .tc := ⟨.hbm, 621, rfl⟩
abbrev main_call2_call0_call0_v73 : Ref sig .tc := ⟨.hbm, 622, rfl⟩
abbrev main_call2_call0_call0_v74 : Ref sig .tc := ⟨.hbm, 623, rfl⟩
abbrev main_call2_call0_call0_c_18 : Ref sig .tc := ⟨.hbm, 624, rfl⟩
abbrev main_call2_call0_call0_v75 : Ref sig .tc := ⟨.hbm, 625, rfl⟩
abbrev main_call2_call0_call0_v76 : Ref sig .tc := ⟨.hbm, 626, rfl⟩
abbrev main_call2_call0_call0_c_19 : Ref sig .tc := ⟨.hbm, 627, rfl⟩
abbrev main_call2_call0_call0_v77 : Ref sig .tc := ⟨.hbm, 628, rfl⟩
abbrev main_call2_call0_call0_v78 : Ref sig .tc := ⟨.hbm, 629, rfl⟩
abbrev main_call2_call0_call0_v79 : Ref sig .tc := ⟨.hbm, 630, rfl⟩
abbrev main_call2_call0_call0_v80 : Ref sig .tc := ⟨.hbm, 631, rfl⟩
abbrev main_call2_call0_call0_v81 : Ref sig .tc := ⟨.hbm, 632, rfl⟩
abbrev main_call2_call0_call0_c_20 : Ref sig .tc := ⟨.hbm, 633, rfl⟩
abbrev main_call2_call0_call0_v82 : Ref sig .tc := ⟨.hbm, 634, rfl⟩
abbrev main_call2_call0_call0_v83 : Ref sig .tc := ⟨.hbm, 635, rfl⟩
abbrev main_call2_call0_call0_c_21 : Ref sig .tc := ⟨.hbm, 636, rfl⟩
abbrev main_call2_call0_call0_v84 : Ref sig .tc := ⟨.hbm, 637, rfl⟩
abbrev main_call2_call0_call0_v85 : Ref sig .tc := ⟨.hbm, 638, rfl⟩
abbrev main_call2_call0_call0_v86 : Ref sig .tc := ⟨.hbm, 639, rfl⟩
abbrev main_call2_call0_call0_v87 : Ref sig .tc := ⟨.hbm, 640, rfl⟩
abbrev main_call2_call0_call0_v88 : Ref sig .tc := ⟨.hbm, 641, rfl⟩
abbrev main_call2_call0_call0_c_22 : Ref sig .tc := ⟨.hbm, 642, rfl⟩
abbrev main_call2_call0_call0_v89 : Ref sig .tc := ⟨.hbm, 643, rfl⟩
abbrev main_call2_call0_call0_v90 : Ref sig .tc := ⟨.hbm, 644, rfl⟩
abbrev main_call2_call0_call0_c_23 : Ref sig .tc := ⟨.hbm, 645, rfl⟩
abbrev main_call2_call0_call0_v91 : Ref sig .tc := ⟨.hbm, 646, rfl⟩
abbrev main_call2_call0_call0_v92 : Ref sig .tc := ⟨.hbm, 647, rfl⟩
abbrev main_call2_call0_call0_v93 : Ref sig .tc := ⟨.hbm, 648, rfl⟩
abbrev main_call2_call0_call0_v94 : Ref sig .tc := ⟨.hbm, 649, rfl⟩
abbrev main_call2_call0_call0_v95 : Ref sig .tc := ⟨.hbm, 650, rfl⟩
abbrev main_call2_call0_call0_c_24 : Ref sig .tc := ⟨.hbm, 651, rfl⟩
abbrev main_call2_call0_call0_v96 : Ref sig .tc := ⟨.hbm, 652, rfl⟩
abbrev main_call2_call0_call0_v97 : Ref sig .tc := ⟨.hbm, 653, rfl⟩
abbrev main_call2_call0_call0_c_25 : Ref sig .tc := ⟨.hbm, 654, rfl⟩
abbrev main_call2_call0_call0_v98 : Ref sig .tc := ⟨.hbm, 655, rfl⟩
abbrev main_call2_call0_call0_v99 : Ref sig .tc := ⟨.hbm, 656, rfl⟩
abbrev main_call2_call0_call0_v100 : Ref sig .tc := ⟨.hbm, 657, rfl⟩
abbrev main_call2_call0_call0_v101 : Ref sig .tc := ⟨.hbm, 658, rfl⟩
abbrev main_call2_call0_call0_v102 : Ref sig .tc := ⟨.hbm, 659, rfl⟩
abbrev main_call2_call0_call0_v103 : Ref sig .tc := ⟨.hbm, 660, rfl⟩
abbrev main_call2_call0_call0_v104 : Ref sig .tc := ⟨.hbm, 661, rfl⟩
abbrev main_call2_call0_call0_v105 : Ref sig .tc := ⟨.hbm, 662, rfl⟩
abbrev main_call2_call0_call0_c_26 : Ref sig .tc := ⟨.hbm, 663, rfl⟩
abbrev main_call2_call0_call0_v106 : Ref sig .tc := ⟨.hbm, 664, rfl⟩
abbrev main_call2_call0_call0_v107 : Ref sig .tc := ⟨.hbm, 665, rfl⟩
abbrev main_call2_call0_call0_v108 : Ref sig .tc := ⟨.hbm, 666, rfl⟩
abbrev main_call2_call0_call0_c_27 : Ref sig .tc := ⟨.hbm, 667, rfl⟩
abbrev main_call2_call0_call0_v109 : Ref sig .tc := ⟨.hbm, 668, rfl⟩
abbrev main_call2_call0_call0_v110 : Ref sig .tc := ⟨.hbm, 669, rfl⟩
abbrev main_call2_call0_call0_c_28 : Ref sig .tc := ⟨.hbm, 670, rfl⟩
abbrev main_call2_call0_call0_v111 : Ref sig .tc := ⟨.hbm, 671, rfl⟩
abbrev main_call2_call0_call0_v112 : Ref sig .tc := ⟨.hbm, 672, rfl⟩
abbrev main_call2_call0_call0_v113 : Ref sig .tc := ⟨.hbm, 673, rfl⟩
abbrev main_call2_call0_call0_v114 : Ref sig .tc := ⟨.hbm, 674, rfl⟩
abbrev main_call2_call0_call0_v115 : Ref sig .tc := ⟨.hbm, 675, rfl⟩
abbrev main_call2_call0_call0_c_29 : Ref sig .tc := ⟨.hbm, 676, rfl⟩
abbrev main_call2_call0_call0_v116 : Ref sig .tc := ⟨.hbm, 677, rfl⟩
abbrev main_call2_call0_call0_v117 : Ref sig .tc := ⟨.hbm, 678, rfl⟩
abbrev main_call2_call0_call0_c_30 : Ref sig .tc := ⟨.hbm, 679, rfl⟩
abbrev main_call2_call0_call0_v118 : Ref sig .tc := ⟨.hbm, 680, rfl⟩
abbrev main_call2_call0_call0_v119 : Ref sig .tc := ⟨.hbm, 681, rfl⟩
abbrev main_call2_call0_call0_v120 : Ref sig .tc := ⟨.hbm, 682, rfl⟩
abbrev main_call2_call0_call0_v121 : Ref sig .tc := ⟨.hbm, 683, rfl⟩
abbrev main_call2_call0_call0_v122 : Ref sig .tc := ⟨.hbm, 684, rfl⟩
abbrev main_call2_call0_call0_c_31 : Ref sig .tc := ⟨.hbm, 685, rfl⟩
abbrev main_call2_call0_call0_v123 : Ref sig .tc := ⟨.hbm, 686, rfl⟩
abbrev main_call2_call0_call0_v124 : Ref sig .tc := ⟨.hbm, 687, rfl⟩
abbrev main_call2_call0_call0_c_32 : Ref sig .tc := ⟨.hbm, 688, rfl⟩
abbrev main_call2_call0_call0_v125 : Ref sig .tc := ⟨.hbm, 689, rfl⟩
abbrev main_call2_call0_call0_v126 : Ref sig .tc := ⟨.hbm, 690, rfl⟩
abbrev main_call2_call0_call0_v127 : Ref sig .tc := ⟨.hbm, 691, rfl⟩
abbrev main_call2_call0_call0_v128 : Ref sig .tc := ⟨.hbm, 692, rfl⟩
abbrev main_call2_call0_call0_v129 : Ref sig .tc := ⟨.hbm, 693, rfl⟩
abbrev main_call2_call0_call0_c_33 : Ref sig .tc := ⟨.hbm, 694, rfl⟩
abbrev main_call2_call0_call0_v130 : Ref sig .tc := ⟨.hbm, 695, rfl⟩
abbrev main_call2_call0_call0_v131 : Ref sig .tc := ⟨.hbm, 696, rfl⟩
abbrev main_call2_call0_call0_c_34 : Ref sig .tc := ⟨.hbm, 697, rfl⟩
abbrev main_call2_call0_call0_v132 : Ref sig .tc := ⟨.hbm, 698, rfl⟩
abbrev main_call2_call0_call0_v133 : Ref sig .tc := ⟨.hbm, 699, rfl⟩
abbrev main_call2_call0_call0_v134 : Ref sig .tc := ⟨.hbm, 700, rfl⟩
abbrev main_call2_call0_call0_v135 : Ref sig .tc := ⟨.hbm, 701, rfl⟩
abbrev main_call2_call0_call0_v136 : Ref sig .tc := ⟨.hbm, 702, rfl⟩
abbrev main_call2_call0_call0_v137 : Ref sig .tc := ⟨.hbm, 703, rfl⟩
abbrev main_call2_call0_call0_v138 : Ref sig .tc := ⟨.hbm, 704, rfl⟩
abbrev main_call2_call0_call0_v139 : Ref sig .tc := ⟨.hbm, 705, rfl⟩
abbrev main_call2_call0_call0_c_35 : Ref sig .tc := ⟨.hbm, 706, rfl⟩
abbrev main_call2_call0_call0_v140 : Ref sig .tc := ⟨.hbm, 707, rfl⟩
abbrev main_call2_call0_call0_v141 : Ref sig .tc := ⟨.hbm, 708, rfl⟩
abbrev main_call2_call0_call0_v142 : Ref sig .tc := ⟨.hbm, 709, rfl⟩
abbrev main_call2_call0_call0_c_36 : Ref sig .tc := ⟨.hbm, 710, rfl⟩
abbrev main_call2_call0_call0_v143 : Ref sig .tc := ⟨.hbm, 711, rfl⟩
abbrev main_call2_call0_call0_v144 : Ref sig .tc := ⟨.hbm, 712, rfl⟩
abbrev main_call2_call0_call0_c_37 : Ref sig .tc := ⟨.hbm, 713, rfl⟩
abbrev main_call2_call0_call0_v145 : Ref sig .tc := ⟨.hbm, 714, rfl⟩
abbrev main_call2_call0_call0_v146 : Ref sig .tc := ⟨.hbm, 715, rfl⟩
abbrev main_call2_call0_call0_v147 : Ref sig .tc := ⟨.hbm, 716, rfl⟩
abbrev main_call2_call0_call0_v148 : Ref sig .tc := ⟨.hbm, 717, rfl⟩
abbrev main_call2_call0_call0_v149 : Ref sig .tc := ⟨.hbm, 718, rfl⟩
abbrev main_call2_call0_call0_c_38 : Ref sig .tc := ⟨.hbm, 719, rfl⟩
abbrev main_call2_call0_call0_v150 : Ref sig .tc := ⟨.hbm, 720, rfl⟩
abbrev main_call2_call0_call0_v151 : Ref sig .tc := ⟨.hbm, 721, rfl⟩
abbrev main_call2_call0_call0_c_39 : Ref sig .tc := ⟨.hbm, 722, rfl⟩
abbrev main_call2_call0_call0_v152 : Ref sig .tc := ⟨.hbm, 723, rfl⟩
abbrev main_call2_call0_call0_v153 : Ref sig .tc := ⟨.hbm, 724, rfl⟩
abbrev main_call2_call0_call0_v154 : Ref sig .tc := ⟨.hbm, 725, rfl⟩
abbrev main_call2_call0_call0_v155 : Ref sig .tc := ⟨.hbm, 726, rfl⟩
abbrev main_call2_call0_call0_v156 : Ref sig .tc := ⟨.hbm, 727, rfl⟩
abbrev main_call2_call0_call0_c_40 : Ref sig .tc := ⟨.hbm, 728, rfl⟩
abbrev main_call2_call0_call0_v157 : Ref sig .tc := ⟨.hbm, 729, rfl⟩
abbrev main_call2_call0_call0_v158 : Ref sig .tc := ⟨.hbm, 730, rfl⟩
abbrev main_call2_call0_call0_c_41 : Ref sig .tc := ⟨.hbm, 731, rfl⟩
abbrev main_call2_call0_call0_v159 : Ref sig .tc := ⟨.hbm, 732, rfl⟩
abbrev main_call2_call0_call0_v160 : Ref sig .tc := ⟨.hbm, 733, rfl⟩
abbrev main_call2_call0_call0_v161 : Ref sig .tc := ⟨.hbm, 734, rfl⟩
abbrev main_call2_call0_call0_v162 : Ref sig .tc := ⟨.hbm, 735, rfl⟩
abbrev main_call2_call0_call0_v163 : Ref sig .tc := ⟨.hbm, 736, rfl⟩
abbrev main_call2_call0_call0_c_42 : Ref sig .tc := ⟨.hbm, 737, rfl⟩
abbrev main_call2_call0_call0_v164 : Ref sig .tc := ⟨.hbm, 738, rfl⟩
abbrev main_call2_call0_call0_v165 : Ref sig .tc := ⟨.hbm, 739, rfl⟩
abbrev main_call2_call0_call0_c_43 : Ref sig .tc := ⟨.hbm, 740, rfl⟩
abbrev main_call2_call0_call0_v166 : Ref sig .tc := ⟨.hbm, 741, rfl⟩
abbrev main_call2_call0_call0_v167 : Ref sig .tc := ⟨.hbm, 742, rfl⟩
abbrev main_call2_call0_call0_v168 : Ref sig .tc := ⟨.hbm, 743, rfl⟩
abbrev main_call2_call0_call0_v169 : Ref sig .tc := ⟨.hbm, 744, rfl⟩
abbrev main_call2_call0_call0_v170 : Ref sig .tc := ⟨.hbm, 745, rfl⟩
abbrev main_call2_call0_v11_0 : Ref sig .tc := ⟨.hbm, 746, rfl⟩
abbrev main_call2_call0_call0_v172 : Ref sig .tc := ⟨.hbm, 747, rfl⟩
abbrev main_call2_call0_call0_v173 : Ref sig .tc := ⟨.hbm, 748, rfl⟩
abbrev main_call2_call0_call0_c_44 : Ref sig .tc := ⟨.hbm, 749, rfl⟩
abbrev main_call2_call0_call0_v174 : Ref sig .tc := ⟨.hbm, 750, rfl⟩
abbrev main_call2_call0_v11_1 : Ref sig .tc := ⟨.hbm, 751, rfl⟩
abbrev main_call2_call0_v12 : Ref sig .tc := ⟨.hbm, 752, rfl⟩
abbrev main_call2_call0_v13 : Ref sig .tc := ⟨.hbm, 753, rfl⟩
abbrev main_call2_v0 : Ref sig .tc := ⟨.hbm, 754, rfl⟩
abbrev main_call2_v1 : Ref sig .tc := ⟨.hbm, 755, rfl⟩
abbrev main_call2_v2 : Ref sig .tc := ⟨.hbm, 756, rfl⟩
abbrev main_call2_v3 : Ref sig .tc := ⟨.hbm, 757, rfl⟩
abbrev main_call2_v4 : Ref sig .tc := ⟨.hbm, 758, rfl⟩
abbrev main_call2_v5 : Ref sig .tc := ⟨.hbm, 759, rfl⟩
abbrev main_call2_v6 : Ref sig .tc := ⟨.hbm, 760, rfl⟩
abbrev main_call2_v7 : Ref sig .tc := ⟨.hbm, 761, rfl⟩
abbrev main_call2_v8 : Ref sig .tc := ⟨.hbm, 762, rfl⟩
abbrev main_call2_v9 : Ref sig .tc := ⟨.hbm, 763, rfl⟩
abbrev main_call2_c : Ref sig .tc := ⟨.hbm, 764, rfl⟩
abbrev main_call2_v10 : Ref sig .tc := ⟨.hbm, 765, rfl⟩
abbrev main_call2_v11 : Ref sig .tc := ⟨.hbm, 766, rfl⟩
abbrev main_call2_c_0 : Ref sig .tc := ⟨.hbm, 767, rfl⟩
abbrev main_call2_v12 : Ref sig .tc := ⟨.hbm, 768, rfl⟩
abbrev main_call2_v13 : Ref sig .tc := ⟨.hbm, 769, rfl⟩
abbrev main_call2_v14 : Ref sig .tc := ⟨.hbm, 770, rfl⟩
abbrev main_call2_v15 : Ref sig .tc := ⟨.hbm, 771, rfl⟩
abbrev main_call2_call1_v0 : Ref sig .tc := ⟨.hbm, 772, rfl⟩
abbrev main_call2_call1_c : Ref sig .tc := ⟨.hbm, 773, rfl⟩
abbrev main_call2_call1_v1 : Ref sig .tc := ⟨.hbm, 774, rfl⟩
abbrev main_call2_call1_v2 : Ref sig .tc := ⟨.hbm, 775, rfl⟩
abbrev main_call2_call1_v3 : Ref sig .tc := ⟨.hbm, 776, rfl⟩
abbrev main_call2_call1_v4 : Ref sig .tc := ⟨.hbm, 777, rfl⟩
abbrev main_call2_call1_v5 : Ref sig .tc := ⟨.hbm, 778, rfl⟩
abbrev main_call2_call1_v6 : Ref sig .tc := ⟨.hbm, 779, rfl⟩
abbrev main_call2_call1_c_0 : Ref sig .tc := ⟨.hbm, 780, rfl⟩
abbrev main_call2_call1_v7 : Ref sig .tc := ⟨.hbm, 781, rfl⟩
abbrev main_call2_call1_v8 : Ref sig .tc := ⟨.hbm, 782, rfl⟩
abbrev main_call2_call1_c_1 : Ref sig .tc := ⟨.hbm, 783, rfl⟩
abbrev main_call2_call1_v9 : Ref sig .tc := ⟨.hbm, 784, rfl⟩
abbrev main_call2_call1_v10 : Ref sig .tc := ⟨.hbm, 785, rfl⟩
abbrev main_call2_call1_v11 : Ref sig .tc := ⟨.hbm, 786, rfl⟩
abbrev main_call2_call1_v12 : Ref sig .tc := ⟨.hbm, 787, rfl⟩
abbrev main_call2_call1_v13 : Ref sig .tc := ⟨.hbm, 788, rfl⟩
abbrev main_call2_call1_c_2 : Ref sig .tc := ⟨.hbm, 789, rfl⟩
abbrev main_call2_call1_v14 : Ref sig .tc := ⟨.hbm, 790, rfl⟩
abbrev main_call2_call1_v15 : Ref sig .tc := ⟨.hbm, 791, rfl⟩
abbrev main_call2_call1_c_3 : Ref sig .tc := ⟨.hbm, 792, rfl⟩
abbrev main_call2_call1_v16 : Ref sig .tc := ⟨.hbm, 793, rfl⟩
abbrev main_call2_call1_v17 : Ref sig .tc := ⟨.hbm, 794, rfl⟩
abbrev main_call2_call1_v18 : Ref sig .tc := ⟨.hbm, 795, rfl⟩
abbrev main_call2_call1_v19 : Ref sig .tc := ⟨.hbm, 796, rfl⟩
abbrev main_call2_call1_v20 : Ref sig .tc := ⟨.hbm, 797, rfl⟩
abbrev main_call2_call1_c_4 : Ref sig .tc := ⟨.hbm, 798, rfl⟩
abbrev main_call2_call1_v21 : Ref sig .tc := ⟨.hbm, 799, rfl⟩
abbrev main_call2_call1_v22 : Ref sig .tc := ⟨.hbm, 800, rfl⟩
abbrev main_call2_call1_c_5 : Ref sig .tc := ⟨.hbm, 801, rfl⟩
abbrev main_call2_call1_v23 : Ref sig .tc := ⟨.hbm, 802, rfl⟩
abbrev main_call2_call1_v24 : Ref sig .tc := ⟨.hbm, 803, rfl⟩
abbrev main_call2_call1_v25 : Ref sig .tc := ⟨.hbm, 804, rfl⟩
abbrev main_call2_call1_v26 : Ref sig .tc := ⟨.hbm, 805, rfl⟩
abbrev main_call2_call1_v27 : Ref sig .tc := ⟨.hbm, 806, rfl⟩
abbrev main_call2_call1_c_6 : Ref sig .tc := ⟨.hbm, 807, rfl⟩
abbrev main_call2_call1_v28 : Ref sig .tc := ⟨.hbm, 808, rfl⟩
abbrev main_call2_call1_v29 : Ref sig .tc := ⟨.hbm, 809, rfl⟩
abbrev main_call2_call1_c_7 : Ref sig .tc := ⟨.hbm, 810, rfl⟩
abbrev main_call2_call1_v30 : Ref sig .tc := ⟨.hbm, 811, rfl⟩
abbrev main_call2_call1_v31 : Ref sig .tc := ⟨.hbm, 812, rfl⟩
abbrev main_call2_call1_v32 : Ref sig .tc := ⟨.hbm, 813, rfl⟩
abbrev main_call2_call1_v33 : Ref sig .tc := ⟨.hbm, 814, rfl⟩
abbrev main_call2_call1_v34 : Ref sig .tc := ⟨.hbm, 815, rfl⟩
abbrev main_call2_call1_v35 : Ref sig .tc := ⟨.hbm, 816, rfl⟩
abbrev main_call2_call1_v36 : Ref sig .tc := ⟨.hbm, 817, rfl⟩
abbrev main_call2_call1_v37 : Ref sig .tc := ⟨.hbm, 818, rfl⟩
abbrev main_call2_call1_c_8 : Ref sig .tc := ⟨.hbm, 819, rfl⟩
abbrev main_call2_call1_v38 : Ref sig .tc := ⟨.hbm, 820, rfl⟩
abbrev main_call2_call1_v39 : Ref sig .tc := ⟨.hbm, 821, rfl⟩
abbrev main_call2_call1_v40 : Ref sig .tc := ⟨.hbm, 822, rfl⟩
abbrev main_call2_call1_c_9 : Ref sig .tc := ⟨.hbm, 823, rfl⟩
abbrev main_call2_call1_v41 : Ref sig .tc := ⟨.hbm, 824, rfl⟩
abbrev main_call2_call1_v42 : Ref sig .tc := ⟨.hbm, 825, rfl⟩
abbrev main_call2_call1_c_10 : Ref sig .tc := ⟨.hbm, 826, rfl⟩
abbrev main_call2_call1_v43 : Ref sig .tc := ⟨.hbm, 827, rfl⟩
abbrev main_call2_call1_v44 : Ref sig .tc := ⟨.hbm, 828, rfl⟩
abbrev main_call2_call1_v45 : Ref sig .tc := ⟨.hbm, 829, rfl⟩
abbrev main_call2_call1_v46 : Ref sig .tc := ⟨.hbm, 830, rfl⟩
abbrev main_call2_call1_v47 : Ref sig .tc := ⟨.hbm, 831, rfl⟩
abbrev main_call2_call1_c_11 : Ref sig .tc := ⟨.hbm, 832, rfl⟩
abbrev main_call2_call1_v48 : Ref sig .tc := ⟨.hbm, 833, rfl⟩
abbrev main_call2_call1_v49 : Ref sig .tc := ⟨.hbm, 834, rfl⟩
abbrev main_call2_call1_c_12 : Ref sig .tc := ⟨.hbm, 835, rfl⟩
abbrev main_call2_call1_v50 : Ref sig .tc := ⟨.hbm, 836, rfl⟩
abbrev main_call2_call1_v51 : Ref sig .tc := ⟨.hbm, 837, rfl⟩
abbrev main_call2_call1_v52 : Ref sig .tc := ⟨.hbm, 838, rfl⟩
abbrev main_call2_call1_v53 : Ref sig .tc := ⟨.hbm, 839, rfl⟩
abbrev main_call2_call1_v54 : Ref sig .tc := ⟨.hbm, 840, rfl⟩
abbrev main_call2_call1_c_13 : Ref sig .tc := ⟨.hbm, 841, rfl⟩
abbrev main_call2_call1_v55 : Ref sig .tc := ⟨.hbm, 842, rfl⟩
abbrev main_call2_call1_v56 : Ref sig .tc := ⟨.hbm, 843, rfl⟩
abbrev main_call2_call1_c_14 : Ref sig .tc := ⟨.hbm, 844, rfl⟩
abbrev main_call2_call1_v57 : Ref sig .tc := ⟨.hbm, 845, rfl⟩
abbrev main_call2_call1_v58 : Ref sig .tc := ⟨.hbm, 846, rfl⟩
abbrev main_call2_call1_v59 : Ref sig .tc := ⟨.hbm, 847, rfl⟩
abbrev main_call2_call1_v60 : Ref sig .tc := ⟨.hbm, 848, rfl⟩
abbrev main_call2_call1_v61 : Ref sig .tc := ⟨.hbm, 849, rfl⟩
abbrev main_call2_call1_c_15 : Ref sig .tc := ⟨.hbm, 850, rfl⟩
abbrev main_call2_call1_v62 : Ref sig .tc := ⟨.hbm, 851, rfl⟩
abbrev main_call2_call1_v63 : Ref sig .tc := ⟨.hbm, 852, rfl⟩
abbrev main_call2_call1_c_16 : Ref sig .tc := ⟨.hbm, 853, rfl⟩
abbrev main_call2_call1_v64 : Ref sig .tc := ⟨.hbm, 854, rfl⟩
abbrev main_call2_call1_v65 : Ref sig .tc := ⟨.hbm, 855, rfl⟩
abbrev main_call2_call1_v66 : Ref sig .tc := ⟨.hbm, 856, rfl⟩
abbrev main_call2_call1_v67 : Ref sig .tc := ⟨.hbm, 857, rfl⟩
abbrev main_call2_call1_v68 : Ref sig .tc := ⟨.hbm, 858, rfl⟩
abbrev main_call2_call1_v69 : Ref sig .tc := ⟨.hbm, 859, rfl⟩
abbrev main_call2_call1_v70 : Ref sig .tc := ⟨.hbm, 860, rfl⟩
abbrev main_call2_call1_v71 : Ref sig .tc := ⟨.hbm, 861, rfl⟩
abbrev main_call2_call1_c_17 : Ref sig .tc := ⟨.hbm, 862, rfl⟩
abbrev main_call2_call1_v72 : Ref sig .tc := ⟨.hbm, 863, rfl⟩
abbrev main_call2_call1_v73 : Ref sig .tc := ⟨.hbm, 864, rfl⟩
abbrev main_call2_call1_v74 : Ref sig .tc := ⟨.hbm, 865, rfl⟩
abbrev main_call2_call1_c_18 : Ref sig .tc := ⟨.hbm, 866, rfl⟩
abbrev main_call2_call1_v75 : Ref sig .tc := ⟨.hbm, 867, rfl⟩
abbrev main_call2_call1_v76 : Ref sig .tc := ⟨.hbm, 868, rfl⟩
abbrev main_call2_call1_c_19 : Ref sig .tc := ⟨.hbm, 869, rfl⟩
abbrev main_call2_call1_v77 : Ref sig .tc := ⟨.hbm, 870, rfl⟩
abbrev main_call2_call1_v78 : Ref sig .tc := ⟨.hbm, 871, rfl⟩
abbrev main_call2_call1_v79 : Ref sig .tc := ⟨.hbm, 872, rfl⟩
abbrev main_call2_call1_v80 : Ref sig .tc := ⟨.hbm, 873, rfl⟩
abbrev main_call2_call1_v81 : Ref sig .tc := ⟨.hbm, 874, rfl⟩
abbrev main_call2_call1_c_20 : Ref sig .tc := ⟨.hbm, 875, rfl⟩
abbrev main_call2_call1_v82 : Ref sig .tc := ⟨.hbm, 876, rfl⟩
abbrev main_call2_call1_v83 : Ref sig .tc := ⟨.hbm, 877, rfl⟩
abbrev main_call2_call1_c_21 : Ref sig .tc := ⟨.hbm, 878, rfl⟩
abbrev main_call2_call1_v84 : Ref sig .tc := ⟨.hbm, 879, rfl⟩
abbrev main_call2_call1_v85 : Ref sig .tc := ⟨.hbm, 880, rfl⟩
abbrev main_call2_call1_v86 : Ref sig .tc := ⟨.hbm, 881, rfl⟩
abbrev main_call2_call1_v87 : Ref sig .tc := ⟨.hbm, 882, rfl⟩
abbrev main_call2_call1_v88 : Ref sig .tc := ⟨.hbm, 883, rfl⟩
abbrev main_call2_call1_c_22 : Ref sig .tc := ⟨.hbm, 884, rfl⟩
abbrev main_call2_call1_v89 : Ref sig .tc := ⟨.hbm, 885, rfl⟩
abbrev main_call2_call1_v90 : Ref sig .tc := ⟨.hbm, 886, rfl⟩
abbrev main_call2_call1_c_23 : Ref sig .tc := ⟨.hbm, 887, rfl⟩
abbrev main_call2_call1_v91 : Ref sig .tc := ⟨.hbm, 888, rfl⟩
abbrev main_call2_call1_v92 : Ref sig .tc := ⟨.hbm, 889, rfl⟩
abbrev main_call2_call1_v93 : Ref sig .tc := ⟨.hbm, 890, rfl⟩
abbrev main_call2_call1_v94 : Ref sig .tc := ⟨.hbm, 891, rfl⟩
abbrev main_call2_call1_v95 : Ref sig .tc := ⟨.hbm, 892, rfl⟩
abbrev main_call2_call1_c_24 : Ref sig .tc := ⟨.hbm, 893, rfl⟩
abbrev main_call2_call1_v96 : Ref sig .tc := ⟨.hbm, 894, rfl⟩
abbrev main_call2_call1_v97 : Ref sig .tc := ⟨.hbm, 895, rfl⟩
abbrev main_call2_call1_c_25 : Ref sig .tc := ⟨.hbm, 896, rfl⟩
abbrev main_call2_call1_v98 : Ref sig .tc := ⟨.hbm, 897, rfl⟩
abbrev main_call2_call1_v99 : Ref sig .tc := ⟨.hbm, 898, rfl⟩
abbrev main_call2_call1_v100 : Ref sig .tc := ⟨.hbm, 899, rfl⟩
abbrev main_call2_call1_v101 : Ref sig .tc := ⟨.hbm, 900, rfl⟩
abbrev main_call2_call1_v102 : Ref sig .tc := ⟨.hbm, 901, rfl⟩
abbrev main_call2_call1_v103 : Ref sig .tc := ⟨.hbm, 902, rfl⟩
abbrev main_call2_call1_v104 : Ref sig .tc := ⟨.hbm, 903, rfl⟩
abbrev main_call2_call1_v105 : Ref sig .tc := ⟨.hbm, 904, rfl⟩
abbrev main_call2_call1_c_26 : Ref sig .tc := ⟨.hbm, 905, rfl⟩
abbrev main_call2_call1_v106 : Ref sig .tc := ⟨.hbm, 906, rfl⟩
abbrev main_call2_call1_v107 : Ref sig .tc := ⟨.hbm, 907, rfl⟩
abbrev main_call2_call1_v108 : Ref sig .tc := ⟨.hbm, 908, rfl⟩
abbrev main_call2_call1_c_27 : Ref sig .tc := ⟨.hbm, 909, rfl⟩
abbrev main_call2_call1_v109 : Ref sig .tc := ⟨.hbm, 910, rfl⟩
abbrev main_call2_call1_v110 : Ref sig .tc := ⟨.hbm, 911, rfl⟩
abbrev main_call2_call1_c_28 : Ref sig .tc := ⟨.hbm, 912, rfl⟩
abbrev main_call2_call1_v111 : Ref sig .tc := ⟨.hbm, 913, rfl⟩
abbrev main_call2_call1_v112 : Ref sig .tc := ⟨.hbm, 914, rfl⟩
abbrev main_call2_call1_v113 : Ref sig .tc := ⟨.hbm, 915, rfl⟩
abbrev main_call2_call1_v114 : Ref sig .tc := ⟨.hbm, 916, rfl⟩
abbrev main_call2_call1_v115 : Ref sig .tc := ⟨.hbm, 917, rfl⟩
abbrev main_call2_call1_c_29 : Ref sig .tc := ⟨.hbm, 918, rfl⟩
abbrev main_call2_call1_v116 : Ref sig .tc := ⟨.hbm, 919, rfl⟩
abbrev main_call2_call1_v117 : Ref sig .tc := ⟨.hbm, 920, rfl⟩
abbrev main_call2_call1_c_30 : Ref sig .tc := ⟨.hbm, 921, rfl⟩
abbrev main_call2_call1_v118 : Ref sig .tc := ⟨.hbm, 922, rfl⟩
abbrev main_call2_call1_v119 : Ref sig .tc := ⟨.hbm, 923, rfl⟩
abbrev main_call2_call1_v120 : Ref sig .tc := ⟨.hbm, 924, rfl⟩
abbrev main_call2_call1_v121 : Ref sig .tc := ⟨.hbm, 925, rfl⟩
abbrev main_call2_call1_v122 : Ref sig .tc := ⟨.hbm, 926, rfl⟩
abbrev main_call2_call1_c_31 : Ref sig .tc := ⟨.hbm, 927, rfl⟩
abbrev main_call2_call1_v123 : Ref sig .tc := ⟨.hbm, 928, rfl⟩
abbrev main_call2_call1_v124 : Ref sig .tc := ⟨.hbm, 929, rfl⟩
abbrev main_call2_call1_c_32 : Ref sig .tc := ⟨.hbm, 930, rfl⟩
abbrev main_call2_call1_v125 : Ref sig .tc := ⟨.hbm, 931, rfl⟩
abbrev main_call2_call1_v126 : Ref sig .tc := ⟨.hbm, 932, rfl⟩
abbrev main_call2_call1_v127 : Ref sig .tc := ⟨.hbm, 933, rfl⟩
abbrev main_call2_call1_v128 : Ref sig .tc := ⟨.hbm, 934, rfl⟩
abbrev main_call2_call1_v129 : Ref sig .tc := ⟨.hbm, 935, rfl⟩
abbrev main_call2_call1_c_33 : Ref sig .tc := ⟨.hbm, 936, rfl⟩
abbrev main_call2_call1_v130 : Ref sig .tc := ⟨.hbm, 937, rfl⟩
abbrev main_call2_call1_v131 : Ref sig .tc := ⟨.hbm, 938, rfl⟩
abbrev main_call2_call1_c_34 : Ref sig .tc := ⟨.hbm, 939, rfl⟩
abbrev main_call2_call1_v132 : Ref sig .tc := ⟨.hbm, 940, rfl⟩
abbrev main_call2_call1_v133 : Ref sig .tc := ⟨.hbm, 941, rfl⟩
abbrev main_call2_call1_v134 : Ref sig .tc := ⟨.hbm, 942, rfl⟩
abbrev main_call2_call1_v135 : Ref sig .tc := ⟨.hbm, 943, rfl⟩
abbrev main_call2_call1_v136 : Ref sig .tc := ⟨.hbm, 944, rfl⟩
abbrev main_call2_call1_v137 : Ref sig .tc := ⟨.hbm, 945, rfl⟩
abbrev main_call2_call1_v138 : Ref sig .tc := ⟨.hbm, 946, rfl⟩
abbrev main_call2_call1_v139 : Ref sig .tc := ⟨.hbm, 947, rfl⟩
abbrev main_call2_call1_c_35 : Ref sig .tc := ⟨.hbm, 948, rfl⟩
abbrev main_call2_call1_v140 : Ref sig .tc := ⟨.hbm, 949, rfl⟩
abbrev main_call2_call1_v141 : Ref sig .tc := ⟨.hbm, 950, rfl⟩
abbrev main_call2_call1_v142 : Ref sig .tc := ⟨.hbm, 951, rfl⟩
abbrev main_call2_call1_c_36 : Ref sig .tc := ⟨.hbm, 952, rfl⟩
abbrev main_call2_call1_v143 : Ref sig .tc := ⟨.hbm, 953, rfl⟩
abbrev main_call2_call1_v144 : Ref sig .tc := ⟨.hbm, 954, rfl⟩
abbrev main_call2_call1_c_37 : Ref sig .tc := ⟨.hbm, 955, rfl⟩
abbrev main_call2_call1_v145 : Ref sig .tc := ⟨.hbm, 956, rfl⟩
abbrev main_call2_call1_v146 : Ref sig .tc := ⟨.hbm, 957, rfl⟩
abbrev main_call2_call1_v147 : Ref sig .tc := ⟨.hbm, 958, rfl⟩
abbrev main_call2_call1_v148 : Ref sig .tc := ⟨.hbm, 959, rfl⟩
abbrev main_call2_call1_v149 : Ref sig .tc := ⟨.hbm, 960, rfl⟩
abbrev main_call2_call1_c_38 : Ref sig .tc := ⟨.hbm, 961, rfl⟩
abbrev main_call2_call1_v150 : Ref sig .tc := ⟨.hbm, 962, rfl⟩
abbrev main_call2_call1_v151 : Ref sig .tc := ⟨.hbm, 963, rfl⟩
abbrev main_call2_call1_c_39 : Ref sig .tc := ⟨.hbm, 964, rfl⟩
abbrev main_call2_call1_v152 : Ref sig .tc := ⟨.hbm, 965, rfl⟩
abbrev main_call2_call1_v153 : Ref sig .tc := ⟨.hbm, 966, rfl⟩
abbrev main_call2_call1_v154 : Ref sig .tc := ⟨.hbm, 967, rfl⟩
abbrev main_call2_call1_v155 : Ref sig .tc := ⟨.hbm, 968, rfl⟩
abbrev main_call2_call1_v156 : Ref sig .tc := ⟨.hbm, 969, rfl⟩
abbrev main_call2_call1_c_40 : Ref sig .tc := ⟨.hbm, 970, rfl⟩
abbrev main_call2_call1_v157 : Ref sig .tc := ⟨.hbm, 971, rfl⟩
abbrev main_call2_call1_v158 : Ref sig .tc := ⟨.hbm, 972, rfl⟩
abbrev main_call2_call1_c_41 : Ref sig .tc := ⟨.hbm, 973, rfl⟩
abbrev main_call2_call1_v159 : Ref sig .tc := ⟨.hbm, 974, rfl⟩
abbrev main_call2_call1_v160 : Ref sig .tc := ⟨.hbm, 975, rfl⟩
abbrev main_call2_call1_v161 : Ref sig .tc := ⟨.hbm, 976, rfl⟩
abbrev main_call2_call1_v162 : Ref sig .tc := ⟨.hbm, 977, rfl⟩
abbrev main_call2_call1_v163 : Ref sig .tc := ⟨.hbm, 978, rfl⟩
abbrev main_call2_call1_c_42 : Ref sig .tc := ⟨.hbm, 979, rfl⟩
abbrev main_call2_call1_v164 : Ref sig .tc := ⟨.hbm, 980, rfl⟩
abbrev main_call2_call1_v165 : Ref sig .tc := ⟨.hbm, 981, rfl⟩
abbrev main_call2_call1_c_43 : Ref sig .tc := ⟨.hbm, 982, rfl⟩
abbrev main_call2_call1_v166 : Ref sig .tc := ⟨.hbm, 983, rfl⟩
abbrev main_call2_call1_v167 : Ref sig .tc := ⟨.hbm, 984, rfl⟩
abbrev main_call2_call1_v168 : Ref sig .tc := ⟨.hbm, 985, rfl⟩
abbrev main_call2_call1_v169 : Ref sig .tc := ⟨.hbm, 986, rfl⟩
abbrev main_call2_call1_v170 : Ref sig .tc := ⟨.hbm, 987, rfl⟩
abbrev main_call2_v16_0 : Ref sig .tc := ⟨.hbm, 988, rfl⟩
abbrev main_call2_call1_v172 : Ref sig .tc := ⟨.hbm, 989, rfl⟩
abbrev main_call2_call1_v173 : Ref sig .tc := ⟨.hbm, 990, rfl⟩
abbrev main_call2_call1_c_44 : Ref sig .tc := ⟨.hbm, 991, rfl⟩
abbrev main_call2_call1_v174 : Ref sig .tc := ⟨.hbm, 992, rfl⟩
abbrev main_call2_v16_1 : Ref sig .tc := ⟨.hbm, 993, rfl⟩
abbrev main_call2_v17 : Ref sig .tc := ⟨.hbm, 994, rfl⟩
abbrev main_call2_v18_0 : Ref sig .tc := ⟨.hbm, 995, rfl⟩
abbrev main_v16 : Ref sig .tc := ⟨.hbm, 996, rfl⟩
abbrev main_v17 : Ref sig .tc := ⟨.hbm, 997, rfl⟩
abbrev main_v18 : Ref sig .tc := ⟨.hbm, 998, rfl⟩
abbrev main_c_4 : Ref sig .tc := ⟨.hbm, 999, rfl⟩
abbrev main_v19 : Ref sig .tc := ⟨.hbm, 1000, rfl⟩
abbrev main_v20 : Ref sig .tc := ⟨.hbm, 1001, rfl⟩
abbrev main_c_5 : Ref sig .tc := ⟨.hbm, 1002, rfl⟩
abbrev main_v21 : Ref sig .tc := ⟨.hbm, 1003, rfl⟩
abbrev main_v22 : Ref sig .tc := ⟨.hbm, 1004, rfl⟩
abbrev main_v23 : Ref sig .tc := ⟨.hbm, 1005, rfl⟩
abbrev main_v24 : Ref sig .tc := ⟨.hbm, 1006, rfl⟩
abbrev main_v25 : Ref sig .tc := ⟨.hbm, 1007, rfl⟩
abbrev main_call3_v0 : Ref sig .tc := ⟨.hbm, 1008, rfl⟩
abbrev main_v26 : Ref sig .tc := ⟨.hbm, 1009, rfl⟩
abbrev main_call4_v0 : Ref sig .tc := ⟨.hbm, 1010, rfl⟩
abbrev main_v27 : Ref sig .tc := ⟨.hbm, 1011, rfl⟩
abbrev main_c_6 : Ref sig .tc := ⟨.hbm, 1012, rfl⟩
abbrev main_v28 : Ref sig .tc := ⟨.hbm, 1013, rfl⟩
abbrev main_v29 : Ref sig .tc := ⟨.hbm, 1014, rfl⟩
abbrev main_c_7 : Ref sig .tc := ⟨.hbm, 1015, rfl⟩
abbrev main_v30 : Ref sig .tc := ⟨.hbm, 1016, rfl⟩
abbrev main_v31 : Ref sig .tc := ⟨.hbm, 1017, rfl⟩
abbrev main_v32 : Ref sig .tc := ⟨.hbm, 1018, rfl⟩
abbrev main_v33 : Ref sig .tc := ⟨.hbm, 1019, rfl⟩
abbrev main_v34 : Ref sig .tc := ⟨.hbm, 1020, rfl⟩

abbrev nD : Nat := 1
abbrev τ : Topo := Topo.v7x

variable {F : FTy → Type} [FloatOps F]

class Facts₀ : Prop where
  bcast_S_S1 : S_.BroadcastsInDim S1 (![] : Fin 0 → Fin S1.rank)
  concatenates_S1_S1_S2_d0 : Shape.Concatenates [S1, S1] S2 0
  slices_S2_S1_0 : S2.Slices ![0] S1
  shapeCasts_S1_S_ : S1.ShapeCasts S_
  slices_S2_S1_1 : S2.Slices ![1] S1
  bcast_S_S2 : S_.BroadcastsInDim S2 (![] : Fin 0 → Fin S2.rank)
  natLt_32_64 : 32 < 64
  bcast_S2_S2x1_0 : S2.BroadcastsInDim S2x1 (![0] : Fin 1 → Fin S2x1.rank)
  concatenates_S2x1_S2x1_S2x2_d1 : Shape.Concatenates [S2x1, S2x1] S2x2 1
  slices_S2x2_S1x2_0_0 : S2x2.Slices ![0, 0] S1x2
  shapeCasts_S1x2_S2 : S1x2.ShapeCasts S2
  slices_S2x2_S1x2_1_0 : S2x2.Slices ![1, 0] S1x2
  bcast_S_S32 : S_.BroadcastsInDim S32 (![] : Fin 0 → Fin S32.rank)
  bcast_S1_S32_0 : S1.BroadcastsInDim S32 (![0] : Fin 1 → Fin S32.rank)
  bcast_S_S128 : S_.BroadcastsInDim S128 (![] : Fin 0 → Fin S128.rank)
  slices_S128_S32_0 : S128.Slices ![0] S32
  bcast_S32_S32x1x1x1_0 : S32.BroadcastsInDim S32x1x1x1 (![0] : Fin 1 → Fin S32x1x1x1.rank)
  bcast_S32_S32x1_0 : S32.BroadcastsInDim S32x1 (![0] : Fin 1 → Fin S32x1.rank)
  bcast_S32x1x1x1_S32x3x256x256_0_1_2_3 : S32x1x1x1.BroadcastsInDim S32x3x256x256 (![0, 1, 2, 3] : Fin 4 → Fin S32x3x256x256.rank)
  gather_S128x3x256x256_S32x1_S32x3x256x256_123_0_n_n_0_1_13256256_wf : GatherDims.WF S128x3x256x256 S32x1 S32x3x256x256 [1, 2, 3] [0] [] [0] [] 1 ![1, 3, 256, 256]
  scatter_S128x3x256x256_S32x1_S32x3x256x256_123_0_0_1_wf : ScatterDims.WF S128x3x256x256 S32x1 S32x3x256x256 [1, 2, 3] [0] [0] 1

variable [Facts₀]

def comparator_i32_i32_d0 : BitVec 32 × BitVec 32 → BitVec 32 × BitVec 32 → BitVec 1 :=
  fun l r =>
    let v19 := IntOp.cmpi .ult l.1 r.1
    v19
def gather_S128x3x256x256_S32x1_S32x3x256x256_123_0_n_n_0_1_13256256 : GatherDims S128x3x256x256 S32x1 S32x3x256x256 where
  offsetDims := [1, 2, 3]
  collapsedSliceDims := [0]
  operandBatchingDims := []
  startIndicesBatchingDims := []
  startIndexMap := [0]
  indexVectorDim := 1
  sliceSizes := ![1, 3, 256, 256]
  wf := gather_S128x3x256x256_S32x1_S32x3x256x256_123_0_n_n_0_1_13256256_wf
def scatter_S128x3x256x256_S32x1_S32x3x256x256_123_0_0_1 : ScatterDims S128x3x256x256 S32x1 S32x3x256x256 where
  updateWindowDims := [1, 2, 3]
  insertedWindowDims := [0]
  scatterDimsToOperandDims := [0]
  indexVectorDim := 1
  wf := scatter_S128x3x256x256_S32x1_S32x3x256x256_123_0_0_1_wf

class Facts : Prop extends Facts₀ where

variable [Facts]
-- ==== Proof.KCommonI.lean ====
/-
  The kernel program as the SparseCore launch theorem sees it, and the resource algebra of its proof: the launch
  handshakes' rounds, a copy of the rounds algebra for the TensorCore region's (empty) set of staging cells, and
  the counters of the schedule-free transfer protocol that every copy of both kernels follows (each copy is
  issued on a semaphore of its own slot and waited for before that semaphore is used again).
-/
import proofs.«209156_g27831388078850_cont_9to1_824_17_alg».proof.KernelIdeal
import proofs.«209156_g27831388078850_cont_9to1_824_17_alg».proof.Proof.Gen.KernelIdeal
import proofs.«209156_g27831388078850_cont_9to1_824_17_alg».proof.Proof.Gen.KernelIdeal.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch handshakes' rounds. -/
abbrev UH : Type := URounds (GSem nD τ sig) ℕ
/-- The TensorCore region's staging cells (it has none: every operand stays in HBM). -/
abbrev UP : Type := URounds (GSem nD τ sig) Unit
abbrev UU : Type := UH × (UP × Counters)

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

example : CountersIn UU := inferInstance

end Cert.KernelIdeal.KP

end
-- ==== Proof.Spec.lean ====
/-
  The function both programs compute, stated once over plain index types and an arbitrary element type.

  A batch of 32 images and a pool of 128 images, each image a [3, 256, 256] array.  A fixed mask `prob` over the
  batch and a fixed list `index` of 32 distinct pool rows are given as tables (they are what the reference's
  counter-based random generator yields from its constant key).  The returned batch takes, for a masked entry `b`,
  pool row `index b`, and otherwise keeps image `b`; the returned pool takes image `b` at row `index b` for every
  masked `b` and keeps every other row.
-/
import Idealize.ShloMosaic.Lib.ValueIdx

namespace Cert.Spec

open Idealize.ShloMosaic Idealize.ShloMosaic.ValueIdx

abbrev SImg : Shape := ⟨4, ![32, 3, 256, 256]⟩
abbrev SPool : Shape := ⟨4, ![128, 3, 256, 256]⟩

/-- The mask over the batch: entry `b` is swapped with the pool exactly when `prob b`. -/
def prob : Fin 32 → Bool :=
  ![true, false, true, true, true, true, true, false, false, true, true, true, true, true, false, false,
    true, true, false, true, false, true, false, true, true, true, true, true, true, false, true, false]

/-- The pool row paired with batch entry `b`: the first 32 entries of a permutation of the 128 rows. -/
def index : Fin 32 → Fin 128 :=
  ![83, 2, 65, 73, 78, 32, 15, 10, 71, 48, 85, 25, 116, 109, 114, 115,
    77, 28, 106, 93, 92, 0, 82, 49, 69, 87, 89, 104, 75, 4, 90, 60]

/-- The paired rows are pairwise distinct. -/
theorem index_injective : Function.Injective index := by decide

/-- The masked batch entry whose paired pool row is `r`, if there is one (at most one, the rows being distinct). -/
def owner (r : Fin 128) : Option (Fin 32) :=
  (List.finRange 32).find? fun b => prob b && decide (index b = r)

theorem owner_index : ∀ b : Fin 32, owner (index b) = if prob b then some b else none := by
  decide +kernel

theorem owner_eq_some : ∀ (r : Fin 128) (b : Fin 32), owner r = some b → prob b = true ∧ index b = r := by
  decide +kernel

theorem owner_eq_none : ∀ (r : Fin 128), owner r = none → ∀ b : Fin 32, ¬ (prob b = true ∧ index b = r) := by
  decide +kernel

variable {α : Type}

/-- The returned batch: a masked entry is replaced by its paired pool row. -/
def outImages (images : SImg.Idx → α) (pool : SPool.Idx → α) : SImg.Idx → α := fun i =>
  if prob (i 0) then pool (ix4 (index (i 0)) (i 1) (i 2) (i 3)) else images i

/-- The returned pool: the paired row of a masked entry is replaced by that entry's image. -/
def outPool (images : SImg.Idx → α) (pool : SPool.Idx → α) : SPool.Idx → α := fun j =>
  match owner (j 0) with
  | some b => images (ix4 b (j 1) (j 2) (j 3))
  | none => pool j

/-! ## The same two functions over the arrays laid out as rows of 128 lanes

An image is 1536 rows of 128 lanes (3·256·256 = 1536·128), so batch entry `b` is rows `1536 b … 1536 b + 1535` of the
`[49152, 128]` array and pool row `r` is rows `1536 r …` of the `[196608, 128]` array. -/

abbrev SImg2 : Shape := ⟨2, ![49152, 128]⟩
abbrev SPool2 : Shape := ⟨2, ![196608, 128]⟩

/-- The batch entry a row of the `[49152, 128]` array belongs to. -/
def entryOf (r : Fin 49152) : Fin 32 := ⟨r.val / 1536, by have := r.isLt; omega⟩
/-- The pool row a row of the `[196608, 128]` array belongs to. -/
def poolRowOf (r : Fin 196608) : Fin 128 := ⟨r.val / 1536, by have := r.isLt; omega⟩
/-- Row `k` (of 1536) of batch entry `b`. -/
def imgRow (b : Fin 32) (k : Nat) : Fin 49152 := ⟨b.val * 1536 + k % 1536, by have := b.isLt; have := Nat.mod_lt k (show 0 < 1536 by decide); omega⟩
/-- Row `k` (of 1536) of pool row `r`. -/
def poolRow (r : Fin 128) (k : Nat) : Fin 196608 := ⟨r.val * 1536 + k % 1536, by have := r.isLt; have := Nat.mod_lt k (show 0 < 1536 by decide); omega⟩

/-- The returned batch as rows of lanes. -/
def outImages2 (img : SImg2.Idx → α) (pool : SPool2.Idx → α) : SImg2.Idx → α := fun j =>
  if prob (entryOf (j 0)) then pool (ix2 (poolRow (index (entryOf (j 0))) (j 0).val) (j 1)) else img j

/-- The returned pool as rows of lanes. -/
def outPool2 (img : SImg2.Idx → α) (pool : SPool2.Idx → α) : SPool2.Idx → α := fun j =>
  match owner (poolRowOf (j 0)) with
  | some b => img (ix2 (imgRow b (j 0).val) (j 1))
  | none => pool j

end Cert.Spec
-- ==== Proof.KPayI.lean ====
/-
  What the SparseCore call's handshakes carry.  The call reads the image rows and the pool rows (both left unchanged:
  read shares, one per SparseCore, split again one per vector subcore) and writes the batch result, whose rows are dealt
  to the 32 vector subcores in blocks of 48: block (b, tile) is rows 1536 b + 48 tile … + 47, written by task b of that
  tile.  After the call every block holds the result function's values.
-/
import proofs.«209156_g27831388078850_cont_9to1_824_17_alg».proof.Proof.KCommonI
import proofs.«209156_g27831388078850_cont_9to1_824_17_alg».proof.Proof.Spec

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

/-- The image rows, the pool rows and the batch result, as the TensorCore names them. -/
abbrev imgLoc (d : Dev nD) : Loc nD τ sig := (SparseCore.T d).loc main_v0
abbrev poolLoc (d : Dev nD) : Loc nD τ sig := (SparseCore.T d).loc main_v1
abbrev outLoc (d : Dev nD) : Loc nD τ sig := (SparseCore.T d).loc main_v2

/-- The kernel's operands as the body table passes them. -/
abbrev imgV : Memref sig .scVector .hbm S49152x128 .f32 := Memref.whole main_v0_scv
abbrev poolV : Memref sig .scVector .hbm S196608x128 .f32 := Memref.whole main_v1_scv
abbrev outV : Memref sig .scVector .hbm S49152x128 .f32 := Memref.whole main_v2_scv
abbrev bufV : Memref sig .scVector .vmem S4x48x128 .f32 := Memref.whole cc0_scratch0

/-- A tile's grid coordinates: SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- Task `b`'s destination on tile `L`: 48 rows from row `1536 b + 768 (L 0) + 48 (L 1)`, as the program slices them. -/
abbrev dstRect (L : grid0.Coords) (b : Fin 32) : Rect S49152x128 :=
  Rect.unit (s := S49152x128) (k0_off2 L (BitVec.ofNat 32 (1536 * b.val))) S48x128.size (k0_off2_inb L b)
abbrev dstSet (L : grid0.Coords) (b : Fin 32) : Finset S49152x128.Idx := ((outV.slice (dstRect L b) (fun _ => rfl)).view).set

/-- A SparseCore's read share of an array, and a vector subcore's part of it. -/
abbrev qS (c : Fin 2) : PosShare TreeShare := shareTok fullShare 2 c
abbrev qT (c : Fin 2) (i : Fin 16) : PosShare TreeShare := shareTok (qS c) 16 i

/-- The 32 destination blocks of tile `(c, i)`, all at the contents `g`. -/
abbrev outBlocks (d : Dev nD) (c : Fin 2) (i : Fin 16) (g : Buf (Elt F) (outLoc d)) : sProp 𝕄 :=
  bigSep Finset.univ fun b : Fin 32 => outLoc d ↦[dstSet (coordsV c i) b]{fullShare} g

variable (f0 : (d : Dev nD) → Buf (Elt F) (imgLoc d)) (f1 : (d : Dev nD) → Buf (Elt F) (poolLoc d))
  (o0 : (d : Dev nD) → Buf (Elt F) (outLoc d))

/-- The batch result over rows of lanes, as the contents of the result array. -/
abbrev res (d : Dev nD) : Buf (Elt F) (outLoc d) := Cert.Spec.outImages2 (f0 d) (f1 d)

/-- The one call's payloads: the arrays' contents at the call are `f0`, `f1` (read) and `o0` (overwritten). -/
def P : (K (F := F)).Pay (nD := nD) (Val := Elt F) (Name := ℕ) (U := UU) where
  st := fun q d c => match q with
    | 0 => iprop((imgLoc d ↦{qS (Fin.cast nCore_zero c)} f0 d) ∗ (poolLoc d ↦{qS (Fin.cast nCore_zero c)} f1 d)
        ∗ bigSep Finset.univ fun i : Fin 16 => outBlocks d (Fin.cast nCore_zero c) i (o0 d))
  dn := fun q d c => match q with
    | 0 => iprop((imgLoc d ↦{qS (Fin.cast nCore_zero c)} f0 d) ∗ (poolLoc d ↦{qS (Fin.cast nCore_zero c)} f1 d)
        ∗ bigSep Finset.univ fun i : Fin 16 => outBlocks d (Fin.cast nCore_zero c) i (res f0 f1 d))
  go := fun q d c i => match q with
    | 0 => iprop((imgLoc d ↦{qT (Fin.cast nCore_zero c) (Fin.cast nSub_zero i)} f0 d) ∗ (poolLoc d ↦{qT (Fin.cast nCore_zero c) (Fin.cast nSub_zero i)} f1 d)
        ∗ outBlocks d (Fin.cast nCore_zero c) (Fin.cast nSub_zero i) (o0 d))
  td := fun q d c i => match q with
    | 0 => iprop((imgLoc d ↦{qT (Fin.cast nCore_zero c) (Fin.cast nSub_zero i)} f0 d) ∗ (poolLoc d ↦{qT (Fin.cast nCore_zero c) (Fin.cast nSub_zero i)} f1 d)
        ∗ outBlocks d (Fin.cast nCore_zero c) (Fin.cast nSub_zero i) (res f0 f1 d))
  x := fun _ _ => iprop(emp)

instance P_storable : (P (F := F) f0 f1 o0).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.KernelIdeal.KP

end
-- ==== Proof.KMainAI.lean ====
/-
  @main's eight arrays on the TensorCore (the two arguments, their two reshapes, the two kernels' results, the two
  reshaped results) as one held set, and the values the host operations leave in them.
-/
import proofs.«209156_g27831388078850_cont_9to1_824_17_alg».proof.Proof.KPayI

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev a0Loc (d : Dev nD) : Loc nD τ sig := (SparseCore.T d).loc main_arg0
abbrev a1Loc (d : Dev nD) : Loc nD τ sig := (SparseCore.T d).loc main_arg1
abbrev opLoc (d : Dev nD) : Loc nD τ sig := (SparseCore.T d).loc main_v3
abbrev r4Loc (d : Dev nD) : Loc nD τ sig := (SparseCore.T d).loc main_v4
abbrev r5Loc (d : Dev nD) : Loc nD τ sig := (SparseCore.T d).loc main_v5

/-- The TensorCore's arrays, all unscoped. -/
abbrev S8 : Finset (DevRef τ sig) := {a0', a1', v0', v1', v2', v3', v4', v5'}

theorem held_S8 (d : Dev nD) (W : Valuation τ sig (Elt F)) :
    (held (T d) S8 W : sProp 𝕄) = iprop((a0Loc d ↦{fullShare} W a0') ∗ (a1Loc d ↦{fullShare} W a1') ∗ (imgLoc d ↦{fullShare} W v0')
      ∗ (poolLoc d ↦{fullShare} W v1') ∗ (outLoc d ↦{fullShare} W v2') ∗ (opLoc d ↦{fullShare} W v3')
      ∗ (r4Loc d ↦{fullShare} W v4') ∗ (r5Loc d ↦{fullShare} W v5')) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (imgLoc d ↦{fullShare} W main_v0)
      ∗ (poolLoc d ↦{fullShare} W main_v1) ∗ (outLoc d ↦{fullShare} W main_v2) ∗ (opLoc d ↦{fullShare} W main_v3)
      ∗ (r4Loc d ↦{fullShare} W main_v4) ∗ (r5Loc d ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable [FloatOps F]

abbrev op0 : HloOp τ sig (Elt F) := StableHlo.reshape main_arg0 main_v0 rfl shapeCasts_S32x3x256x256_S49152x128
abbrev op1 : HloOp τ sig (Elt F) := StableHlo.reshape main_arg1 main_v1 rfl shapeCasts_S128x3x256x256_S196608x128
abbrev op3 : HloOp τ sig (Elt F) := StableHlo.unary main_v1 main_v3 id
abbrev op4 : HloOp τ sig (Elt F) := StableHlo.reshape main_v2 main_v4 rfl shapeCasts_S49152x128_S32x3x256x256
abbrev op5 : HloOp τ sig (Elt F) := StableHlo.reshape main_v3 main_v5 rfl shapeCasts_S196608x128_S128x3x256x256

theorem h0 : (op0 (F := F)).bufs ⊆ S8 := show ({a0', v0'} : Finset (DevRef τ sig)) ⊆ S8 by decide
theorem h1 : (op1 (F := F)).bufs ⊆ S8 := show ({a1', v1'} : Finset (DevRef τ sig)) ⊆ S8 by decide
theorem h3 : (op3 (F := F)).bufs ⊆ S8 := show ({v1', v3'} : Finset (DevRef τ sig)) ⊆ S8 by decide
theorem h4 : (op4 (F := F)).bufs ⊆ S8 := show ({v2', v4'} : Finset (DevRef τ sig)) ⊆ S8 by decide
theorem h5 : (op5 (F := F)).bufs ⊆ S8 := show ({v3', v5'} : Finset (DevRef τ sig)) ⊆ S8 by decide

/-- The arguments laid out as rows of lanes: what the two reshapes leave in main_v0 and main_v1. -/
def img2 (d : Dev nD) : Buf (Elt F) (imgLoc d) := shapeCast S49152x128 (m (a0Loc d)) shapeCasts_S32x3x256x256_S49152x128
def pool2 (d : Dev nD) : Buf (Elt F) (poolLoc d) := shapeCast S196608x128 (m (a1Loc d)) shapeCasts_S128x3x256x256_S196608x128

end Cert.KernelIdeal.KP

end
-- ==== Proof.KMainBI.lean ====
/-
  The contents of @main's eight arrays at each stage of its run: at launch; after the two reshapes; after the SparseCore
  call (the batch result written); after the copy of the pool rows into the pool result's buffer; after the TensorCore
  kernel (the pool result written); after the two reshapes back.
-/
import proofs.«209156_g27831388078850_cont_9to1_824_17_alg».proof.Proof.KMainAI

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-- The pool result over rows of lanes, and the two results as images. -/
abbrev opRes (d : Dev nD) : Buf (Elt F) (opLoc d) := Cert.Spec.outPool2 (img2 m d) (pool2 m d)
def R4 (d : Dev nD) : Buf (Elt F) (r4Loc d) := shapeCast S32x3x256x256 (res (img2 m) (pool2 m) d) shapeCasts_S49152x128_S32x3x256x256
def R5 (d : Dev nD) : Buf (Elt F) (r5Loc d) := shapeCast S128x3x256x256 (opRes m d) shapeCasts_S196608x128_S128x3x256x256

def V0 (d : Dev nD) : Valuation τ sig (Elt F) := fun b => m (d, b)
def V2 (d : Dev nD) : Valuation τ sig (Elt F) := StableHlo.after [op0, op1] (V0 m d)
def V3 (d : Dev nD) : Valuation τ sig (Elt F) := Function.update (V2 m d) v2' (res (img2 m) (pool2 m) d)
def V4 (d : Dev nD) : Valuation τ sig (Elt F) := StableHlo.after [op3] (V3 m d)
def V5 (d : Dev nD) : Valuation τ sig (Elt F) := Function.update (V4 m d) v3' (opRes m d)
def V7 (d : Dev nD) : Valuation τ sig (Elt F) := StableHlo.after [op4, op5] (V5 m d)

theorem V2_a0 (d : Dev nD) : V2 m d a0' = m (a0Loc d) := by unfold V2; after_results; rfl
theorem V2_a1 (d : Dev nD) : V2 m d a1' = m (a1Loc d) := by unfold V2; after_results; rfl
theorem V2_v0 (d : Dev nD) : V2 m d v0' = img2 m d := by unfold V2; after_results; rfl
theorem V2_v1 (d : Dev nD) : V2 m d v1' = pool2 m d := by unfold V2; after_results; rfl
theorem V2_v2 (d : Dev nD) : V2 m d v2' = m (outLoc d) := by unfold V2; after_results; rfl
theorem V2_v3 (d : Dev nD) : V2 m d v3' = m (opLoc d) := by unfold V2; after_results; rfl
theorem V2_v4 (d : Dev nD) : V2 m d v4' = m (r4Loc d) := by unfold V2; after_results; rfl
theorem V2_v5 (d : Dev nD) : V2 m d v5' = m (r5Loc d) := by unfold V2; after_results; rfl

theorem V3_a0 (d : Dev nD) : V3 m d a0' = m (a0Loc d) := (Function.update_of_ne (show a0' ≠ v2' by decide) _ _).trans (V2_a0 m d)
theorem V3_a1 (d : Dev nD) : V3 m d a1' = m (a1Loc d) := (Function.update_of_ne (show a1' ≠ v2' by decide) _ _).trans (V2_a1 m d)
theorem V3_v0 (d : Dev nD) : V3 m d v0' = img2 m d := (Function.update_of_ne (show v0' ≠ v2' by decide) _ _).trans (V2_v0 m d)
theorem V3_v1 (d : Dev nD) : V3 m d v1' = pool2 m d := (Function.update_of_ne (show v1' ≠ v2' by decide) _ _).trans (V2_v1 m d)
theorem V3_v2 (d : Dev nD) : V3 m d v2' = res (img2 m) (pool2 m) d := Function.update_self _ _ _
theorem V3_v3 (d : Dev nD) : V3 m d v3' = m (opLoc d) := (Function.update_of_ne (show v3' ≠ v2' by decide) _ _).trans (V2_v3 m d)
theorem V3_v4 (d : Dev nD) : V3 m d v4' = m (r4Loc d) := (Function.update_of_ne (show v4' ≠ v2' by decide) _ _).trans (V2_v4 m d)
theorem V3_v5 (d : Dev nD) : V3 m d v5' = m (r5Loc d) := (Function.update_of_ne (show v5' ≠ v2' by decide) _ _).trans (V2_v5 m d)

theorem V4_a0 (d : Dev nD) : V4 m d a0' = m (a0Loc d) := by unfold V4; after_results; exact V3_a0 m d
theorem V4_a1 (d : Dev nD) : V4 m d a1' = m (a1Loc d) := by unfold V4; after_results; exact V3_a1 m d
theorem V4_v0 (d : Dev nD) : V4 m d v0' = img2 m d := by unfold V4; after_results; exact V3_v0 m d
theorem V4_v1 (d : Dev nD) : V4 m d v1' = pool2 m d := by unfold V4; after_results; exact V3_v1 m d
theorem V4_v2 (d : Dev nD) : V4 m d v2' = res (img2 m) (pool2 m) d := by unfold V4; after_results; exact V3_v2 m d
theorem V4_v3 (d : Dev nD) : V4 m d v3' = pool2 m d := by unfold V4; after_results; exact V3_v1 m d
theorem V4_v4 (d : Dev nD) : V4 m d v4' = m (r4Loc d) := by unfold V4; after_results; exact V3_v4 m d
theorem V4_v5 (d : Dev nD) : V4 m d v5' = m (r5Loc d) := by unfold V4; after_results; exact V3_v5 m d

theorem V5_a0 (d : Dev nD) : V5 m d a0' = m (a0Loc d) := (Function.update_of_ne (show a0' ≠ v3' by decide) _ _).trans (V4_a0 m d)
theorem V5_a1 (d : Dev nD) : V5 m d a1' = m (a1Loc d) := (Function.update_of_ne (show a1' ≠ v3' by decide) _ _).trans (V4_a1 m d)
theorem V5_v0 (d : Dev nD) : V5 m d v0' = img2 m d := (Function.update_of_ne (show v0' ≠ v3' by decide) _ _).trans (V4_v0 m d)
theorem V5_v1 (d : Dev nD) : V5 m d v1' = pool2 m d := (Function.update_of_ne (show v1' ≠ v3' by decide) _ _).trans (V4_v1 m d)
theorem V5_v2 (d : Dev nD) : V5 m d v2' = res (img2 m) (pool2 m) d := (Function.update_of_ne (show v2' ≠ v3' by decide) _ _).trans (V4_v2 m d)
theorem V5_v3 (d : Dev nD) : V5 m d v3' = opRes m d := Function.update_self _ _ _
theorem V5_v4 (d : Dev nD) : V5 m d v4' = m (r4Loc d) := (Function.update_of_ne (show v4' ≠ v3' by decide) _ _).trans (V4_v4 m d)
theorem V5_v5 (d : Dev nD) : V5 m d v5' = m (r5Loc d) := (Function.update_of_ne (show v5' ≠ v3' by decide) _ _).trans (V4_v5 m d)

theorem V7_a0 (d : Dev nD) : V7 m d a0' = m (a0Loc d) := by unfold V7; after_results; exact V5_a0 m d
theorem V7_a1 (d : Dev nD) : V7 m d a1' = m (a1Loc d) := by unfold V7; after_results; exact V5_a1 m d
theorem V7_v0 (d : Dev nD) : V7 m d v0' = img2 m d := by unfold V7; after_results; exact V5_v0 m d
theorem V7_v1 (d : Dev nD) : V7 m d v1' = pool2 m d := by unfold V7; after_results; exact V5_v1 m d
theorem V7_v2 (d : Dev nD) : V7 m d v2' = res (img2 m) (pool2 m) d := by unfold V7; after_results; exact V5_v2 m d
theorem V7_v3 (d : Dev nD) : V7 m d v3' = opRes m d := by unfold V7; after_results; exact V5_v3 m d
theorem V7_v4 (d : Dev nD) : V7 m d v4' = R4 m d := by unfold V7; after_results; rw [V5_v2]; rfl
theorem V7_v5 (d : Dev nD) : V7 m d v5' = R5 m d := by unfold V7; after_results; rw [V5_v3]; rfl

theorem held_V0 (d : Dev nD) :
    (held (T d) S8 (V0 m d) : sProp 𝕄) = iprop((a0Loc d ↦{fullShare} m (a0Loc d)) ∗ (a1Loc d ↦{fullShare} m (a1Loc d)) ∗ (imgLoc d ↦{fullShare} m (imgLoc d)) ∗ (poolLoc d ↦{fullShare} m (poolLoc d)) ∗ (outLoc d ↦{fullShare} m (outLoc d)) ∗ (opLoc d ↦{fullShare} m (opLoc d)) ∗ (r4Loc d ↦{fullShare} m (r4Loc d)) ∗ (r5Loc d ↦{fullShare} m (r5Loc d))) := by
  rw [held_S8]; rfl
theorem held_V2 (d : Dev nD) :
    (held (T d) S8 (V2 m d) : sProp 𝕄) = iprop((a0Loc d ↦{fullShare} m (a0Loc d)) ∗ (a1Loc d ↦{fullShare} m (a1Loc d)) ∗ (imgLoc d ↦{fullShare} img2 m d) ∗ (poolLoc d ↦{fullShare} pool2 m d) ∗ (outLoc d ↦{fullShare} m (outLoc d)) ∗ (opLoc d ↦{fullShare} m (opLoc d)) ∗ (r4Loc d ↦{fullShare} m (r4Loc d)) ∗ (r5Loc d ↦{fullShare} m (r5Loc d))) := by
  rw [held_S8, V2_a0, V2_a1, V2_v0, V2_v1, V2_v2, V2_v3, V2_v4, V2_v5]

theorem held_V3 (d : Dev nD) :
    (held (T d) S8 (V3 m d) : sProp 𝕄) = iprop((a0Loc d ↦{fullShare} m (a0Loc d)) ∗ (a1Loc d ↦{fullShare} m (a1Loc d)) ∗ (imgLoc d ↦{fullShare} img2 m d) ∗ (poolLoc d ↦{fullShare} pool2 m d) ∗ (outLoc d ↦{fullShare} res (img2 m) (pool2 m) d) ∗ (opLoc d ↦{fullShare} m (opLoc d)) ∗ (r4Loc d ↦{fullShare} m (r4Loc d)) ∗ (r5Loc d ↦{fullShare} m (r5Loc d))) := by
  rw [held_S8, V3_a0, V3_a1, V3_v0, V3_v1, V3_v2, V3_v3, V3_v4, V3_v5]

theorem held_V4 (d : Dev nD) :
    (held (T d) S8 (V4 m d) : sProp 𝕄) = iprop((a0Loc d ↦{fullShare} m (a0Loc d)) ∗ (a1Loc d ↦{fullShare} m (a1Loc d)) ∗ (imgLoc d ↦{fullShare} img2 m d) ∗ (poolLoc d ↦{fullShare} pool2 m d) ∗ (outLoc d ↦{fullShare} res (img2 m) (pool2 m) d) ∗ (opLoc d ↦{fullShare} pool2 m d) ∗ (r4Loc d ↦{fullShare} m (r4Loc d)) ∗ (r5Loc d ↦{fullShare} m (r5Loc d))) := by
  rw [held_S8, V4_a0, V4_a1, V4_v0, V4_v1, V4_v2, V4_v3, V4_v4, V4_v5]

theorem held_V5 (d : Dev nD) :
    (held (T d) S8 (V5 m d) : sProp 𝕄) = iprop((a0Loc d ↦{fullShare} m (a0Loc d)) ∗ (a1Loc d ↦{fullShare} m (a1Loc d)) ∗ (imgLoc d ↦{fullShare} img2 m d) ∗ (poolLoc d ↦{fullShare} pool2 m d) ∗ (outLoc d ↦{fullShare} res (img2 m) (pool2 m) d) ∗ (opLoc d ↦{fullShare} opRes m d) ∗ (r4Loc d ↦{fullShare} m (r4Loc d)) ∗ (r5Loc d ↦{fullShare} m (r5Loc d))) := by
  rw [held_S8, V5_a0, V5_a1, V5_v0, V5_v1, V5_v2, V5_v3, V5_v4, V5_v5]

theorem held_V7 (d : Dev nD) :
    (held (T d) S8 (V7 m d) : sProp 𝕄) = iprop((a0Loc d ↦{fullShare} m (a0Loc d)) ∗ (a1Loc d ↦{fullShare} m (a1Loc d)) ∗ (imgLoc d ↦{fullShare} img2 m d) ∗ (poolLoc d ↦{fullShare} pool2 m d) ∗ (outLoc d ↦{fullShare} res (img2 m) (pool2 m) d) ∗ (opLoc d ↦{fullShare} opRes m d) ∗ (r4Loc d ↦{fullShare} R4 m d) ∗ (r5Loc d ↦{fullShare} R5 m d)) := by
  rw [held_S8, V7_a0, V7_a1, V7_v0, V7_v1, V7_v2, V7_v3, V7_v4, V7_v5]

end Cert.KernelIdeal.KP

end
-- ==== Proof.KCoverI.lean ====
/-
  The 1024 destination blocks of the SparseCore call tile the batch result: block (b, c, i) — task b of vector subcore i
  of SparseCore c — is rows 48 k … 48 k + 47 for k = 32 b + 16 c + i, the k-th of the 1024 equal parts of the 49152 rows.
  So the whole array is the separating conjunction of its blocks.
-/
import proofs.«209156_g27831388078850_cont_9to1_824_17_alg».proof.Proof.KPayI

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

theorem hdiv1024 : 1024 ∣ S49152x128.size 0 := ⟨48, rfl⟩

/-- The k-th of the 1024 equal row blocks. -/
abbrev blk (k : Fin 1024) : Rect S49152x128 := Rect.part (s := S49152x128) (a₀ := 0) hdiv1024 k

/-- The number of block (b, c, i). -/
def blkIx (t : Fin 2 × Fin 16 × Fin 32) : Fin 1024 :=
  ⟨32 * t.2.2.val + 16 * t.1.val + t.2.1.val, by have := t.1.isLt; have := t.2.1.isLt; have := t.2.2.isLt; omega⟩

theorem blkIx_injective : Function.Injective blkIx := by
  rintro ⟨c, i, b⟩ ⟨c', i', b'⟩ h
  have h' : 32 * b.val + 16 * c.val + i.val = 32 * b'.val + 16 * c'.val + i'.val := congrArg Fin.val h
  have := c.isLt; have := i.isLt; have := c'.isLt; have := i'.isLt
  have hb : b.val = b'.val := by omega
  have hc : c.val = c'.val := by omega
  have hi : i.val = i'.val := by omega
  exact Prod.ext (Fin.ext hc) (Prod.ext (Fin.ext hi) (Fin.ext hb))

theorem blkIx_surjective : Function.Surjective blkIx := by
  intro k
  refine ⟨(⟨k.val % 32 / 16, by omega⟩, ⟨k.val % 16, by omega⟩, ⟨k.val / 32, by have := k.isLt; omega⟩), Fin.ext ?_⟩
  show 32 * (k.val / 32) + 16 * (k.val % 32 / 16) + k.val % 16 = k.val
  omega

theorem dstRect_eq (c : Fin 2) (i : Fin 16) (b : Fin 32) : dstRect (coordsV c i) b = blk (blkIx (c, i, b)) := by
  unfold dstRect blk Rect.part Rect.block
  congr 1 <;> funext a
  · rw [k0_off2_eq]
    match a with
    | 0 => simp [Shape.partIx, Shape.partSize, blkIx, coordsV]; omega
    | 1 => simp [Shape.partIx, Shape.partSize]
  · match a with
    | 0 => simp [Shape.partSize]
    | 1 => simp [Shape.partSize]

theorem dstSet_eq (c : Fin 2) (i : Fin 16) (b : Fin 32) : dstSet (coordsV c i) b = (blk (blkIx (c, i, b))).set := by
  show ((View.whole (main_v2_scv : Ref sig .scVector)).slice (dstRect (coordsV c i) b)).set = _
  rw [View.set_slice, dstRect_eq]; exact Finset.map_refl

/-- The block of a triple, as a set of indices of the result array. -/
abbrev tset (t : Fin 2 × Fin 16 × Fin 32) : Finset S49152x128.Idx := dstSet (coordsV t.1 t.2.1) t.2.2

theorem tset_disjoint : ∀ t ∈ (Finset.univ : Finset (Fin 2 × Fin 16 × Fin 32)), ∀ t' ∈ (Finset.univ : Finset (Fin 2 × Fin 16 × Fin 32)),
    t ≠ t' → Disjoint (tset t) (tset t') := by
  rintro ⟨c, i, b⟩ - ⟨c', i', b'⟩ - h
  show Disjoint (dstSet (coordsV c i) b) (dstSet (coordsV c' i') b')
  rw [dstSet_eq, dstSet_eq]
  exact Rect.part_disjoint hdiv1024 (fun e => h (blkIx_injective e))

theorem tset_cover : (Finset.univ : Finset (Fin 2 × Fin 16 × Fin 32)).biUnion tset = Finset.univ := by
  apply Finset.eq_univ_of_forall
  intro j
  obtain ⟨k, hk⟩ := Rect.exists_mem_part hdiv1024 j
  obtain ⟨⟨c, i, b⟩, rfl⟩ := blkIx_surjective k
  exact Finset.mem_biUnion.mpr ⟨(c, i, b), Finset.mem_univ _, by show j ∈ dstSet (coordsV c i) b; rw [dstSet_eq]; exact hk⟩

/-- The whole result array is its 2 × 16 × 32 blocks. -/
theorem out_blocks (d : Dev nD) (g : Buf (Elt F) (outLoc d)) :
    (outLoc d ↦{fullShare} g : sProp 𝕄)
      = bigSep Finset.univ fun c : Fin 2 => bigSep Finset.univ fun i : Fin 16 => outBlocks d c i g := by
  have h : (outLoc d ↦{fullShare} g : sProp 𝕄) = bigSep Finset.univ fun t : Fin 2 × Fin 16 × Fin 32 => outLoc d ↦[tset t]{fullShare} g := by
    rw [← pointsTo_biUnion Finset.univ (ℓ := outLoc d) tset tset_disjoint, tset_cover]; try rfl
  rw [h, ← Finset.univ_product_univ, SparseCore.bigSep_product]
  refine bigSep_congr fun c _ => ?_
  rw [← Finset.univ_product_univ, SparseCore.bigSep_product]

end Cert.KernelIdeal.KP

end
-- ==== Proof.KMainCI.lean ====
/-
  @main on the TensorCore, under the SparseCore launch theorem: the two reshapes (host operations over the held arrays),
  the SparseCore call (each SparseCore is handed a read share of the image rows and of the pool rows and its blocks of
  the batch result; all come back, the blocks at the result function), the copy of the pool rows into the pool result's
  buffer, the TensorCore kernel's region (a step supplied as a hypothesis: it turns the copied pool rows into the pool
  result), and the two reshapes back.  At the end the two arguments are unchanged and the two results hold the result
  functions read back as images.
-/
import proofs.«209156_g27831388078850_cont_9to1_824_17_alg».proof.Proof.KMainBI
import proofs.«209156_g27831388078850_cont_9to1_824_17_alg».proof.Proof.KCoverI

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The call's payloads at this run's contents. -/
abbrev PP : (K (F := F)).Pay (nD := nD) (Val := Elt F) (Name := ℕ) (U := UU) := P (F := F) (img2 m) (pool2 m) (fun d => m (outLoc d))

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (PP m).st 0 d c)
    = iprop((bigSep Finset.univ fun c : Fin 2 => imgLoc d ↦{qS c} img2 m d) ∗ (bigSep Finset.univ fun c : Fin 2 => poolLoc d ↦{qS c} pool2 m d)
        ∗ bigSep Finset.univ fun c : Fin 2 => bigSep Finset.univ fun i : Fin 16 => outBlocks d c i (m (outLoc d))) := by
  refine (bigSep_cores (F := F) (fun c => iprop((imgLoc d ↦{qS c} img2 m d) ∗ (poolLoc d ↦{qS c} pool2 m d)
    ∗ bigSep Finset.univ fun i : Fin 16 => outBlocks d c i (m (outLoc d))))).trans ?_
  rw [bigSep_sep', bigSep_sep']

theorem dn0_eq (d : Dev nD) : (bigSep Finset.univ fun c : Fin ((K (F := F)).nCore 0) => (PP m).dn 0 d c)
    = iprop((bigSep Finset.univ fun c : Fin 2 => imgLoc d ↦{qS c} img2 m d) ∗ (bigSep Finset.univ fun c : Fin 2 => poolLoc d ↦{qS c} pool2 m d)
        ∗ bigSep Finset.univ fun c : Fin 2 => bigSep Finset.univ fun i : Fin 16 => outBlocks d c i (res (img2 m) (pool2 m) d)) := by
  refine (bigSep_cores (F := F) (fun c => iprop((imgLoc d ↦{qS c} img2 m d) ∗ (poolLoc d ↦{qS c} pool2 m d)
    ∗ bigSep Finset.univ fun i : Fin 16 => outBlocks d c i (res (img2 m) (pool2 m) d)))).trans ?_
  rw [bigSep_sep', bigSep_sep']

/-- The TensorCore kernel's region as one step of @main's proof: from the TensorCore's state after the SparseCore call,
    the image rows `g0`, the pool result's buffer at `g3` and the region boundary, to the same with the buffer at the
    pool result of `g0` and `g3`; `Gtc d` is what the region needs of the launch's ghost state. -/
def TcRegion (Gtc : Dev nD → sProp 𝕄) : Prop :=
  ∀ (Pp : (K (F := F)).Pay (nD := nD) (Val := Elt F) (Name := ℕ) (U := UU)) (κ : GSem nD τ sig → ℕ) (d : Dev nD)
    (g0 : Buf (Elt F) (imgLoc d)) (g3 : Buf (Elt F) (opLoc d))
    {α : Type} (k : PUnit → Prog (TpuEff nD τ sig (Elt F) (SparseCore.Sig (ΛP (F := F)) 1) .tc) α) (Q : α → sProp 𝕄),
    iprop((K (F := F)).ctx EH Pp κ ∗ (K (F := F)).tcSt EH d 1 ∗ Gtc d ∗ (imgLoc d ↦{fullShare} g0) ∗ (opLoc d ↦{fullShare} g3) ∗ boundary (SparseCore.T d)
        ∗ (((K (F := F)).tcSt EH d 1 ∗ (imgLoc d ↦{fullShare} g0) ∗ (opLoc d ↦{fullShare} Cert.Spec.outPool2 g0 g3) ∗ boundary (SparseCore.T d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 0)) ()) k) Q

/-- What @main leaves the claim. -/
abbrev FIN (d : Dev nD) : sProp 𝕄 :=
  iprop((a0Loc d ↦{fullShare} m (a0Loc d)) ∗ (a1Loc d ↦{fullShare} m (a1Loc d)) ∗ (r4Loc d ↦{fullShare} R4 m d) ∗ (r5Loc d ↦{fullShare} R5 m d))

theorem hmain (Gtc : Dev nD → sProp 𝕄) (htc : TcRegion (F := F) Gtc) (κ : GSem nD τ sig → ℕ) (d : Dev nD) :
    iprop((K (F := F)).ctx EH (PP m) κ ∗ (K (F := F)).tcSt EH d 0 ∗ (K (F := F)).tcRes m ρ d ∗ Gtc d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (T d) S8 (V0 m d) from by rw [unscopedBufs_eq, held_V0]]
  simp only [main, wp_bind, wp_pure, Prog.lift]
  iintro ⟨#Hctx, Hst, ⟨Hb, Hheld, -, -⟩, HG⟩
  -- the two reshapes
  iapply (wp_hlo_within 𝒱 (SparseCore.T d) none Set.univ (op := op0) (S := S8) h0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S8) h1 (V := (op0 (F := F)).result (V0 m d))) $$ [Hb Hheld]
  · isplitl [Hb]; · iexact Hb
    iexact Hheld
  iintro ⟨Hb, Hheld⟩
  rw [wp_ret]; imodintro
  rw [show (op1 (F := F)).result ((op0 (F := F)).result (V0 m d)) = V2 m d from rfl]
  ihave Hh := (Entails.of_eq (held_V2 (F := F) m d)) $$ Hheld
  icases Hh with ⟨Ha0, Ha1, Hv0, Hv1, Hv2, Hv3, Hv4, Hv5⟩
  -- the SparseCore call: a read share of the image rows and of the pool rows per SparseCore, the result's blocks
  ihave H0 := (pointsTo_toks_split (ℓ := imgLoc d) fullShare 2) $$ Hv0
  icases H0 with ⟨Hv0r, Hv0t⟩
  ihave H1 := (pointsTo_toks_split (ℓ := poolLoc d) fullShare 2) $$ Hv1
  icases H1 with ⟨Hv1r, Hv1t⟩
  ihave H2 := (Entails.of_eq (out_blocks (F := F) d _)) $$ Hv2
  iapply ((K (F := F)).wp_run (D (F := F)) 𝒱 (EH := EH) (P := PP m) κ d 0) $$ [Hst Hv0t Hv1t H2 Hb Ha0 Ha1 Hv0r Hv1r Hv3 Hv4 Hv5 HG]
  isplitr; · iexact Hctx
  isplitl [Hst]; · iexact Hst
  isplitl [Hv0t Hv1t H2]
  · rw [st0_eq]
    isplitl [Hv0t]; · iexact Hv0t
    isplitl [Hv1t]; · iexact Hv1t
    iexact H2
  iintro ⟨Hst, Hdn⟩
  ihave Hdn' := (Entails.of_eq (dn0_eq m d)) $$ Hdn
  icases Hdn' with ⟨Hv0t, Hv1t, H2⟩
  ihave Hv0 := (pointsTo_toks_join (ℓ := imgLoc d) fullShare 2) $$ [Hv0r Hv0t]
  · isplitl [Hv0r] <;> iassumption
  ihave Hv1 := (pointsTo_toks_join (ℓ := poolLoc d) fullShare 2) $$ [Hv1r Hv1t]
  · isplitl [Hv1r] <;> iassumption
  ihave Hv2 := (Entails.of_eq (out_blocks (F := F) d _).symm) $$ H2
  -- the copy of the pool rows into the pool result's buffer
  iapply (wp_hlo_within 𝒱 (SparseCore.T d) none Set.univ (op := op3) (S := S8) h3 (V := V3 m d)) $$ [Hb Ha0 Ha1 Hv0 Hv1 Hv2 Hv3 Hv4 Hv5]
  · isplitl [Hb]; · iexact Hb
    rw [held_V3]
    isplitl [Ha0]; · iexact Ha0
    isplitl [Ha1]; · iexact Ha1
    isplitl [Hv0]; · iexact Hv0
    isplitl [Hv1]; · iexact Hv1
    isplitl [Hv2]; · iexact Hv2
    isplitl [Hv3]; · iexact Hv3
    isplitl [Hv4]; · iexact Hv4
    iexact Hv5
  iintro ⟨Hb, Hheld⟩
  rw [wp_ret]; imodintro
  rw [show (op3 (F := F)).result (V3 m d) = V4 m d from rfl]
  ihave Hh := (Entails.of_eq (held_V4 (F := F) m d)) $$ Hheld
  icases Hh with ⟨Ha0, Ha1, Hv0, Hv1, Hv2, Hv3, Hv4, Hv5⟩
  -- the TensorCore kernel's region
  iapply (htc (PP m) κ d (img2 m d) (pool2 m d) _ _) $$ [Hst HG Hv0 Hv3 Hb Ha0 Ha1 Hv1 Hv2 Hv4 Hv5]
  isplitr; · iexact Hctx
  isplitl [Hst]; · iexact Hst
  isplitl [HG]; · iexact HG
  isplitl [Hv0]; · iexact Hv0
  isplitl [Hv3]; · iexact Hv3
  isplitl [Hb]; · iexact Hb
  iintro ⟨Hst, Hv0, Hv3, Hb⟩
  rw [wp_ret]; imodintro
  -- the two reshapes back
  iapply (wp_hlo_within 𝒱 (SparseCore.T d) none Set.univ (op := op4) (S := S8) h4 (V := V5 m d)) $$ [Hb Ha0 Ha1 Hv0 Hv1 Hv2 Hv3 Hv4 Hv5]
  · isplitl [Hb]; · iexact Hb
    rw [held_V5]
    isplitl [Ha0]; · iexact Ha0
    isplitl [Ha1]; · iexact Ha1
    isplitl [Hv0]; · iexact Hv0
    isplitl [Hv1]; · iexact Hv1
    isplitl [Hv2]; · iexact Hv2
    isplitl [Hv3]; · iexact Hv3
    isplitl [Hv4]; · iexact Hv4
    iexact Hv5
  iintro ⟨Hb, Hheld⟩
  rw [wp_ret]; imodintro
  iapply (wp_hlo_within 𝒱 (SparseCore.T d) none Set.univ (op := op5) (S := S8) h5 (V := (op4 (F := F)).result (V5 m d))) $$ [Hb Hheld]
  · isplitl [Hb]; · iexact Hb
    iexact Hheld
  iintro ⟨Hb, Hheld⟩
  rw [show (op5 (F := F)).result ((op4 (F := F)).result (V5 m d)) = V7 m d from rfl]
  ihave Hh := (Entails.of_eq (held_V7 (F := F) m d)) $$ Hheld
  icases Hh with ⟨Ha0, Ha1, -, -, -, -, Hv4, Hv5⟩
  rw [wp_ret]; imodintro; imodintro
  isplitl [Hst]; · iexact Hst
  isplitl [Ha0]; · iexact Ha0
  isplitl [Ha1]; · iexact Ha1
  isplitl [Hv4]; · iexact Hv4
  iexact Hv5

end Cert.KernelIdeal.KP

end
-- ==== Proof.KLaunchI.lean ====
/-
  The kernel program's run, from the SparseCore launch theorem: given the vector subcores' task, the split of the call's
  operands among them and the TensorCore kernel's region (hypotheses here; proved in their own modules), every weakly
  fair execution of all the threads terminates, and in every final memory the two arguments are unchanged and the two
  results are the result functions over rows of lanes read back as images.
-/
import proofs.«209156_g27831388078850_cont_9to1_824_17_alg».proof.Proof.KMainCI

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The launch element: the handshakes' rounds, the region's element `uP`, no transfer in flight. -/
def u₀ (uP : UP) : UU := (initOf (K (F := F)).hsCells (K (F := F)).hsToks, (uP, 1))

omit [FloatOps F] in
theorem ownU_split3 (a : UH) (p : UP) (c : Counters) : (ownU (a, (p, c)) : sProp 𝕄) ⊢ iprop(BI.own (EH a) ∗ BI.own (EP p)) := by
  iintro Hu
  ihave H := (ownU_pair _ _) $$ Hu
  icases H with ⟨HH, HR⟩
  ihave H2 := (own_pair_emb (embR : Emb (UP × Counters) 𝕄) p c) $$ HR
  icases H2 with ⟨HP, -⟩
  isplitl [HH]; · iexact HH
  iexact HP

omit [FloatOps F] in
theorem bigSep_emp' {I : Type} (s : Finset I) : (bigSep s fun _ => iprop(emp)) = (iprop(emp) : sProp 𝕄) := bigSep_emp_const s

theorem hu₀ (uP : UP) (Gtc : Dev nD → sProp 𝕄) (hG : (BI.own (EP uP) : sProp 𝕄) ⊢ iprop(|==> bigSep Finset.univ Gtc)) :
    (ownU (u₀ (F := F) uP) : sProp 𝕄)
      ⊢ |={Set.univ}=> iprop(BI.own (EH (initOf (K (F := F)).hsCells (K (F := F)).hsToks)) ∗ (bigSep Finset.univ Gtc)
        ∗ bigSep Finset.univ fun thr : Thread nD τ => bigSep Finset.univ fun q : Fin 1 => (PP m).x q thr) := by
  unfold u₀
  iintro Hu
  ihave H := (ownU_split3 _ _ _) $$ Hu
  icases H with ⟨HH, HP⟩
  imod hG $$ HP with HG
  imodintro
  isplitl [HH]; · iexact HH
  isplitl [HG]; · iexact HG
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What the final memory must satisfy on device `d`. -/
def fq (d : Dev nD) (s' : Phys nD τ sig (Elt F)) : Prop :=
  s'.mem.mem (a0Loc d) = m (a0Loc d) ∧ s'.mem.mem (a1Loc d) = m (a1Loc d) ∧ s'.mem.mem (r4Loc d) = R4 m d ∧ s'.mem.mem (r5Loc d) = R5 m d

theorem hfin (d : Dev nD) (s' : Phys nD τ sig (Elt F)) : iprop(FIN m d ∗ SI s') ⊢ (⌜fq m d s'⌝ : sProp 𝕄) := by
  iintro ⟨⟨H0, H1, H4, H5⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%e0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%e1, HSI, -⟩
  ihave H := (persistent_entails_right (SI_pointsTo_agree (st := s') (ℓ := r4Loc d) (I := Finset.univ) (q := fullShare) (f := R4 m d))) $$ [HSI H4]
  · isplitl [HSI] <;> iassumption
  icases H with ⟨%e4, HSI, -⟩
  ihave H := (SI_pointsTo_agree (st := s') (ℓ := r5Loc d) (I := Finset.univ) (q := fullShare) (f := R5 m d)) $$ [HSI H5]
  · isplitl [HSI] <;> iassumption
  icases H with %e5
  ipureintro
  exact ⟨funext fun i => e0 i (Finset.mem_univ i), funext fun i => e1 i (Finset.mem_univ i), funext fun i => e4 i (Finset.mem_univ i),
    funext fun i => e5 i (Finset.mem_univ i)⟩

/-- The run's postcondition: on every device the arguments unchanged and the results at the result functions. -/
def QC : PUnit × MemSt nD τ sig (Elt F) → Prop := fun r => ∀ c : Dev nD,
  r.2.mem (a0Loc c) = m (a0Loc c) ∧ r.2.mem (a1Loc c) = m (a1Loc c) ∧ r.2.mem (r4Loc c) = R4 m c ∧ r.2.mem (r5Loc c) = R5 m c

theorem run_of [∀ e, Nonempty (Elt F e)]
    (htile : (K (F := F)).TileObl (D (F := F)) 𝒱 (PP m) v₀ 0) (hvec : (K (F := F)).VecSplit' (PP m) 0)
    (uP : UP) (Gtc : Dev nD → sProp 𝕄) (hG : (BI.own (EP uP) : sProp 𝕄) ⊢ iprop(|==> bigSep Finset.univ Gtc)) (htc : TcRegion (F := F) Gtc) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain hvec)
    m ρ main Gtc (FIN m) (u₀ (F := F) uP) (sep_elim_left.trans (hu₀ m uP Gtc hG)) (hmain m ρ Gtc htc) (fq m) (hfin m) (QC m) (fun _ h => h)

end Cert.KernelIdeal.KP

end
-- ==== Proof.KTileI1.lean ====
/-
  The pieces of one vector subcore's task: the offsets of its 48-row blocks in closed form, the block a copy reads
  or writes as a memref, what a destination block holds after a copy out of a staging slot that a copy from a source
  block filled (the source block, which is the batch result on the destination's rows), and how the subcore's scratch
  array, semaphores and read shares are taken apart for the task and put back after it.
-/
import proofs.«209156_g27831388078850_cont_9to1_824_17_alg».proof.Proof.KPayI
import Idealize.ShloMosaic.Lib.SparseCore.Launch
import Idealize.ShloMosaic.Lib.Tactic

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

abbrev cV (L : grid0.Coords) : Fin τ.nSC := (L 0).castLE hcore0
abbrev jV (L : grid0.Coords) : Fin τ.nSub := (L 1).castLE hsub0
/-- The vector subcore at grid point `L` of device `d`. -/
abbrev tV (d : Dev nD) (L : grid0.Coords) : Thread nD τ := V d (cV L) (jV L)

/-! ## Offsets -/

omit [FloatOps F] in
/-- A pool block's offset in closed form: row `n + 768 (L 0) + 48 (L 1)`. -/
theorem k0_off1_eq (i : grid0.Coords) (n : ℕ) (hn : n + 1536 ≤ 196608) :
    k0_off1 i (BitVec.ofNat 32 n) = ![n + 768 * (i 0).val + 48 * (i 1).val, 0] := by
  have h_c : Affine.IsInt (BitVec.ofNat 32 n) ((n : Int)) := Affine.ofNat _ (by omega)
  have r_i0 : (i 0).val < 2 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_v0 : Affine.IsInt _ (16 * ((i 0).val : Int)) := Affine.muli h_arg0 h_c16_i32 (by omega)
  have r_i1 : (i 1).val < 16 := (i 1).isLt
  have h_arg1 : Affine.IsInt (BitVec.ofNat 32 (i 1).val) (((i 1).val : Int)) := Affine.ofNat _ (by omega)
  have h_v1 : Affine.IsInt _ (16 * ((i 0).val : Int) + ((i 1).val : Int)) := Affine.addi h_v0 h_arg1 (by omega)
  have h_c48_i32 : Affine.IsInt 48#32 (48) := Affine.ofNat _ (by omega)
  have h_v2 : Affine.IsInt _ (768 * ((i 0).val : Int) + 48 * ((i 1).val : Int)) := Affine.muli h_v1 h_c48_i32 (by omega)
  have h_v3 : Affine.IsInt _ ((n : Int) + 768 * ((i 0).val : Int) + 48 * ((i 1).val : Int)) := Affine.addi h_c h_v2 (by omega)
  exact Affine.vec_cons h_v3 (by omega) <| Affine.vec_cons (Affine.ofNat 0 (by omega) : Affine.IsInt 0#32 0) (by omega) <| Affine.vec_nil

/-! ## The blocks as memrefs -/

/-- 48 rows of the result array from the row `k0_off2 L c` names, as the program slices them. -/
abbrev outBlk (L : grid0.Coords) (c : BitVec 32) (h : ∀ a, k0_off2 L c a + S48x128.size a ≤ S49152x128.size a) : Memref sig .scVector .hbm S48x128 .f32 :=
  (Memref.whole main_v2_scv).slice (Rect.unit (s := S49152x128) (k0_off2 L c) S48x128.size h) (fun _ => rfl)
/-- The same rows of the image array. -/
abbrev imgBlk (L : grid0.Coords) (c : BitVec 32) (h : ∀ a, k0_off2 L c a + S48x128.size a ≤ S49152x128.size a) : Memref sig .scVector .hbm S48x128 .f32 :=
  (Memref.whole main_v0_scv).slice (Rect.unit (s := S49152x128) (k0_off2 L c) S48x128.size h) (fun _ => rfl)
/-- 48 rows of the pool array from the row `k0_off1 L c` names. -/
abbrev poolBlk (L : grid0.Coords) (c : BitVec 32) (h : ∀ a, k0_off1 L c a + S48x128.size a ≤ S196608x128.size a) : Memref sig .scVector .hbm S48x128 .f32 :=
  (Memref.whole main_v1_scv).slice (Rect.unit (s := S196608x128) (k0_off1 L c) S48x128.size h) (fun _ => rfl)

/-! ## Contents that read alike through a view are alike on the view's own elements -/

omit [FloatOps F] in
theorem pts_of_read_eq {c : Thread nD τ} {cs : Space} {s : Shape} {e : EltTy} (m : Memref sig c.2.kind cs s e)
    (g g' : Buf (Elt F) (m.view.loc c)) (q : PosShare TreeShare) (h : m.view.read (Elt F) g = m.view.read (Elt F) g') :
    (m.view.loc c ↦[m.view.set]{q} g : sProp 𝕄) = m.view.loc c ↦[m.view.set]{q} g' :=
  pointsTo_congr fun i hi => by
    obtain ⟨x, -, rfl⟩ := Finset.mem_map.mp hi
    have hx := congrFun h x
    rw [View.read_apply, View.read_apply] at hx
    exact (cast_inj _).mp hx

omit [FloatOps F] in
/-- A whole piece written last is what the view reads back, whatever was written before it. -/
theorem read_writes_whole_cons {κ : Kind} {sp : Space} {s : Shape} {e : EltTy} (v : View sig κ sp s e) (f : v.ty.Contents (Elt F)) (x : s.Idx → Elt F e)
    (Ls : List (View.Piece (Elt F) s e)) : v.read (Elt F) (v.writes (Elt F) f (⟨Rect.whole s, x⟩ :: Ls)) = x := by
  funext y
  have h := View.read_writes_cons_emb v f (Rect.whole s) x Ls y
  rwa [Rect.emb_whole_apply] at h

/-! ## The value: the batch result on a destination block is the source block -/

section Value
variable {α : Type}

omit [FloatOps F] in
theorem dst_row (L : grid0.Coords) (b : Fin 32) (x : S48x128.Idx) :
    (((dstRect L b).emb x) 0).val = 1536 * b.val + 768 * (L 0).val + 48 * (L 1).val + (x 0).val := by
  show (k0_off2 L (BitVec.ofNat 32 (1536 * b.val))) 0 + 1 * (x 0).val = _
  rw [k0_off2_eq]; simp

omit [FloatOps F] in
theorem dst_entry (L : grid0.Coords) (b : Fin 32) (x : S48x128.Idx) : Cert.Spec.entryOf (((dstRect L b).emb x) 0) = b := by
  apply Fin.ext
  show (((dstRect L b).emb x) 0).val / 1536 = b.val
  rw [dst_row]
  have h0 : (L 0).val < 2 := (L 0).isLt
  have h1 : (L 1).val < 16 := (L 1).isLt
  have hx : (x 0).val < 48 := (x 0).isLt
  omega

omit [FloatOps F] in
/-- An entry that is kept: the result's rows are the image's. -/
theorem val_img (L : grid0.Coords) (b : Fin 32) (hb : Cert.Spec.prob b = false) (fi : Cert.Spec.SImg2.Idx → α) (fp : Cert.Spec.SPool2.Idx → α) (x : S48x128.Idx) :
    Cert.Spec.outImages2 fi fp ((dstRect L b).emb x) = fi ((dstRect L b).emb x) := by
  unfold Cert.Spec.outImages2
  rw [dst_entry, hb]; rfl

omit [FloatOps F] in
/-- An entry that is replaced: the result's rows are the paired pool row's. -/
theorem val_pool (L : grid0.Coords) (b : Fin 32) (hb : Cert.Spec.prob b = true) (n : ℕ) (hn : n = (Cert.Spec.index b).val * 1536)
    (hp : ∀ a, k0_off1 L (BitVec.ofNat 32 n) a + S48x128.size a ≤ S196608x128.size a)
    (fi : Cert.Spec.SImg2.Idx → α) (fp : Cert.Spec.SPool2.Idx → α) (x : S48x128.Idx) :
    Cert.Spec.outImages2 fi fp ((dstRect L b).emb x)
      = fp ((Rect.unit (s := S196608x128) (k0_off1 L (BitVec.ofNat 32 n)) S48x128.size hp).emb x) := by
  have hi : (Cert.Spec.index b).val < 128 := (Cert.Spec.index b).isLt
  have h0 : (L 0).val < 2 := (L 0).isLt
  have h1 : (L 1).val < 16 := (L 1).isLt
  have hx : (x 0).val < 48 := (x 0).isLt
  unfold Cert.Spec.outImages2
  rw [dst_entry, hb]
  show fp _ = fp _
  congr 1
  funext a
  apply Fin.ext
  match a with
  | ⟨0, _⟩ =>
    show (Cert.Spec.index b).val * 1536 + (((dstRect L b).emb x) 0).val % 1536 = (k0_off1 L (BitVec.ofNat 32 n)) 0 + 1 * (x 0).val
    rw [dst_row, k0_off1_eq L n (by omega)]
    simp
    omega
  | ⟨1, _⟩ =>
    show (k0_off2 L (BitVec.ofNat 32 (1536 * b.val))) 1 + 1 * (x 1).val = (k0_off1 L (BitVec.ofNat 32 n)) 1 + 1 * (x 1).val
    rw [k0_off2_eq, k0_off1_eq L n (by omega)]
    simp

end Value

/-! ## A destination block after its copy -/

section Blocks
variable (d : Dev nD) (L : grid0.Coords)

/-- Kept entry: the block written from a slot that the image block filled holds the result. -/
theorem blk_img (b : Fin 32) (hb : Cert.Spec.prob b = false) (c : BitVec 32) (hc : c = BitVec.ofNat 32 (1536 * b.val))
    (ho hi : ∀ a, k0_off2 L c a + S48x128.size a ≤ S49152x128.size a)
    (fi : Buf (Elt F) (imgLoc d)) (fp : Buf (Elt F) (poolLoc d)) (fo : Buf (Elt F) (outLoc d))
    (sl : Memref sig .scVector .vmem S48x128 .f32) (g : Buf (Elt F) (sl.view.loc (tV d L))) (Ls : List (View.Piece (Elt F) S48x128 .f32)) :
    ((outBlk L c ho).view.loc (tV d L) ↦[(outBlk L c ho).view.set]{fullShare}
        (outBlk L c ho).view.writes (Elt F) fo
          [⟨Rect.whole _, ReadAs.same.apply (sl.view.read (Elt F) (sl.view.writes (Elt F) g
            (⟨Rect.whole _, ReadAs.same.apply ((imgBlk L c hi).view.read (Elt F) fi)⟩ :: Ls)))⟩] : sProp 𝕄)
      ⊢ outLoc d ↦[dstSet L b]{fullShare} (Cert.Spec.outImages2 fi fp : Buf (Elt F) (outLoc d)) := by
  subst hc
  refine Entails.of_eq ?_
  refine pts_of_read_eq (F := F) (c := tV d L) (outBlk L _ ho) _ (Cert.Spec.outImages2 fi fp : Buf (Elt F) (outLoc d)) fullShare ?_
  rw [read_writes_whole_cons]
  simp only [ReadAs.apply_same]
  rw [read_writes_whole_cons]
  funext x
  show (imgBlk L _ hi).view.read (Elt F) fi x = (outBlk L _ ho).view.read (Elt F) (Cert.Spec.outImages2 fi fp : Buf (Elt F) (outLoc d)) x
  rw [View.read_apply, View.read_apply]
  simp only [cast_eq]
  exact (val_img L b hb fi fp x).symm

/-- Replaced entry: the block written from a slot that the paired pool block filled holds the result. -/
theorem blk_pool (b : Fin 32) (hb : Cert.Spec.prob b = true) (c : BitVec 32) (hc : c = BitVec.ofNat 32 (1536 * b.val))
    (ho : ∀ a, k0_off2 L c a + S48x128.size a ≤ S49152x128.size a)
    (n : ℕ) (hn : n = (Cert.Spec.index b).val * 1536)
    (hp : ∀ a, k0_off1 L (BitVec.ofNat 32 n) a + S48x128.size a ≤ S196608x128.size a)
    (fi : Buf (Elt F) (imgLoc d)) (fp : Buf (Elt F) (poolLoc d)) (fo : Buf (Elt F) (outLoc d))
    (sl : Memref sig .scVector .vmem S48x128 .f32) (g : Buf (Elt F) (sl.view.loc (tV d L))) (Ls : List (View.Piece (Elt F) S48x128 .f32)) :
    ((outBlk L c ho).view.loc (tV d L) ↦[(outBlk L c ho).view.set]{fullShare}
        (outBlk L c ho).view.writes (Elt F) fo
          [⟨Rect.whole _, ReadAs.same.apply (sl.view.read (Elt F) (sl.view.writes (Elt F) g
            (⟨Rect.whole _, ReadAs.same.apply ((poolBlk L (BitVec.ofNat 32 n) hp).view.read (Elt F) fp)⟩ :: Ls)))⟩] : sProp 𝕄)
      ⊢ outLoc d ↦[dstSet L b]{fullShare} (Cert.Spec.outImages2 fi fp : Buf (Elt F) (outLoc d)) := by
  subst hc
  refine Entails.of_eq ?_
  refine pts_of_read_eq (F := F) (c := tV d L) (outBlk L _ ho) _ (Cert.Spec.outImages2 fi fp : Buf (Elt F) (outLoc d)) fullShare ?_
  rw [read_writes_whole_cons]
  simp only [ReadAs.apply_same]
  rw [read_writes_whole_cons]
  funext x
  show (poolBlk L _ hp).view.read (Elt F) fp x = (outBlk L _ ho).view.read (Elt F) (Cert.Spec.outImages2 fi fp : Buf (Elt F) (outLoc d)) x
  rw [View.read_apply, View.read_apply]
  simp only [cast_eq]
  exact (val_pool L b hb n hn hp fi fp x).symm

end Blocks

/-! ## The subcore's semaphores -/

/-- DMA semaphore number `k` of the program. -/
abbrev dsem (k : ℕ) (h : k < sig.nDmaSem := by decide) : DmaSem sig := ⟨k, h⟩
abbrev cell (d : Dev nD) (L : grid0.Coords) (k : DmaSem sig) : GSem nD τ sig := (tV d L, SemLoc.dma k)

omit [FloatOps F] in
/-- The eight DMA semaphores of the task (four the copies in complete on, four the copies out) are among the subcore's own. -/
theorem ownSems0_V8 (d : Dev nD) (L : grid0.Coords) :
    (ownSems0 (tV d L) : sProp 𝕄)
      = iprop(semVal (cell d L (dsem 0)) 0 ∗ semVal (cell d L (dsem 1)) 0 ∗ semVal (cell d L (dsem 2)) 0 ∗ semVal (cell d L (dsem 3)) 0 ∗ semVal (cell d L (dsem 4)) 0 ∗ semVal (cell d L (dsem 5)) 0 ∗ semVal (cell d L (dsem 6)) 0 ∗ semVal (cell d L (dsem 7)) 0
          ∗ bigSep (((((((((ownCells (tV d L)).erase (cell d L (dsem 0))).erase (cell d L (dsem 1))).erase (cell d L (dsem 2))).erase (cell d L (dsem 3))).erase (cell d L (dsem 4))).erase (cell d L (dsem 5))).erase (cell d L (dsem 6))).erase (cell d L (dsem 7))) fun g => semVal g 0) := by
  unfold SparseCore.Cfg.ownSems0
  rw [SparseCore.bigSep_erase' ((mem_ownCells (g := cell d L (dsem 0))).mpr ⟨rfl, by show (SemLoc.dma (dsem 0) : SemLoc sig).isScoped .scVector = true; decide⟩),
    SparseCore.bigSep_erase' (Finset.mem_erase.mpr ⟨fun e => absurd (congrArg (fun g : GSem nD τ sig => g.2) e) (show (SemLoc.dma (dsem 1) : SemLoc sig) ≠ SemLoc.dma (dsem 0) by decide), (mem_ownCells (g := cell d L (dsem 1))).mpr ⟨rfl, by show (SemLoc.dma (dsem 1) : SemLoc sig).isScoped .scVector = true; decide⟩⟩),
    SparseCore.bigSep_erase' (Finset.mem_erase.mpr ⟨fun e => absurd (congrArg (fun g : GSem nD τ sig => g.2) e) (show (SemLoc.dma (dsem 2) : SemLoc sig) ≠ SemLoc.dma (dsem 1) by decide), Finset.mem_erase.mpr ⟨fun e => absurd (congrArg (fun g : GSem nD τ sig => g.2) e) (show (SemLoc.dma (dsem 2) : SemLoc sig) ≠ SemLoc.dma (dsem 0) by decide), (mem_ownCells (g := cell d L (dsem 2))).mpr ⟨rfl, by show (SemLoc.dma (dsem 2) : SemLoc sig).isScoped .scVector = true; decide⟩⟩⟩),
    SparseCore.bigSep_erase' (Finset.mem_erase.mpr ⟨fun e => absurd (congrArg (fun g : GSem nD τ sig => g.2) e) (show (SemLoc.dma (dsem 3) : SemLoc sig) ≠ SemLoc.dma (dsem 2) by decide), Finset.mem_erase.mpr ⟨fun e => absurd (congrArg (fun g : GSem nD τ sig => g.2) e) (show (SemLoc.dma (dsem 3) : SemLoc sig) ≠ SemLoc.dma (dsem 1) by decide), Finset.mem_erase.mpr ⟨fun e => absurd (congrArg (fun g : GSem nD τ sig => g.2) e) (show (SemLoc.dma (dsem 3) : SemLoc sig) ≠ SemLoc.dma (dsem 0) by decide), (mem_ownCells (g := cell d L (dsem 3))).mpr ⟨rfl, by show (SemLoc.dma (dsem 3) : SemLoc sig).isScoped .scVector = true; decide⟩⟩⟩⟩),
    SparseCore.bigSep_erase' (Finset.mem_erase.mpr ⟨fun e => absurd (congrArg (fun g : GSem nD τ sig => g.2) e) (show (SemLoc.dma (dsem 4) : SemLoc sig) ≠ SemLoc.dma (dsem 3) by decide), Finset.mem_erase.mpr ⟨fun e => absurd (congrArg (fun g : GSem nD τ sig => g.2) e) (show (SemLoc.dma (dsem 4) : SemLoc sig) ≠ SemLoc.dma (dsem 2) by decide), Finset.mem_erase.mpr ⟨fun e => absurd (congrArg (fun g : GSem nD τ sig => g.2) e) (show (SemLoc.dma (dsem 4) : SemLoc sig) ≠ SemLoc.dma (dsem 1) by decide), Finset.mem_erase.mpr ⟨fun e => absurd (congrArg (fun g : GSem nD τ sig => g.2) e) (show (SemLoc.dma (dsem 4) : SemLoc sig) ≠ SemLoc.dma (dsem 0) by decide), (mem_ownCells (g := cell d L (dsem 4))).mpr ⟨rfl, by show (SemLoc.dma (dsem 4) : SemLoc sig).isScoped .scVector = true; decide⟩⟩⟩⟩⟩),
    SparseCore.bigSep_erase' (Finset.mem_erase.mpr ⟨fun e => absurd (congrArg (fun g : GSem nD τ sig => g.2) e) (show (SemLoc.dma (dsem 5) : SemLoc sig) ≠ SemLoc.dma (dsem 4) by decide), Finset.mem_erase.mpr ⟨fun e => absurd (congrArg (fun g : GSem nD τ sig => g.2) e) (show (SemLoc.dma (dsem 5) : SemLoc sig) ≠ SemLoc.dma (dsem 3) by decide), Finset.mem_erase.mpr ⟨fun e => absurd (congrArg (fun g : GSem nD τ sig => g.2) e) (show (SemLoc.dma (dsem 5) : SemLoc sig) ≠ SemLoc.dma (dsem 2) by decide), Finset.mem_erase.mpr ⟨fun e => absurd (congrArg (fun g : GSem nD τ sig => g.2) e) (show (SemLoc.dma (dsem 5) : SemLoc sig) ≠ SemLoc.dma (dsem 1) by decide), Finset.mem_erase.mpr ⟨fun e => absurd (congrArg (fun g : GSem nD τ sig => g.2) e) (show (SemLoc.dma (dsem 5) : SemLoc sig) ≠ SemLoc.dma (dsem 0) by decide), (mem_ownCells (g := cell d L (dsem 5))).mpr ⟨rfl, by show (SemLoc.dma (dsem 5) : SemLoc sig).isScoped .scVector = true; decide⟩⟩⟩⟩⟩⟩),
    SparseCore.bigSep_erase' (Finset.mem_erase.mpr ⟨fun e => absurd (congrArg (fun g : GSem nD τ sig => g.2) e) (show (SemLoc.dma (dsem 6) : SemLoc sig) ≠ SemLoc.dma (dsem 5) by decide), Finset.mem_erase.mpr ⟨fun e => absurd (congrArg (fun g : GSem nD τ sig => g.2) e) (show (SemLoc.dma (dsem 6) : SemLoc sig) ≠ SemLoc.dma (dsem 4) by decide), Finset.mem_erase.mpr ⟨fun e => absurd (congrArg (fun g : GSem nD τ sig => g.2) e) (show (SemLoc.dma (dsem 6) : SemLoc sig) ≠ SemLoc.dma (dsem 3) by decide), Finset.mem_erase.mpr ⟨fun e => absurd (congrArg (fun g : GSem nD τ sig => g.2) e) (show (SemLoc.dma (dsem 6) : SemLoc sig) ≠ SemLoc.dma (dsem 2) by decide), Finset.mem_erase.mpr ⟨fun e => absurd (congrArg (fun g : GSem nD τ sig => g.2) e) (show (SemLoc.dma (dsem 6) : SemLoc sig) ≠ SemLoc.dma (dsem 1) by decide), Finset.mem_erase.mpr ⟨fun e => absurd (congrArg (fun g : GSem nD τ sig => g.2) e) (show (SemLoc.dma (dsem 6) : SemLoc sig) ≠ SemLoc.dma (dsem 0) by decide), (mem_ownCells (g := cell d L (dsem 6))).mpr ⟨rfl, by show (SemLoc.dma (dsem 6) : SemLoc sig).isScoped .scVector = true; decide⟩⟩⟩⟩⟩⟩⟩),
    SparseCore.bigSep_erase' (Finset.mem_erase.mpr ⟨fun e => absurd (congrArg (fun g : GSem nD τ sig => g.2) e) (show (SemLoc.dma (dsem 7) : SemLoc sig) ≠ SemLoc.dma (dsem 6) by decide), Finset.mem_erase.mpr ⟨fun e => absurd (congrArg (fun g : GSem nD τ sig => g.2) e) (show (SemLoc.dma (dsem 7) : SemLoc sig) ≠ SemLoc.dma (dsem 5) by decide), Finset.mem_erase.mpr ⟨fun e => absurd (congrArg (fun g : GSem nD τ sig => g.2) e) (show (SemLoc.dma (dsem 7) : SemLoc sig) ≠ SemLoc.dma (dsem 4) by decide), Finset.mem_erase.mpr ⟨fun e => absurd (congrArg (fun g : GSem nD τ sig => g.2) e) (show (SemLoc.dma (dsem 7) : SemLoc sig) ≠ SemLoc.dma (dsem 3) by decide), Finset.mem_erase.mpr ⟨fun e => absurd (congrArg (fun g : GSem nD τ sig => g.2) e) (show (SemLoc.dma (dsem 7) : SemLoc sig) ≠ SemLoc.dma (dsem 2) by decide), Finset.mem_erase.mpr ⟨fun e => absurd (congrArg (fun g : GSem nD τ sig => g.2) e) (show (SemLoc.dma (dsem 7) : SemLoc sig) ≠ SemLoc.dma (dsem 1) by decide), Finset.mem_erase.mpr ⟨fun e => absurd (congrArg (fun g : GSem nD τ sig => g.2) e) (show (SemLoc.dma (dsem 7) : SemLoc sig) ≠ SemLoc.dma (dsem 0) by decide), (mem_ownCells (g := cell d L (dsem 7))).mpr ⟨rfl, by show (SemLoc.dma (dsem 7) : SemLoc sig).isScoped .scVector = true; decide⟩⟩⟩⟩⟩⟩⟩⟩)]

/-! ## The scratch array and its four slots -/

abbrev slot0 : Memref sig .scVector .vmem S48x128 .f32 := ((Memref.whole cc0_scratch0).slice (Rect.unit (s := S4x48x128) ![0, 0, 0] S1x48x128.size inb_S4x48x128_S1x48x128_0_0_0) (fun _ => rfl)).squeeze S48x128 squeezes_S1x48x128_S48x128
abbrev slot1 : Memref sig .scVector .vmem S48x128 .f32 := ((Memref.whole cc0_scratch0).slice (Rect.unit (s := S4x48x128) ![1, 0, 0] S1x48x128.size inb_S4x48x128_S1x48x128_1_0_0) (fun _ => rfl)).squeeze S48x128 squeezes_S1x48x128_S48x128
abbrev slot2 : Memref sig .scVector .vmem S48x128 .f32 := ((Memref.whole cc0_scratch0).slice (Rect.unit (s := S4x48x128) ![2, 0, 0] S1x48x128.size inb_S4x48x128_S1x48x128_2_0_0) (fun _ => rfl)).squeeze S48x128 squeezes_S1x48x128_S48x128
abbrev slot3 : Memref sig .scVector .vmem S48x128 .f32 := ((Memref.whole cc0_scratch0).slice (Rect.unit (s := S4x48x128) ![3, 0, 0] S1x48x128.size inb_S4x48x128_S1x48x128_3_0_0) (fun _ => rfl)).squeeze S48x128 squeezes_S1x48x128_S48x128

omit [FloatOps F] in
theorem inb_slot (s : Fin 4) : ∀ a, (![s.val, 0, 0] : Fin 3 → Nat) a + S1x48x128.size a ≤ S4x48x128.size a := by
  revert s; decide

/-- Slot `s`: the rows `[s, 0, 0] … [s, 47, 127]` of the scratch array. -/
abbrev slotR (s : Fin 4) : Rect S4x48x128 := Rect.unit (s := S4x48x128) ![s.val, 0, 0] S1x48x128.size (inb_slot s)
abbrev slotSet (s : Fin 4) : Finset S4x48x128.Idx := (slotR s).set

omit [FloatOps F] in
theorem set_slot0 : slot0.view.set = slotSet 0 := by
  show (((View.whole cc0_scratch0).slice (Rect.unit (s := S4x48x128) ![0, 0, 0] S1x48x128.size inb_S4x48x128_S1x48x128_0_0_0)).reshape S48x128 squeezes_S1x48x128_S48x128.numel_eq).set = (slotR 0).set
  rw [View.set_reshape, View.set_slice]
  exact Finset.map_refl
omit [FloatOps F] in
theorem set_slot1 : slot1.view.set = slotSet 1 := by
  show (((View.whole cc0_scratch0).slice (Rect.unit (s := S4x48x128) ![1, 0, 0] S1x48x128.size inb_S4x48x128_S1x48x128_1_0_0)).reshape S48x128 squeezes_S1x48x128_S48x128.numel_eq).set = (slotR 1).set
  rw [View.set_reshape, View.set_slice]
  exact Finset.map_refl
omit [FloatOps F] in
theorem set_slot2 : slot2.view.set = slotSet 2 := by
  show (((View.whole cc0_scratch0).slice (Rect.unit (s := S4x48x128) ![2, 0, 0] S1x48x128.size inb_S4x48x128_S1x48x128_2_0_0)).reshape S48x128 squeezes_S1x48x128_S48x128.numel_eq).set = (slotR 2).set
  rw [View.set_reshape, View.set_slice]
  exact Finset.map_refl
omit [FloatOps F] in
theorem set_slot3 : slot3.view.set = slotSet 3 := by
  show (((View.whole cc0_scratch0).slice (Rect.unit (s := S4x48x128) ![3, 0, 0] S1x48x128.size inb_S4x48x128_S1x48x128_3_0_0)).reshape S48x128 squeezes_S1x48x128_S48x128.numel_eq).set = (slotR 3).set
  rw [View.set_reshape, View.set_slice]
  exact Finset.map_refl

omit [FloatOps F] in
theorem slots_disjoint : ∀ s ∈ (Finset.univ : Finset (Fin 4)), ∀ s' ∈ (Finset.univ : Finset (Fin 4)), s ≠ s' → Disjoint (slotSet s) (slotSet s') := by
  intro s _ s' _ h
  refine Rect.unit_disjoint (0 : Fin 3) ?_
  show s.val + 1 ≤ s'.val ∨ s'.val + 1 ≤ s.val
  have := Fin.val_ne_of_ne h; omega

omit [FloatOps F] in
theorem slots_cover : (Finset.univ : Finset (Fin 4)).biUnion slotSet = Finset.univ := by
  ext i
  simp only [Finset.mem_biUnion, Finset.mem_univ, true_and, iff_true]
  refine ⟨⟨(i 0).val, (i 0).isLt⟩, Rect.mem_set_unit.mpr fun a => ?_⟩
  have h1 : (i 1).val < 48 := (i 1).isLt
  have h2 : (i 2).val < 128 := (i 2).isLt
  match a with
  | ⟨0, _⟩ => exact ⟨Nat.le_refl _, Nat.lt_succ_self _⟩
  | ⟨1, _⟩ => exact ⟨Nat.zero_le _, by show (i 1).val < 0 + 48; omega⟩
  | ⟨2, _⟩ => exact ⟨Nat.zero_le _, by show (i 2).val < 0 + 128; omega⟩

omit [FloatOps F] in
theorem fin4_univ : (Finset.univ : Finset (Fin 4)) = {0, 1, 2, 3} := by decide

omit [FloatOps F] in
theorem buf_slots (d : Dev nD) (L : grid0.Coords) (f : Buf (Elt F) ((tV d L).loc cc0_scratch0)) :
    ((tV d L).loc cc0_scratch0 ↦{fullShare} f : sProp 𝕄) = bigSep Finset.univ fun s : Fin 4 => (tV d L).loc cc0_scratch0 ↦[slotSet s]{fullShare} f := by
  rw [← pointsTo_biUnion Finset.univ (ℓ := (tV d L).loc cc0_scratch0) slotSet slots_disjoint, slots_cover]; try rfl

omit [FloatOps F] in
/-- The scratch array held whole is its four slots, each held by its own elements. -/
theorem buf_split4 (d : Dev nD) (L : grid0.Coords) (f : Buf (Elt F) ((tV d L).loc cc0_scratch0)) :
    ((tV d L).loc cc0_scratch0 ↦{fullShare} f : sProp 𝕄)
      = iprop((slot0.view.loc (tV d L) ↦[slot0.view.set]{fullShare} f) ∗ (slot1.view.loc (tV d L) ↦[slot1.view.set]{fullShare} f) ∗ (slot2.view.loc (tV d L) ↦[slot2.view.set]{fullShare} f) ∗ (slot3.view.loc (tV d L) ↦[slot3.view.set]{fullShare} f)) := by
  rw [set_slot0, set_slot1, set_slot2, set_slot3, buf_slots, fin4_univ, SparseCore.bigSep_insert' (by decide), SparseCore.bigSep_insert' (by decide),
    SparseCore.bigSep_insert' (by decide), bigSep_singleton]

omit [FloatOps F] in
/-- The four slots, whatever each holds, are the scratch array at some contents. -/
theorem buf_join4 (d : Dev nD) (L : grid0.Coords) :
    iprop((∃ f, slot0.view.loc (tV d L) ↦[slot0.view.set]{fullShare} f) ∗ (∃ f, slot1.view.loc (tV d L) ↦[slot1.view.set]{fullShare} f) ∗ (∃ f, slot2.view.loc (tV d L) ↦[slot2.view.set]{fullShare} f) ∗ (∃ f, slot3.view.loc (tV d L) ↦[slot3.view.set]{fullShare} f))
      ⊢ (iprop(∃ f, (tV d L).loc cc0_scratch0 ↦{fullShare} f) : sProp 𝕄) := by
  rw [set_slot0, set_slot1, set_slot2, set_slot3]
  iintro ⟨⟨%g0, H0⟩, ⟨%g1, H1⟩, ⟨%g2, H2⟩, ⟨%g3, H3⟩⟩
  ihave H := (pointsTo_biUnion_join (Finset.univ : Finset (Fin 4)) slotSet (![g0, g1, g2, g3] : Fin 4 → Buf (Elt F) ((tV d L).loc cc0_scratch0)) g0 slots_disjoint) $$ [H0 H1 H2 H3]
  · rw [fin4_univ, SparseCore.bigSep_insert' (by decide), SparseCore.bigSep_insert' (by decide), SparseCore.bigSep_insert' (by decide), bigSep_singleton]
    isplitl [H0]; · iexact H0
    isplitl [H1]; · iexact H1
    isplitl [H2]; · iexact H2
    iexact H3
  icases H with ⟨%g, -, Hg⟩
  rw [slots_cover]
  iexists g; iexact Hg

omit [FloatOps F] in
/-- The scratch array is among the subcore's own buffers. -/
theorem ownBufs_V1 (d : Dev nD) (L : grid0.Coords) :
    (ownBufs (tV d L) : sProp 𝕄)
      = iprop((∃ f, (tV d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## Thirty-two blocks, four tokens -/

omit [FloatOps F] in
theorem fin32_univ : (Finset.univ : Finset (Fin 32)) = {0, 1, 2, 3, 4, 5, 6, 7, 8, 9, 10, 11, 12, 13, 14, 15, 16, 17, 18, 19, 20, 21, 22, 23, 24, 25, 26, 27, 28, 29, 30, 31} := by decide

omit [FloatOps F] in
theorem bigSep_fin32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [fin32_univ, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem range4 : Finset.range 4 = {0, 1, 2, 3} := by decide

omit [FloatOps F] in
/-- A read share as four read tokens, one per staging slot's incoming copy, and what is left. -/
theorem toks4 {ℓ : Loc nD τ sig} (f : Buf (Elt F) ℓ) (q : PosShare TreeShare) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h := Transfers.pointsTo_toks_range (Ix := HIx 1) (Name := ℕ) (U := UU) (Lvl := ℕ) (ℓ := ℓ) (S := Finset.univ) (f := f) q 4
  rw [range4, SparseCore.bigSep_insert' (by decide), SparseCore.bigSep_insert' (by decide), SparseCore.bigSep_insert' (by decide), bigSep_singleton] at h
  exact h

/-! ## The waits a task records -/

omit [FloatOps F] in
theorem waits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

section BlocksIn
variable (d : Dev nD) (L : grid0.Coords)

omit [FloatOps F] in
/-- A destination block as the program's memref addresses it. -/
theorem blk_in (b : Fin 32) (c : BitVec 32) (hc : c = BitVec.ofNat 32 (1536 * b.val))
    (ho : ∀ a, k0_off2 L c a + S48x128.size a ≤ S49152x128.size a) (fo : Buf (Elt F) (outLoc d)) :
    (outLoc d ↦[dstSet L b]{fullShare} fo : sProp 𝕄)
      ⊢ (outBlk L c ho).view.loc (tV d L) ↦[(outBlk L c ho).view.set]{fullShare} fo := by
  subst hc; exact .rfl

end BlocksIn

end Cert.KernelIdeal.KP

end
-- ==== Proof.KTileI2.lean ====
/-
  One vector subcore's task, at a symbolic grid point: thirty-two copies of a 48-row block into a staging slot and out
  of it to the result array, each issued on a semaphore of its slot and waited for before that semaphore or that slot is
  used again.  From the subcore's read shares of the two source arrays and its thirty-two destination blocks, the task
  ends with the same read shares and every destination block at the batch result's values.
-/
import proofs.«209156_g27831388078850_cont_9to1_824_17_alg».proof.Proof.KTileI1

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option maxHeartbeats 8000000 in
set_option maxRecDepth 65536 in
/-- The task on vector subcore `(L 0, L 1)` of device `d`. -/
theorem tile_body (hF : (K (F := F)).Facts) (d : Dev nD) (L : grid0.Coords) (q : PosShare TreeShare)
    (fi : Buf (Elt F) (imgLoc d)) (fp : Buf (Elt F) (poolLoc d)) (fo : Buf (Elt F) (outLoc d))
    (O : CellTallies nD τ sig (HIx 1)) (W : Waits sig (HIx 1)) (hO : ∀ g, O g none = 0) :
    iprop(levAts (K (F := F)).L (K (F := F)).lev ∗ emp
        ∗ ((imgLoc d ↦{q} fi : sProp 𝕄) ∗ (poolLoc d ↦{q} fp) ∗ bigSep Finset.univ fun b : Fin 32 => outLoc d ↦[dstSet L b]{fullShare} fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_call L imgV (Memref.isWhole_whole _) poolV (Memref.isWhole_whole _) outV (Memref.isWhole_whole _) bufV (Memref.isWhole_whole _) cc0_scratch1 cc0_scratch2)
          fun _ => iprop(((imgLoc d ↦{q} fi : sProp 𝕄) ∗ (poolLoc d ↦{q} fp) ∗ bigSep Finset.univ fun b : Fin 32 => outLoc d ↦[dstSet L b]{fullShare} (Cert.Spec.outImages2 fi fp : Buf (Elt F) (outLoc d)))
            ∗ scopedBufs (V d (cV L) (jV L)) ∗ scopedSems0 (V d (cV L) (jV L)) ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V8, ownBufs_V1,
    bigSep_fin32, bigSep_fin32]
  iintro ⟨#Hlv, -, ⟨Hi, Hp, Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31⟩, ⟨⟨%g, Hbuf⟩, Hbufs⟩, ⟨Hc0, Hc1, Hc2, Hc3, Hc4, Hc5, Hc6, Hc7, Hsems⟩, HO⟩
  ihave Hmw := ((K (F := F)).mayWaits_none (thr := (V d (cV L) (jV L))) hO) $$ Hlv
  -- the read shares, one token per staging slot's incoming copy
  ihave Hi' := ((toks4 (F := F) (ℓ := (Memref.whole main_v0_scv : Memref sig .scVector .hbm S49152x128 .f32).view.loc (V d (cV L) (jV L))) fi q).1) $$ Hi
  icases Hi' with ⟨Hir, Hi0, Hi1, Hi2, Hi3⟩
  ihave Hp' := ((toks4 (F := F) (ℓ := (Memref.whole main_v1_scv : Memref sig .scVector .hbm S196608x128 .f32).view.loc (V d (cV L) (jV L))) fp q).1) $$ Hp
  icases Hp' with ⟨Hpr, Hp0, Hp1, Hp2, Hp3⟩
  -- the scratch array as its four slots
  ihave Hb := (Entails.of_eq (buf_split4 (F := F) d L g)) $$ Hbuf
  icases Hb with ⟨Hs0, Hs1, Hs2, Hs3⟩
  -- the destination blocks as the program's memrefs address them
  ihave Hb0 := (blk_in (F := F) d L 0 0#32 rfl (k0_off2_inb L 0) fo) $$ Ho0
  ihave Hb1 := (blk_in (F := F) d L 1 1536#32 rfl (k0_off2_inb L 1) fo) $$ Ho1
  ihave Hb2 := (blk_in (F := F) d L 2 3072#32 rfl (k0_off2_inb L 2) fo) $$ Ho2
  ihave Hb3 := (blk_in (F := F) d L 3 4608#32 rfl (k0_off2_inb L 3) fo) $$ Ho3
  ihave Hb4 := (blk_in (F := F) d L 4 6144#32 rfl (k0_off2_inb L 4) fo) $$ Ho4
  ihave Hb5 := (blk_in (F := F) d L 5 7680#32 rfl (k0_off2_inb L 5) fo) $$ Ho5
  ihave Hb6 := (blk_in (F := F) d L 6 9216#32 rfl (k0_off2_inb L 6) fo) $$ Ho6
  ihave Hb7 := (blk_in (F := F) d L 7 10752#32 rfl (k0_off2_inb L 7) fo) $$ Ho7
  ihave Hb8 := (blk_in (F := F) d L 8 12288#32 rfl (k0_off2_inb L 8) fo) $$ Ho8
  ihave Hb9 := (blk_in (F := F) d L 9 13824#32 rfl (k0_off2_inb L 9) fo) $$ Ho9
  ihave Hb10 := (blk_in (F := F) d L 10 15360#32 rfl (k0_off2_inb L 10) fo) $$ Ho10
  ihave Hb11 := (blk_in (F := F) d L 11 16896#32 rfl (k0_off2_inb L 11) fo) $$ Ho11
  ihave Hb12 := (blk_in (F := F) d L 12 18432#32 rfl (k0_off2_inb L 12) fo) $$ Ho12
  ihave Hb13 := (blk_in (F := F) d L 13 19968#32 rfl (k0_off2_inb L 13) fo) $$ Ho13
  ihave Hb14 := (blk_in (F := F) d L 14 21504#32 rfl (k0_off2_inb L 14) fo) $$ Ho14
  ihave Hb15 := (blk_in (F := F) d L 15 23040#32 rfl (k0_off2_inb L 15) fo) $$ Ho15
  ihave Hb16 := (blk_in (F := F) d L 16 24576#32 rfl (k0_off2_inb L 16) fo) $$ Ho16
  ihave Hb17 := (blk_in (F := F) d L 17 26112#32 rfl (k0_off2_inb L 17) fo) $$ Ho17
  ihave Hb18 := (blk_in (F := F) d L 18 27648#32 rfl (k0_off2_inb L 18) fo) $$ Ho18
  ihave Hb19 := (blk_in (F := F) d L 19 29184#32 rfl (k0_off2_inb L 19) fo) $$ Ho19
  ihave Hb20 := (blk_in (F := F) d L 20 30720#32 rfl (k0_off2_inb L 20) fo) $$ Ho20
  ihave Hb21 := (blk_in (F := F) d L 21 32256#32 rfl (k0_off2_inb L 21) fo) $$ Ho21
  ihave Hb22 := (blk_in (F := F) d L 22 33792#32 rfl (k0_off2_inb L 22) fo) $$ Ho22
  ihave Hb23 := (blk_in (F := F) d L 23 35328#32 rfl (k0_off2_inb L 23) fo) $$ Ho23
  ihave Hb24 := (blk_in (F := F) d L 24 36864#32 rfl (k0_off2_inb L 24) fo) $$ Ho24
  ihave Hb25 := (blk_in (F := F) d L 25 38400#32 rfl (k0_off2_inb L 25) fo) $$ Ho25
  ihave Hb26 := (blk_in (F := F) d L 26 39936#32 rfl (k0_off2_inb L 26) fo) $$ Ho26
  ihave Hb27 := (blk_in (F := F) d L 27 41472#32 rfl (k0_off2_inb L 27) fo) $$ Ho27
  ihave Hb28 := (blk_in (F := F) d L 28 43008#32 rfl (k0_off2_inb L 28) fo) $$ Ho28
  ihave Hb29 := (blk_in (F := F) d L 29 44544#32 rfl (k0_off2_inb L 29) fo) $$ Ho29
  ihave Hb30 := (blk_in (F := F) d L 30 46080#32 rfl (k0_off2_inb L 30) fo) $$ Ho30
  ihave Hb31 := (blk_in (F := F) d L 31 47616#32 rfl (k0_off2_inb L 31) fo) $$ Ho31
  sl_unfold [cc0_sc_call]
  sl_exec_parts
  sl_step
  -- the values the copies carried, by their definitions: reads of the source blocks and of the staging slots
  delta tile_body.sl.dma0 tile_body.sl.dma0_1 tile_body.sl.dma0_2 tile_body.sl.dma0_3 tile_body.sl.dma0_4 tile_body.sl.dma0_5 tile_body.sl.dma0_6 tile_body.sl.dma0_7 tile_body.sl.dma0_8 tile_body.sl.dma0_9 tile_body.sl.dma0_10 tile_body.sl.dma0_11 tile_body.sl.dma0_12 tile_body.sl.dma0_13 tile_body.sl.dma0_14 tile_body.sl.dma0_15 tile_body.sl.dma0_16 tile_body.sl.dma0_17 tile_body.sl.dma0_18 tile_body.sl.dma0_19 tile_body.sl.dma0_20 tile_body.sl.dma0_21 tile_body.sl.dma0_22 tile_body.sl.dma0_23 tile_body.sl.dma0_24 tile_body.sl.dma0_25 tile_body.sl.dma0_26 tile_body.sl.dma0_27 tile_body.sl.dma0_28 tile_body.sl.dma0_29 tile_body.sl.dma0_30 tile_body.sl.dma0_31 tile_body.sl.dma0_32 tile_body.sl.dma0_33 tile_body.sl.dma0_34 tile_body.sl.dma0_35 tile_body.sl.dma0_36 tile_body.sl.dma0_37 tile_body.sl.dma0_38 tile_body.sl.dma0_39 tile_body.sl.dma0_40 tile_body.sl.dma0_41 tile_body.sl.dma0_42 tile_body.sl.dma0_43 tile_body.sl.dma0_44 tile_body.sl.dma0_45 tile_body.sl.dma0_46 tile_body.sl.dma0_47 tile_body.sl.dma0_48 tile_body.sl.dma0_49 tile_body.sl.dma0_50 tile_body.sl.dma0_51 tile_body.sl.dma0_52 tile_body.sl.dma0_53 tile_body.sl.dma0_54 tile_body.sl.dma0_55 tile_body.sl.dma0_56 tile_body.sl.dma0_57 tile_body.sl.dma0_58 tile_body.sl.dma0_59 tile_body.sl.dma0_60 tile_body.sl.dma0_61 tile_body.sl.dma0_62 tile_body.sl.dma0_63
  -- each destination block holds the source block its copies carried: the batch result there
  ihave Hr0 := (blk_pool (F := F) d L 0 (by decide) 0#32 rfl (k0_off2_inb L 0) 127488 (by decide) (k0_off1_inb L 0) fi fp fo _ _ _) $$ Hb0
  ihave Hr1 := (blk_img (F := F) d L 1 (by decide) 1536#32 rfl (k0_off2_inb L 1) (k0_off2_inb L 1) fi fp fo _ _ _) $$ Hb1
  ihave Hr2 := (blk_pool (F := F) d L 2 (by decide) 3072#32 rfl (k0_off2_inb L 2) 99840 (by decide) (k0_off1_inb L 1) fi fp fo _ _ _) $$ Hb2
  ihave Hr3 := (blk_pool (F := F) d L 3 (by decide) 4608#32 rfl (k0_off2_inb L 3) 112128 (by decide) (k0_off1_inb L 2) fi fp fo _ _ _) $$ Hb3
  ihave Hr4 := (blk_pool (F := F) d L 4 (by decide) 6144#32 rfl (k0_off2_inb L 4) 119808 (by decide) (k0_off1_inb L 3) fi fp fo _ _ _) $$ Hb4
  ihave Hr5 := (blk_pool (F := F) d L 5 (by decide) 7680#32 rfl (k0_off2_inb L 5) 49152 (by decide) (k0_off1_inb L 4) fi fp fo _ _ _) $$ Hb5
  ihave Hr6 := (blk_pool (F := F) d L 6 (by decide) 9216#32 rfl (k0_off2_inb L 6) 23040 (by decide) (k0_off1_inb L 5) fi fp fo _ _ _) $$ Hb6
  ihave Hr7 := (blk_img (F := F) d L 7 (by decide) 10752#32 rfl (k0_off2_inb L 7) (k0_off2_inb L 7) fi fp fo _ _ _) $$ Hb7
  ihave Hr8 := (blk_img (F := F) d L 8 (by decide) 12288#32 rfl (k0_off2_inb L 8) (k0_off2_inb L 8) fi fp fo _ _ _) $$ Hb8
  ihave Hr9 := (blk_pool (F := F) d L 9 (by decide) 13824#32 rfl (k0_off2_inb L 9) 73728 (by decide) (k0_off1_inb L 6) fi fp fo _ _ _) $$ Hb9
  ihave Hr10 := (blk_pool (F := F) d L 10 (by decide) 15360#32 rfl (k0_off2_inb L 10) 130560 (by decide) (k0_off1_inb L 7) fi fp fo _ _ _) $$ Hb10
  ihave Hr11 := (blk_pool (F := F) d L 11 (by decide) 16896#32 rfl (k0_off2_inb L 11) 38400 (by decide) (k0_off1_inb L 8) fi fp fo _ _ _) $$ Hb11
  ihave Hr12 := (blk_pool (F := F) d L 12 (by decide) 18432#32 rfl (k0_off2_inb L 12) 178176 (by decide) (k0_off1_inb L 9) fi fp fo _ _ _) $$ Hb12
  ihave Hr13 := (blk_pool (F := F) d L 13 (by decide) 19968#32 rfl (k0_off2_inb L 13) 167424 (by decide) (k0_off1_inb L 10) fi fp fo _ _ _) $$ Hb13
  ihave Hr14 := (blk_img (F := F) d L 14 (by decide) 21504#32 rfl (k0_off2_inb L 14) (k0_off2_inb L 14) fi fp fo _ _ _) $$ Hb14
  ihave Hr15 := (blk_img (F := F) d L 15 (by decide) 23040#32 rfl (k0_off2_inb L 15) (k0_off2_inb L 15) fi fp fo _ _ _) $$ Hb15
  ihave Hr16 := (blk_pool (F := F) d L 16 (by decide) 24576#32 rfl (k0_off2_inb L 16) 118272 (by decide) (k0_off1_inb L 11) fi fp fo _ _ _) $$ Hb16
  ihave Hr17 := (blk_pool (F := F) d L 17 (by decide) 26112#32 rfl (k0_off2_inb L 17) 43008 (by decide) (k0_off1_inb L 12) fi fp fo _ _ _) $$ Hb17
  ihave Hr18 := (blk_img (F := F) d L 18 (by decide) 27648#32 rfl (k0_off2_inb L 18) (k0_off2_inb L 18) fi fp fo _ _ _) $$ Hb18
  ihave Hr19 := (blk_pool (F := F) d L 19 (by decide) 29184#32 rfl (k0_off2_inb L 19) 142848 (by decide) (k0_off1_inb L 13) fi fp fo _ _ _) $$ Hb19
  ihave Hr20 := (blk_img (F := F) d L 20 (by decide) 30720#32 rfl (k0_off2_inb L 20) (k0_off2_inb L 20) fi fp fo _ _ _) $$ Hb20
  ihave Hr21 := (blk_pool (F := F) d L 21 (by decide) 32256#32 rfl (k0_off2_inb L 21) 0 (by decide) (k0_off1_inb L 14) fi fp fo _ _ _) $$ Hb21
  ihave Hr22 := (blk_img (F := F) d L 22 (by decide) 33792#32 rfl (k0_off2_inb L 22) (k0_off2_inb L 22) fi fp fo _ _ _) $$ Hb22
  ihave Hr23 := (blk_pool (F := F) d L 23 (by decide) 35328#32 rfl (k0_off2_inb L 23) 75264 (by decide) (k0_off1_inb L 15) fi fp fo _ _ _) $$ Hb23
  ihave Hr24 := (blk_pool (F := F) d L 24 (by decide) 36864#32 rfl (k0_off2_inb L 24) 105984 (by decide) (k0_off1_inb L 16) fi fp fo _ _ _) $$ Hb24
  ihave Hr25 := (blk_pool (F := F) d L 25 (by decide) 38400#32 rfl (k0_off2_inb L 25) 133632 (by decide) (k0_off1_inb L 17) fi fp fo _ _ _) $$ Hb25
  ihave Hr26 := (blk_pool (F := F) d L 26 (by decide) 39936#32 rfl (k0_off2_inb L 26) 136704 (by decide) (k0_off1_inb L 18) fi fp fo _ _ _) $$ Hb26
  ihave Hr27 := (blk_pool (F := F) d L 27 (by decide) 41472#32 rfl (k0_off2_inb L 27) 159744 (by decide) (k0_off1_inb L 19) fi fp fo _ _ _) $$ Hb27
  ihave Hr28 := (blk_pool (F := F) d L 28 (by decide) 43008#32 rfl (k0_off2_inb L 28) 115200 (by decide) (k0_off1_inb L 20) fi fp fo _ _ _) $$ Hb28
  ihave Hr29 := (blk_img (F := F) d L 29 (by decide) 44544#32 rfl (k0_off2_inb L 29) (k0_off2_inb L 29) fi fp fo _ _ _) $$ Hb29
  ihave Hr30 := (blk_pool (F := F) d L 30 (by decide) 46080#32 rfl (k0_off2_inb L 30) 138240 (by decide) (k0_off1_inb L 21) fi fp fo _ _ _) $$ Hb30
  ihave Hr31 := (blk_img (F := F) d L 31 (by decide) 47616#32 rfl (k0_off2_inb L 31) (k0_off2_inb L 31) fi fp fo _ _ _) $$ Hb31
  isplitl [Hir Hi0 Hi1 Hi2 Hi3 Hpr Hp0 Hp1 Hp2 Hp3 Hr0 Hr1 Hr2 Hr3 Hr4 Hr5 Hr6 Hr7 Hr8 Hr9 Hr10 Hr11 Hr12 Hr13 Hr14 Hr15 Hr16 Hr17 Hr18 Hr19 Hr20 Hr21 Hr22 Hr23 Hr24 Hr25 Hr26 Hr27 Hr28 Hr29 Hr30 Hr31]
  · isplitl [Hir Hi0 Hi1 Hi2 Hi3]
    · iapply ((toks4 (F := F) (ℓ := (Memref.whole main_v0_scv : Memref sig .scVector .hbm S49152x128 .f32).view.loc (V d (cV L) (jV L))) fi q).2)
      isplitl [Hir]; · iexact Hir
      isplitl [Hi0]; · iexact Hi0
      isplitl [Hi1]; · iexact Hi1
      isplitl [Hi2]; · iexact Hi2
      iexact Hi3
    isplitl [Hpr Hp0 Hp1 Hp2 Hp3]
    · iapply ((toks4 (F := F) (ℓ := (Memref.whole main_v1_scv : Memref sig .scVector .hbm S196608x128 .f32).view.loc (V d (cV L) (jV L))) fp q).2)
      isplitl [Hpr]; · iexact Hpr
      isplitl [Hp0]; · iexact Hp0
      isplitl [Hp1]; · iexact Hp1
      isplitl [Hp2]; · iexact Hp2
      iexact Hp3
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    isplitl [Hr18]; · iexact Hr18
    isplitl [Hr19]; · iexact Hr19
    isplitl [Hr20]; · iexact Hr20
    isplitl [Hr21]; · iexact Hr21
    isplitl [Hr22]; · iexact Hr22
    isplitl [Hr23]; · iexact Hr23
    isplitl [Hr24]; · iexact Hr24
    isplitl [Hr25]; · iexact Hr25
    isplitl [Hr26]; · iexact Hr26
    isplitl [Hr27]; · iexact Hr27
    isplitl [Hr28]; · iexact Hr28
    isplitl [Hr29]; · iexact Hr29
    isplitl [Hr30]; · iexact Hr30
    iexact Hr31
  isplitl [Hs0 Hs1 Hs2 Hs3 Hbufs]
  · isplitl [Hs0 Hs1 Hs2 Hs3]
    · iapply (buf_join4 (F := F) d L)
      isplitl [Hs0]; · iexists _; iexact Hs0
      isplitl [Hs1]; · iexists _; iexact Hs1
      isplitl [Hs2]; · iexists _; iexact Hs2
      iexists _; iexact Hs3
    · iexact Hbufs
  isplitl [Hc0 Hc1 Hc2 Hc3 Hc4 Hc5 Hc6 Hc7 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexact Hsems
  iexists _; isplitr
  rotate_left
  · iexact HO
  · ipureintro
    repeat (first | exact fun p hp => Or.inl hp | refine waits_ins _ ?_)

/-! ## The launch theorem's obligation -/

theorem defs₀_vector (c : Fin τ.nSC) (s : Fin τ.nSub) :
    defs₀ (F := F) (.scVector c s) 0 ()
      = SparseCore.onTile hcore0 hsub0 (fun c s => cc0_sc_call (coordsV c s)
          imgV (Memref.isWhole_whole _) poolV (Memref.isWhole_whole _) outV (Memref.isWhole_whole _)
          bufV (Memref.isWhole_whole _) cc0_scratch1 cc0_scratch2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body obligation of the call: every vector subcore's task. -/
theorem tileObl (f0 : (d : Dev nD) → Buf (Elt F) (imgLoc d)) (f1 : (d : Dev nD) → Buf (Elt F) (poolLoc d))
    (o0 : (d : Dev nD) → Buf (Elt F) (outLoc d)) : (K (F := F)).TileObl (D (F := F)) 𝒱 (P f0 f1 o0) v₀ 0 := by
  intro d c i O W hO _ _
  simp only [show (P f0 f1 o0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body facts d (coordsV ⟨_, hc.1⟩ ⟨_, hc.2⟩) (qT (Fin.cast nCore_zero c) (Fin.cast nSub_zero i)) (f0 d) (f1 d) (o0 d) O W hO).trans
    (wp_mono frame _ _ fun _ => obl_post)

end Cert.KernelIdeal.KP

end
-- ==== Proof.KSplitI.lean ====
/-
  How one SparseCore's operands are dealt to its sixteen vector subcores and gathered back: each read share is cut into
  sixteen read tokens (what is left stays with the SparseCore until the tokens return), and the destination blocks are
  already grouped by subcore.
-/
import proofs.«209156_g27831388078850_cont_9to1_824_17_alg».proof.Proof.KPayI
import Idealize.ShloMosaic.Lib.SparseCore.Launch
import Idealize.ShloMosaic.Lib.Tactic

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (f0 : (d : Dev nD) → Buf (Elt F) (imgLoc d)) (f1 : (d : Dev nD) → Buf (Elt F) (poolLoc d))
  (o0 : (d : Dev nD) → Buf (Elt F) (outLoc d))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P f0 f1 o0) 0 := by
  intro d c
  show iprop((imgLoc d ↦{qS (Fin.cast nCore_zero c)} f0 d) ∗ (poolLoc d ↦{qS (Fin.cast nCore_zero c)} f1 d) ∗ bigSep Finset.univ fun i : Fin 16 => outBlocks d (Fin.cast nCore_zero c) i (o0 d)) ⊢ |={Set.univ}=> iprop(
      (bigSep Finset.univ fun i : Fin ((K (F := F)).nSub 0) => iprop((imgLoc d ↦{qT (Fin.cast nCore_zero c) (Fin.cast nSub_zero i)} f0 d) ∗ (poolLoc d ↦{qT (Fin.cast nCore_zero c) (Fin.cast nSub_zero i)} f1 d) ∗ outBlocks d (Fin.cast nCore_zero c) (Fin.cast nSub_zero i) (o0 d)))
      ∗ ((bigSep Finset.univ fun i : Fin ((K (F := F)).nSub 0) => iprop((imgLoc d ↦{qT (Fin.cast nCore_zero c) (Fin.cast nSub_zero i)} f0 d) ∗ (poolLoc d ↦{qT (Fin.cast nCore_zero c) (Fin.cast nSub_zero i)} f1 d) ∗ outBlocks d (Fin.cast nCore_zero c) (Fin.cast nSub_zero i) (res f0 f1 d)))
          -∗ iprop((imgLoc d ↦{qS (Fin.cast nCore_zero c)} f0 d) ∗ (poolLoc d ↦{qS (Fin.cast nCore_zero c)} f1 d) ∗ bigSep Finset.univ fun i : Fin 16 => outBlocks d (Fin.cast nCore_zero c) i (res f0 f1 d))))
  rw [bigSep_tasks (F := F) (fun i => iprop((imgLoc d ↦{qT (Fin.cast nCore_zero c) i} f0 d) ∗ (poolLoc d ↦{qT (Fin.cast nCore_zero c) i} f1 d) ∗ outBlocks d (Fin.cast nCore_zero c) i (o0 d))),
    bigSep_tasks (F := F) (fun i => iprop((imgLoc d ↦{qT (Fin.cast nCore_zero c) i} f0 d) ∗ (poolLoc d ↦{qT (Fin.cast nCore_zero c) i} f1 d) ∗ outBlocks d (Fin.cast nCore_zero c) i (res f0 f1 d))), bigSep_sep', bigSep_sep', bigSep_sep', bigSep_sep']
  iintro ⟨Hi, Hp, Ho⟩
  ihave Hi' := (Transfers.pointsTo_toks_split (qS (Fin.cast nCore_zero c)) 16) $$ Hi
  icases Hi' with ⟨Hir, Hit⟩
  ihave Hp' := (Transfers.pointsTo_toks_split (qS (Fin.cast nCore_zero c)) 16) $$ Hp
  icases Hp' with ⟨Hpr, Hpt⟩
  imodintro
  isplitl [Hit Hpt Ho]
  · isplitl [Hit]; · iexact Hit
    isplitl [Hpt]; · iexact Hpt
    iexact Ho
  iintro ⟨Hit, Hpt, Ho⟩
  isplitl [Hir Hit]
  · iapply (Transfers.pointsTo_toks_join (qS (Fin.cast nCore_zero c)) 16)
    isplitl [Hir]; · iexact Hir
    iexact Hit
  isplitl [Hpr Hpt]
  · iapply (Transfers.pointsTo_toks_join (qS (Fin.cast nCore_zero c)) 16)
    isplitl [Hpr]; · iexact Hpr
    iexact Hpt
  iexact Ho

end Cert.KernelIdeal.KP

end
-- ==== Proof.KTcDatI.lean ====
/-
  The TensorCore region's proof data, for the pipeline library: the region's pipeline stages nothing (no window: both
  operands and the result stay in HBM), so its proof data is the body's invariant before and after the one grid point,
  what the TensorCore owes meanwhile (what it owes after the SparseCore call, unchanged) and the bound on its recorded
  waits. The invariant holds the two arrays whole, the kernel's 16 transfer semaphores at zero and the staging scratch.
-/
import proofs.«209156_g27831388078850_cont_9to1_824_17_alg».proof.Proof.KCommonI
import proofs.«209156_g27831388078850_cont_9to1_824_17_alg».proof.Proof.Spec
import proofs.«209156_g27831388078850_cont_9to1_824_17_alg».proof.Proof.Gen.KernelIdeal.Launch
import Idealize.ShloMosaic.Lib.Pipeline.Regions

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The one admissible contents of the (absent) prefetched tables. -/
abbrev admT : (p : Fin 1) → (pcfgs (F := F) p).Adm := fun p => (cfgs p).toPCfg_adm

/-- The pipeline at those contents. -/
abbrev cfgT : Pipeline.Cfg sig Λ₀ := Pipeline.pin (pcfgs (F := F)) admT 0

theorem phinj : Function.Injective (Pipeline.cellOf (nD := nD) (τ := τ) (Pipeline.pin (pcfgs (F := F)) admT)) :=
  (Gen.launch1.toP (Val := Elt F)).cellOf_inj admT

/-- The kernel's own semaphores: the 8 read and the 8 write semaphores. -/
def osem : Fin 16 → SemLoc sig := fun k => .dma ⟨8 + k.val, by have := k.isLt; show 8 + k.val < 24; omega⟩

theorem ho : Pipeline.OwnSemFacts (pcfgs (F := F) 0).spec osem :=
  ⟨by decide, by decide, fun _ w => w.elim0⟩

section Dat

variable (g0 : S49152x128.Idx → Elt F .f32) (g3 : S196608x128.Idx → Elt F .f32) (c : Dev nD)

/-- The body's invariant before the point: the level facts, the two arrays whole, the kernel's semaphores at zero, the scratch. -/
def Φ0 : sProp 𝕄 :=
  iprop(levAts (K (F := F)).L (K (F := F)).lev
    ∗ (((SparseCore.T c : Thread nD τ).loc main_v0) ↦{fullShare} g0)
    ∗ (((SparseCore.T c : Thread nD τ).loc main_v3) ↦{fullShare} g3)
    ∗ Pipeline.ownSems0 osem c ∗ Pipeline.scopedRest (cfgT (F := F)).spec c)

/-- After it: the pool array at the returned pool. -/
def Φ1 : sProp 𝕄 :=
  iprop(levAts (K (F := F)).L (K (F := F)).lev
    ∗ (((SparseCore.T c : Thread nD τ).loc main_v0) ↦{fullShare} g0)
    ∗ (((SparseCore.T c : Thread nD τ).loc main_v3) ↦{fullShare} Cert.Spec.outPool2 (α := Elt F .f32) g0 g3)
    ∗ Pipeline.ownSems0 osem c ∗ Pipeline.scopedRest (cfgT (F := F)).spec c)

/-- The region's proof data on core `c`. -/
def rdatT : Pipeline.RDat τ (Elt F) (HIx 1) ℕ UU ℕ (cfgT (F := F)) c where
  A := fun w => w.elim0
  after := fun w => w.elim0
  Φ := fun t => if t.val = 0 then Φ0 g0 g3 c else Φ1 g0 g3 c
  q := fun w => w.elim0
  owed := fun _ => (K (F := F)).Otc c 1
  recorded := fun _ => {p | (K (F := F)).lev ((SparseCore.T c : Thread nD τ), p.1) p.2 ≤ 8 * 1}

theorem rdatT_Φ_zero : (rdatT g0 g3 c).Φ 0 = Φ0 g0 g3 c := by
  show (if ((0 : Fin ((cfgT (F := F)).N + 1)).val = 0) then Φ0 g0 g3 c else Φ1 g0 g3 c) = _
  exact if_pos (Fin.val_zero _)
theorem rdatT_Φ_last : (rdatT g0 g3 c).Φ (Fin.last (cfgT (F := F)).N) = Φ1 g0 g3 c := by
  show (if ((Fin.last (cfgT (F := F)).N).val = 0) then Φ0 g0 g3 c else Φ1 g0 g3 c) = _
  exact if_neg (by rw [Fin.val_last]; show grid1.N ≠ 0; rw [Gen.N_1]; decide)
theorem rdatT_owed (t) : (rdatT g0 g3 c).owed t = (K (F := F)).Otc c 1 := rfl

end Dat

end Cert.KernelIdeal.KP

end
-- ==== Proof.KTcRegionI.lean ====
/-
  The TensorCore kernel's region as one step of @main's proof, from the body's obligation.  The region's pipeline has no
  window, so nothing is staged, fetched or flushed: entering it hands the body the two arrays, the kernel's own sixteen
  semaphores at zero and the scratch buffer (the invariant before the one grid point); leaving it takes them back with
  the pool array at the returned pool.  What the TensorCore owes the SparseCore launch's handshakes (nothing more, after
  the only call) passes through unchanged.
-/
import proofs.«209156_g27831388078850_cont_9to1_824_17_alg».proof.Proof.KTcDatI
import proofs.«209156_g27831388078850_cont_9to1_824_17_alg».proof.Proof.KMainCI

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [∀ e, Nonempty (Elt F e)]

omit [FloatOps F] [∀ e, Nonempty (Elt F e)] in
/-- A separating conjunction over an index type with no element is empty. -/
theorem bigSep_fin_zero {n : Nat} (h : n = 0) (Φ : Fin n → sProp 𝕄) : bigSep Finset.univ Φ = (BI.emp : sProp 𝕄) := by
  subst h; rw [Finset.univ_eq_empty, bigSep_empty]

section Region

variable (g0 : S49152x128.Idx → Elt F .f32) (g3 : S196608x128.Idx → Elt F .f32)

/-- The proof data of the program's one pipeline on every core. -/
def rdatsT : (p : Fin 1) → (c : Dev nD) → Pipeline.RDat τ (Elt F) (HIx 1) ℕ UU ℕ (Pipeline.pin (pcfgs (F := F)) admT p) c :=
  fun | 0 => fun c => rdatT g0 g3 c | ⟨_ + 1, h⟩ => absurd h (Nat.not_lt.2 (Nat.le_add_left _ _))

/-- What the TensorCore owes after the call and its recorded waits, as the launch's thread state holds them. -/
abbrev tcOwes (c : Dev nD) : sProp 𝕄 := iprop(∃ W, ⌜(K (F := F)).WBelow (T c) W (8 * 1)⌝ ∗ owes (T c) ((K (F := F)).Otc c 1) W)

omit [FloatOps F] [∀ e, Nonempty (Elt F e)] in
theorem tcSt_split (c : Dev nD) : ((K (F := F)).tcSt EH c 1 : sProp 𝕄) ⊢ iprop(tcOwes (F := F) c ∗ (tcOwes (F := F) c -∗ (K (F := F)).tcSt EH c 1)) := by
  unfold SparseCore.Cfg.tcSt
  iintro ⟨HO, Hrest⟩
  isplitl [HO]; · iexact HO
  iintro HO
  isplitl [HO]; · iexact HO
  iexact Hrest

theorem W_zero : (cfgT (F := F)).W = 0 := rfl
theorem preK_zero : (pcfgs (F := F) 0).pre.K = 0 := rfl

/-- The region's record for the pipeline library: its (empty) layout, the kernel's own semaphores, the body obligation,
    and the four entailments around the TensorCore's state before and after the region. -/
def regionT (hbody : ∀ c, (rdatsT g0 g3 0 c).BodyObligation (defs₀ (F := F)) 𝒱₀ (none : HIx 1) Set.univ) :
    Pipeline.RDat.RegionSeg (pcfgs (F := F)) admT (rdatsT g0 g3) (none : HIx 1) (defs₀ (F := F)) 𝒱₀ (K (F := F)).L (K (F := F)).lev 0 where
  win := Gen.winFacts1.to₀
  block_pos := Gen.block_pos1
  stage_whole := Gen.stage_whole1
  K := Fin 16
  osem := osem
  ho := ho
  hbody := hbody
  hwaits := fun c => Pipeline.RDat.cellsWaits_intro (Pipeline.pin (pcfgs (F := F)) admT) (rdatsT g0 g3) none 0 c (fun w => w.elim0)
  pre := fun c => iprop((K (F := F)).tcSt EH c 1 ∗ (imgLoc c ↦{fullShare} g0) ∗ (opLoc c ↦{fullShare} g3))
  post := fun c => iprop((K (F := F)).tcSt EH c 1 ∗ (imgLoc c ↦{fullShare} g0) ∗ (opLoc c ↦{fullShare} Cert.Spec.outPool2 (α := Elt F .f32) g0 g3))
  X := fun c => iprop(levAts (K (F := F)).L (K (F := F)).lev ∗ (imgLoc c ↦{fullShare} g0) ∗ (opLoc c ↦{fullShare} g3) ∗ Pipeline.ownSems0 osem c)
  Y := fun c => iprop((imgLoc c ↦{fullShare} g0) ∗ (opLoc c ↦{fullShare} Cert.Spec.outPool2 (α := Elt F .f32) g0 g3))
  Z := fun c => iprop(tcOwes (F := F) c -∗ (K (F := F)).tcSt EH c 1)
  hentry := fun c => by
    have hA : ((rdatsT g0 g3 0 c).arrays (rdatsT g0 g3 0 c).A : sProp 𝕄) = BI.emp := by
      unfold Pipeline.RDat.arrays; exact bigSep_fin_zero W_zero _
    have hP : (Pipeline.prefHeld (pcfgs (F := F) 0).pre c (fun _ => fullShare) (admT (F := F) 0).1 : sProp 𝕄) = BI.emp := by
      unfold Pipeline.prefHeld; exact bigSep_fin_zero preK_zero _
    rw [hA, hP]
    iintro ⟨⟨Hst, Hv0, Hv3⟩, Hsems, #Hlv⟩
    ihave H := (tcSt_split (F := F) c) $$ Hst
    icases H with ⟨⟨%W, %hW, HO⟩, HZ⟩
    imodintro
    isplitr; · iempintro
    isplitr; · iempintro
    isplitl [HO]
    · iexists W; isplitr
      · ipureintro; exact fun p hp => Or.inl (hW p hp)
      · iexact HO
    isplitl [Hv0 Hv3 Hsems]
    · isplitr; · iexact Hlv
      isplitl [Hv0]; · iexact Hv0
      isplitl [Hv3]; · iexact Hv3
      iexact Hsems
    iexact HZ
  hin := fun c => by
    rw [show (rdatsT g0 g3 0 c).Φ 0 = Φ0 g0 g3 c from rdatT_Φ_zero g0 g3 c]
    unfold Φ0
    iintro ⟨⟨#Hlv, Hv0, Hv3, Hsems⟩, -, Hsr⟩
    isplitr; · iexact Hlv
    isplitl [Hv0]; · iexact Hv0
    isplitl [Hv3]; · iexact Hv3
    isplitl [Hsems]; · iexact Hsems
    iexact Hsr
  hout := fun c => by
    rw [show (rdatsT g0 g3 0 c).Φ (Fin.last (Pipeline.pin (pcfgs (F := F)) admT 0).N) = Φ1 g0 g3 c from rdatT_Φ_last g0 g3 c]
    unfold Φ1
    iintro ⟨-, Hv0, Hv3, Hsems, Hsr⟩
    isplitl [Hv0 Hv3]
    · isplitl [Hv0]; · iexact Hv0
      iexact Hv3
    isplitl [Hsems]; · iexact Hsems
    iexact Hsr
  hexit := fun c => by
    iintro ⟨-, ⟨%W, %hW, HO⟩, ⟨Hv0, Hv3⟩, HZ⟩
    imodintro
    isplitl [HO HZ]
    · iapply HZ
      iexists W; isplitr
      · ipureintro
        intro p hp
        rcases hW hp with h | ⟨w, _⟩
        · exact h
        · exact w.elim0
      · iexact HO
    isplitl [Hv0]; · iexact Hv0
    iexact Hv3

end Region

/-- The region as a step of @main's proof, from the body's obligation at every contents of the two arrays. -/
theorem tc_region_of
    (hbody : ∀ (g0 : S49152x128.Idx → Elt F .f32) (g3 : S196608x128.Idx → Elt F .f32) (c : Dev nD),
      (rdatT g0 g3 c).BodyObligation (defs₀ (F := F)) 𝒱₀ (none : HIx 1) Set.univ) :
    TcRegion (F := F) (fun _ => iprop(emp)) := by
  intro Pp κ d g0 g3 α k Q
  have hprog : (Prog.op (TpuEff.customCall (SparseCore.inner (Pipeline.entry (0 : Fin 1))) ()) k
        : Prog (TpuEff nD τ sig (Elt F) (SparseCore.Sig (ΛP (F := F)) 1) .tc) α)
      = (SparseCore.liftProg (Q := 1) (Prog.op (TpuEff.customCall (Pipeline.entry (0 : Fin 1)) ()) fun _ => Prog.ret PUnit.unit)) >>= k := rfl
  rw [hprog, wp_bind]
  have hG : (Pipeline.cellsGhost (Pipeline.pin (pcfgs (F := F)) admT) EP 0 d : sProp 𝕄) = BI.emp := by
    unfold Pipeline.cellsGhost; exact bigSep_fin_zero W_zero _
  have hT : (Pipeline.toksInit (Pipeline.pin (pcfgs (F := F)) admT) EP 0 d : sProp 𝕄) = BI.emp := by
    unfold Pipeline.toksInit; exact bigSep_fin_zero W_zero _
  iintro ⟨#Hctx, Hst, -, Hv0, Hv3, Hb, Hk⟩
  ihave Hlv := ((K (F := F)).ctx_levAts (EH := EH) (P := Pp) κ) $$ Hctx
  iapply ((K (F := F)).wp_liftProg (D (F := F)) 𝒱 (SparseCore.T d) Set.univ none _ _)
  iapply (Pipeline.RDat.RegionSeg.wp (pcfgs (F := F)) admT (rdatsT g0 g3) (none : HIx 1) phinj EP (defs₀ (F := F)) 𝒱₀
      (K (F := F)).L (K (F := F)).lev (regionT g0 g3 (hbody g0 g3)) d none (fun _ h => nomatch h) (fun _ => Prog.ret PUnit.unit) _) $$ [Hst Hv0 Hv3 Hb Hk Hlv]
  rw [hG, hT,
    show (regionT g0 g3 (hbody g0 g3)).pre d
      = iprop((K (F := F)).tcSt EH d 1 ∗ (imgLoc d ↦{fullShare} g0) ∗ (opLoc d ↦{fullShare} g3)) from rfl,
    show (regionT g0 g3 (hbody g0 g3)).post d
      = iprop((K (F := F)).tcSt EH d 1 ∗ (imgLoc d ↦{fullShare} g0) ∗ (opLoc d ↦{fullShare} Cert.Spec.outPool2 (α := Elt F .f32) g0 g3)) from rfl]
  isplitl [Hk]
  · iintro ⟨Hb, Hpost⟩
    rw [wp_ret]; imodintro
    iapply Hk
    icases Hpost with ⟨Hst, Hv0, Hv3⟩
    isplitl [Hst]; · iexact Hst
    isplitl [Hv0]; · iexact Hv0
    isplitl [Hv3]; · iexact Hv3
    iexact Hb
  isplitl [Hb]; · iexact Hb
  isplitl [Hst Hv0 Hv3]
  · isplitl [Hst]; · iexact Hst
    isplitl [Hv0]; · iexact Hv0
    iexact Hv3
  isplitl [Hlv]; · iexact Hlv
  isplitr; · iempintro
  iempintro

end Cert.KernelIdeal.KP

end
-- ==== Proof.KTcBodyI0.lean ====
/-
  Small general facts for the scatter kernel's run: an array's points-to cut into a list of pairwise disjoint
  element sets and what is left, and back; the row blocks of the pool array that the kernel writes; and the
  returned pool, read at a row inside one of those blocks and at a row outside all of them.
-/
import proofs.«209156_g27831388078850_cont_9to1_824_17_alg».proof.Proof.KCommonI
import proofs.«209156_g27831388078850_cont_9to1_824_17_alg».proof.Proof.Spec
import Idealize.ShloMosaic.Lib.Transfers

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Spec

variable {F : FTy → Type}

local notation "𝕄" => MT nD τ sig (HIx 1) (Elt F) ℕ UU ℕ

/-! ## A points-to cut along a list of disjoint element sets -/

section Pieces

variable {ℓ : Loc nD τ sig}

/-- The elements of `S` outside every set of the list. -/
def restOf (S : Finset (Idx ℓ)) : List (Finset (Idx ℓ)) → Finset (Idx ℓ)
  | [] => S
  | I :: L => restOf (S \ I) L

theorem mem_restOf {j : Idx ℓ} : ∀ {L : List (Finset (Idx ℓ))} {S : Finset (Idx ℓ)}, j ∈ restOf S L ↔ j ∈ S ∧ ∀ I ∈ L, j ∉ I
  | [], S => by simp [restOf]
  | I :: L, S => by
    rw [restOf, mem_restOf (L := L), Finset.mem_sdiff]
    constructor
    · rintro ⟨⟨hS, hI⟩, hL⟩
      exact ⟨hS, fun J hJ => by rcases List.mem_cons.mp hJ with rfl | hJ; exacts [hI, hL J hJ]⟩
    · rintro ⟨hS, h⟩
      exact ⟨⟨hS, h I List.mem_cons_self⟩, fun J hJ => h J (List.mem_cons_of_mem _ hJ)⟩

/-- The sets of the list, each held at the one contents `f`. -/
def piecesAt (q : PosShare TreeShare) (f : Buf (Elt F) ℓ) : List (Finset (Idx ℓ)) → sProp 𝕄
  | [] => iprop(emp)
  | I :: L => iprop((ℓ ↦[I]{q} f) ∗ piecesAt q f L)

/-- An array held on `S` is the pieces of a list of pairwise disjoint subsets of `S` and the rest. -/
theorem pointsTo_pieces (q : PosShare TreeShare) (f : Buf (Elt F) ℓ) :
    ∀ (L : List (Finset (Idx ℓ))) (S : Finset (Idx ℓ)), (∀ I ∈ L, I ⊆ S) → L.Pairwise Disjoint →
      ((ℓ ↦[S]{q} f : sProp 𝕄) ⊣⊢ iprop(piecesAt q f L ∗ ℓ ↦[restOf S L]{q} f))
  | [], S, _, _ => by
    show (ℓ ↦[S]{q} f : sProp 𝕄) ⊣⊢ iprop(emp ∗ ℓ ↦[S]{q} f)
    constructor
    · iintro H; isplitr; · iempintro
      iexact H
    · iintro ⟨-, H⟩; iexact H
  | I :: L, S, hS, hd => by
    have hI : I ⊆ S := hS I List.mem_cons_self
    have h1 : (ℓ ↦[S]{q} f : sProp 𝕄) ⊣⊢ iprop((ℓ ↦[I]{q} f) ∗ ℓ ↦[S \ I]{q} f) := pointsTo_split_subset hI
    have ih := pointsTo_pieces q f L (S \ I)
      (fun J hJ => Finset.subset_sdiff.mpr ⟨hS J (List.mem_cons_of_mem _ hJ), (List.rel_of_pairwise_cons hd hJ).symm⟩)
      (List.Pairwise.of_cons hd)
    show (ℓ ↦[S]{q} f : sProp 𝕄) ⊣⊢ iprop(((ℓ ↦[I]{q} f) ∗ piecesAt q f L) ∗ ℓ ↦[restOf (S \ I) L]{q} f)
    constructor
    · iintro H
      ihave H' := h1.1 $$ H
      icases H' with ⟨HI, HR⟩
      ihave H2 := ih.1 $$ HR
      icases H2 with ⟨HP, HR⟩
      isplitl [HI HP]
      · isplitl [HI]; · iexact HI
        iexact HP
      · iexact HR
    · iintro ⟨⟨HI, HP⟩, HR⟩
      iapply h1.2
      isplitl [HI]; · iexact HI
      iapply ih.2
      isplitl [HP]; · iexact HP
      iexact HR

end Pieces

/-! ## The returned pool at a row -/

section Value

variable {α : Type}

/-- Inside the row block of the pool row paired with a masked batch entry `b`, the returned pool is that entry's image. -/
theorem outPool2_block (g0 : SImg2.Idx → α) (g3 : SPool2.Idx → α) (b : Fin 32) (hb : prob b = true)
    (j : SPool2.Idx) (h0 : 1536 * (index b).val ≤ (j 0).val) (h1 : (j 0).val < 1536 * (index b).val + 1536) :
    outPool2 g0 g3 j = g0 (ix2 (⟨1536 * b.val + ((j 0).val - 1536 * (index b).val), by have := b.isLt; omega⟩ : Fin 49152) (j 1)) := by
  have hr : poolRowOf (j 0) = index b := Fin.ext (by show (j 0).val / 1536 = (index b).val; omega)
  unfold outPool2
  rw [hr, owner_index, if_pos hb]
  refine congrArg g0 ?_
  funext a
  match a with
  | ⟨0, _⟩ => exact Fin.ext (by show b.val * 1536 + (j 0).val % 1536 = 1536 * b.val + ((j 0).val - 1536 * (index b).val); omega)
  | ⟨1, _⟩ => rfl

/-- At a row outside the row blocks of all masked entries' paired pool rows, the returned pool is the pool. -/
theorem outPool2_rest (g0 : SImg2.Idx → α) (g3 : SPool2.Idx → α) (j : SPool2.Idx)
    (h : ∀ b : Fin 32, prob b = true → ¬ (1536 * (index b).val ≤ (j 0).val ∧ (j 0).val < 1536 * (index b).val + 1536)) :
    outPool2 g0 g3 j = g3 j := by
  unfold outPool2
  split
  · rename_i b ho
    obtain ⟨hb, hi⟩ := owner_eq_some _ _ ho
    exfalso
    refine h b hb ?_
    have hv : (index b).val = (j 0).val / 1536 := congrArg Fin.val hi
    constructor <;> omega
  · rfl

end Value

end Cert.KernelIdeal.KP

end
-- ==== Proof.KTcBodyI1.lean ====
/-
  The scatter kernel's memrefs by their row offsets: a destination row block of the pool array, a source row block of
  the batch array, a slot of the staging scratch; which elements each one's view covers, where it places an index, that
  different blocks and different slots share no element; and the value a destination block holds once a batch entry's
  rows, moved through a slot, have been written over it: the returned pool's value there.
-/
import proofs.«209156_g27831388078850_cont_9to1_824_17_alg».proof.Proof.KTcBodyI0
import Idealize.ShloMosaic.Lib.Transfers

set_option quotPrecheck false

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Cert.Spec

variable {F : FTy → Type}

local notation "𝕄" => MT nD τ sig (HIx 1) (Elt F) ℕ UU ℕ

/-! ## The memrefs -/

/-- Rows `[o, o + 1536)` of the pool array. -/
abbrev dstM (o : ℕ) (h : ∀ a, (![o, 0] : Fin 2 → Nat) a + S1536x128.size a ≤ S196608x128.size a) : Memref sig .tc .hbm S1536x128 .f32 :=
  (Memref.whole main_v3).slice (Rect.unit (s := S196608x128) ![o, 0] S1536x128.size h) (fun _ => rfl)

/-- Rows `[o, o + 1536)` of the batch array. -/
abbrev srcM (o : ℕ) (h : ∀ a, (![o, 0] : Fin 2 → Nat) a + S1536x128.size a ≤ S49152x128.size a) : Memref sig .tc .hbm S1536x128 .f32 :=
  (Memref.whole main_v0).slice (Rect.unit (s := S49152x128) ![o, 0] S1536x128.size h) (fun _ => rfl)

/-- Slot `k` of the staging scratch. -/
abbrev slotM (k : ℕ) (h : ∀ a, (![k, 0, 0] : Fin 3 → Nat) a + S1x1536x128.size a ≤ S8x1536x128.size a) : Memref sig .tc .vmem S1536x128 .f32 :=
  ((Memref.whole cc1_scratch0).slice (Rect.unit (s := S8x1536x128) ![k, 0, 0] S1x1536x128.size h) (fun _ => rfl)).squeeze S1536x128 squeezes_S1x1536x128_S1536x128

/-- The elements of the pool array in rows `[o, o + 1536)`. -/
def dsetN (o : ℕ) : Finset S196608x128.Idx := Finset.univ.filter fun j => o ≤ (j 0).val ∧ (j 0).val < o + 1536

/-- The elements of the staging scratch in slot `k`. -/
def ssetN (k : ℕ) : Finset S8x1536x128.Idx := Finset.univ.filter fun j => (j 0).val = k

theorem dstM_set (o : ℕ) (h) : (dstM o h).view.set = dsetN o := by
  show ((View.whole main_v3 : View sig .tc _ _ _).slice _).set = _
  rw [View.set_slice_whole]
  ext j
  simp only [Rect.mem_set_unit, dsetN, Finset.mem_filter, Finset.mem_univ, true_and]
  constructor
  · intro hj; exact hj 0
  · intro hj a
    match a with
    | ⟨0, _⟩ => exact hj
    | ⟨1, _⟩ => exact ⟨Nat.zero_le _, by show (j 1).val < 0 + 128; have h1 : (j 1).val < 128 := (j 1).isLt; omega⟩

theorem slotM_set (k : ℕ) (h) : (slotM k h).view.set = ssetN k := by
  show (((View.whole cc1_scratch0 : View sig .tc _ _ _).slice _).reshape _ _).set = _
  rw [View.set_reshape, View.set_slice_whole]
  ext j
  simp only [Rect.mem_set_unit, ssetN, Finset.mem_filter, Finset.mem_univ, true_and]
  constructor
  · intro hj; have := hj 0; show (j 0).val = k; have h1 : k ≤ (j 0).val := this.1; have h2 : (j 0).val < k + 1 := this.2; omega
  · intro hj a
    match a with
    | ⟨0, _⟩ => exact ⟨by show k ≤ (j 0).val; omega, by show (j 0).val < k + 1; omega⟩
    | ⟨1, _⟩ => exact ⟨Nat.zero_le _, by show (j 1).val < 0 + 1536; have h1 : (j 1).val < 1536 := (j 1).isLt; omega⟩
    | ⟨2, _⟩ => exact ⟨Nat.zero_le _, by show (j 2).val < 0 + 128; have h2 : (j 2).val < 128 := (j 2).isLt; omega⟩

theorem dsetN_disjoint {o o' : ℕ} (h : o + 1536 ≤ o' ∨ o' + 1536 ≤ o) : Disjoint (dsetN o) (dsetN o') := by
  rw [Finset.disjoint_left]
  intro j hj hj'
  simp only [dsetN, Finset.mem_filter, Finset.mem_univ, true_and] at hj hj'
  omega

theorem ssetN_disjoint {k k' : ℕ} (h : k ≠ k') : Disjoint (ssetN k) (ssetN k') := by
  rw [Finset.disjoint_left]
  intro j hj hj'
  simp only [ssetN, Finset.mem_filter, Finset.mem_univ, true_and] at hj hj'
  omega

/-- Where a destination block's view places an index. -/
theorem dstM_emb (o : ℕ) (h) (x : S1536x128.Idx) :
    ((dstM o h).view.emb x : S196608x128.Idx) = ix2 (⟨o + (x 0).val, by have h0 : o + 1536 ≤ 196608 := h 0; have hx : (x 0).val < 1536 := (x 0).isLt; show o + (x 0).val < 196608; omega⟩ : Fin 196608) (x 1) := by
  funext a
  match a with
  | ⟨0, _⟩ => exact Fin.ext (by show o + 1 * (x 0).val = o + (x 0).val; omega)
  | ⟨1, _⟩ => exact Fin.ext (by show 0 + 1 * (x 1).val = (x 1).val; omega)

/-- Where a source block's view places an index. -/
theorem srcM_emb (o : ℕ) (h) (x : S1536x128.Idx) :
    ((srcM o h).view.emb x : S49152x128.Idx) = ix2 (⟨o + (x 0).val, by have h0 : o + 1536 ≤ 49152 := h 0; have hx : (x 0).val < 1536 := (x 0).isLt; show o + (x 0).val < 49152; omega⟩ : Fin 49152) (x 1) := by
  funext a
  match a with
  | ⟨0, _⟩ => exact Fin.ext (by show o + 1 * (x 0).val = o + (x 0).val; omega)
  | ⟨1, _⟩ => exact Fin.ext (by show 0 + 1 * (x 1).val = (x 1).val; omega)

/-! ## Reading back a whole write; the value of a written block -/

/-- The whole rectangle places an index at itself. -/
theorem whole_emb (s : Shape) (x : s.Idx) : (Rect.whole s).emb x = x := by
  funext a
  exact Fin.ext (by show 0 + 1 * (x a).val = (x a).val; omega)

/-- After a write of the whole shape through a view, the view reads the payload, whatever was there and whatever was written before. -/
theorem read_whole_write {sg : RefSig} {κ : Kind} {sp : Space} {s : Shape} {e : EltTy} {Val : EltTy → Type} (v : View sg κ sp s e)
    (f : v.ty.Contents Val) (w : s.Idx → Val e) (L : List (View.Piece Val s e)) :
    v.read Val (v.writes Val f (⟨Rect.whole s, w⟩ :: L)) = w := by
  funext x
  have h := View.read_writes_cons_emb v f (Rect.whole s) w L x
  rwa [whole_emb] at h

section BlockValue

set_option maxHeartbeats 4000000 in
/-- A destination block written with what a slot holds after a batch entry's rows were moved into it holds the returned pool's
    values: the block is the row block of the pool row paired with the entry, the rows are the entry's. -/
theorem block_value (b : Fin 32) (hb : prob b = true) (od os : ℕ) (hod : od = 1536 * (index b).val) (hos : os = 1536 * b.val)
    (hd) (hs) {sp : Space} (vs : View sig .tc sp S1536x128 .f32) (fs : vs.ty.Contents (Elt F)) (L : List (View.Piece (Elt F) S1536x128 .f32))
    (g0 : S49152x128.Idx → Elt F .f32) (g3 : S196608x128.Idx → Elt F .f32) :
    ∀ j ∈ (dstM od hd).view.set,
      (dstM od hd).view.writes (Elt F) g3
        [⟨Rect.whole S1536x128, ReadAs.same.apply (vs.read (Elt F) (vs.writes (Elt F) fs
            (⟨Rect.whole S1536x128, ReadAs.same.apply ((srcM os hs).view.read (Elt F) g0)⟩ :: L)))⟩] j
      = outPool2 (α := Elt F .f32) g0 g3 j := by
  intro j hj
  obtain ⟨x, -, rfl⟩ := Finset.mem_map.mp hj
  have hP : ReadAs.same.apply (vs.read (Elt F) (vs.writes (Elt F) fs
      (⟨Rect.whole S1536x128, ReadAs.same.apply ((srcM os hs).view.read (Elt F) g0)⟩ :: L))) = (srcM os hs).view.read (Elt F) g0 :=
    read_whole_write vs fs _ L
  rw [hP]
  have h1 := congrFun (read_whole_write (dstM od hd).view g3 ((srcM os hs).view.read (Elt F) g0) []) x
  have hx0 : (x 0).val < 1536 := (x 0).isLt
  have e1 : (dstM od hd).view.writes (Elt F) g3 [⟨Rect.whole S1536x128, (srcM os hs).view.read (Elt F) g0⟩] ((dstM od hd).view.emb x)
      = g0 ((srcM os hs).view.emb x) := h1
  refine e1.trans ?_
  have e2 := congrArg g0 (srcM_emb os hs x)
  have e3 := congrArg (outPool2 (α := Elt F .f32) g0 g3) (dstM_emb od hd x)
  refine e2.trans (Eq.trans ?_ e3.symm)
  refine Eq.trans ?_ (outPool2_block g0 g3 b hb _ ?_ ?_).symm
  · refine congrArg g0 ?_
    funext a
    match a with
    | ⟨0, _⟩ => exact Fin.ext (by show os + (x 0).val = 1536 * b.val + (od + (x 0).val - 1536 * (index b).val); omega)
    | ⟨1, _⟩ => rfl
  · show 1536 * (index b).val ≤ od + (x 0).val; omega
  · show od + (x 0).val < 1536 * (index b).val + 1536; omega

end BlockValue

/-! ## The groups of resources the body's run is stated over -/

local notation "slot0" => (((Memref.whole cc1_scratch0).slice (Rect.unit (s := S8x1536x128) ![0, 0, 0] S1x1536x128.size inb_S8x1536x128_S1x1536x128_0_0_0) (fun _ => rfl)).squeeze S1536x128 squeezes_S1x1536x128_S1536x128)
local notation "slot1" => (((Memref.whole cc1_scratch0).slice (Rect.unit (s := S8x1536x128) ![1, 0, 0] S1x1536x128.size inb_S8x1536x128_S1x1536x128_1_0_0) (fun _ => rfl)).squeeze S1536x128 squeezes_S1x1536x128_S1536x128)
local notation "slot2" => (((Memref.whole cc1_scratch0).slice (Rect.unit (s := S8x1536x128) ![2, 0, 0] S1x1536x128.size inb_S8x1536x128_S1x1536x128_2_0_0) (fun _ => rfl)).squeeze S1536x128 squeezes_S1x1536x128_S1536x128)
local notation "slot3" => (((Memref.whole cc1_scratch0).slice (Rect.unit (s := S8x1536x128) ![3, 0, 0] S1x1536x128.size inb_S8x1536x128_S1x1536x128_3_0_0) (fun _ => rfl)).squeeze S1536x128 squeezes_S1x1536x128_S1536x128)
local notation "slot4" => (((Memref.whole cc1_scratch0).slice (Rect.unit (s := S8x1536x128) ![4, 0, 0] S1x1536x128.size inb_S8x1536x128_S1x1536x128_4_0_0) (fun _ => rfl)).squeeze S1536x128 squeezes_S1x1536x128_S1536x128)
local notation "slot5" => (((Memref.whole cc1_scratch0).slice (Rect.unit (s := S8x1536x128) ![5, 0, 0] S1x1536x128.size inb_S8x1536x128_S1x1536x128_5_0_0) (fun _ => rfl)).squeeze S1536x128 squeezes_S1x1536x128_S1536x128)
local notation "slot6" => (((Memref.whole cc1_scratch0).slice (Rect.unit (s := S8x1536x128) ![6, 0, 0] S1x1536x128.size inb_S8x1536x128_S1x1536x128_6_0_0) (fun _ => rfl)).squeeze S1536x128 squeezes_S1x1536x128_S1536x128)
local notation "slot7" => (((Memref.whole cc1_scratch0).slice (Rect.unit (s := S8x1536x128) ![7, 0, 0] S1x1536x128.size inb_S8x1536x128_S1x1536x128_7_0_0) (fun _ => rfl)).squeeze S1536x128 squeezes_S1x1536x128_S1536x128)
local notation "dst0" => ((Memref.whole main_v3).slice (Rect.unit (s := S196608x128) ![127488, 0] S1536x128.size inb_S196608x128_S1536x128_127488_0) (fun _ => rfl))
local notation "dst1" => ((Memref.whole main_v3).slice (Rect.unit (s := S196608x128) ![99840, 0] S1536x128.size inb_S196608x128_S1536x128_99840_0) (fun _ => rfl))
local notation "dst2" => ((Memref.whole main_v3).slice (Rect.unit (s := S196608x128) ![112128, 0] S1536x128.size inb_S196608x128_S1536x128_112128_0) (fun _ => rfl))
local notation "dst3" => ((Memref.whole main_v3).slice (Rect.unit (s := S196608x128) ![119808, 0] S1536x128.size inb_S196608x128_S1536x128_119808_0) (fun _ => rfl))
local notation "dst4" => ((Memref.whole main_v3).slice (Rect.unit (s := S196608x128) ![49152, 0] S1536x128.size inb_S196608x128_S1536x128_49152_0) (fun _ => rfl))
local notation "dst5" => ((Memref.whole main_v3).slice (Rect.unit (s := S196608x128) ![23040, 0] S1536x128.size inb_S196608x128_S1536x128_23040_0) (fun _ => rfl))
local notation "dst6" => ((Memref.whole main_v3).slice (Rect.unit (s := S196608x128) ![73728, 0] S1536x128.size inb_S196608x128_S1536x128_73728_0) (fun _ => rfl))
local notation "dst7" => ((Memref.whole main_v3).slice (Rect.unit (s := S196608x128) ![130560, 0] S1536x128.size inb_S196608x128_S1536x128_130560_0) (fun _ => rfl))
local notation "dst8" => ((Memref.whole main_v3).slice (Rect.unit (s := S196608x128) ![38400, 0] S1536x128.size inb_S196608x128_S1536x128_38400_0) (fun _ => rfl))
local notation "dst9" => ((Memref.whole main_v3).slice (Rect.unit (s := S196608x128) ![178176, 0] S1536x128.size inb_S196608x128_S1536x128_178176_0) (fun _ => rfl))
local notation "dst10" => ((Memref.whole main_v3).slice (Rect.unit (s := S196608x128) ![167424, 0] S1536x128.size inb_S196608x128_S1536x128_167424_0) (fun _ => rfl))
local notation "dst11" => ((Memref.whole main_v3).slice (Rect.unit (s := S196608x128) ![118272, 0] S1536x128.size inb_S196608x128_S1536x128_118272_0) (fun _ => rfl))
local notation "dst12" => ((Memref.whole main_v3).slice (Rect.unit (s := S196608x128) ![43008, 0] S1536x128.size inb_S196608x128_S1536x128_43008_0) (fun _ => rfl))
local notation "dst13" => ((Memref.whole main_v3).slice (Rect.unit (s := S196608x128) ![142848, 0] S1536x128.size inb_S196608x128_S1536x128_142848_0) (fun _ => rfl))
local notation "dst14" => ((Memref.whole main_v3).slice (Rect.unit (s := S196608x128) ![0, 0] S1536x128.size inb_S196608x128_S1536x128_0_0) (fun _ => rfl))
local notation "dst15" => ((Memref.whole main_v3).slice (Rect.unit (s := S196608x128) ![75264, 0] S1536x128.size inb_S196608x128_S1536x128_75264_0) (fun _ => rfl))
local notation "dst16" => ((Memref.whole main_v3).slice (Rect.unit (s := S196608x128) ![105984, 0] S1536x128.size inb_S196608x128_S1536x128_105984_0) (fun _ => rfl))
local notation "dst17" => ((Memref.whole main_v3).slice (Rect.unit (s := S196608x128) ![133632, 0] S1536x128.size inb_S196608x128_S1536x128_133632_0) (fun _ => rfl))
local notation "dst18" => ((Memref.whole main_v3).slice (Rect.unit (s := S196608x128) ![136704, 0] S1536x128.size inb_S196608x128_S1536x128_136704_0) (fun _ => rfl))
local notation "dst19" => ((Memref.whole main_v3).slice (Rect.unit (s := S196608x128) ![159744, 0] S1536x128.size inb_S196608x128_S1536x128_159744_0) (fun _ => rfl))
local notation "dst20" => ((Memref.whole main_v3).slice (Rect.unit (s := S196608x128) ![115200, 0] S1536x128.size inb_S196608x128_S1536x128_115200_0) (fun _ => rfl))
local notation "dst21" => ((Memref.whole main_v3).slice (Rect.unit (s := S196608x128) ![138240, 0] S1536x128.size inb_S196608x128_S1536x128_138240_0) (fun _ => rfl))
local notation "v0W" => (Memref.whole main_v0 : Memref sig Kind.tc Space.hbm S49152x128 EltTy.f32)

section Groups

variable (d : Dev nD)

/-- The row offsets of the destination blocks, in the order the kernel writes them, and of the source blocks. -/
def offsD : List ℕ := [127488, 99840, 112128, 119808, 49152, 23040, 73728, 130560, 38400, 178176, 167424, 118272, 43008, 142848, 0, 75264, 105984, 133632, 136704, 159744, 115200, 138240]
def offsS : List ℕ := [0, 3072, 4608, 6144, 7680, 9216, 13824, 15360, 16896, 18432, 19968, 24576, 26112, 29184, 32256, 35328, 36864, 38400, 39936, 41472, 43008, 46080]

/-- The batch array's read shares, one per read semaphore. -/
def TOKS (g0 : Buf (Elt F) ((SparseCore.T d : Thread nD τ).loc main_v0)) : sProp 𝕄 :=
  iprop(((v0W).view.loc (SparseCore.T d : Thread nD τ) ↦{Transfers.shareTokN fullShare 15} g0)
      ∗ ((v0W).view.loc (SparseCore.T d : Thread nD τ) ↦{Transfers.shareTokN fullShare 14} g0)
      ∗ ((v0W).view.loc (SparseCore.T d : Thread nD τ) ↦{Transfers.shareTokN fullShare 13} g0)
      ∗ ((v0W).view.loc (SparseCore.T d : Thread nD τ) ↦{Transfers.shareTokN fullShare 12} g0)
      ∗ ((v0W).view.loc (SparseCore.T d : Thread nD τ) ↦{Transfers.shareTokN fullShare 11} g0)
      ∗ ((v0W).view.loc (SparseCore.T d : Thread nD τ) ↦{Transfers.shareTokN fullShare 10} g0)
      ∗ ((v0W).view.loc (SparseCore.T d : Thread nD τ) ↦{Transfers.shareTokN fullShare 9} g0)
      ∗ ((v0W).view.loc (SparseCore.T d : Thread nD τ) ↦{Transfers.shareTokN fullShare 8} g0))

/-- The destination row blocks of the pool array, each by its own elements, at the one contents `g`. -/
def DSTS (g : Buf (Elt F) ((SparseCore.T d : Thread nD τ).loc main_v3)) : sProp 𝕄 :=
  iprop(((dst0).view.loc (SparseCore.T d : Thread nD τ) ↦[(dst0).view.set]{fullShare} g)
      ∗ ((dst1).view.loc (SparseCore.T d : Thread nD τ) ↦[(dst1).view.set]{fullShare} g)
      ∗ ((dst2).view.loc (SparseCore.T d : Thread nD τ) ↦[(dst2).view.set]{fullShare} g)
      ∗ ((dst3).view.loc (SparseCore.T d : Thread nD τ) ↦[(dst3).view.set]{fullShare} g)
      ∗ ((dst4).view.loc (SparseCore.T d : Thread nD τ) ↦[(dst4).view.set]{fullShare} g)
      ∗ ((dst5).view.loc (SparseCore.T d : Thread nD τ) ↦[(dst5).view.set]{fullShare} g)
      ∗ ((dst6).view.loc (SparseCore.T d : Thread nD τ) ↦[(dst6).view.set]{fullShare} g)
      ∗ ((dst7).view.loc (SparseCore.T d : Thread nD τ) ↦[(dst7).view.set]{fullShare} g)
      ∗ ((dst8).view.loc (SparseCore.T d : Thread nD τ) ↦[(dst8).view.set]{fullShare} g)
      ∗ ((dst9).view.loc (SparseCore.T d : Thread nD τ) ↦[(dst9).view.set]{fullShare} g)
      ∗ ((dst10).view.loc (SparseCore.T d : Thread nD τ) ↦[(dst10).view.set]{fullShare} g)
      ∗ ((dst11).view.loc (SparseCore.T d : Thread nD τ) ↦[(dst11).view.set]{fullShare} g)
      ∗ ((dst12).view.loc (SparseCore.T d : Thread nD τ) ↦[(dst12).view.set]{fullShare} g)
      ∗ ((dst13).view.loc (SparseCore.T d : Thread nD τ) ↦[(dst13).view.set]{fullShare} g)
      ∗ ((dst14).view.loc (SparseCore.T d : Thread nD τ) ↦[(dst14).view.set]{fullShare} g)
      ∗ ((dst15).view.loc (SparseCore.T d : Thread nD τ) ↦[(dst15).view.set]{fullShare} g)
      ∗ ((dst16).view.loc (SparseCore.T d : Thread nD τ) ↦[(dst16).view.set]{fullShare} g)
      ∗ ((dst17).view.loc (SparseCore.T d : Thread nD τ) ↦[(dst17).view.set]{fullShare} g)
      ∗ ((dst18).view.loc (SparseCore.T d : Thread nD τ) ↦[(dst18).view.set]{fullShare} g)
      ∗ ((dst19).view.loc (SparseCore.T d : Thread nD τ) ↦[(dst19).view.set]{fullShare} g)
      ∗ ((dst20).view.loc (SparseCore.T d : Thread nD τ) ↦[(dst20).view.set]{fullShare} g)
      ∗ ((dst21).view.loc (SparseCore.T d : Thread nD τ) ↦[(dst21).view.set]{fullShare} g)
      ∗ emp)

/-- The slots of the staging scratch, each by its own elements, at the one contents `fs`. -/
def SLOTS (fs : Buf (Elt F) ((SparseCore.T d : Thread nD τ).loc cc1_scratch0)) : sProp 𝕄 :=
  iprop(((slot0).view.loc (SparseCore.T d : Thread nD τ) ↦[(slot0).view.set]{fullShare} fs)
      ∗ ((slot1).view.loc (SparseCore.T d : Thread nD τ) ↦[(slot1).view.set]{fullShare} fs)
      ∗ ((slot2).view.loc (SparseCore.T d : Thread nD τ) ↦[(slot2).view.set]{fullShare} fs)
      ∗ ((slot3).view.loc (SparseCore.T d : Thread nD τ) ↦[(slot3).view.set]{fullShare} fs)
      ∗ ((slot4).view.loc (SparseCore.T d : Thread nD τ) ↦[(slot4).view.set]{fullShare} fs)
      ∗ ((slot5).view.loc (SparseCore.T d : Thread nD τ) ↦[(slot5).view.set]{fullShare} fs)
      ∗ ((slot6).view.loc (SparseCore.T d : Thread nD τ) ↦[(slot6).view.set]{fullShare} fs)
      ∗ ((slot7).view.loc (SparseCore.T d : Thread nD τ) ↦[(slot7).view.set]{fullShare} fs)
      ∗ emp)

/-- The slots, each at some contents. -/
def SLOTSX : sProp 𝕄 :=
  iprop((∃ f, (slot0).view.loc (SparseCore.T d : Thread nD τ) ↦[(slot0).view.set]{fullShare} f)
      ∗ (∃ f, (slot1).view.loc (SparseCore.T d : Thread nD τ) ↦[(slot1).view.set]{fullShare} f)
      ∗ (∃ f, (slot2).view.loc (SparseCore.T d : Thread nD τ) ↦[(slot2).view.set]{fullShare} f)
      ∗ (∃ f, (slot3).view.loc (SparseCore.T d : Thread nD τ) ↦[(slot3).view.set]{fullShare} f)
      ∗ (∃ f, (slot4).view.loc (SparseCore.T d : Thread nD τ) ↦[(slot4).view.set]{fullShare} f)
      ∗ (∃ f, (slot5).view.loc (SparseCore.T d : Thread nD τ) ↦[(slot5).view.set]{fullShare} f)
      ∗ (∃ f, (slot6).view.loc (SparseCore.T d : Thread nD τ) ↦[(slot6).view.set]{fullShare} f)
      ∗ (∃ f, (slot7).view.loc (SparseCore.T d : Thread nD τ) ↦[(slot7).view.set]{fullShare} f)
      ∗ emp)

/-- The 16 transfer semaphores at zero. -/
def SEMS : sProp 𝕄 :=
  iprop(semVal ((SparseCore.T d : Thread nD τ), SemLoc.dma ⟨8, by decide⟩) 0
      ∗ semVal ((SparseCore.T d : Thread nD τ), SemLoc.dma ⟨9, by decide⟩) 0
      ∗ semVal ((SparseCore.T d : Thread nD τ), SemLoc.dma ⟨10, by decide⟩) 0
      ∗ semVal ((SparseCore.T d : Thread nD τ), SemLoc.dma ⟨11, by decide⟩) 0
      ∗ semVal ((SparseCore.T d : Thread nD τ), SemLoc.dma ⟨12, by decide⟩) 0
      ∗ semVal ((SparseCore.T d : Thread nD τ), SemLoc.dma ⟨13, by decide⟩) 0
      ∗ semVal ((SparseCore.T d : Thread nD τ), SemLoc.dma ⟨14, by decide⟩) 0
      ∗ semVal ((SparseCore.T d : Thread nD τ), SemLoc.dma ⟨15, by decide⟩) 0
      ∗ semVal ((SparseCore.T d : Thread nD τ), SemLoc.dma ⟨16, by decide⟩) 0
      ∗ semVal ((SparseCore.T d : Thread nD τ), SemLoc.dma ⟨17, by decide⟩) 0
      ∗ semVal ((SparseCore.T d : Thread nD τ), SemLoc.dma ⟨18, by decide⟩) 0
      ∗ semVal ((SparseCore.T d : Thread nD τ), SemLoc.dma ⟨19, by decide⟩) 0
      ∗ semVal ((SparseCore.T d : Thread nD τ), SemLoc.dma ⟨20, by decide⟩) 0
      ∗ semVal ((SparseCore.T d : Thread nD τ), SemLoc.dma ⟨21, by decide⟩) 0
      ∗ semVal ((SparseCore.T d : Thread nD τ), SemLoc.dma ⟨22, by decide⟩) 0
      ∗ semVal ((SparseCore.T d : Thread nD τ), SemLoc.dma ⟨23, by decide⟩) 0)

end Groups

end Cert.KernelIdeal.KP

end
-- ==== Proof.KTcBodyI2.lean ====
/-
  The scatter kernel's body, run once on the TensorCore: from the batch array held as one read share per read
  semaphore, the 22 destination row blocks of the pool array and the 8 slots of the staging scratch each held apart, and
  the 16 transfer semaphores at zero, every copy is issued on the semaphore of its slot and waited for before that
  semaphore is used again; at the end each destination block holds the returned pool's values.
-/
import proofs.«209156_g27831388078850_cont_9to1_824_17_alg».proof.Proof.KTcBodyI1
import Idealize.ShloMosaic.Lib.Transfers

set_option quotPrecheck false

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Cert.Spec

variable {F : FTy → Type}

local notation "𝕄" => MT nD τ sig (HIx 1) (Elt F) ℕ UU ℕ

local notation "dst0" => ((Memref.whole main_v3).slice (Rect.unit (s := S196608x128) ![127488, 0] S1536x128.size inb_S196608x128_S1536x128_127488_0) (fun _ => rfl))
local notation "dst1" => ((Memref.whole main_v3).slice (Rect.unit (s := S196608x128) ![99840, 0] S1536x128.size inb_S196608x128_S1536x128_99840_0) (fun _ => rfl))
local notation "dst2" => ((Memref.whole main_v3).slice (Rect.unit (s := S196608x128) ![112128, 0] S1536x128.size inb_S196608x128_S1536x128_112128_0) (fun _ => rfl))
local notation "dst3" => ((Memref.whole main_v3).slice (Rect.unit (s := S196608x128) ![119808, 0] S1536x128.size inb_S196608x128_S1536x128_119808_0) (fun _ => rfl))
local notation "dst4" => ((Memref.whole main_v3).slice (Rect.unit (s := S196608x128) ![49152, 0] S1536x128.size inb_S196608x128_S1536x128_49152_0) (fun _ => rfl))
local notation "dst5" => ((Memref.whole main_v3).slice (Rect.unit (s := S196608x128) ![23040, 0] S1536x128.size inb_S196608x128_S1536x128_23040_0) (fun _ => rfl))
local notation "dst6" => ((Memref.whole main_v3).slice (Rect.unit (s := S196608x128) ![73728, 0] S1536x128.size inb_S196608x128_S1536x128_73728_0) (fun _ => rfl))
local notation "dst7" => ((Memref.whole main_v3).slice (Rect.unit (s := S196608x128) ![130560, 0] S1536x128.size inb_S196608x128_S1536x128_130560_0) (fun _ => rfl))
local notation "dst8" => ((Memref.whole main_v3).slice (Rect.unit (s := S196608x128) ![38400, 0] S1536x128.size inb_S196608x128_S1536x128_38400_0) (fun _ => rfl))
local notation "dst9" => ((Memref.whole main_v3).slice (Rect.unit (s := S196608x128) ![178176, 0] S1536x128.size inb_S196608x128_S1536x128_178176_0) (fun _ => rfl))
local notation "dst10" => ((Memref.whole main_v3).slice (Rect.unit (s := S196608x128) ![167424, 0] S1536x128.size inb_S196608x128_S1536x128_167424_0) (fun _ => rfl))
local notation "dst11" => ((Memref.whole main_v3).slice (Rect.unit (s := S196608x128) ![118272, 0] S1536x128.size inb_S196608x128_S1536x128_118272_0) (fun _ => rfl))
local notation "dst12" => ((Memref.whole main_v3).slice (Rect.unit (s := S196608x128) ![43008, 0] S1536x128.size inb_S196608x128_S1536x128_43008_0) (fun _ => rfl))
local notation "dst13" => ((Memref.whole main_v3).slice (Rect.unit (s := S196608x128) ![142848, 0] S1536x128.size inb_S196608x128_S1536x128_142848_0) (fun _ => rfl))
local notation "dst14" => ((Memref.whole main_v3).slice (Rect.unit (s := S196608x128) ![0, 0] S1536x128.size inb_S196608x128_S1536x128_0_0) (fun _ => rfl))
local notation "dst15" => ((Memref.whole main_v3).slice (Rect.unit (s := S196608x128) ![75264, 0] S1536x128.size inb_S196608x128_S1536x128_75264_0) (fun _ => rfl))
local notation "dst16" => ((Memref.whole main_v3).slice (Rect.unit (s := S196608x128) ![105984, 0] S1536x128.size inb_S196608x128_S1536x128_105984_0) (fun _ => rfl))
local notation "dst17" => ((Memref.whole main_v3).slice (Rect.unit (s := S196608x128) ![133632, 0] S1536x128.size inb_S196608x128_S1536x128_133632_0) (fun _ => rfl))
local notation "dst18" => ((Memref.whole main_v3).slice (Rect.unit (s := S196608x128) ![136704, 0] S1536x128.size inb_S196608x128_S1536x128_136704_0) (fun _ => rfl))
local notation "dst19" => ((Memref.whole main_v3).slice (Rect.unit (s := S196608x128) ![159744, 0] S1536x128.size inb_S196608x128_S1536x128_159744_0) (fun _ => rfl))
local notation "dst20" => ((Memref.whole main_v3).slice (Rect.unit (s := S196608x128) ![115200, 0] S1536x128.size inb_S196608x128_S1536x128_115200_0) (fun _ => rfl))
local notation "dst21" => ((Memref.whole main_v3).slice (Rect.unit (s := S196608x128) ![138240, 0] S1536x128.size inb_S196608x128_S1536x128_138240_0) (fun _ => rfl))
local notation "v0W" => (Memref.whole main_v0 : Memref sig Kind.tc Space.hbm S49152x128 EltTy.f32)
local notation "v3W" => (Memref.whole main_v3 : Memref sig Kind.tc Space.hbm S196608x128 EltTy.f32)
local notation "scW" => (Memref.whole cc1_scratch0 : Memref sig Kind.tc Space.vmem S8x1536x128 EltTy.f32)

variable [FloatOps F]

/-- A wait at the kernels' index adds a pair the bound allows. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

variable (d : Dev nD)

/-- The destination row blocks, each at some contents that are the returned pool's on the block. -/
def DSTSV (g0 : Buf (Elt F) ((SparseCore.T d : Thread nD τ).loc main_v0)) (g3 : Buf (Elt F) ((SparseCore.T d : Thread nD τ).loc main_v3)) : sProp 𝕄 :=
  iprop((∃ f, ((dst0).view.loc (SparseCore.T d : Thread nD τ) ↦[(dst0).view.set]{fullShare} f) ∗ ⌜∀ j ∈ (dst0).view.set, f j = Cert.Spec.outPool2 (α := Elt F .f32) g0 g3 j⌝)
      ∗ (∃ f, ((dst1).view.loc (SparseCore.T d : Thread nD τ) ↦[(dst1).view.set]{fullShare} f) ∗ ⌜∀ j ∈ (dst1).view.set, f j = Cert.Spec.outPool2 (α := Elt F .f32) g0 g3 j⌝)
      ∗ (∃ f, ((dst2).view.loc (SparseCore.T d : Thread nD τ) ↦[(dst2).view.set]{fullShare} f) ∗ ⌜∀ j ∈ (dst2).view.set, f j = Cert.Spec.outPool2 (α := Elt F .f32) g0 g3 j⌝)
      ∗ (∃ f, ((dst3).view.loc (SparseCore.T d : Thread nD τ) ↦[(dst3).view.set]{fullShare} f) ∗ ⌜∀ j ∈ (dst3).view.set, f j = Cert.Spec.outPool2 (α := Elt F .f32) g0 g3 j⌝)
      ∗ (∃ f, ((dst4).view.loc (SparseCore.T d : Thread nD τ) ↦[(dst4).view.set]{fullShare} f) ∗ ⌜∀ j ∈ (dst4).view.set, f j = Cert.Spec.outPool2 (α := Elt F .f32) g0 g3 j⌝)
      ∗ (∃ f, ((dst5).view.loc (SparseCore.T d : Thread nD τ) ↦[(dst5).view.set]{fullShare} f) ∗ ⌜∀ j ∈ (dst5).view.set, f j = Cert.Spec.outPool2 (α := Elt F .f32) g0 g3 j⌝)
      ∗ (∃ f, ((dst6).view.loc (SparseCore.T d : Thread nD τ) ↦[(dst6).view.set]{fullShare} f) ∗ ⌜∀ j ∈ (dst6).view.set, f j = Cert.Spec.outPool2 (α := Elt F .f32) g0 g3 j⌝)
      ∗ (∃ f, ((dst7).view.loc (SparseCore.T d : Thread nD τ) ↦[(dst7).view.set]{fullShare} f) ∗ ⌜∀ j ∈ (dst7).view.set, f j = Cert.Spec.outPool2 (α := Elt F .f32) g0 g3 j⌝)
      ∗ (∃ f, ((dst8).view.loc (SparseCore.T d : Thread nD τ) ↦[(dst8).view.set]{fullShare} f) ∗ ⌜∀ j ∈ (dst8).view.set, f j = Cert.Spec.outPool2 (α := Elt F .f32) g0 g3 j⌝)
      ∗ (∃ f, ((dst9).view.loc (SparseCore.T d : Thread nD τ) ↦[(dst9).view.set]{fullShare} f) ∗ ⌜∀ j ∈ (dst9).view.set, f j = Cert.Spec.outPool2 (α := Elt F .f32) g0 g3 j⌝)
      ∗ (∃ f, ((dst10).view.loc (SparseCore.T d : Thread nD τ) ↦[(dst10).view.set]{fullShare} f) ∗ ⌜∀ j ∈ (dst10).view.set, f j = Cert.Spec.outPool2 (α := Elt F .f32) g0 g3 j⌝)
      ∗ (∃ f, ((dst11).view.loc (SparseCore.T d : Thread nD τ) ↦[(dst11).view.set]{fullShare} f) ∗ ⌜∀ j ∈ (dst11).view.set, f j = Cert.Spec.outPool2 (α := Elt F .f32) g0 g3 j⌝)
      ∗ (∃ f, ((dst12).view.loc (SparseCore.T d : Thread nD τ) ↦[(dst12).view.set]{fullShare} f) ∗ ⌜∀ j ∈ (dst12).view.set, f j = Cert.Spec.outPool2 (α := Elt F .f32) g0 g3 j⌝)
      ∗ (∃ f, ((dst13).view.loc (SparseCore.T d : Thread nD τ) ↦[(dst13).view.set]{fullShare} f) ∗ ⌜∀ j ∈ (dst13).view.set, f j = Cert.Spec.outPool2 (α := Elt F .f32) g0 g3 j⌝)
      ∗ (∃ f, ((dst14).view.loc (SparseCore.T d : Thread nD τ) ↦[(dst14).view.set]{fullShare} f) ∗ ⌜∀ j ∈ (dst14).view.set, f j = Cert.Spec.outPool2 (α := Elt F .f32) g0 g3 j⌝)
      ∗ (∃ f, ((dst15).view.loc (SparseCore.T d : Thread nD τ) ↦[(dst15).view.set]{fullShare} f) ∗ ⌜∀ j ∈ (dst15).view.set, f j = Cert.Spec.outPool2 (α := Elt F .f32) g0 g3 j⌝)
      ∗ (∃ f, ((dst16).view.loc (SparseCore.T d : Thread nD τ) ↦[(dst16).view.set]{fullShare} f) ∗ ⌜∀ j ∈ (dst16).view.set, f j = Cert.Spec.outPool2 (α := Elt F .f32) g0 g3 j⌝)
      ∗ (∃ f, ((dst17).view.loc (SparseCore.T d : Thread nD τ) ↦[(dst17).view.set]{fullShare} f) ∗ ⌜∀ j ∈ (dst17).view.set, f j = Cert.Spec.outPool2 (α := Elt F .f32) g0 g3 j⌝)
      ∗ (∃ f, ((dst18).view.loc (SparseCore.T d : Thread nD τ) ↦[(dst18).view.set]{fullShare} f) ∗ ⌜∀ j ∈ (dst18).view.set, f j = Cert.Spec.outPool2 (α := Elt F .f32) g0 g3 j⌝)
      ∗ (∃ f, ((dst19).view.loc (SparseCore.T d : Thread nD τ) ↦[(dst19).view.set]{fullShare} f) ∗ ⌜∀ j ∈ (dst19).view.set, f j = Cert.Spec.outPool2 (α := Elt F .f32) g0 g3 j⌝)
      ∗ (∃ f, ((dst20).view.loc (SparseCore.T d : Thread nD τ) ↦[(dst20).view.set]{fullShare} f) ∗ ⌜∀ j ∈ (dst20).view.set, f j = Cert.Spec.outPool2 (α := Elt F .f32) g0 g3 j⌝)
      ∗ (∃ f, ((dst21).view.loc (SparseCore.T d : Thread nD τ) ↦[(dst21).view.set]{fullShare} f) ∗ ⌜∀ j ∈ (dst21).view.set, f j = Cert.Spec.outPool2 (α := Elt F .f32) g0 g3 j⌝)
      ∗ emp)

theorem DSTSV_DSTS (g0 : Buf (Elt F) ((SparseCore.T d : Thread nD τ).loc main_v0)) (g3 : Buf (Elt F) ((SparseCore.T d : Thread nD τ).loc main_v3)) :
    DSTSV d g0 g3 ⊢ DSTS d (Cert.Spec.outPool2 (α := Elt F .f32) g0 g3) := by
  unfold DSTSV DSTS
  iintro ⟨⟨%f0, H0, %h0⟩, ⟨%f1, H1, %h1⟩, ⟨%f2, H2, %h2⟩, ⟨%f3, H3, %h3⟩, ⟨%f4, H4, %h4⟩, ⟨%f5, H5, %h5⟩, ⟨%f6, H6, %h6⟩, ⟨%f7, H7, %h7⟩, ⟨%f8, H8, %h8⟩, ⟨%f9, H9, %h9⟩, ⟨%f10, H10, %h10⟩, ⟨%f11, H11, %h11⟩, ⟨%f12, H12, %h12⟩, ⟨%f13, H13, %h13⟩, ⟨%f14, H14, %h14⟩, ⟨%f15, H15, %h15⟩, ⟨%f16, H16, %h16⟩, ⟨%f17, H17, %h17⟩, ⟨%f18, H18, %h18⟩, ⟨%f19, H19, %h19⟩, ⟨%f20, H20, %h20⟩, ⟨%f21, H21, %h21⟩, -⟩
  isplitl [H0]; · iapply (Entails.of_eq (pointsTo_congr h0)); iexact H0
  isplitl [H1]; · iapply (Entails.of_eq (pointsTo_congr h1)); iexact H1
  isplitl [H2]; · iapply (Entails.of_eq (pointsTo_congr h2)); iexact H2
  isplitl [H3]; · iapply (Entails.of_eq (pointsTo_congr h3)); iexact H3
  isplitl [H4]; · iapply (Entails.of_eq (pointsTo_congr h4)); iexact H4
  isplitl [H5]; · iapply (Entails.of_eq (pointsTo_congr h5)); iexact H5
  isplitl [H6]; · iapply (Entails.of_eq (pointsTo_congr h6)); iexact H6
  isplitl [H7]; · iapply (Entails.of_eq (pointsTo_congr h7)); iexact H7
  isplitl [H8]; · iapply (Entails.of_eq (pointsTo_congr h8)); iexact H8
  isplitl [H9]; · iapply (Entails.of_eq (pointsTo_congr h9)); iexact H9
  isplitl [H10]; · iapply (Entails.of_eq (pointsTo_congr h10)); iexact H10
  isplitl [H11]; · iapply (Entails.of_eq (pointsTo_congr h11)); iexact H11
  isplitl [H12]; · iapply (Entails.of_eq (pointsTo_congr h12)); iexact H12
  isplitl [H13]; · iapply (Entails.of_eq (pointsTo_congr h13)); iexact H13
  isplitl [H14]; · iapply (Entails.of_eq (pointsTo_congr h14)); iexact H14
  isplitl [H15]; · iapply (Entails.of_eq (pointsTo_congr h15)); iexact H15
  isplitl [H16]; · iapply (Entails.of_eq (pointsTo_congr h16)); iexact H16
  isplitl [H17]; · iapply (Entails.of_eq (pointsTo_congr h17)); iexact H17
  isplitl [H18]; · iapply (Entails.of_eq (pointsTo_congr h18)); iexact H18
  isplitl [H19]; · iapply (Entails.of_eq (pointsTo_congr h19)); iexact H19
  isplitl [H20]; · iapply (Entails.of_eq (pointsTo_congr h20)); iexact H20
  isplitl [H21]; · iapply (Entails.of_eq (pointsTo_congr h21)); iexact H21
  iempintro

set_option maxHeartbeats 16000000 in
/-- The body's run, each destination block left at the contents the run wrote. -/
theorem tc_body_raw (O : CellTallies nD τ sig (HIx 1)) (W : Waits sig (HIx 1))
    (g0 : Buf (Elt F) ((SparseCore.T d : Thread nD τ).loc main_v0)) (g3 : Buf (Elt F) ((SparseCore.T d : Thread nD τ).loc main_v3)) (fs : Buf (Elt F) ((SparseCore.T d : Thread nD τ).loc cc1_scratch0)) :
    iprop((Transfers.MayWaits (SparseCore.T d : Thread nD τ) (none : HIx 1) O : sProp 𝕄) ∗ TOKS d g0 ∗ DSTS d g3 ∗ SLOTS d fs ∗ SEMS d ∗ owes (SparseCore.T d : Thread nD τ) O W)
      ⊢ wp frame (wpE (defs₀ (F := F)) 𝒱₀ (SparseCore.T d : Thread nD τ) none) Set.univ
          (cc1__tc_scatter_body v0W (Memref.isWhole_whole _) v3W (Memref.isWhole_whole _) v3W (Memref.isWhole_whole _) scW (Memref.isWhole_whole _) cc1_scratch1 cc1_scratch2)
          fun _ => iprop(TOKS d g0 ∗ DSTSV d g0 g3 ∗ SLOTSX d ∗ SEMS d
            ∗ ∃ W', ⌜∀ p ∈ W', p ∈ W ∨ p.2 = none⌝ ∗ owes (SparseCore.T d : Thread nD τ) O W') := by
  unfold TOKS DSTS DSTSV SLOTS SLOTSX SEMS
  rw [cc1__tc_scatter_body_eq_skeleton]; unfold cc1__tc_scatter_body_skel
  iintro ⟨#Hmw, ⟨Hk7, Hk6, Hk5, Hk4, Hk3, Hk2, Hk1, Hk0⟩, ⟨Hd0, Hd1, Hd2, Hd3, Hd4, Hd5, Hd6, Hd7, Hd8, Hd9, Hd10, Hd11, Hd12, Hd13, Hd14, Hd15, Hd16, Hd17, Hd18, Hd19, Hd20, Hd21, -⟩, ⟨Hs0, Hs1, Hs2, Hs3, Hs4, Hs5, Hs6, Hs7, -⟩, ⟨Hc0, Hc1, Hc2, Hc3, Hc4, Hc5, Hc6, Hc7, Hc8, Hc9, Hc10, Hc11, Hc12, Hc13, Hc14, Hc15⟩, HO⟩
  sl_exec_parts
  sl_step
  isplitl [Hk0 Hk1 Hk2 Hk3 Hk4 Hk5 Hk6 Hk7]
  · isplitl [Hk7]; · iexact Hk7
    isplitl [Hk6]; · iexact Hk6
    isplitl [Hk5]; · iexact Hk5
    isplitl [Hk4]; · iexact Hk4
    isplitl [Hk3]; · iexact Hk3
    isplitl [Hk2]; · iexact Hk2
    isplitl [Hk1]; · iexact Hk1
    iexact Hk0
  isplitl [Hd0 Hd1 Hd2 Hd3 Hd4 Hd5 Hd6 Hd7 Hd8 Hd9 Hd10 Hd11 Hd12 Hd13 Hd14 Hd15 Hd16 Hd17 Hd18 Hd19 Hd20 Hd21]
  · isplitl [Hd0]
    · iexists _
      isplitl [Hd0]; · iexact Hd0
      ipureintro
      intro j hj
      sl_unfold_run_names
      exact block_value (0 : Fin 32) (by decide) 127488 0 (by decide) (by decide) _ _ _ _ _ g0 g3 j hj
    isplitl [Hd1]
    · iexists _
      isplitl [Hd1]; · iexact Hd1
      ipureintro
      intro j hj
      sl_unfold_run_names
      exact block_value (2 : Fin 32) (by decide) 99840 3072 (by decide) (by decide) _ _ _ _ _ g0 g3 j hj
    isplitl [Hd2]
    · iexists _
      isplitl [Hd2]; · iexact Hd2
      ipureintro
      intro j hj
      sl_unfold_run_names
      exact block_value (3 : Fin 32) (by decide) 112128 4608 (by decide) (by decide) _ _ _ _ _ g0 g3 j hj
    isplitl [Hd3]
    · iexists _
      isplitl [Hd3]; · iexact Hd3
      ipureintro
      intro j hj
      sl_unfold_run_names
      exact block_value (4 : Fin 32) (by decide) 119808 6144 (by decide) (by decide) _ _ _ _ _ g0 g3 j hj
    isplitl [Hd4]
    · iexists _
      isplitl [Hd4]; · iexact Hd4
      ipureintro
      intro j hj
      sl_unfold_run_names
      exact block_value (5 : Fin 32) (by decide) 49152 7680 (by decide) (by decide) _ _ _ _ _ g0 g3 j hj
    isplitl [Hd5]
    · iexists _
      isplitl [Hd5]; · iexact Hd5
      ipureintro
      intro j hj
      sl_unfold_run_names
      exact block_value (6 : Fin 32) (by decide) 23040 9216 (by decide) (by decide) _ _ _ _ _ g0 g3 j hj
    isplitl [Hd6]
    · iexists _
      isplitl [Hd6]; · iexact Hd6
      ipureintro
      intro j hj
      sl_unfold_run_names
      exact block_value (9 : Fin 32) (by decide) 73728 13824 (by decide) (by decide) _ _ _ _ _ g0 g3 j hj
    isplitl [Hd7]
    · iexists _
      isplitl [Hd7]; · iexact Hd7
      ipureintro
      intro j hj
      sl_unfold_run_names
      exact block_value (10 : Fin 32) (by decide) 130560 15360 (by decide) (by decide) _ _ _ _ _ g0 g3 j hj
    isplitl [Hd8]
    · iexists _
      isplitl [Hd8]; · iexact Hd8
      ipureintro
      intro j hj
      sl_unfold_run_names
      exact block_value (11 : Fin 32) (by decide) 38400 16896 (by decide) (by decide) _ _ _ _ _ g0 g3 j hj
    isplitl [Hd9]
    · iexists _
      isplitl [Hd9]; · iexact Hd9
      ipureintro
      intro j hj
      sl_unfold_run_names
      exact block_value (12 : Fin 32) (by decide) 178176 18432 (by decide) (by decide) _ _ _ _ _ g0 g3 j hj
    isplitl [Hd10]
    · iexists _
      isplitl [Hd10]; · iexact Hd10
      ipureintro
      intro j hj
      sl_unfold_run_names
      exact block_value (13 : Fin 32) (by decide) 167424 19968 (by decide) (by decide) _ _ _ _ _ g0 g3 j hj
    isplitl [Hd11]
    · iexists _
      isplitl [Hd11]; · iexact Hd11
      ipureintro
      intro j hj
      sl_unfold_run_names
      exact block_value (16 : Fin 32) (by decide) 118272 24576 (by decide) (by decide) _ _ _ _ _ g0 g3 j hj
    isplitl [Hd12]
    · iexists _
      isplitl [Hd12]; · iexact Hd12
      ipureintro
      intro j hj
      sl_unfold_run_names
      exact block_value (17 : Fin 32) (by decide) 43008 26112 (by decide) (by decide) _ _ _ _ _ g0 g3 j hj
    isplitl [Hd13]
    · iexists _
      isplitl [Hd13]; · iexact Hd13
      ipureintro
      intro j hj
      sl_unfold_run_names
      exact block_value (19 : Fin 32) (by decide) 142848 29184 (by decide) (by decide) _ _ _ _ _ g0 g3 j hj
    isplitl [Hd14]
    · iexists _
      isplitl [Hd14]; · iexact Hd14
      ipureintro
      intro j hj
      sl_unfold_run_names
      exact block_value (21 : Fin 32) (by decide) 0 32256 (by decide) (by decide) _ _ _ _ _ g0 g3 j hj
    isplitl [Hd15]
    · iexists _
      isplitl [Hd15]; · iexact Hd15
      ipureintro
      intro j hj
      sl_unfold_run_names
      exact block_value (23 : Fin 32) (by decide) 75264 35328 (by decide) (by decide) _ _ _ _ _ g0 g3 j hj
    isplitl [Hd16]
    · iexists _
      isplitl [Hd16]; · iexact Hd16
      ipureintro
      intro j hj
      sl_unfold_run_names
      exact block_value (24 : Fin 32) (by decide) 105984 36864 (by decide) (by decide) _ _ _ _ _ g0 g3 j hj
    isplitl [Hd17]
    · iexists _
      isplitl [Hd17]; · iexact Hd17
      ipureintro
      intro j hj
      sl_unfold_run_names
      exact block_value (25 : Fin 32) (by decide) 133632 38400 (by decide) (by decide) _ _ _ _ _ g0 g3 j hj
    isplitl [Hd18]
    · iexists _
      isplitl [Hd18]; · iexact Hd18
      ipureintro
      intro j hj
      sl_unfold_run_names
      exact block_value (26 : Fin 32) (by decide) 136704 39936 (by decide) (by decide) _ _ _ _ _ g0 g3 j hj
    isplitl [Hd19]
    · iexists _
      isplitl [Hd19]; · iexact Hd19
      ipureintro
      intro j hj
      sl_unfold_run_names
      exact block_value (27 : Fin 32) (by decide) 159744 41472 (by decide) (by decide) _ _ _ _ _ g0 g3 j hj
    isplitl [Hd20]
    · iexists _
      isplitl [Hd20]; · iexact Hd20
      ipureintro
      intro j hj
      sl_unfold_run_names
      exact block_value (28 : Fin 32) (by decide) 115200 43008 (by decide) (by decide) _ _ _ _ _ g0 g3 j hj
    isplitl [Hd21]
    · iexists _
      isplitl [Hd21]; · iexact Hd21
      ipureintro
      intro j hj
      sl_unfold_run_names
      exact block_value (30 : Fin 32) (by decide) 138240 46080 (by decide) (by decide) _ _ _ _ _ g0 g3 j hj
    iempintro
  isplitl [Hs0 Hs1 Hs2 Hs3 Hs4 Hs5 Hs6 Hs7]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    iempintro
  isplitl [Hc0 Hc1 Hc2 Hc3 Hc4 Hc5 Hc6 Hc7 Hc8 Hc9 Hc10 Hc11 Hc12 Hc13 Hc14 Hc15]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    iexact Hc15
  iexists _
  isplitr
  rotate_left
  · iexact HO
  · ipureintro
    repeat (refine waits_insert _ ?_)
    exact fun p hp => .inl hp

/-- The body's run: each destination block at the returned pool. -/
theorem tc_body (O : CellTallies nD τ sig (HIx 1)) (W : Waits sig (HIx 1))
    (g0 : Buf (Elt F) ((SparseCore.T d : Thread nD τ).loc main_v0)) (g3 : Buf (Elt F) ((SparseCore.T d : Thread nD τ).loc main_v3)) (fs : Buf (Elt F) ((SparseCore.T d : Thread nD τ).loc cc1_scratch0)) :
    iprop((Transfers.MayWaits (SparseCore.T d : Thread nD τ) (none : HIx 1) O : sProp 𝕄) ∗ TOKS d g0 ∗ DSTS d g3 ∗ SLOTS d fs ∗ SEMS d ∗ owes (SparseCore.T d : Thread nD τ) O W)
      ⊢ wp frame (wpE (defs₀ (F := F)) 𝒱₀ (SparseCore.T d : Thread nD τ) none) Set.univ
          (cc1__tc_scatter_body v0W (Memref.isWhole_whole _) v3W (Memref.isWhole_whole _) v3W (Memref.isWhole_whole _) scW (Memref.isWhole_whole _) cc1_scratch1 cc1_scratch2)
          fun _ => iprop(TOKS d g0 ∗ DSTS d (Cert.Spec.outPool2 (α := Elt F .f32) g0 g3) ∗ SLOTSX d ∗ SEMS d
            ∗ ∃ W', ⌜∀ p ∈ W', p ∈ W ∨ p.2 = none⌝ ∗ owes (SparseCore.T d : Thread nD τ) O W') := by
  refine (tc_body_raw d O W g0 g3 fs).trans (wp_mono frame _ _ fun _ => ?_)
  iintro ⟨Ht, Hd, Hs, Hc, HO⟩
  isplitl [Ht]; · iexact Ht
  isplitl [Hd]; · iapply (DSTSV_DSTS d g0 g3); iexact Hd
  isplitl [Hs]; · iexact Hs
  isplitl [Hc]; · iexact Hc
  iexact HO

end Cert.KernelIdeal.KP

end
-- ==== Proof.KTcSplitI.lean ====
/-
  The scatter kernel's groups of resources against the arrays held whole: the batch array's read share as eight read
  tokens and what is left; the pool array as its destination row blocks and the rows outside them, where the returned
  pool is the pool; the staging scratch as its slots and back; the sixteen transfer semaphores one by one.
-/
import proofs.«209156_g27831388078850_cont_9to1_824_17_alg».proof.Proof.KTcBodyI1
import proofs.«209156_g27831388078850_cont_9to1_824_17_alg».proof.Proof.KTcDatI
import Idealize.ShloMosaic.Lib.Transfers

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Cert.Spec

variable {F : FTy → Type}

local notation "𝕄" => MT nD τ sig (HIx 1) (Elt F) ℕ UU ℕ

/-! ## Pieces each at some contents, joined -/

section PiecesX

variable {ℓ : Loc nD τ sig}

/-- The sets of the list, each held at some contents. -/
def piecesX (q : PosShare TreeShare) : List (Finset (Idx ℓ)) → sProp 𝕄
  | [] => iprop(emp)
  | I :: L => iprop((∃ f : Buf (Elt F) ℓ, ℓ ↦[I]{q} f) ∗ piecesX q L)

/-- Pairwise disjoint subsets of `S`, each at some contents, and the rest of `S` at some contents are `S` at some contents. -/
theorem join_pieces (q : PosShare TreeShare) :
    ∀ (L : List (Finset (Idx ℓ))) (S : Finset (Idx ℓ)), (∀ I ∈ L, I ⊆ S) → L.Pairwise Disjoint →
      (iprop(piecesX (F := F) q L ∗ ∃ f : Buf (Elt F) ℓ, ℓ ↦[restOf S L]{q} f) ⊢ (iprop(∃ f : Buf (Elt F) ℓ, ℓ ↦[S]{q} f) : sProp 𝕄))
  | [], S, _, _ => by
    show iprop(emp ∗ ∃ f : Buf (Elt F) ℓ, ℓ ↦[S]{q} f) ⊢ (iprop(∃ f : Buf (Elt F) ℓ, ℓ ↦[S]{q} f) : sProp 𝕄)
    iintro ⟨-, H⟩; iexact H
  | I :: L, S, hS, hd => by
    have hI : I ⊆ S := hS I List.mem_cons_self
    have ih := join_pieces q L (S \ I)
      (fun J hJ => Finset.subset_sdiff.mpr ⟨hS J (List.mem_cons_of_mem _ hJ), (List.rel_of_pairwise_cons hd hJ).symm⟩)
      (List.Pairwise.of_cons hd)
    show iprop(((∃ f : Buf (Elt F) ℓ, ℓ ↦[I]{q} f) ∗ piecesX (F := F) q L) ∗ ∃ f : Buf (Elt F) ℓ, ℓ ↦[restOf (S \ I) L]{q} f)
      ⊢ (iprop(∃ f : Buf (Elt F) ℓ, ℓ ↦[S]{q} f) : sProp 𝕄)
    iintro ⟨⟨⟨%g, HI⟩, HP⟩, HR⟩
    ihave H2 := ih $$ [HP HR]
    · isplitl [HP]; · iexact HP
      iexact HR
    icases H2 with ⟨%f, HR⟩
    ihave H3 := (pointsTo_join_subset (g := g) (f := f) hI) $$ [HI HR]
    · isplitl [HI]; · iexact HI
      iexact HR
    iexists _; iexact H3

/-- A chain of pieces, read one element set at a time. -/
theorem piecesAt_cons_eq {q : PosShare TreeShare} {f : Buf (Elt F) ℓ} {I I' : Finset (Idx ℓ)} {R : sProp 𝕄} {L : List (Finset (Idx ℓ))}
    (hI : I' = I) (hR : R = piecesAt (F := F) q f L) : iprop((ℓ ↦[I']{q} f) ∗ R) = piecesAt (F := F) q f (I :: L) := by
  subst hI hR; rfl

theorem piecesX_cons_eq {q : PosShare TreeShare} {I I' : Finset (Idx ℓ)} {R : sProp 𝕄} {L : List (Finset (Idx ℓ))}
    (hI : I' = I) (hR : R = piecesX (F := F) q L) : iprop((∃ f : Buf (Elt F) ℓ, ℓ ↦[I']{q} f) ∗ R) = piecesX (F := F) q (I :: L) := by
  subst hI hR; rfl

end PiecesX

section Split

variable (d : Dev nD)

/-! ## The batch array's read share -/

/-- What is left of the batch array's share beside the kernel's eight read tokens. -/
def V0REST (g0 : Buf (Elt F) ((SparseCore.T d : Thread nD τ).loc main_v0)) : sProp 𝕄 :=
  iprop((((SparseCore.T d : Thread nD τ).loc main_v0) ↦{Transfers.shareDrop fullShare 16} g0)
    ∗ bigSep (Finset.range 8) fun i => ((SparseCore.T d : Thread nD τ).loc main_v0) ↦{Transfers.shareTokN fullShare i} g0)

theorem range16 : Finset.range 16 = insert 15 (insert 14 (insert 13 (insert 12 (insert 11 (insert 10 (insert 9 (insert 8 (Finset.range 8)))))))) := by decide

theorem v0_split (g0 : Buf (Elt F) ((SparseCore.T d : Thread nD τ).loc main_v0)) :
    (((SparseCore.T d : Thread nD τ).loc main_v0) ↦{fullShare} g0 : sProp 𝕄) ⊣⊢ iprop(TOKS d g0 ∗ V0REST d g0) := by
  have h := Transfers.pointsTo_toks_range (Ix := HIx 1) (Name := ℕ) (U := UU) (Lvl := ℕ) (ℓ := ((SparseCore.T d : Thread nD τ).loc main_v0)) (S := Finset.univ) (f := g0) fullShare 16
  rw [range16, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide)] at h
  unfold TOKS V0REST
  constructor
  · refine h.1.trans ?_
    iintro ⟨Hd, H15, H14, H13, H12, H11, H10, H9, H8, Hr⟩
    isplitl [H15 H14 H13 H12 H11 H10 H9 H8]
    · isplitl [H15]; · iexact H15
      isplitl [H14]; · iexact H14
      isplitl [H13]; · iexact H13
      isplitl [H12]; · iexact H12
      isplitl [H11]; · iexact H11
      isplitl [H10]; · iexact H10
      isplitl [H9]; · iexact H9
      iexact H8
    · isplitl [Hd]; · iexact Hd
      iexact Hr
  · refine BIBase.Entails.trans ?_ h.2
    iintro ⟨⟨H15, H14, H13, H12, H11, H10, H9, H8⟩, Hd, Hr⟩
    isplitl [Hd]; · iexact Hd
    isplitl [H15]; · iexact H15
    isplitl [H14]; · iexact H14
    isplitl [H13]; · iexact H13
    isplitl [H12]; · iexact H12
    isplitl [H11]; · iexact H11
    isplitl [H10]; · iexact H10
    isplitl [H9]; · iexact H9
    isplitl [H8]; · iexact H8
    iexact Hr

/-! ## The pool array: the destination row blocks and the other rows -/

/-- The destination row blocks' element sets, in the kernel's order. -/
def dsets : List (Finset (Idx ((SparseCore.T d : Thread nD τ).loc main_v3))) := offsD.map dsetN

theorem offsD_apart : List.Pairwise (fun o o' : ℕ => o + 1536 ≤ o' ∨ o' + 1536 ≤ o) offsD := by decide

theorem dsets_disjoint : (dsets d).Pairwise Disjoint :=
  List.Pairwise.map dsetN (fun _ _ h => dsetN_disjoint h) offsD_apart

set_option maxHeartbeats 4000000 in
set_option maxRecDepth 65536 in
theorem DSTS_eq (g : Buf (Elt F) ((SparseCore.T d : Thread nD τ).loc main_v3)) : DSTS d g = piecesAt (F := F) fullShare g (dsets d) := by
  unfold DSTS
  exact piecesAt_cons_eq (dstM_set 127488 _) (piecesAt_cons_eq (dstM_set 99840 _) (piecesAt_cons_eq (dstM_set 112128 _) (piecesAt_cons_eq (dstM_set 119808 _) (piecesAt_cons_eq (dstM_set 49152 _) (piecesAt_cons_eq (dstM_set 23040 _) (piecesAt_cons_eq (dstM_set 73728 _) (piecesAt_cons_eq (dstM_set 130560 _) (piecesAt_cons_eq (dstM_set 38400 _) (piecesAt_cons_eq (dstM_set 178176 _) (piecesAt_cons_eq (dstM_set 167424 _) (piecesAt_cons_eq (dstM_set 118272 _) (piecesAt_cons_eq (dstM_set 43008 _) (piecesAt_cons_eq (dstM_set 142848 _) (piecesAt_cons_eq (dstM_set 0 _) (piecesAt_cons_eq (dstM_set 75264 _) (piecesAt_cons_eq (dstM_set 105984 _) (piecesAt_cons_eq (dstM_set 133632 _) (piecesAt_cons_eq (dstM_set 136704 _) (piecesAt_cons_eq (dstM_set 159744 _) (piecesAt_cons_eq (dstM_set 115200 _) (piecesAt_cons_eq (dstM_set 138240 _) (rfl))))))))))))))))))))))

theorem v3_split (g : Buf (Elt F) ((SparseCore.T d : Thread nD τ).loc main_v3)) :
    (((SparseCore.T d : Thread nD τ).loc main_v3) ↦{fullShare} g : sProp 𝕄) ⊣⊢ iprop(DSTS d g ∗ ((SparseCore.T d : Thread nD τ).loc main_v3) ↦[restOf Finset.univ (dsets d)]{fullShare} g) := by
  rw [DSTS_eq]
  exact pointsTo_pieces (F := F) fullShare g (dsets d) Finset.univ (fun I _ => Finset.subset_univ I) (dsets_disjoint d)

theorem index_offs : ∀ b : Fin 32, Cert.Spec.prob b = true → 1536 * (Cert.Spec.index b).val ∈ offsD := by decide

/-- Outside the destination row blocks the returned pool is the pool. -/
theorem v3_rest_value (g0 : S49152x128.Idx → Elt F .f32) (g3 : S196608x128.Idx → Elt F .f32) :
    ∀ j ∈ restOf (ℓ := ((SparseCore.T d : Thread nD τ).loc main_v3)) Finset.univ (dsets d), g3 j = Cert.Spec.outPool2 (α := Elt F .f32) g0 g3 j := by
  intro j hj
  obtain ⟨-, hn⟩ := mem_restOf.mp hj
  refine (outPool2_rest g0 g3 j fun b hb hcon => ?_).symm
  refine hn (dsetN (1536 * (Cert.Spec.index b).val)) (List.mem_map_of_mem (index_offs b hb)) ?_
  simp only [dsetN, Finset.mem_filter, Finset.mem_univ, true_and]
  exact hcon

/-! ## The staging scratch and its slots -/

/-- The slots' element sets. -/
def ssets : List (Finset (Idx ((SparseCore.T d : Thread nD τ).loc cc1_scratch0))) := (List.range 8).map ssetN

theorem ssets_disjoint : (ssets d).Pairwise Disjoint :=
  List.Pairwise.map ssetN (fun _ _ h => ssetN_disjoint h) (List.nodup_range (n := 8))

set_option maxHeartbeats 4000000 in
set_option maxRecDepth 65536 in
theorem SLOTS_eq (fs : Buf (Elt F) ((SparseCore.T d : Thread nD τ).loc cc1_scratch0)) : SLOTS d fs = piecesAt (F := F) fullShare fs (ssets d) := by
  unfold SLOTS
  exact piecesAt_cons_eq (slotM_set 0 _) (piecesAt_cons_eq (slotM_set 1 _) (piecesAt_cons_eq (slotM_set 2 _) (piecesAt_cons_eq (slotM_set 3 _) (piecesAt_cons_eq (slotM_set 4 _) (piecesAt_cons_eq (slotM_set 5 _) (piecesAt_cons_eq (slotM_set 6 _) (piecesAt_cons_eq (slotM_set 7 _) (rfl))))))))

set_option maxHeartbeats 4000000 in
set_option maxRecDepth 65536 in
theorem SLOTSX_eq : (SLOTSX d : sProp 𝕄) = piecesX (F := F) (ℓ := ((SparseCore.T d : Thread nD τ).loc cc1_scratch0)) fullShare (ssets d) := by
  unfold SLOTSX
  exact piecesX_cons_eq (slotM_set 0 _) (piecesX_cons_eq (slotM_set 1 _) (piecesX_cons_eq (slotM_set 2 _) (piecesX_cons_eq (slotM_set 3 _) (piecesX_cons_eq (slotM_set 4 _) (piecesX_cons_eq (slotM_set 5 _) (piecesX_cons_eq (slotM_set 6 _) (piecesX_cons_eq (slotM_set 7 _) (rfl))))))))

theorem scratch_split (fs : Buf (Elt F) ((SparseCore.T d : Thread nD τ).loc cc1_scratch0)) :
    (((SparseCore.T d : Thread nD τ).loc cc1_scratch0) ↦{fullShare} fs : sProp 𝕄) ⊢ iprop(SLOTS d fs ∗ ((SparseCore.T d : Thread nD τ).loc cc1_scratch0) ↦[restOf Finset.univ (ssets d)]{fullShare} fs) := by
  rw [SLOTS_eq]
  exact (pointsTo_pieces (F := F) fullShare fs (ssets d) Finset.univ (fun I _ => Finset.subset_univ I) (ssets_disjoint d)).1

theorem scratch_join :
    iprop(SLOTSX d ∗ ∃ f : Buf (Elt F) ((SparseCore.T d : Thread nD τ).loc cc1_scratch0), ((SparseCore.T d : Thread nD τ).loc cc1_scratch0) ↦[restOf Finset.univ (ssets d)]{fullShare} f)
      ⊢ (iprop(∃ f : Buf (Elt F) ((SparseCore.T d : Thread nD τ).loc cc1_scratch0), ((SparseCore.T d : Thread nD τ).loc cc1_scratch0) ↦{fullShare} f) : sProp 𝕄) := by
  rw [SLOTSX_eq]
  exact join_pieces (F := F) fullShare (ssets d) Finset.univ (fun I _ => Finset.subset_univ I) (ssets_disjoint d)

/-! ## The transfer semaphores -/

theorem fin16_univ : (Finset.univ : Finset (Fin 16)) = {0, 1, 2, 3, 4, 5, 6, 7, 8, 9, 10, 11, 12, 13, 14, 15} := by decide

set_option maxHeartbeats 1000000 in
theorem sems_eq : (Pipeline.ownSems0 osem d : sProp 𝕄) = SEMS d := by
  unfold Pipeline.ownSems0 SEMS
  rw [fin16_univ, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

end Split

end Cert.KernelIdeal.KP

end
-- ==== Proof.KTcOblI.lean ====
/-
  The TensorCore region's body obligation: at its one grid point the kernel's body takes the region's invariant
  before the point to the invariant after it. The invariant holds the two arrays whole; the body's run is stated over
  the batch array's read shares, the pool array's destination blocks and the scratch's slots, so the arrays are cut
  before the run and joined after it; the rows of the pool array outside every destination block keep their contents,
  which are the returned pool's there.
-/
import proofs.«209156_g27831388078850_cont_9to1_824_17_alg».proof.Proof.KTcBodyI2
import proofs.«209156_g27831388078850_cont_9to1_824_17_alg».proof.Proof.KTcSplitI
import proofs.«209156_g27831388078850_cont_9to1_824_17_alg».proof.Proof.KTcDatI
import Idealize.ShloMosaic.Lib.Transfers

set_option quotPrecheck false

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Cert.Spec

variable {F : FTy → Type}

local notation "𝕄" => MT nD τ sig (HIx 1) (Elt F) ℕ UU ℕ

variable [FloatOps F]

/-- After its one SparseCore call the TensorCore owes the launch nothing more. -/
theorem Otc_one (c : Dev nD) : (K (F := F)).Otc c 1 = 0 := by
  unfold SparseCore.Cfg.Otc
  exact Finset.sum_eq_zero fun q _ => if_neg (by have := q.isLt; omega)

/-- No staging window: a family over the pipeline's windows is empty. -/
theorem bigSep_noWin (Φ : Fin (cfgT (F := F)).W → sProp 𝕄) : bigSep Finset.univ Φ = iprop(emp) := by
  show bigSep (Finset.univ : Finset (Fin 0)) Φ = _
  rw [Finset.univ_eq_empty, bigSep_empty]
  rfl

set_option maxHeartbeats 4000000 in
/-- The body obligation of the region's proof data. -/
theorem bodyOblT (g0 : S49152x128.Idx → Elt F .f32) (g3 : S196608x128.Idx → Elt F .f32) (c : Dev nD) :
    (rdatT g0 g3 c).BodyObligation (defs₀ (F := F)) 𝒱₀ (none : HIx 1) Set.univ := by
  intro t Y _
  have ht : t.val = 0 := by
    have h1 : t.val < grid1.N := t.isLt
    rw [Gen.N_1] at h1; omega
  have e0 : (rdatT g0 g3 c).Φ t.castSucc = Φ0 g0 g3 c := by
    show (if t.castSucc.val = 0 then Φ0 g0 g3 c else Φ1 g0 g3 c) = _
    exact if_pos ht
  have e1 : (rdatT g0 g3 c).Φ t.succ = Φ1 g0 g3 c := by
    show (if t.succ.val = 0 then Φ0 g0 g3 c else Φ1 g0 g3 c) = _
    exact if_neg (by rw [Fin.val_succ]; omega)
  have hO : ∀ g, ((K (F := F)).Otc c 1) g none = 0 := fun g => by rw [Otc_one]; rfl
  rw [e0, e1, bigSep_noWin, bigSep_noWin]
  unfold Φ0 Φ1
  rw [Gen.scopedRest1_eq, sems_eq]
  show iprop(_ ∗ Pipeline.owesWithin c ((K (F := F)).Otc c 1) _ ∗ emp)
    ⊢ wp frame (wpE (defs₀ (F := F)) 𝒱₀ (SparseCore.T c : Thread nD τ) none) Set.univ
        (cc1__tc_scatter_body (Memref.whole main_v0) (Memref.isWhole_whole _) (Memref.whole main_v3) (Memref.isWhole_whole _) (Memref.whole main_v3) (Memref.isWhole_whole _) (Memref.whole cc1_scratch0) (Memref.isWhole_whole _) cc1_scratch1 cc1_scratch2) _
  iintro ⟨⟨#Hlv, H0, H3, Hsem, ⟨%fs, Hsc⟩⟩, ⟨%W, %hW, HO⟩, -⟩
  ihave Hmw := ((K (F := F)).mayWaits_none (thr := (SparseCore.T c : Thread nD τ)) hO) $$ Hlv
  ihave H0' := (v0_split c g0).1 $$ H0
  icases H0' with ⟨Htok, H0r⟩
  ihave H3' := (v3_split c g3).1 $$ H3
  icases H3' with ⟨Hdst, H3r⟩
  ihave Hsc' := (scratch_split c fs) $$ Hsc
  icases Hsc' with ⟨Hslots, Hscr⟩
  iapply (wp_wand_r frame _ Set.univ)
  isplitl [Htok Hdst Hslots Hsem HO]
  · iapply (tc_body c ((K (F := F)).Otc c 1) W g0 g3 fs)
    isplitr; · iexact Hmw
    isplitl [Htok]; · iexact Htok
    isplitl [Hdst]; · iexact Hdst
    isplitl [Hslots]; · iexact Hslots
    isplitl [Hsem]; · iexact Hsem
    iexact HO
  iintro %_ ⟨Htok, Hdst, Hslx, Hsem, %W', %hW', HO⟩
  isplitl [Htok H0r Hdst H3r Hslx Hscr Hsem]
  · isplitr; · iexact Hlv
    isplitl [Htok H0r]
    · iapply (v0_split c g0).2
      isplitl [Htok]; · iexact Htok
      iexact H0r
    isplitl [Hdst H3r]
    · iapply (v3_split c (Cert.Spec.outPool2 (α := Elt F .f32) g0 g3)).2
      isplitl [Hdst]; · iexact Hdst
      iapply (Entails.of_eq (pointsTo_congr (v3_rest_value c g0 g3)))
      iexact H3r
    isplitl [Hsem]; · iexact Hsem
    iapply (scratch_join c)
    isplitl [Hslx]; · iexact Hslx
    iexists fs; iexact Hscr
  isplitl [HO]
  · iexists W'
    isplitr
    · ipureintro
      intro p hp
      rcases hW' p (Finset.mem_coe.mp hp) with h | h
      · exact hW (Finset.mem_coe.mpr h)
      · refine Or.inl ?_
        show (K (F := F)).lev ((SparseCore.T c : Thread nD τ), p.1) p.2 ≤ 8 * 1
        rw [h, SparseCore.Cfg.lev_none]; exact Nat.zero_le _
    · iexact HO
  · iempintro

end Cert.KernelIdeal.KP

end
-- ==== Proof.KRunI.lean ====
/-
  The kernel program's run: the launch theorem's hypotheses discharged by the vector subcores' task, the split of the
  SparseCore call's operands, and the TensorCore kernel's region from its body.
-/
import proofs.«209156_g27831388078850_cont_9to1_824_17_alg».proof.Proof.KLaunchI
import proofs.«209156_g27831388078850_cont_9to1_824_17_alg».proof.Proof.KTileI2
import proofs.«209156_g27831388078850_cont_9to1_824_17_alg».proof.Proof.KSplitI
import proofs.«209156_g27831388078850_cont_9to1_824_17_alg».proof.Proof.KTcRegionI
import proofs.«209156_g27831388078850_cont_9to1_824_17_alg».proof.Proof.KTcOblI

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [∀ e, Nonempty (Elt F e)]

omit [FloatOps F] [∀ e, Nonempty (Elt F e)] in
/-- The region needs nothing of the launch's ghost state. -/
theorem Gtc_intro : (BI.own ((EP : Emb UP 𝕄) 1) : sProp 𝕄) ⊢ iprop(|==> bigSep Finset.univ fun _ : Dev nD => (iprop(emp) : sProp 𝕄)) := by
  iintro -
  imodintro
  rw [bigSep_emp']
  iempintro

/-- Every weakly fair execution of the kernel program's threads terminates, faulting nowhere; at the end the two
    arguments are unchanged and the two results hold the result functions over rows of lanes, read back as images. -/
theorem run (m : (ℓ : Loc nD τ sig) → Buf (Elt F) ℓ) (ρ : Dev nD → PrngReg) :
    θ_run (Cert.KernelIdeal.defs (F := F)) (Cert.KernelIdeal.threads (F := F)) ⟨m, fun _ => 0, ρ⟩ (QC m) :=
  run_of m ρ (tileObl _ _ _) (vecSplit _ _ _) 1 (fun _ => iprop(emp)) Gtc_intro (tc_region_of bodyOblT)

end Cert.KernelIdeal.KP

end
-- ==== Proof.KCommonB.lean ====
/-
  The kernel program as the SparseCore launch theorem sees it, and the resource algebra of its proof: the launch
  handshakes' rounds, a copy of the rounds algebra for the TensorCore region's (empty) set of staging cells, and
  the counters of the schedule-free transfer protocol that every copy of both kernels follows (each copy is
  issued on a semaphore of its own slot and waited for before that semaphore is used again).
-/
import proofs.«209156_g27831388078850_cont_9to1_824_17_alg».proof.Kernel
import proofs.«209156_g27831388078850_cont_9to1_824_17_alg».proof.Proof.Gen.Kernel
import proofs.«209156_g27831388078850_cont_9to1_824_17_alg».proof.Proof.Gen.Kernel.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.KP

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch handshakes' rounds. -/
abbrev UH : Type := URounds (GSem nD τ sig) ℕ
/-- The TensorCore region's staging cells (it has none: every operand stays in HBM). -/
abbrev UP : Type := URounds (GSem nD τ sig) Unit
abbrev UU : Type := UH × (UP × Counters)

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

example : CountersIn UU := inferInstance

end Cert.Kernel.KP

end
-- ==== Proof.KPayB.lean ====
/-
  What the SparseCore call's handshakes carry.  The call reads the image rows and the pool rows (both left unchanged:
  read shares, one per SparseCore, split again one per vector subcore) and writes the batch result, whose rows are dealt
  to the 32 vector subcores in blocks of 48: block (b, tile) is rows 1536 b + 48 tile … + 47, written by task b of that
  tile.  After the call every block holds the result function's values.
-/
import proofs.«209156_g27831388078850_cont_9to1_824_17_alg».proof.Proof.KCommonB
import proofs.«209156_g27831388078850_cont_9to1_824_17_alg».proof.Proof.Spec

noncomputable section

namespace Cert.Kernel.KP

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

/-- The image rows, the pool rows and the batch result, as the TensorCore names them. -/
abbrev imgLoc (d : Dev nD) : Loc nD τ sig := (SparseCore.T d).loc main_v0
abbrev poolLoc (d : Dev nD) : Loc nD τ sig := (SparseCore.T d).loc main_v1
abbrev outLoc (d : Dev nD) : Loc nD τ sig := (SparseCore.T d).loc main_v2

/-- The kernel's operands as the body table passes them. -/
abbrev imgV : Memref sig .scVector .hbm S49152x128 .f32 := Memref.whole main_v0_scv
abbrev poolV : Memref sig .scVector .hbm S196608x128 .f32 := Memref.whole main_v1_scv
abbrev outV : Memref sig .scVector .hbm S49152x128 .f32 := Memref.whole main_v2_scv
abbrev bufV : Memref sig .scVector .vmem S4x48x128 .f32 := Memref.whole cc0_scratch0

/-- A tile's grid coordinates: SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- Task `b`'s destination on tile `L`: 48 rows from row `1536 b + 768 (L 0) + 48 (L 1)`, as the program slices them. -/
abbrev dstRect (L : grid0.Coords) (b : Fin 32) : Rect S49152x128 :=
  Rect.unit (s := S49152x128) (k0_off2 L (BitVec.ofNat 32 (1536 * b.val))) S48x128.size (k0_off2_inb L b)
abbrev dstSet (L : grid0.Coords) (b : Fin 32) : Finset S49152x128.Idx := ((outV.slice (dstRect L b) (fun _ => rfl)).view).set

/-- A SparseCore's read share of an array, and a vector subcore's part of it. -/
abbrev qS (c : Fin 2) : PosShare TreeShare := shareTok fullShare 2 c
abbrev qT (c : Fin 2) (i : Fin 16) : PosShare TreeShare := shareTok (qS c) 16 i

/-- The 32 destination blocks of tile `(c, i)`, all at the contents `g`. -/
abbrev outBlocks (d : Dev nD) (c : Fin 2) (i : Fin 16) (g : Buf (Elt F) (outLoc d)) : sProp 𝕄 :=
  bigSep Finset.univ fun b : Fin 32 => outLoc d ↦[dstSet (coordsV c i) b]{fullShare} g

variable (f0 : (d : Dev nD) → Buf (Elt F) (imgLoc d)) (f1 : (d : Dev nD) → Buf (Elt F) (poolLoc d))
  (o0 : (d : Dev nD) → Buf (Elt F) (outLoc d))

/-- The batch result over rows of lanes, as the contents of the result array. -/
abbrev res (d : Dev nD) : Buf (Elt F) (outLoc d) := Cert.Spec.outImages2 (f0 d) (f1 d)

/-- The one call's payloads: the arrays' contents at the call are `f0`, `f1` (read) and `o0` (overwritten). -/
def P : (K (F := F)).Pay (nD := nD) (Val := Elt F) (Name := ℕ) (U := UU) where
  st := fun q d c => match q with
    | 0 => iprop((imgLoc d ↦{qS (Fin.cast nCore_zero c)} f0 d) ∗ (poolLoc d ↦{qS (Fin.cast nCore_zero c)} f1 d)
        ∗ bigSep Finset.univ fun i : Fin 16 => outBlocks d (Fin.cast nCore_zero c) i (o0 d))
  dn := fun q d c => match q with
    | 0 => iprop((imgLoc d ↦{qS (Fin.cast nCore_zero c)} f0 d) ∗ (poolLoc d ↦{qS (Fin.cast nCore_zero c)} f1 d)
        ∗ bigSep Finset.univ fun i : Fin 16 => outBlocks d (Fin.cast nCore_zero c) i (res f0 f1 d))
  go := fun q d c i => match q with
    | 0 => iprop((imgLoc d ↦{qT (Fin.cast nCore_zero c) (Fin.cast nSub_zero i)} f0 d) ∗ (poolLoc d ↦{qT (Fin.cast nCore_zero c) (Fin.cast nSub_zero i)} f1 d)
        ∗ outBlocks d (Fin.cast nCore_zero c) (Fin.cast nSub_zero i) (o0 d))
  td := fun q d c i => match q with
    | 0 => iprop((imgLoc d ↦{qT (Fin.cast nCore_zero c) (Fin.cast nSub_zero i)} f0 d) ∗ (poolLoc d ↦{qT (Fin.cast nCore_zero c) (Fin.cast nSub_zero i)} f1 d)
        ∗ outBlocks d (Fin.cast nCore_zero c) (Fin.cast nSub_zero i) (res f0 f1 d))
  x := fun _ _ => iprop(emp)

instance P_storable : (P (F := F) f0 f1 o0).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.Kernel.KP

end
-- ==== Proof.KMainAB.lean ====
/-
  @main's eight arrays on the TensorCore (the two arguments, their two reshapes, the two kernels' results, the two
  reshaped results) as one held set, and the values the host operations leave in them.
-/
import proofs.«209156_g27831388078850_cont_9to1_824_17_alg».proof.Proof.KPayB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev a0Loc (d : Dev nD) : Loc nD τ sig := (SparseCore.T d).loc main_arg0
abbrev a1Loc (d : Dev nD) : Loc nD τ sig := (SparseCore.T d).loc main_arg1
abbrev opLoc (d : Dev nD) : Loc nD τ sig := (SparseCore.T d).loc main_v3
abbrev r4Loc (d : Dev nD) : Loc nD τ sig := (SparseCore.T d).loc main_v4
abbrev r5Loc (d : Dev nD) : Loc nD τ sig := (SparseCore.T d).loc main_v5

/-- The TensorCore's arrays, all unscoped. -/
abbrev S8 : Finset (DevRef τ sig) := {a0', a1', v0', v1', v2', v3', v4', v5'}

theorem held_S8 (d : Dev nD) (W : Valuation τ sig (Elt F)) :
    (held (T d) S8 W : sProp 𝕄) = iprop((a0Loc d ↦{fullShare} W a0') ∗ (a1Loc d ↦{fullShare} W a1') ∗ (imgLoc d ↦{fullShare} W v0')
      ∗ (poolLoc d ↦{fullShare} W v1') ∗ (outLoc d ↦{fullShare} W v2') ∗ (opLoc d ↦{fullShare} W v3')
      ∗ (r4Loc d ↦{fullShare} W v4') ∗ (r5Loc d ↦{fullShare} W v5')) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (imgLoc d ↦{fullShare} W main_v0)
      ∗ (poolLoc d ↦{fullShare} W main_v1) ∗ (outLoc d ↦{fullShare} W main_v2) ∗ (opLoc d ↦{fullShare} W main_v3)
      ∗ (r4Loc d ↦{fullShare} W main_v4) ∗ (r5Loc d ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable [FloatOps F]

abbrev op0 : HloOp τ sig (Elt F) := StableHlo.reshape main_arg0 main_v0 rfl shapeCasts_S32x3x256x256_S49152x128
abbrev op1 : HloOp τ sig (Elt F) := StableHlo.reshape main_arg1 main_v1 rfl shapeCasts_S128x3x256x256_S196608x128
abbrev op3 : HloOp τ sig (Elt F) := StableHlo.unary main_v1 main_v3 id
abbrev op4 : HloOp τ sig (Elt F) := StableHlo.reshape main_v2 main_v4 rfl shapeCasts_S49152x128_S32x3x256x256
abbrev op5 : HloOp τ sig (Elt F) := StableHlo.reshape main_v3 main_v5 rfl shapeCasts_S196608x128_S128x3x256x256

theorem h0 : (op0 (F := F)).bufs ⊆ S8 := show ({a0', v0'} : Finset (DevRef τ sig)) ⊆ S8 by decide
theorem h1 : (op1 (F := F)).bufs ⊆ S8 := show ({a1', v1'} : Finset (DevRef τ sig)) ⊆ S8 by decide
theorem h3 : (op3 (F := F)).bufs ⊆ S8 := show ({v1', v3'} : Finset (DevRef τ sig)) ⊆ S8 by decide
theorem h4 : (op4 (F := F)).bufs ⊆ S8 := show ({v2', v4'} : Finset (DevRef τ sig)) ⊆ S8 by decide
theorem h5 : (op5 (F := F)).bufs ⊆ S8 := show ({v3', v5'} : Finset (DevRef τ sig)) ⊆ S8 by decide

/-- The arguments laid out as rows of lanes: what the two reshapes leave in main_v0 and main_v1. -/
def img2 (d : Dev nD) : Buf (Elt F) (imgLoc d) := shapeCast S49152x128 (m (a0Loc d)) shapeCasts_S32x3x256x256_S49152x128
def pool2 (d : Dev nD) : Buf (Elt F) (poolLoc d) := shapeCast S196608x128 (m (a1Loc d)) shapeCasts_S128x3x256x256_S196608x128

end Cert.Kernel.KP

end
-- ==== Proof.KMainBB.lean ====
/-
  The contents of @main's eight arrays at each stage of its run: at launch; after the two reshapes; after the SparseCore
  call (the batch result written); after the copy of the pool rows into the pool result's buffer; after the TensorCore
  kernel (the pool result written); after the two reshapes back.
-/
import proofs.«209156_g27831388078850_cont_9to1_824_17_alg».proof.Proof.KMainAB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-- The pool result over rows of lanes, and the two results as images. -/
abbrev opRes (d : Dev nD) : Buf (Elt F) (opLoc d) := Cert.Spec.outPool2 (img2 m d) (pool2 m d)
def R4 (d : Dev nD) : Buf (Elt F) (r4Loc d) := shapeCast S32x3x256x256 (res (img2 m) (pool2 m) d) shapeCasts_S49152x128_S32x3x256x256
def R5 (d : Dev nD) : Buf (Elt F) (r5Loc d) := shapeCast S128x3x256x256 (opRes m d) shapeCasts_S196608x128_S128x3x256x256

def V0 (d : Dev nD) : Valuation τ sig (Elt F) := fun b => m (d, b)
def V2 (d : Dev nD) : Valuation τ sig (Elt F) := StableHlo.after [op0, op1] (V0 m d)
def V3 (d : Dev nD) : Valuation τ sig (Elt F) := Function.update (V2 m d) v2' (res (img2 m) (pool2 m) d)
def V4 (d : Dev nD) : Valuation τ sig (Elt F) := StableHlo.after [op3] (V3 m d)
def V5 (d : Dev nD) : Valuation τ sig (Elt F) := Function.update (V4 m d) v3' (opRes m d)
def V7 (d : Dev nD) : Valuation τ sig (Elt F) := StableHlo.after [op4, op5] (V5 m d)

theorem V2_a0 (d : Dev nD) : V2 m d a0' = m (a0Loc d) := by unfold V2; after_results; rfl
theorem V2_a1 (d : Dev nD) : V2 m d a1' = m (a1Loc d) := by unfold V2; after_results; rfl
theorem V2_v0 (d : Dev nD) : V2 m d v0' = img2 m d := by unfold V2; after_results; rfl
theorem V2_v1 (d : Dev nD) : V2 m d v1' = pool2 m d := by unfold V2; after_results; rfl
theorem V2_v2 (d : Dev nD) : V2 m d v2' = m (outLoc d) := by unfold V2; after_results; rfl
theorem V2_v3 (d : Dev nD) : V2 m d v3' = m (opLoc d) := by unfold V2; after_results; rfl
theorem V2_v4 (d : Dev nD) : V2 m d v4' = m (r4Loc d) := by unfold V2; after_results; rfl
theorem V2_v5 (d : Dev nD) : V2 m d v5' = m (r5Loc d) := by unfold V2; after_results; rfl

theorem V3_a0 (d : Dev nD) : V3 m d a0' = m (a0Loc d) := (Function.update_of_ne (show a0' ≠ v2' by decide) _ _).trans (V2_a0 m d)
theorem V3_a1 (d : Dev nD) : V3 m d a1' = m (a1Loc d) := (Function.update_of_ne (show a1' ≠ v2' by decide) _ _).trans (V2_a1 m d)
theorem V3_v0 (d : Dev nD) : V3 m d v0' = img2 m d := (Function.update_of_ne (show v0' ≠ v2' by decide) _ _).trans (V2_v0 m d)
theorem V3_v1 (d : Dev nD) : V3 m d v1' = pool2 m d := (Function.update_of_ne (show v1' ≠ v2' by decide) _ _).trans (V2_v1 m d)
theorem V3_v2 (d : Dev nD) : V3 m d v2' = res (img2 m) (pool2 m) d := Function.update_self _ _ _
theorem V3_v3 (d : Dev nD) : V3 m d v3' = m (opLoc d) := (Function.update_of_ne (show v3' ≠ v2' by decide) _ _).trans (V2_v3 m d)
theorem V3_v4 (d : Dev nD) : V3 m d v4' = m (r4Loc d) := (Function.update_of_ne (show v4' ≠ v2' by decide) _ _).trans (V2_v4 m d)
theorem V3_v5 (d : Dev nD) : V3 m d v5' = m (r5Loc d) := (Function.update_of_ne (show v5' ≠ v2' by decide) _ _).trans (V2_v5 m d)

theorem V4_a0 (d : Dev nD) : V4 m d a0' = m (a0Loc d) := by unfold V4; after_results; exact V3_a0 m d
theorem V4_a1 (d : Dev nD) : V4 m d a1' = m (a1Loc d) := by unfold V4; after_results; exact V3_a1 m d
theorem V4_v0 (d : Dev nD) : V4 m d v0' = img2 m d := by unfold V4; after_results; exact V3_v0 m d
theorem V4_v1 (d : Dev nD) : V4 m d v1' = pool2 m d := by unfold V4; after_results; exact V3_v1 m d
theorem V4_v2 (d : Dev nD) : V4 m d v2' = res (img2 m) (pool2 m) d := by unfold V4; after_results; exact V3_v2 m d
theorem V4_v3 (d : Dev nD) : V4 m d v3' = pool2 m d := by unfold V4; after_results; exact V3_v1 m d
theorem V4_v4 (d : Dev nD) : V4 m d v4' = m (r4Loc d) := by unfold V4; after_results; exact V3_v4 m d
theorem V4_v5 (d : Dev nD) : V4 m d v5' = m (r5Loc d) := by unfold V4; after_results; exact V3_v5 m d

theorem V5_a0 (d : Dev nD) : V5 m d a0' = m (a0Loc d) := (Function.update_of_ne (show a0' ≠ v3' by decide) _ _).trans (V4_a0 m d)
theorem V5_a1 (d : Dev nD) : V5 m d a1' = m (a1Loc d) := (Function.update_of_ne (show a1' ≠ v3' by decide) _ _).trans (V4_a1 m d)
theorem V5_v0 (d : Dev nD) : V5 m d v0' = img2 m d := (Function.update_of_ne (show v0' ≠ v3' by decide) _ _).trans (V4_v0 m d)
theorem V5_v1 (d : Dev nD) : V5 m d v1' = pool2 m d := (Function.update_of_ne (show v1' ≠ v3' by decide) _ _).trans (V4_v1 m d)
theorem V5_v2 (d : Dev nD) : V5 m d v2' = res (img2 m) (pool2 m) d := (Function.update_of_ne (show v2' ≠ v3' by decide) _ _).trans (V4_v2 m d)
theorem V5_v3 (d : Dev nD) : V5 m d v3' = opRes m d := Function.update_self _ _ _
theorem V5_v4 (d : Dev nD) : V5 m d v4' = m (r4Loc d) := (Function.update_of_ne (show v4' ≠ v3' by decide) _ _).trans (V4_v4 m d)
theorem V5_v5 (d : Dev nD) : V5 m d v5' = m (r5Loc d) := (Function.update_of_ne (show v5' ≠ v3' by decide) _ _).trans (V4_v5 m d)

theorem V7_a0 (d : Dev nD) : V7 m d a0' = m (a0Loc d) := by unfold V7; after_results; exact V5_a0 m d
theorem V7_a1 (d : Dev nD) : V7 m d a1' = m (a1Loc d) := by unfold V7; after_results; exact V5_a1 m d
theorem V7_v0 (d : Dev nD) : V7 m d v0' = img2 m d := by unfold V7; after_results; exact V5_v0 m d
theorem V7_v1 (d : Dev nD) : V7 m d v1' = pool2 m d := by unfold V7; after_results; exact V5_v1 m d
theorem V7_v2 (d : Dev nD) : V7 m d v2' = res (img2 m) (pool2 m) d := by unfold V7; after_results; exact V5_v2 m d
theorem V7_v3 (d : Dev nD) : V7 m d v3' = opRes m d := by unfold V7; after_results; exact V5_v3 m d
theorem V7_v4 (d : Dev nD) : V7 m d v4' = R4 m d := by unfold V7; after_results; rw [V5_v2]; rfl
theorem V7_v5 (d : Dev nD) : V7 m d v5' = R5 m d := by unfold V7; after_results; rw [V5_v3]; rfl

theorem held_V0 (d : Dev nD) :
    (held (T d) S8 (V0 m d) : sProp 𝕄) = iprop((a0Loc d ↦{fullShare} m (a0Loc d)) ∗ (a1Loc d ↦{fullShare} m (a1Loc d)) ∗ (imgLoc d ↦{fullShare} m (imgLoc d)) ∗ (poolLoc d ↦{fullShare} m (poolLoc d)) ∗ (outLoc d ↦{fullShare} m (outLoc d)) ∗ (opLoc d ↦{fullShare} m (opLoc d)) ∗ (r4Loc d ↦{fullShare} m (r4Loc d)) ∗ (r5Loc d ↦{fullShare} m (r5Loc d))) := by
  rw [held_S8]; rfl
theorem held_V2 (d : Dev nD) :
    (held (T d) S8 (V2 m d) : sProp 𝕄) = iprop((a0Loc d ↦{fullShare} m (a0Loc d)) ∗ (a1Loc d ↦{fullShare} m (a1Loc d)) ∗ (imgLoc d ↦{fullShare} img2 m d) ∗ (poolLoc d ↦{fullShare} pool2 m d) ∗ (outLoc d ↦{fullShare} m (outLoc d)) ∗ (opLoc d ↦{fullShare} m (opLoc d)) ∗ (r4Loc d ↦{fullShare} m (r4Loc d)) ∗ (r5Loc d ↦{fullShare} m (r5Loc d))) := by
  rw [held_S8, V2_a0, V2_a1, V2_v0, V2_v1, V2_v2, V2_v3, V2_v4, V2_v5]

theorem held_V3 (d : Dev nD) :
    (held (T d) S8 (V3 m d) : sProp 𝕄) = iprop((a0Loc d ↦{fullShare} m (a0Loc d)) ∗ (a1Loc d ↦{fullShare} m (a1Loc d)) ∗ (imgLoc d ↦{fullShare} img2 m d) ∗ (poolLoc d ↦{fullShare} pool2 m d) ∗ (outLoc d ↦{fullShare} res (img2 m) (pool2 m) d) ∗ (opLoc d ↦{fullShare} m (opLoc d)) ∗ (r4Loc d ↦{fullShare} m (r4Loc d)) ∗ (r5Loc d ↦{fullShare} m (r5Loc d))) := by
  rw [held_S8, V3_a0, V3_a1, V3_v0, V3_v1, V3_v2, V3_v3, V3_v4, V3_v5]

theorem held_V4 (d : Dev nD) :
    (held (T d) S8 (V4 m d) : sProp 𝕄) = iprop((a0Loc d ↦{fullShare} m (a0Loc d)) ∗ (a1Loc d ↦{fullShare} m (a1Loc d)) ∗ (imgLoc d ↦{fullShare} img2 m d) ∗ (poolLoc d ↦{fullShare} pool2 m d) ∗ (outLoc d ↦{fullShare} res (img2 m) (pool2 m) d) ∗ (opLoc d ↦{fullShare} pool2 m d) ∗ (r4Loc d ↦{fullShare} m (r4Loc d)) ∗ (r5Loc d ↦{fullShare} m (r5Loc d))) := by
  rw [held_S8, V4_a0, V4_a1, V4_v0, V4_v1, V4_v2, V4_v3, V4_v4, V4_v5]

theorem held_V5 (d : Dev nD) :
    (held (T d) S8 (V5 m d) : sProp 𝕄) = iprop((a0Loc d ↦{fullShare} m (a0Loc d)) ∗ (a1Loc d ↦{fullShare} m (a1Loc d)) ∗ (imgLoc d ↦{fullShare} img2 m d) ∗ (poolLoc d ↦{fullShare} pool2 m d) ∗ (outLoc d ↦{fullShare} res (img2 m) (pool2 m) d) ∗ (opLoc d ↦{fullShare} opRes m d) ∗ (r4Loc d ↦{fullShare} m (r4Loc d)) ∗ (r5Loc d ↦{fullShare} m (r5Loc d))) := by
  rw [held_S8, V5_a0, V5_a1, V5_v0, V5_v1, V5_v2, V5_v3, V5_v4, V5_v5]

theorem held_V7 (d : Dev nD) :
    (held (T d) S8 (V7 m d) : sProp 𝕄) = iprop((a0Loc d ↦{fullShare} m (a0Loc d)) ∗ (a1Loc d ↦{fullShare} m (a1Loc d)) ∗ (imgLoc d ↦{fullShare} img2 m d) ∗ (poolLoc d ↦{fullShare} pool2 m d) ∗ (outLoc d ↦{fullShare} res (img2 m) (pool2 m) d) ∗ (opLoc d ↦{fullShare} opRes m d) ∗ (r4Loc d ↦{fullShare} R4 m d) ∗ (r5Loc d ↦{fullShare} R5 m d)) := by
  rw [held_S8, V7_a0, V7_a1, V7_v0, V7_v1, V7_v2, V7_v3, V7_v4, V7_v5]

end Cert.Kernel.KP

end
-- ==== Proof.KCoverB.lean ====
/-
  The 1024 destination blocks of the SparseCore call tile the batch result: block (b, c, i) — task b of vector subcore i
  of SparseCore c — is rows 48 k … 48 k + 47 for k = 32 b + 16 c + i, the k-th of the 1024 equal parts of the 49152 rows.
  So the whole array is the separating conjunction of its blocks.
-/
import proofs.«209156_g27831388078850_cont_9to1_824_17_alg».proof.Proof.KPayB

noncomputable section

namespace Cert.Kernel.KP

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

theorem hdiv1024 : 1024 ∣ S49152x128.size 0 := ⟨48, rfl⟩

/-- The k-th of the 1024 equal row blocks. -/
abbrev blk (k : Fin 1024) : Rect S49152x128 := Rect.part (s := S49152x128) (a₀ := 0) hdiv1024 k

/-- The number of block (b, c, i). -/
def blkIx (t : Fin 2 × Fin 16 × Fin 32) : Fin 1024 :=
  ⟨32 * t.2.2.val + 16 * t.1.val + t.2.1.val, by have := t.1.isLt; have := t.2.1.isLt; have := t.2.2.isLt; omega⟩

theorem blkIx_injective : Function.Injective blkIx := by
  rintro ⟨c, i, b⟩ ⟨c', i', b'⟩ h
  have h' : 32 * b.val + 16 * c.val + i.val = 32 * b'.val + 16 * c'.val + i'.val := congrArg Fin.val h
  have := c.isLt; have := i.isLt; have := c'.isLt; have := i'.isLt
  have hb : b.val = b'.val := by omega
  have hc : c.val = c'.val := by omega
  have hi : i.val = i'.val := by omega
  exact Prod.ext (Fin.ext hc) (Prod.ext (Fin.ext hi) (Fin.ext hb))

theorem blkIx_surjective : Function.Surjective blkIx := by
  intro k
  refine ⟨(⟨k.val % 32 / 16, by omega⟩, ⟨k.val % 16, by omega⟩, ⟨k.val / 32, by have := k.isLt; omega⟩), Fin.ext ?_⟩
  show 32 * (k.val / 32) + 16 * (k.val % 32 / 16) + k.val % 16 = k.val
  omega

theorem dstRect_eq (c : Fin 2) (i : Fin 16) (b : Fin 32) : dstRect (coordsV c i) b = blk (blkIx (c, i, b)) := by
  unfold dstRect blk Rect.part Rect.block
  congr 1 <;> funext a
  · rw [k0_off2_eq]
    match a with
    | 0 => simp [Shape.partIx, Shape.partSize, blkIx, coordsV]; omega
    | 1 => simp [Shape.partIx, Shape.partSize]
  · match a with
    | 0 => simp [Shape.partSize]
    | 1 => simp [Shape.partSize]

theorem dstSet_eq (c : Fin 2) (i : Fin 16) (b : Fin 32) : dstSet (coordsV c i) b = (blk (blkIx (c, i, b))).set := by
  show ((View.whole (main_v2_scv : Ref sig .scVector)).slice (dstRect (coordsV c i) b)).set = _
  rw [View.set_slice, dstRect_eq]; exact Finset.map_refl

/-- The block of a triple, as a set of indices of the result array. -/
abbrev tset (t : Fin 2 × Fin 16 × Fin 32) : Finset S49152x128.Idx := dstSet (coordsV t.1 t.2.1) t.2.2

theorem tset_disjoint : ∀ t ∈ (Finset.univ : Finset (Fin 2 × Fin 16 × Fin 32)), ∀ t' ∈ (Finset.univ : Finset (Fin 2 × Fin 16 × Fin 32)),
    t ≠ t' → Disjoint (tset t) (tset t') := by
  rintro ⟨c, i, b⟩ - ⟨c', i', b'⟩ - h
  show Disjoint (dstSet (coordsV c i) b) (dstSet (coordsV c' i') b')
  rw [dstSet_eq, dstSet_eq]
  exact Rect.part_disjoint hdiv1024 (fun e => h (blkIx_injective e))

theorem tset_cover : (Finset.univ : Finset (Fin 2 × Fin 16 × Fin 32)).biUnion tset = Finset.univ := by
  apply Finset.eq_univ_of_forall
  intro j
  obtain ⟨k, hk⟩ := Rect.exists_mem_part hdiv1024 j
  obtain ⟨⟨c, i, b⟩, rfl⟩ := blkIx_surjective k
  exact Finset.mem_biUnion.mpr ⟨(c, i, b), Finset.mem_univ _, by show j ∈ dstSet (coordsV c i) b; rw [dstSet_eq]; exact hk⟩

/-- The whole result array is its 2 × 16 × 32 blocks. -/
theorem out_blocks (d : Dev nD) (g : Buf (Elt F) (outLoc d)) :
    (outLoc d ↦{fullShare} g : sProp 𝕄)
      = bigSep Finset.univ fun c : Fin 2 => bigSep Finset.univ fun i : Fin 16 => outBlocks d c i g := by
  have h : (outLoc d ↦{fullShare} g : sProp 𝕄) = bigSep Finset.univ fun t : Fin 2 × Fin 16 × Fin 32 => outLoc d ↦[tset t]{fullShare} g := by
    rw [← pointsTo_biUnion Finset.univ (ℓ := outLoc d) tset tset_disjoint, tset_cover]; try rfl
  rw [h, ← Finset.univ_product_univ, SparseCore.bigSep_product]
  refine bigSep_congr fun c _ => ?_
  rw [← Finset.univ_product_univ, SparseCore.bigSep_product]

end Cert.Kernel.KP

end
-- ==== Proof.KMainCB.lean ====
/-
  @main on the TensorCore, under the SparseCore launch theorem: the two reshapes (host operations over the held arrays),
  the SparseCore call (each SparseCore is handed a read share of the image rows and of the pool rows and its blocks of
  the batch result; all come back, the blocks at the result function), the copy of the pool rows into the pool result's
  buffer, the TensorCore kernel's region (a step supplied as a hypothesis: it turns the copied pool rows into the pool
  result), and the two reshapes back.  At the end the two arguments are unchanged and the two results hold the result
  functions read back as images.
-/
import proofs.«209156_g27831388078850_cont_9to1_824_17_alg».proof.Proof.KMainBB
import proofs.«209156_g27831388078850_cont_9to1_824_17_alg».proof.Proof.KCoverB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The call's payloads at this run's contents. -/
abbrev PP : (K (F := F)).Pay (nD := nD) (Val := Elt F) (Name := ℕ) (U := UU) := P (F := F) (img2 m) (pool2 m) (fun d => m (outLoc d))

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (PP m).st 0 d c)
    = iprop((bigSep Finset.univ fun c : Fin 2 => imgLoc d ↦{qS c} img2 m d) ∗ (bigSep Finset.univ fun c : Fin 2 => poolLoc d ↦{qS c} pool2 m d)
        ∗ bigSep Finset.univ fun c : Fin 2 => bigSep Finset.univ fun i : Fin 16 => outBlocks d c i (m (outLoc d))) := by
  refine (bigSep_cores (F := F) (fun c => iprop((imgLoc d ↦{qS c} img2 m d) ∗ (poolLoc d ↦{qS c} pool2 m d)
    ∗ bigSep Finset.univ fun i : Fin 16 => outBlocks d c i (m (outLoc d))))).trans ?_
  rw [bigSep_sep', bigSep_sep']

theorem dn0_eq (d : Dev nD) : (bigSep Finset.univ fun c : Fin ((K (F := F)).nCore 0) => (PP m).dn 0 d c)
    = iprop((bigSep Finset.univ fun c : Fin 2 => imgLoc d ↦{qS c} img2 m d) ∗ (bigSep Finset.univ fun c : Fin 2 => poolLoc d ↦{qS c} pool2 m d)
        ∗ bigSep Finset.univ fun c : Fin 2 => bigSep Finset.univ fun i : Fin 16 => outBlocks d c i (res (img2 m) (pool2 m) d)) := by
  refine (bigSep_cores (F := F) (fun c => iprop((imgLoc d ↦{qS c} img2 m d) ∗ (poolLoc d ↦{qS c} pool2 m d)
    ∗ bigSep Finset.univ fun i : Fin 16 => outBlocks d c i (res (img2 m) (pool2 m) d)))).trans ?_
  rw [bigSep_sep', bigSep_sep']

/-- The TensorCore kernel's region as one step of @main's proof: from the TensorCore's state after the SparseCore call,
    the image rows `g0`, the pool result's buffer at `g3` and the region boundary, to the same with the buffer at the
    pool result of `g0` and `g3`; `Gtc d` is what the region needs of the launch's ghost state. -/
def TcRegion (Gtc : Dev nD → sProp 𝕄) : Prop :=
  ∀ (Pp : (K (F := F)).Pay (nD := nD) (Val := Elt F) (Name := ℕ) (U := UU)) (κ : GSem nD τ sig → ℕ) (d : Dev nD)
    (g0 : Buf (Elt F) (imgLoc d)) (g3 : Buf (Elt F) (opLoc d))
    {α : Type} (k : PUnit → Prog (TpuEff nD τ sig (Elt F) (SparseCore.Sig (ΛP (F := F)) 1) .tc) α) (Q : α → sProp 𝕄),
    iprop((K (F := F)).ctx EH Pp κ ∗ (K (F := F)).tcSt EH d 1 ∗ Gtc d ∗ (imgLoc d ↦{fullShare} g0) ∗ (opLoc d ↦{fullShare} g3) ∗ boundary (SparseCore.T d)
        ∗ (((K (F := F)).tcSt EH d 1 ∗ (imgLoc d ↦{fullShare} g0) ∗ (opLoc d ↦{fullShare} Cert.Spec.outPool2 g0 g3) ∗ boundary (SparseCore.T d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 0)) ()) k) Q

/-- What @main leaves the claim. -/
abbrev FIN (d : Dev nD) : sProp 𝕄 :=
  iprop((a0Loc d ↦{fullShare} m (a0Loc d)) ∗ (a1Loc d ↦{fullShare} m (a1Loc d)) ∗ (r4Loc d ↦{fullShare} R4 m d) ∗ (r5Loc d ↦{fullShare} R5 m d))

theorem hmain (Gtc : Dev nD → sProp 𝕄) (htc : TcRegion (F := F) Gtc) (κ : GSem nD τ sig → ℕ) (d : Dev nD) :
    iprop((K (F := F)).ctx EH (PP m) κ ∗ (K (F := F)).tcSt EH d 0 ∗ (K (F := F)).tcRes m ρ d ∗ Gtc d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (T d) S8 (V0 m d) from by rw [unscopedBufs_eq, held_V0]]
  simp only [main, wp_bind, wp_pure, Prog.lift]
  iintro ⟨#Hctx, Hst, ⟨Hb, Hheld, -, -⟩, HG⟩
  -- the two reshapes
  iapply (wp_hlo_within 𝒱 (SparseCore.T d) none Set.univ (op := op0) (S := S8) h0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S8) h1 (V := (op0 (F := F)).result (V0 m d))) $$ [Hb Hheld]
  · isplitl [Hb]; · iexact Hb
    iexact Hheld
  iintro ⟨Hb, Hheld⟩
  rw [wp_ret]; imodintro
  rw [show (op1 (F := F)).result ((op0 (F := F)).result (V0 m d)) = V2 m d from rfl]
  ihave Hh := (Entails.of_eq (held_V2 (F := F) m d)) $$ Hheld
  icases Hh with ⟨Ha0, Ha1, Hv0, Hv1, Hv2, Hv3, Hv4, Hv5⟩
  -- the SparseCore call: a read share of the image rows and of the pool rows per SparseCore, the result's blocks
  ihave H0 := (pointsTo_toks_split (ℓ := imgLoc d) fullShare 2) $$ Hv0
  icases H0 with ⟨Hv0r, Hv0t⟩
  ihave H1 := (pointsTo_toks_split (ℓ := poolLoc d) fullShare 2) $$ Hv1
  icases H1 with ⟨Hv1r, Hv1t⟩
  ihave H2 := (Entails.of_eq (out_blocks (F := F) d _)) $$ Hv2
  iapply ((K (F := F)).wp_run (D (F := F)) 𝒱 (EH := EH) (P := PP m) κ d 0) $$ [Hst Hv0t Hv1t H2 Hb Ha0 Ha1 Hv0r Hv1r Hv3 Hv4 Hv5 HG]
  isplitr; · iexact Hctx
  isplitl [Hst]; · iexact Hst
  isplitl [Hv0t Hv1t H2]
  · rw [st0_eq]
    isplitl [Hv0t]; · iexact Hv0t
    isplitl [Hv1t]; · iexact Hv1t
    iexact H2
  iintro ⟨Hst, Hdn⟩
  ihave Hdn' := (Entails.of_eq (dn0_eq m d)) $$ Hdn
  icases Hdn' with ⟨Hv0t, Hv1t, H2⟩
  ihave Hv0 := (pointsTo_toks_join (ℓ := imgLoc d) fullShare 2) $$ [Hv0r Hv0t]
  · isplitl [Hv0r] <;> iassumption
  ihave Hv1 := (pointsTo_toks_join (ℓ := poolLoc d) fullShare 2) $$ [Hv1r Hv1t]
  · isplitl [Hv1r] <;> iassumption
  ihave Hv2 := (Entails.of_eq (out_blocks (F := F) d _).symm) $$ H2
  -- the copy of the pool rows into the pool result's buffer
  iapply (wp_hlo_within 𝒱 (SparseCore.T d) none Set.univ (op := op3) (S := S8) h3 (V := V3 m d)) $$ [Hb Ha0 Ha1 Hv0 Hv1 Hv2 Hv3 Hv4 Hv5]
  · isplitl [Hb]; · iexact Hb
    rw [held_V3]
    isplitl [Ha0]; · iexact Ha0
    isplitl [Ha1]; · iexact Ha1
    isplitl [Hv0]; · iexact Hv0
    isplitl [Hv1]; · iexact Hv1
    isplitl [Hv2]; · iexact Hv2
    isplitl [Hv3]; · iexact Hv3
    isplitl [Hv4]; · iexact Hv4
    iexact Hv5
  iintro ⟨Hb, Hheld⟩
  rw [wp_ret]; imodintro
  rw [show (op3 (F := F)).result (V3 m d) = V4 m d from rfl]
  ihave Hh := (Entails.of_eq (held_V4 (F := F) m d)) $$ Hheld
  icases Hh with ⟨Ha0, Ha1, Hv0, Hv1, Hv2, Hv3, Hv4, Hv5⟩
  -- the TensorCore kernel's region
  iapply (htc (PP m) κ d (img2 m d) (pool2 m d) _ _) $$ [Hst HG Hv0 Hv3 Hb Ha0 Ha1 Hv1 Hv2 Hv4 Hv5]
  isplitr; · iexact Hctx
  isplitl [Hst]; · iexact Hst
  isplitl [HG]; · iexact HG
  isplitl [Hv0]; · iexact Hv0
  isplitl [Hv3]; · iexact Hv3
  isplitl [Hb]; · iexact Hb
  iintro ⟨Hst, Hv0, Hv3, Hb⟩
  rw [wp_ret]; imodintro
  -- the two reshapes back
  iapply (wp_hlo_within 𝒱 (SparseCore.T d) none Set.univ (op := op4) (S := S8) h4 (V := V5 m d)) $$ [Hb Ha0 Ha1 Hv0 Hv1 Hv2 Hv3 Hv4 Hv5]
  · isplitl [Hb]; · iexact Hb
    rw [held_V5]
    isplitl [Ha0]; · iexact Ha0
    isplitl [Ha1]; · iexact Ha1
    isplitl [Hv0]; · iexact Hv0
    isplitl [Hv1]; · iexact Hv1
    isplitl [Hv2]; · iexact Hv2
    isplitl [Hv3]; · iexact Hv3
    isplitl [Hv4]; · iexact Hv4
    iexact Hv5
  iintro ⟨Hb, Hheld⟩
  rw [wp_ret]; imodintro
  iapply (wp_hlo_within 𝒱 (SparseCore.T d) none Set.univ (op := op5) (S := S8) h5 (V := (op4 (F := F)).result (V5 m d))) $$ [Hb Hheld]
  · isplitl [Hb]; · iexact Hb
    iexact Hheld
  iintro ⟨Hb, Hheld⟩
  rw [show (op5 (F := F)).result ((op4 (F := F)).result (V5 m d)) = V7 m d from rfl]
  ihave Hh := (Entails.of_eq (held_V7 (F := F) m d)) $$ Hheld
  icases Hh with ⟨Ha0, Ha1, -, -, -, -, Hv4, Hv5⟩
  rw [wp_ret]; imodintro; imodintro
  isplitl [Hst]; · iexact Hst
  isplitl [Ha0]; · iexact Ha0
  isplitl [Ha1]; · iexact Ha1
  isplitl [Hv4]; · iexact Hv4
  iexact Hv5

end Cert.Kernel.KP

end
-- ==== Proof.KLaunchB.lean ====
/-
  The kernel program's run, from the SparseCore launch theorem: given the vector subcores' task, the split of the call's
  operands among them and the TensorCore kernel's region (hypotheses here; proved in their own modules), every weakly
  fair execution of all the threads terminates, and in every final memory the two arguments are unchanged and the two
  results are the result functions over rows of lanes read back as images.
-/
import proofs.«209156_g27831388078850_cont_9to1_824_17_alg».proof.Proof.KMainCB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The launch element: the handshakes' rounds, the region's element `uP`, no transfer in flight. -/
def u₀ (uP : UP) : UU := (initOf (K (F := F)).hsCells (K (F := F)).hsToks, (uP, 1))

omit [FloatOps F] in
theorem ownU_split3 (a : UH) (p : UP) (c : Counters) : (ownU (a, (p, c)) : sProp 𝕄) ⊢ iprop(BI.own (EH a) ∗ BI.own (EP p)) := by
  iintro Hu
  ihave H := (ownU_pair _ _) $$ Hu
  icases H with ⟨HH, HR⟩
  ihave H2 := (own_pair_emb (embR : Emb (UP × Counters) 𝕄) p c) $$ HR
  icases H2 with ⟨HP, -⟩
  isplitl [HH]; · iexact HH
  iexact HP

omit [FloatOps F] in
theorem bigSep_emp' {I : Type} (s : Finset I) : (bigSep s fun _ => iprop(emp)) = (iprop(emp) : sProp 𝕄) := bigSep_emp_const s

theorem hu₀ (uP : UP) (Gtc : Dev nD → sProp 𝕄) (hG : (BI.own (EP uP) : sProp 𝕄) ⊢ iprop(|==> bigSep Finset.univ Gtc)) :
    (ownU (u₀ (F := F) uP) : sProp 𝕄)
      ⊢ |={Set.univ}=> iprop(BI.own (EH (initOf (K (F := F)).hsCells (K (F := F)).hsToks)) ∗ (bigSep Finset.univ Gtc)
        ∗ bigSep Finset.univ fun thr : Thread nD τ => bigSep Finset.univ fun q : Fin 1 => (PP m).x q thr) := by
  unfold u₀
  iintro Hu
  ihave H := (ownU_split3 _ _ _) $$ Hu
  icases H with ⟨HH, HP⟩
  imod hG $$ HP with HG
  imodintro
  isplitl [HH]; · iexact HH
  isplitl [HG]; · iexact HG
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What the final memory must satisfy on device `d`. -/
def fq (d : Dev nD) (s' : Phys nD τ sig (Elt F)) : Prop :=
  s'.mem.mem (a0Loc d) = m (a0Loc d) ∧ s'.mem.mem (a1Loc d) = m (a1Loc d) ∧ s'.mem.mem (r4Loc d) = R4 m d ∧ s'.mem.mem (r5Loc d) = R5 m d

theorem hfin (d : Dev nD) (s' : Phys nD τ sig (Elt F)) : iprop(FIN m d ∗ SI s') ⊢ (⌜fq m d s'⌝ : sProp 𝕄) := by
  iintro ⟨⟨H0, H1, H4, H5⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%e0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%e1, HSI, -⟩
  ihave H := (persistent_entails_right (SI_pointsTo_agree (st := s') (ℓ := r4Loc d) (I := Finset.univ) (q := fullShare) (f := R4 m d))) $$ [HSI H4]
  · isplitl [HSI] <;> iassumption
  icases H with ⟨%e4, HSI, -⟩
  ihave H := (SI_pointsTo_agree (st := s') (ℓ := r5Loc d) (I := Finset.univ) (q := fullShare) (f := R5 m d)) $$ [HSI H5]
  · isplitl [HSI] <;> iassumption
  icases H with %e5
  ipureintro
  exact ⟨funext fun i => e0 i (Finset.mem_univ i), funext fun i => e1 i (Finset.mem_univ i), funext fun i => e4 i (Finset.mem_univ i),
    funext fun i => e5 i (Finset.mem_univ i)⟩

/-- The run's postcondition: on every device the arguments unchanged and the results at the result functions. -/
def QC : PUnit × MemSt nD τ sig (Elt F) → Prop := fun r => ∀ c : Dev nD,
  r.2.mem (a0Loc c) = m (a0Loc c) ∧ r.2.mem (a1Loc c) = m (a1Loc c) ∧ r.2.mem (r4Loc c) = R4 m c ∧ r.2.mem (r5Loc c) = R5 m c

theorem run_of [∀ e, Nonempty (Elt F e)]
    (htile : (K (F := F)).TileObl (D (F := F)) 𝒱 (PP m) v₀ 0) (hvec : (K (F := F)).VecSplit' (PP m) 0)
    (uP : UP) (Gtc : Dev nD → sProp 𝕄) (hG : (BI.own (EP uP) : sProp 𝕄) ⊢ iprop(|==> bigSep Finset.univ Gtc)) (htc : TcRegion (F := F) Gtc) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain hvec)
    m ρ main Gtc (FIN m) (u₀ (F := F) uP) (sep_elim_left.trans (hu₀ m uP Gtc hG)) (hmain m ρ Gtc htc) (fq m) (hfin m) (QC m) (fun _ h => h)

end Cert.Kernel.KP

end
-- ==== Proof.KTileB1.lean ====
/-
  The pieces of one vector subcore's task: the offsets of its 48-row blocks in closed form, the block a copy reads
  or writes as a memref, what a destination block holds after a copy out of a staging slot that a copy from a source
  block filled (the source block, which is the batch result on the destination's rows), and how the subcore's scratch
  array, semaphores and read shares are taken apart for the task and put back after it.
-/
import proofs.«209156_g27831388078850_cont_9to1_824_17_alg».proof.Proof.KPayB
import Idealize.ShloMosaic.Lib.SparseCore.Launch
import Idealize.ShloMosaic.Lib.Tactic

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

abbrev cV (L : grid0.Coords) : Fin τ.nSC := (L 0).castLE hcore0
abbrev jV (L : grid0.Coords) : Fin τ.nSub := (L 1).castLE hsub0
/-- The vector subcore at grid point `L` of device `d`. -/
abbrev tV (d : Dev nD) (L : grid0.Coords) : Thread nD τ := V d (cV L) (jV L)

/-! ## Offsets -/

omit [FloatOps F] in
/-- A pool block's offset in closed form: row `n + 768 (L 0) + 48 (L 1)`. -/
theorem k0_off1_eq (i : grid0.Coords) (n : ℕ) (hn : n + 1536 ≤ 196608) :
    k0_off1 i (BitVec.ofNat 32 n) = ![n + 768 * (i 0).val + 48 * (i 1).val, 0] := by
  have h_c : Affine.IsInt (BitVec.ofNat 32 n) ((n : Int)) := Affine.ofNat _ (by omega)
  have r_i0 : (i 0).val < 2 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_v0 : Affine.IsInt _ (16 * ((i 0).val : Int)) := Affine.muli h_arg0 h_c16_i32 (by omega)
  have r_i1 : (i 1).val < 16 := (i 1).isLt
  have h_arg1 : Affine.IsInt (BitVec.ofNat 32 (i 1).val) (((i 1).val : Int)) := Affine.ofNat _ (by omega)
  have h_v1 : Affine.IsInt _ (16 * ((i 0).val : Int) + ((i 1).val : Int)) := Affine.addi h_v0 h_arg1 (by omega)
  have h_c48_i32 : Affine.IsInt 48#32 (48) := Affine.ofNat _ (by omega)
  have h_v2 : Affine.IsInt _ (768 * ((i 0).val : Int) + 48 * ((i 1).val : Int)) := Affine.muli h_v1 h_c48_i32 (by omega)
  have h_v3 : Affine.IsInt _ ((n : Int) + 768 * ((i 0).val : Int) + 48 * ((i 1).val : Int)) := Affine.addi h_c h_v2 (by omega)
  exact Affine.vec_cons h_v3 (by omega) <| Affine.vec_cons (Affine.ofNat 0 (by omega) : Affine.IsInt 0#32 0) (by omega) <| Affine.vec_nil

/-! ## The blocks as memrefs -/

/-- 48 rows of the result array from the row `k0_off2 L c` names, as the program slices them. -/
abbrev outBlk (L : grid0.Coords) (c : BitVec 32) (h : ∀ a, k0_off2 L c a + S48x128.size a ≤ S49152x128.size a) : Memref sig .scVector .hbm S48x128 .f32 :=
  (Memref.whole main_v2_scv).slice (Rect.unit (s := S49152x128) (k0_off2 L c) S48x128.size h) (fun _ => rfl)
/-- The same rows of the image array. -/
abbrev imgBlk (L : grid0.Coords) (c : BitVec 32) (h : ∀ a, k0_off2 L c a + S48x128.size a ≤ S49152x128.size a) : Memref sig .scVector .hbm S48x128 .f32 :=
  (Memref.whole main_v0_scv).slice (Rect.unit (s := S49152x128) (k0_off2 L c) S48x128.size h) (fun _ => rfl)
/-- 48 rows of the pool array from the row `k0_off1 L c` names. -/
abbrev poolBlk (L : grid0.Coords) (c : BitVec 32) (h : ∀ a, k0_off1 L c a + S48x128.size a ≤ S196608x128.size a) : Memref sig .scVector .hbm S48x128 .f32 :=
  (Memref.whole main_v1_scv).slice (Rect.unit (s := S196608x128) (k0_off1 L c) S48x128.size h) (fun _ => rfl)

/-! ## Contents that read alike through a view are alike on the view's own elements -/

omit [FloatOps F] in
theorem pts_of_read_eq {c : Thread nD τ} {cs : Space} {s : Shape} {e : EltTy} (m : Memref sig c.2.kind cs s e)
    (g g' : Buf (Elt F) (m.view.loc c)) (q : PosShare TreeShare) (h : m.view.read (Elt F) g = m.view.read (Elt F) g') :
    (m.view.loc c ↦[m.view.set]{q} g : sProp 𝕄) = m.view.loc c ↦[m.view.set]{q} g' :=
  pointsTo_congr fun i hi => by
    obtain ⟨x, -, rfl⟩ := Finset.mem_map.mp hi
    have hx := congrFun h x
    rw [View.read_apply, View.read_apply] at hx
    exact (cast_inj _).mp hx

omit [FloatOps F] in
/-- A whole piece written last is what the view reads back, whatever was written before it. -/
theorem read_writes_whole_cons {κ : Kind} {sp : Space} {s : Shape} {e : EltTy} (v : View sig κ sp s e) (f : v.ty.Contents (Elt F)) (x : s.Idx → Elt F e)
    (Ls : List (View.Piece (Elt F) s e)) : v.read (Elt F) (v.writes (Elt F) f (⟨Rect.whole s, x⟩ :: Ls)) = x := by
  funext y
  have h := View.read_writes_cons_emb v f (Rect.whole s) x Ls y
  rwa [Rect.emb_whole_apply] at h

/-! ## The value: the batch result on a destination block is the source block -/

section Value
variable {α : Type}

omit [FloatOps F] in
theorem dst_row (L : grid0.Coords) (b : Fin 32) (x : S48x128.Idx) :
    (((dstRect L b).emb x) 0).val = 1536 * b.val + 768 * (L 0).val + 48 * (L 1).val + (x 0).val := by
  show (k0_off2 L (BitVec.ofNat 32 (1536 * b.val))) 0 + 1 * (x 0).val = _
  rw [k0_off2_eq]; simp

omit [FloatOps F] in
theorem dst_entry (L : grid0.Coords) (b : Fin 32) (x : S48x128.Idx) : Cert.Spec.entryOf (((dstRect L b).emb x) 0) = b := by
  apply Fin.ext
  show (((dstRect L b).emb x) 0).val / 1536 = b.val
  rw [dst_row]
  have h0 : (L 0).val < 2 := (L 0).isLt
  have h1 : (L 1).val < 16 := (L 1).isLt
  have hx : (x 0).val < 48 := (x 0).isLt
  omega

omit [FloatOps F] in
/-- An entry that is kept: the result's rows are the image's. -/
theorem val_img (L : grid0.Coords) (b : Fin 32) (hb : Cert.Spec.prob b = false) (fi : Cert.Spec.SImg2.Idx → α) (fp : Cert.Spec.SPool2.Idx → α) (x : S48x128.Idx) :
    Cert.Spec.outImages2 fi fp ((dstRect L b).emb x) = fi ((dstRect L b).emb x) := by
  unfold Cert.Spec.outImages2
  rw [dst_entry, hb]; rfl

omit [FloatOps F] in
/-- An entry that is replaced: the result's rows are the paired pool row's. -/
theorem val_pool (L : grid0.Coords) (b : Fin 32) (hb : Cert.Spec.prob b = true) (n : ℕ) (hn : n = (Cert.Spec.index b).val * 1536)
    (hp : ∀ a, k0_off1 L (BitVec.ofNat 32 n) a + S48x128.size a ≤ S196608x128.size a)
    (fi : Cert.Spec.SImg2.Idx → α) (fp : Cert.Spec.SPool2.Idx → α) (x : S48x128.Idx) :
    Cert.Spec.outImages2 fi fp ((dstRect L b).emb x)
      = fp ((Rect.unit (s := S196608x128) (k0_off1 L (BitVec.ofNat 32 n)) S48x128.size hp).emb x) := by
  have hi : (Cert.Spec.index b).val < 128 := (Cert.Spec.index b).isLt
  have h0 : (L 0).val < 2 := (L 0).isLt
  have h1 : (L 1).val < 16 := (L 1).isLt
  have hx : (x 0).val < 48 := (x 0).isLt
  unfold Cert.Spec.outImages2
  rw [dst_entry, hb]
  show fp _ = fp _
  congr 1
  funext a
  apply Fin.ext
  match a with
  | ⟨0, _⟩ =>
    show (Cert.Spec.index b).val * 1536 + (((dstRect L b).emb x) 0).val % 1536 = (k0_off1 L (BitVec.ofNat 32 n)) 0 + 1 * (x 0).val
    rw [dst_row, k0_off1_eq L n (by omega)]
    simp
    omega
  | ⟨1, _⟩ =>
    show (k0_off2 L (BitVec.ofNat 32 (1536 * b.val))) 1 + 1 * (x 1).val = (k0_off1 L (BitVec.ofNat 32 n)) 1 + 1 * (x 1).val
    rw [k0_off2_eq, k0_off1_eq L n (by omega)]
    simp

end Value

/-! ## A destination block after its copy -/

section Blocks
variable (d : Dev nD) (L : grid0.Coords)

/-- Kept entry: the block written from a slot that the image block filled holds the result. -/
theorem blk_img (b : Fin 32) (hb : Cert.Spec.prob b = false) (c : BitVec 32) (hc : c = BitVec.ofNat 32 (1536 * b.val))
    (ho hi : ∀ a, k0_off2 L c a + S48x128.size a ≤ S49152x128.size a)
    (fi : Buf (Elt F) (imgLoc d)) (fp : Buf (Elt F) (poolLoc d)) (fo : Buf (Elt F) (outLoc d))
    (sl : Memref sig .scVector .vmem S48x128 .f32) (g : Buf (Elt F) (sl.view.loc (tV d L))) (Ls : List (View.Piece (Elt F) S48x128 .f32)) :
    ((outBlk L c ho).view.loc (tV d L) ↦[(outBlk L c ho).view.set]{fullShare}
        (outBlk L c ho).view.writes (Elt F) fo
          [⟨Rect.whole _, ReadAs.same.apply (sl.view.read (Elt F) (sl.view.writes (Elt F) g
            (⟨Rect.whole _, ReadAs.same.apply ((imgBlk L c hi).view.read (Elt F) fi)⟩ :: Ls)))⟩] : sProp 𝕄)
      ⊢ outLoc d ↦[dstSet L b]{fullShare} (Cert.Spec.outImages2 fi fp : Buf (Elt F) (outLoc d)) := by
  subst hc
  refine Entails.of_eq ?_
  refine pts_of_read_eq (F := F) (c := tV d L) (outBlk L _ ho) _ (Cert.Spec.outImages2 fi fp : Buf (Elt F) (outLoc d)) fullShare ?_
  rw [read_writes_whole_cons]
  simp only [ReadAs.apply_same]
  rw [read_writes_whole_cons]
  funext x
  show (imgBlk L _ hi).view.read (Elt F) fi x = (outBlk L _ ho).view.read (Elt F) (Cert.Spec.outImages2 fi fp : Buf (Elt F) (outLoc d)) x
  rw [View.read_apply, View.read_apply]
  simp only [cast_eq]
  exact (val_img L b hb fi fp x).symm

/-- Replaced entry: the block written from a slot that the paired pool block filled holds the result. -/
theorem blk_pool (b : Fin 32) (hb : Cert.Spec.prob b = true) (c : BitVec 32) (hc : c = BitVec.ofNat 32 (1536 * b.val))
    (ho : ∀ a, k0_off2 L c a + S48x128.size a ≤ S49152x128.size a)
    (n : ℕ) (hn : n = (Cert.Spec.index b).val * 1536)
    (hp : ∀ a, k0_off1 L (BitVec.ofNat 32 n) a + S48x128.size a ≤ S196608x128.size a)
    (fi : Buf (Elt F) (imgLoc d)) (fp : Buf (Elt F) (poolLoc d)) (fo : Buf (Elt F) (outLoc d))
    (sl : Memref sig .scVector .vmem S48x128 .f32) (g : Buf (Elt F) (sl.view.loc (tV d L))) (Ls : List (View.Piece (Elt F) S48x128 .f32)) :
    ((outBlk L c ho).view.loc (tV d L) ↦[(outBlk L c ho).view.set]{fullShare}
        (outBlk L c ho).view.writes (Elt F) fo
          [⟨Rect.whole _, ReadAs.same.apply (sl.view.read (Elt F) (sl.view.writes (Elt F) g
            (⟨Rect.whole _, ReadAs.same.apply ((poolBlk L (BitVec.ofNat 32 n) hp).view.read (Elt F) fp)⟩ :: Ls)))⟩] : sProp 𝕄)
      ⊢ outLoc d ↦[dstSet L b]{fullShare} (Cert.Spec.outImages2 fi fp : Buf (Elt F) (outLoc d)) := by
  subst hc
  refine Entails.of_eq ?_
  refine pts_of_read_eq (F := F) (c := tV d L) (outBlk L _ ho) _ (Cert.Spec.outImages2 fi fp : Buf (Elt F) (outLoc d)) fullShare ?_
  rw [read_writes_whole_cons]
  simp only [ReadAs.apply_same]
  rw [read_writes_whole_cons]
  funext x
  show (poolBlk L _ hp).view.read (Elt F) fp x = (outBlk L _ ho).view.read (Elt F) (Cert.Spec.outImages2 fi fp : Buf (Elt F) (outLoc d)) x
  rw [View.read_apply, View.read_apply]
  simp only [cast_eq]
  exact (val_pool L b hb n hn hp fi fp x).symm

end Blocks

/-! ## The subcore's semaphores -/

/-- DMA semaphore number `k` of the program. -/
abbrev dsem (k : ℕ) (h : k < sig.nDmaSem := by decide) : DmaSem sig := ⟨k, h⟩
abbrev cell (d : Dev nD) (L : grid0.Coords) (k : DmaSem sig) : GSem nD τ sig := (tV d L, SemLoc.dma k)

omit [FloatOps F] in
/-- The eight DMA semaphores of the task (four the copies in complete on, four the copies out) are among the subcore's own. -/
theorem ownSems0_V8 (d : Dev nD) (L : grid0.Coords) :
    (ownSems0 (tV d L) : sProp 𝕄)
      = iprop(semVal (cell d L (dsem 0)) 0 ∗ semVal (cell d L (dsem 1)) 0 ∗ semVal (cell d L (dsem 2)) 0 ∗ semVal (cell d L (dsem 3)) 0 ∗ semVal (cell d L (dsem 4)) 0 ∗ semVal (cell d L (dsem 5)) 0 ∗ semVal (cell d L (dsem 6)) 0 ∗ semVal (cell d L (dsem 7)) 0
          ∗ bigSep (((((((((ownCells (tV d L)).erase (cell d L (dsem 0))).erase (cell d L (dsem 1))).erase (cell d L (dsem 2))).erase (cell d L (dsem 3))).erase (cell d L (dsem 4))).erase (cell d L (dsem 5))).erase (cell d L (dsem 6))).erase (cell d L (dsem 7))) fun g => semVal g 0) := by
  unfold SparseCore.Cfg.ownSems0
  rw [SparseCore.bigSep_erase' ((mem_ownCells (g := cell d L (dsem 0))).mpr ⟨rfl, by show (SemLoc.dma (dsem 0) : SemLoc sig).isScoped .scVector = true; decide⟩),
    SparseCore.bigSep_erase' (Finset.mem_erase.mpr ⟨fun e => absurd (congrArg (fun g : GSem nD τ sig => g.2) e) (show (SemLoc.dma (dsem 1) : SemLoc sig) ≠ SemLoc.dma (dsem 0) by decide), (mem_ownCells (g := cell d L (dsem 1))).mpr ⟨rfl, by show (SemLoc.dma (dsem 1) : SemLoc sig).isScoped .scVector = true; decide⟩⟩),
    SparseCore.bigSep_erase' (Finset.mem_erase.mpr ⟨fun e => absurd (congrArg (fun g : GSem nD τ sig => g.2) e) (show (SemLoc.dma (dsem 2) : SemLoc sig) ≠ SemLoc.dma (dsem 1) by decide), Finset.mem_erase.mpr ⟨fun e => absurd (congrArg (fun g : GSem nD τ sig => g.2) e) (show (SemLoc.dma (dsem 2) : SemLoc sig) ≠ SemLoc.dma (dsem 0) by decide), (mem_ownCells (g := cell d L (dsem 2))).mpr ⟨rfl, by show (SemLoc.dma (dsem 2) : SemLoc sig).isScoped .scVector = true; decide⟩⟩⟩),
    SparseCore.bigSep_erase' (Finset.mem_erase.mpr ⟨fun e => absurd (congrArg (fun g : GSem nD τ sig => g.2) e) (show (SemLoc.dma (dsem 3) : SemLoc sig) ≠ SemLoc.dma (dsem 2) by decide), Finset.mem_erase.mpr ⟨fun e => absurd (congrArg (fun g : GSem nD τ sig => g.2) e) (show (SemLoc.dma (dsem 3) : SemLoc sig) ≠ SemLoc.dma (dsem 1) by decide), Finset.mem_erase.mpr ⟨fun e => absurd (congrArg (fun g : GSem nD τ sig => g.2) e) (show (SemLoc.dma (dsem 3) : SemLoc sig) ≠ SemLoc.dma (dsem 0) by decide), (mem_ownCells (g := cell d L (dsem 3))).mpr ⟨rfl, by show (SemLoc.dma (dsem 3) : SemLoc sig).isScoped .scVector = true; decide⟩⟩⟩⟩),
    SparseCore.bigSep_erase' (Finset.mem_erase.mpr ⟨fun e => absurd (congrArg (fun g : GSem nD τ sig => g.2) e) (show (SemLoc.dma (dsem 4) : SemLoc sig) ≠ SemLoc.dma (dsem 3) by decide), Finset.mem_erase.mpr ⟨fun e => absurd (congrArg (fun g : GSem nD τ sig => g.2) e) (show (SemLoc.dma (dsem 4) : SemLoc sig) ≠ SemLoc.dma (dsem 2) by decide), Finset.mem_erase.mpr ⟨fun e => absurd (congrArg (fun g : GSem nD τ sig => g.2) e) (show (SemLoc.dma (dsem 4) : SemLoc sig) ≠ SemLoc.dma (dsem 1) by decide), Finset.mem_erase.mpr ⟨fun e => absurd (congrArg (fun g : GSem nD τ sig => g.2) e) (show (SemLoc.dma (dsem 4) : SemLoc sig) ≠ SemLoc.dma (dsem 0) by decide), (mem_ownCells (g := cell d L (dsem 4))).mpr ⟨rfl, by show (SemLoc.dma (dsem 4) : SemLoc sig).isScoped .scVector = true; decide⟩⟩⟩⟩⟩),
    SparseCore.bigSep_erase' (Finset.mem_erase.mpr ⟨fun e => absurd (congrArg (fun g : GSem nD τ sig => g.2) e) (show (SemLoc.dma (dsem 5) : SemLoc sig) ≠ SemLoc.dma (dsem 4) by decide), Finset.mem_erase.mpr ⟨fun e => absurd (congrArg (fun g : GSem nD τ sig => g.2) e) (show (SemLoc.dma (dsem 5) : SemLoc sig) ≠ SemLoc.dma (dsem 3) by decide), Finset.mem_erase.mpr ⟨fun e => absurd (congrArg (fun g : GSem nD τ sig => g.2) e) (show (SemLoc.dma (dsem 5) : SemLoc sig) ≠ SemLoc.dma (dsem 2) by decide), Finset.mem_erase.mpr ⟨fun e => absurd (congrArg (fun g : GSem nD τ sig => g.2) e) (show (SemLoc.dma (dsem 5) : SemLoc sig) ≠ SemLoc.dma (dsem 1) by decide), Finset.mem_erase.mpr ⟨fun e => absurd (congrArg (fun g : GSem nD τ sig => g.2) e) (show (SemLoc.dma (dsem 5) : SemLoc sig) ≠ SemLoc.dma (dsem 0) by decide), (mem_ownCells (g := cell d L (dsem 5))).mpr ⟨rfl, by show (SemLoc.dma (dsem 5) : SemLoc sig).isScoped .scVector = true; decide⟩⟩⟩⟩⟩⟩),
    SparseCore.bigSep_erase' (Finset.mem_erase.mpr ⟨fun e => absurd (congrArg (fun g : GSem nD τ sig => g.2) e) (show (SemLoc.dma (dsem 6) : SemLoc sig) ≠ SemLoc.dma (dsem 5) by decide), Finset.mem_erase.mpr ⟨fun e => absurd (congrArg (fun g : GSem nD τ sig => g.2) e) (show (SemLoc.dma (dsem 6) : SemLoc sig) ≠ SemLoc.dma (dsem 4) by decide), Finset.mem_erase.mpr ⟨fun e => absurd (congrArg (fun g : GSem nD τ sig => g.2) e) (show (SemLoc.dma (dsem 6) : SemLoc sig) ≠ SemLoc.dma (dsem 3) by decide), Finset.mem_erase.mpr ⟨fun e => absurd (congrArg (fun g : GSem nD τ sig => g.2) e) (show (SemLoc.dma (dsem 6) : SemLoc sig) ≠ SemLoc.dma (dsem 2) by decide), Finset.mem_erase.mpr ⟨fun e => absurd (congrArg (fun g : GSem nD τ sig => g.2) e) (show (SemLoc.dma (dsem 6) : SemLoc sig) ≠ SemLoc.dma (dsem 1) by decide), Finset.mem_erase.mpr ⟨fun e => absurd (congrArg (fun g : GSem nD τ sig => g.2) e) (show (SemLoc.dma (dsem 6) : SemLoc sig) ≠ SemLoc.dma (dsem 0) by decide), (mem_ownCells (g := cell d L (dsem 6))).mpr ⟨rfl, by show (SemLoc.dma (dsem 6) : SemLoc sig).isScoped .scVector = true; decide⟩⟩⟩⟩⟩⟩⟩),
    SparseCore.bigSep_erase' (Finset.mem_erase.mpr ⟨fun e => absurd (congrArg (fun g : GSem nD τ sig => g.2) e) (show (SemLoc.dma (dsem 7) : SemLoc sig) ≠ SemLoc.dma (dsem 6) by decide), Finset.mem_erase.mpr ⟨fun e => absurd (congrArg (fun g : GSem nD τ sig => g.2) e) (show (SemLoc.dma (dsem 7) : SemLoc sig) ≠ SemLoc.dma (dsem 5) by decide), Finset.mem_erase.mpr ⟨fun e => absurd (congrArg (fun g : GSem nD τ sig => g.2) e) (show (SemLoc.dma (dsem 7) : SemLoc sig) ≠ SemLoc.dma (dsem 4) by decide), Finset.mem_erase.mpr ⟨fun e => absurd (congrArg (fun g : GSem nD τ sig => g.2) e) (show (SemLoc.dma (dsem 7) : SemLoc sig) ≠ SemLoc.dma (dsem 3) by decide), Finset.mem_erase.mpr ⟨fun e => absurd (congrArg (fun g : GSem nD τ sig => g.2) e) (show (SemLoc.dma (dsem 7) : SemLoc sig) ≠ SemLoc.dma (dsem 2) by decide), Finset.mem_erase.mpr ⟨fun e => absurd (congrArg (fun g : GSem nD τ sig => g.2) e) (show (SemLoc.dma (dsem 7) : SemLoc sig) ≠ SemLoc.dma (dsem 1) by decide), Finset.mem_erase.mpr ⟨fun e => absurd (congrArg (fun g : GSem nD τ sig => g.2) e) (show (SemLoc.dma (dsem 7) : SemLoc sig) ≠ SemLoc.dma (dsem 0) by decide), (mem_ownCells (g := cell d L (dsem 7))).mpr ⟨rfl, by show (SemLoc.dma (dsem 7) : SemLoc sig).isScoped .scVector = true; decide⟩⟩⟩⟩⟩⟩⟩⟩)]

/-! ## The scratch array and its four slots -/

abbrev slot0 : Memref sig .scVector .vmem S48x128 .f32 := ((Memref.whole cc0_scratch0).slice (Rect.unit (s := S4x48x128) ![0, 0, 0] S1x48x128.size inb_S4x48x128_S1x48x128_0_0_0) (fun _ => rfl)).squeeze S48x128 squeezes_S1x48x128_S48x128
abbrev slot1 : Memref sig .scVector .vmem S48x128 .f32 := ((Memref.whole cc0_scratch0).slice (Rect.unit (s := S4x48x128) ![1, 0, 0] S1x48x128.size inb_S4x48x128_S1x48x128_1_0_0) (fun _ => rfl)).squeeze S48x128 squeezes_S1x48x128_S48x128
abbrev slot2 : Memref sig .scVector .vmem S48x128 .f32 := ((Memref.whole cc0_scratch0).slice (Rect.unit (s := S4x48x128) ![2, 0, 0] S1x48x128.size inb_S4x48x128_S1x48x128_2_0_0) (fun _ => rfl)).squeeze S48x128 squeezes_S1x48x128_S48x128
abbrev slot3 : Memref sig .scVector .vmem S48x128 .f32 := ((Memref.whole cc0_scratch0).slice (Rect.unit (s := S4x48x128) ![3, 0, 0] S1x48x128.size inb_S4x48x128_S1x48x128_3_0_0) (fun _ => rfl)).squeeze S48x128 squeezes_S1x48x128_S48x128

omit [FloatOps F] in
theorem inb_slot (s : Fin 4) : ∀ a, (![s.val, 0, 0] : Fin 3 → Nat) a + S1x48x128.size a ≤ S4x48x128.size a := by
  revert s; decide

/-- Slot `s`: the rows `[s, 0, 0] … [s, 47, 127]` of the scratch array. -/
abbrev slotR (s : Fin 4) : Rect S4x48x128 := Rect.unit (s := S4x48x128) ![s.val, 0, 0] S1x48x128.size (inb_slot s)
abbrev slotSet (s : Fin 4) : Finset S4x48x128.Idx := (slotR s).set

omit [FloatOps F] in
theorem set_slot0 : slot0.view.set = slotSet 0 := by
  show (((View.whole cc0_scratch0).slice (Rect.unit (s := S4x48x128) ![0, 0, 0] S1x48x128.size inb_S4x48x128_S1x48x128_0_0_0)).reshape S48x128 squeezes_S1x48x128_S48x128.numel_eq).set = (slotR 0).set
  rw [View.set_reshape, View.set_slice]
  exact Finset.map_refl
omit [FloatOps F] in
theorem set_slot1 : slot1.view.set = slotSet 1 := by
  show (((View.whole cc0_scratch0).slice (Rect.unit (s := S4x48x128) ![1, 0, 0] S1x48x128.size inb_S4x48x128_S1x48x128_1_0_0)).reshape S48x128 squeezes_S1x48x128_S48x128.numel_eq).set = (slotR 1).set
  rw [View.set_reshape, View.set_slice]
  exact Finset.map_refl
omit [FloatOps F] in
theorem set_slot2 : slot2.view.set = slotSet 2 := by
  show (((View.whole cc0_scratch0).slice (Rect.unit (s := S4x48x128) ![2, 0, 0] S1x48x128.size inb_S4x48x128_S1x48x128_2_0_0)).reshape S48x128 squeezes_S1x48x128_S48x128.numel_eq).set = (slotR 2).set
  rw [View.set_reshape, View.set_slice]
  exact Finset.map_refl
omit [FloatOps F] in
theorem set_slot3 : slot3.view.set = slotSet 3 := by
  show (((View.whole cc0_scratch0).slice (Rect.unit (s := S4x48x128) ![3, 0, 0] S1x48x128.size inb_S4x48x128_S1x48x128_3_0_0)).reshape S48x128 squeezes_S1x48x128_S48x128.numel_eq).set = (slotR 3).set
  rw [View.set_reshape, View.set_slice]
  exact Finset.map_refl

omit [FloatOps F] in
theorem slots_disjoint : ∀ s ∈ (Finset.univ : Finset (Fin 4)), ∀ s' ∈ (Finset.univ : Finset (Fin 4)), s ≠ s' → Disjoint (slotSet s) (slotSet s') := by
  intro s _ s' _ h
  refine Rect.unit_disjoint (0 : Fin 3) ?_
  show s.val + 1 ≤ s'.val ∨ s'.val + 1 ≤ s.val
  have := Fin.val_ne_of_ne h; omega

omit [FloatOps F] in
theorem slots_cover : (Finset.univ : Finset (Fin 4)).biUnion slotSet = Finset.univ := by
  ext i
  simp only [Finset.mem_biUnion, Finset.mem_univ, true_and, iff_true]
  refine ⟨⟨(i 0).val, (i 0).isLt⟩, Rect.mem_set_unit.mpr fun a => ?_⟩
  have h1 : (i 1).val < 48 := (i 1).isLt
  have h2 : (i 2).val < 128 := (i 2).isLt
  match a with
  | ⟨0, _⟩ => exact ⟨Nat.le_refl _, Nat.lt_succ_self _⟩
  | ⟨1, _⟩ => exact ⟨Nat.zero_le _, by show (i 1).val < 0 + 48; omega⟩
  | ⟨2, _⟩ => exact ⟨Nat.zero_le _, by show (i 2).val < 0 + 128; omega⟩

omit [FloatOps F] in
theorem fin4_univ : (Finset.univ : Finset (Fin 4)) = {0, 1, 2, 3} := by decide

omit [FloatOps F] in
theorem buf_slots (d : Dev nD) (L : grid0.Coords) (f : Buf (Elt F) ((tV d L).loc cc0_scratch0)) :
    ((tV d L).loc cc0_scratch0 ↦{fullShare} f : sProp 𝕄) = bigSep Finset.univ fun s : Fin 4 => (tV d L).loc cc0_scratch0 ↦[slotSet s]{fullShare} f := by
  rw [← pointsTo_biUnion Finset.univ (ℓ := (tV d L).loc cc0_scratch0) slotSet slots_disjoint, slots_cover]; try rfl

omit [FloatOps F] in
/-- The scratch array held whole is its four slots, each held by its own elements. -/
theorem buf_split4 (d : Dev nD) (L : grid0.Coords) (f : Buf (Elt F) ((tV d L).loc cc0_scratch0)) :
    ((tV d L).loc cc0_scratch0 ↦{fullShare} f : sProp 𝕄)
      = iprop((slot0.view.loc (tV d L) ↦[slot0.view.set]{fullShare} f) ∗ (slot1.view.loc (tV d L) ↦[slot1.view.set]{fullShare} f) ∗ (slot2.view.loc (tV d L) ↦[slot2.view.set]{fullShare} f) ∗ (slot3.view.loc (tV d L) ↦[slot3.view.set]{fullShare} f)) := by
  rw [set_slot0, set_slot1, set_slot2, set_slot3, buf_slots, fin4_univ, SparseCore.bigSep_insert' (by decide), SparseCore.bigSep_insert' (by decide),
    SparseCore.bigSep_insert' (by decide), bigSep_singleton]

omit [FloatOps F] in
/-- The four slots, whatever each holds, are the scratch array at some contents. -/
theorem buf_join4 (d : Dev nD) (L : grid0.Coords) :
    iprop((∃ f, slot0.view.loc (tV d L) ↦[slot0.view.set]{fullShare} f) ∗ (∃ f, slot1.view.loc (tV d L) ↦[slot1.view.set]{fullShare} f) ∗ (∃ f, slot2.view.loc (tV d L) ↦[slot2.view.set]{fullShare} f) ∗ (∃ f, slot3.view.loc (tV d L) ↦[slot3.view.set]{fullShare} f))
      ⊢ (iprop(∃ f, (tV d L).loc cc0_scratch0 ↦{fullShare} f) : sProp 𝕄) := by
  rw [set_slot0, set_slot1, set_slot2, set_slot3]
  iintro ⟨⟨%g0, H0⟩, ⟨%g1, H1⟩, ⟨%g2, H2⟩, ⟨%g3, H3⟩⟩
  ihave H := (pointsTo_biUnion_join (Finset.univ : Finset (Fin 4)) slotSet (![g0, g1, g2, g3] : Fin 4 → Buf (Elt F) ((tV d L).loc cc0_scratch0)) g0 slots_disjoint) $$ [H0 H1 H2 H3]
  · rw [fin4_univ, SparseCore.bigSep_insert' (by decide), SparseCore.bigSep_insert' (by decide), SparseCore.bigSep_insert' (by decide), bigSep_singleton]
    isplitl [H0]; · iexact H0
    isplitl [H1]; · iexact H1
    isplitl [H2]; · iexact H2
    iexact H3
  icases H with ⟨%g, -, Hg⟩
  rw [slots_cover]
  iexists g; iexact Hg

omit [FloatOps F] in
/-- The scratch array is among the subcore's own buffers. -/
theorem ownBufs_V1 (d : Dev nD) (L : grid0.Coords) :
    (ownBufs (tV d L) : sProp 𝕄)
      = iprop((∃ f, (tV d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## Thirty-two blocks, four tokens -/

omit [FloatOps F] in
theorem fin32_univ : (Finset.univ : Finset (Fin 32)) = {0, 1, 2, 3, 4, 5, 6, 7, 8, 9, 10, 11, 12, 13, 14, 15, 16, 17, 18, 19, 20, 21, 22, 23, 24, 25, 26, 27, 28, 29, 30, 31} := by decide

omit [FloatOps F] in
theorem bigSep_fin32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [fin32_univ, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem range4 : Finset.range 4 = {0, 1, 2, 3} := by decide

omit [FloatOps F] in
/-- A read share as four read tokens, one per staging slot's incoming copy, and what is left. -/
theorem toks4 {ℓ : Loc nD τ sig} (f : Buf (Elt F) ℓ) (q : PosShare TreeShare) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h := Transfers.pointsTo_toks_range (Ix := HIx 1) (Name := ℕ) (U := UU) (Lvl := ℕ) (ℓ := ℓ) (S := Finset.univ) (f := f) q 4
  rw [range4, SparseCore.bigSep_insert' (by decide), SparseCore.bigSep_insert' (by decide), SparseCore.bigSep_insert' (by decide), bigSep_singleton] at h
  exact h

/-! ## The waits a task records -/

omit [FloatOps F] in
theorem waits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

section BlocksIn
variable (d : Dev nD) (L : grid0.Coords)

omit [FloatOps F] in
/-- A destination block as the program's memref addresses it. -/
theorem blk_in (b : Fin 32) (c : BitVec 32) (hc : c = BitVec.ofNat 32 (1536 * b.val))
    (ho : ∀ a, k0_off2 L c a + S48x128.size a ≤ S49152x128.size a) (fo : Buf (Elt F) (outLoc d)) :
    (outLoc d ↦[dstSet L b]{fullShare} fo : sProp 𝕄)
      ⊢ (outBlk L c ho).view.loc (tV d L) ↦[(outBlk L c ho).view.set]{fullShare} fo := by
  subst hc; exact .rfl

end BlocksIn

end Cert.Kernel.KP

end
-- ==== Proof.KTileB2.lean ====
/-
  One vector subcore's task, at a symbolic grid point: thirty-two copies of a 48-row block into a staging slot and out
  of it to the result array, each issued on a semaphore of its slot and waited for before that semaphore or that slot is
  used again.  From the subcore's read shares of the two source arrays and its thirty-two destination blocks, the task
  ends with the same read shares and every destination block at the batch result's values.
-/
import proofs.«209156_g27831388078850_cont_9to1_824_17_alg».proof.Proof.KTileB1

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option maxHeartbeats 8000000 in
set_option maxRecDepth 65536 in
/-- The task on vector subcore `(L 0, L 1)` of device `d`. -/
theorem tile_body (hF : (K (F := F)).Facts) (d : Dev nD) (L : grid0.Coords) (q : PosShare TreeShare)
    (fi : Buf (Elt F) (imgLoc d)) (fp : Buf (Elt F) (poolLoc d)) (fo : Buf (Elt F) (outLoc d))
    (O : CellTallies nD τ sig (HIx 1)) (W : Waits sig (HIx 1)) (hO : ∀ g, O g none = 0) :
    iprop(levAts (K (F := F)).L (K (F := F)).lev ∗ emp
        ∗ ((imgLoc d ↦{q} fi : sProp 𝕄) ∗ (poolLoc d ↦{q} fp) ∗ bigSep Finset.univ fun b : Fin 32 => outLoc d ↦[dstSet L b]{fullShare} fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_call L imgV (Memref.isWhole_whole _) poolV (Memref.isWhole_whole _) outV (Memref.isWhole_whole _) bufV (Memref.isWhole_whole _) cc0_scratch1 cc0_scratch2)
          fun _ => iprop(((imgLoc d ↦{q} fi : sProp 𝕄) ∗ (poolLoc d ↦{q} fp) ∗ bigSep Finset.univ fun b : Fin 32 => outLoc d ↦[dstSet L b]{fullShare} (Cert.Spec.outImages2 fi fp : Buf (Elt F) (outLoc d)))
            ∗ scopedBufs (V d (cV L) (jV L)) ∗ scopedSems0 (V d (cV L) (jV L)) ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V8, ownBufs_V1,
    bigSep_fin32, bigSep_fin32]
  iintro ⟨#Hlv, -, ⟨Hi, Hp, Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31⟩, ⟨⟨%g, Hbuf⟩, Hbufs⟩, ⟨Hc0, Hc1, Hc2, Hc3, Hc4, Hc5, Hc6, Hc7, Hsems⟩, HO⟩
  ihave Hmw := ((K (F := F)).mayWaits_none (thr := (V d (cV L) (jV L))) hO) $$ Hlv
  -- the read shares, one token per staging slot's incoming copy
  ihave Hi' := ((toks4 (F := F) (ℓ := (Memref.whole main_v0_scv : Memref sig .scVector .hbm S49152x128 .f32).view.loc (V d (cV L) (jV L))) fi q).1) $$ Hi
  icases Hi' with ⟨Hir, Hi0, Hi1, Hi2, Hi3⟩
  ihave Hp' := ((toks4 (F := F) (ℓ := (Memref.whole main_v1_scv : Memref sig .scVector .hbm S196608x128 .f32).view.loc (V d (cV L) (jV L))) fp q).1) $$ Hp
  icases Hp' with ⟨Hpr, Hp0, Hp1, Hp2, Hp3⟩
  -- the scratch array as its four slots
  ihave Hb := (Entails.of_eq (buf_split4 (F := F) d L g)) $$ Hbuf
  icases Hb with ⟨Hs0, Hs1, Hs2, Hs3⟩
  -- the destination blocks as the program's memrefs address them
  ihave Hb0 := (blk_in (F := F) d L 0 0#32 rfl (k0_off2_inb L 0) fo) $$ Ho0
  ihave Hb1 := (blk_in (F := F) d L 1 1536#32 rfl (k0_off2_inb L 1) fo) $$ Ho1
  ihave Hb2 := (blk_in (F := F) d L 2 3072#32 rfl (k0_off2_inb L 2) fo) $$ Ho2
  ihave Hb3 := (blk_in (F := F) d L 3 4608#32 rfl (k0_off2_inb L 3) fo) $$ Ho3
  ihave Hb4 := (blk_in (F := F) d L 4 6144#32 rfl (k0_off2_inb L 4) fo) $$ Ho4
  ihave Hb5 := (blk_in (F := F) d L 5 7680#32 rfl (k0_off2_inb L 5) fo) $$ Ho5
  ihave Hb6 := (blk_in (F := F) d L 6 9216#32 rfl (k0_off2_inb L 6) fo) $$ Ho6
  ihave Hb7 := (blk_in (F := F) d L 7 10752#32 rfl (k0_off2_inb L 7) fo) $$ Ho7
  ihave Hb8 := (blk_in (F := F) d L 8 12288#32 rfl (k0_off2_inb L 8) fo) $$ Ho8
  ihave Hb9 := (blk_in (F := F) d L 9 13824#32 rfl (k0_off2_inb L 9) fo) $$ Ho9
  ihave Hb10 := (blk_in (F := F) d L 10 15360#32 rfl (k0_off2_inb L 10) fo) $$ Ho10
  ihave Hb11 := (blk_in (F := F) d L 11 16896#32 rfl (k0_off2_inb L 11) fo) $$ Ho11
  ihave Hb12 := (blk_in (F := F) d L 12 18432#32 rfl (k0_off2_inb L 12) fo) $$ Ho12
  ihave Hb13 := (blk_in (F := F) d L 13 19968#32 rfl (k0_off2_inb L 13) fo) $$ Ho13
  ihave Hb14 := (blk_in (F := F) d L 14 21504#32 rfl (k0_off2_inb L 14) fo) $$ Ho14
  ihave Hb15 := (blk_in (F := F) d L 15 23040#32 rfl (k0_off2_inb L 15) fo) $$ Ho15
  ihave Hb16 := (blk_in (F := F) d L 16 24576#32 rfl (k0_off2_inb L 16) fo) $$ Ho16
  ihave Hb17 := (blk_in (F := F) d L 17 26112#32 rfl (k0_off2_inb L 17) fo) $$ Ho17
  ihave Hb18 := (blk_in (F := F) d L 18 27648#32 rfl (k0_off2_inb L 18) fo) $$ Ho18
  ihave Hb19 := (blk_in (F := F) d L 19 29184#32 rfl (k0_off2_inb L 19) fo) $$ Ho19
  ihave Hb20 := (blk_in (F := F) d L 20 30720#32 rfl (k0_off2_inb L 20) fo) $$ Ho20
  ihave Hb21 := (blk_in (F := F) d L 21 32256#32 rfl (k0_off2_inb L 21) fo) $$ Ho21
  ihave Hb22 := (blk_in (F := F) d L 22 33792#32 rfl (k0_off2_inb L 22) fo) $$ Ho22
  ihave Hb23 := (blk_in (F := F) d L 23 35328#32 rfl (k0_off2_inb L 23) fo) $$ Ho23
  ihave Hb24 := (blk_in (F := F) d L 24 36864#32 rfl (k0_off2_inb L 24) fo) $$ Ho24
  ihave Hb25 := (blk_in (F := F) d L 25 38400#32 rfl (k0_off2_inb L 25) fo) $$ Ho25
  ihave Hb26 := (blk_in (F := F) d L 26 39936#32 rfl (k0_off2_inb L 26) fo) $$ Ho26
  ihave Hb27 := (blk_in (F := F) d L 27 41472#32 rfl (k0_off2_inb L 27) fo) $$ Ho27
  ihave Hb28 := (blk_in (F := F) d L 28 43008#32 rfl (k0_off2_inb L 28) fo) $$ Ho28
  ihave Hb29 := (blk_in (F := F) d L 29 44544#32 rfl (k0_off2_inb L 29) fo) $$ Ho29
  ihave Hb30 := (blk_in (F := F) d L 30 46080#32 rfl (k0_off2_inb L 30) fo) $$ Ho30
  ihave Hb31 := (blk_in (F := F) d L 31 47616#32 rfl (k0_off2_inb L 31) fo) $$ Ho31
  sl_unfold [cc0_sc_call]
  sl_exec_parts
  sl_step
  -- the values the copies carried, by their definitions: reads of the source blocks and of the staging slots
  delta tile_body.sl.dma0 tile_body.sl.dma0_1 tile_body.sl.dma0_2 tile_body.sl.dma0_3 tile_body.sl.dma0_4 tile_body.sl.dma0_5 tile_body.sl.dma0_6 tile_body.sl.dma0_7 tile_body.sl.dma0_8 tile_body.sl.dma0_9 tile_body.sl.dma0_10 tile_body.sl.dma0_11 tile_body.sl.dma0_12 tile_body.sl.dma0_13 tile_body.sl.dma0_14 tile_body.sl.dma0_15 tile_body.sl.dma0_16 tile_body.sl.dma0_17 tile_body.sl.dma0_18 tile_body.sl.dma0_19 tile_body.sl.dma0_20 tile_body.sl.dma0_21 tile_body.sl.dma0_22 tile_body.sl.dma0_23 tile_body.sl.dma0_24 tile_body.sl.dma0_25 tile_body.sl.dma0_26 tile_body.sl.dma0_27 tile_body.sl.dma0_28 tile_body.sl.dma0_29 tile_body.sl.dma0_30 tile_body.sl.dma0_31 tile_body.sl.dma0_32 tile_body.sl.dma0_33 tile_body.sl.dma0_34 tile_body.sl.dma0_35 tile_body.sl.dma0_36 tile_body.sl.dma0_37 tile_body.sl.dma0_38 tile_body.sl.dma0_39 tile_body.sl.dma0_40 tile_body.sl.dma0_41 tile_body.sl.dma0_42 tile_body.sl.dma0_43 tile_body.sl.dma0_44 tile_body.sl.dma0_45 tile_body.sl.dma0_46 tile_body.sl.dma0_47 tile_body.sl.dma0_48 tile_body.sl.dma0_49 tile_body.sl.dma0_50 tile_body.sl.dma0_51 tile_body.sl.dma0_52 tile_body.sl.dma0_53 tile_body.sl.dma0_54 tile_body.sl.dma0_55 tile_body.sl.dma0_56 tile_body.sl.dma0_57 tile_body.sl.dma0_58 tile_body.sl.dma0_59 tile_body.sl.dma0_60 tile_body.sl.dma0_61 tile_body.sl.dma0_62 tile_body.sl.dma0_63
  -- each destination block holds the source block its copies carried: the batch result there
  ihave Hr0 := (blk_pool (F := F) d L 0 (by decide) 0#32 rfl (k0_off2_inb L 0) 127488 (by decide) (k0_off1_inb L 0) fi fp fo _ _ _) $$ Hb0
  ihave Hr1 := (blk_img (F := F) d L 1 (by decide) 1536#32 rfl (k0_off2_inb L 1) (k0_off2_inb L 1) fi fp fo _ _ _) $$ Hb1
  ihave Hr2 := (blk_pool (F := F) d L 2 (by decide) 3072#32 rfl (k0_off2_inb L 2) 99840 (by decide) (k0_off1_inb L 1) fi fp fo _ _ _) $$ Hb2
  ihave Hr3 := (blk_pool (F := F) d L 3 (by decide) 4608#32 rfl (k0_off2_inb L 3) 112128 (by decide) (k0_off1_inb L 2) fi fp fo _ _ _) $$ Hb3
  ihave Hr4 := (blk_pool (F := F) d L 4 (by decide) 6144#32 rfl (k0_off2_inb L 4) 119808 (by decide) (k0_off1_inb L 3) fi fp fo _ _ _) $$ Hb4
  ihave Hr5 := (blk_pool (F := F) d L 5 (by decide) 7680#32 rfl (k0_off2_inb L 5) 49152 (by decide) (k0_off1_inb L 4) fi fp fo _ _ _) $$ Hb5
  ihave Hr6 := (blk_pool (F := F) d L 6 (by decide) 9216#32 rfl (k0_off2_inb L 6) 23040 (by decide) (k0_off1_inb L 5) fi fp fo _ _ _) $$ Hb6
  ihave Hr7 := (blk_img (F := F) d L 7 (by decide) 10752#32 rfl (k0_off2_inb L 7) (k0_off2_inb L 7) fi fp fo _ _ _) $$ Hb7
  ihave Hr8 := (blk_img (F := F) d L 8 (by decide) 12288#32 rfl (k0_off2_inb L 8) (k0_off2_inb L 8) fi fp fo _ _ _) $$ Hb8
  ihave Hr9 := (blk_pool (F := F) d L 9 (by decide) 13824#32 rfl (k0_off2_inb L 9) 73728 (by decide) (k0_off1_inb L 6) fi fp fo _ _ _) $$ Hb9
  ihave Hr10 := (blk_pool (F := F) d L 10 (by decide) 15360#32 rfl (k0_off2_inb L 10) 130560 (by decide) (k0_off1_inb L 7) fi fp fo _ _ _) $$ Hb10
  ihave Hr11 := (blk_pool (F := F) d L 11 (by decide) 16896#32 rfl (k0_off2_inb L 11) 38400 (by decide) (k0_off1_inb L 8) fi fp fo _ _ _) $$ Hb11
  ihave Hr12 := (blk_pool (F := F) d L 12 (by decide) 18432#32 rfl (k0_off2_inb L 12) 178176 (by decide) (k0_off1_inb L 9) fi fp fo _ _ _) $$ Hb12
  ihave Hr13 := (blk_pool (F := F) d L 13 (by decide) 19968#32 rfl (k0_off2_inb L 13) 167424 (by decide) (k0_off1_inb L 10) fi fp fo _ _ _) $$ Hb13
  ihave Hr14 := (blk_img (F := F) d L 14 (by decide) 21504#32 rfl (k0_off2_inb L 14) (k0_off2_inb L 14) fi fp fo _ _ _) $$ Hb14
  ihave Hr15 := (blk_img (F := F) d L 15 (by decide) 23040#32 rfl (k0_off2_inb L 15) (k0_off2_inb L 15) fi fp fo _ _ _) $$ Hb15
  ihave Hr16 := (blk_pool (F := F) d L 16 (by decide) 24576#32 rfl (k0_off2_inb L 16) 118272 (by decide) (k0_off1_inb L 11) fi fp fo _ _ _) $$ Hb16
  ihave Hr17 := (blk_pool (F := F) d L 17 (by decide) 26112#32 rfl (k0_off2_inb L 17) 43008 (by decide) (k0_off1_inb L 12) fi fp fo _ _ _) $$ Hb17
  ihave Hr18 := (blk_img (F := F) d L 18 (by decide) 27648#32 rfl (k0_off2_inb L 18) (k0_off2_inb L 18) fi fp fo _ _ _) $$ Hb18
  ihave Hr19 := (blk_pool (F := F) d L 19 (by decide) 29184#32 rfl (k0_off2_inb L 19) 142848 (by decide) (k0_off1_inb L 13) fi fp fo _ _ _) $$ Hb19
  ihave Hr20 := (blk_img (F := F) d L 20 (by decide) 30720#32 rfl (k0_off2_inb L 20) (k0_off2_inb L 20) fi fp fo _ _ _) $$ Hb20
  ihave Hr21 := (blk_pool (F := F) d L 21 (by decide) 32256#32 rfl (k0_off2_inb L 21) 0 (by decide) (k0_off1_inb L 14) fi fp fo _ _ _) $$ Hb21
  ihave Hr22 := (blk_img (F := F) d L 22 (by decide) 33792#32 rfl (k0_off2_inb L 22) (k0_off2_inb L 22) fi fp fo _ _ _) $$ Hb22
  ihave Hr23 := (blk_pool (F := F) d L 23 (by decide) 35328#32 rfl (k0_off2_inb L 23) 75264 (by decide) (k0_off1_inb L 15) fi fp fo _ _ _) $$ Hb23
  ihave Hr24 := (blk_pool (F := F) d L 24 (by decide) 36864#32 rfl (k0_off2_inb L 24) 105984 (by decide) (k0_off1_inb L 16) fi fp fo _ _ _) $$ Hb24
  ihave Hr25 := (blk_pool (F := F) d L 25 (by decide) 38400#32 rfl (k0_off2_inb L 25) 133632 (by decide) (k0_off1_inb L 17) fi fp fo _ _ _) $$ Hb25
  ihave Hr26 := (blk_pool (F := F) d L 26 (by decide) 39936#32 rfl (k0_off2_inb L 26) 136704 (by decide) (k0_off1_inb L 18) fi fp fo _ _ _) $$ Hb26
  ihave Hr27 := (blk_pool (F := F) d L 27 (by decide) 41472#32 rfl (k0_off2_inb L 27) 159744 (by decide) (k0_off1_inb L 19) fi fp fo _ _ _) $$ Hb27
  ihave Hr28 := (blk_pool (F := F) d L 28 (by decide) 43008#32 rfl (k0_off2_inb L 28) 115200 (by decide) (k0_off1_inb L 20) fi fp fo _ _ _) $$ Hb28
  ihave Hr29 := (blk_img (F := F) d L 29 (by decide) 44544#32 rfl (k0_off2_inb L 29) (k0_off2_inb L 29) fi fp fo _ _ _) $$ Hb29
  ihave Hr30 := (blk_pool (F := F) d L 30 (by decide) 46080#32 rfl (k0_off2_inb L 30) 138240 (by decide) (k0_off1_inb L 21) fi fp fo _ _ _) $$ Hb30
  ihave Hr31 := (blk_img (F := F) d L 31 (by decide) 47616#32 rfl (k0_off2_inb L 31) (k0_off2_inb L 31) fi fp fo _ _ _) $$ Hb31
  isplitl [Hir Hi0 Hi1 Hi2 Hi3 Hpr Hp0 Hp1 Hp2 Hp3 Hr0 Hr1 Hr2 Hr3 Hr4 Hr5 Hr6 Hr7 Hr8 Hr9 Hr10 Hr11 Hr12 Hr13 Hr14 Hr15 Hr16 Hr17 Hr18 Hr19 Hr20 Hr21 Hr22 Hr23 Hr24 Hr25 Hr26 Hr27 Hr28 Hr29 Hr30 Hr31]
  · isplitl [Hir Hi0 Hi1 Hi2 Hi3]
    · iapply ((toks4 (F := F) (ℓ := (Memref.whole main_v0_scv : Memref sig .scVector .hbm S49152x128 .f32).view.loc (V d (cV L) (jV L))) fi q).2)
      isplitl [Hir]; · iexact Hir
      isplitl [Hi0]; · iexact Hi0
      isplitl [Hi1]; · iexact Hi1
      isplitl [Hi2]; · iexact Hi2
      iexact Hi3
    isplitl [Hpr Hp0 Hp1 Hp2 Hp3]
    · iapply ((toks4 (F := F) (ℓ := (Memref.whole main_v1_scv : Memref sig .scVector .hbm S196608x128 .f32).view.loc (V d (cV L) (jV L))) fp q).2)
      isplitl [Hpr]; · iexact Hpr
      isplitl [Hp0]; · iexact Hp0
      isplitl [Hp1]; · iexact Hp1
      isplitl [Hp2]; · iexact Hp2
      iexact Hp3
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    isplitl [Hr18]; · iexact Hr18
    isplitl [Hr19]; · iexact Hr19
    isplitl [Hr20]; · iexact Hr20
    isplitl [Hr21]; · iexact Hr21
    isplitl [Hr22]; · iexact Hr22
    isplitl [Hr23]; · iexact Hr23
    isplitl [Hr24]; · iexact Hr24
    isplitl [Hr25]; · iexact Hr25
    isplitl [Hr26]; · iexact Hr26
    isplitl [Hr27]; · iexact Hr27
    isplitl [Hr28]; · iexact Hr28
    isplitl [Hr29]; · iexact Hr29
    isplitl [Hr30]; · iexact Hr30
    iexact Hr31
  isplitl [Hs0 Hs1 Hs2 Hs3 Hbufs]
  · isplitl [Hs0 Hs1 Hs2 Hs3]
    · iapply (buf_join4 (F := F) d L)
      isplitl [Hs0]; · iexists _; iexact Hs0
      isplitl [Hs1]; · iexists _; iexact Hs1
      isplitl [Hs2]; · iexists _; iexact Hs2
      iexists _; iexact Hs3
    · iexact Hbufs
  isplitl [Hc0 Hc1 Hc2 Hc3 Hc4 Hc5 Hc6 Hc7 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexact Hsems
  iexists _; isplitr
  rotate_left
  · iexact HO
  · ipureintro
    repeat (first | exact fun p hp => Or.inl hp | refine waits_ins _ ?_)

/-! ## The launch theorem's obligation -/

theorem defs₀_vector (c : Fin τ.nSC) (s : Fin τ.nSub) :
    defs₀ (F := F) (.scVector c s) 0 ()
      = SparseCore.onTile hcore0 hsub0 (fun c s => cc0_sc_call (coordsV c s)
          imgV (Memref.isWhole_whole _) poolV (Memref.isWhole_whole _) outV (Memref.isWhole_whole _)
          bufV (Memref.isWhole_whole _) cc0_scratch1 cc0_scratch2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body obligation of the call: every vector subcore's task. -/
theorem tileObl (f0 : (d : Dev nD) → Buf (Elt F) (imgLoc d)) (f1 : (d : Dev nD) → Buf (Elt F) (poolLoc d))
    (o0 : (d : Dev nD) → Buf (Elt F) (outLoc d)) : (K (F := F)).TileObl (D (F := F)) 𝒱 (P f0 f1 o0) v₀ 0 := by
  intro d c i O W hO _ _
  simp only [show (P f0 f1 o0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body facts d (coordsV ⟨_, hc.1⟩ ⟨_, hc.2⟩) (qT (Fin.cast nCore_zero c) (Fin.cast nSub_zero i)) (f0 d) (f1 d) (o0 d) O W hO).trans
    (wp_mono frame _ _ fun _ => obl_post)

end Cert.Kernel.KP

end
-- ==== Proof.KSplitB.lean ====
/-
  How one SparseCore's operands are dealt to its sixteen vector subcores and gathered back: each read share is cut into
  sixteen read tokens (what is left stays with the SparseCore until the tokens return), and the destination blocks are
  already grouped by subcore.
-/
import proofs.«209156_g27831388078850_cont_9to1_824_17_alg».proof.Proof.KPayB
import Idealize.ShloMosaic.Lib.SparseCore.Launch
import Idealize.ShloMosaic.Lib.Tactic

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (f0 : (d : Dev nD) → Buf (Elt F) (imgLoc d)) (f1 : (d : Dev nD) → Buf (Elt F) (poolLoc d))
  (o0 : (d : Dev nD) → Buf (Elt F) (outLoc d))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P f0 f1 o0) 0 := by
  intro d c
  show iprop((imgLoc d ↦{qS (Fin.cast nCore_zero c)} f0 d) ∗ (poolLoc d ↦{qS (Fin.cast nCore_zero c)} f1 d) ∗ bigSep Finset.univ fun i : Fin 16 => outBlocks d (Fin.cast nCore_zero c) i (o0 d)) ⊢ |={Set.univ}=> iprop(
      (bigSep Finset.univ fun i : Fin ((K (F := F)).nSub 0) => iprop((imgLoc d ↦{qT (Fin.cast nCore_zero c) (Fin.cast nSub_zero i)} f0 d) ∗ (poolLoc d ↦{qT (Fin.cast nCore_zero c) (Fin.cast nSub_zero i)} f1 d) ∗ outBlocks d (Fin.cast nCore_zero c) (Fin.cast nSub_zero i) (o0 d)))
      ∗ ((bigSep Finset.univ fun i : Fin ((K (F := F)).nSub 0) => iprop((imgLoc d ↦{qT (Fin.cast nCore_zero c) (Fin.cast nSub_zero i)} f0 d) ∗ (poolLoc d ↦{qT (Fin.cast nCore_zero c) (Fin.cast nSub_zero i)} f1 d) ∗ outBlocks d (Fin.cast nCore_zero c) (Fin.cast nSub_zero i) (res f0 f1 d)))
          -∗ iprop((imgLoc d ↦{qS (Fin.cast nCore_zero c)} f0 d) ∗ (poolLoc d ↦{qS (Fin.cast nCore_zero c)} f1 d) ∗ bigSep Finset.univ fun i : Fin 16 => outBlocks d (Fin.cast nCore_zero c) i (res f0 f1 d))))
  rw [bigSep_tasks (F := F) (fun i => iprop((imgLoc d ↦{qT (Fin.cast nCore_zero c) i} f0 d) ∗ (poolLoc d ↦{qT (Fin.cast nCore_zero c) i} f1 d) ∗ outBlocks d (Fin.cast nCore_zero c) i (o0 d))),
    bigSep_tasks (F := F) (fun i => iprop((imgLoc d ↦{qT (Fin.cast nCore_zero c) i} f0 d) ∗ (poolLoc d ↦{qT (Fin.cast nCore_zero c) i} f1 d) ∗ outBlocks d (Fin.cast nCore_zero c) i (res f0 f1 d))), bigSep_sep', bigSep_sep', bigSep_sep', bigSep_sep']
  iintro ⟨Hi, Hp, Ho⟩
  ihave Hi' := (Transfers.pointsTo_toks_split (qS (Fin.cast nCore_zero c)) 16) $$ Hi
  icases Hi' with ⟨Hir, Hit⟩
  ihave Hp' := (Transfers.pointsTo_toks_split (qS (Fin.cast nCore_zero c)) 16) $$ Hp
  icases Hp' with ⟨Hpr, Hpt⟩
  imodintro
  isplitl [Hit Hpt Ho]
  · isplitl [Hit]; · iexact Hit
    isplitl [Hpt]; · iexact Hpt
    iexact Ho
  iintro ⟨Hit, Hpt, Ho⟩
  isplitl [Hir Hit]
  · iapply (Transfers.pointsTo_toks_join (qS (Fin.cast nCore_zero c)) 16)
    isplitl [Hir]; · iexact Hir
    iexact Hit
  isplitl [Hpr Hpt]
  · iapply (Transfers.pointsTo_toks_join (qS (Fin.cast nCore_zero c)) 16)
    isplitl [Hpr]; · iexact Hpr
    iexact Hpt
  iexact Ho

end Cert.Kernel.KP

end
-- ==== Proof.KTcDatB.lean ====
/-
  The TensorCore region's proof data, for the pipeline library: the region's pipeline stages nothing (no window: both
  operands and the result stay in HBM), so its proof data is the body's invariant before and after the one grid point,
  what the TensorCore owes meanwhile (what it owes after the SparseCore call, unchanged) and the bound on its recorded
  waits. The invariant holds the two arrays whole, the kernel's 16 transfer semaphores at zero and the staging scratch.
-/
import proofs.«209156_g27831388078850_cont_9to1_824_17_alg».proof.Proof.KCommonB
import proofs.«209156_g27831388078850_cont_9to1_824_17_alg».proof.Proof.Spec
import proofs.«209156_g27831388078850_cont_9to1_824_17_alg».proof.Proof.Gen.Kernel.Launch
import Idealize.ShloMosaic.Lib.Pipeline.Regions

noncomputable section

namespace Cert.Kernel.KP

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The one admissible contents of the (absent) prefetched tables. -/
abbrev admT : (p : Fin 1) → (pcfgs (F := F) p).Adm := fun p => (cfgs p).toPCfg_adm

/-- The pipeline at those contents. -/
abbrev cfgT : Pipeline.Cfg sig Λ₀ := Pipeline.pin (pcfgs (F := F)) admT 0

theorem phinj : Function.Injective (Pipeline.cellOf (nD := nD) (τ := τ) (Pipeline.pin (pcfgs (F := F)) admT)) :=
  (Gen.launch1.toP (Val := Elt F)).cellOf_inj admT

/-- The kernel's own semaphores: the 8 read and the 8 write semaphores. -/
def osem : Fin 16 → SemLoc sig := fun k => .dma ⟨8 + k.val, by have := k.isLt; show 8 + k.val < 24; omega⟩

theorem ho : Pipeline.OwnSemFacts (pcfgs (F := F) 0).spec osem :=
  ⟨by decide, by decide, fun _ w => w.elim0⟩

section Dat

variable (g0 : S49152x128.Idx → Elt F .f32) (g3 : S196608x128.Idx → Elt F .f32) (c : Dev nD)

/-- The body's invariant before the point: the level facts, the two arrays whole, the kernel's semaphores at zero, the scratch. -/
def Φ0 : sProp 𝕄 :=
  iprop(levAts (K (F := F)).L (K (F := F)).lev
    ∗ (((SparseCore.T c : Thread nD τ).loc main_v0) ↦{fullShare} g0)
    ∗ (((SparseCore.T c : Thread nD τ).loc main_v3) ↦{fullShare} g3)
    ∗ Pipeline.ownSems0 osem c ∗ Pipeline.scopedRest (cfgT (F := F)).spec c)

/-- After it: the pool array at the returned pool. -/
def Φ1 : sProp 𝕄 :=
  iprop(levAts (K (F := F)).L (K (F := F)).lev
    ∗ (((SparseCore.T c : Thread nD τ).loc main_v0) ↦{fullShare} g0)
    ∗ (((SparseCore.T c : Thread nD τ).loc main_v3) ↦{fullShare} Cert.Spec.outPool2 (α := Elt F .f32) g0 g3)
    ∗ Pipeline.ownSems0 osem c ∗ Pipeline.scopedRest (cfgT (F := F)).spec c)

/-- The region's proof data on core `c`. -/
def rdatT : Pipeline.RDat τ (Elt F) (HIx 1) ℕ UU ℕ (cfgT (F := F)) c where
  A := fun w => w.elim0
  after := fun w => w.elim0
  Φ := fun t => if t.val = 0 then Φ0 g0 g3 c else Φ1 g0 g3 c
  q := fun w => w.elim0
  owed := fun _ => (K (F := F)).Otc c 1
  recorded := fun _ => {p | (K (F := F)).lev ((SparseCore.T c : Thread nD τ), p.1) p.2 ≤ 8 * 1}

theorem rdatT_Φ_zero : (rdatT g0 g3 c).Φ 0 = Φ0 g0 g3 c := by
  show (if ((0 : Fin ((cfgT (F := F)).N + 1)).val = 0) then Φ0 g0 g3 c else Φ1 g0 g3 c) = _
  exact if_pos (Fin.val_zero _)
theorem rdatT_Φ_last : (rdatT g0 g3 c).Φ (Fin.last (cfgT (F := F)).N) = Φ1 g0 g3 c := by
  show (if ((Fin.last (cfgT (F := F)).N).val = 0) then Φ0 g0 g3 c else Φ1 g0 g3 c) = _
  exact if_neg (by rw [Fin.val_last]; show grid1.N ≠ 0; rw [Gen.N_1]; decide)
theorem rdatT_owed (t) : (rdatT g0 g3 c).owed t = (K (F := F)).Otc c 1 := rfl

end Dat

end Cert.Kernel.KP

end
-- ==== Proof.KTcRegionB.lean ====
/-
  The TensorCore kernel's region as one step of @main's proof, from the body's obligation.  The region's pipeline has no
  window, so nothing is staged, fetched or flushed: entering it hands the body the two arrays, the kernel's own sixteen
  semaphores at zero and the scratch buffer (the invariant before the one grid point); leaving it takes them back with
  the pool array at the returned pool.  What the TensorCore owes the SparseCore launch's handshakes (nothing more, after
  the only call) passes through unchanged.
-/
import proofs.«209156_g27831388078850_cont_9to1_824_17_alg».proof.Proof.KTcDatB
import proofs.«209156_g27831388078850_cont_9to1_824_17_alg».proof.Proof.KMainCB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [∀ e, Nonempty (Elt F e)]

omit [FloatOps F] [∀ e, Nonempty (Elt F e)] in
/-- A separating conjunction over an index type with no element is empty. -/
theorem bigSep_fin_zero {n : Nat} (h : n = 0) (Φ : Fin n → sProp 𝕄) : bigSep Finset.univ Φ = (BI.emp : sProp 𝕄) := by
  subst h; rw [Finset.univ_eq_empty, bigSep_empty]

section Region

variable (g0 : S49152x128.Idx → Elt F .f32) (g3 : S196608x128.Idx → Elt F .f32)

/-- The proof data of the program's one pipeline on every core. -/
def rdatsT : (p : Fin 1) → (c : Dev nD) → Pipeline.RDat τ (Elt F) (HIx 1) ℕ UU ℕ (Pipeline.pin (pcfgs (F := F)) admT p) c :=
  fun | 0 => fun c => rdatT g0 g3 c | ⟨_ + 1, h⟩ => absurd h (Nat.not_lt.2 (Nat.le_add_left _ _))

/-- What the TensorCore owes after the call and its recorded waits, as the launch's thread state holds them. -/
abbrev tcOwes (c : Dev nD) : sProp 𝕄 := iprop(∃ W, ⌜(K (F := F)).WBelow (T c) W (8 * 1)⌝ ∗ owes (T c) ((K (F := F)).Otc c 1) W)

omit [FloatOps F] [∀ e, Nonempty (Elt F e)] in
theorem tcSt_split (c : Dev nD) : ((K (F := F)).tcSt EH c 1 : sProp 𝕄) ⊢ iprop(tcOwes (F := F) c ∗ (tcOwes (F := F) c -∗ (K (F := F)).tcSt EH c 1)) := by
  unfold SparseCore.Cfg.tcSt
  iintro ⟨HO, Hrest⟩
  isplitl [HO]; · iexact HO
  iintro HO
  isplitl [HO]; · iexact HO
  iexact Hrest

theorem W_zero : (cfgT (F := F)).W = 0 := rfl
theorem preK_zero : (pcfgs (F := F) 0).pre.K = 0 := rfl

/-- The region's record for the pipeline library: its (empty) layout, the kernel's own semaphores, the body obligation,
    and the four entailments around the TensorCore's state before and after the region. -/
def regionT (hbody : ∀ c, (rdatsT g0 g3 0 c).BodyObligation (defs₀ (F := F)) 𝒱₀ (none : HIx 1) Set.univ) :
    Pipeline.RDat.RegionSeg (pcfgs (F := F)) admT (rdatsT g0 g3) (none : HIx 1) (defs₀ (F := F)) 𝒱₀ (K (F := F)).L (K (F := F)).lev 0 where
  win := Gen.winFacts1.to₀
  block_pos := Gen.block_pos1
  stage_whole := Gen.stage_whole1
  K := Fin 16
  osem := osem
  ho := ho
  hbody := hbody
  hwaits := fun c => Pipeline.RDat.cellsWaits_intro (Pipeline.pin (pcfgs (F := F)) admT) (rdatsT g0 g3) none 0 c (fun w => w.elim0)
  pre := fun c => iprop((K (F := F)).tcSt EH c 1 ∗ (imgLoc c ↦{fullShare} g0) ∗ (opLoc c ↦{fullShare} g3))
  post := fun c => iprop((K (F := F)).tcSt EH c 1 ∗ (imgLoc c ↦{fullShare} g0) ∗ (opLoc c ↦{fullShare} Cert.Spec.outPool2 (α := Elt F .f32) g0 g3))
  X := fun c => iprop(levAts (K (F := F)).L (K (F := F)).lev ∗ (imgLoc c ↦{fullShare} g0) ∗ (opLoc c ↦{fullShare} g3) ∗ Pipeline.ownSems0 osem c)
  Y := fun c => iprop((imgLoc c ↦{fullShare} g0) ∗ (opLoc c ↦{fullShare} Cert.Spec.outPool2 (α := Elt F .f32) g0 g3))
  Z := fun c => iprop(tcOwes (F := F) c -∗ (K (F := F)).tcSt EH c 1)
  hentry := fun c => by
    have hA : ((rdatsT g0 g3 0 c).arrays (rdatsT g0 g3 0 c).A : sProp 𝕄) = BI.emp := by
      unfold Pipeline.RDat.arrays; exact bigSep_fin_zero W_zero _
    have hP : (Pipeline.prefHeld (pcfgs (F := F) 0).pre c (fun _ => fullShare) (admT (F := F) 0).1 : sProp 𝕄) = BI.emp := by
      unfold Pipeline.prefHeld; exact bigSep_fin_zero preK_zero _
    rw [hA, hP]
    iintro ⟨⟨Hst, Hv0, Hv3⟩, Hsems, #Hlv⟩
    ihave H := (tcSt_split (F := F) c) $$ Hst
    icases H with ⟨⟨%W, %hW, HO⟩, HZ⟩
    imodintro
    isplitr; · iempintro
    isplitr; · iempintro
    isplitl [HO]
    · iexists W; isplitr
      · ipureintro; exact fun p hp => Or.inl (hW p hp)
      · iexact HO
    isplitl [Hv0 Hv3 Hsems]
    · isplitr; · iexact Hlv
      isplitl [Hv0]; · iexact Hv0
      isplitl [Hv3]; · iexact Hv3
      iexact Hsems
    iexact HZ
  hin := fun c => by
    rw [show (rdatsT g0 g3 0 c).Φ 0 = Φ0 g0 g3 c from rdatT_Φ_zero g0 g3 c]
    unfold Φ0
    iintro ⟨⟨#Hlv, Hv0, Hv3, Hsems⟩, -, Hsr⟩
    isplitr; · iexact Hlv
    isplitl [Hv0]; · iexact Hv0
    isplitl [Hv3]; · iexact Hv3
    isplitl [Hsems]; · iexact Hsems
    iexact Hsr
  hout := fun c => by
    rw [show (rdatsT g0 g3 0 c).Φ (Fin.last (Pipeline.pin (pcfgs (F := F)) admT 0).N) = Φ1 g0 g3 c from rdatT_Φ_last g0 g3 c]
    unfold Φ1
    iintro ⟨-, Hv0, Hv3, Hsems, Hsr⟩
    isplitl [Hv0 Hv3]
    · isplitl [Hv0]; · iexact Hv0
      iexact Hv3
    isplitl [Hsems]; · iexact Hsems
    iexact Hsr
  hexit := fun c => by
    iintro ⟨-, ⟨%W, %hW, HO⟩, ⟨Hv0, Hv3⟩, HZ⟩
    imodintro
    isplitl [HO HZ]
    · iapply HZ
      iexists W; isplitr
      · ipureintro
        intro p hp
        rcases hW hp with h | ⟨w, _⟩
        · exact h
        · exact w.elim0
      · iexact HO
    isplitl [Hv0]; · iexact Hv0
    iexact Hv3

end Region

/-- The region as a step of @main's proof, from the body's obligation at every contents of the two arrays. -/
theorem tc_region_of
    (hbody : ∀ (g0 : S49152x128.Idx → Elt F .f32) (g3 : S196608x128.Idx → Elt F .f32) (c : Dev nD),
      (rdatT g0 g3 c).BodyObligation (defs₀ (F := F)) 𝒱₀ (none : HIx 1) Set.univ) :
    TcRegion (F := F) (fun _ => iprop(emp)) := by
  intro Pp κ d g0 g3 α k Q
  have hprog : (Prog.op (TpuEff.customCall (SparseCore.inner (Pipeline.entry (0 : Fin 1))) ()) k
        : Prog (TpuEff nD τ sig (Elt F) (SparseCore.Sig (ΛP (F := F)) 1) .tc) α)
      = (SparseCore.liftProg (Q := 1) (Prog.op (TpuEff.customCall (Pipeline.entry (0 : Fin 1)) ()) fun _ => Prog.ret PUnit.unit)) >>= k := rfl
  rw [hprog, wp_bind]
  have hG : (Pipeline.cellsGhost (Pipeline.pin (pcfgs (F := F)) admT) EP 0 d : sProp 𝕄) = BI.emp := by
    unfold Pipeline.cellsGhost; exact bigSep_fin_zero W_zero _
  have hT : (Pipeline.toksInit (Pipeline.pin (pcfgs (F := F)) admT) EP 0 d : sProp 𝕄) = BI.emp := by
    unfold Pipeline.toksInit; exact bigSep_fin_zero W_zero _
  iintro ⟨#Hctx, Hst, -, Hv0, Hv3, Hb, Hk⟩
  ihave Hlv := ((K (F := F)).ctx_levAts (EH := EH) (P := Pp) κ) $$ Hctx
  iapply ((K (F := F)).wp_liftProg (D (F := F)) 𝒱 (SparseCore.T d) Set.univ none _ _)
  iapply (Pipeline.RDat.RegionSeg.wp (pcfgs (F := F)) admT (rdatsT g0 g3) (none : HIx 1) phinj EP (defs₀ (F := F)) 𝒱₀
      (K (F := F)).L (K (F := F)).lev (regionT g0 g3 (hbody g0 g3)) d none (fun _ h => nomatch h) (fun _ => Prog.ret PUnit.unit) _) $$ [Hst Hv0 Hv3 Hb Hk Hlv]
  rw [hG, hT,
    show (regionT g0 g3 (hbody g0 g3)).pre d
      = iprop((K (F := F)).tcSt EH d 1 ∗ (imgLoc d ↦{fullShare} g0) ∗ (opLoc d ↦{fullShare} g3)) from rfl,
    show (regionT g0 g3 (hbody g0 g3)).post d
      = iprop((K (F := F)).tcSt EH d 1 ∗ (imgLoc d ↦{fullShare} g0) ∗ (opLoc d ↦{fullShare} Cert.Spec.outPool2 (α := Elt F .f32) g0 g3)) from rfl]
  isplitl [Hk]
  · iintro ⟨Hb, Hpost⟩
    rw [wp_ret]; imodintro
    iapply Hk
    icases Hpost with ⟨Hst, Hv0, Hv3⟩
    isplitl [Hst]; · iexact Hst
    isplitl [Hv0]; · iexact Hv0
    isplitl [Hv3]; · iexact Hv3
    iexact Hb
  isplitl [Hb]; · iexact Hb
  isplitl [Hst Hv0 Hv3]
  · isplitl [Hst]; · iexact Hst
    isplitl [Hv0]; · iexact Hv0
    iexact Hv3
  isplitl [Hlv]; · iexact Hlv
  isplitr; · iempintro
  iempintro

end Cert.Kernel.KP

end
-- ==== Proof.KTcBodyB0.lean ====
/-
  Small general facts for the scatter kernel's run: an array's points-to cut into a list of pairwise disjoint
  element sets and what is left, and back; the row blocks of the pool array that the kernel writes; and the
  returned pool, read at a row inside one of those blocks and at a row outside all of them.
-/
import proofs.«209156_g27831388078850_cont_9to1_824_17_alg».proof.Proof.KCommonB
import proofs.«209156_g27831388078850_cont_9to1_824_17_alg».proof.Proof.Spec
import Idealize.ShloMosaic.Lib.Transfers

noncomputable section

namespace Cert.Kernel.KP

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Spec

variable {F : FTy → Type}

local notation "𝕄" => MT nD τ sig (HIx 1) (Elt F) ℕ UU ℕ

/-! ## A points-to cut along a list of disjoint element sets -/

section Pieces

variable {ℓ : Loc nD τ sig}

/-- The elements of `S` outside every set of the list. -/
def restOf (S : Finset (Idx ℓ)) : List (Finset (Idx ℓ)) → Finset (Idx ℓ)
  | [] => S
  | I :: L => restOf (S \ I) L

theorem mem_restOf {j : Idx ℓ} : ∀ {L : List (Finset (Idx ℓ))} {S : Finset (Idx ℓ)}, j ∈ restOf S L ↔ j ∈ S ∧ ∀ I ∈ L, j ∉ I
  | [], S => by simp [restOf]
  | I :: L, S => by
    rw [restOf, mem_restOf (L := L), Finset.mem_sdiff]
    constructor
    · rintro ⟨⟨hS, hI⟩, hL⟩
      exact ⟨hS, fun J hJ => by rcases List.mem_cons.mp hJ with rfl | hJ; exacts [hI, hL J hJ]⟩
    · rintro ⟨hS, h⟩
      exact ⟨⟨hS, h I List.mem_cons_self⟩, fun J hJ => h J (List.mem_cons_of_mem _ hJ)⟩

/-- The sets of the list, each held at the one contents `f`. -/
def piecesAt (q : PosShare TreeShare) (f : Buf (Elt F) ℓ) : List (Finset (Idx ℓ)) → sProp 𝕄
  | [] => iprop(emp)
  | I :: L => iprop((ℓ ↦[I]{q} f) ∗ piecesAt q f L)

/-- An array held on `S` is the pieces of a list of pairwise disjoint subsets of `S` and the rest. -/
theorem pointsTo_pieces (q : PosShare TreeShare) (f : Buf (Elt F) ℓ) :
    ∀ (L : List (Finset (Idx ℓ))) (S : Finset (Idx ℓ)), (∀ I ∈ L, I ⊆ S) → L.Pairwise Disjoint →
      ((ℓ ↦[S]{q} f : sProp 𝕄) ⊣⊢ iprop(piecesAt q f L ∗ ℓ ↦[restOf S L]{q} f))
  | [], S, _, _ => by
    show (ℓ ↦[S]{q} f : sProp 𝕄) ⊣⊢ iprop(emp ∗ ℓ ↦[S]{q} f)
    constructor
    · iintro H; isplitr; · iempintro
      iexact H
    · iintro ⟨-, H⟩; iexact H
  | I :: L, S, hS, hd => by
    have hI : I ⊆ S := hS I List.mem_cons_self
    have h1 : (ℓ ↦[S]{q} f : sProp 𝕄) ⊣⊢ iprop((ℓ ↦[I]{q} f) ∗ ℓ ↦[S \ I]{q} f) := pointsTo_split_subset hI
    have ih := pointsTo_pieces q f L (S \ I)
      (fun J hJ => Finset.subset_sdiff.mpr ⟨hS J (List.mem_cons_of_mem _ hJ), (List.rel_of_pairwise_cons hd hJ).symm⟩)
      (List.Pairwise.of_cons hd)
    show (ℓ ↦[S]{q} f : sProp 𝕄) ⊣⊢ iprop(((ℓ ↦[I]{q} f) ∗ piecesAt q f L) ∗ ℓ ↦[restOf (S \ I) L]{q} f)
    constructor
    · iintro H
      ihave H' := h1.1 $$ H
      icases H' with ⟨HI, HR⟩
      ihave H2 := ih.1 $$ HR
      icases H2 with ⟨HP, HR⟩
      isplitl [HI HP]
      · isplitl [HI]; · iexact HI
        iexact HP
      · iexact HR
    · iintro ⟨⟨HI, HP⟩, HR⟩
      iapply h1.2
      isplitl [HI]; · iexact HI
      iapply ih.2
      isplitl [HP]; · iexact HP
      iexact HR

end Pieces

/-! ## The returned pool at a row -/

section Value

variable {α : Type}

/-- Inside the row block of the pool row paired with a masked batch entry `b`, the returned pool is that entry's image. -/
theorem outPool2_block (g0 : SImg2.Idx → α) (g3 : SPool2.Idx → α) (b : Fin 32) (hb : prob b = true)
    (j : SPool2.Idx) (h0 : 1536 * (index b).val ≤ (j 0).val) (h1 : (j 0).val < 1536 * (index b).val + 1536) :
    outPool2 g0 g3 j = g0 (ix2 (⟨1536 * b.val + ((j 0).val - 1536 * (index b).val), by have := b.isLt; omega⟩ : Fin 49152) (j 1)) := by
  have hr : poolRowOf (j 0) = index b := Fin.ext (by show (j 0).val / 1536 = (index b).val; omega)
  unfold outPool2
  rw [hr, owner_index, if_pos hb]
  refine congrArg g0 ?_
  funext a
  match a with
  | ⟨0, _⟩ => exact Fin.ext (by show b.val * 1536 + (j 0).val % 1536 = 1536 * b.val + ((j 0).val - 1536 * (index b).val); omega)
  | ⟨1, _⟩ => rfl

/-- At a row outside the row blocks of all masked entries' paired pool rows, the returned pool is the pool. -/
theorem outPool2_rest (g0 : SImg2.Idx → α) (g3 : SPool2.Idx → α) (j : SPool2.Idx)
    (h : ∀ b : Fin 32, prob b = true → ¬ (1536 * (index b).val ≤ (j 0).val ∧ (j 0).val < 1536 * (index b).val + 1536)) :
    outPool2 g0 g3 j = g3 j := by
  unfold outPool2
  split
  · rename_i b ho
    obtain ⟨hb, hi⟩ := owner_eq_some _ _ ho
    exfalso
    refine h b hb ?_
    have hv : (index b).val = (j 0).val / 1536 := congrArg Fin.val hi
    constructor <;> omega
  · rfl

end Value

end Cert.Kernel.KP

end
-- ==== Proof.KTcBodyB1.lean ====
/-
  The scatter kernel's memrefs by their row offsets: a destination row block of the pool array, a source row block of
  the batch array, a slot of the staging scratch; which elements each one's view covers, where it places an index, that
  different blocks and different slots share no element; and the value a destination block holds once a batch entry's
  rows, moved through a slot, have been written over it: the returned pool's value there.
-/
import proofs.«209156_g27831388078850_cont_9to1_824_17_alg».proof.Proof.KTcBodyB0
import Idealize.ShloMosaic.Lib.Transfers

set_option quotPrecheck false

noncomputable section

namespace Cert.Kernel.KP

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Cert.Spec

variable {F : FTy → Type}

local notation "𝕄" => MT nD τ sig (HIx 1) (Elt F) ℕ UU ℕ

/-! ## The memrefs -/

/-- Rows `[o, o + 1536)` of the pool array. -/
abbrev dstM (o : ℕ) (h : ∀ a, (![o, 0] : Fin 2 → Nat) a + S1536x128.size a ≤ S196608x128.size a) : Memref sig .tc .hbm S1536x128 .f32 :=
  (Memref.whole main_v3).slice (Rect.unit (s := S196608x128) ![o, 0] S1536x128.size h) (fun _ => rfl)

/-- Rows `[o, o + 1536)` of the batch array. -/
abbrev srcM (o : ℕ) (h : ∀ a, (![o, 0] : Fin 2 → Nat) a + S1536x128.size a ≤ S49152x128.size a) : Memref sig .tc .hbm S1536x128 .f32 :=
  (Memref.whole main_v0).slice (Rect.unit (s := S49152x128) ![o, 0] S1536x128.size h) (fun _ => rfl)

/-- Slot `k` of the staging scratch. -/
abbrev slotM (k : ℕ) (h : ∀ a, (![k, 0, 0] : Fin 3 → Nat) a + S1x1536x128.size a ≤ S8x1536x128.size a) : Memref sig .tc .vmem S1536x128 .f32 :=
  ((Memref.whole cc1_scratch0).slice (Rect.unit (s := S8x1536x128) ![k, 0, 0] S1x1536x128.size h) (fun _ => rfl)).squeeze S1536x128 squeezes_S1x1536x128_S1536x128

/-- The elements of the pool array in rows `[o, o + 1536)`. -/
def dsetN (o : ℕ) : Finset S196608x128.Idx := Finset.univ.filter fun j => o ≤ (j 0).val ∧ (j 0).val < o + 1536

/-- The elements of the staging scratch in slot `k`. -/
def ssetN (k : ℕ) : Finset S8x1536x128.Idx := Finset.univ.filter fun j => (j 0).val = k

theorem dstM_set (o : ℕ) (h) : (dstM o h).view.set = dsetN o := by
  show ((View.whole main_v3 : View sig .tc _ _ _).slice _).set = _
  rw [View.set_slice_whole]
  ext j
  simp only [Rect.mem_set_unit, dsetN, Finset.mem_filter, Finset.mem_univ, true_and]
  constructor
  · intro hj; exact hj 0
  · intro hj a
    match a with
    | ⟨0, _⟩ => exact hj
    | ⟨1, _⟩ => exact ⟨Nat.zero_le _, by show (j 1).val < 0 + 128; have h1 : (j 1).val < 128 := (j 1).isLt; omega⟩

theorem slotM_set (k : ℕ) (h) : (slotM k h).view.set = ssetN k := by
  show (((View.whole cc1_scratch0 : View sig .tc _ _ _).slice _).reshape _ _).set = _
  rw [View.set_reshape, View.set_slice_whole]
  ext j
  simp only [Rect.mem_set_unit, ssetN, Finset.mem_filter, Finset.mem_univ, true_and]
  constructor
  · intro hj; have := hj 0; show (j 0).val = k; have h1 : k ≤ (j 0).val := this.1; have h2 : (j 0).val < k + 1 := this.2; omega
  · intro hj a
    match a with
    | ⟨0, _⟩ => exact ⟨by show k ≤ (j 0).val; omega, by show (j 0).val < k + 1; omega⟩
    | ⟨1, _⟩ => exact ⟨Nat.zero_le _, by show (j 1).val < 0 + 1536; have h1 : (j 1).val < 1536 := (j 1).isLt; omega⟩
    | ⟨2, _⟩ => exact ⟨Nat.zero_le _, by show (j 2).val < 0 + 128; have h2 : (j 2).val < 128 := (j 2).isLt; omega⟩

theorem dsetN_disjoint {o o' : ℕ} (h : o + 1536 ≤ o' ∨ o' + 1536 ≤ o) : Disjoint (dsetN o) (dsetN o') := by
  rw [Finset.disjoint_left]
  intro j hj hj'
  simp only [dsetN, Finset.mem_filter, Finset.mem_univ, true_and] at hj hj'
  omega

theorem ssetN_disjoint {k k' : ℕ} (h : k ≠ k') : Disjoint (ssetN k) (ssetN k') := by
  rw [Finset.disjoint_left]
  intro j hj hj'
  simp only [ssetN, Finset.mem_filter, Finset.mem_univ, true_and] at hj hj'
  omega

/-- Where a destination block's view places an index. -/
theorem dstM_emb (o : ℕ) (h) (x : S1536x128.Idx) :
    ((dstM o h).view.emb x : S196608x128.Idx) = ix2 (⟨o + (x 0).val, by have h0 : o + 1536 ≤ 196608 := h 0; have hx : (x 0).val < 1536 := (x 0).isLt; show o + (x 0).val < 196608; omega⟩ : Fin 196608) (x 1) := by
  funext a
  match a with
  | ⟨0, _⟩ => exact Fin.ext (by show o + 1 * (x 0).val = o + (x 0).val; omega)
  | ⟨1, _⟩ => exact Fin.ext (by show 0 + 1 * (x 1).val = (x 1).val; omega)

/-- Where a source block's view places an index. -/
theorem srcM_emb (o : ℕ) (h) (x : S1536x128.Idx) :
    ((srcM o h).view.emb x : S49152x128.Idx) = ix2 (⟨o + (x 0).val, by have h0 : o + 1536 ≤ 49152 := h 0; have hx : (x 0).val < 1536 := (x 0).isLt; show o + (x 0).val < 49152; omega⟩ : Fin 49152) (x 1) := by
  funext a
  match a with
  | ⟨0, _⟩ => exact Fin.ext (by show o + 1 * (x 0).val = o + (x 0).val; omega)
  | ⟨1, _⟩ => exact Fin.ext (by show 0 + 1 * (x 1).val = (x 1).val; omega)

/-! ## Reading back a whole write; the value of a written block -/

/-- The whole rectangle places an index at itself. -/
theorem whole_emb (s : Shape) (x : s.Idx) : (Rect.whole s).emb x = x := by
  funext a
  exact Fin.ext (by show 0 + 1 * (x a).val = (x a).val; omega)

/-- After a write of the whole shape through a view, the view reads the payload, whatever was there and whatever was written before. -/
theorem read_whole_write {sg : RefSig} {κ : Kind} {sp : Space} {s : Shape} {e : EltTy} {Val : EltTy → Type} (v : View sg κ sp s e)
    (f : v.ty.Contents Val) (w : s.Idx → Val e) (L : List (View.Piece Val s e)) :
    v.read Val (v.writes Val f (⟨Rect.whole s, w⟩ :: L)) = w := by
  funext x
  have h := View.read_writes_cons_emb v f (Rect.whole s) w L x
  rwa [whole_emb] at h

section BlockValue

set_option maxHeartbeats 4000000 in
/-- A destination block written with what a slot holds after a batch entry's rows were moved into it holds the returned pool's
    values: the block is the row block of the pool row paired with the entry, the rows are the entry's. -/
theorem block_value (b : Fin 32) (hb : prob b = true) (od os : ℕ) (hod : od = 1536 * (index b).val) (hos : os = 1536 * b.val)
    (hd) (hs) {sp : Space} (vs : View sig .tc sp S1536x128 .f32) (fs : vs.ty.Contents (Elt F)) (L : List (View.Piece (Elt F) S1536x128 .f32))
    (g0 : S49152x128.Idx → Elt F .f32) (g3 : S196608x128.Idx → Elt F .f32) :
    ∀ j ∈ (dstM od hd).view.set,
      (dstM od hd).view.writes (Elt F) g3
        [⟨Rect.whole S1536x128, ReadAs.same.apply (vs.read (Elt F) (vs.writes (Elt F) fs
            (⟨Rect.whole S1536x128, ReadAs.same.apply ((srcM os hs).view.read (Elt F) g0)⟩ :: L)))⟩] j
      = outPool2 (α := Elt F .f32) g0 g3 j := by
  intro j hj
  obtain ⟨x, -, rfl⟩ := Finset.mem_map.mp hj
  have hP : ReadAs.same.apply (vs.read (Elt F) (vs.writes (Elt F) fs
      (⟨Rect.whole S1536x128, ReadAs.same.apply ((srcM os hs).view.read (Elt F) g0)⟩ :: L))) = (srcM os hs).view.read (Elt F) g0 :=
    read_whole_write vs fs _ L
  rw [hP]
  have h1 := congrFun (read_whole_write (dstM od hd).view g3 ((srcM os hs).view.read (Elt F) g0) []) x
  have hx0 : (x 0).val < 1536 := (x 0).isLt
  have e1 : (dstM od hd).view.writes (Elt F) g3 [⟨Rect.whole S1536x128, (srcM os hs).view.read (Elt F) g0⟩] ((dstM od hd).view.emb x)
      = g0 ((srcM os hs).view.emb x) := h1
  refine e1.trans ?_
  have e2 := congrArg g0 (srcM_emb os hs x)
  have e3 := congrArg (outPool2 (α := Elt F .f32) g0 g3) (dstM_emb od hd x)
  refine e2.trans (Eq.trans ?_ e3.symm)
  refine Eq.trans ?_ (outPool2_block g0 g3 b hb _ ?_ ?_).symm
  · refine congrArg g0 ?_
    funext a
    match a with
    | ⟨0, _⟩ => exact Fin.ext (by show os + (x 0).val = 1536 * b.val + (od + (x 0).val - 1536 * (index b).val); omega)
    | ⟨1, _⟩ => rfl
  · show 1536 * (index b).val ≤ od + (x 0).val; omega
  · show od + (x 0).val < 1536 * (index b).val + 1536; omega

end BlockValue

/-! ## The groups of resources the body's run is stated over -/

local notation "slot0" => (((Memref.whole cc1_scratch0).slice (Rect.unit (s := S8x1536x128) ![0, 0, 0] S1x1536x128.size inb_S8x1536x128_S1x1536x128_0_0_0) (fun _ => rfl)).squeeze S1536x128 squeezes_S1x1536x128_S1536x128)
local notation "slot1" => (((Memref.whole cc1_scratch0).slice (Rect.unit (s := S8x1536x128) ![1, 0, 0] S1x1536x128.size inb_S8x1536x128_S1x1536x128_1_0_0) (fun _ => rfl)).squeeze S1536x128 squeezes_S1x1536x128_S1536x128)
local notation "slot2" => (((Memref.whole cc1_scratch0).slice (Rect.unit (s := S8x1536x128) ![2, 0, 0] S1x1536x128.size inb_S8x1536x128_S1x1536x128_2_0_0) (fun _ => rfl)).squeeze S1536x128 squeezes_S1x1536x128_S1536x128)
local notation "slot3" => (((Memref.whole cc1_scratch0).slice (Rect.unit (s := S8x1536x128) ![3, 0, 0] S1x1536x128.size inb_S8x1536x128_S1x1536x128_3_0_0) (fun _ => rfl)).squeeze S1536x128 squeezes_S1x1536x128_S1536x128)
local notation "slot4" => (((Memref.whole cc1_scratch0).slice (Rect.unit (s := S8x1536x128) ![4, 0, 0] S1x1536x128.size inb_S8x1536x128_S1x1536x128_4_0_0) (fun _ => rfl)).squeeze S1536x128 squeezes_S1x1536x128_S1536x128)
local notation "slot5" => (((Memref.whole cc1_scratch0).slice (Rect.unit (s := S8x1536x128) ![5, 0, 0] S1x1536x128.size inb_S8x1536x128_S1x1536x128_5_0_0) (fun _ => rfl)).squeeze S1536x128 squeezes_S1x1536x128_S1536x128)
local notation "slot6" => (((Memref.whole cc1_scratch0).slice (Rect.unit (s := S8x1536x128) ![6, 0, 0] S1x1536x128.size inb_S8x1536x128_S1x1536x128_6_0_0) (fun _ => rfl)).squeeze S1536x128 squeezes_S1x1536x128_S1536x128)
local notation "slot7" => (((Memref.whole cc1_scratch0).slice (Rect.unit (s := S8x1536x128) ![7, 0, 0] S1x1536x128.size inb_S8x1536x128_S1x1536x128_7_0_0) (fun _ => rfl)).squeeze S1536x128 squeezes_S1x1536x128_S1536x128)
local notation "dst0" => ((Memref.whole main_v3).slice (Rect.unit (s := S196608x128) ![127488, 0] S1536x128.size inb_S196608x128_S1536x128_127488_0) (fun _ => rfl))
local notation "dst1" => ((Memref.whole main_v3).slice (Rect.unit (s := S196608x128) ![99840, 0] S1536x128.size inb_S196608x128_S1536x128_99840_0) (fun _ => rfl))
local notation "dst2" => ((Memref.whole main_v3).slice (Rect.unit (s := S196608x128) ![112128, 0] S1536x128.size inb_S196608x128_S1536x128_112128_0) (fun _ => rfl))
local notation "dst3" => ((Memref.whole main_v3).slice (Rect.unit (s := S196608x128) ![119808, 0] S1536x128.size inb_S196608x128_S1536x128_119808_0) (fun _ => rfl))
local notation "dst4" => ((Memref.whole main_v3).slice (Rect.unit (s := S196608x128) ![49152, 0] S1536x128.size inb_S196608x128_S1536x128_49152_0) (fun _ => rfl))
local notation "dst5" => ((Memref.whole main_v3).slice (Rect.unit (s := S196608x128) ![23040, 0] S1536x128.size inb_S196608x128_S1536x128_23040_0) (fun _ => rfl))
local notation "dst6" => ((Memref.whole main_v3).slice (Rect.unit (s := S196608x128) ![73728, 0] S1536x128.size inb_S196608x128_S1536x128_73728_0) (fun _ => rfl))
local notation "dst7" => ((Memref.whole main_v3).slice (Rect.unit (s := S196608x128) ![130560, 0] S1536x128.size inb_S196608x128_S1536x128_130560_0) (fun _ => rfl))
local notation "dst8" => ((Memref.whole main_v3).slice (Rect.unit (s := S196608x128) ![38400, 0] S1536x128.size inb_S196608x128_S1536x128_38400_0) (fun _ => rfl))
local notation "dst9" => ((Memref.whole main_v3).slice (Rect.unit (s := S196608x128) ![178176, 0] S1536x128.size inb_S196608x128_S1536x128_178176_0) (fun _ => rfl))
local notation "dst10" => ((Memref.whole main_v3).slice (Rect.unit (s := S196608x128) ![167424, 0] S1536x128.size inb_S196608x128_S1536x128_167424_0) (fun _ => rfl))
local notation "dst11" => ((Memref.whole main_v3).slice (Rect.unit (s := S196608x128) ![118272, 0] S1536x128.size inb_S196608x128_S1536x128_118272_0) (fun _ => rfl))
local notation "dst12" => ((Memref.whole main_v3).slice (Rect.unit (s := S196608x128) ![43008, 0] S1536x128.size inb_S196608x128_S1536x128_43008_0) (fun _ => rfl))
local notation "dst13" => ((Memref.whole main_v3).slice (Rect.unit (s := S196608x128) ![142848, 0] S1536x128.size inb_S196608x128_S1536x128_142848_0) (fun _ => rfl))
local notation "dst14" => ((Memref.whole main_v3).slice (Rect.unit (s := S196608x128) ![0, 0] S1536x128.size inb_S196608x128_S1536x128_0_0) (fun _ => rfl))
local notation "dst15" => ((Memref.whole main_v3).slice (Rect.unit (s := S196608x128) ![75264, 0] S1536x128.size inb_S196608x128_S1536x128_75264_0) (fun _ => rfl))
local notation "dst16" => ((Memref.whole main_v3).slice (Rect.unit (s := S196608x128) ![105984, 0] S1536x128.size inb_S196608x128_S1536x128_105984_0) (fun _ => rfl))
local notation "dst17" => ((Memref.whole main_v3).slice (Rect.unit (s := S196608x128) ![133632, 0] S1536x128.size inb_S196608x128_S1536x128_133632_0) (fun _ => rfl))
local notation "dst18" => ((Memref.whole main_v3).slice (Rect.unit (s := S196608x128) ![136704, 0] S1536x128.size inb_S196608x128_S1536x128_136704_0) (fun _ => rfl))
local notation "dst19" => ((Memref.whole main_v3).slice (Rect.unit (s := S196608x128) ![159744, 0] S1536x128.size inb_S196608x128_S1536x128_159744_0) (fun _ => rfl))
local notation "dst20" => ((Memref.whole main_v3).slice (Rect.unit (s := S196608x128) ![115200, 0] S1536x128.size inb_S196608x128_S1536x128_115200_0) (fun _ => rfl))
local notation "dst21" => ((Memref.whole main_v3).slice (Rect.unit (s := S196608x128) ![138240, 0] S1536x128.size inb_S196608x128_S1536x128_138240_0) (fun _ => rfl))
local notation "v0W" => (Memref.whole main_v0 : Memref sig Kind.tc Space.hbm S49152x128 EltTy.f32)

section Groups

variable (d : Dev nD)

/-- The row offsets of the destination blocks, in the order the kernel writes them, and of the source blocks. -/
def offsD : List ℕ := [127488, 99840, 112128, 119808, 49152, 23040, 73728, 130560, 38400, 178176, 167424, 118272, 43008, 142848, 0, 75264, 105984, 133632, 136704, 159744, 115200, 138240]
def offsS : List ℕ := [0, 3072, 4608, 6144, 7680, 9216, 13824, 15360, 16896, 18432, 19968, 24576, 26112, 29184, 32256, 35328, 36864, 38400, 39936, 41472, 43008, 46080]

/-- The batch array's read shares, one per read semaphore. -/
def TOKS (g0 : Buf (Elt F) ((SparseCore.T d : Thread nD τ).loc main_v0)) : sProp 𝕄 :=
  iprop(((v0W).view.loc (SparseCore.T d : Thread nD τ) ↦{Transfers.shareTokN fullShare 15} g0)
      ∗ ((v0W).view.loc (SparseCore.T d : Thread nD τ) ↦{Transfers.shareTokN fullShare 14} g0)
      ∗ ((v0W).view.loc (SparseCore.T d : Thread nD τ) ↦{Transfers.shareTokN fullShare 13} g0)
      ∗ ((v0W).view.loc (SparseCore.T d : Thread nD τ) ↦{Transfers.shareTokN fullShare 12} g0)
      ∗ ((v0W).view.loc (SparseCore.T d : Thread nD τ) ↦{Transfers.shareTokN fullShare 11} g0)
      ∗ ((v0W).view.loc (SparseCore.T d : Thread nD τ) ↦{Transfers.shareTokN fullShare 10} g0)
      ∗ ((v0W).view.loc (SparseCore.T d : Thread nD τ) ↦{Transfers.shareTokN fullShare 9} g0)
      ∗ ((v0W).view.loc (SparseCore.T d : Thread nD τ) ↦{Transfers.shareTokN fullShare 8} g0))

/-- The destination row blocks of the pool array, each by its own elements, at the one contents `g`. -/
def DSTS (g : Buf (Elt F) ((SparseCore.T d : Thread nD τ).loc main_v3)) : sProp 𝕄 :=
  iprop(((dst0).view.loc (SparseCore.T d : Thread nD τ) ↦[(dst0).view.set]{fullShare} g)
      ∗ ((dst1).view.loc (SparseCore.T d : Thread nD τ) ↦[(dst1).view.set]{fullShare} g)
      ∗ ((dst2).view.loc (SparseCore.T d : Thread nD τ) ↦[(dst2).view.set]{fullShare} g)
      ∗ ((dst3).view.loc (SparseCore.T d : Thread nD τ) ↦[(dst3).view.set]{fullShare} g)
      ∗ ((dst4).view.loc (SparseCore.T d : Thread nD τ) ↦[(dst4).view.set]{fullShare} g)
      ∗ ((dst5).view.loc (SparseCore.T d : Thread nD τ) ↦[(dst5).view.set]{fullShare} g)
      ∗ ((dst6).view.loc (SparseCore.T d : Thread nD τ) ↦[(dst6).view.set]{fullShare} g)
      ∗ ((dst7).view.loc (SparseCore.T d : Thread nD τ) ↦[(dst7).view.set]{fullShare} g)
      ∗ ((dst8).view.loc (SparseCore.T d : Thread nD τ) ↦[(dst8).view.set]{fullShare} g)
      ∗ ((dst9).view.loc (SparseCore.T d : Thread nD τ) ↦[(dst9).view.set]{fullShare} g)
      ∗ ((dst10).view.loc (SparseCore.T d : Thread nD τ) ↦[(dst10).view.set]{fullShare} g)
      ∗ ((dst11).view.loc (SparseCore.T d : Thread nD τ) ↦[(dst11).view.set]{fullShare} g)
      ∗ ((dst12).view.loc (SparseCore.T d : Thread nD τ) ↦[(dst12).view.set]{fullShare} g)
      ∗ ((dst13).view.loc (SparseCore.T d : Thread nD τ) ↦[(dst13).view.set]{fullShare} g)
      ∗ ((dst14).view.loc (SparseCore.T d : Thread nD τ) ↦[(dst14).view.set]{fullShare} g)
      ∗ ((dst15).view.loc (SparseCore.T d : Thread nD τ) ↦[(dst15).view.set]{fullShare} g)
      ∗ ((dst16).view.loc (SparseCore.T d : Thread nD τ) ↦[(dst16).view.set]{fullShare} g)
      ∗ ((dst17).view.loc (SparseCore.T d : Thread nD τ) ↦[(dst17).view.set]{fullShare} g)
      ∗ ((dst18).view.loc (SparseCore.T d : Thread nD τ) ↦[(dst18).view.set]{fullShare} g)
      ∗ ((dst19).view.loc (SparseCore.T d : Thread nD τ) ↦[(dst19).view.set]{fullShare} g)
      ∗ ((dst20).view.loc (SparseCore.T d : Thread nD τ) ↦[(dst20).view.set]{fullShare} g)
      ∗ ((dst21).view.loc (SparseCore.T d : Thread nD τ) ↦[(dst21).view.set]{fullShare} g)
      ∗ emp)

/-- The slots of the staging scratch, each by its own elements, at the one contents `fs`. -/
def SLOTS (fs : Buf (Elt F) ((SparseCore.T d : Thread nD τ).loc cc1_scratch0)) : sProp 𝕄 :=
  iprop(((slot0).view.loc (SparseCore.T d : Thread nD τ) ↦[(slot0).view.set]{fullShare} fs)
      ∗ ((slot1).view.loc (SparseCore.T d : Thread nD τ) ↦[(slot1).view.set]{fullShare} fs)
      ∗ ((slot2).view.loc (SparseCore.T d : Thread nD τ) ↦[(slot2).view.set]{fullShare} fs)
      ∗ ((slot3).view.loc (SparseCore.T d : Thread nD τ) ↦[(slot3).view.set]{fullShare} fs)
      ∗ ((slot4).view.loc (SparseCore.T d : Thread nD τ) ↦[(slot4).view.set]{fullShare} fs)
      ∗ ((slot5).view.loc (SparseCore.T d : Thread nD τ) ↦[(slot5).view.set]{fullShare} fs)
      ∗ ((slot6).view.loc (SparseCore.T d : Thread nD τ) ↦[(slot6).view.set]{fullShare} fs)
      ∗ ((slot7).view.loc (SparseCore.T d : Thread nD τ) ↦[(slot7).view.set]{fullShare} fs)
      ∗ emp)

/-- The slots, each at some contents. -/
def SLOTSX : sProp 𝕄 :=
  iprop((∃ f, (slot0).view.loc (SparseCore.T d : Thread nD τ) ↦[(slot0).view.set]{fullShare} f)
      ∗ (∃ f, (slot1).view.loc (SparseCore.T d : Thread nD τ) ↦[(slot1).view.set]{fullShare} f)
      ∗ (∃ f, (slot2).view.loc (SparseCore.T d : Thread nD τ) ↦[(slot2).view.set]{fullShare} f)
      ∗ (∃ f, (slot3).view.loc (SparseCore.T d : Thread nD τ) ↦[(slot3).view.set]{fullShare} f)
      ∗ (∃ f, (slot4).view.loc (SparseCore.T d : Thread nD τ) ↦[(slot4).view.set]{fullShare} f)
      ∗ (∃ f, (slot5).view.loc (SparseCore.T d : Thread nD τ) ↦[(slot5).view.set]{fullShare} f)
      ∗ (∃ f, (slot6).view.loc (SparseCore.T d : Thread nD τ) ↦[(slot6).view.set]{fullShare} f)
      ∗ (∃ f, (slot7).view.loc (SparseCore.T d : Thread nD τ) ↦[(slot7).view.set]{fullShare} f)
      ∗ emp)

/-- The 16 transfer semaphores at zero. -/
def SEMS : sProp 𝕄 :=
  iprop(semVal ((SparseCore.T d : Thread nD τ), SemLoc.dma ⟨8, by decide⟩) 0
      ∗ semVal ((SparseCore.T d : Thread nD τ), SemLoc.dma ⟨9, by decide⟩) 0
      ∗ semVal ((SparseCore.T d : Thread nD τ), SemLoc.dma ⟨10, by decide⟩) 0
      ∗ semVal ((SparseCore.T d : Thread nD τ), SemLoc.dma ⟨11, by decide⟩) 0
      ∗ semVal ((SparseCore.T d : Thread nD τ), SemLoc.dma ⟨12, by decide⟩) 0
      ∗ semVal ((SparseCore.T d : Thread nD τ), SemLoc.dma ⟨13, by decide⟩) 0
      ∗ semVal ((SparseCore.T d : Thread nD τ), SemLoc.dma ⟨14, by decide⟩) 0
      ∗ semVal ((SparseCore.T d : Thread nD τ), SemLoc.dma ⟨15, by decide⟩) 0
      ∗ semVal ((SparseCore.T d : Thread nD τ), SemLoc.dma ⟨16, by decide⟩) 0
      ∗ semVal ((SparseCore.T d : Thread nD τ), SemLoc.dma ⟨17, by decide⟩) 0
      ∗ semVal ((SparseCore.T d : Thread nD τ), SemLoc.dma ⟨18, by decide⟩) 0
      ∗ semVal ((SparseCore.T d : Thread nD τ), SemLoc.dma ⟨19, by decide⟩) 0
      ∗ semVal ((SparseCore.T d : Thread nD τ), SemLoc.dma ⟨20, by decide⟩) 0
      ∗ semVal ((SparseCore.T d : Thread nD τ), SemLoc.dma ⟨21, by decide⟩) 0
      ∗ semVal ((SparseCore.T d : Thread nD τ), SemLoc.dma ⟨22, by decide⟩) 0
      ∗ semVal ((SparseCore.T d : Thread nD τ), SemLoc.dma ⟨23, by decide⟩) 0)

end Groups

end Cert.Kernel.KP

end
-- ==== Proof.KTcBodyB2.lean ====
/-
  The scatter kernel's body, run once on the TensorCore: from the batch array held as one read share per read
  semaphore, the 22 destination row blocks of the pool array and the 8 slots of the staging scratch each held apart, and
  the 16 transfer semaphores at zero, every copy is issued on the semaphore of its slot and waited for before that
  semaphore is used again; at the end each destination block holds the returned pool's values.
-/
import proofs.«209156_g27831388078850_cont_9to1_824_17_alg».proof.Proof.KTcBodyB1
import Idealize.ShloMosaic.Lib.Transfers

set_option quotPrecheck false

noncomputable section

namespace Cert.Kernel.KP

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Cert.Spec

variable {F : FTy → Type}

local notation "𝕄" => MT nD τ sig (HIx 1) (Elt F) ℕ UU ℕ

local notation "dst0" => ((Memref.whole main_v3).slice (Rect.unit (s := S196608x128) ![127488, 0] S1536x128.size inb_S196608x128_S1536x128_127488_0) (fun _ => rfl))
local notation "dst1" => ((Memref.whole main_v3).slice (Rect.unit (s := S196608x128) ![99840, 0] S1536x128.size inb_S196608x128_S1536x128_99840_0) (fun _ => rfl))
local notation "dst2" => ((Memref.whole main_v3).slice (Rect.unit (s := S196608x128) ![112128, 0] S1536x128.size inb_S196608x128_S1536x128_112128_0) (fun _ => rfl))
local notation "dst3" => ((Memref.whole main_v3).slice (Rect.unit (s := S196608x128) ![119808, 0] S1536x128.size inb_S196608x128_S1536x128_119808_0) (fun _ => rfl))
local notation "dst4" => ((Memref.whole main_v3).slice (Rect.unit (s := S196608x128) ![49152, 0] S1536x128.size inb_S196608x128_S1536x128_49152_0) (fun _ => rfl))
local notation "dst5" => ((Memref.whole main_v3).slice (Rect.unit (s := S196608x128) ![23040, 0] S1536x128.size inb_S196608x128_S1536x128_23040_0) (fun _ => rfl))
local notation "dst6" => ((Memref.whole main_v3).slice (Rect.unit (s := S196608x128) ![73728, 0] S1536x128.size inb_S196608x128_S1536x128_73728_0) (fun _ => rfl))
local notation "dst7" => ((Memref.whole main_v3).slice (Rect.unit (s := S196608x128) ![130560, 0] S1536x128.size inb_S196608x128_S1536x128_130560_0) (fun _ => rfl))
local notation "dst8" => ((Memref.whole main_v3).slice (Rect.unit (s := S196608x128) ![38400, 0] S1536x128.size inb_S196608x128_S1536x128_38400_0) (fun _ => rfl))
local notation "dst9" => ((Memref.whole main_v3).slice (Rect.unit (s := S196608x128) ![178176, 0] S1536x128.size inb_S196608x128_S1536x128_178176_0) (fun _ => rfl))
local notation "dst10" => ((Memref.whole main_v3).slice (Rect.unit (s := S196608x128) ![167424, 0] S1536x128.size inb_S196608x128_S1536x128_167424_0) (fun _ => rfl))
local notation "dst11" => ((Memref.whole main_v3).slice (Rect.unit (s := S196608x128) ![118272, 0] S1536x128.size inb_S196608x128_S1536x128_118272_0) (fun _ => rfl))
local notation "dst12" => ((Memref.whole main_v3).slice (Rect.unit (s := S196608x128) ![43008, 0] S1536x128.size inb_S196608x128_S1536x128_43008_0) (fun _ => rfl))
local notation "dst13" => ((Memref.whole main_v3).slice (Rect.unit (s := S196608x128) ![142848, 0] S1536x128.size inb_S196608x128_S1536x128_142848_0) (fun _ => rfl))
local notation "dst14" => ((Memref.whole main_v3).slice (Rect.unit (s := S196608x128) ![0, 0] S1536x128.size inb_S196608x128_S1536x128_0_0) (fun _ => rfl))
local notation "dst15" => ((Memref.whole main_v3).slice (Rect.unit (s := S196608x128) ![75264, 0] S1536x128.size inb_S196608x128_S1536x128_75264_0) (fun _ => rfl))
local notation "dst16" => ((Memref.whole main_v3).slice (Rect.unit (s := S196608x128) ![105984, 0] S1536x128.size inb_S196608x128_S1536x128_105984_0) (fun _ => rfl))
local notation "dst17" => ((Memref.whole main_v3).slice (Rect.unit (s := S196608x128) ![133632, 0] S1536x128.size inb_S196608x128_S1536x128_133632_0) (fun _ => rfl))
local notation "dst18" => ((Memref.whole main_v3).slice (Rect.unit (s := S196608x128) ![136704, 0] S1536x128.size inb_S196608x128_S1536x128_136704_0) (fun _ => rfl))
local notation "dst19" => ((Memref.whole main_v3).slice (Rect.unit (s := S196608x128) ![159744, 0] S1536x128.size inb_S196608x128_S1536x128_159744_0) (fun _ => rfl))
local notation "dst20" => ((Memref.whole main_v3).slice (Rect.unit (s := S196608x128) ![115200, 0] S1536x128.size inb_S196608x128_S1536x128_115200_0) (fun _ => rfl))
local notation "dst21" => ((Memref.whole main_v3).slice (Rect.unit (s := S196608x128) ![138240, 0] S1536x128.size inb_S196608x128_S1536x128_138240_0) (fun _ => rfl))
local notation "v0W" => (Memref.whole main_v0 : Memref sig Kind.tc Space.hbm S49152x128 EltTy.f32)
local notation "v3W" => (Memref.whole main_v3 : Memref sig Kind.tc Space.hbm S196608x128 EltTy.f32)
local notation "scW" => (Memref.whole cc1_scratch0 : Memref sig Kind.tc Space.vmem S8x1536x128 EltTy.f32)

variable [FloatOps F]

/-- A wait at the kernels' index adds a pair the bound allows. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

variable (d : Dev nD)

/-- The destination row blocks, each at some contents that are the returned pool's on the block. -/
def DSTSV (g0 : Buf (Elt F) ((SparseCore.T d : Thread nD τ).loc main_v0)) (g3 : Buf (Elt F) ((SparseCore.T d : Thread nD τ).loc main_v3)) : sProp 𝕄 :=
  iprop((∃ f, ((dst0).view.loc (SparseCore.T d : Thread nD τ) ↦[(dst0).view.set]{fullShare} f) ∗ ⌜∀ j ∈ (dst0).view.set, f j = Cert.Spec.outPool2 (α := Elt F .f32) g0 g3 j⌝)
      ∗ (∃ f, ((dst1).view.loc (SparseCore.T d : Thread nD τ) ↦[(dst1).view.set]{fullShare} f) ∗ ⌜∀ j ∈ (dst1).view.set, f j = Cert.Spec.outPool2 (α := Elt F .f32) g0 g3 j⌝)
      ∗ (∃ f, ((dst2).view.loc (SparseCore.T d : Thread nD τ) ↦[(dst2).view.set]{fullShare} f) ∗ ⌜∀ j ∈ (dst2).view.set, f j = Cert.Spec.outPool2 (α := Elt F .f32) g0 g3 j⌝)
      ∗ (∃ f, ((dst3).view.loc (SparseCore.T d : Thread nD τ) ↦[(dst3).view.set]{fullShare} f) ∗ ⌜∀ j ∈ (dst3).view.set, f j = Cert.Spec.outPool2 (α := Elt F .f32) g0 g3 j⌝)
      ∗ (∃ f, ((dst4).view.loc (SparseCore.T d : Thread nD τ) ↦[(dst4).view.set]{fullShare} f) ∗ ⌜∀ j ∈ (dst4).view.set, f j = Cert.Spec.outPool2 (α := Elt F .f32) g0 g3 j⌝)
      ∗ (∃ f, ((dst5).view.loc (SparseCore.T d : Thread nD τ) ↦[(dst5).view.set]{fullShare} f) ∗ ⌜∀ j ∈ (dst5).view.set, f j = Cert.Spec.outPool2 (α := Elt F .f32) g0 g3 j⌝)
      ∗ (∃ f, ((dst6).view.loc (SparseCore.T d : Thread nD τ) ↦[(dst6).view.set]{fullShare} f) ∗ ⌜∀ j ∈ (dst6).view.set, f j = Cert.Spec.outPool2 (α := Elt F .f32) g0 g3 j⌝)
      ∗ (∃ f, ((dst7).view.loc (SparseCore.T d : Thread nD τ) ↦[(dst7).view.set]{fullShare} f) ∗ ⌜∀ j ∈ (dst7).view.set, f j = Cert.Spec.outPool2 (α := Elt F .f32) g0 g3 j⌝)
      ∗ (∃ f, ((dst8).view.loc (SparseCore.T d : Thread nD τ) ↦[(dst8).view.set]{fullShare} f) ∗ ⌜∀ j ∈ (dst8).view.set, f j = Cert.Spec.outPool2 (α := Elt F .f32) g0 g3 j⌝)
      ∗ (∃ f, ((dst9).view.loc (SparseCore.T d : Thread nD τ) ↦[(dst9).view.set]{fullShare} f) ∗ ⌜∀ j ∈ (dst9).view.set, f j = Cert.Spec.outPool2 (α := Elt F .f32) g0 g3 j⌝)
      ∗ (∃ f, ((dst10).view.loc (SparseCore.T d : Thread nD τ) ↦[(dst10).view.set]{fullShare} f) ∗ ⌜∀ j ∈ (dst10).view.set, f j = Cert.Spec.outPool2 (α := Elt F .f32) g0 g3 j⌝)
      ∗ (∃ f, ((dst11).view.loc (SparseCore.T d : Thread nD τ) ↦[(dst11).view.set]{fullShare} f) ∗ ⌜∀ j ∈ (dst11).view.set, f j = Cert.Spec.outPool2 (α := Elt F .f32) g0 g3 j⌝)
      ∗ (∃ f, ((dst12).view.loc (SparseCore.T d : Thread nD τ) ↦[(dst12).view.set]{fullShare} f) ∗ ⌜∀ j ∈ (dst12).view.set, f j = Cert.Spec.outPool2 (α := Elt F .f32) g0 g3 j⌝)
      ∗ (∃ f, ((dst13).view.loc (SparseCore.T d : Thread nD τ) ↦[(dst13).view.set]{fullShare} f) ∗ ⌜∀ j ∈ (dst13).view.set, f j = Cert.Spec.outPool2 (α := Elt F .f32) g0 g3 j⌝)
      ∗ (∃ f, ((dst14).view.loc (SparseCore.T d : Thread nD τ) ↦[(dst14).view.set]{fullShare} f) ∗ ⌜∀ j ∈ (dst14).view.set, f j = Cert.Spec.outPool2 (α := Elt F .f32) g0 g3 j⌝)
      ∗ (∃ f, ((dst15).view.loc (SparseCore.T d : Thread nD τ) ↦[(dst15).view.set]{fullShare} f) ∗ ⌜∀ j ∈ (dst15).view.set, f j = Cert.Spec.outPool2 (α := Elt F .f32) g0 g3 j⌝)
      ∗ (∃ f, ((dst16).view.loc (SparseCore.T d : Thread nD τ) ↦[(dst16).view.set]{fullShare} f) ∗ ⌜∀ j ∈ (dst16).view.set, f j = Cert.Spec.outPool2 (α := Elt F .f32) g0 g3 j⌝)
      ∗ (∃ f, ((dst17).view.loc (SparseCore.T d : Thread nD τ) ↦[(dst17).view.set]{fullShare} f) ∗ ⌜∀ j ∈ (dst17).view.set, f j = Cert.Spec.outPool2 (α := Elt F .f32) g0 g3 j⌝)
      ∗ (∃ f, ((dst18).view.loc (SparseCore.T d : Thread nD τ) ↦[(dst18).view.set]{fullShare} f) ∗ ⌜∀ j ∈ (dst18).view.set, f j = Cert.Spec.outPool2 (α := Elt F .f32) g0 g3 j⌝)
      ∗ (∃ f, ((dst19).view.loc (SparseCore.T d : Thread nD τ) ↦[(dst19).view.set]{fullShare} f) ∗ ⌜∀ j ∈ (dst19).view.set, f j = Cert.Spec.outPool2 (α := Elt F .f32) g0 g3 j⌝)
      ∗ (∃ f, ((dst20).view.loc (SparseCore.T d : Thread nD τ) ↦[(dst20).view.set]{fullShare} f) ∗ ⌜∀ j ∈ (dst20).view.set, f j = Cert.Spec.outPool2 (α := Elt F .f32) g0 g3 j⌝)
      ∗ (∃ f, ((dst21).view.loc (SparseCore.T d : Thread nD τ) ↦[(dst21).view.set]{fullShare} f) ∗ ⌜∀ j ∈ (dst21).view.set, f j = Cert.Spec.outPool2 (α := Elt F .f32) g0 g3 j⌝)
      ∗ emp)

theorem DSTSV_DSTS (g0 : Buf (Elt F) ((SparseCore.T d : Thread nD τ).loc main_v0)) (g3 : Buf (Elt F) ((SparseCore.T d : Thread nD τ).loc main_v3)) :
    DSTSV d g0 g3 ⊢ DSTS d (Cert.Spec.outPool2 (α := Elt F .f32) g0 g3) := by
  unfold DSTSV DSTS
  iintro ⟨⟨%f0, H0, %h0⟩, ⟨%f1, H1, %h1⟩, ⟨%f2, H2, %h2⟩, ⟨%f3, H3, %h3⟩, ⟨%f4, H4, %h4⟩, ⟨%f5, H5, %h5⟩, ⟨%f6, H6, %h6⟩, ⟨%f7, H7, %h7⟩, ⟨%f8, H8, %h8⟩, ⟨%f9, H9, %h9⟩, ⟨%f10, H10, %h10⟩, ⟨%f11, H11, %h11⟩, ⟨%f12, H12, %h12⟩, ⟨%f13, H13, %h13⟩, ⟨%f14, H14, %h14⟩, ⟨%f15, H15, %h15⟩, ⟨%f16, H16, %h16⟩, ⟨%f17, H17, %h17⟩, ⟨%f18, H18, %h18⟩, ⟨%f19, H19, %h19⟩, ⟨%f20, H20, %h20⟩, ⟨%f21, H21, %h21⟩, -⟩
  isplitl [H0]; · iapply (Entails.of_eq (pointsTo_congr h0)); iexact H0
  isplitl [H1]; · iapply (Entails.of_eq (pointsTo_congr h1)); iexact H1
  isplitl [H2]; · iapply (Entails.of_eq (pointsTo_congr h2)); iexact H2
  isplitl [H3]; · iapply (Entails.of_eq (pointsTo_congr h3)); iexact H3
  isplitl [H4]; · iapply (Entails.of_eq (pointsTo_congr h4)); iexact H4
  isplitl [H5]; · iapply (Entails.of_eq (pointsTo_congr h5)); iexact H5
  isplitl [H6]; · iapply (Entails.of_eq (pointsTo_congr h6)); iexact H6
  isplitl [H7]; · iapply (Entails.of_eq (pointsTo_congr h7)); iexact H7
  isplitl [H8]; · iapply (Entails.of_eq (pointsTo_congr h8)); iexact H8
  isplitl [H9]; · iapply (Entails.of_eq (pointsTo_congr h9)); iexact H9
  isplitl [H10]; · iapply (Entails.of_eq (pointsTo_congr h10)); iexact H10
  isplitl [H11]; · iapply (Entails.of_eq (pointsTo_congr h11)); iexact H11
  isplitl [H12]; · iapply (Entails.of_eq (pointsTo_congr h12)); iexact H12
  isplitl [H13]; · iapply (Entails.of_eq (pointsTo_congr h13)); iexact H13
  isplitl [H14]; · iapply (Entails.of_eq (pointsTo_congr h14)); iexact H14
  isplitl [H15]; · iapply (Entails.of_eq (pointsTo_congr h15)); iexact H15
  isplitl [H16]; · iapply (Entails.of_eq (pointsTo_congr h16)); iexact H16
  isplitl [H17]; · iapply (Entails.of_eq (pointsTo_congr h17)); iexact H17
  isplitl [H18]; · iapply (Entails.of_eq (pointsTo_congr h18)); iexact H18
  isplitl [H19]; · iapply (Entails.of_eq (pointsTo_congr h19)); iexact H19
  isplitl [H20]; · iapply (Entails.of_eq (pointsTo_congr h20)); iexact H20
  isplitl [H21]; · iapply (Entails.of_eq (pointsTo_congr h21)); iexact H21
  iempintro

set_option maxHeartbeats 16000000 in
/-- The body's run, each destination block left at the contents the run wrote. -/
theorem tc_body_raw (O : CellTallies nD τ sig (HIx 1)) (W : Waits sig (HIx 1))
    (g0 : Buf (Elt F) ((SparseCore.T d : Thread nD τ).loc main_v0)) (g3 : Buf (Elt F) ((SparseCore.T d : Thread nD τ).loc main_v3)) (fs : Buf (Elt F) ((SparseCore.T d : Thread nD τ).loc cc1_scratch0)) :
    iprop((Transfers.MayWaits (SparseCore.T d : Thread nD τ) (none : HIx 1) O : sProp 𝕄) ∗ TOKS d g0 ∗ DSTS d g3 ∗ SLOTS d fs ∗ SEMS d ∗ owes (SparseCore.T d : Thread nD τ) O W)
      ⊢ wp frame (wpE (defs₀ (F := F)) 𝒱₀ (SparseCore.T d : Thread nD τ) none) Set.univ
          (cc1__tc_scatter_body v0W (Memref.isWhole_whole _) v3W (Memref.isWhole_whole _) v3W (Memref.isWhole_whole _) scW (Memref.isWhole_whole _) cc1_scratch1 cc1_scratch2)
          fun _ => iprop(TOKS d g0 ∗ DSTSV d g0 g3 ∗ SLOTSX d ∗ SEMS d
            ∗ ∃ W', ⌜∀ p ∈ W', p ∈ W ∨ p.2 = none⌝ ∗ owes (SparseCore.T d : Thread nD τ) O W') := by
  unfold TOKS DSTS DSTSV SLOTS SLOTSX SEMS
  rw [cc1__tc_scatter_body_eq_skeleton]; unfold cc1__tc_scatter_body_skel
  iintro ⟨#Hmw, ⟨Hk7, Hk6, Hk5, Hk4, Hk3, Hk2, Hk1, Hk0⟩, ⟨Hd0, Hd1, Hd2, Hd3, Hd4, Hd5, Hd6, Hd7, Hd8, Hd9, Hd10, Hd11, Hd12, Hd13, Hd14, Hd15, Hd16, Hd17, Hd18, Hd19, Hd20, Hd21, -⟩, ⟨Hs0, Hs1, Hs2, Hs3, Hs4, Hs5, Hs6, Hs7, -⟩, ⟨Hc0, Hc1, Hc2, Hc3, Hc4, Hc5, Hc6, Hc7, Hc8, Hc9, Hc10, Hc11, Hc12, Hc13, Hc14, Hc15⟩, HO⟩
  sl_exec_parts
  sl_step
  isplitl [Hk0 Hk1 Hk2 Hk3 Hk4 Hk5 Hk6 Hk7]
  · isplitl [Hk7]; · iexact Hk7
    isplitl [Hk6]; · iexact Hk6
    isplitl [Hk5]; · iexact Hk5
    isplitl [Hk4]; · iexact Hk4
    isplitl [Hk3]; · iexact Hk3
    isplitl [Hk2]; · iexact Hk2
    isplitl [Hk1]; · iexact Hk1
    iexact Hk0
  isplitl [Hd0 Hd1 Hd2 Hd3 Hd4 Hd5 Hd6 Hd7 Hd8 Hd9 Hd10 Hd11 Hd12 Hd13 Hd14 Hd15 Hd16 Hd17 Hd18 Hd19 Hd20 Hd21]
  · isplitl [Hd0]
    · iexists _
      isplitl [Hd0]; · iexact Hd0
      ipureintro
      intro j hj
      sl_unfold_run_names
      exact block_value (0 : Fin 32) (by decide) 127488 0 (by decide) (by decide) _ _ _ _ _ g0 g3 j hj
    isplitl [Hd1]
    · iexists _
      isplitl [Hd1]; · iexact Hd1
      ipureintro
      intro j hj
      sl_unfold_run_names
      exact block_value (2 : Fin 32) (by decide) 99840 3072 (by decide) (by decide) _ _ _ _ _ g0 g3 j hj
    isplitl [Hd2]
    · iexists _
      isplitl [Hd2]; · iexact Hd2
      ipureintro
      intro j hj
      sl_unfold_run_names
      exact block_value (3 : Fin 32) (by decide) 112128 4608 (by decide) (by decide) _ _ _ _ _ g0 g3 j hj
    isplitl [Hd3]
    · iexists _
      isplitl [Hd3]; · iexact Hd3
      ipureintro
      intro j hj
      sl_unfold_run_names
      exact block_value (4 : Fin 32) (by decide) 119808 6144 (by decide) (by decide) _ _ _ _ _ g0 g3 j hj
    isplitl [Hd4]
    · iexists _
      isplitl [Hd4]; · iexact Hd4
      ipureintro
      intro j hj
      sl_unfold_run_names
      exact block_value (5 : Fin 32) (by decide) 49152 7680 (by decide) (by decide) _ _ _ _ _ g0 g3 j hj
    isplitl [Hd5]
    · iexists _
      isplitl [Hd5]; · iexact Hd5
      ipureintro
      intro j hj
      sl_unfold_run_names
      exact block_value (6 : Fin 32) (by decide) 23040 9216 (by decide) (by decide) _ _ _ _ _ g0 g3 j hj
    isplitl [Hd6]
    · iexists _
      isplitl [Hd6]; · iexact Hd6
      ipureintro
      intro j hj
      sl_unfold_run_names
      exact block_value (9 : Fin 32) (by decide) 73728 13824 (by decide) (by decide) _ _ _ _ _ g0 g3 j hj
    isplitl [Hd7]
    · iexists _
      isplitl [Hd7]; · iexact Hd7
      ipureintro
      intro j hj
      sl_unfold_run_names
      exact block_value (10 : Fin 32) (by decide) 130560 15360 (by decide) (by decide) _ _ _ _ _ g0 g3 j hj
    isplitl [Hd8]
    · iexists _
      isplitl [Hd8]; · iexact Hd8
      ipureintro
      intro j hj
      sl_unfold_run_names
      exact block_value (11 : Fin 32) (by decide) 38400 16896 (by decide) (by decide) _ _ _ _ _ g0 g3 j hj
    isplitl [Hd9]
    · iexists _
      isplitl [Hd9]; · iexact Hd9
      ipureintro
      intro j hj
      sl_unfold_run_names
      exact block_value (12 : Fin 32) (by decide) 178176 18432 (by decide) (by decide) _ _ _ _ _ g0 g3 j hj
    isplitl [Hd10]
    · iexists _
      isplitl [Hd10]; · iexact Hd10
      ipureintro
      intro j hj
      sl_unfold_run_names
      exact block_value (13 : Fin 32) (by decide) 167424 19968 (by decide) (by decide) _ _ _ _ _ g0 g3 j hj
    isplitl [Hd11]
    · iexists _
      isplitl [Hd11]; · iexact Hd11
      ipureintro
      intro j hj
      sl_unfold_run_names
      exact block_value (16 : Fin 32) (by decide) 118272 24576 (by decide) (by decide) _ _ _ _ _ g0 g3 j hj
    isplitl [Hd12]
    · iexists _
      isplitl [Hd12]; · iexact Hd12
      ipureintro
      intro j hj
      sl_unfold_run_names
      exact block_value (17 : Fin 32) (by decide) 43008 26112 (by decide) (by decide) _ _ _ _ _ g0 g3 j hj
    isplitl [Hd13]
    · iexists _
      isplitl [Hd13]; · iexact Hd13
      ipureintro
      intro j hj
      sl_unfold_run_names
      exact block_value (19 : Fin 32) (by decide) 142848 29184 (by decide) (by decide) _ _ _ _ _ g0 g3 j hj
    isplitl [Hd14]
    · iexists _
      isplitl [Hd14]; · iexact Hd14
      ipureintro
      intro j hj
      sl_unfold_run_names
      exact block_value (21 : Fin 32) (by decide) 0 32256 (by decide) (by decide) _ _ _ _ _ g0 g3 j hj
    isplitl [Hd15]
    · iexists _
      isplitl [Hd15]; · iexact Hd15
      ipureintro
      intro j hj
      sl_unfold_run_names
      exact block_value (23 : Fin 32) (by decide) 75264 35328 (by decide) (by decide) _ _ _ _ _ g0 g3 j hj
    isplitl [Hd16]
    · iexists _
      isplitl [Hd16]; · iexact Hd16
      ipureintro
      intro j hj
      sl_unfold_run_names
      exact block_value (24 : Fin 32) (by decide) 105984 36864 (by decide) (by decide) _ _ _ _ _ g0 g3 j hj
    isplitl [Hd17]
    · iexists _
      isplitl [Hd17]; · iexact Hd17
      ipureintro
      intro j hj
      sl_unfold_run_names
      exact block_value (25 : Fin 32) (by decide) 133632 38400 (by decide) (by decide) _ _ _ _ _ g0 g3 j hj
    isplitl [Hd18]
    · iexists _
      isplitl [Hd18]; · iexact Hd18
      ipureintro
      intro j hj
      sl_unfold_run_names
      exact block_value (26 : Fin 32) (by decide) 136704 39936 (by decide) (by decide) _ _ _ _ _ g0 g3 j hj
    isplitl [Hd19]
    · iexists _
      isplitl [Hd19]; · iexact Hd19
      ipureintro
      intro j hj
      sl_unfold_run_names
      exact block_value (27 : Fin 32) (by decide) 159744 41472 (by decide) (by decide) _ _ _ _ _ g0 g3 j hj
    isplitl [Hd20]
    · iexists _
      isplitl [Hd20]; · iexact Hd20
      ipureintro
      intro j hj
      sl_unfold_run_names
      exact block_value (28 : Fin 32) (by decide) 115200 43008 (by decide) (by decide) _ _ _ _ _ g0 g3 j hj
    isplitl [Hd21]
    · iexists _
      isplitl [Hd21]; · iexact Hd21
      ipureintro
      intro j hj
      sl_unfold_run_names
      exact block_value (30 : Fin 32) (by decide) 138240 46080 (by decide) (by decide) _ _ _ _ _ g0 g3 j hj
    iempintro
  isplitl [Hs0 Hs1 Hs2 Hs3 Hs4 Hs5 Hs6 Hs7]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    iempintro
  isplitl [Hc0 Hc1 Hc2 Hc3 Hc4 Hc5 Hc6 Hc7 Hc8 Hc9 Hc10 Hc11 Hc12 Hc13 Hc14 Hc15]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    iexact Hc15
  iexists _
  isplitr
  rotate_left
  · iexact HO
  · ipureintro
    repeat (refine waits_insert _ ?_)
    exact fun p hp => .inl hp

/-- The body's run: each destination block at the returned pool. -/
theorem tc_body (O : CellTallies nD τ sig (HIx 1)) (W : Waits sig (HIx 1))
    (g0 : Buf (Elt F) ((SparseCore.T d : Thread nD τ).loc main_v0)) (g3 : Buf (Elt F) ((SparseCore.T d : Thread nD τ).loc main_v3)) (fs : Buf (Elt F) ((SparseCore.T d : Thread nD τ).loc cc1_scratch0)) :
    iprop((Transfers.MayWaits (SparseCore.T d : Thread nD τ) (none : HIx 1) O : sProp 𝕄) ∗ TOKS d g0 ∗ DSTS d g3 ∗ SLOTS d fs ∗ SEMS d ∗ owes (SparseCore.T d : Thread nD τ) O W)
      ⊢ wp frame (wpE (defs₀ (F := F)) 𝒱₀ (SparseCore.T d : Thread nD τ) none) Set.univ
          (cc1__tc_scatter_body v0W (Memref.isWhole_whole _) v3W (Memref.isWhole_whole _) v3W (Memref.isWhole_whole _) scW (Memref.isWhole_whole _) cc1_scratch1 cc1_scratch2)
          fun _ => iprop(TOKS d g0 ∗ DSTS d (Cert.Spec.outPool2 (α := Elt F .f32) g0 g3) ∗ SLOTSX d ∗ SEMS d
            ∗ ∃ W', ⌜∀ p ∈ W', p ∈ W ∨ p.2 = none⌝ ∗ owes (SparseCore.T d : Thread nD τ) O W') := by
  refine (tc_body_raw d O W g0 g3 fs).trans (wp_mono frame _ _ fun _ => ?_)
  iintro ⟨Ht, Hd, Hs, Hc, HO⟩
  isplitl [Ht]; · iexact Ht
  isplitl [Hd]; · iapply (DSTSV_DSTS d g0 g3); iexact Hd
  isplitl [Hs]; · iexact Hs
  isplitl [Hc]; · iexact Hc
  iexact HO

end Cert.Kernel.KP

end
-- ==== Proof.KTcSplitB.lean ====
/-
  The scatter kernel's groups of resources against the arrays held whole: the batch array's read share as eight read
  tokens and what is left; the pool array as its destination row blocks and the rows outside them, where the returned
  pool is the pool; the staging scratch as its slots and back; the sixteen transfer semaphores one by one.
-/
import proofs.«209156_g27831388078850_cont_9to1_824_17_alg».proof.Proof.KTcBodyB1
import proofs.«209156_g27831388078850_cont_9to1_824_17_alg».proof.Proof.KTcDatB
import Idealize.ShloMosaic.Lib.Transfers

noncomputable section

namespace Cert.Kernel.KP

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Cert.Spec

variable {F : FTy → Type}

local notation "𝕄" => MT nD τ sig (HIx 1) (Elt F) ℕ UU ℕ

/-! ## Pieces each at some contents, joined -/

section PiecesX

variable {ℓ : Loc nD τ sig}

/-- The sets of the list, each held at some contents. -/
def piecesX (q : PosShare TreeShare) : List (Finset (Idx ℓ)) → sProp 𝕄
  | [] => iprop(emp)
  | I :: L => iprop((∃ f : Buf (Elt F) ℓ, ℓ ↦[I]{q} f) ∗ piecesX q L)

/-- Pairwise disjoint subsets of `S`, each at some contents, and the rest of `S` at some contents are `S` at some contents. -/
theorem join_pieces (q : PosShare TreeShare) :
    ∀ (L : List (Finset (Idx ℓ))) (S : Finset (Idx ℓ)), (∀ I ∈ L, I ⊆ S) → L.Pairwise Disjoint →
      (iprop(piecesX (F := F) q L ∗ ∃ f : Buf (Elt F) ℓ, ℓ ↦[restOf S L]{q} f) ⊢ (iprop(∃ f : Buf (Elt F) ℓ, ℓ ↦[S]{q} f) : sProp 𝕄))
  | [], S, _, _ => by
    show iprop(emp ∗ ∃ f : Buf (Elt F) ℓ, ℓ ↦[S]{q} f) ⊢ (iprop(∃ f : Buf (Elt F) ℓ, ℓ ↦[S]{q} f) : sProp 𝕄)
    iintro ⟨-, H⟩; iexact H
  | I :: L, S, hS, hd => by
    have hI : I ⊆ S := hS I List.mem_cons_self
    have ih := join_pieces q L (S \ I)
      (fun J hJ => Finset.subset_sdiff.mpr ⟨hS J (List.mem_cons_of_mem _ hJ), (List.rel_of_pairwise_cons hd hJ).symm⟩)
      (List.Pairwise.of_cons hd)
    show iprop(((∃ f : Buf (Elt F) ℓ, ℓ ↦[I]{q} f) ∗ piecesX (F := F) q L) ∗ ∃ f : Buf (Elt F) ℓ, ℓ ↦[restOf (S \ I) L]{q} f)
      ⊢ (iprop(∃ f : Buf (Elt F) ℓ, ℓ ↦[S]{q} f) : sProp 𝕄)
    iintro ⟨⟨⟨%g, HI⟩, HP⟩, HR⟩
    ihave H2 := ih $$ [HP HR]
    · isplitl [HP]; · iexact HP
      iexact HR
    icases H2 with ⟨%f, HR⟩
    ihave H3 := (pointsTo_join_subset (g := g) (f := f) hI) $$ [HI HR]
    · isplitl [HI]; · iexact HI
      iexact HR
    iexists _; iexact H3

/-- A chain of pieces, read one element set at a time. -/
theorem piecesAt_cons_eq {q : PosShare TreeShare} {f : Buf (Elt F) ℓ} {I I' : Finset (Idx ℓ)} {R : sProp 𝕄} {L : List (Finset (Idx ℓ))}
    (hI : I' = I) (hR : R = piecesAt (F := F) q f L) : iprop((ℓ ↦[I']{q} f) ∗ R) = piecesAt (F := F) q f (I :: L) := by
  subst hI hR; rfl

theorem piecesX_cons_eq {q : PosShare TreeShare} {I I' : Finset (Idx ℓ)} {R : sProp 𝕄} {L : List (Finset (Idx ℓ))}
    (hI : I' = I) (hR : R = piecesX (F := F) q L) : iprop((∃ f : Buf (Elt F) ℓ, ℓ ↦[I']{q} f) ∗ R) = piecesX (F := F) q (I :: L) := by
  subst hI hR; rfl

end PiecesX

section Split

variable (d : Dev nD)

/-! ## The batch array's read share -/

/-- What is left of the batch array's share beside the kernel's eight read tokens. -/
def V0REST (g0 : Buf (Elt F) ((SparseCore.T d : Thread nD τ).loc main_v0)) : sProp 𝕄 :=
  iprop((((SparseCore.T d : Thread nD τ).loc main_v0) ↦{Transfers.shareDrop fullShare 16} g0)
    ∗ bigSep (Finset.range 8) fun i => ((SparseCore.T d : Thread nD τ).loc main_v0) ↦{Transfers.shareTokN fullShare i} g0)

theorem range16 : Finset.range 16 = insert 15 (insert 14 (insert 13 (insert 12 (insert 11 (insert 10 (insert 9 (insert 8 (Finset.range 8)))))))) := by decide

theorem v0_split (g0 : Buf (Elt F) ((SparseCore.T d : Thread nD τ).loc main_v0)) :
    (((SparseCore.T d : Thread nD τ).loc main_v0) ↦{fullShare} g0 : sProp 𝕄) ⊣⊢ iprop(TOKS d g0 ∗ V0REST d g0) := by
  have h := Transfers.pointsTo_toks_range (Ix := HIx 1) (Name := ℕ) (U := UU) (Lvl := ℕ) (ℓ := ((SparseCore.T d : Thread nD τ).loc main_v0)) (S := Finset.univ) (f := g0) fullShare 16
  rw [range16, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide)] at h
  unfold TOKS V0REST
  constructor
  · refine h.1.trans ?_
    iintro ⟨Hd, H15, H14, H13, H12, H11, H10, H9, H8, Hr⟩
    isplitl [H15 H14 H13 H12 H11 H10 H9 H8]
    · isplitl [H15]; · iexact H15
      isplitl [H14]; · iexact H14
      isplitl [H13]; · iexact H13
      isplitl [H12]; · iexact H12
      isplitl [H11]; · iexact H11
      isplitl [H10]; · iexact H10
      isplitl [H9]; · iexact H9
      iexact H8
    · isplitl [Hd]; · iexact Hd
      iexact Hr
  · refine BIBase.Entails.trans ?_ h.2
    iintro ⟨⟨H15, H14, H13, H12, H11, H10, H9, H8⟩, Hd, Hr⟩
    isplitl [Hd]; · iexact Hd
    isplitl [H15]; · iexact H15
    isplitl [H14]; · iexact H14
    isplitl [H13]; · iexact H13
    isplitl [H12]; · iexact H12
    isplitl [H11]; · iexact H11
    isplitl [H10]; · iexact H10
    isplitl [H9]; · iexact H9
    isplitl [H8]; · iexact H8
    iexact Hr

/-! ## The pool array: the destination row blocks and the other rows -/

/-- The destination row blocks' element sets, in the kernel's order. -/
def dsets : List (Finset (Idx ((SparseCore.T d : Thread nD τ).loc main_v3))) := offsD.map dsetN

theorem offsD_apart : List.Pairwise (fun o o' : ℕ => o + 1536 ≤ o' ∨ o' + 1536 ≤ o) offsD := by decide

theorem dsets_disjoint : (dsets d).Pairwise Disjoint :=
  List.Pairwise.map dsetN (fun _ _ h => dsetN_disjoint h) offsD_apart

set_option maxHeartbeats 4000000 in
set_option maxRecDepth 65536 in
theorem DSTS_eq (g : Buf (Elt F) ((SparseCore.T d : Thread nD τ).loc main_v3)) : DSTS d g = piecesAt (F := F) fullShare g (dsets d) := by
  unfold DSTS
  exact piecesAt_cons_eq (dstM_set 127488 _) (piecesAt_cons_eq (dstM_set 99840 _) (piecesAt_cons_eq (dstM_set 112128 _) (piecesAt_cons_eq (dstM_set 119808 _) (piecesAt_cons_eq (dstM_set 49152 _) (piecesAt_cons_eq (dstM_set 23040 _) (piecesAt_cons_eq (dstM_set 73728 _) (piecesAt_cons_eq (dstM_set 130560 _) (piecesAt_cons_eq (dstM_set 38400 _) (piecesAt_cons_eq (dstM_set 178176 _) (piecesAt_cons_eq (dstM_set 167424 _) (piecesAt_cons_eq (dstM_set 118272 _) (piecesAt_cons_eq (dstM_set 43008 _) (piecesAt_cons_eq (dstM_set 142848 _) (piecesAt_cons_eq (dstM_set 0 _) (piecesAt_cons_eq (dstM_set 75264 _) (piecesAt_cons_eq (dstM_set 105984 _) (piecesAt_cons_eq (dstM_set 133632 _) (piecesAt_cons_eq (dstM_set 136704 _) (piecesAt_cons_eq (dstM_set 159744 _) (piecesAt_cons_eq (dstM_set 115200 _) (piecesAt_cons_eq (dstM_set 138240 _) (rfl))))))))))))))))))))))

theorem v3_split (g : Buf (Elt F) ((SparseCore.T d : Thread nD τ).loc main_v3)) :
    (((SparseCore.T d : Thread nD τ).loc main_v3) ↦{fullShare} g : sProp 𝕄) ⊣⊢ iprop(DSTS d g ∗ ((SparseCore.T d : Thread nD τ).loc main_v3) ↦[restOf Finset.univ (dsets d)]{fullShare} g) := by
  rw [DSTS_eq]
  exact pointsTo_pieces (F := F) fullShare g (dsets d) Finset.univ (fun I _ => Finset.subset_univ I) (dsets_disjoint d)

theorem index_offs : ∀ b : Fin 32, Cert.Spec.prob b = true → 1536 * (Cert.Spec.index b).val ∈ offsD := by decide

/-- Outside the destination row blocks the returned pool is the pool. -/
theorem v3_rest_value (g0 : S49152x128.Idx → Elt F .f32) (g3 : S196608x128.Idx → Elt F .f32) :
    ∀ j ∈ restOf (ℓ := ((SparseCore.T d : Thread nD τ).loc main_v3)) Finset.univ (dsets d), g3 j = Cert.Spec.outPool2 (α := Elt F .f32) g0 g3 j := by
  intro j hj
  obtain ⟨-, hn⟩ := mem_restOf.mp hj
  refine (outPool2_rest g0 g3 j fun b hb hcon => ?_).symm
  refine hn (dsetN (1536 * (Cert.Spec.index b).val)) (List.mem_map_of_mem (index_offs b hb)) ?_
  simp only [dsetN, Finset.mem_filter, Finset.mem_univ, true_and]
  exact hcon

/-! ## The staging scratch and its slots -/

/-- The slots' element sets. -/
def ssets : List (Finset (Idx ((SparseCore.T d : Thread nD τ).loc cc1_scratch0))) := (List.range 8).map ssetN

theorem ssets_disjoint : (ssets d).Pairwise Disjoint :=
  List.Pairwise.map ssetN (fun _ _ h => ssetN_disjoint h) (List.nodup_range (n := 8))

set_option maxHeartbeats 4000000 in
set_option maxRecDepth 65536 in
theorem SLOTS_eq (fs : Buf (Elt F) ((SparseCore.T d : Thread nD τ).loc cc1_scratch0)) : SLOTS d fs = piecesAt (F := F) fullShare fs (ssets d) := by
  unfold SLOTS
  exact piecesAt_cons_eq (slotM_set 0 _) (piecesAt_cons_eq (slotM_set 1 _) (piecesAt_cons_eq (slotM_set 2 _) (piecesAt_cons_eq (slotM_set 3 _) (piecesAt_cons_eq (slotM_set 4 _) (piecesAt_cons_eq (slotM_set 5 _) (piecesAt_cons_eq (slotM_set 6 _) (piecesAt_cons_eq (slotM_set 7 _) (rfl))))))))

set_option maxHeartbeats 4000000 in
set_option maxRecDepth 65536 in
theorem SLOTSX_eq : (SLOTSX d : sProp 𝕄) = piecesX (F := F) (ℓ := ((SparseCore.T d : Thread nD τ).loc cc1_scratch0)) fullShare (ssets d) := by
  unfold SLOTSX
  exact piecesX_cons_eq (slotM_set 0 _) (piecesX_cons_eq (slotM_set 1 _) (piecesX_cons_eq (slotM_set 2 _) (piecesX_cons_eq (slotM_set 3 _) (piecesX_cons_eq (slotM_set 4 _) (piecesX_cons_eq (slotM_set 5 _) (piecesX_cons_eq (slotM_set 6 _) (piecesX_cons_eq (slotM_set 7 _) (rfl))))))))

theorem scratch_split (fs : Buf (Elt F) ((SparseCore.T d : Thread nD τ).loc cc1_scratch0)) :
    (((SparseCore.T d : Thread nD τ).loc cc1_scratch0) ↦{fullShare} fs : sProp 𝕄) ⊢ iprop(SLOTS d fs ∗ ((SparseCore.T d : Thread nD τ).loc cc1_scratch0) ↦[restOf Finset.univ (ssets d)]{fullShare} fs) := by
  rw [SLOTS_eq]
  exact (pointsTo_pieces (F := F) fullShare fs (ssets d) Finset.univ (fun I _ => Finset.subset_univ I) (ssets_disjoint d)).1

theorem scratch_join :
    iprop(SLOTSX d ∗ ∃ f : Buf (Elt F) ((SparseCore.T d : Thread nD τ).loc cc1_scratch0), ((SparseCore.T d : Thread nD τ).loc cc1_scratch0) ↦[restOf Finset.univ (ssets d)]{fullShare} f)
      ⊢ (iprop(∃ f : Buf (Elt F) ((SparseCore.T d : Thread nD τ).loc cc1_scratch0), ((SparseCore.T d : Thread nD τ).loc cc1_scratch0) ↦{fullShare} f) : sProp 𝕄) := by
  rw [SLOTSX_eq]
  exact join_pieces (F := F) fullShare (ssets d) Finset.univ (fun I _ => Finset.subset_univ I) (ssets_disjoint d)

/-! ## The transfer semaphores -/

theorem fin16_univ : (Finset.univ : Finset (Fin 16)) = {0, 1, 2, 3, 4, 5, 6, 7, 8, 9, 10, 11, 12, 13, 14, 15} := by decide

set_option maxHeartbeats 1000000 in
theorem sems_eq : (Pipeline.ownSems0 osem d : sProp 𝕄) = SEMS d := by
  unfold Pipeline.ownSems0 SEMS
  rw [fin16_univ, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

end Split

end Cert.Kernel.KP

end
-- ==== Proof.KTcOblB.lean ====
/-
  The TensorCore region's body obligation: at its one grid point the kernel's body takes the region's invariant
  before the point to the invariant after it. The invariant holds the two arrays whole; the body's run is stated over
  the batch array's read shares, the pool array's destination blocks and the scratch's slots, so the arrays are cut
  before the run and joined after it; the rows of the pool array outside every destination block keep their contents,
  which are the returned pool's there.
-/
import proofs.«209156_g27831388078850_cont_9to1_824_17_alg».proof.Proof.KTcBodyB2
import proofs.«209156_g27831388078850_cont_9to1_824_17_alg».proof.Proof.KTcSplitB
import proofs.«209156_g27831388078850_cont_9to1_824_17_alg».proof.Proof.KTcDatB
import Idealize.ShloMosaic.Lib.Transfers

set_option quotPrecheck false

noncomputable section

namespace Cert.Kernel.KP

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Cert.Spec

variable {F : FTy → Type}

local notation "𝕄" => MT nD τ sig (HIx 1) (Elt F) ℕ UU ℕ

variable [FloatOps F]

/-- After its one SparseCore call the TensorCore owes the launch nothing more. -/
theorem Otc_one (c : Dev nD) : (K (F := F)).Otc c 1 = 0 := by
  unfold SparseCore.Cfg.Otc
  exact Finset.sum_eq_zero fun q _ => if_neg (by have := q.isLt; omega)

/-- No staging window: a family over the pipeline's windows is empty. -/
theorem bigSep_noWin (Φ : Fin (cfgT (F := F)).W → sProp 𝕄) : bigSep Finset.univ Φ = iprop(emp) := by
  show bigSep (Finset.univ : Finset (Fin 0)) Φ = _
  rw [Finset.univ_eq_empty, bigSep_empty]
  rfl

set_option maxHeartbeats 4000000 in
/-- The body obligation of the region's proof data. -/
theorem bodyOblT (g0 : S49152x128.Idx → Elt F .f32) (g3 : S196608x128.Idx → Elt F .f32) (c : Dev nD) :
    (rdatT g0 g3 c).BodyObligation (defs₀ (F := F)) 𝒱₀ (none : HIx 1) Set.univ := by
  intro t Y _
  have ht : t.val = 0 := by
    have h1 : t.val < grid1.N := t.isLt
    rw [Gen.N_1] at h1; omega
  have e0 : (rdatT g0 g3 c).Φ t.castSucc = Φ0 g0 g3 c := by
    show (if t.castSucc.val = 0 then Φ0 g0 g3 c else Φ1 g0 g3 c) = _
    exact if_pos ht
  have e1 : (rdatT g0 g3 c).Φ t.succ = Φ1 g0 g3 c := by
    show (if t.succ.val = 0 then Φ0 g0 g3 c else Φ1 g0 g3 c) = _
    exact if_neg (by rw [Fin.val_succ]; omega)
  have hO : ∀ g, ((K (F := F)).Otc c 1) g none = 0 := fun g => by rw [Otc_one]; rfl
  rw [e0, e1, bigSep_noWin, bigSep_noWin]
  unfold Φ0 Φ1
  rw [Gen.scopedRest1_eq, sems_eq]
  show iprop(_ ∗ Pipeline.owesWithin c ((K (F := F)).Otc c 1) _ ∗ emp)
    ⊢ wp frame (wpE (defs₀ (F := F)) 𝒱₀ (SparseCore.T c : Thread nD τ) none) Set.univ
        (cc1__tc_scatter_body (Memref.whole main_v0) (Memref.isWhole_whole _) (Memref.whole main_v3) (Memref.isWhole_whole _) (Memref.whole main_v3) (Memref.isWhole_whole _) (Memref.whole cc1_scratch0) (Memref.isWhole_whole _) cc1_scratch1 cc1_scratch2) _
  iintro ⟨⟨#Hlv, H0, H3, Hsem, ⟨%fs, Hsc⟩⟩, ⟨%W, %hW, HO⟩, -⟩
  ihave Hmw := ((K (F := F)).mayWaits_none (thr := (SparseCore.T c : Thread nD τ)) hO) $$ Hlv
  ihave H0' := (v0_split c g0).1 $$ H0
  icases H0' with ⟨Htok, H0r⟩
  ihave H3' := (v3_split c g3).1 $$ H3
  icases H3' with ⟨Hdst, H3r⟩
  ihave Hsc' := (scratch_split c fs) $$ Hsc
  icases Hsc' with ⟨Hslots, Hscr⟩
  iapply (wp_wand_r frame _ Set.univ)
  isplitl [Htok Hdst Hslots Hsem HO]
  · iapply (tc_body c ((K (F := F)).Otc c 1) W g0 g3 fs)
    isplitr; · iexact Hmw
    isplitl [Htok]; · iexact Htok
    isplitl [Hdst]; · iexact Hdst
    isplitl [Hslots]; · iexact Hslots
    isplitl [Hsem]; · iexact Hsem
    iexact HO
  iintro %_ ⟨Htok, Hdst, Hslx, Hsem, %W', %hW', HO⟩
  isplitl [Htok H0r Hdst H3r Hslx Hscr Hsem]
  · isplitr; · iexact Hlv
    isplitl [Htok H0r]
    · iapply (v0_split c g0).2
      isplitl [Htok]; · iexact Htok
      iexact H0r
    isplitl [Hdst H3r]
    · iapply (v3_split c (Cert.Spec.outPool2 (α := Elt F .f32) g0 g3)).2
      isplitl [Hdst]; · iexact Hdst
      iapply (Entails.of_eq (pointsTo_congr (v3_rest_value c g0 g3)))
      iexact H3r
    isplitl [Hsem]; · iexact Hsem
    iapply (scratch_join c)
    isplitl [Hslx]; · iexact Hslx
    iexists fs; iexact Hscr
  isplitl [HO]
  · iexists W'
    isplitr
    · ipureintro
      intro p hp
      rcases hW' p (Finset.mem_coe.mp hp) with h | h
      · exact hW (Finset.mem_coe.mpr h)
      · refine Or.inl ?_
        show (K (F := F)).lev ((SparseCore.T c : Thread nD τ), p.1) p.2 ≤ 8 * 1
        rw [h, SparseCore.Cfg.lev_none]; exact Nat.zero_le _
    · iexact HO
  · iempintro

end Cert.Kernel.KP

end
-- ==== Proof.KRunB.lean ====
/-
  The kernel program's run: the launch theorem's hypotheses discharged by the vector subcores' task, the split of the
  SparseCore call's operands, and the TensorCore kernel's region from its body.
-/
import proofs.«209156_g27831388078850_cont_9to1_824_17_alg».proof.Proof.KLaunchB
import proofs.«209156_g27831388078850_cont_9to1_824_17_alg».proof.Proof.KTileB2
import proofs.«209156_g27831388078850_cont_9to1_824_17_alg».proof.Proof.KSplitB
import proofs.«209156_g27831388078850_cont_9to1_824_17_alg».proof.Proof.KTcRegionB
import proofs.«209156_g27831388078850_cont_9to1_824_17_alg».proof.Proof.KTcOblB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [∀ e, Nonempty (Elt F e)]

omit [FloatOps F] [∀ e, Nonempty (Elt F e)] in
/-- The region needs nothing of the launch's ghost state. -/
theorem Gtc_intro : (BI.own ((EP : Emb UP 𝕄) 1) : sProp 𝕄) ⊢ iprop(|==> bigSep Finset.univ fun _ : Dev nD => (iprop(emp) : sProp 𝕄)) := by
  iintro -
  imodintro
  rw [bigSep_emp']
  iempintro

/-- Every weakly fair execution of the kernel program's threads terminates, faulting nowhere; at the end the two
    arguments are unchanged and the two results hold the result functions over rows of lanes, read back as images. -/
theorem run (m : (ℓ : Loc nD τ sig) → Buf (Elt F) ℓ) (ρ : Dev nD → PrngReg) :
    θ_run (Cert.Kernel.defs (F := F)) (Cert.Kernel.threads (F := F)) ⟨m, fun _ => 0, ρ⟩ (QC m) :=
  run_of m ρ (tileObl _ _ _) (vecSplit _ _ _) 1 (fun _ => iprop(emp)) Gtc_intro (tc_region_of bodyOblT)

end Cert.Kernel.KP

end
-- ==== Proof.RefOpsLib.lean ====
/-
  The reference program's run: a shared list fact.
-/
import proofs.«209156_g27831388078850_cont_9to1_824_17_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- A predicate on every element of two lists holds on every element of their concatenation. -/
theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- One rewriting step of an operation's result at a buffer: at its own result buffer its function's value, at any other buffer
    what was there (the buffers' inequality by computation).  For the places a single simplification pass does not enter:
    the operands of a concatenation, whose well-formedness fact is stated over the list of its operands. -/
macro "after_results_step" : tactic =>
  `(tactic| first
      | rw [nullary_result] | rw [unary_result] | rw [binary_result] | rw [ternary_result] | rw [quaternary_result] | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))

end Cert.ReferenceIdeal.RefRun

end
-- ==== Proof.RefOpsTfA0.lean ====
/-
  Statements of @threefry2x32's printed body, window 0, as a list of operations over the callee's arguments and one call's buffer record.
-/
import proofs.«209156_g27831388078850_cont_9to1_824_17_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_threefry2x32.body_part0`: 60 consecutive statements of the printed body, in order. -/
def seg_threefry2x32_p0_0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S2 ![] bcast_S_S2),
    StableHlo.TRef.binary arg2 φ.v2 φ.v3 addi,
    StableHlo.TRef.unary arg1 φ.v4 (broadcastInDim S2 ![] bcast_S_S2),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S2 ![] bcast_S_S2),
    StableHlo.TRef.binary φ.v5 φ.v7 φ.v8 Host.shli,
    StableHlo.TRef.nullary φ.c_1 (constantI S_ 32 19#32),
    StableHlo.TRef.unary φ.c_1 φ.v9 (broadcastInDim S2 ![] bcast_S_S2),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S2 ![] bcast_S_S2),
    StableHlo.TRef.binary φ.v12 φ.v14 φ.v15 Host.shli,
    StableHlo.TRef.nullary φ.c_3 (constantI S_ 32 17#32),
    StableHlo.TRef.unary φ.c_3 φ.v16 (broadcastInDim S2 ![] bcast_S_S2),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S2 ![] bcast_S_S2),
    StableHlo.TRef.binary φ.v19 φ.v21 φ.v22 Host.shli,
    StableHlo.TRef.nullary φ.c_5 (constantI S_ 32 6#32),
    StableHlo.TRef.unary φ.c_5 φ.v23 (broadcastInDim S2 ![] bcast_S_S2),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S2 ![] bcast_S_S2),
    StableHlo.TRef.binary φ.v26 φ.v28 φ.v29 Host.shli,
    StableHlo.TRef.nullary φ.c_7 (constantI S_ 32 26#32),
    StableHlo.TRef.unary φ.c_7 φ.v30 (broadcastInDim S2 ![] bcast_S_S2),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S2 ![] bcast_S_S2),
    StableHlo.TRef.binary φ.v27 φ.v34 φ.v35 addi,
    StableHlo.TRef.unary φ.v1 φ.v36 (broadcastInDim S2 ![] bcast_S_S2),
    StableHlo.TRef.binary φ.v33 φ.v36 φ.v37 addi,
    StableHlo.TRef.nullary φ.c_8 (constantI S_ 32 1#32),
    StableHlo.TRef.unary φ.c_8 φ.v38 (broadcastInDim S2 ![] bcast_S_S2),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S2 ![] bcast_S_S2),
    StableHlo.TRef.binary φ.v39 φ.v41 φ.v42 Host.shli,
    StableHlo.TRef.nullary φ.c_10 (constantI S_ 32 15#32),
    StableHlo.TRef.unary φ.c_10 φ.v43 (broadcastInDim S2 ![] bcast_S_S2),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi ]

theorem sub_seg_threefry2x32_p0_0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (seg_threefry2x32_p0_0 arg0 arg1 arg2 arg3 φ : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩

theorem fresh_seg_threefry2x32_p0_0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (seg_threefry2x32_p0_0 arg0 arg1 arg2 arg3 φ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `fn_threefry2x32.body_part0`, in program order. -/
def ops_threefry2x32_p0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  seg_threefry2x32_p0_0 arg0 arg1 arg2 arg3 φ

/-- The printed body is these operations run in sequence: both sides are one chain of `hlo` steps. -/
theorem eq_threefry2x32_p0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part0 (F := F) arg0 arg1 arg2 arg3 φ = seq (ops_threefry2x32_p0 arg0 arg1 arg2 arg3 φ) := rfl

theorem sub_threefry2x32_p0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (ops_threefry2x32_p0 arg0 arg1 arg2 arg3 φ : List (HloOp τ sig (Elt F))).Forall fun op => op.bufs ⊆ tcRefs τ sig :=
  sub_seg_threefry2x32_p0_0 arg0 arg1 arg2 arg3 φ

theorem fresh_threefry2x32_p0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (ops_threefry2x32_p0 arg0 arg1 arg2 arg3 φ : List (HloOp τ sig (Elt F))).Forall fun op => op.fresh = ∅ :=
  fresh_seg_threefry2x32_p0_0 arg0 arg1 arg2 arg3 φ

end Cert.ReferenceIdeal.RefRun

end
-- ==== Proof.RefOpsTfA1.lean ====
/-
  Statements of @threefry2x32's printed body, window 1, as a list of operations over the callee's arguments and one call's buffer record.
-/
import proofs.«209156_g27831388078850_cont_9to1_824_17_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_threefry2x32.body_part1`: 60 consecutive statements of the printed body, in order. -/
def seg_threefry2x32_p1_0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.nullary φ.c_11 (constantI S_ 32 29#32),
    StableHlo.TRef.unary φ.c_11 φ.v48 (broadcastInDim S2 ![] bcast_S_S2),
    StableHlo.TRef.binary φ.v46 φ.v48 φ.v49 Host.shli,
    StableHlo.TRef.nullary φ.c_12 (constantI S_ 32 3#32),
    StableHlo.TRef.unary φ.c_12 φ.v50 (broadcastInDim S2 ![] bcast_S_S2),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S2 ![] bcast_S_S2),
    StableHlo.TRef.binary φ.v53 φ.v55 φ.v56 Host.shli,
    StableHlo.TRef.nullary φ.c_14 (constantI S_ 32 16#32),
    StableHlo.TRef.unary φ.c_14 φ.v57 (broadcastInDim S2 ![] bcast_S_S2),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S2 ![] bcast_S_S2),
    StableHlo.TRef.binary φ.v60 φ.v62 φ.v63 Host.shli,
    StableHlo.TRef.nullary φ.c_16 (constantI S_ 32 8#32),
    StableHlo.TRef.unary φ.c_16 φ.v64 (broadcastInDim S2 ![] bcast_S_S2),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S2 ![] bcast_S_S2),
    StableHlo.TRef.binary φ.v61 φ.v68 φ.v69 addi,
    StableHlo.TRef.unary arg0 φ.v70 (broadcastInDim S2 ![] bcast_S_S2),
    StableHlo.TRef.binary φ.v67 φ.v70 φ.v71 addi,
    StableHlo.TRef.nullary φ.c_17 (constantI S_ 32 2#32),
    StableHlo.TRef.unary φ.c_17 φ.v72 (broadcastInDim S2 ![] bcast_S_S2),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S2 ![] bcast_S_S2),
    StableHlo.TRef.binary φ.v73 φ.v75 φ.v76 Host.shli,
    StableHlo.TRef.nullary φ.c_19 (constantI S_ 32 19#32),
    StableHlo.TRef.unary φ.c_19 φ.v77 (broadcastInDim S2 ![] bcast_S_S2),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S2 ![] bcast_S_S2),
    StableHlo.TRef.binary φ.v80 φ.v82 φ.v83 Host.shli,
    StableHlo.TRef.nullary φ.c_21 (constantI S_ 32 17#32),
    StableHlo.TRef.unary φ.c_21 φ.v84 (broadcastInDim S2 ![] bcast_S_S2),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S2 ![] bcast_S_S2),
    StableHlo.TRef.binary φ.v87 φ.v89 φ.v90 Host.shli,
    StableHlo.TRef.nullary φ.c_23 (constantI S_ 32 6#32),
    StableHlo.TRef.unary φ.c_23 φ.v91 (broadcastInDim S2 ![] bcast_S_S2),
    StableHlo.TRef.binary φ.v87 φ.v91 φ.v92 Host.shrui,
    StableHlo.TRef.binary φ.v90 φ.v92 φ.v93 ori,
    StableHlo.TRef.binary φ.v88 φ.v93 φ.v94 xori ]

theorem sub_seg_threefry2x32_p1_0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (seg_threefry2x32_p1_0 arg0 arg1 arg2 arg3 φ : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩

theorem fresh_seg_threefry2x32_p1_0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (seg_threefry2x32_p1_0 arg0 arg1 arg2 arg3 φ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `fn_threefry2x32.body_part1`, in program order. -/
def ops_threefry2x32_p1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  seg_threefry2x32_p1_0 arg0 arg1 arg2 arg3 φ

/-- The printed body is these operations run in sequence: both sides are one chain of `hlo` steps. -/
theorem eq_threefry2x32_p1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part1 (F := F) arg0 arg1 arg2 arg3 φ = seq (ops_threefry2x32_p1 arg0 arg1 arg2 arg3 φ) := rfl

theorem sub_threefry2x32_p1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (ops_threefry2x32_p1 arg0 arg1 arg2 arg3 φ : List (HloOp τ sig (Elt F))).Forall fun op => op.bufs ⊆ tcRefs τ sig :=
  sub_seg_threefry2x32_p1_0 arg0 arg1 arg2 arg3 φ

theorem fresh_threefry2x32_p1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (ops_threefry2x32_p1 arg0 arg1 arg2 arg3 φ : List (HloOp τ sig (Elt F))).Forall fun op => op.fresh = ∅ :=
  fresh_seg_threefry2x32_p1_0 arg0 arg1 arg2 arg3 φ

end Cert.ReferenceIdeal.RefRun

end
-- ==== Proof.RefOpsTfA2.lean ====
/-
  Statements of @threefry2x32's printed body, window 2, as a list of operations over the callee's arguments and one call's buffer record.
-/
import proofs.«209156_g27831388078850_cont_9to1_824_17_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_threefry2x32.body_part2`: 60 consecutive statements of the printed body, in order. -/
def seg_threefry2x32_p2_0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S2 ![] bcast_S_S2),
    StableHlo.TRef.binary φ.v94 φ.v96 φ.v97 Host.shli,
    StableHlo.TRef.nullary φ.c_25 (constantI S_ 32 26#32),
    StableHlo.TRef.unary φ.c_25 φ.v98 (broadcastInDim S2 ![] bcast_S_S2),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S2 ![] bcast_S_S2),
    StableHlo.TRef.binary φ.v95 φ.v102 φ.v103 addi,
    StableHlo.TRef.unary arg1 φ.v104 (broadcastInDim S2 ![] bcast_S_S2),
    StableHlo.TRef.binary φ.v101 φ.v104 φ.v105 addi,
    StableHlo.TRef.nullary φ.c_26 (constantI S_ 32 3#32),
    StableHlo.TRef.unary φ.c_26 φ.v106 (broadcastInDim S2 ![] bcast_S_S2),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S2 ![] bcast_S_S2),
    StableHlo.TRef.binary φ.v107 φ.v109 φ.v110 Host.shli,
    StableHlo.TRef.nullary φ.c_28 (constantI S_ 32 15#32),
    StableHlo.TRef.unary φ.c_28 φ.v111 (broadcastInDim S2 ![] bcast_S_S2),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S2 ![] bcast_S_S2),
    StableHlo.TRef.binary φ.v114 φ.v116 φ.v117 Host.shli,
    StableHlo.TRef.nullary φ.c_30 (constantI S_ 32 3#32),
    StableHlo.TRef.unary φ.c_30 φ.v118 (broadcastInDim S2 ![] bcast_S_S2),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S2 ![] bcast_S_S2),
    StableHlo.TRef.binary φ.v121 φ.v123 φ.v124 Host.shli,
    StableHlo.TRef.nullary φ.c_32 (constantI S_ 32 16#32),
    StableHlo.TRef.unary φ.c_32 φ.v125 (broadcastInDim S2 ![] bcast_S_S2),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S2 ![] bcast_S_S2),
    StableHlo.TRef.binary φ.v128 φ.v130 φ.v131 Host.shli,
    StableHlo.TRef.nullary φ.c_34 (constantI S_ 32 8#32),
    StableHlo.TRef.unary φ.c_34 φ.v132 (broadcastInDim S2 ![] bcast_S_S2),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S2 ![] bcast_S_S2),
    StableHlo.TRef.binary φ.v129 φ.v136 φ.v137 addi,
    StableHlo.TRef.unary φ.v1 φ.v138 (broadcastInDim S2 ![] bcast_S_S2),
    StableHlo.TRef.binary φ.v135 φ.v138 φ.v139 addi,
    StableHlo.TRef.nullary φ.c_35 (constantI S_ 32 4#32),
    StableHlo.TRef.unary φ.c_35 φ.v140 (broadcastInDim S2 ![] bcast_S_S2),
    StableHlo.TRef.binary φ.v139 φ.v140 φ.v141 addi,
    StableHlo.TRef.binary φ.v137 φ.v141 φ.v142 addi ]

theorem sub_seg_threefry2x32_p2_0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (seg_threefry2x32_p2_0 arg0 arg1 arg2 arg3 φ : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩

theorem fresh_seg_threefry2x32_p2_0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (seg_threefry2x32_p2_0 arg0 arg1 arg2 arg3 φ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `fn_threefry2x32.body_part2`, in program order. -/
def ops_threefry2x32_p2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  seg_threefry2x32_p2_0 arg0 arg1 arg2 arg3 φ

/-- The printed body is these operations run in sequence: both sides are one chain of `hlo` steps. -/
theorem eq_threefry2x32_p2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part2 (F := F) arg0 arg1 arg2 arg3 φ = seq (ops_threefry2x32_p2 arg0 arg1 arg2 arg3 φ) := rfl

theorem sub_threefry2x32_p2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (ops_threefry2x32_p2 arg0 arg1 arg2 arg3 φ : List (HloOp τ sig (Elt F))).Forall fun op => op.bufs ⊆ tcRefs τ sig :=
  sub_seg_threefry2x32_p2_0 arg0 arg1 arg2 arg3 φ

theorem fresh_threefry2x32_p2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (ops_threefry2x32_p2 arg0 arg1 arg2 arg3 φ : List (HloOp τ sig (Elt F))).Forall fun op => op.fresh = ∅ :=
  fresh_seg_threefry2x32_p2_0 arg0 arg1 arg2 arg3 φ

end Cert.ReferenceIdeal.RefRun

end
-- ==== Proof.RefOpsTfA3.lean ====
/-
  Statements of @threefry2x32's printed body, window 3, as a list of operations over the callee's arguments and one call's buffer record.
-/
import proofs.«209156_g27831388078850_cont_9to1_824_17_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_threefry2x32.body_part3`: 42 consecutive statements of the printed body, in order. -/
def seg_threefry2x32_p3_0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.nullary φ.c_36 (constantI S_ 32 13#32),
    StableHlo.TRef.unary φ.c_36 φ.v143 (broadcastInDim S2 ![] bcast_S_S2),
    StableHlo.TRef.binary φ.v141 φ.v143 φ.v144 Host.shli,
    StableHlo.TRef.nullary φ.c_37 (constantI S_ 32 19#32),
    StableHlo.TRef.unary φ.c_37 φ.v145 (broadcastInDim S2 ![] bcast_S_S2),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S2 ![] bcast_S_S2),
    StableHlo.TRef.binary φ.v148 φ.v150 φ.v151 Host.shli,
    StableHlo.TRef.nullary φ.c_39 (constantI S_ 32 17#32),
    StableHlo.TRef.unary φ.c_39 φ.v152 (broadcastInDim S2 ![] bcast_S_S2),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S2 ![] bcast_S_S2),
    StableHlo.TRef.binary φ.v155 φ.v157 φ.v158 Host.shli,
    StableHlo.TRef.nullary φ.c_41 (constantI S_ 32 6#32),
    StableHlo.TRef.unary φ.c_41 φ.v159 (broadcastInDim S2 ![] bcast_S_S2),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S2 ![] bcast_S_S2),
    StableHlo.TRef.binary φ.v162 φ.v164 φ.v165 Host.shli,
    StableHlo.TRef.nullary φ.c_43 (constantI S_ 32 26#32),
    StableHlo.TRef.unary φ.c_43 φ.v166 (broadcastInDim S2 ![] bcast_S_S2),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S2 ![] bcast_S_S2),
    StableHlo.TRef.binary φ.v163 φ.v170 φ.v171 addi,
    StableHlo.TRef.unary arg0 φ.v172 (broadcastInDim S2 ![] bcast_S_S2),
    StableHlo.TRef.binary φ.v169 φ.v172 φ.v173 addi,
    StableHlo.TRef.nullary φ.c_44 (constantI S_ 32 5#32),
    StableHlo.TRef.unary φ.c_44 φ.v174 (broadcastInDim S2 ![] bcast_S_S2),
    StableHlo.TRef.binary φ.v173 φ.v174 φ.v175 addi ]

theorem sub_seg_threefry2x32_p3_0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (seg_threefry2x32_p3_0 arg0 arg1 arg2 arg3 φ : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

theorem fresh_seg_threefry2x32_p3_0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (seg_threefry2x32_p3_0 arg0 arg1 arg2 arg3 φ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `fn_threefry2x32.body_part3`, in program order. -/
def ops_threefry2x32_p3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  seg_threefry2x32_p3_0 arg0 arg1 arg2 arg3 φ

/-- The printed body is these operations run in sequence: both sides are one chain of `hlo` steps. -/
theorem eq_threefry2x32_p3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part3 (F := F) arg0 arg1 arg2 arg3 φ = seq (ops_threefry2x32_p3 arg0 arg1 arg2 arg3 φ) := rfl

theorem sub_threefry2x32_p3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (ops_threefry2x32_p3 arg0 arg1 arg2 arg3 φ : List (HloOp τ sig (Elt F))).Forall fun op => op.bufs ⊆ tcRefs τ sig :=
  sub_seg_threefry2x32_p3_0 arg0 arg1 arg2 arg3 φ

theorem fresh_threefry2x32_p3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (ops_threefry2x32_p3 arg0 arg1 arg2 arg3 φ : List (HloOp τ sig (Elt F))).Forall fun op => op.fresh = ∅ :=
  fresh_seg_threefry2x32_p3_0 arg0 arg1 arg2 arg3 φ

end Cert.ReferenceIdeal.RefRun

end
-- ==== Proof.RefOpsTfA.lean ====
/-
  @threefry2x32's body as one list of operations: its four printed windows in order.
-/
import proofs.«209156_g27831388078850_cont_9to1_824_17_alg».proof.Proof.RefOpsTfA0
import proofs.«209156_g27831388078850_cont_9to1_824_17_alg».proof.Proof.RefOpsTfA1
import proofs.«209156_g27831388078850_cont_9to1_824_17_alg».proof.Proof.RefOpsTfA2
import proofs.«209156_g27831388078850_cont_9to1_824_17_alg».proof.Proof.RefOpsTfA3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The operations of `fn_threefry2x32.body`, in program order, each call replaced by its callee's operations over the call's buffers. -/
def ops_threefry2x32 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  ops_threefry2x32_p0 arg0 arg1 arg2 arg3 φ ++ (ops_threefry2x32_p1 arg0 arg1 arg2 arg3 φ ++ (ops_threefry2x32_p2 arg0 arg1 arg2 arg3 φ ++ (ops_threefry2x32_p3 arg0 arg1 arg2 arg3 φ)))

set_option maxRecDepth 4096 in
/-- The printed body is these operations run in sequence: sequencing over a concatenation is sequencing of the pieces (`seq_append`), and each call is its callee's line. -/
theorem eq_threefry2x32 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body (F := F) arg0 arg1 arg2 arg3 φ = seq (ops_threefry2x32 arg0 arg1 arg2 arg3 φ) := by
  simp only [ops_threefry2x32, seq_append, ← eq_threefry2x32_p0, ← eq_threefry2x32_p1, ← eq_threefry2x32_p2, ← eq_threefry2x32_p3]
  rfl

theorem sub_threefry2x32 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (ops_threefry2x32 arg0 arg1 arg2 arg3 φ : List (HloOp τ sig (Elt F))).Forall fun op => op.bufs ⊆ tcRefs τ sig :=
  forall_append (sub_threefry2x32_p0 arg0 arg1 arg2 arg3 φ) (forall_append (sub_threefry2x32_p1 arg0 arg1 arg2 arg3 φ) (forall_append (sub_threefry2x32_p2 arg0 arg1 arg2 arg3 φ) (sub_threefry2x32_p3 arg0 arg1 arg2 arg3 φ)))

theorem fresh_threefry2x32 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (ops_threefry2x32 arg0 arg1 arg2 arg3 φ : List (HloOp τ sig (Elt F))).Forall fun op => op.fresh = ∅ :=
  forall_append (fresh_threefry2x32_p0 arg0 arg1 arg2 arg3 φ) (forall_append (fresh_threefry2x32_p1 arg0 arg1 arg2 arg3 φ) (forall_append (fresh_threefry2x32_p2 arg0 arg1 arg2 arg3 φ) (fresh_threefry2x32_p3 arg0 arg1 arg2 arg3 φ)))

end Cert.ReferenceIdeal.RefRun

end
-- ==== Proof.RefOpsSplit.lean ====
/-
  The two key-splitting functions as lists of operations, their inner generator call expanded.
-/
import proofs.«209156_g27831388078850_cont_9to1_824_17_alg».proof.Proof.RefOpsTfA

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_threefry_split.body`: 13 consecutive statements of the printed body, in order. -/
def seg_threefry_split_0 (arg0 : StableHlo.TRef sig ⟨S2, .i32⟩) (φ : fn_threefry_split.Bufs) : List (HloOp τ sig (Elt F)) :=
  [ StableHlo.TRef.unary arg0 φ.v0 (extractStridedSlice S1 ![0] · slices_S2_S1_0),
    StableHlo.TRef.reshape φ.v0 φ.v1 rfl shapeCasts_S1_S_,
    StableHlo.TRef.unary arg0 φ.v2 (extractStridedSlice S1 ![1] · slices_S2_S1_1),
    StableHlo.TRef.reshape φ.v2 φ.v3 rfl shapeCasts_S1_S_,
    StableHlo.TRef.nullary φ.v4 (iotaInDim S2 64 0),
    StableHlo.TRef.nullary φ.c (constantI S_ 64 1#64),
    StableHlo.TRef.unary φ.c φ.v5 (broadcastInDim S2 ![] bcast_S_S2),
    StableHlo.TRef.binary φ.v5 φ.v4 φ.v6 muli,
    StableHlo.TRef.nullary φ.c_0 (constantI S_ 64 32#64),
    StableHlo.TRef.unary φ.c_0 φ.v7 (broadcastInDim S2 ![] bcast_S_S2),
    StableHlo.TRef.binary φ.v6 φ.v7 φ.v8 Host.shrui,
    StableHlo.TRef.unary φ.v6 φ.v9 (trunci 32 · natLt_32_64),
    StableHlo.TRef.unary φ.v8 φ.v10 (trunci 32 · natLt_32_64) ]

theorem sub_seg_threefry_split_0 (arg0 : StableHlo.TRef sig ⟨S2, .i32⟩) (φ : fn_threefry_split.Bufs) : (seg_threefry_split_0 arg0 φ : List (HloOp τ sig (Elt F))).Forall fun op => op.bufs ⊆ tcRefs τ sig :=
  ⟨unary_bufs_sub .., reshape_bufs_sub .., unary_bufs_sub .., reshape_bufs_sub .., nullary_bufs_sub .., nullary_bufs_sub .., unary_bufs_sub .., binary_bufs_sub .., nullary_bufs_sub .., unary_bufs_sub .., binary_bufs_sub .., unary_bufs_sub .., unary_bufs_sub ..⟩

theorem fresh_seg_threefry_split_0 (arg0 : StableHlo.TRef sig ⟨S2, .i32⟩) (φ : fn_threefry_split.Bufs) : (seg_threefry_split_0 arg0 φ : List (HloOp τ sig (Elt F))).Forall fun op => op.fresh = ∅ :=
  ⟨rfl, rfl, rfl, rfl, rfl, rfl, rfl, rfl, rfl, rfl, rfl, rfl, rfl⟩

/-- Piece 2 of `fn_threefry_split.body`: 3 consecutive statements of the printed body, in order. -/
def seg_threefry_split_1 (arg0 : StableHlo.TRef sig ⟨S2, .i32⟩) (φ : fn_threefry_split.Bufs) : List (HloOp τ sig (Elt F)) :=
  [ StableHlo.TRef.unary φ.call0.v171 φ.v12 (broadcastInDim S2x1 ![0] bcast_S2_S2x1_0),
    StableHlo.TRef.unary φ.call0.v175 φ.v13 (broadcastInDim S2x1 ![0] bcast_S2_S2x1_0),
    StableHlo.TRef.binary φ.v12 φ.v13 φ.v14 (fun a b => concatenate S2x2 1 [⟨S2x1, a⟩, ⟨S2x1, b⟩] concatenates_S2x1_S2x1_S2x2_d1) ]

theorem sub_seg_threefry_split_1 (arg0 : StableHlo.TRef sig ⟨S2, .i32⟩) (φ : fn_threefry_split.Bufs) : (seg_threefry_split_1 arg0 φ : List (HloOp τ sig (Elt F))).Forall fun op => op.bufs ⊆ tcRefs τ sig :=
  ⟨unary_bufs_sub .., unary_bufs_sub .., binary_bufs_sub ..⟩

theorem fresh_seg_threefry_split_1 (arg0 : StableHlo.TRef sig ⟨S2, .i32⟩) (φ : fn_threefry_split.Bufs) : (seg_threefry_split_1 arg0 φ : List (HloOp τ sig (Elt F))).Forall fun op => op.fresh = ∅ :=
  ⟨rfl, rfl, rfl⟩

/-- The operations of `fn_threefry_split.body`, in program order, each call replaced by its callee's operations over the call's buffers. -/
def ops_threefry_split (arg0 : StableHlo.TRef sig ⟨S2, .i32⟩) (φ : fn_threefry_split.Bufs) : List (HloOp τ sig (Elt F)) :=
  seg_threefry_split_0 arg0 φ ++ (ops_threefry2x32 φ.v1 φ.v3 φ.v10 φ.v9 φ.call0 ++ (seg_threefry_split_1 arg0 φ))

set_option maxRecDepth 4096 in
/-- The printed body is these operations run in sequence: sequencing over a concatenation is sequencing of the pieces (`seq_append`), and each call is its callee's line. -/
theorem eq_threefry_split (arg0 : StableHlo.TRef sig ⟨S2, .i32⟩) (φ : fn_threefry_split.Bufs) : fn_threefry_split.body (F := F) arg0 φ = seq (ops_threefry_split arg0 φ) := by
  simp only [ops_threefry_split, seq_append, ← eq_threefry2x32]
  rfl

theorem sub_threefry_split (arg0 : StableHlo.TRef sig ⟨S2, .i32⟩) (φ : fn_threefry_split.Bufs) : (ops_threefry_split arg0 φ : List (HloOp τ sig (Elt F))).Forall fun op => op.bufs ⊆ tcRefs τ sig :=
  forall_append (sub_seg_threefry_split_0 arg0 φ) (forall_append (sub_threefry2x32 φ.v1 φ.v3 φ.v10 φ.v9 φ.call0) (sub_seg_threefry_split_1 arg0 φ))

theorem fresh_threefry_split (arg0 : StableHlo.TRef sig ⟨S2, .i32⟩) (φ : fn_threefry_split.Bufs) : (ops_threefry_split arg0 φ : List (HloOp τ sig (Elt F))).Forall fun op => op.fresh = ∅ :=
  forall_append (fresh_seg_threefry_split_0 arg0 φ) (forall_append (fresh_threefry2x32 φ.v1 φ.v3 φ.v10 φ.v9 φ.call0) (fresh_seg_threefry_split_1 arg0 φ))

/-- Piece 1 of `fn_threefry_split_1.body`: 13 consecutive statements of the printed body, in order. -/
def seg_threefry_split_1_0 (arg0 : StableHlo.TRef sig ⟨S2, .i32⟩) (φ : fn_threefry_split_1.Bufs) : List (HloOp τ sig (Elt F)) :=
  [ StableHlo.TRef.unary arg0 φ.v0 (extractStridedSlice S1 ![0] · slices_S2_S1_0),
    StableHlo.TRef.reshape φ.v0 φ.v1 rfl shapeCasts_S1_S_,
    StableHlo.TRef.unary arg0 φ.v2 (extractStridedSlice S1 ![1] · slices_S2_S1_1),
    StableHlo.TRef.reshape φ.v2 φ.v3 rfl shapeCasts_S1_S_,
    StableHlo.TRef.nullary φ.v4 (iotaInDim S2 64 0),
    StableHlo.TRef.nullary φ.c (constantI S_ 64 1#64),
    StableHlo.TRef.unary φ.c φ.v5 (broadcastInDim S2 ![] bcast_S_S2),
    StableHlo.TRef.binary φ.v5 φ.v4 φ.v6 muli,
    StableHlo.TRef.nullary φ.c_0 (constantI S_ 64 32#64),
    StableHlo.TRef.unary φ.c_0 φ.v7 (broadcastInDim S2 ![] bcast_S_S2),
    StableHlo.TRef.binary φ.v6 φ.v7 φ.v8 Host.shrui,
    StableHlo.TRef.unary φ.v6 φ.v9 (trunci 32 · natLt_32_64),
    StableHlo.TRef.unary φ.v8 φ.v10 (trunci 32 · natLt_32_64) ]

theorem sub_seg_threefry_split_1_0 (arg0 : StableHlo.TRef sig ⟨S2, .i32⟩) (φ : fn_threefry_split_1.Bufs) : (seg_threefry_split_1_0 arg0 φ : List (HloOp τ sig (Elt F))).Forall fun op => op.bufs ⊆ tcRefs τ sig :=
  ⟨unary_bufs_sub .., reshape_bufs_sub .., unary_bufs_sub .., reshape_bufs_sub .., nullary_bufs_sub .., nullary_bufs_sub .., unary_bufs_sub .., binary_bufs_sub .., nullary_bufs_sub .., unary_bufs_sub .., binary_bufs_sub .., unary_bufs_sub .., unary_bufs_sub ..⟩

theorem fresh_seg_threefry_split_1_0 (arg0 : StableHlo.TRef sig ⟨S2, .i32⟩) (φ : fn_threefry_split_1.Bufs) : (seg_threefry_split_1_0 arg0 φ : List (HloOp τ sig (Elt F))).Forall fun op => op.fresh = ∅ :=
  ⟨rfl, rfl, rfl, rfl, rfl, rfl, rfl, rfl, rfl, rfl, rfl, rfl, rfl⟩

/-- Piece 2 of `fn_threefry_split_1.body`: 3 consecutive statements of the printed body, in order. -/
def seg_threefry_split_1_1 (arg0 : StableHlo.TRef sig ⟨S2, .i32⟩) (φ : fn_threefry_split_1.Bufs) : List (HloOp τ sig (Elt F)) :=
  [ StableHlo.TRef.unary φ.call0.v171 φ.v12 (broadcastInDim S2x1 ![0] bcast_S2_S2x1_0),
    StableHlo.TRef.unary φ.call0.v175 φ.v13 (broadcastInDim S2x1 ![0] bcast_S2_S2x1_0),
    StableHlo.TRef.binary φ.v12 φ.v13 φ.v14 (fun a b => concatenate S2x2 1 [⟨S2x1, a⟩, ⟨S2x1, b⟩] concatenates_S2x1_S2x1_S2x2_d1) ]

theorem sub_seg_threefry_split_1_1 (arg0 : StableHlo.TRef sig ⟨S2, .i32⟩) (φ : fn_threefry_split_1.Bufs) : (seg_threefry_split_1_1 arg0 φ : List (HloOp τ sig (Elt F))).Forall fun op => op.bufs ⊆ tcRefs τ sig :=
  ⟨unary_bufs_sub .., unary_bufs_sub .., binary_bufs_sub ..⟩

theorem fresh_seg_threefry_split_1_1 (arg0 : StableHlo.TRef sig ⟨S2, .i32⟩) (φ : fn_threefry_split_1.Bufs) : (seg_threefry_split_1_1 arg0 φ : List (HloOp τ sig (Elt F))).Forall fun op => op.fresh = ∅ :=
  ⟨rfl, rfl, rfl⟩

/-- The operations of `fn_threefry_split_1.body`, in program order, each call replaced by its callee's operations over the call's buffers. -/
def ops_threefry_split_1 (arg0 : StableHlo.TRef sig ⟨S2, .i32⟩) (φ : fn_threefry_split_1.Bufs) : List (HloOp τ sig (Elt F)) :=
  seg_threefry_split_1_0 arg0 φ ++ (ops_threefry2x32 φ.v1 φ.v3 φ.v10 φ.v9 φ.call0 ++ (seg_threefry_split_1_1 arg0 φ))

set_option maxRecDepth 4096 in
/-- The printed body is these operations run in sequence: sequencing over a concatenation is sequencing of the pieces (`seq_append`), and each call is its callee's line. -/
theorem eq_threefry_split_1 (arg0 : StableHlo.TRef sig ⟨S2, .i32⟩) (φ : fn_threefry_split_1.Bufs) : fn_threefry_split_1.body (F := F) arg0 φ = seq (ops_threefry_split_1 arg0 φ) := by
  simp only [ops_threefry_split_1, seq_append, ← eq_threefry2x32]
  rfl

theorem sub_threefry_split_1 (arg0 : StableHlo.TRef sig ⟨S2, .i32⟩) (φ : fn_threefry_split_1.Bufs) : (ops_threefry_split_1 arg0 φ : List (HloOp τ sig (Elt F))).Forall fun op => op.bufs ⊆ tcRefs τ sig :=
  forall_append (sub_seg_threefry_split_1_0 arg0 φ) (forall_append (sub_threefry2x32 φ.v1 φ.v3 φ.v10 φ.v9 φ.call0) (sub_seg_threefry_split_1_1 arg0 φ))

theorem fresh_threefry_split_1 (arg0 : StableHlo.TRef sig ⟨S2, .i32⟩) (φ : fn_threefry_split_1.Bufs) : (ops_threefry_split_1 arg0 φ : List (HloOp τ sig (Elt F))).Forall fun op => op.fresh = ∅ :=
  forall_append (fresh_seg_threefry_split_1_0 arg0 φ) (forall_append (fresh_threefry2x32 φ.v1 φ.v3 φ.v10 φ.v9 φ.call0) (fresh_seg_threefry_split_1_1 arg0 φ))

end Cert.ReferenceIdeal.RefRun

end
-- ==== Proof.RefOpsTfB0.lean ====
/-
  Statements of @threefry2x32_0's printed body, window 0, as a list of operations over the callee's arguments and one call's buffer record.
-/
import proofs.«209156_g27831388078850_cont_9to1_824_17_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_threefry2x32_0.body_part0`: 60 consecutive statements of the printed body, in order. -/
def seg_threefry2x32_0_p0_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S32 ![] bcast_S_S32),
    StableHlo.TRef.binary arg2 φ.v2 φ.v3 addi,
    StableHlo.TRef.unary arg1 φ.v4 (broadcastInDim S32 ![] bcast_S_S32),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S32 ![] bcast_S_S32),
    StableHlo.TRef.binary φ.v5 φ.v7 φ.v8 Host.shli,
    StableHlo.TRef.nullary φ.c_1 (constantI S_ 32 19#32),
    StableHlo.TRef.unary φ.c_1 φ.v9 (broadcastInDim S32 ![] bcast_S_S32),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S32 ![] bcast_S_S32),
    StableHlo.TRef.binary φ.v12 φ.v14 φ.v15 Host.shli,
    StableHlo.TRef.nullary φ.c_3 (constantI S_ 32 17#32),
    StableHlo.TRef.unary φ.c_3 φ.v16 (broadcastInDim S32 ![] bcast_S_S32),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S32 ![] bcast_S_S32),
    StableHlo.TRef.binary φ.v19 φ.v21 φ.v22 Host.shli,
    StableHlo.TRef.nullary φ.c_5 (constantI S_ 32 6#32),
    StableHlo.TRef.unary φ.c_5 φ.v23 (broadcastInDim S32 ![] bcast_S_S32),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S32 ![] bcast_S_S32),
    StableHlo.TRef.binary φ.v26 φ.v28 φ.v29 Host.shli,
    StableHlo.TRef.nullary φ.c_7 (constantI S_ 32 26#32),
    StableHlo.TRef.unary φ.c_7 φ.v30 (broadcastInDim S32 ![] bcast_S_S32),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S32 ![] bcast_S_S32),
    StableHlo.TRef.binary φ.v27 φ.v34 φ.v35 addi,
    StableHlo.TRef.unary φ.v1 φ.v36 (broadcastInDim S32 ![] bcast_S_S32),
    StableHlo.TRef.binary φ.v33 φ.v36 φ.v37 addi,
    StableHlo.TRef.nullary φ.c_8 (constantI S_ 32 1#32),
    StableHlo.TRef.unary φ.c_8 φ.v38 (broadcastInDim S32 ![] bcast_S_S32),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S32 ![] bcast_S_S32),
    StableHlo.TRef.binary φ.v39 φ.v41 φ.v42 Host.shli,
    StableHlo.TRef.nullary φ.c_10 (constantI S_ 32 15#32),
    StableHlo.TRef.unary φ.c_10 φ.v43 (broadcastInDim S32 ![] bcast_S_S32),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi ]

theorem sub_seg_threefry2x32_0_p0_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (seg_threefry2x32_0_p0_0 arg0 arg1 arg2 arg3 φ : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩

theorem fresh_seg_threefry2x32_0_p0_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (seg_threefry2x32_0_p0_0 arg0 arg1 arg2 arg3 φ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `fn_threefry2x32_0.body_part0`, in program order. -/
def ops_threefry2x32_0_p0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : List (HloOp τ sig (Elt F)) :=
  seg_threefry2x32_0_p0_0 arg0 arg1 arg2 arg3 φ

/-- The printed body is these operations run in sequence: both sides are one chain of `hlo` steps. -/
theorem eq_threefry2x32_0_p0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : fn_threefry2x32_0.body_part0 (F := F) arg0 arg1 arg2 arg3 φ = seq (ops_threefry2x32_0_p0 arg0 arg1 arg2 arg3 φ) := rfl

theorem sub_threefry2x32_0_p0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (ops_threefry2x32_0_p0 arg0 arg1 arg2 arg3 φ : List (HloOp τ sig (Elt F))).Forall fun op => op.bufs ⊆ tcRefs τ sig :=
  sub_seg_threefry2x32_0_p0_0 arg0 arg1 arg2 arg3 φ

theorem fresh_threefry2x32_0_p0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (ops_threefry2x32_0_p0 arg0 arg1 arg2 arg3 φ : List (HloOp τ sig (Elt F))).Forall fun op => op.fresh = ∅ :=
  fresh_seg_threefry2x32_0_p0_0 arg0 arg1 arg2 arg3 φ

end Cert.ReferenceIdeal.RefRun

end
-- ==== Proof.RefOpsTfB1.lean ====
/-
  Statements of @threefry2x32_0's printed body, window 1, as a list of operations over the callee's arguments and one call's buffer record.
-/
import proofs.«209156_g27831388078850_cont_9to1_824_17_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_threefry2x32_0.body_part1`: 60 consecutive statements of the printed body, in order. -/
def seg_threefry2x32_0_p1_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : List (HloOp τ sig (Elt F)) :=
  [ StableHlo.TRef.nullary φ.c_11 (constantI S_ 32 29#32),
    StableHlo.TRef.unary φ.c_11 φ.v48 (broadcastInDim S32 ![] bcast_S_S32),
    StableHlo.TRef.binary φ.v46 φ.v48 φ.v49 Host.shli,
    StableHlo.TRef.nullary φ.c_12 (constantI S_ 32 3#32),
    StableHlo.TRef.unary φ.c_12 φ.v50 (broadcastInDim S32 ![] bcast_S_S32),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S32 ![] bcast_S_S32),
    StableHlo.TRef.binary φ.v53 φ.v55 φ.v56 Host.shli,
    StableHlo.TRef.nullary φ.c_14 (constantI S_ 32 16#32),
    StableHlo.TRef.unary φ.c_14 φ.v57 (broadcastInDim S32 ![] bcast_S_S32),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S32 ![] bcast_S_S32),
    StableHlo.TRef.binary φ.v60 φ.v62 φ.v63 Host.shli,
    StableHlo.TRef.nullary φ.c_16 (constantI S_ 32 8#32),
    StableHlo.TRef.unary φ.c_16 φ.v64 (broadcastInDim S32 ![] bcast_S_S32),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S32 ![] bcast_S_S32),
    StableHlo.TRef.binary φ.v61 φ.v68 φ.v69 addi,
    StableHlo.TRef.unary arg0 φ.v70 (broadcastInDim S32 ![] bcast_S_S32),
    StableHlo.TRef.binary φ.v67 φ.v70 φ.v71 addi,
    StableHlo.TRef.nullary φ.c_17 (constantI S_ 32 2#32),
    StableHlo.TRef.unary φ.c_17 φ.v72 (broadcastInDim S32 ![] bcast_S_S32),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S32 ![] bcast_S_S32),
    StableHlo.TRef.binary φ.v73 φ.v75 φ.v76 Host.shli,
    StableHlo.TRef.nullary φ.c_19 (constantI S_ 32 19#32),
    StableHlo.TRef.unary φ.c_19 φ.v77 (broadcastInDim S32 ![] bcast_S_S32),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S32 ![] bcast_S_S32),
    StableHlo.TRef.binary φ.v80 φ.v82 φ.v83 Host.shli,
    StableHlo.TRef.nullary φ.c_21 (constantI S_ 32 17#32),
    StableHlo.TRef.unary φ.c_21 φ.v84 (broadcastInDim S32 ![] bcast_S_S32),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S32 ![] bcast_S_S32),
    StableHlo.TRef.binary φ.v87 φ.v89 φ.v90 Host.shli,
    StableHlo.TRef.nullary φ.c_23 (constantI S_ 32 6#32),
    StableHlo.TRef.unary φ.c_23 φ.v91 (broadcastInDim S32 ![] bcast_S_S32),
    StableHlo.TRef.binary φ.v87 φ.v91 φ.v92 Host.shrui,
    StableHlo.TRef.binary φ.v90 φ.v92 φ.v93 ori,
    StableHlo.TRef.binary φ.v88 φ.v93 φ.v94 xori ]

theorem sub_seg_threefry2x32_0_p1_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (seg_threefry2x32_0_p1_0 arg0 arg1 arg2 arg3 φ : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩

theorem fresh_seg_threefry2x32_0_p1_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (seg_threefry2x32_0_p1_0 arg0 arg1 arg2 arg3 φ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `fn_threefry2x32_0.body_part1`, in program order. -/
def ops_threefry2x32_0_p1 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : List (HloOp τ sig (Elt F)) :=
  seg_threefry2x32_0_p1_0 arg0 arg1 arg2 arg3 φ

/-- The printed body is these operations run in sequence: both sides are one chain of `hlo` steps. -/
theorem eq_threefry2x32_0_p1 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : fn_threefry2x32_0.body_part1 (F := F) arg0 arg1 arg2 arg3 φ = seq (ops_threefry2x32_0_p1 arg0 arg1 arg2 arg3 φ) := rfl

theorem sub_threefry2x32_0_p1 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (ops_threefry2x32_0_p1 arg0 arg1 arg2 arg3 φ : List (HloOp τ sig (Elt F))).Forall fun op => op.bufs ⊆ tcRefs τ sig :=
  sub_seg_threefry2x32_0_p1_0 arg0 arg1 arg2 arg3 φ

theorem fresh_threefry2x32_0_p1 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (ops_threefry2x32_0_p1 arg0 arg1 arg2 arg3 φ : List (HloOp τ sig (Elt F))).Forall fun op => op.fresh = ∅ :=
  fresh_seg_threefry2x32_0_p1_0 arg0 arg1 arg2 arg3 φ

end Cert.ReferenceIdeal.RefRun

end
-- ==== Proof.RefOpsTfB2.lean ====
/-
  Statements of @threefry2x32_0's printed body, window 2, as a list of operations over the callee's arguments and one call's buffer record.
-/
import proofs.«209156_g27831388078850_cont_9to1_824_17_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_threefry2x32_0.body_part2`: 60 consecutive statements of the printed body, in order. -/
def seg_threefry2x32_0_p2_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S32 ![] bcast_S_S32),
    StableHlo.TRef.binary φ.v94 φ.v96 φ.v97 Host.shli,
    StableHlo.TRef.nullary φ.c_25 (constantI S_ 32 26#32),
    StableHlo.TRef.unary φ.c_25 φ.v98 (broadcastInDim S32 ![] bcast_S_S32),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S32 ![] bcast_S_S32),
    StableHlo.TRef.binary φ.v95 φ.v102 φ.v103 addi,
    StableHlo.TRef.unary arg1 φ.v104 (broadcastInDim S32 ![] bcast_S_S32),
    StableHlo.TRef.binary φ.v101 φ.v104 φ.v105 addi,
    StableHlo.TRef.nullary φ.c_26 (constantI S_ 32 3#32),
    StableHlo.TRef.unary φ.c_26 φ.v106 (broadcastInDim S32 ![] bcast_S_S32),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S32 ![] bcast_S_S32),
    StableHlo.TRef.binary φ.v107 φ.v109 φ.v110 Host.shli,
    StableHlo.TRef.nullary φ.c_28 (constantI S_ 32 15#32),
    StableHlo.TRef.unary φ.c_28 φ.v111 (broadcastInDim S32 ![] bcast_S_S32),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S32 ![] bcast_S_S32),
    StableHlo.TRef.binary φ.v114 φ.v116 φ.v117 Host.shli,
    StableHlo.TRef.nullary φ.c_30 (constantI S_ 32 3#32),
    StableHlo.TRef.unary φ.c_30 φ.v118 (broadcastInDim S32 ![] bcast_S_S32),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S32 ![] bcast_S_S32),
    StableHlo.TRef.binary φ.v121 φ.v123 φ.v124 Host.shli,
    StableHlo.TRef.nullary φ.c_32 (constantI S_ 32 16#32),
    StableHlo.TRef.unary φ.c_32 φ.v125 (broadcastInDim S32 ![] bcast_S_S32),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S32 ![] bcast_S_S32),
    StableHlo.TRef.binary φ.v128 φ.v130 φ.v131 Host.shli,
    StableHlo.TRef.nullary φ.c_34 (constantI S_ 32 8#32),
    StableHlo.TRef.unary φ.c_34 φ.v132 (broadcastInDim S32 ![] bcast_S_S32),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S32 ![] bcast_S_S32),
    StableHlo.TRef.binary φ.v129 φ.v136 φ.v137 addi,
    StableHlo.TRef.unary φ.v1 φ.v138 (broadcastInDim S32 ![] bcast_S_S32),
    StableHlo.TRef.binary φ.v135 φ.v138 φ.v139 addi,
    StableHlo.TRef.nullary φ.c_35 (constantI S_ 32 4#32),
    StableHlo.TRef.unary φ.c_35 φ.v140 (broadcastInDim S32 ![] bcast_S_S32),
    StableHlo.TRef.binary φ.v139 φ.v140 φ.v141 addi,
    StableHlo.TRef.binary φ.v137 φ.v141 φ.v142 addi ]

theorem sub_seg_threefry2x32_0_p2_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (seg_threefry2x32_0_p2_0 arg0 arg1 arg2 arg3 φ : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩

theorem fresh_seg_threefry2x32_0_p2_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (seg_threefry2x32_0_p2_0 arg0 arg1 arg2 arg3 φ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `fn_threefry2x32_0.body_part2`, in program order. -/
def ops_threefry2x32_0_p2 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : List (HloOp τ sig (Elt F)) :=
  seg_threefry2x32_0_p2_0 arg0 arg1 arg2 arg3 φ

/-- The printed body is these operations run in sequence: both sides are one chain of `hlo` steps. -/
theorem eq_threefry2x32_0_p2 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : fn_threefry2x32_0.body_part2 (F := F) arg0 arg1 arg2 arg3 φ = seq (ops_threefry2x32_0_p2 arg0 arg1 arg2 arg3 φ) := rfl

theorem sub_threefry2x32_0_p2 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (ops_threefry2x32_0_p2 arg0 arg1 arg2 arg3 φ : List (HloOp τ sig (Elt F))).Forall fun op => op.bufs ⊆ tcRefs τ sig :=
  sub_seg_threefry2x32_0_p2_0 arg0 arg1 arg2 arg3 φ

theorem fresh_threefry2x32_0_p2 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (ops_threefry2x32_0_p2 arg0 arg1 arg2 arg3 φ : List (HloOp τ sig (Elt F))).Forall fun op => op.fresh = ∅ :=
  fresh_seg_threefry2x32_0_p2_0 arg0 arg1 arg2 arg3 φ

end Cert.ReferenceIdeal.RefRun

end
-- ==== Proof.RefOpsTfB3.lean ====
/-
  Statements of @threefry2x32_0's printed body, window 3, as a list of operations over the callee's arguments and one call's buffer record.
-/
import proofs.«209156_g27831388078850_cont_9to1_824_17_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_threefry2x32_0.body_part3`: 42 consecutive statements of the printed body, in order. -/
def seg_threefry2x32_0_p3_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : List (HloOp τ sig (Elt F)) :=
  [ StableHlo.TRef.nullary φ.c_36 (constantI S_ 32 13#32),
    StableHlo.TRef.unary φ.c_36 φ.v143 (broadcastInDim S32 ![] bcast_S_S32),
    StableHlo.TRef.binary φ.v141 φ.v143 φ.v144 Host.shli,
    StableHlo.TRef.nullary φ.c_37 (constantI S_ 32 19#32),
    StableHlo.TRef.unary φ.c_37 φ.v145 (broadcastInDim S32 ![] bcast_S_S32),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S32 ![] bcast_S_S32),
    StableHlo.TRef.binary φ.v148 φ.v150 φ.v151 Host.shli,
    StableHlo.TRef.nullary φ.c_39 (constantI S_ 32 17#32),
    StableHlo.TRef.unary φ.c_39 φ.v152 (broadcastInDim S32 ![] bcast_S_S32),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S32 ![] bcast_S_S32),
    StableHlo.TRef.binary φ.v155 φ.v157 φ.v158 Host.shli,
    StableHlo.TRef.nullary φ.c_41 (constantI S_ 32 6#32),
    StableHlo.TRef.unary φ.c_41 φ.v159 (broadcastInDim S32 ![] bcast_S_S32),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S32 ![] bcast_S_S32),
    StableHlo.TRef.binary φ.v162 φ.v164 φ.v165 Host.shli,
    StableHlo.TRef.nullary φ.c_43 (constantI S_ 32 26#32),
    StableHlo.TRef.unary φ.c_43 φ.v166 (broadcastInDim S32 ![] bcast_S_S32),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S32 ![] bcast_S_S32),
    StableHlo.TRef.binary φ.v163 φ.v170 φ.v171 addi,
    StableHlo.TRef.unary arg0 φ.v172 (broadcastInDim S32 ![] bcast_S_S32),
    StableHlo.TRef.binary φ.v169 φ.v172 φ.v173 addi,
    StableHlo.TRef.nullary φ.c_44 (constantI S_ 32 5#32),
    StableHlo.TRef.unary φ.c_44 φ.v174 (broadcastInDim S32 ![] bcast_S_S32),
    StableHlo.TRef.binary φ.v173 φ.v174 φ.v175 addi ]

theorem sub_seg_threefry2x32_0_p3_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (seg_threefry2x32_0_p3_0 arg0 arg1 arg2 arg3 φ : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

theorem fresh_seg_threefry2x32_0_p3_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (seg_threefry2x32_0_p3_0 arg0 arg1 arg2 arg3 φ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `fn_threefry2x32_0.body_part3`, in program order. -/
def ops_threefry2x32_0_p3 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : List (HloOp τ sig (Elt F)) :=
  seg_threefry2x32_0_p3_0 arg0 arg1 arg2 arg3 φ

/-- The printed body is these operations run in sequence: both sides are one chain of `hlo` steps. -/
theorem eq_threefry2x32_0_p3 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : fn_threefry2x32_0.body_part3 (F := F) arg0 arg1 arg2 arg3 φ = seq (ops_threefry2x32_0_p3 arg0 arg1 arg2 arg3 φ) := rfl

theorem sub_threefry2x32_0_p3 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (ops_threefry2x32_0_p3 arg0 arg1 arg2 arg3 φ : List (HloOp τ sig (Elt F))).Forall fun op => op.bufs ⊆ tcRefs τ sig :=
  sub_seg_threefry2x32_0_p3_0 arg0 arg1 arg2 arg3 φ

theorem fresh_threefry2x32_0_p3 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (ops_threefry2x32_0_p3 arg0 arg1 arg2 arg3 φ : List (HloOp τ sig (Elt F))).Forall fun op => op.fresh = ∅ :=
  fresh_seg_threefry2x32_0_p3_0 arg0 arg1 arg2 arg3 φ

end Cert.ReferenceIdeal.RefRun

end
-- ==== Proof.RefOpsTfB.lean ====
/-
  @threefry2x32_0's body as one list of operations: its four printed windows in order.
-/
import proofs.«209156_g27831388078850_cont_9to1_824_17_alg».proof.Proof.RefOpsTfB0
import proofs.«209156_g27831388078850_cont_9to1_824_17_alg».proof.Proof.RefOpsTfB1
import proofs.«209156_g27831388078850_cont_9to1_824_17_alg».proof.Proof.RefOpsTfB2
import proofs.«209156_g27831388078850_cont_9to1_824_17_alg».proof.Proof.RefOpsTfB3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The operations of `fn_threefry2x32_0.body`, in program order, each call replaced by its callee's operations over the call's buffers. -/
def ops_threefry2x32_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : List (HloOp τ sig (Elt F)) :=
  ops_threefry2x32_0_p0 arg0 arg1 arg2 arg3 φ ++ (ops_threefry2x32_0_p1 arg0 arg1 arg2 arg3 φ ++ (ops_threefry2x32_0_p2 arg0 arg1 arg2 arg3 φ ++ (ops_threefry2x32_0_p3 arg0 arg1 arg2 arg3 φ)))

set_option maxRecDepth 4096 in
/-- The printed body is these operations run in sequence: sequencing over a concatenation is sequencing of the pieces (`seq_append`), and each call is its callee's line. -/
theorem eq_threefry2x32_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : fn_threefry2x32_0.body (F := F) arg0 arg1 arg2 arg3 φ = seq (ops_threefry2x32_0 arg0 arg1 arg2 arg3 φ) := by
  simp only [ops_threefry2x32_0, seq_append, ← eq_threefry2x32_0_p0, ← eq_threefry2x32_0_p1, ← eq_threefry2x32_0_p2, ← eq_threefry2x32_0_p3]
  rfl

theorem sub_threefry2x32_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (ops_threefry2x32_0 arg0 arg1 arg2 arg3 φ : List (HloOp τ sig (Elt F))).Forall fun op => op.bufs ⊆ tcRefs τ sig :=
  forall_append (sub_threefry2x32_0_p0 arg0 arg1 arg2 arg3 φ) (forall_append (sub_threefry2x32_0_p1 arg0 arg1 arg2 arg3 φ) (forall_append (sub_threefry2x32_0_p2 arg0 arg1 arg2 arg3 φ) (sub_threefry2x32_0_p3 arg0 arg1 arg2 arg3 φ)))

theorem fresh_threefry2x32_0 (arg0 : StableHlo.TRef sig ⟨S_, .i32⟩) (arg1 : StableHlo.TRef sig ⟨S_, .i32⟩) (arg2 : StableHlo.TRef sig ⟨S32, .i32⟩) (arg3 : StableHlo.TRef sig ⟨S32, .i32⟩) (φ : fn_threefry2x32_0.Bufs) : (ops_threefry2x32_0 arg0 arg1 arg2 arg3 φ : List (HloOp τ sig (Elt F))).Forall fun op => op.fresh = ∅ :=
  forall_append (fresh_threefry2x32_0_p0 arg0 arg1 arg2 arg3 φ) (forall_append (fresh_threefry2x32_0_p1 arg0 arg1 arg2 arg3 φ) (forall_append (fresh_threefry2x32_0_p2 arg0 arg1 arg2 arg3 φ) (fresh_threefry2x32_0_p3 arg0 arg1 arg2 arg3 φ)))

end Cert.ReferenceIdeal.RefRun

end
-- ==== Proof.RefOpsUniform.lean ====
/-
  The uniform-draw function as a list of operations, its inner generator call expanded.
-/
import proofs.«209156_g27831388078850_cont_9to1_824_17_alg».proof.Proof.RefOpsTfB

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_uniform.body`: 17 consecutive statements of the printed body, in order. -/
def seg_uniform_0 (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  [ StableHlo.TRef.unary arg1 φ.v0 id,
    StableHlo.TRef.unary arg2 φ.v1 id,
    StableHlo.TRef.unary φ.v0 φ.v2 (broadcastInDim S1 ![] bcast_S_S1),
    StableHlo.TRef.unary φ.v1 φ.v3 (broadcastInDim S1 ![] bcast_S_S1),
    StableHlo.TRef.unary arg0 φ.v4 (extractStridedSlice S1 ![0] · slices_S2_S1_0),
    StableHlo.TRef.reshape φ.v4 φ.v5 rfl shapeCasts_S1_S_,
    StableHlo.TRef.unary arg0 φ.v6 (extractStridedSlice S1 ![1] · slices_S2_S1_1),
    StableHlo.TRef.reshape φ.v6 φ.v7 rfl shapeCasts_S1_S_,
    StableHlo.TRef.nullary φ.v8 (iotaInDim S32 64 0),
    StableHlo.TRef.nullary φ.c (constantI S_ 64 1#64),
    StableHlo.TRef.unary φ.c φ.v9 (broadcastInDim S32 ![] bcast_S_S32),
    StableHlo.TRef.binary φ.v9 φ.v8 φ.v10 muli,
    StableHlo.TRef.nullary φ.c_0 (constantI S_ 64 32#64),
    StableHlo.TRef.unary φ.c_0 φ.v11 (broadcastInDim S32 ![] bcast_S_S32),
    StableHlo.TRef.binary φ.v10 φ.v11 φ.v12 Host.shrui,
    StableHlo.TRef.unary φ.v10 φ.v13 (trunci 32 · natLt_32_64),
    StableHlo.TRef.unary φ.v12 φ.v14 (trunci 32 · natLt_32_64) ]

theorem sub_seg_uniform_0 (arg0 : StableHlo.TRef sig ⟨S2, .i32⟩) (arg1 : StableHlo.TRef sig ⟨S_, .f32⟩) (arg2 : StableHlo.TRef sig ⟨S_, .f32⟩) (φ : fn_uniform.Bufs) : (seg_uniform_0 arg0 arg1 arg2 φ : List (HloOp τ sig (Elt F))).Forall fun op => op.bufs ⊆ tcRefs τ sig :=
  ⟨unary_bufs_sub .., unary_bufs_sub .., unary_bufs_sub .., unary_bufs_sub .., unary_bufs_sub .., reshape_bufs_sub .., unary_bufs_sub .., reshape_bufs_sub .., nullary_bufs_sub .., nullary_bufs_sub .., unary_bufs_sub .., binary_bufs_sub .., nullary_bufs_sub .., unary_bufs_sub .., binary_bufs_sub .., unary_bufs_sub .., unary_bufs_sub ..⟩

theorem fresh_seg_uniform_0 (arg0 : StableHlo.TRef sig ⟨S2, .i32⟩) (arg1 : StableHlo.TRef sig ⟨S_, .f32⟩) (arg2 : StableHlo.TRef sig ⟨S_, .f32⟩) (φ : fn_uniform.Bufs) : (seg_uniform_0 arg0 arg1 arg2 φ : List (HloOp τ sig (Elt F))).Forall fun op => op.fresh = ∅ :=
  ⟨rfl, rfl, rfl, rfl, rfl, rfl, rfl, rfl, rfl, rfl, rfl, rfl, rfl, rfl, rfl, rfl, rfl⟩

/-- Piece 2 of `fn_uniform.body`: 18 consecutive statements of the printed body, in order. -/
def seg_uniform_1 (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  [ StableHlo.TRef.binary φ.call0.v171 φ.call0.v175 φ.v16 xori,
    StableHlo.TRef.nullary φ.c_1 (constantI S_ 32 9#32),
    StableHlo.TRef.unary φ.c_1 φ.v17 (broadcastInDim S32 ![] bcast_S_S32),
    StableHlo.TRef.binary φ.v16 φ.v17 φ.v18 Host.shrui,
    StableHlo.TRef.nullary φ.c_2 (constantI S_ 32 1065353216#32),
    StableHlo.TRef.unary φ.c_2 φ.v19 (broadcastInDim S32 ![] bcast_S_S32),
    StableHlo.TRef.binary φ.v18 φ.v19 φ.v20 ori,
    StableHlo.TRef.unary φ.v20 φ.v21 (bitcastToFloat .f32),
    StableHlo.TRef.nullary φ.cst (constant S_ .f32 0x3F800000#32),
    StableHlo.TRef.unary φ.cst φ.v22 (broadcastInDim S32 ![] bcast_S_S32),
    StableHlo.TRef.binary φ.v21 φ.v22 φ.v23 subf,
    StableHlo.TRef.binary φ.v3 φ.v2 φ.v24 subf,
    StableHlo.TRef.unary φ.v24 φ.v25 (broadcastInDim S32 ![0] bcast_S1_S32_0),
    StableHlo.TRef.binary φ.v23 φ.v25 φ.v26 mulf,
    StableHlo.TRef.unary φ.v2 φ.v27 (broadcastInDim S32 ![0] bcast_S1_S32_0),
    StableHlo.TRef.binary φ.v26 φ.v27 φ.v28 addf,
    StableHlo.TRef.unary φ.v2 φ.v29 (broadcastInDim S32 ![0] bcast_S1_S32_0),
    StableHlo.TRef.binary φ.v29 φ.v28 φ.v30 maximumf ]

theorem sub_seg_uniform_1 (arg0 : StableHlo.TRef sig ⟨S2, .i32⟩) (arg1 : StableHlo.TRef sig ⟨S_, .f32⟩) (arg2 : StableHlo.TRef sig ⟨S_, .f32⟩) (φ : fn_uniform.Bufs) : (seg_uniform_1 arg0 arg1 arg2 φ : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub ..⟩

theorem fresh_seg_uniform_1 (arg0 : StableHlo.TRef sig ⟨S2, .i32⟩) (arg1 : StableHlo.TRef sig ⟨S_, .f32⟩) (arg2 : StableHlo.TRef sig ⟨S_, .f32⟩) (φ : fn_uniform.Bufs) : (seg_uniform_1 arg0 arg1 arg2 φ : List (HloOp τ sig (Elt F))).Forall fun op => op.fresh = ∅ :=
  ⟨rfl, rfl, rfl, rfl, rfl, rfl, rfl, rfl, rfl, rfl, rfl, rfl, rfl, rfl, rfl, rfl, rfl, rfl⟩

/-- The operations of `fn_uniform.body`, in program order, each call replaced by its callee's operations over the call's buffers. -/
def ops_uniform (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  seg_uniform_0 arg0 arg1 arg2 φ ++ (ops_threefry2x32_0 φ.v5 φ.v7 φ.v14 φ.v13 φ.call0 ++ (seg_uniform_1 arg0 arg1 arg2 φ))

set_option maxRecDepth 4096 in
/-- The printed body is these operations run in sequence: sequencing over a concatenation is sequencing of the pieces (`seq_append`), and each call is its callee's line. -/
theorem eq_uniform (arg0 : StableHlo.TRef sig ⟨S2, .i32⟩) (arg1 : StableHlo.TRef sig ⟨S_, .f32⟩) (arg2 : StableHlo.TRef sig ⟨S_, .f32⟩) (φ : fn_uniform.Bufs) : fn_uniform.body (F := F) arg0 arg1 arg2 φ = seq (ops_uniform arg0 arg1 arg2 φ) := by
  simp only [ops_uniform, seq_append, ← eq_threefry2x32_0]
  rfl

theorem sub_uniform (arg0 : StableHlo.TRef sig ⟨S2, .i32⟩) (arg1 : StableHlo.TRef sig ⟨S_, .f32⟩) (arg2 : StableHlo.TRef sig ⟨S_, .f32⟩) (φ : fn_uniform.Bufs) : (ops_uniform arg0 arg1 arg2 φ : List (HloOp τ sig (Elt F))).Forall fun op => op.bufs ⊆ tcRefs τ sig :=
  forall_append (sub_seg_uniform_0 arg0 arg1 arg2 φ) (forall_append (sub_threefry2x32_0 φ.v5 φ.v7 φ.v14 φ.v13 φ.call0) (sub_seg_uniform_1 arg0 arg1 arg2 φ))

theorem fresh_uniform (arg0 : StableHlo.TRef sig ⟨S2, .i32⟩) (arg1 : StableHlo.TRef sig ⟨S_, .f32⟩) (arg2 : StableHlo.TRef sig ⟨S_, .f32⟩) (φ : fn_uniform.Bufs) : (ops_uniform arg0 arg1 arg2 φ : List (HloOp τ sig (Elt F))).Forall fun op => op.fresh = ∅ :=
  forall_append (fresh_seg_uniform_0 arg0 arg1 arg2 φ) (forall_append (fresh_threefry2x32_0 φ.v5 φ.v7 φ.v14 φ.v13 φ.call0) (fresh_seg_uniform_1 arg0 arg1 arg2 φ))

end Cert.ReferenceIdeal.RefRun

end
-- ==== Proof.RefOpsTfC0.lean ====
/-
  Statements of @threefry2x32_2's printed body, window 0, as a list of operations over the callee's arguments and one call's buffer record.
-/
import proofs.«209156_g27831388078850_cont_9to1_824_17_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_threefry2x32_2.body_part0`: 60 consecutive statements of the printed body, in order. -/
def seg_threefry2x32_2_p0_0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S128 ![] bcast_S_S128),
    StableHlo.TRef.binary arg2 φ.v2 φ.v3 addi,
    StableHlo.TRef.unary arg1 φ.v4 (broadcastInDim S128 ![] bcast_S_S128),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S128 ![] bcast_S_S128),
    StableHlo.TRef.binary φ.v5 φ.v7 φ.v8 Host.shli,
    StableHlo.TRef.nullary φ.c_1 (constantI S_ 32 19#32),
    StableHlo.TRef.unary φ.c_1 φ.v9 (broadcastInDim S128 ![] bcast_S_S128),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S128 ![] bcast_S_S128),
    StableHlo.TRef.binary φ.v12 φ.v14 φ.v15 Host.shli,
    StableHlo.TRef.nullary φ.c_3 (constantI S_ 32 17#32),
    StableHlo.TRef.unary φ.c_3 φ.v16 (broadcastInDim S128 ![] bcast_S_S128),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S128 ![] bcast_S_S128),
    StableHlo.TRef.binary φ.v19 φ.v21 φ.v22 Host.shli,
    StableHlo.TRef.nullary φ.c_5 (constantI S_ 32 6#32),
    StableHlo.TRef.unary φ.c_5 φ.v23 (broadcastInDim S128 ![] bcast_S_S128),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S128 ![] bcast_S_S128),
    StableHlo.TRef.binary φ.v26 φ.v28 φ.v29 Host.shli,
    StableHlo.TRef.nullary φ.c_7 (constantI S_ 32 26#32),
    StableHlo.TRef.unary φ.c_7 φ.v30 (broadcastInDim S128 ![] bcast_S_S128),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S128 ![] bcast_S_S128),
    StableHlo.TRef.binary φ.v27 φ.v34 φ.v35 addi,
    StableHlo.TRef.unary φ.v1 φ.v36 (broadcastInDim S128 ![] bcast_S_S128),
    StableHlo.TRef.binary φ.v33 φ.v36 φ.v37 addi,
    StableHlo.TRef.nullary φ.c_8 (constantI S_ 32 1#32),
    StableHlo.TRef.unary φ.c_8 φ.v38 (broadcastInDim S128 ![] bcast_S_S128),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S128 ![] bcast_S_S128),
    StableHlo.TRef.binary φ.v39 φ.v41 φ.v42 Host.shli,
    StableHlo.TRef.nullary φ.c_10 (constantI S_ 32 15#32),
    StableHlo.TRef.unary φ.c_10 φ.v43 (broadcastInDim S128 ![] bcast_S_S128),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi ]

theorem sub_seg_threefry2x32_2_p0_0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (seg_threefry2x32_2_p0_0 arg0 arg1 arg2 arg3 φ : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩

theorem fresh_seg_threefry2x32_2_p0_0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (seg_threefry2x32_2_p0_0 arg0 arg1 arg2 arg3 φ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `fn_threefry2x32_2.body_part0`, in program order. -/
def ops_threefry2x32_2_p0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : List (HloOp τ sig (Elt F)) :=
  seg_threefry2x32_2_p0_0 arg0 arg1 arg2 arg3 φ

/-- The printed body is these operations run in sequence: both sides are one chain of `hlo` steps. -/
theorem eq_threefry2x32_2_p0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : fn_threefry2x32_2.body_part0 (F := F) arg0 arg1 arg2 arg3 φ = seq (ops_threefry2x32_2_p0 arg0 arg1 arg2 arg3 φ) := rfl

theorem sub_threefry2x32_2_p0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (ops_threefry2x32_2_p0 arg0 arg1 arg2 arg3 φ : List (HloOp τ sig (Elt F))).Forall fun op => op.bufs ⊆ tcRefs τ sig :=
  sub_seg_threefry2x32_2_p0_0 arg0 arg1 arg2 arg3 φ

theorem fresh_threefry2x32_2_p0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (ops_threefry2x32_2_p0 arg0 arg1 arg2 arg3 φ : List (HloOp τ sig (Elt F))).Forall fun op => op.fresh = ∅ :=
  fresh_seg_threefry2x32_2_p0_0 arg0 arg1 arg2 arg3 φ

end Cert.ReferenceIdeal.RefRun

end
-- ==== Proof.RefOpsTfC1.lean ====
/-
  Statements of @threefry2x32_2's printed body, window 1, as a list of operations over the callee's arguments and one call's buffer record.
-/
import proofs.«209156_g27831388078850_cont_9to1_824_17_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_threefry2x32_2.body_part1`: 60 consecutive statements of the printed body, in order. -/
def seg_threefry2x32_2_p1_0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : List (HloOp τ sig (Elt F)) :=
  [ StableHlo.TRef.nullary φ.c_11 (constantI S_ 32 29#32),
    StableHlo.TRef.unary φ.c_11 φ.v48 (broadcastInDim S128 ![] bcast_S_S128),
    StableHlo.TRef.binary φ.v46 φ.v48 φ.v49 Host.shli,
    StableHlo.TRef.nullary φ.c_12 (constantI S_ 32 3#32),
    StableHlo.TRef.unary φ.c_12 φ.v50 (broadcastInDim S128 ![] bcast_S_S128),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S128 ![] bcast_S_S128),
    StableHlo.TRef.binary φ.v53 φ.v55 φ.v56 Host.shli,
    StableHlo.TRef.nullary φ.c_14 (constantI S_ 32 16#32),
    StableHlo.TRef.unary φ.c_14 φ.v57 (broadcastInDim S128 ![] bcast_S_S128),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S128 ![] bcast_S_S128),
    StableHlo.TRef.binary φ.v60 φ.v62 φ.v63 Host.shli,
    StableHlo.TRef.nullary φ.c_16 (constantI S_ 32 8#32),
    StableHlo.TRef.unary φ.c_16 φ.v64 (broadcastInDim S128 ![] bcast_S_S128),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S128 ![] bcast_S_S128),
    StableHlo.TRef.binary φ.v61 φ.v68 φ.v69 addi,
    StableHlo.TRef.unary arg0 φ.v70 (broadcastInDim S128 ![] bcast_S_S128),
    StableHlo.TRef.binary φ.v67 φ.v70 φ.v71 addi,
    StableHlo.TRef.nullary φ.c_17 (constantI S_ 32 2#32),
    StableHlo.TRef.unary φ.c_17 φ.v72 (broadcastInDim S128 ![] bcast_S_S128),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S128 ![] bcast_S_S128),
    StableHlo.TRef.binary φ.v73 φ.v75 φ.v76 Host.shli,
    StableHlo.TRef.nullary φ.c_19 (constantI S_ 32 19#32),
    StableHlo.TRef.unary φ.c_19 φ.v77 (broadcastInDim S128 ![] bcast_S_S128),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S128 ![] bcast_S_S128),
    StableHlo.TRef.binary φ.v80 φ.v82 φ.v83 Host.shli,
    StableHlo.TRef.nullary φ.c_21 (constantI S_ 32 17#32),
    StableHlo.TRef.unary φ.c_21 φ.v84 (broadcastInDim S128 ![] bcast_S_S128),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S128 ![] bcast_S_S128),
    StableHlo.TRef.binary φ.v87 φ.v89 φ.v90 Host.shli,
    StableHlo.TRef.nullary φ.c_23 (constantI S_ 32 6#32),
    StableHlo.TRef.unary φ.c_23 φ.v91 (broadcastInDim S128 ![] bcast_S_S128),
    StableHlo.TRef.binary φ.v87 φ.v91 φ.v92 Host.shrui,
    StableHlo.TRef.binary φ.v90 φ.v92 φ.v93 ori,
    StableHlo.TRef.binary φ.v88 φ.v93 φ.v94 xori ]

theorem sub_seg_threefry2x32_2_p1_0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (seg_threefry2x32_2_p1_0 arg0 arg1 arg2 arg3 φ : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩

theorem fresh_seg_threefry2x32_2_p1_0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (seg_threefry2x32_2_p1_0 arg0 arg1 arg2 arg3 φ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `fn_threefry2x32_2.body_part1`, in program order. -/
def ops_threefry2x32_2_p1 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : List (HloOp τ sig (Elt F)) :=
  seg_threefry2x32_2_p1_0 arg0 arg1 arg2 arg3 φ

/-- The printed body is these operations run in sequence: both sides are one chain of `hlo` steps. -/
theorem eq_threefry2x32_2_p1 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : fn_threefry2x32_2.body_part1 (F := F) arg0 arg1 arg2 arg3 φ = seq (ops_threefry2x32_2_p1 arg0 arg1 arg2 arg3 φ) := rfl

theorem sub_threefry2x32_2_p1 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (ops_threefry2x32_2_p1 arg0 arg1 arg2 arg3 φ : List (HloOp τ sig (Elt F))).Forall fun op => op.bufs ⊆ tcRefs τ sig :=
  sub_seg_threefry2x32_2_p1_0 arg0 arg1 arg2 arg3 φ

theorem fresh_threefry2x32_2_p1 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (ops_threefry2x32_2_p1 arg0 arg1 arg2 arg3 φ : List (HloOp τ sig (Elt F))).Forall fun op => op.fresh = ∅ :=
  fresh_seg_threefry2x32_2_p1_0 arg0 arg1 arg2 arg3 φ

end Cert.ReferenceIdeal.RefRun

end
-- ==== Proof.RefOpsTfC2.lean ====
/-
  Statements of @threefry2x32_2's printed body, window 2, as a list of operations over the callee's arguments and one call's buffer record.
-/
import proofs.«209156_g27831388078850_cont_9to1_824_17_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_threefry2x32_2.body_part2`: 60 consecutive statements of the printed body, in order. -/
def seg_threefry2x32_2_p2_0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S128 ![] bcast_S_S128),
    StableHlo.TRef.binary φ.v94 φ.v96 φ.v97 Host.shli,
    StableHlo.TRef.nullary φ.c_25 (constantI S_ 32 26#32),
    StableHlo.TRef.unary φ.c_25 φ.v98 (broadcastInDim S128 ![] bcast_S_S128),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S128 ![] bcast_S_S128),
    StableHlo.TRef.binary φ.v95 φ.v102 φ.v103 addi,
    StableHlo.TRef.unary arg1 φ.v104 (broadcastInDim S128 ![] bcast_S_S128),
    StableHlo.TRef.binary φ.v101 φ.v104 φ.v105 addi,
    StableHlo.TRef.nullary φ.c_26 (constantI S_ 32 3#32),
    StableHlo.TRef.unary φ.c_26 φ.v106 (broadcastInDim S128 ![] bcast_S_S128),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S128 ![] bcast_S_S128),
    StableHlo.TRef.binary φ.v107 φ.v109 φ.v110 Host.shli,
    StableHlo.TRef.nullary φ.c_28 (constantI S_ 32 15#32),
    StableHlo.TRef.unary φ.c_28 φ.v111 (broadcastInDim S128 ![] bcast_S_S128),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S128 ![] bcast_S_S128),
    StableHlo.TRef.binary φ.v114 φ.v116 φ.v117 Host.shli,
    StableHlo.TRef.nullary φ.c_30 (constantI S_ 32 3#32),
    StableHlo.TRef.unary φ.c_30 φ.v118 (broadcastInDim S128 ![] bcast_S_S128),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S128 ![] bcast_S_S128),
    StableHlo.TRef.binary φ.v121 φ.v123 φ.v124 Host.shli,
    StableHlo.TRef.nullary φ.c_32 (constantI S_ 32 16#32),
    StableHlo.TRef.unary φ.c_32 φ.v125 (broadcastInDim S128 ![] bcast_S_S128),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S128 ![] bcast_S_S128),
    StableHlo.TRef.binary φ.v128 φ.v130 φ.v131 Host.shli,
    StableHlo.TRef.nullary φ.c_34 (constantI S_ 32 8#32),
    StableHlo.TRef.unary φ.c_34 φ.v132 (broadcastInDim S128 ![] bcast_S_S128),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S128 ![] bcast_S_S128),
    StableHlo.TRef.binary φ.v129 φ.v136 φ.v137 addi,
    StableHlo.TRef.unary φ.v1 φ.v138 (broadcastInDim S128 ![] bcast_S_S128),
    StableHlo.TRef.binary φ.v135 φ.v138 φ.v139 addi,
    StableHlo.TRef.nullary φ.c_35 (constantI S_ 32 4#32),
    StableHlo.TRef.unary φ.c_35 φ.v140 (broadcastInDim S128 ![] bcast_S_S128),
    StableHlo.TRef.binary φ.v139 φ.v140 φ.v141 addi,
    StableHlo.TRef.binary φ.v137 φ.v141 φ.v142 addi ]

theorem sub_seg_threefry2x32_2_p2_0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (seg_threefry2x32_2_p2_0 arg0 arg1 arg2 arg3 φ : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩

theorem fresh_seg_threefry2x32_2_p2_0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (seg_threefry2x32_2_p2_0 arg0 arg1 arg2 arg3 φ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `fn_threefry2x32_2.body_part2`, in program order. -/
def ops_threefry2x32_2_p2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : List (HloOp τ sig (Elt F)) :=
  seg_threefry2x32_2_p2_0 arg0 arg1 arg2 arg3 φ

/-- The printed body is these operations run in sequence: both sides are one chain of `hlo` steps. -/
theorem eq_threefry2x32_2_p2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : fn_threefry2x32_2.body_part2 (F := F) arg0 arg1 arg2 arg3 φ = seq (ops_threefry2x32_2_p2 arg0 arg1 arg2 arg3 φ) := rfl

theorem sub_threefry2x32_2_p2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (ops_threefry2x32_2_p2 arg0 arg1 arg2 arg3 φ : List (HloOp τ sig (Elt F))).Forall fun op => op.bufs ⊆ tcRefs τ sig :=
  sub_seg_threefry2x32_2_p2_0 arg0 arg1 arg2 arg3 φ

theorem fresh_threefry2x32_2_p2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (ops_threefry2x32_2_p2 arg0 arg1 arg2 arg3 φ : List (HloOp τ sig (Elt F))).Forall fun op => op.fresh = ∅ :=
  fresh_seg_threefry2x32_2_p2_0 arg0 arg1 arg2 arg3 φ

end Cert.ReferenceIdeal.RefRun

end
-- ==== Proof.RefOpsTfC3.lean ====
/-
  Statements of @threefry2x32_2's printed body, window 3, as a list of operations over the callee's arguments and one call's buffer record.
-/
import proofs.«209156_g27831388078850_cont_9to1_824_17_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_threefry2x32_2.body_part3`: 42 consecutive statements of the printed body, in order. -/
def seg_threefry2x32_2_p3_0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : List (HloOp τ sig (Elt F)) :=
  [ StableHlo.TRef.nullary φ.c_36 (constantI S_ 32 13#32),
    StableHlo.TRef.unary φ.c_36 φ.v143 (broadcastInDim S128 ![] bcast_S_S128),
    StableHlo.TRef.binary φ.v141 φ.v143 φ.v144 Host.shli,
    StableHlo.TRef.nullary φ.c_37 (constantI S_ 32 19#32),
    StableHlo.TRef.unary φ.c_37 φ.v145 (broadcastInDim S128 ![] bcast_S_S128),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S128 ![] bcast_S_S128),
    StableHlo.TRef.binary φ.v148 φ.v150 φ.v151 Host.shli,
    StableHlo.TRef.nullary φ.c_39 (constantI S_ 32 17#32),
    StableHlo.TRef.unary φ.c_39 φ.v152 (broadcastInDim S128 ![] bcast_S_S128),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S128 ![] bcast_S_S128),
    StableHlo.TRef.binary φ.v155 φ.v157 φ.v158 Host.shli,
    StableHlo.TRef.nullary φ.c_41 (constantI S_ 32 6#32),
    StableHlo.TRef.unary φ.c_41 φ.v159 (broadcastInDim S128 ![] bcast_S_S128),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S128 ![] bcast_S_S128),
    StableHlo.TRef.binary φ.v162 φ.v164 φ.v165 Host.shli,
    StableHlo.TRef.nullary φ.c_43 (constantI S_ 32 26#32),
    StableHlo.TRef.unary φ.c_43 φ.v166 (broadcastInDim S128 ![] bcast_S_S128),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S128 ![] bcast_S_S128),
    StableHlo.TRef.binary φ.v163 φ.v170 φ.v171 addi,
    StableHlo.TRef.unary arg0 φ.v172 (broadcastInDim S128 ![] bcast_S_S128),
    StableHlo.TRef.binary φ.v169 φ.v172 φ.v173 addi,
    StableHlo.TRef.nullary φ.c_44 (constantI S_ 32 5#32),
    StableHlo.TRef.unary φ.c_44 φ.v174 (broadcastInDim S128 ![] bcast_S_S128),
    StableHlo.TRef.binary φ.v173 φ.v174 φ.v175 addi ]

theorem sub_seg_threefry2x32_2_p3_0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (seg_threefry2x32_2_p3_0 arg0 arg1 arg2 arg3 φ : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

theorem fresh_seg_threefry2x32_2_p3_0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (seg_threefry2x32_2_p3_0 arg0 arg1 arg2 arg3 φ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `fn_threefry2x32_2.body_part3`, in program order. -/
def ops_threefry2x32_2_p3 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : List (HloOp τ sig (Elt F)) :=
  seg_threefry2x32_2_p3_0 arg0 arg1 arg2 arg3 φ

/-- The printed body is these operations run in sequence: both sides are one chain of `hlo` steps. -/
theorem eq_threefry2x32_2_p3 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : fn_threefry2x32_2.body_part3 (F := F) arg0 arg1 arg2 arg3 φ = seq (ops_threefry2x32_2_p3 arg0 arg1 arg2 arg3 φ) := rfl

theorem sub_threefry2x32_2_p3 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (ops_threefry2x32_2_p3 arg0 arg1 arg2 arg3 φ : List (HloOp τ sig (Elt F))).Forall fun op => op.bufs ⊆ tcRefs τ sig :=
  sub_seg_threefry2x32_2_p3_0 arg0 arg1 arg2 arg3 φ

theorem fresh_threefry2x32_2_p3 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (ops_threefry2x32_2_p3 arg0 arg1 arg2 arg3 φ : List (HloOp τ sig (Elt F))).Forall fun op => op.fresh = ∅ :=
  fresh_seg_threefry2x32_2_p3_0 arg0 arg1 arg2 arg3 φ

end Cert.ReferenceIdeal.RefRun

end
-- ==== Proof.RefOpsTfC.lean ====
/-
  @threefry2x32_2's body as one list of operations: its four printed windows in order.
-/
import proofs.«209156_g27831388078850_cont_9to1_824_17_alg».proof.Proof.RefOpsTfC0
import proofs.«209156_g27831388078850_cont_9to1_824_17_alg».proof.Proof.RefOpsTfC1
import proofs.«209156_g27831388078850_cont_9to1_824_17_alg».proof.Proof.RefOpsTfC2
import proofs.«209156_g27831388078850_cont_9to1_824_17_alg».proof.Proof.RefOpsTfC3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The operations of `fn_threefry2x32_2.body`, in program order, each call replaced by its callee's operations over the call's buffers. -/
def ops_threefry2x32_2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : List (HloOp τ sig (Elt F)) :=
  ops_threefry2x32_2_p0 arg0 arg1 arg2 arg3 φ ++ (ops_threefry2x32_2_p1 arg0 arg1 arg2 arg3 φ ++ (ops_threefry2x32_2_p2 arg0 arg1 arg2 arg3 φ ++ (ops_threefry2x32_2_p3 arg0 arg1 arg2 arg3 φ)))

set_option maxRecDepth 4096 in
/-- The printed body is these operations run in sequence: sequencing over a concatenation is sequencing of the pieces (`seq_append`), and each call is its callee's line. -/
theorem eq_threefry2x32_2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : fn_threefry2x32_2.body (F := F) arg0 arg1 arg2 arg3 φ = seq (ops_threefry2x32_2 arg0 arg1 arg2 arg3 φ) := by
  simp only [ops_threefry2x32_2, seq_append, ← eq_threefry2x32_2_p0, ← eq_threefry2x32_2_p1, ← eq_threefry2x32_2_p2, ← eq_threefry2x32_2_p3]
  rfl

theorem sub_threefry2x32_2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (ops_threefry2x32_2 arg0 arg1 arg2 arg3 φ : List (HloOp τ sig (Elt F))).Forall fun op => op.bufs ⊆ tcRefs τ sig :=
  forall_append (sub_threefry2x32_2_p0 arg0 arg1 arg2 arg3 φ) (forall_append (sub_threefry2x32_2_p1 arg0 arg1 arg2 arg3 φ) (forall_append (sub_threefry2x32_2_p2 arg0 arg1 arg2 arg3 φ) (sub_threefry2x32_2_p3 arg0 arg1 arg2 arg3 φ)))

theorem fresh_threefry2x32_2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_2.Bufs) : (ops_threefry2x32_2 arg0 arg1 arg2 arg3 φ : List (HloOp τ sig (Elt F))).Forall fun op => op.fresh = ∅ :=
  forall_append (fresh_threefry2x32_2_p0 arg0 arg1 arg2 arg3 φ) (forall_append (fresh_threefry2x32_2_p1 arg0 arg1 arg2 arg3 φ) (forall_append (fresh_threefry2x32_2_p2 arg0 arg1 arg2 arg3 φ) (fresh_threefry2x32_2_p3 arg0 arg1 arg2 arg3 φ)))

end Cert.ReferenceIdeal.RefRun

end
-- ==== Proof.RefOpsShuffle.lean ====
/-
  The shuffle function as a list of operations, its two inner calls expanded.
-/
import proofs.«209156_g27831388078850_cont_9to1_824_17_alg».proof.Proof.RefOpsSplit
import proofs.«209156_g27831388078850_cont_9to1_824_17_alg».proof.Proof.RefOpsTfC

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_shuffle.body`: 17 consecutive statements of the printed body, in order. -/
def seg_shuffle_0 (arg0 : StableHlo.TRef sig ⟨S2, .i32⟩) (arg1 : StableHlo.TRef sig ⟨S128, .i32⟩) (φ : fn_shuffle.Bufs) : List (HloOp τ sig (Elt F)) :=
  [ StableHlo.TRef.unary φ.call0.v14 φ.v1 (extractStridedSlice S1x2 ![0, 0] · slices_S2x2_S1x2_0_0),
    StableHlo.TRef.reshape φ.v1 φ.v2 rfl shapeCasts_S1x2_S2,
    StableHlo.TRef.unary φ.call0.v14 φ.v3 (extractStridedSlice S1x2 ![1, 0] · slices_S2x2_S1x2_1_0),
    StableHlo.TRef.reshape φ.v3 φ.v4 rfl shapeCasts_S1x2_S2,
    StableHlo.TRef.unary φ.v4 φ.v5 (extractStridedSlice S1 ![0] · slices_S2_S1_0),
    StableHlo.TRef.reshape φ.v5 φ.v6 rfl shapeCasts_S1_S_,
    StableHlo.TRef.unary φ.v4 φ.v7 (extractStridedSlice S1 ![1] · slices_S2_S1_1),
    StableHlo.TRef.reshape φ.v7 φ.v8 rfl shapeCasts_S1_S_,
    StableHlo.TRef.nullary φ.v9 (iotaInDim S128 64 0),
    StableHlo.TRef.nullary φ.c (constantI S_ 64 1#64),
    StableHlo.TRef.unary φ.c φ.v10 (broadcastInDim S128 ![] bcast_S_S128),
    StableHlo.TRef.binary φ.v10 φ.v9 φ.v11 muli,
    StableHlo.TRef.nullary φ.c_0 (constantI S_ 64 32#64),
    StableHlo.TRef.unary φ.c_0 φ.v12 (broadcastInDim S128 ![] bcast_S_S128),
    StableHlo.TRef.binary φ.v11 φ.v12 φ.v13 Host.shrui,
    StableHlo.TRef.unary φ.v11 φ.v14 (trunci 32 · natLt_32_64),
    StableHlo.TRef.unary φ.v13 φ.v15 (trunci 32 · natLt_32_64) ]

theorem sub_seg_shuffle_0 (arg0 : StableHlo.TRef sig ⟨S2, .i32⟩) (arg1 : StableHlo.TRef sig ⟨S128, .i32⟩) (φ : fn_shuffle.Bufs) : (seg_shuffle_0 arg0 arg1 φ : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., nullary_bufs_sub .., unary_bufs_sub .., binary_bufs_sub .., nullary_bufs_sub .., unary_bufs_sub .., binary_bufs_sub .., unary_bufs_sub .., unary_bufs_sub ..⟩

theorem fresh_seg_shuffle_0 (arg0 : StableHlo.TRef sig ⟨S2, .i32⟩) (arg1 : StableHlo.TRef sig ⟨S128, .i32⟩) (φ : fn_shuffle.Bufs) : (seg_shuffle_0 arg0 arg1 φ : List (HloOp τ sig (Elt F))).Forall fun op => op.fresh = ∅ :=
  ⟨rfl, rfl, rfl, rfl, rfl, rfl, rfl, rfl, rfl, rfl, rfl, rfl, rfl, rfl, rfl, rfl, rfl⟩

/-- Piece 2 of `fn_shuffle.body`: 3 consecutive statements of the printed body, in order. -/
def seg_shuffle_1 (arg0 : StableHlo.TRef sig ⟨S2, .i32⟩) (arg1 : StableHlo.TRef sig ⟨S128, .i32⟩) (φ : fn_shuffle.Bufs) : List (HloOp τ sig (Elt F)) :=
  [ StableHlo.TRef.binary φ.call1.v171 φ.call1.v175 φ.v17 xori,
    StableHlo.TRef.binary φ.v17 arg1 φ.v18_0 (fun x y => (Host.sort2 S128 0 comparator_i32_i32_d0 x y).1),
    StableHlo.TRef.binary φ.v17 arg1 φ.v18_1 (fun x y => (Host.sort2 S128 0 comparator_i32_i32_d0 x y).2) ]

theorem sub_seg_shuffle_1 (arg0 : StableHlo.TRef sig ⟨S2, .i32⟩) (arg1 : StableHlo.TRef sig ⟨S128, .i32⟩) (φ : fn_shuffle.Bufs) : (seg_shuffle_1 arg0 arg1 φ : List (HloOp τ sig (Elt F))).Forall fun op => op.bufs ⊆ tcRefs τ sig :=
  ⟨binary_bufs_sub .., binary_bufs_sub .., binary_bufs_sub ..⟩

theorem fresh_seg_shuffle_1 (arg0 : StableHlo.TRef sig ⟨S2, .i32⟩) (arg1 : StableHlo.TRef sig ⟨S128, .i32⟩) (φ : fn_shuffle.Bufs) : (seg_shuffle_1 arg0 arg1 φ : List (HloOp τ sig (Elt F))).Forall fun op => op.fresh = ∅ :=
  ⟨rfl, rfl, rfl⟩

/-- The operations of `fn_shuffle.body`, in program order, each call replaced by its callee's operations over the call's buffers. -/
def ops_shuffle (arg0 : StableHlo.TRef sig ⟨S2, .i32⟩) (arg1 : StableHlo.TRef sig ⟨S128, .i32⟩) (φ : fn_shuffle.Bufs) : List (HloOp τ sig (Elt F)) :=
  ops_threefry_split_1 arg0 φ.call0 ++ (seg_shuffle_0 arg0 arg1 φ ++ (ops_threefry2x32_2 φ.v6 φ.v8 φ.v15 φ.v14 φ.call1 ++ (seg_shuffle_1 arg0 arg1 φ)))

set_option maxRecDepth 4096 in
/-- The printed body is these operations run in sequence: sequencing over a concatenation is sequencing of the pieces (`seq_append`), and each call is its callee's line. -/
theorem eq_shuffle (arg0 : StableHlo.TRef sig ⟨S2, .i32⟩) (arg1 : StableHlo.TRef sig ⟨S128, .i32⟩) (φ : fn_shuffle.Bufs) : fn_shuffle.body (F := F) arg0 arg1 φ = seq (ops_shuffle arg0 arg1 φ) := by
  simp only [ops_shuffle, seq_append, ← eq_threefry_split_1, ← eq_threefry2x32_2]
  rfl

theorem sub_shuffle (arg0 : StableHlo.TRef sig ⟨S2, .i32⟩) (arg1 : StableHlo.TRef sig ⟨S128, .i32⟩) (φ : fn_shuffle.Bufs) : (ops_shuffle arg0 arg1 φ : List (HloOp τ sig (Elt F))).Forall fun op => op.bufs ⊆ tcRefs τ sig :=
  forall_append (sub_threefry_split_1 arg0 φ.call0) (forall_append (sub_seg_shuffle_0 arg0 arg1 φ) (forall_append (sub_threefry2x32_2 φ.v6 φ.v8 φ.v15 φ.v14 φ.call1) (sub_seg_shuffle_1 arg0 arg1 φ)))

theorem fresh_shuffle (arg0 : StableHlo.TRef sig ⟨S2, .i32⟩) (arg1 : StableHlo.TRef sig ⟨S128, .i32⟩) (φ : fn_shuffle.Bufs) : (ops_shuffle arg0 arg1 φ : List (HloOp τ sig (Elt F))).Forall fun op => op.fresh = ∅ :=
  forall_append (fresh_threefry_split_1 arg0 φ.call0) (forall_append (fresh_seg_shuffle_0 arg0 arg1 φ) (forall_append (fresh_threefry2x32_2 φ.v6 φ.v8 φ.v15 φ.v14 φ.call1) (fresh_seg_shuffle_1 arg0 arg1 φ)))

end Cert.ReferenceIdeal.RefRun

end
-- ==== Proof.RefOpsWhere.lean ====
/-
  The two select functions as lists of operations.
-/
import proofs.«209156_g27831388078850_cont_9to1_824_17_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `fn_where.body`: 2 consecutive statements of the printed body, in order. -/
def seg_where_0 (arg0 : StableHlo.TRef sig ⟨S32x1x1x1, .i1⟩) (arg1 : StableHlo.TRef sig ⟨S32x3x256x256, .f32⟩) (arg2 : StableHlo.TRef sig ⟨S32x3x256x256, .f32⟩) (φ : fn_where.Bufs) : List (HloOp τ sig (Elt F)) :=
  [ StableHlo.TRef.unary arg0 φ.v0 (broadcastInDim S32x3x256x256 ![0, 1, 2, 3] bcast_S32x1x1x1_S32x3x256x256_0_1_2_3),
    StableHlo.TRef.ternary φ.v0 arg1 arg2 φ.v1 select ]

theorem sub_seg_where_0 (arg0 : StableHlo.TRef sig ⟨S32x1x1x1, .i1⟩) (arg1 : StableHlo.TRef sig ⟨S32x3x256x256, .f32⟩) (arg2 : StableHlo.TRef sig ⟨S32x3x256x256, .f32⟩) (φ : fn_where.Bufs) : (seg_where_0 arg0 arg1 arg2 φ : List (HloOp τ sig (Elt F))).Forall fun op => op.bufs ⊆ tcRefs τ sig :=
  ⟨unary_bufs_sub .., ternary_bufs_sub ..⟩

theorem fresh_seg_where_0 (arg0 : StableHlo.TRef sig ⟨S32x1x1x1, .i1⟩) (arg1 : StableHlo.TRef sig ⟨S32x3x256x256, .f32⟩) (arg2 : StableHlo.TRef sig ⟨S32x3x256x256, .f32⟩) (φ : fn_where.Bufs) : (seg_where_0 arg0 arg1 arg2 φ : List (HloOp τ sig (Elt F))).Forall fun op => op.fresh = ∅ :=
  ⟨rfl, rfl⟩

/-- The operations of `fn_where.body`, in program order. -/
def ops_where (arg0 : StableHlo.TRef sig ⟨S32x1x1x1, .i1⟩) (arg1 : StableHlo.TRef sig ⟨S32x3x256x256, .f32⟩) (arg2 : StableHlo.TRef sig ⟨S32x3x256x256, .f32⟩) (φ : fn_where.Bufs) : List (HloOp τ sig (Elt F)) :=
  seg_where_0 arg0 arg1 arg2 φ

/-- The printed body is these operations run in sequence: both sides are one chain of `hlo` steps. -/
theorem eq_where (arg0 : StableHlo.TRef sig ⟨S32x1x1x1, .i1⟩) (arg1 : StableHlo.TRef sig ⟨S32x3x256x256, .f32⟩) (arg2 : StableHlo.TRef sig ⟨S32x3x256x256, .f32⟩) (φ : fn_where.Bufs) : fn_where.body (F := F) arg0 arg1 arg2 φ = seq (ops_where arg0 arg1 arg2 φ) := rfl

theorem sub_where (arg0 : StableHlo.TRef sig ⟨S32x1x1x1, .i1⟩) (arg1 : StableHlo.TRef sig ⟨S32x3x256x256, .f32⟩) (arg2 : StableHlo.TRef sig ⟨S32x3x256x256, .f32⟩) (φ : fn_where.Bufs) : (ops_where arg0 arg1 arg2 φ : List (HloOp τ sig (Elt F))).Forall fun op => op.bufs ⊆ tcRefs τ sig :=
  sub_seg_where_0 arg0 arg1 arg2 φ

theorem fresh_where (arg0 : StableHlo.TRef sig ⟨S32x1x1x1, .i1⟩) (arg1 : StableHlo.TRef sig ⟨S32x3x256x256, .f32⟩) (arg2 : StableHlo.TRef sig ⟨S32x3x256x256, .f32⟩) (φ : fn_where.Bufs) : (ops_where arg0 arg1 arg2 φ : List (HloOp τ sig (Elt F))).Forall fun op => op.fresh = ∅ :=
  fresh_seg_where_0 arg0 arg1 arg2 φ

/-- Piece 1 of `fn_where_3.body`: 2 consecutive statements of the printed body, in order. -/
def seg_where_3_0 (arg0 : StableHlo.TRef sig ⟨S32x1x1x1, .i1⟩) (arg1 : StableHlo.TRef sig ⟨S32x3x256x256, .f32⟩) (arg2 : StableHlo.TRef sig ⟨S32x3x256x256, .f32⟩) (φ : fn_where_3.Bufs) : List (HloOp τ sig (Elt F)) :=
  [ StableHlo.TRef.unary arg0 φ.v0 (broadcastInDim S32x3x256x256 ![0, 1, 2, 3] bcast_S32x1x1x1_S32x3x256x256_0_1_2_3),
    StableHlo.TRef.ternary φ.v0 arg1 arg2 φ.v1 select ]

theorem sub_seg_where_3_0 (arg0 : StableHlo.TRef sig ⟨S32x1x1x1, .i1⟩) (arg1 : StableHlo.TRef sig ⟨S32x3x256x256, .f32⟩) (arg2 : StableHlo.TRef sig ⟨S32x3x256x256, .f32⟩) (φ : fn_where_3.Bufs) : (seg_where_3_0 arg0 arg1 arg2 φ : List (HloOp τ sig (Elt F))).Forall fun op => op.bufs ⊆ tcRefs τ sig :=
  ⟨unary_bufs_sub .., ternary_bufs_sub ..⟩

theorem fresh_seg_where_3_0 (arg0 : StableHlo.TRef sig ⟨S32x1x1x1, .i1⟩) (arg1 : StableHlo.TRef sig ⟨S32x3x256x256, .f32⟩) (arg2 : StableHlo.TRef sig ⟨S32x3x256x256, .f32⟩) (φ : fn_where_3.Bufs) : (seg_where_3_0 arg0 arg1 arg2 φ : List (HloOp τ sig (Elt F))).Forall fun op => op.fresh = ∅ :=
  ⟨rfl, rfl⟩

/-- The operations of `fn_where_3.body`, in program order. -/
def ops_where_3 (arg0 : StableHlo.TRef sig ⟨S32x1x1x1, .i1⟩) (arg1 : StableHlo.TRef sig ⟨S32x3x256x256, .f32⟩) (arg2 : StableHlo.TRef sig ⟨S32x3x256x256, .f32⟩) (φ : fn_where_3.Bufs) : List (HloOp τ sig (Elt F)) :=
  seg_where_3_0 arg0 arg1 arg2 φ

/-- The printed body is these operations run in sequence: both sides are one chain of `hlo` steps. -/
theorem eq_where_3 (arg0 : StableHlo.TRef sig ⟨S32x1x1x1, .i1⟩) (arg1 : StableHlo.TRef sig ⟨S32x3x256x256, .f32⟩) (arg2 : StableHlo.TRef sig ⟨S32x3x256x256, .f32⟩) (φ : fn_where_3.Bufs) : fn_where_3.body (F := F) arg0 arg1 arg2 φ = seq (ops_where_3 arg0 arg1 arg2 φ) := rfl

theorem sub_where_3 (arg0 : StableHlo.TRef sig ⟨S32x1x1x1, .i1⟩) (arg1 : StableHlo.TRef sig ⟨S32x3x256x256, .f32⟩) (arg2 : StableHlo.TRef sig ⟨S32x3x256x256, .f32⟩) (φ : fn_where_3.Bufs) : (ops_where_3 arg0 arg1 arg2 φ : List (HloOp τ sig (Elt F))).Forall fun op => op.bufs ⊆ tcRefs τ sig :=
  sub_seg_where_3_0 arg0 arg1 arg2 φ

theorem fresh_where_3 (arg0 : StableHlo.TRef sig ⟨S32x1x1x1, .i1⟩) (arg1 : StableHlo.TRef sig ⟨S32x3x256x256, .f32⟩) (arg2 : StableHlo.TRef sig ⟨S32x3x256x256, .f32⟩) (φ : fn_where_3.Bufs) : (ops_where_3 arg0 arg1 arg2 φ : List (HloOp τ sig (Elt F))).Forall fun op => op.fresh = ∅ :=
  fresh_seg_where_3_0 arg0 arg1 arg2 φ

end Cert.ReferenceIdeal.RefRun

end
-- ==== Proof.RefOpsMain.lean ====
/-
  @main as one list of operations (its five calls expanded over their buffer records), and its run: every weakly fair execution terminates with each buffer at the fold of the operations over the launch contents.
-/
import proofs.«209156_g27831388078850_cont_9to1_824_17_alg».proof.Proof.RefOpsSplit
import proofs.«209156_g27831388078850_cont_9to1_824_17_alg».proof.Proof.RefOpsUniform
import proofs.«209156_g27831388078850_cont_9to1_824_17_alg».proof.Proof.RefOpsShuffle
import proofs.«209156_g27831388078850_cont_9to1_824_17_alg».proof.Proof.RefOpsWhere

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Piece 1 of `main`: 10 consecutive statements of the printed body, in order. -/
def seg_main_0  : List (HloOp τ sig (Elt F)) :=
  [ StableHlo.nullary main_c (constantI S_ 32 42#32),
    StableHlo.nullary main_c_0 (constantI S_ 32 32#32),
    StableHlo.binary main_c main_c_0 main_v0 (Host.shrui : (⟨S_, .i32⟩ : BufTy).Contents (Elt F) → (⟨S_, .i32⟩ : BufTy).Contents (Elt F) → (⟨S_, .i32⟩ : BufTy).Contents (Elt F)),
    StableHlo.unary main_v0 main_v1 (id : (⟨S_, .i32⟩ : BufTy).Contents (Elt F) → (⟨S_, .i32⟩ : BufTy).Contents (Elt F)),
    StableHlo.unary main_v1 main_v2 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v3 (andi : (⟨S_, .i32⟩ : BufTy).Contents (Elt F) → (⟨S_, .i32⟩ : BufTy).Contents (Elt F) → (⟨S_, .i32⟩ : BufTy).Contents (Elt F)),
    StableHlo.unary main_v3 main_v4 (id : (⟨S_, .i32⟩ : BufTy).Contents (Elt F) → (⟨S_, .i32⟩ : BufTy).Contents (Elt F)),
    StableHlo.unary main_v4 main_v5 (broadcastInDim S1 ![] bcast_S_S1 : (⟨S_, .i32⟩ : BufTy).Contents (Elt F) → (⟨S1, .i32⟩ : BufTy).Contents (Elt F)),
    StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

theorem sub_seg_main_0  : (seg_main_0 : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub ..⟩

theorem fresh_seg_main_0  : (seg_main_0 : List (HloOp τ sig (Elt F))).Forall fun op => op.fresh = ∅ :=
  ⟨rfl, rfl, rfl, rfl, rfl, rfl, rfl, rfl, rfl, rfl⟩

/-- Piece 2 of `main`: 6 consecutive statements of the printed body, in order. -/
def seg_main_1  : List (HloOp τ sig (Elt F)) :=
  [ StableHlo.unary main_v7 main_v8 ((extractStridedSlice S1x2 ![0, 0] · slices_S2x2_S1x2_0_0) : (⟨S2x2, .i32⟩ : BufTy).Contents (Elt F) → (⟨S1x2, .i32⟩ : BufTy).Contents (Elt F)),
    StableHlo.reshape main_v8 main_v9 rfl shapeCasts_S1x2_S2,
    StableHlo.unary main_v7 main_v10 ((extractStridedSlice S1x2 ![1, 0] · slices_S2x2_S1x2_1_0) : (⟨S2x2, .i32⟩ : BufTy).Contents (Elt F) → (⟨S1x2, .i32⟩ : BufTy).Contents (Elt F)),
    StableHlo.reshape main_v10 main_v11 rfl shapeCasts_S1x2_S2,
    StableHlo.nullary main_cst (constant S_ .f32 0x00000000#32),
    StableHlo.nullary main_cst_2 (constant S_ .f32 0x3F800000#32) ]

theorem sub_seg_main_1  : (seg_main_1 : List (HloOp τ sig (Elt F))).Forall fun op => op.bufs ⊆ tcRefs τ sig :=
  ⟨unary_bufs_sub .., reshape_bufs_sub .., unary_bufs_sub .., reshape_bufs_sub .., nullary_bufs_sub .., nullary_bufs_sub ..⟩

theorem fresh_seg_main_1  : (seg_main_1 : List (HloOp τ sig (Elt F))).Forall fun op => op.fresh = ∅ :=
  ⟨rfl, rfl, rfl, rfl, rfl, rfl⟩

/-- Piece 3 of `main`: 4 consecutive statements of the printed body, in order. -/
def seg_main_2  : List (HloOp τ sig (Elt F)) :=
  [ StableHlo.nullary main_cst_3 (constant S_ .f32 0x3F000000#32),
    StableHlo.unary main_cst_3 main_v13 (broadcastInDim S32 ![] bcast_S_S32 : (⟨S_, .f32⟩ : BufTy).Contents (Elt F) → (⟨S32, .f32⟩ : BufTy).Contents (Elt F)),
    StableHlo.binary main_v12 main_v13 main_v14 (cmpf .ogt : (⟨S32, .f32⟩ : BufTy).Contents (Elt F) → (⟨S32, .f32⟩ : BufTy).Contents (Elt F) → (⟨S32, .i1⟩ : BufTy).Contents (Elt F)),
    StableHlo.nullary main_v15 (iotaInDim S128 32 0) ]

theorem sub_seg_main_2  : (seg_main_2 : List (HloOp τ sig (Elt F))).Forall fun op => op.bufs ⊆ tcRefs τ sig :=
  ⟨nullary_bufs_sub .., unary_bufs_sub .., binary_bufs_sub .., nullary_bufs_sub ..⟩

theorem fresh_seg_main_2  : (seg_main_2 : List (HloOp τ sig (Elt F))).Forall fun op => op.fresh = ∅ :=
  ⟨rfl, rfl, rfl, rfl⟩

/-- Piece 4 of `main`: 11 consecutive statements of the printed body, in order. -/
def seg_main_3  : List (HloOp τ sig (Elt F)) :=
  [ StableHlo.unary main_v16 main_v17 ((extractStridedSlice S32 ![0] · slices_S128_S32_0) : (⟨S128, .i32⟩ : BufTy).Contents (Elt F) → (⟨S32, .i32⟩ : BufTy).Contents (Elt F)),
    StableHlo.unary main_v14 main_v18 (broadcastInDim S32x1x1x1 ![0] bcast_S32_S32x1x1x1_0 : (⟨S32, .i1⟩ : BufTy).Contents (Elt F) → (⟨S32x1x1x1, .i1⟩ : BufTy).Contents (Elt F)),
    StableHlo.nullary main_c_4 (constantI S_ 32 0#32),
    StableHlo.unary main_c_4 main_v19 (broadcastInDim S32 ![] bcast_S_S32 : (⟨S_, .i32⟩ : BufTy).Contents (Elt F) → (⟨S32, .i32⟩ : BufTy).Contents (Elt F)),
    StableHlo.binary main_v17 main_v19 main_v20 (cmpi .slt : (⟨S32, .i32⟩ : BufTy).Contents (Elt F) → (⟨S32, .i32⟩ : BufTy).Contents (Elt F) → (⟨S32, .i1⟩ : BufTy).Contents (Elt F)),
    StableHlo.nullary main_c_5 (constantI S_ 32 128#32),
    StableHlo.unary main_c_5 main_v21 (broadcastInDim S32 ![] bcast_S_S32 : (⟨S_, .i32⟩ : BufTy).Contents (Elt F) → (⟨S32, .i32⟩ : BufTy).Contents (Elt F)),
    StableHlo.binary main_v17 main_v21 main_v22 (addi : (⟨S32, .i32⟩ : BufTy).Contents (Elt F) → (⟨S32, .i32⟩ : BufTy).Contents (Elt F) → (⟨S32, .i32⟩ : BufTy).Contents (Elt F)),
    StableHlo.ternary main_v20 main_v22 main_v17 main_v23 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v23 main_v24 (broadcastInDim S32x1 ![0] bcast_S32_S32x1_0 : (⟨S32, .i32⟩ : BufTy).Contents (Elt F) → (⟨S32x1, .i32⟩ : BufTy).Contents (Elt F)),
    StableHlo.binary main_arg1 main_v24 main_v25 ((fun x i => Host.gather gather_S128x3x256x256_S32x1_S32x3x256x256_123_0_n_n_0_1_13256256 x i) : (⟨S128x3x256x256, .f32⟩ : BufTy).Contents (Elt F) → (⟨S32x1, .i32⟩ : BufTy).Contents (Elt F) → (⟨S32x3x256x256, .f32⟩ : BufTy).Contents (Elt F)) ]

theorem sub_seg_main_3  : (seg_main_3 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩

theorem fresh_seg_main_3  : (seg_main_3 : List (HloOp τ sig (Elt F))).Forall fun op => op.fresh = ∅ :=
  ⟨rfl, rfl, rfl, rfl, rfl, rfl, rfl, rfl, rfl, rfl, rfl⟩

/-- Piece 5 of `main`: 9 consecutive statements of the printed body, in order. -/
def seg_main_4  : List (HloOp τ sig (Elt F)) :=
  [ StableHlo.nullary main_c_6 (constantI S_ 32 0#32),
    StableHlo.unary main_c_6 main_v28 (broadcastInDim S32 ![] bcast_S_S32 : (⟨S_, .i32⟩ : BufTy).Contents (Elt F) → (⟨S32, .i32⟩ : BufTy).Contents (Elt F)),
    StableHlo.binary main_v17 main_v28 main_v29 (cmpi .slt : (⟨S32, .i32⟩ : BufTy).Contents (Elt F) → (⟨S32, .i32⟩ : BufTy).Contents (Elt F) → (⟨S32, .i1⟩ : BufTy).Contents (Elt F)),
    StableHlo.nullary main_c_7 (constantI S_ 32 128#32),
    StableHlo.unary main_c_7 main_v30 (broadcastInDim S32 ![] bcast_S_S32 : (⟨S_, .i32⟩ : BufTy).Contents (Elt F) → (⟨S32, .i32⟩ : BufTy).Contents (Elt F)),
    StableHlo.binary main_v17 main_v30 main_v31 (addi : (⟨S32, .i32⟩ : BufTy).Contents (Elt F) → (⟨S32, .i32⟩ : BufTy).Contents (Elt F) → (⟨S32, .i32⟩ : BufTy).Contents (Elt F)),
    StableHlo.ternary main_v29 main_v31 main_v17 main_v32 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v32 main_v33 (broadcastInDim S32x1 ![0] bcast_S32_S32x1_0 : (⟨S32, .i32⟩ : BufTy).Contents (Elt F) → (⟨S32x1, .i32⟩ : BufTy).Contents (Elt F)),
    StableHlo.ternary main_arg1 main_v33 main_v27 main_v34 ((fun x i u => Host.scatter scatter_S128x3x256x256_S32x1_S32x3x256x256_123_0_0_1 (fun _ b => b) x i u) : (⟨S128x3x256x256, .f32⟩ : BufTy).Contents (Elt F) → (⟨S32x1, .i32⟩ : BufTy).Contents (Elt F) → (⟨S32x3x256x256, .f32⟩ : BufTy).Contents (Elt F) → (⟨S128x3x256x256, .f32⟩ : BufTy).Contents (Elt F)) ]

theorem sub_seg_main_4  : (seg_main_4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., ternary_bufs_sub ..⟩

theorem fresh_seg_main_4  : (seg_main_4 : List (HloOp τ sig (Elt F))).Forall fun op => op.fresh = ∅ :=
  ⟨rfl, rfl, rfl, rfl, rfl, rfl, rfl, rfl, rfl⟩

/-- The operations of `main`, in program order, each call replaced by its callee's operations over the call's buffers. -/
def ops_main  : List (HloOp τ sig (Elt F)) :=
  seg_main_0 ++ (ops_threefry_split (.of main_v6) main_call0 ++ (seg_main_1 ++ (ops_uniform (.of main_v9) (.of main_cst) (.of main_cst_2) main_call1 ++ (seg_main_2 ++ (ops_shuffle (.of main_v11) (.of main_v15) main_call2 ++ (seg_main_3 ++ (ops_where (.of main_v18) (.of main_v25) (.of main_arg0) main_call3 ++ (ops_where_3 (.of main_v18) (.of main_arg0) (.of main_v25) main_call4 ++ (seg_main_4)))))))))

set_option maxRecDepth 4096 in
/-- The printed body is these operations run in sequence: sequencing over a concatenation is sequencing of the pieces (`seq_append`), and each call is its callee's line. -/
theorem eq_main (c : Dev nD)  : main (F := F) c = seq (ops_main) := by
  simp only [ops_main, seq_append, ← eq_threefry_split, ← eq_uniform, ← eq_shuffle, ← eq_where, ← eq_where_3]
  rfl

theorem sub_main  : (ops_main : List (HloOp τ sig (Elt F))).Forall fun op => op.bufs ⊆ tcRefs τ sig :=
  forall_append (sub_seg_main_0) (forall_append (sub_threefry_split (.of main_v6) main_call0) (forall_append (sub_seg_main_1) (forall_append (sub_uniform (.of main_v9) (.of main_cst) (.of main_cst_2) main_call1) (forall_append (sub_seg_main_2) (forall_append (sub_shuffle (.of main_v11) (.of main_v15) main_call2) (forall_append (sub_seg_main_3) (forall_append (sub_where (.of main_v18) (.of main_v25) (.of main_arg0) main_call3) (forall_append (sub_where_3 (.of main_v18) (.of main_arg0) (.of main_v25) main_call4) (sub_seg_main_4)))))))))

theorem fresh_main  : (ops_main : List (HloOp τ sig (Elt F))).Forall fun op => op.fresh = ∅ :=
  forall_append (fresh_seg_main_0) (forall_append (fresh_threefry_split (.of main_v6) main_call0) (forall_append (fresh_seg_main_1) (forall_append (fresh_uniform (.of main_v9) (.of main_cst) (.of main_cst_2) main_call1) (forall_append (fresh_seg_main_2) (forall_append (fresh_shuffle (.of main_v11) (.of main_v15) main_call2) (forall_append (fresh_seg_main_3) (forall_append (fresh_where (.of main_v18) (.of main_v25) (.of main_arg0) main_call3) (forall_append (fresh_where_3 (.of main_v18) (.of main_arg0) (.of main_v25) main_call4) (fresh_seg_main_4)))))))))

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops_main (F := F)) (launchContents m c) (b : DevRef τ sig) :=
  run_seq scopedRefs_eq scopedSems_eq defs main (fun _ => ops_main) eq_main (fun _ => sub_main) m ρ
    (fun _ => List.forall_iff_forall_mem.1 fresh_main)

end Cert.ReferenceIdeal.RefRun

end
-- ==== Proof.RefOpsTermTf.lean ====
/-
  The values the counter-based generator's printed body computes, window by window: for each of its four printed
  windows and each value a later window (or the caller) reads, the term that applies, in program order, the
  operation of each statement to the terms of its operands, as a function of the values the window itself reads
  from outside.  The three printed instances differ only in the shape of the counter arrays ([2], [32], [128]);
  the terms are stated once over the shape and its scalar-broadcast fact.  Definitions only.
-/
import proofs.«209156_g27831388078850_cont_9to1_824_17_alg».proof.ReferenceIdeal

namespace Cert.ReferenceIdeal.RefRun.T

open Idealize.ShloMosaic Cert.ReferenceIdeal

/-- Window 0 of the counter-based generator's body: the value %1 as a term of the values the window reads from outside it (3 of its statements, in program order). -/
def tfP0_v1 {S : Shape} (hb : S_.BroadcastsInDim S (![] : Fin 0 → Fin S.rank)) (arg0 : IVec S_ 32) (arg1 : IVec S_ 32) (arg2 : IVec S 32) (arg3 : IVec S 32) : IVec S_ 32 :=
  let v0 : IVec S_ 32 := xori arg0 arg1
  let c : IVec S_ 32 := (constantI S_ 32 466688986#32)
  let v1 : IVec S_ 32 := xori v0 c
  v1

/-- Window 0 of the counter-based generator's body: the value %46 as a term of the values the window reads from outside it (59 of its statements, in program order). -/
def tfP0_v46 {S : Shape} (hb : S_.BroadcastsInDim S (![] : Fin 0 → Fin S.rank)) (arg0 : IVec S_ 32) (arg1 : IVec S_ 32) (arg2 : IVec S 32) (arg3 : IVec S 32) : IVec S 32 :=
  let v0 : IVec S_ 32 := xori arg0 arg1
  let c : IVec S_ 32 := (constantI S_ 32 466688986#32)
  let v1 : IVec S_ 32 := xori v0 c
  let v2 : IVec S 32 := (broadcastInDim S ![] hb) arg0
  let v3 : IVec S 32 := addi arg2 v2
  let v4 : IVec S 32 := (broadcastInDim S ![] hb) arg1
  let v5 : IVec S 32 := addi arg3 v4
  let v6 : IVec S 32 := addi v3 v5
  let c_0 : IVec S_ 32 := (constantI S_ 32 13#32)
  let v7 : IVec S 32 := (broadcastInDim S ![] hb) c_0
  let v8 : IVec S 32 := Host.shli v5 v7
  let c_1 : IVec S_ 32 := (constantI S_ 32 19#32)
  let v9 : IVec S 32 := (broadcastInDim S ![] hb) c_1
  let v10 : IVec S 32 := Host.shrui v5 v9
  let v11 : IVec S 32 := ori v8 v10
  let v12 : IVec S 32 := xori v6 v11
  let v13 : IVec S 32 := addi v6 v12
  let c_2 : IVec S_ 32 := (constantI S_ 32 15#32)
  let v14 : IVec S 32 := (broadcastInDim S ![] hb) c_2
  let v15 : IVec S 32 := Host.shli v12 v14
  let c_3 : IVec S_ 32 := (constantI S_ 32 17#32)
  let v16 : IVec S 32 := (broadcastInDim S ![] hb) c_3
  let v17 : IVec S 32 := Host.shrui v12 v16
  let v18 : IVec S 32 := ori v15 v17
  let v19 : IVec S 32 := xori v13 v18
  let v20 : IVec S 32 := addi v13 v19
  let c_4 : IVec S_ 32 := (constantI S_ 32 26#32)
  let v21 : IVec S 32 := (broadcastInDim S ![] hb) c_4
  let v22 : IVec S 32 := Host.shli v19 v21
  let c_5 : IVec S_ 32 := (constantI S_ 32 6#32)
  let v23 : IVec S 32 := (broadcastInDim S ![] hb) c_5
  let v24 : IVec S 32 := Host.shrui v19 v23
  let v25 : IVec S 32 := ori v22 v24
  let v26 : IVec S 32 := xori v20 v25
  let v27 : IVec S 32 := addi v20 v26
  let c_6 : IVec S_ 32 := (constantI S_ 32 6#32)
  let v28 : IVec S 32 := (broadcastInDim S ![] hb) c_6
  let v29 : IVec S 32 := Host.shli v26 v28
  let c_7 : IVec S_ 32 := (constantI S_ 32 26#32)
  let v30 : IVec S 32 := (broadcastInDim S ![] hb) c_7
  let v31 : IVec S 32 := Host.shrui v26 v30
  let v32 : IVec S 32 := ori v29 v31
  let v33 : IVec S 32 := xori v27 v32
  let v34 : IVec S 32 := (broadcastInDim S ![] hb) arg1
  let v35 : IVec S 32 := addi v27 v34
  let v36 : IVec S 32 := (broadcastInDim S ![] hb) v1
  let v37 : IVec S 32 := addi v33 v36
  let c_8 : IVec S_ 32 := (constantI S_ 32 1#32)
  let v38 : IVec S 32 := (broadcastInDim S ![] hb) c_8
  let v39 : IVec S 32 := addi v37 v38
  let v40 : IVec S 32 := addi v35 v39
  let c_9 : IVec S_ 32 := (constantI S_ 32 17#32)
  let v41 : IVec S 32 := (broadcastInDim S ![] hb) c_9
  let v42 : IVec S 32 := Host.shli v39 v41
  let c_10 : IVec S_ 32 := (constantI S_ 32 15#32)
  let v43 : IVec S 32 := (broadcastInDim S ![] hb) c_10
  let v44 : IVec S 32 := Host.shrui v39 v43
  let v45 : IVec S 32 := ori v42 v44
  let v46 : IVec S 32 := xori v40 v45
  v46

/-- Window 0 of the counter-based generator's body: the value %47 as a term of the values the window reads from outside it (60 of its statements, in program order). -/
def tfP0_v47 {S : Shape} (hb : S_.BroadcastsInDim S (![] : Fin 0 → Fin S.rank)) (arg0 : IVec S_ 32) (arg1 : IVec S_ 32) (arg2 : IVec S 32) (arg3 : IVec S 32) : IVec S 32 :=
  let v0 : IVec S_ 32 := xori arg0 arg1
  let c : IVec S_ 32 := (constantI S_ 32 466688986#32)
  let v1 : IVec S_ 32 := xori v0 c
  let v2 : IVec S 32 := (broadcastInDim S ![] hb) arg0
  let v3 : IVec S 32 := addi arg2 v2
  let v4 : IVec S 32 := (broadcastInDim S ![] hb) arg1
  let v5 : IVec S 32 := addi arg3 v4
  let v6 : IVec S 32 := addi v3 v5
  let c_0 : IVec S_ 32 := (constantI S_ 32 13#32)
  let v7 : IVec S 32 := (broadcastInDim S ![] hb) c_0
  let v8 : IVec S 32 := Host.shli v5 v7
  let c_1 : IVec S_ 32 := (constantI S_ 32 19#32)
  let v9 : IVec S 32 := (broadcastInDim S ![] hb) c_1
  let v10 : IVec S 32 := Host.shrui v5 v9
  let v11 : IVec S 32 := ori v8 v10
  let v12 : IVec S 32 := xori v6 v11
  let v13 : IVec S 32 := addi v6 v12
  let c_2 : IVec S_ 32 := (constantI S_ 32 15#32)
  let v14 : IVec S 32 := (broadcastInDim S ![] hb) c_2
  let v15 : IVec S 32 := Host.shli v12 v14
  let c_3 : IVec S_ 32 := (constantI S_ 32 17#32)
  let v16 : IVec S 32 := (broadcastInDim S ![] hb) c_3
  let v17 : IVec S 32 := Host.shrui v12 v16
  let v18 : IVec S 32 := ori v15 v17
  let v19 : IVec S 32 := xori v13 v18
  let v20 : IVec S 32 := addi v13 v19
  let c_4 : IVec S_ 32 := (constantI S_ 32 26#32)
  let v21 : IVec S 32 := (broadcastInDim S ![] hb) c_4
  let v22 : IVec S 32 := Host.shli v19 v21
  let c_5 : IVec S_ 32 := (constantI S_ 32 6#32)
  let v23 : IVec S 32 := (broadcastInDim S ![] hb) c_5
  let v24 : IVec S 32 := Host.shrui v19 v23
  let v25 : IVec S 32 := ori v22 v24
  let v26 : IVec S 32 := xori v20 v25
  let v27 : IVec S 32 := addi v20 v26
  let c_6 : IVec S_ 32 := (constantI S_ 32 6#32)
  let v28 : IVec S 32 := (broadcastInDim S ![] hb) c_6
  let v29 : IVec S 32 := Host.shli v26 v28
  let c_7 : IVec S_ 32 := (constantI S_ 32 26#32)
  let v30 : IVec S 32 := (broadcastInDim S ![] hb) c_7
  let v31 : IVec S 32 := Host.shrui v26 v30
  let v32 : IVec S 32 := ori v29 v31
  let v33 : IVec S 32 := xori v27 v32
  let v34 : IVec S 32 := (broadcastInDim S ![] hb) arg1
  let v35 : IVec S 32 := addi v27 v34
  let v36 : IVec S 32 := (broadcastInDim S ![] hb) v1
  let v37 : IVec S 32 := addi v33 v36
  let c_8 : IVec S_ 32 := (constantI S_ 32 1#32)
  let v38 : IVec S 32 := (broadcastInDim S ![] hb) c_8
  let v39 : IVec S 32 := addi v37 v38
  let v40 : IVec S 32 := addi v35 v39
  let c_9 : IVec S_ 32 := (constantI S_ 32 17#32)
  let v41 : IVec S 32 := (broadcastInDim S ![] hb) c_9
  let v42 : IVec S 32 := Host.shli v39 v41
  let c_10 : IVec S_ 32 := (constantI S_ 32 15#32)
  let v43 : IVec S 32 := (broadcastInDim S ![] hb) c_10
  let v44 : IVec S 32 := Host.shrui v39 v43
  let v45 : IVec S 32 := ori v42 v44
  let v46 : IVec S 32 := xori v40 v45
  let v47 : IVec S 32 := addi v40 v46
  v47

/-- Window 1 of the counter-based generator's body: the value %88 as a term of the values the window reads from outside it (52 of its statements, in program order). -/
def tfP1_v88 {S : Shape} (hb : S_.BroadcastsInDim S (![] : Fin 0 → Fin S.rank)) (v46 : IVec S 32) (v47 : IVec S 32) (v1 : IVec S_ 32) (arg0 : IVec S_ 32) : IVec S 32 :=
  let c_11 : IVec S_ 32 := (constantI S_ 32 29#32)
  let v48 : IVec S 32 := (broadcastInDim S ![] hb) c_11
  let v49 : IVec S 32 := Host.shli v46 v48
  let c_12 : IVec S_ 32 := (constantI S_ 32 3#32)
  let v50 : IVec S 32 := (broadcastInDim S ![] hb) c_12
  let v51 : IVec S 32 := Host.shrui v46 v50
  let v52 : IVec S 32 := ori v49 v51
  let v53 : IVec S 32 := xori v47 v52
  let v54 : IVec S 32 := addi v47 v53
  let c_13 : IVec S_ 32 := (constantI S_ 32 16#32)
  let v55 : IVec S 32 := (broadcastInDim S ![] hb) c_13
  let v56 : IVec S 32 := Host.shli v53 v55
  let c_14 : IVec S_ 32 := (constantI S_ 32 16#32)
  let v57 : IVec S 32 := (broadcastInDim S ![] hb) c_14
  let v58 : IVec S 32 := Host.shrui v53 v57
  let v59 : IVec S 32 := ori v56 v58
  let v60 : IVec S 32 := xori v54 v59
  let v61 : IVec S 32 := addi v54 v60
  let c_15 : IVec S_ 32 := (constantI S_ 32 24#32)
  let v62 : IVec S 32 := (broadcastInDim S ![] hb) c_15
  let v63 : IVec S 32 := Host.shli v60 v62
  let c_16 : IVec S_ 32 := (constantI S_ 32 8#32)
  let v64 : IVec S 32 := (broadcastInDim S ![] hb) c_16
  let v65 : IVec S 32 := Host.shrui v60 v64
  let v66 : IVec S 32 := ori v63 v65
  let v67 : IVec S 32 := xori v61 v66
  let v68 : IVec S 32 := (broadcastInDim S ![] hb) v1
  let v69 : IVec S 32 := addi v61 v68
  let v70 : IVec S 32 := (broadcastInDim S ![] hb) arg0
  let v71 : IVec S 32 := addi v67 v70
  let c_17 : IVec S_ 32 := (constantI S_ 32 2#32)
  let v72 : IVec S 32 := (broadcastInDim S ![] hb) c_17
  let v73 : IVec S 32 := addi v71 v72
  let v74 : IVec S 32 := addi v69 v73
  let c_18 : IVec S_ 32 := (constantI S_ 32 13#32)
  let v75 : IVec S 32 := (broadcastInDim S ![] hb) c_18
  let v76 : IVec S 32 := Host.shli v73 v75
  let c_19 : IVec S_ 32 := (constantI S_ 32 19#32)
  let v77 : IVec S 32 := (broadcastInDim S ![] hb) c_19
  let v78 : IVec S 32 := Host.shrui v73 v77
  let v79 : IVec S 32 := ori v76 v78
  let v80 : IVec S 32 := xori v74 v79
  let v81 : IVec S 32 := addi v74 v80
  let c_20 : IVec S_ 32 := (constantI S_ 32 15#32)
  let v82 : IVec S 32 := (broadcastInDim S ![] hb) c_20
  let v83 : IVec S 32 := Host.shli v80 v82
  let c_21 : IVec S_ 32 := (constantI S_ 32 17#32)
  let v84 : IVec S 32 := (broadcastInDim S ![] hb) c_21
  let v85 : IVec S 32 := Host.shrui v80 v84
  let v86 : IVec S 32 := ori v83 v85
  let v87 : IVec S 32 := xori v81 v86
  let v88 : IVec S 32 := addi v81 v87
  v88

/-- Window 1 of the counter-based generator's body: the value %94 as a term of the values the window reads from outside it (60 of its statements, in program order). -/
def tfP1_v94 {S : Shape} (hb : S_.BroadcastsInDim S (![] : Fin 0 → Fin S.rank)) (v46 : IVec S 32) (v47 : IVec S 32) (v1 : IVec S_ 32) (arg0 : IVec S_ 32) : IVec S 32 :=
  let c_11 : IVec S_ 32 := (constantI S_ 32 29#32)
  let v48 : IVec S 32 := (broadcastInDim S ![] hb) c_11
  let v49 : IVec S 32 := Host.shli v46 v48
  let c_12 : IVec S_ 32 := (constantI S_ 32 3#32)
  let v50 : IVec S 32 := (broadcastInDim S ![] hb) c_12
  let v51 : IVec S 32 := Host.shrui v46 v50
  let v52 : IVec S 32 := ori v49 v51
  let v53 : IVec S 32 := xori v47 v52
  let v54 : IVec S 32 := addi v47 v53
  let c_13 : IVec S_ 32 := (constantI S_ 32 16#32)
  let v55 : IVec S 32 := (broadcastInDim S ![] hb) c_13
  let v56 : IVec S 32 := Host.shli v53 v55
  let c_14 : IVec S_ 32 := (constantI S_ 32 16#32)
  let v57 : IVec S 32 := (broadcastInDim S ![] hb) c_14
  let v58 : IVec S 32 := Host.shrui v53 v57
  let v59 : IVec S 32 := ori v56 v58
  let v60 : IVec S 32 := xori v54 v59
  let v61 : IVec S 32 := addi v54 v60
  let c_15 : IVec S_ 32 := (constantI S_ 32 24#32)
  let v62 : IVec S 32 := (broadcastInDim S ![] hb) c_15
  let v63 : IVec S 32 := Host.shli v60 v62
  let c_16 : IVec S_ 32 := (constantI S_ 32 8#32)
  let v64 : IVec S 32 := (broadcastInDim S ![] hb) c_16
  let v65 : IVec S 32 := Host.shrui v60 v64
  let v66 : IVec S 32 := ori v63 v65
  let v67 : IVec S 32 := xori v61 v66
  let v68 : IVec S 32 := (broadcastInDim S ![] hb) v1
  let v69 : IVec S 32 := addi v61 v68
  let v70 : IVec S 32 := (broadcastInDim S ![] hb) arg0
  let v71 : IVec S 32 := addi v67 v70
  let c_17 : IVec S_ 32 := (constantI S_ 32 2#32)
  let v72 : IVec S 32 := (broadcastInDim S ![] hb) c_17
  let v73 : IVec S 32 := addi v71 v72
  let v74 : IVec S 32 := addi v69 v73
  let c_18 : IVec S_ 32 := (constantI S_ 32 13#32)
  let v75 : IVec S 32 := (broadcastInDim S ![] hb) c_18
  let v76 : IVec S 32 := Host.shli v73 v75
  let c_19 : IVec S_ 32 := (constantI S_ 32 19#32)
  let v77 : IVec S 32 := (broadcastInDim S ![] hb) c_19
  let v78 : IVec S 32 := Host.shrui v73 v77
  let v79 : IVec S 32 := ori v76 v78
  let v80 : IVec S 32 := xori v74 v79
  let v81 : IVec S 32 := addi v74 v80
  let c_20 : IVec S_ 32 := (constantI S_ 32 15#32)
  let v82 : IVec S 32 := (broadcastInDim S ![] hb) c_20
  let v83 : IVec S 32 := Host.shli v80 v82
  let c_21 : IVec S_ 32 := (constantI S_ 32 17#32)
  let v84 : IVec S 32 := (broadcastInDim S ![] hb) c_21
  let v85 : IVec S 32 := Host.shrui v80 v84
  let v86 : IVec S 32 := ori v83 v85
  let v87 : IVec S 32 := xori v81 v86
  let v88 : IVec S 32 := addi v81 v87
  let c_22 : IVec S_ 32 := (constantI S_ 32 26#32)
  let v89 : IVec S 32 := (broadcastInDim S ![] hb) c_22
  let v90 : IVec S 32 := Host.shli v87 v89
  let c_23 : IVec S_ 32 := (constantI S_ 32 6#32)
  let v91 : IVec S 32 := (broadcastInDim S ![] hb) c_23
  let v92 : IVec S 32 := Host.shrui v87 v91
  let v93 : IVec S 32 := ori v90 v92
  let v94 : IVec S 32 := xori v88 v93
  v94

/-- Window 2 of the counter-based generator's body: the value %141 as a term of the values the window reads from outside it (57 of its statements, in program order). -/
def tfP2_v141 {S : Shape} (hb : S_.BroadcastsInDim S (![] : Fin 0 → Fin S.rank)) (v88 : IVec S 32) (v94 : IVec S 32) (arg0 : IVec S_ 32) (arg1 : IVec S_ 32) (v1 : IVec S_ 32) : IVec S 32 :=
  let v95 : IVec S 32 := addi v88 v94
  let c_24 : IVec S_ 32 := (constantI S_ 32 6#32)
  let v96 : IVec S 32 := (broadcastInDim S ![] hb) c_24
  let v97 : IVec S 32 := Host.shli v94 v96
  let c_25 : IVec S_ 32 := (constantI S_ 32 26#32)
  let v98 : IVec S 32 := (broadcastInDim S ![] hb) c_25
  let v99 : IVec S 32 := Host.shrui v94 v98
  let v100 : IVec S 32 := ori v97 v99
  let v101 : IVec S 32 := xori v95 v100
  let v102 : IVec S 32 := (broadcastInDim S ![] hb) arg0
  let v103 : IVec S 32 := addi v95 v102
  let v104 : IVec S 32 := (broadcastInDim S ![] hb) arg1
  let v105 : IVec S 32 := addi v101 v104
  let c_26 : IVec S_ 32 := (constantI S_ 32 3#32)
  let v106 : IVec S 32 := (broadcastInDim S ![] hb) c_26
  let v107 : IVec S 32 := addi v105 v106
  let v108 : IVec S 32 := addi v103 v107
  let c_27 : IVec S_ 32 := (constantI S_ 32 17#32)
  let v109 : IVec S 32 := (broadcastInDim S ![] hb) c_27
  let v110 : IVec S 32 := Host.shli v107 v109
  let c_28 : IVec S_ 32 := (constantI S_ 32 15#32)
  let v111 : IVec S 32 := (broadcastInDim S ![] hb) c_28
  let v112 : IVec S 32 := Host.shrui v107 v111
  let v113 : IVec S 32 := ori v110 v112
  let v114 : IVec S 32 := xori v108 v113
  let v115 : IVec S 32 := addi v108 v114
  let c_29 : IVec S_ 32 := (constantI S_ 32 29#32)
  let v116 : IVec S 32 := (broadcastInDim S ![] hb) c_29
  let v117 : IVec S 32 := Host.shli v114 v116
  let c_30 : IVec S_ 32 := (constantI S_ 32 3#32)
  let v118 : IVec S 32 := (broadcastInDim S ![] hb) c_30
  let v119 : IVec S 32 := Host.shrui v114 v118
  let v120 : IVec S 32 := ori v117 v119
  let v121 : IVec S 32 := xori v115 v120
  let v122 : IVec S 32 := addi v115 v121
  let c_31 : IVec S_ 32 := (constantI S_ 32 16#32)
  let v123 : IVec S 32 := (broadcastInDim S ![] hb) c_31
  let v124 : IVec S 32 := Host.shli v121 v123
  let c_32 : IVec S_ 32 := (constantI S_ 32 16#32)
  let v125 : IVec S 32 := (broadcastInDim S ![] hb) c_32
  let v126 : IVec S 32 := Host.shrui v121 v125
  let v127 : IVec S 32 := ori v124 v126
  let v128 : IVec S 32 := xori v122 v127
  let v129 : IVec S 32 := addi v122 v128
  let c_33 : IVec S_ 32 := (constantI S_ 32 24#32)
  let v130 : IVec S 32 := (broadcastInDim S ![] hb) c_33
  let v131 : IVec S 32 := Host.shli v128 v130
  let c_34 : IVec S_ 32 := (constantI S_ 32 8#32)
  let v132 : IVec S 32 := (broadcastInDim S ![] hb) c_34
  let v133 : IVec S 32 := Host.shrui v128 v132
  let v134 : IVec S 32 := ori v131 v133
  let v135 : IVec S 32 := xori v129 v134
  let v138 : IVec S 32 := (broadcastInDim S ![] hb) v1
  let v139 : IVec S 32 := addi v135 v138
  let c_35 : IVec S_ 32 := (constantI S_ 32 4#32)
  let v140 : IVec S 32 := (broadcastInDim S ![] hb) c_35
  let v141 : IVec S 32 := addi v139 v140
  v141

/-- Window 2 of the counter-based generator's body: the value %142 as a term of the values the window reads from outside it (60 of its statements, in program order). -/
def tfP2_v142 {S : Shape} (hb : S_.BroadcastsInDim S (![] : Fin 0 → Fin S.rank)) (v88 : IVec S 32) (v94 : IVec S 32) (arg0 : IVec S_ 32) (arg1 : IVec S_ 32) (v1 : IVec S_ 32) : IVec S 32 :=
  let v95 : IVec S 32 := addi v88 v94
  let c_24 : IVec S_ 32 := (constantI S_ 32 6#32)
  let v96 : IVec S 32 := (broadcastInDim S ![] hb) c_24
  let v97 : IVec S 32 := Host.shli v94 v96
  let c_25 : IVec S_ 32 := (constantI S_ 32 26#32)
  let v98 : IVec S 32 := (broadcastInDim S ![] hb) c_25
  let v99 : IVec S 32 := Host.shrui v94 v98
  let v100 : IVec S 32 := ori v97 v99
  let v101 : IVec S 32 := xori v95 v100
  let v102 : IVec S 32 := (broadcastInDim S ![] hb) arg0
  let v103 : IVec S 32 := addi v95 v102
  let v104 : IVec S 32 := (broadcastInDim S ![] hb) arg1
  let v105 : IVec S 32 := addi v101 v104
  let c_26 : IVec S_ 32 := (constantI S_ 32 3#32)
  let v106 : IVec S 32 := (broadcastInDim S ![] hb) c_26
  let v107 : IVec S 32 := addi v105 v106
  let v108 : IVec S 32 := addi v103 v107
  let c_27 : IVec S_ 32 := (constantI S_ 32 17#32)
  let v109 : IVec S 32 := (broadcastInDim S ![] hb) c_27
  let v110 : IVec S 32 := Host.shli v107 v109
  let c_28 : IVec S_ 32 := (constantI S_ 32 15#32)
  let v111 : IVec S 32 := (broadcastInDim S ![] hb) c_28
  let v112 : IVec S 32 := Host.shrui v107 v111
  let v113 : IVec S 32 := ori v110 v112
  let v114 : IVec S 32 := xori v108 v113
  let v115 : IVec S 32 := addi v108 v114
  let c_29 : IVec S_ 32 := (constantI S_ 32 29#32)
  let v116 : IVec S 32 := (broadcastInDim S ![] hb) c_29
  let v117 : IVec S 32 := Host.shli v114 v116
  let c_30 : IVec S_ 32 := (constantI S_ 32 3#32)
  let v118 : IVec S 32 := (broadcastInDim S ![] hb) c_30
  let v119 : IVec S 32 := Host.shrui v114 v118
  let v120 : IVec S 32 := ori v117 v119
  let v121 : IVec S 32 := xori v115 v120
  let v122 : IVec S 32 := addi v115 v121
  let c_31 : IVec S_ 32 := (constantI S_ 32 16#32)
  let v123 : IVec S 32 := (broadcastInDim S ![] hb) c_31
  let v124 : IVec S 32 := Host.shli v121 v123
  let c_32 : IVec S_ 32 := (constantI S_ 32 16#32)
  let v125 : IVec S 32 := (broadcastInDim S ![] hb) c_32
  let v126 : IVec S 32 := Host.shrui v121 v125
  let v127 : IVec S 32 := ori v124 v126
  let v128 : IVec S 32 := xori v122 v127
  let v129 : IVec S 32 := addi v122 v128
  let c_33 : IVec S_ 32 := (constantI S_ 32 24#32)
  let v130 : IVec S 32 := (broadcastInDim S ![] hb) c_33
  let v131 : IVec S 32 := Host.shli v128 v130
  let c_34 : IVec S_ 32 := (constantI S_ 32 8#32)
  let v132 : IVec S 32 := (broadcastInDim S ![] hb) c_34
  let v133 : IVec S 32 := Host.shrui v128 v132
  let v134 : IVec S 32 := ori v131 v133
  let v135 : IVec S 32 := xori v129 v134
  let v136 : IVec S 32 := (broadcastInDim S ![] hb) arg1
  let v137 : IVec S 32 := addi v129 v136
  let v138 : IVec S 32 := (broadcastInDim S ![] hb) v1
  let v139 : IVec S 32 := addi v135 v138
  let c_35 : IVec S_ 32 := (constantI S_ 32 4#32)
  let v140 : IVec S 32 := (broadcastInDim S ![] hb) c_35
  let v141 : IVec S 32 := addi v139 v140
  let v142 : IVec S 32 := addi v137 v141
  v142

/-- Window 3 of the counter-based generator's body: the value %171 as a term of the values the window reads from outside it (29 of its statements, in program order). -/
def tfP3_v171 {S : Shape} (hb : S_.BroadcastsInDim S (![] : Fin 0 → Fin S.rank)) (v141 : IVec S 32) (v142 : IVec S 32) (v1 : IVec S_ 32) (arg0 : IVec S_ 32) : IVec S 32 :=
  let c_36 : IVec S_ 32 := (constantI S_ 32 13#32)
  let v143 : IVec S 32 := (broadcastInDim S ![] hb) c_36
  let v144 : IVec S 32 := Host.shli v141 v143
  let c_37 : IVec S_ 32 := (constantI S_ 32 19#32)
  let v145 : IVec S 32 := (broadcastInDim S ![] hb) c_37
  let v146 : IVec S 32 := Host.shrui v141 v145
  let v147 : IVec S 32 := ori v144 v146
  let v148 : IVec S 32 := xori v142 v147
  let v149 : IVec S 32 := addi v142 v148
  let c_38 : IVec S_ 32 := (constantI S_ 32 15#32)
  let v150 : IVec S 32 := (broadcastInDim S ![] hb) c_38
  let v151 : IVec S 32 := Host.shli v148 v150
  let c_39 : IVec S_ 32 := (constantI S_ 32 17#32)
  let v152 : IVec S 32 := (broadcastInDim S ![] hb) c_39
  let v153 : IVec S 32 := Host.shrui v148 v152
  let v154 : IVec S 32 := ori v151 v153
  let v155 : IVec S 32 := xori v149 v154
  let v156 : IVec S 32 := addi v149 v155
  let c_40 : IVec S_ 32 := (constantI S_ 32 26#32)
  let v157 : IVec S 32 := (broadcastInDim S ![] hb) c_40
  let v158 : IVec S 32 := Host.shli v155 v157
  let c_41 : IVec S_ 32 := (constantI S_ 32 6#32)
  let v159 : IVec S 32 := (broadcastInDim S ![] hb) c_41
  let v160 : IVec S 32 := Host.shrui v155 v159
  let v161 : IVec S 32 := ori v158 v160
  let v162 : IVec S 32 := xori v156 v161
  let v163 : IVec S 32 := addi v156 v162
  let v170 : IVec S 32 := (broadcastInDim S ![] hb) v1
  let v171 : IVec S 32 := addi v163 v170
  v171

/-- Window 3 of the counter-based generator's body: the value %175 as a term of the values the window reads from outside it (40 of its statements, in program order). -/
def tfP3_v175 {S : Shape} (hb : S_.BroadcastsInDim S (![] : Fin 0 → Fin S.rank)) (v141 : IVec S 32) (v142 : IVec S 32) (v1 : IVec S_ 32) (arg0 : IVec S_ 32) : IVec S 32 :=
  let c_36 : IVec S_ 32 := (constantI S_ 32 13#32)
  let v143 : IVec S 32 := (broadcastInDim S ![] hb) c_36
  let v144 : IVec S 32 := Host.shli v141 v143
  let c_37 : IVec S_ 32 := (constantI S_ 32 19#32)
  let v145 : IVec S 32 := (broadcastInDim S ![] hb) c_37
  let v146 : IVec S 32 := Host.shrui v141 v145
  let v147 : IVec S 32 := ori v144 v146
  let v148 : IVec S 32 := xori v142 v147
  let v149 : IVec S 32 := addi v142 v148
  let c_38 : IVec S_ 32 := (constantI S_ 32 15#32)
  let v150 : IVec S 32 := (broadcastInDim S ![] hb) c_38
  let v151 : IVec S 32 := Host.shli v148 v150
  let c_39 : IVec S_ 32 := (constantI S_ 32 17#32)
  let v152 : IVec S 32 := (broadcastInDim S ![] hb) c_39
  let v153 : IVec S 32 := Host.shrui v148 v152
  let v154 : IVec S 32 := ori v151 v153
  let v155 : IVec S 32 := xori v149 v154
  let v156 : IVec S 32 := addi v149 v155
  let c_40 : IVec S_ 32 := (constantI S_ 32 26#32)
  let v157 : IVec S 32 := (broadcastInDim S ![] hb) c_40
  let v158 : IVec S 32 := Host.shli v155 v157
  let c_41 : IVec S_ 32 := (constantI S_ 32 6#32)
  let v159 : IVec S 32 := (broadcastInDim S ![] hb) c_41
  let v160 : IVec S 32 := Host.shrui v155 v159
  let v161 : IVec S 32 := ori v158 v160
  let v162 : IVec S 32 := xori v156 v161
  let v163 : IVec S 32 := addi v156 v162
  let c_42 : IVec S_ 32 := (constantI S_ 32 6#32)
  let v164 : IVec S 32 := (broadcastInDim S ![] hb) c_42
  let v165 : IVec S 32 := Host.shli v162 v164
  let c_43 : IVec S_ 32 := (constantI S_ 32 26#32)
  let v166 : IVec S 32 := (broadcastInDim S ![] hb) c_43
  let v167 : IVec S 32 := Host.shrui v162 v166
  let v168 : IVec S 32 := ori v165 v167
  let v169 : IVec S 32 := xori v163 v168
  let v172 : IVec S 32 := (broadcastInDim S ![] hb) arg0
  let v173 : IVec S 32 := addi v169 v172
  let c_44 : IVec S_ 32 := (constantI S_ 32 5#32)
  let v174 : IVec S 32 := (broadcastInDim S ![] hb) c_44
  let v175 : IVec S 32 := addi v173 v174
  v175

/-- The generator's body: its two results (%171, %175), the four windows composed in order. -/
def tfOut {S : Shape} (hb : S_.BroadcastsInDim S (![] : Fin 0 → Fin S.rank)) (arg0 arg1 : IVec S_ 32) (arg2 arg3 : IVec S 32) : IVec S 32 × IVec S 32 :=
  let v1 := tfP0_v1 hb arg0 arg1 arg2 arg3
  let v46 := tfP0_v46 hb arg0 arg1 arg2 arg3
  let v47 := tfP0_v47 hb arg0 arg1 arg2 arg3
  let v88 := tfP1_v88 hb v46 v47 v1 arg0
  let v94 := tfP1_v94 hb v46 v47 v1 arg0
  let v141 := tfP2_v141 hb v88 v94 arg0 arg1 v1
  let v142 := tfP2_v142 hb v88 v94 arg0 arg1 v1
  (tfP3_v171 hb v141 v142 v1 arg0, tfP3_v175 hb v141 v142 v1 arg0)

end Cert.ReferenceIdeal.RefRun.T
-- ==== Proof.RefOpsValTfAW.lean ====
/-
  One call of the counter-based generator (buffer record main_call0_call0): per printed window, the value of each buffer a later window or the caller reads, and the buffers the window leaves alone.
-/
import proofs.«209156_g27831388078850_cont_9to1_824_17_alg».proof.Proof.RefOpsTfA
import proofs.«209156_g27831388078850_cont_9to1_824_17_alg».proof.Proof.RefOpsTermTf

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 4000000 in
/-- Window 0, value %1: the fold of the window's operations at that buffer is the window's term of what the window reads. -/
theorem tfA_p0_v1 (W : Valuation τ sig (Elt F)) :
    after (ops_threefry2x32_p0 (F := F) (.of main_call0_v1) (.of main_call0_v3) (.of main_call0_v10) (.of main_call0_v9) main_call0_call0) W (main_call0_call0_v1 : DevRef τ sig)
      = T.tfP0_v1 bcast_S_S2 (W (main_call0_v1 : DevRef τ sig)) (W (main_call0_v3 : DevRef τ sig)) (W (main_call0_v10 : DevRef τ sig)) (W (main_call0_v9 : DevRef τ sig)) := by
  simp only [ops_threefry2x32_p0, seg_threefry2x32_p0_0]
  after_results_simp
  first | rfl | fail "window term mismatch"

set_option maxRecDepth 100000 in
set_option maxHeartbeats 4000000 in
/-- Window 0, value %46: the fold of the window's operations at that buffer is the window's term of what the window reads. -/
theorem tfA_p0_v46 (W : Valuation τ sig (Elt F)) :
    after (ops_threefry2x32_p0 (F := F) (.of main_call0_v1) (.of main_call0_v3) (.of main_call0_v10) (.of main_call0_v9) main_call0_call0) W (main_call0_call0_v46 : DevRef τ sig)
      = T.tfP0_v46 bcast_S_S2 (W (main_call0_v1 : DevRef τ sig)) (W (main_call0_v3 : DevRef τ sig)) (W (main_call0_v10 : DevRef τ sig)) (W (main_call0_v9 : DevRef τ sig)) := by
  simp only [ops_threefry2x32_p0, seg_threefry2x32_p0_0]
  after_results_simp
  first | rfl | fail "window term mismatch"

set_option maxRecDepth 100000 in
set_option maxHeartbeats 4000000 in
/-- Window 0, value %47: the fold of the window's operations at that buffer is the window's term of what the window reads. -/
theorem tfA_p0_v47 (W : Valuation τ sig (Elt F)) :
    after (ops_threefry2x32_p0 (F := F) (.of main_call0_v1) (.of main_call0_v3) (.of main_call0_v10) (.of main_call0_v9) main_call0_call0) W (main_call0_call0_v47 : DevRef τ sig)
      = T.tfP0_v47 bcast_S_S2 (W (main_call0_v1 : DevRef τ sig)) (W (main_call0_v3 : DevRef τ sig)) (W (main_call0_v10 : DevRef τ sig)) (W (main_call0_v9 : DevRef τ sig)) := by
  simp only [ops_threefry2x32_p0, seg_threefry2x32_p0_0]
  after_results_simp
  first | rfl | fail "window term mismatch"

set_option maxRecDepth 100000 in
set_option maxHeartbeats 4000000 in
/-- Window 1, value %88: the fold of the window's operations at that buffer is the window's term of what the window reads. -/
theorem tfA_p1_v88 (W : Valuation τ sig (Elt F)) :
    after (ops_threefry2x32_p1 (F := F) (.of main_call0_v1) (.of main_call0_v3) (.of main_call0_v10) (.of main_call0_v9) main_call0_call0) W (main_call0_call0_v88 : DevRef τ sig)
      = T.tfP1_v88 bcast_S_S2 (W (main_call0_call0_v46 : DevRef τ sig)) (W (main_call0_call0_v47 : DevRef τ sig)) (W (main_call0_call0_v1 : DevRef τ sig)) (W (main_call0_v1 : DevRef τ sig)) := by
  simp only [ops_threefry2x32_p1, seg_threefry2x32_p1_0]
  after_results_simp
  first | rfl | fail "window term mismatch"

set_option maxRecDepth 100000 in
set_option maxHeartbeats 4000000 in
/-- Window 1, value %94: the fold of the window's operations at that buffer is the window's term of what the window reads. -/
theorem tfA_p1_v94 (W : Valuation τ sig (Elt F)) :
    after (ops_threefry2x32_p1 (F := F) (.of main_call0_v1) (.of main_call0_v3) (.of main_call0_v10) (.of main_call0_v9) main_call0_call0) W (main_call0_call0_v94 : DevRef τ sig)
      = T.tfP1_v94 bcast_S_S2 (W (main_call0_call0_v46 : DevRef τ sig)) (W (main_call0_call0_v47 : DevRef τ sig)) (W (main_call0_call0_v1 : DevRef τ sig)) (W (main_call0_v1 : DevRef τ sig)) := by
  simp only [ops_threefry2x32_p1, seg_threefry2x32_p1_0]
  after_results_simp
  first | rfl | fail "window term mismatch"

set_option maxRecDepth 100000 in
set_option maxHeartbeats 4000000 in
/-- Window 2, value %141: the fold of the window's operations at that buffer is the window's term of what the window reads. -/
theorem tfA_p2_v141 (W : Valuation τ sig (Elt F)) :
    after (ops_threefry2x32_p2 (F := F) (.of main_call0_v1) (.of main_call0_v3) (.of main_call0_v10) (.of main_call0_v9) main_call0_call0) W (main_call0_call0_v141 : DevRef τ sig)
      = T.tfP2_v141 bcast_S_S2 (W (main_call0_call0_v88 : DevRef τ sig)) (W (main_call0_call0_v94 : DevRef τ sig)) (W (main_call0_v1 : DevRef τ sig)) (W (main_call0_v3 : DevRef τ sig)) (W (main_call0_call0_v1 : DevRef τ sig)) := by
  simp only [ops_threefry2x32_p2, seg_threefry2x32_p2_0]
  after_results_simp
  first | rfl | fail "window term mismatch"

set_option maxRecDepth 100000 in
set_option maxHeartbeats 4000000 in
/-- Window 2, value %142: the fold of the window's operations at that buffer is the window's term of what the window reads. -/
theorem tfA_p2_v142 (W : Valuation τ sig (Elt F)) :
    after (ops_threefry2x32_p2 (F := F) (.of main_call0_v1) (.of main_call0_v3) (.of main_call0_v10) (.of main_call0_v9) main_call0_call0) W (main_call0_call0_v142 : DevRef τ sig)
      = T.tfP2_v142 bcast_S_S2 (W (main_call0_call0_v88 : DevRef τ sig)) (W (main_call0_call0_v94 : DevRef τ sig)) (W (main_call0_v1 : DevRef τ sig)) (W (main_call0_v3 : DevRef τ sig)) (W (main_call0_call0_v1 : DevRef τ sig)) := by
  simp only [ops_threefry2x32_p2, seg_threefry2x32_p2_0]
  after_results_simp
  first | rfl | fail "window term mismatch"

set_option maxRecDepth 100000 in
set_option maxHeartbeats 4000000 in
/-- Window 3, value %171: the fold of the window's operations at that buffer is the window's term of what the window reads. -/
theorem tfA_p3_v171 (W : Valuation τ sig (Elt F)) :
    after (ops_threefry2x32_p3 (F := F) (.of main_call0_v1) (.of main_call0_v3) (.of main_call0_v10) (.of main_call0_v9) main_call0_call0) W (main_call0_v11_0 : DevRef τ sig)
      = T.tfP3_v171 bcast_S_S2 (W (main_call0_call0_v141 : DevRef τ sig)) (W (main_call0_call0_v142 : DevRef τ sig)) (W (main_call0_call0_v1 : DevRef τ sig)) (W (main_call0_v1 : DevRef τ sig)) := by
  simp only [ops_threefry2x32_p3, seg_threefry2x32_p3_0]
  after_results_simp
  first | rfl | fail "window term mismatch"

set_option maxRecDepth 100000 in
set_option maxHeartbeats 4000000 in
/-- Window 3, value %175: the fold of the window's operations at that buffer is the window's term of what the window reads. -/
theorem tfA_p3_v175 (W : Valuation τ sig (Elt F)) :
    after (ops_threefry2x32_p3 (F := F) (.of main_call0_v1) (.of main_call0_v3) (.of main_call0_v10) (.of main_call0_v9) main_call0_call0) W (main_call0_v11_1 : DevRef τ sig)
      = T.tfP3_v175 bcast_S_S2 (W (main_call0_call0_v141 : DevRef τ sig)) (W (main_call0_call0_v142 : DevRef τ sig)) (W (main_call0_call0_v1 : DevRef τ sig)) (W (main_call0_v1 : DevRef τ sig)) := by
  simp only [ops_threefry2x32_p3, seg_threefry2x32_p3_0]
  after_results_simp
  first | rfl | fail "window term mismatch"

set_option maxRecDepth 100000 in
set_option maxHeartbeats 4000000 in
/-- Window 0 does not write the buffer of arg0. -/
theorem tfA_p0_fr_arg0 (W : Valuation τ sig (Elt F)) :
    after (ops_threefry2x32_p0 (F := F) (.of main_call0_v1) (.of main_call0_v3) (.of main_call0_v10) (.of main_call0_v9) main_call0_call0) W (main_call0_v1 : DevRef τ sig) = W (main_call0_v1 : DevRef τ sig) := by
  simp only [ops_threefry2x32_p0, seg_threefry2x32_p0_0]
  after_results_simp

set_option maxRecDepth 100000 in
set_option maxHeartbeats 4000000 in
/-- Window 0 does not write the buffer of arg1. -/
theorem tfA_p0_fr_arg1 (W : Valuation τ sig (Elt F)) :
    after (ops_threefry2x32_p0 (F := F) (.of main_call0_v1) (.of main_call0_v3) (.of main_call0_v10) (.of main_call0_v9) main_call0_call0) W (main_call0_v3 : DevRef τ sig) = W (main_call0_v3 : DevRef τ sig) := by
  simp only [ops_threefry2x32_p0, seg_threefry2x32_p0_0]
  after_results_simp

set_option maxRecDepth 100000 in
set_option maxHeartbeats 4000000 in
/-- Window 1 does not write the buffer of arg0. -/
theorem tfA_p1_fr_arg0 (W : Valuation τ sig (Elt F)) :
    after (ops_threefry2x32_p1 (F := F) (.of main_call0_v1) (.of main_call0_v3) (.of main_call0_v10) (.of main_call0_v9) main_call0_call0) W (main_call0_v1 : DevRef τ sig) = W (main_call0_v1 : DevRef τ sig) := by
  simp only [ops_threefry2x32_p1, seg_threefry2x32_p1_0]
  after_results_simp

set_option maxRecDepth 100000 in
set_option maxHeartbeats 4000000 in
/-- Window 1 does not write the buffer of arg1. -/
theorem tfA_p1_fr_arg1 (W : Valuation τ sig (Elt F)) :
    after (ops_threefry2x32_p1 (F := F) (.of main_call0_v1) (.of main_call0_v3) (.of main_call0_v10) (.of main_call0_v9) main_call0_call0) W (main_call0_v3 : DevRef τ sig) = W (main_call0_v3 : DevRef τ sig) := by
  simp only [ops_threefry2x32_p1, seg_threefry2x32_p1_0]
  after_results_simp

set_option maxRecDepth 100000 in
set_option maxHeartbeats 4000000 in
/-- Window 1 does not write the buffer of v1. -/
theorem tfA_p1_fr_v1 (W : Valuation τ sig (Elt F)) :
    after (ops_threefry2x32_p1 (F := F) (.of main_call0_v1) (.of main_call0_v3) (.of main_call0_v10) (.of main_call0_v9) main_call0_call0) W (main_call0_call0_v1 : DevRef τ sig) = W (main_call0_call0_v1 : DevRef τ sig) := by
  simp only [ops_threefry2x32_p1, seg_threefry2x32_p1_0]
  after_results_simp

set_option maxRecDepth 100000 in
set_option maxHeartbeats 4000000 in
/-- Window 2 does not write the buffer of v1. -/
theorem tfA_p2_fr_v1 (W : Valuation τ sig (Elt F)) :
    after (ops_threefry2x32_p2 (F := F) (.of main_call0_v1) (.of main_call0_v3) (.of main_call0_v10) (.of main_call0_v9) main_call0_call0) W (main_call0_call0_v1 : DevRef τ sig) = W (main_call0_call0_v1 : DevRef τ sig) := by
  simp only [ops_threefry2x32_p2, seg_threefry2x32_p2_0]
  after_results_simp

set_option maxRecDepth 100000 in
set_option maxHeartbeats 4000000 in
/-- Window 2 does not write the buffer of arg0. -/
theorem tfA_p2_fr_arg0 (W : Valuation τ sig (Elt F)) :
    after (ops_threefry2x32_p2 (F := F) (.of main_call0_v1) (.of main_call0_v3) (.of main_call0_v10) (.of main_call0_v9) main_call0_call0) W (main_call0_v1 : DevRef τ sig) = W (main_call0_v1 : DevRef τ sig) := by
  simp only [ops_threefry2x32_p2, seg_threefry2x32_p2_0]
  after_results_simp

end Cert.ReferenceIdeal.RefRun

end
-- ==== Proof.RefOpsValTfA.lean ====
/-
  One call of the counter-based generator (buffer record main_call0_call0): its two results as the composed window terms of its four operands.
-/
import proofs.«209156_g27831388078850_cont_9to1_824_17_alg».proof.Proof.RefOpsValTfAW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 1000000 in
/-- The generator's result %171 at this call: the four windows' terms composed (each window's fold read at what the next reads, the untouched buffers carried through). -/
theorem tfA_v171 (V : Valuation τ sig (Elt F)) :
    after (ops_threefry2x32 (F := F) (.of main_call0_v1) (.of main_call0_v3) (.of main_call0_v10) (.of main_call0_v9) main_call0_call0) V (main_call0_v11_0 : DevRef τ sig)
      = (T.tfOut bcast_S_S2 (V (main_call0_v1 : DevRef τ sig)) (V (main_call0_v3 : DevRef τ sig)) (V (main_call0_v10 : DevRef τ sig)) (V (main_call0_v9 : DevRef τ sig))).1 := by
  simp only [ops_threefry2x32, after_append]
  repeat (first | rw [tfA_p0_v1] | rw [tfA_p0_v46] | rw [tfA_p0_v47] | rw [tfA_p1_v88] | rw [tfA_p1_v94] | rw [tfA_p2_v141] | rw [tfA_p2_v142] | rw [tfA_p3_v171] | rw [tfA_p3_v175] | rw [tfA_p0_fr_arg0] | rw [tfA_p0_fr_arg1] | rw [tfA_p1_fr_arg0] | rw [tfA_p1_fr_arg1] | rw [tfA_p1_fr_v1] | rw [tfA_p2_fr_v1] | rw [tfA_p2_fr_arg0])
  first | rfl | fail "composition mismatch"

set_option maxRecDepth 100000 in
set_option maxHeartbeats 1000000 in
/-- The generator's result %175 at this call: the four windows' terms composed (each window's fold read at what the next reads, the untouched buffers carried through). -/
theorem tfA_v175 (V : Valuation τ sig (Elt F)) :
    after (ops_threefry2x32 (F := F) (.of main_call0_v1) (.of main_call0_v3) (.of main_call0_v10) (.of main_call0_v9) main_call0_call0) V (main_call0_v11_1 : DevRef τ sig)
      = (T.tfOut bcast_S_S2 (V (main_call0_v1 : DevRef τ sig)) (V (main_call0_v3 : DevRef τ sig)) (V (main_call0_v10 : DevRef τ sig)) (V (main_call0_v9 : DevRef τ sig))).2 := by
  simp only [ops_threefry2x32, after_append]
  repeat (first | rw [tfA_p0_v1] | rw [tfA_p0_v46] | rw [tfA_p0_v47] | rw [tfA_p1_v88] | rw [tfA_p1_v94] | rw [tfA_p2_v141] | rw [tfA_p2_v142] | rw [tfA_p3_v171] | rw [tfA_p3_v175] | rw [tfA_p0_fr_arg0] | rw [tfA_p0_fr_arg1] | rw [tfA_p1_fr_arg0] | rw [tfA_p1_fr_arg1] | rw [tfA_p1_fr_v1] | rw [tfA_p2_fr_v1] | rw [tfA_p2_fr_arg0])
  first | rfl | fail "composition mismatch"

end Cert.ReferenceIdeal.RefRun

end
-- ==== Proof.RefOpsValTfAF.lean ====
/-
  One call of the counter-based generator (buffer record main_call0_call0): the buffers written before it and read after it are unchanged by it.
-/
import proofs.«209156_g27831388078850_cont_9to1_824_17_alg».proof.Proof.RefOpsTfA

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 4000000 in
/-- This call of the generator does not write the buffer main_arg0. -/
theorem tfA_fr_main_arg0 (V : Valuation τ sig (Elt F)) :
    after (ops_threefry2x32 (F := F) (.of main_call0_v1) (.of main_call0_v3) (.of main_call0_v10) (.of main_call0_v9) main_call0_call0) V (main_arg0 : DevRef τ sig) = V (main_arg0 : DevRef τ sig) := by
  simp only [ops_threefry2x32, ops_threefry2x32_p0, seg_threefry2x32_p0_0, ops_threefry2x32_p1, seg_threefry2x32_p1_0, ops_threefry2x32_p2, seg_threefry2x32_p2_0, ops_threefry2x32_p3, seg_threefry2x32_p3_0, after_append]
  after_results_simp

set_option maxRecDepth 100000 in
set_option maxHeartbeats 4000000 in
/-- This call of the generator does not write the buffer main_arg1. -/
theorem tfA_fr_main_arg1 (V : Valuation τ sig (Elt F)) :
    after (ops_threefry2x32 (F := F) (.of main_call0_v1) (.of main_call0_v3) (.of main_call0_v10) (.of main_call0_v9) main_call0_call0) V (main_arg1 : DevRef τ sig) = V (main_arg1 : DevRef τ sig) := by
  simp only [ops_threefry2x32, ops_threefry2x32_p0, seg_threefry2x32_p0_0, ops_threefry2x32_p1, seg_threefry2x32_p1_0, ops_threefry2x32_p2, seg_threefry2x32_p2_0, ops_threefry2x32_p3, seg_threefry2x32_p3_0, after_append]
  after_results_simp

end Cert.ReferenceIdeal.RefRun

end
-- ==== Proof.RefTerms.lean ====
/-
  The values the printed reference computes, as pure terms: for every function of the module one definition
  that applies, in program order, the operation of each statement to the terms of its operand values (a chain
  of lets named as the statement's result is), and for @main the terms of the values the two results depend on.
  Definitions only.  The three printed instances of @threefry2x32 apply the same operations at the shapes [2],
  [32] and [128]; they are one definition over the shape and its broadcast fact (the imported terms of the body's
  four parts, composed).  Likewise the two instances of @_threefry_split and the two of @_where.
-/
import proofs.«209156_g27831388078850_cont_9to1_824_17_alg».proof.ReferenceIdeal
import proofs.«209156_g27831388078850_cont_9to1_824_17_alg».proof.Proof.Spec
import proofs.«209156_g27831388078850_cont_9to1_824_17_alg».proof.Proof.RefOpsTermTf

set_option maxRecDepth 100000

namespace Cert.ReferenceIdeal.RefTerms

open Idealize.ShloMosaic Cert.ReferenceIdeal
open Cert.ReferenceIdeal.Facts₀ Cert.ReferenceIdeal.Facts

variable {F : FTy → Type} [FloatOps F] [Facts]

/-- @threefry2x32 at a shape S: the pair of its two results (%171, %175); the composition, in order, of the terms
    of the four parts its printed body is cut into. -/
def tf2x32 {S : Shape} (hb : S_.BroadcastsInDim S (![] : Fin 0 → Fin S.rank))
    (arg0 arg1 : IVec S_ 32) (arg2 arg3 : IVec S 32) : IVec S 32 × IVec S 32 :=
  RefRun.T.tfOut hb arg0 arg1 arg2 arg3

/-- @_threefry_split (and @_threefry_split_1): its result %14. -/
def splitVal (arg0 : IVec S2 32) : IVec S2x2 32 :=
  let v0 : IVec S1 32 := extractStridedSlice S1 ![0] arg0 slices_S2_S1_0
  let v1 : IVec S_ 32 := shapeCast S_ v0 shapeCasts_S1_S_
  let v2 : IVec S1 32 := extractStridedSlice S1 ![1] arg0 slices_S2_S1_1
  let v3 : IVec S_ 32 := shapeCast S_ v2 shapeCasts_S1_S_
  let v4 : IVec S2 64 := iotaInDim S2 64 0
  let c : IVec S_ 64 := constantI S_ 64 1#64
  let v5 : IVec S2 64 := broadcastInDim S2 ![] bcast_S_S2 c
  let v6 : IVec S2 64 := muli v5 v4
  let c_0 : IVec S_ 64 := constantI S_ 64 32#64
  let v7 : IVec S2 64 := broadcastInDim S2 ![] bcast_S_S2 c_0
  let v8 : IVec S2 64 := Host.shrui v6 v7
  let v9 : IVec S2 32 := trunci 32 v6 natLt_32_64
  let v10 : IVec S2 32 := trunci 32 v8 natLt_32_64
  let call0 := tf2x32 bcast_S_S2 v1 v3 v10 v9
  let v12 : IVec S2x1 32 := broadcastInDim S2x1 ![0] bcast_S2_S2x1_0 call0.1
  let v13 : IVec S2x1 32 := broadcastInDim S2x1 ![0] bcast_S2_S2x1_0 call0.2
  let v14 : IVec S2x2 32 := concatenate S2x2 1 [⟨S2x1, v12⟩, ⟨S2x1, v13⟩] concatenates_S2x1_S2x1_S2x2_d1
  v14

/-- @_uniform: its result %30. -/
def uniformVal (arg0 : IVec S2 32) (arg1 arg2 : FVec F S_ .f32) : FVec F S32 .f32 :=
  let v0 : FVec F S_ .f32 := id arg1
  let v1 : FVec F S_ .f32 := id arg2
  let v2 : FVec F S1 .f32 := broadcastInDim S1 ![] bcast_S_S1 v0
  let v3 : FVec F S1 .f32 := broadcastInDim S1 ![] bcast_S_S1 v1
  let v4 : IVec S1 32 := extractStridedSlice S1 ![0] arg0 slices_S2_S1_0
  let v5 : IVec S_ 32 := shapeCast S_ v4 shapeCasts_S1_S_
  let v6 : IVec S1 32 := extractStridedSlice S1 ![1] arg0 slices_S2_S1_1
  let v7 : IVec S_ 32 := shapeCast S_ v6 shapeCasts_S1_S_
  let v8 : IVec S32 64 := iotaInDim S32 64 0
  let c : IVec S_ 64 := constantI S_ 64 1#64
  let v9 : IVec S32 64 := broadcastInDim S32 ![] bcast_S_S32 c
  let v10 : IVec S32 64 := muli v9 v8
  let c_0 : IVec S_ 64 := constantI S_ 64 32#64
  let v11 : IVec S32 64 := broadcastInDim S32 ![] bcast_S_S32 c_0
  let v12 : IVec S32 64 := Host.shrui v10 v11
  let v13 : IVec S32 32 := trunci 32 v10 natLt_32_64
  let v14 : IVec S32 32 := trunci 32 v12 natLt_32_64
  let call0 := tf2x32 bcast_S_S32 v5 v7 v14 v13
  let v16 : IVec S32 32 := xori call0.1 call0.2
  let c_1 : IVec S_ 32 := constantI S_ 32 9#32
  let v17 : IVec S32 32 := broadcastInDim S32 ![] bcast_S_S32 c_1
  let v18 : IVec S32 32 := Host.shrui v16 v17
  let c_2 : IVec S_ 32 := constantI S_ 32 1065353216#32
  let v19 : IVec S32 32 := broadcastInDim S32 ![] bcast_S_S32 c_2
  let v20 : IVec S32 32 := ori v18 v19
  let v21 : FVec F S32 .f32 := bitcastToFloat .f32 v20
  let cst : FVec F S_ .f32 := constant S_ .f32 0x3F800000#32
  let v22 : FVec F S32 .f32 := broadcastInDim S32 ![] bcast_S_S32 cst
  let v23 : FVec F S32 .f32 := subf v21 v22
  let v24 : FVec F S1 .f32 := subf v3 v2
  let v25 : FVec F S32 .f32 := broadcastInDim S32 ![0] bcast_S1_S32_0 v24
  let v26 : FVec F S32 .f32 := mulf v23 v25
  let v27 : FVec F S32 .f32 := broadcastInDim S32 ![0] bcast_S1_S32_0 v2
  let v28 : FVec F S32 .f32 := addf v26 v27
  let v29 : FVec F S32 .f32 := broadcastInDim S32 ![0] bcast_S1_S32_0 v2
  let v30 : FVec F S32 .f32 := maximumf v29 v28
  v30

/-- @_shuffle: its result %18#1. -/
def shuffleVal (arg0 : IVec S2 32) (arg1 : IVec S128 32) : IVec S128 32 :=
  let call0 := splitVal arg0
  let v1 : IVec S1x2 32 := extractStridedSlice S1x2 ![0, 0] call0 slices_S2x2_S1x2_0_0
  let v2 : IVec S2 32 := shapeCast S2 v1 shapeCasts_S1x2_S2
  let v3 : IVec S1x2 32 := extractStridedSlice S1x2 ![1, 0] call0 slices_S2x2_S1x2_1_0
  let v4 : IVec S2 32 := shapeCast S2 v3 shapeCasts_S1x2_S2
  let v5 : IVec S1 32 := extractStridedSlice S1 ![0] v4 slices_S2_S1_0
  let v6 : IVec S_ 32 := shapeCast S_ v5 shapeCasts_S1_S_
  let v7 : IVec S1 32 := extractStridedSlice S1 ![1] v4 slices_S2_S1_1
  let v8 : IVec S_ 32 := shapeCast S_ v7 shapeCasts_S1_S_
  let v9 : IVec S128 64 := iotaInDim S128 64 0
  let c : IVec S_ 64 := constantI S_ 64 1#64
  let v10 : IVec S128 64 := broadcastInDim S128 ![] bcast_S_S128 c
  let v11 : IVec S128 64 := muli v10 v9
  let c_0 : IVec S_ 64 := constantI S_ 64 32#64
  let v12 : IVec S128 64 := broadcastInDim S128 ![] bcast_S_S128 c_0
  let v13 : IVec S128 64 := Host.shrui v11 v12
  let v14 : IVec S128 32 := trunci 32 v11 natLt_32_64
  let v15 : IVec S128 32 := trunci 32 v13 natLt_32_64
  let call1 := tf2x32 bcast_S_S128 v6 v8 v15 v14
  let v17 : IVec S128 32 := xori call1.1 call1.2
  let v18_0 : IVec S128 32 := (Host.sort2 S128 0 comparator_i32_i32_d0 v17 arg1).1
  let v18_1 : IVec S128 32 := (Host.sort2 S128 0 comparator_i32_i32_d0 v17 arg1).2
  v18_1

/-- @_where (and @_where_3): its result %1. -/
def whereVal (arg0 : IVec S32x1x1x1 1) (arg1 arg2 : FVec F S32x3x256x256 .f32) : FVec F S32x3x256x256 .f32 :=
  let v0 : IVec S32x3x256x256 1 := broadcastInDim S32x3x256x256 ![0, 1, 2, 3] bcast_S32x1x1x1_S32x3x256x256_0_1_2_3 arg0
  let v1 : FVec F S32x3x256x256 .f32 := select v0 arg1 arg2
  v1

/-! ## @main -/

/-- The value of %7 of @main: the two keys the constant key 42 splits into, as a [2, 2] array. -/
def keyPair : IVec S2x2 32 :=
  let c : IVec S_ 32 := constantI S_ 32 42#32
  let c_0 : IVec S_ 32 := constantI S_ 32 32#32
  let v0 : IVec S_ 32 := Host.shrui c c_0
  let v1 : IVec S_ 32 := id v0
  let v2 : IVec S1 32 := broadcastInDim S1 ![] bcast_S_S1 v1
  let c_1 : IVec S_ 32 := constantI S_ 32 4294967295#32
  let v3 : IVec S_ 32 := andi c c_1
  let v4 : IVec S_ 32 := id v3
  let v5 : IVec S1 32 := broadcastInDim S1 ![] bcast_S_S1 v4
  let v6 : IVec S2 32 := concatenate S2 0 [⟨S1, v2⟩, ⟨S1, v5⟩] concatenates_S1_S1_S2_d0
  splitVal v6

/-- The value of %9 of @main: the first key. -/
def rk1 : IVec S2 32 :=
  let v7 : IVec S2x2 32 := keyPair
  let v8 : IVec S1x2 32 := extractStridedSlice S1x2 ![0, 0] v7 slices_S2x2_S1x2_0_0
  shapeCast S2 v8 shapeCasts_S1x2_S2

/-- The value of %11 of @main: the second key. -/
def rk2 : IVec S2 32 :=
  let v7 : IVec S2x2 32 := keyPair
  let v10 : IVec S1x2 32 := extractStridedSlice S1x2 ![1, 0] v7 slices_S2x2_S1x2_1_0
  shapeCast S2 v10 shapeCasts_S1x2_S2

/-- The value of %12 of @main: the 32 uniform draws. -/
def unif32 (F : FTy → Type) [FloatOps F] : FVec F S32 .f32 :=
  let v9 : IVec S2 32 := rk1
  let cst : FVec F S_ .f32 := constant S_ .f32 0x00000000#32
  let cst_2 : FVec F S_ .f32 := constant S_ .f32 0x3F800000#32
  uniformVal v9 cst cst_2

/-- The value of %14 of @main: the mask over the batch. -/
def probMask (F : FTy → Type) [FloatOps F] : IVec S32 1 :=
  let v12 : FVec F S32 .f32 := unif32 F
  let cst_3 : FVec F S_ .f32 := constant S_ .f32 0x3F000000#32
  let v13 : FVec F S32 .f32 := broadcastInDim S32 ![] bcast_S_S32 cst_3
  cmpf .ogt v12 v13

/-- The value of %16 of @main: the permutation of the 128 pool rows. -/
def perm128 : IVec S128 32 :=
  let v11 : IVec S2 32 := rk2
  let v15 : IVec S128 32 := iotaInDim S128 32 0
  shuffleVal v11 v15

/-- The value of %17 of @main: the pool rows paired with the batch entries. -/
def idx32 : IVec S32 32 :=
  let v16 : IVec S128 32 := perm128
  extractStridedSlice S32 ![0] v16 slices_S128_S32_0

/-- The value of %18 of @main: the mask as a [32, 1, 1, 1] array. -/
def mask4 (F : FTy → Type) [FloatOps F] : IVec S32x1x1x1 1 :=
  let v14 : IVec S32 1 := probMask F
  broadcastInDim S32x1x1x1 ![0] bcast_S32_S32x1x1x1_0 v14

/-- The value of %25 of @main: the gathered pool rows. -/
def gathered (arg1 : FVec F S128x3x256x256 .f32) : FVec F S32x3x256x256 .f32 :=
  let v17 : IVec S32 32 := idx32
  let c_4 : IVec S_ 32 := constantI S_ 32 0#32
  let v19 : IVec S32 32 := broadcastInDim S32 ![] bcast_S_S32 c_4
  let v20 : IVec S32 1 := cmpi .slt v17 v19
  let c_5 : IVec S_ 32 := constantI S_ 32 128#32
  let v21 : IVec S32 32 := broadcastInDim S32 ![] bcast_S_S32 c_5
  let v22 : IVec S32 32 := addi v17 v21
  let v23 : IVec S32 32 := select v20 v22 v17
  let v24 : IVec S32x1 32 := broadcastInDim S32x1 ![0] bcast_S32_S32x1_0 v23
  Host.gather gather_S128x3x256x256_S32x1_S32x3x256x256_123_0_n_n_0_1_13256256 arg1 v24

/-- The value of %26 of @main, the first result: a term of the two arguments. -/
def out26 (arg0 : FVec F S32x3x256x256 .f32) (arg1 : FVec F S128x3x256x256 .f32) : FVec F S32x3x256x256 .f32 :=
  let v18 : IVec S32x1x1x1 1 := mask4 F
  let v25 : FVec F S32x3x256x256 .f32 := gathered arg1
  whereVal v18 v25 arg0

/-- The value of %27 of @main: the rows the scatter writes. -/
def newRows (arg0 : FVec F S32x3x256x256 .f32) (arg1 : FVec F S128x3x256x256 .f32) : FVec F S32x3x256x256 .f32 :=
  let v18 : IVec S32x1x1x1 1 := mask4 F
  let v25 : FVec F S32x3x256x256 .f32 := gathered arg1
  whereVal v18 arg0 v25

/-- The value of %34 of @main, the second result: a term of the two arguments. -/
def out34 (arg0 : FVec F S32x3x256x256 .f32) (arg1 : FVec F S128x3x256x256 .f32) : FVec F S128x3x256x256 .f32 :=
  let v17 : IVec S32 32 := idx32
  let v27 : FVec F S32x3x256x256 .f32 := newRows arg0 arg1
  let c_6 : IVec S_ 32 := constantI S_ 32 0#32
  let v28 : IVec S32 32 := broadcastInDim S32 ![] bcast_S_S32 c_6
  let v29 : IVec S32 1 := cmpi .slt v17 v28
  let c_7 : IVec S_ 32 := constantI S_ 32 128#32
  let v30 : IVec S32 32 := broadcastInDim S32 ![] bcast_S_S32 c_7
  let v31 : IVec S32 32 := addi v17 v30
  let v32 : IVec S32 32 := select v29 v31 v17
  let v33 : IVec S32x1 32 := broadcastInDim S32x1 ![0] bcast_S32_S32x1_0 v32
  Host.scatter scatter_S128x3x256x256_S32x1_S32x3x256x256_123_0_0_1 (fun _ b => b) arg1 v33 v27

end Cert.ReferenceIdeal.RefTerms
-- ==== Proof.RefOpsValSplitM.lean ====
/-
  The first key split (@main's call 0): its result as the function's term of its operand, and the buffers it leaves alone.
-/
import proofs.«209156_g27831388078850_cont_9to1_824_17_alg».proof.Proof.RefOpsSplit
import proofs.«209156_g27831388078850_cont_9to1_824_17_alg».proof.Proof.RefOpsValTfA
import proofs.«209156_g27831388078850_cont_9to1_824_17_alg».proof.Proof.RefOpsValTfAF
import proofs.«209156_g27831388078850_cont_9to1_824_17_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 1000000 in
/-- This call's result: the fold of its operations at the result buffer is the function's term of the operands' contents. -/
theorem splitM_v14 (V : Valuation τ sig (Elt F)) :
    after (ops_threefry_split (F := F) (.of main_v6) main_call0) V (main_v7 : DevRef τ sig)
      = RefTerms.splitVal (V (main_v6 : DevRef τ sig)) := by
  simp only [ops_threefry_split, seg_threefry_split_0, seg_threefry_split_1, after_append]
  repeat (first | after_results_simp | rw [tfA_v171] | rw [tfA_v175] | rw [tfA_fr_main_arg0] | rw [tfA_fr_main_arg1] | after_results_step)
  all_goals (first | rfl | fail "term mismatch")

set_option maxRecDepth 100000 in
set_option maxHeartbeats 1000000 in
/-- This call does not write the buffer main_arg0. -/
theorem splitM_fr_main_arg0 (V : Valuation τ sig (Elt F)) :
    after (ops_threefry_split (F := F) (.of main_v6) main_call0) V (main_arg0 : DevRef τ sig) = V (main_arg0 : DevRef τ sig) := by
  simp only [ops_threefry_split, seg_threefry_split_0, seg_threefry_split_1, after_append]
  repeat (first | after_results_simp | rw [tfA_v171] | rw [tfA_v175] | rw [tfA_fr_main_arg0] | rw [tfA_fr_main_arg1] | after_results_step)
  all_goals (first | rfl | fail "frame mismatch")

set_option maxRecDepth 100000 in
set_option maxHeartbeats 1000000 in
/-- This call does not write the buffer main_arg1. -/
theorem splitM_fr_main_arg1 (V : Valuation τ sig (Elt F)) :
    after (ops_threefry_split (F := F) (.of main_v6) main_call0) V (main_arg1 : DevRef τ sig) = V (main_arg1 : DevRef τ sig) := by
  simp only [ops_threefry_split, seg_threefry_split_0, seg_threefry_split_1, after_append]
  repeat (first | after_results_simp | rw [tfA_v171] | rw [tfA_v175] | rw [tfA_fr_main_arg0] | rw [tfA_fr_main_arg1] | after_results_step)
  all_goals (first | rfl | fail "frame mismatch")

end Cert.ReferenceIdeal.RefRun

end
-- ==== Proof.RefOpsValTfBW.lean ====
/-
  One call of the counter-based generator (buffer record main_call1_call0): per printed window, the value of each buffer a later window or the caller reads, and the buffers the window leaves alone.
-/
import proofs.«209156_g27831388078850_cont_9to1_824_17_alg».proof.Proof.RefOpsTfB
import proofs.«209156_g27831388078850_cont_9to1_824_17_alg».proof.Proof.RefOpsTermTf

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 4000000 in
/-- Window 0, value %1: the fold of the window's operations at that buffer is the window's term of what the window reads. -/
theorem tfB_p0_v1 (W : Valuation τ sig (Elt F)) :
    after (ops_threefry2x32_0_p0 (F := F) (.of main_call1_v5) (.of main_call1_v7) (.of main_call1_v14) (.of main_call1_v13) main_call1_call0) W (main_call1_call0_v1 : DevRef τ sig)
      = T.tfP0_v1 bcast_S_S32 (W (main_call1_v5 : DevRef τ sig)) (W (main_call1_v7 : DevRef τ sig)) (W (main_call1_v14 : DevRef τ sig)) (W (main_call1_v13 : DevRef τ sig)) := by
  simp only [ops_threefry2x32_0_p0, seg_threefry2x32_0_p0_0]
  after_results_simp
  first | rfl | fail "window term mismatch"

set_option maxRecDepth 100000 in
set_option maxHeartbeats 4000000 in
/-- Window 0, value %46: the fold of the window's operations at that buffer is the window's term of what the window reads. -/
theorem tfB_p0_v46 (W : Valuation τ sig (Elt F)) :
    after (ops_threefry2x32_0_p0 (F := F) (.of main_call1_v5) (.of main_call1_v7) (.of main_call1_v14) (.of main_call1_v13) main_call1_call0) W (main_call1_call0_v46 : DevRef τ sig)
      = T.tfP0_v46 bcast_S_S32 (W (main_call1_v5 : DevRef τ sig)) (W (main_call1_v7 : DevRef τ sig)) (W (main_call1_v14 : DevRef τ sig)) (W (main_call1_v13 : DevRef τ sig)) := by
  simp only [ops_threefry2x32_0_p0, seg_threefry2x32_0_p0_0]
  after_results_simp
  first | rfl | fail "window term mismatch"

set_option maxRecDepth 100000 in
set_option maxHeartbeats 4000000 in
/-- Window 0, value %47: the fold of the window's operations at that buffer is the window's term of what the window reads. -/
theorem tfB_p0_v47 (W : Valuation τ sig (Elt F)) :
    after (ops_threefry2x32_0_p0 (F := F) (.of main_call1_v5) (.of main_call1_v7) (.of main_call1_v14) (.of main_call1_v13) main_call1_call0) W (main_call1_call0_v47 : DevRef τ sig)
      = T.tfP0_v47 bcast_S_S32 (W (main_call1_v5 : DevRef τ sig)) (W (main_call1_v7 : DevRef τ sig)) (W (main_call1_v14 : DevRef τ sig)) (W (main_call1_v13 : DevRef τ sig)) := by
  simp only [ops_threefry2x32_0_p0, seg_threefry2x32_0_p0_0]
  after_results_simp
  first | rfl | fail "window term mismatch"

set_option maxRecDepth 100000 in
set_option maxHeartbeats 4000000 in
/-- Window 1, value %88: the fold of the window's operations at that buffer is the window's term of what the window reads. -/
theorem tfB_p1_v88 (W : Valuation τ sig (Elt F)) :
    after (ops_threefry2x32_0_p1 (F := F) (.of main_call1_v5) (.of main_call1_v7) (.of main_call1_v14) (.of main_call1_v13) main_call1_call0) W (main_call1_call0_v88 : DevRef τ sig)
      = T.tfP1_v88 bcast_S_S32 (W (main_call1_call0_v46 : DevRef τ sig)) (W (main_call1_call0_v47 : DevRef τ sig)) (W (main_call1_call0_v1 : DevRef τ sig)) (W (main_call1_v5 : DevRef τ sig)) := by
  simp only [ops_threefry2x32_0_p1, seg_threefry2x32_0_p1_0]
  after_results_simp
  first | rfl | fail "window term mismatch"

set_option maxRecDepth 100000 in
set_option maxHeartbeats 4000000 in
/-- Window 1, value %94: the fold of the window's operations at that buffer is the window's term of what the window reads. -/
theorem tfB_p1_v94 (W : Valuation τ sig (Elt F)) :
    after (ops_threefry2x32_0_p1 (F := F) (.of main_call1_v5) (.of main_call1_v7) (.of main_call1_v14) (.of main_call1_v13) main_call1_call0) W (main_call1_call0_v94 : DevRef τ sig)
      = T.tfP1_v94 bcast_S_S32 (W (main_call1_call0_v46 : DevRef τ sig)) (W (main_call1_call0_v47 : DevRef τ sig)) (W (main_call1_call0_v1 : DevRef τ sig)) (W (main_call1_v5 : DevRef τ sig)) := by
  simp only [ops_threefry2x32_0_p1, seg_threefry2x32_0_p1_0]
  after_results_simp
  first | rfl | fail "window term mismatch"

set_option maxRecDepth 100000 in
set_option maxHeartbeats 4000000 in
/-- Window 2, value %141: the fold of the window's operations at that buffer is the window's term of what the window reads. -/
theorem tfB_p2_v141 (W : Valuation τ sig (Elt F)) :
    after (ops_threefry2x32_0_p2 (F := F) (.of main_call1_v5) (.of main_call1_v7) (.of main_call1_v14) (.of main_call1_v13) main_call1_call0) W (main_call1_call0_v141 : DevRef τ sig)
      = T.tfP2_v141 bcast_S_S32 (W (main_call1_call0_v88 : DevRef τ sig)) (W (main_call1_call0_v94 : DevRef τ sig)) (W (main_call1_v5 : DevRef τ sig)) (W (main_call1_v7 : DevRef τ sig)) (W (main_call1_call0_v1 : DevRef τ sig)) := by
  simp only [ops_threefry2x32_0_p2, seg_threefry2x32_0_p2_0]
  after_results_simp
  first | rfl | fail "window term mismatch"

set_option maxRecDepth 100000 in
set_option maxHeartbeats 4000000 in
/-- Window 2, value %142: the fold of the window's operations at that buffer is the window's term of what the window reads. -/
theorem tfB_p2_v142 (W : Valuation τ sig (Elt F)) :
    after (ops_threefry2x32_0_p2 (F := F) (.of main_call1_v5) (.of main_call1_v7) (.of main_call1_v14) (.of main_call1_v13) main_call1_call0) W (main_call1_call0_v142 : DevRef τ sig)
      = T.tfP2_v142 bcast_S_S32 (W (main_call1_call0_v88 : DevRef τ sig)) (W (main_call1_call0_v94 : DevRef τ sig)) (W (main_call1_v5 : DevRef τ sig)) (W (main_call1_v7 : DevRef τ sig)) (W (main_call1_call0_v1 : DevRef τ sig)) := by
  simp only [ops_threefry2x32_0_p2, seg_threefry2x32_0_p2_0]
  after_results_simp
  first | rfl | fail "window term mismatch"

set_option maxRecDepth 100000 in
set_option maxHeartbeats 4000000 in
/-- Window 3, value %171: the fold of the window's operations at that buffer is the window's term of what the window reads. -/
theorem tfB_p3_v171 (W : Valuation τ sig (Elt F)) :
    after (ops_threefry2x32_0_p3 (F := F) (.of main_call1_v5) (.of main_call1_v7) (.of main_call1_v14) (.of main_call1_v13) main_call1_call0) W (main_call1_v15_0 : DevRef τ sig)
      = T.tfP3_v171 bcast_S_S32 (W (main_call1_call0_v141 : DevRef τ sig)) (W (main_call1_call0_v142 : DevRef τ sig)) (W (main_call1_call0_v1 : DevRef τ sig)) (W (main_call1_v5 : DevRef τ sig)) := by
  simp only [ops_threefry2x32_0_p3, seg_threefry2x32_0_p3_0]
  after_results_simp
  first | rfl | fail "window term mismatch"

set_option maxRecDepth 100000 in
set_option maxHeartbeats 4000000 in
/-- Window 3, value %175: the fold of the window's operations at that buffer is the window's term of what the window reads. -/
theorem tfB_p3_v175 (W : Valuation τ sig (Elt F)) :
    after (ops_threefry2x32_0_p3 (F := F) (.of main_call1_v5) (.of main_call1_v7) (.of main_call1_v14) (.of main_call1_v13) main_call1_call0) W (main_call1_v15_1 : DevRef τ sig)
      = T.tfP3_v175 bcast_S_S32 (W (main_call1_call0_v141 : DevRef τ sig)) (W (main_call1_call0_v142 : DevRef τ sig)) (W (main_call1_call0_v1 : DevRef τ sig)) (W (main_call1_v5 : DevRef τ sig)) := by
  simp only [ops_threefry2x32_0_p3, seg_threefry2x32_0_p3_0]
  after_results_simp
  first | rfl | fail "window term mismatch"

set_option maxRecDepth 100000 in
set_option maxHeartbeats 4000000 in
/-- Window 0 does not write the buffer of arg0. -/
theorem tfB_p0_fr_arg0 (W : Valuation τ sig (Elt F)) :
    after (ops_threefry2x32_0_p0 (F := F) (.of main_call1_v5) (.of main_call1_v7) (.of main_call1_v14) (.of main_call1_v13) main_call1_call0) W (main_call1_v5 : DevRef τ sig) = W (main_call1_v5 : DevRef τ sig) := by
  simp only [ops_threefry2x32_0_p0, seg_threefry2x32_0_p0_0]
  after_results_simp

set_option maxRecDepth 100000 in
set_option maxHeartbeats 4000000 in
/-- Window 0 does not write the buffer of arg1. -/
theorem tfB_p0_fr_arg1 (W : Valuation τ sig (Elt F)) :
    after (ops_threefry2x32_0_p0 (F := F) (.of main_call1_v5) (.of main_call1_v7) (.of main_call1_v14) (.of main_call1_v13) main_call1_call0) W (main_call1_v7 : DevRef τ sig) = W (main_call1_v7 : DevRef τ sig) := by
  simp only [ops_threefry2x32_0_p0, seg_threefry2x32_0_p0_0]
  after_results_simp

set_option maxRecDepth 100000 in
set_option maxHeartbeats 4000000 in
/-- Window 1 does not write the buffer of arg0. -/
theorem tfB_p1_fr_arg0 (W : Valuation τ sig (Elt F)) :
    after (ops_threefry2x32_0_p1 (F := F) (.of main_call1_v5) (.of main_call1_v7) (.of main_call1_v14) (.of main_call1_v13) main_call1_call0) W (main_call1_v5 : DevRef τ sig) = W (main_call1_v5 : DevRef τ sig) := by
  simp only [ops_threefry2x32_0_p1, seg_threefry2x32_0_p1_0]
  after_results_simp

set_option maxRecDepth 100000 in
set_option maxHeartbeats 4000000 in
/-- Window 1 does not write the buffer of arg1. -/
theorem tfB_p1_fr_arg1 (W : Valuation τ sig (Elt F)) :
    after (ops_threefry2x32_0_p1 (F := F) (.of main_call1_v5) (.of main_call1_v7) (.of main_call1_v14) (.of main_call1_v13) main_call1_call0) W (main_call1_v7 : DevRef τ sig) = W (main_call1_v7 : DevRef τ sig) := by
  simp only [ops_threefry2x32_0_p1, seg_threefry2x32_0_p1_0]
  after_results_simp

set_option maxRecDepth 100000 in
set_option maxHeartbeats 4000000 in
/-- Window 1 does not write the buffer of v1. -/
theorem tfB_p1_fr_v1 (W : Valuation τ sig (Elt F)) :
    after (ops_threefry2x32_0_p1 (F := F) (.of main_call1_v5) (.of main_call1_v7) (.of main_call1_v14) (.of main_call1_v13) main_call1_call0) W (main_call1_call0_v1 : DevRef τ sig) = W (main_call1_call0_v1 : DevRef τ sig) := by
  simp only [ops_threefry2x32_0_p1, seg_threefry2x32_0_p1_0]
  after_results_simp

set_option maxRecDepth 100000 in
set_option maxHeartbeats 4000000 in
/-- Window 2 does not write the buffer of v1. -/
theorem tfB_p2_fr_v1 (W : Valuation τ sig (Elt F)) :
    after (ops_threefry2x32_0_p2 (F := F) (.of main_call1_v5) (.of main_call1_v7) (.of main_call1_v14) (.of main_call1_v13) main_call1_call0) W (main_call1_call0_v1 : DevRef τ sig) = W (main_call1_call0_v1 : DevRef τ sig) := by
  simp only [ops_threefry2x32_0_p2, seg_threefry2x32_0_p2_0]
  after_results_simp

set_option maxRecDepth 100000 in
set_option maxHeartbeats 4000000 in
/-- Window 2 does not write the buffer of arg0. -/
theorem tfB_p2_fr_arg0 (W : Valuation τ sig (Elt F)) :
    after (ops_threefry2x32_0_p2 (F := F) (.of main_call1_v5) (.of main_call1_v7) (.of main_call1_v14) (.of main_call1_v13) main_call1_call0) W (main_call1_v5 : DevRef τ sig) = W (main_call1_v5 : DevRef τ sig) := by
  simp only [ops_threefry2x32_0_p2, seg_threefry2x32_0_p2_0]
  after_results_simp

end Cert.ReferenceIdeal.RefRun

end
-- ==== Proof.RefOpsValTfB.lean ====
/-
  One call of the counter-based generator (buffer record main_call1_call0): its two results as the composed window terms of its four operands.
-/
import proofs.«209156_g27831388078850_cont_9to1_824_17_alg».proof.Proof.RefOpsValTfBW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 1000000 in
/-- The generator's result %171 at this call: the four windows' terms composed (each window's fold read at what the next reads, the untouched buffers carried through). -/
theorem tfB_v171 (V : Valuation τ sig (Elt F)) :
    after (ops_threefry2x32_0 (F := F) (.of main_call1_v5) (.of main_call1_v7) (.of main_call1_v14) (.of main_call1_v13) main_call1_call0) V (main_call1_v15_0 : DevRef τ sig)
      = (T.tfOut bcast_S_S32 (V (main_call1_v5 : DevRef τ sig)) (V (main_call1_v7 : DevRef τ sig)) (V (main_call1_v14 : DevRef τ sig)) (V (main_call1_v13 : DevRef τ sig))).1 := by
  simp only [ops_threefry2x32_0, after_append]
  repeat (first | rw [tfB_p0_v1] | rw [tfB_p0_v46] | rw [tfB_p0_v47] | rw [tfB_p1_v88] | rw [tfB_p1_v94] | rw [tfB_p2_v141] | rw [tfB_p2_v142] | rw [tfB_p3_v171] | rw [tfB_p3_v175] | rw [tfB_p0_fr_arg0] | rw [tfB_p0_fr_arg1] | rw [tfB_p1_fr_arg0] | rw [tfB_p1_fr_arg1] | rw [tfB_p1_fr_v1] | rw [tfB_p2_fr_v1] | rw [tfB_p2_fr_arg0])
  first | rfl | fail "composition mismatch"

set_option maxRecDepth 100000 in
set_option maxHeartbeats 1000000 in
/-- The generator's result %175 at this call: the four windows' terms composed (each window's fold read at what the next reads, the untouched buffers carried through). -/
theorem tfB_v175 (V : Valuation τ sig (Elt F)) :
    after (ops_threefry2x32_0 (F := F) (.of main_call1_v5) (.of main_call1_v7) (.of main_call1_v14) (.of main_call1_v13) main_call1_call0) V (main_call1_v15_1 : DevRef τ sig)
      = (T.tfOut bcast_S_S32 (V (main_call1_v5 : DevRef τ sig)) (V (main_call1_v7 : DevRef τ sig)) (V (main_call1_v14 : DevRef τ sig)) (V (main_call1_v13 : DevRef τ sig))).2 := by
  simp only [ops_threefry2x32_0, after_append]
  repeat (first | rw [tfB_p0_v1] | rw [tfB_p0_v46] | rw [tfB_p0_v47] | rw [tfB_p1_v88] | rw [tfB_p1_v94] | rw [tfB_p2_v141] | rw [tfB_p2_v142] | rw [tfB_p3_v171] | rw [tfB_p3_v175] | rw [tfB_p0_fr_arg0] | rw [tfB_p0_fr_arg1] | rw [tfB_p1_fr_arg0] | rw [tfB_p1_fr_arg1] | rw [tfB_p1_fr_v1] | rw [tfB_p2_fr_v1] | rw [tfB_p2_fr_arg0])
  first | rfl | fail "composition mismatch"

end Cert.ReferenceIdeal.RefRun

end
-- ==== Proof.RefOpsValTfBF.lean ====
/-
  One call of the counter-based generator (buffer record main_call1_call0): the buffers written before it and read after it are unchanged by it.
-/
import proofs.«209156_g27831388078850_cont_9to1_824_17_alg».proof.Proof.RefOpsTfB

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 4000000 in
/-- This call of the generator does not write the buffer main_arg0. -/
theorem tfB_fr_main_arg0 (V : Valuation τ sig (Elt F)) :
    after (ops_threefry2x32_0 (F := F) (.of main_call1_v5) (.of main_call1_v7) (.of main_call1_v14) (.of main_call1_v13) main_call1_call0) V (main_arg0 : DevRef τ sig) = V (main_arg0 : DevRef τ sig) := by
  simp only [ops_threefry2x32_0, ops_threefry2x32_0_p0, seg_threefry2x32_0_p0_0, ops_threefry2x32_0_p1, seg_threefry2x32_0_p1_0, ops_threefry2x32_0_p2, seg_threefry2x32_0_p2_0, ops_threefry2x32_0_p3, seg_threefry2x32_0_p3_0, after_append]
  after_results_simp

set_option maxRecDepth 100000 in
set_option maxHeartbeats 4000000 in
/-- This call of the generator does not write the buffer main_arg1. -/
theorem tfB_fr_main_arg1 (V : Valuation τ sig (Elt F)) :
    after (ops_threefry2x32_0 (F := F) (.of main_call1_v5) (.of main_call1_v7) (.of main_call1_v14) (.of main_call1_v13) main_call1_call0) V (main_arg1 : DevRef τ sig) = V (main_arg1 : DevRef τ sig) := by
  simp only [ops_threefry2x32_0, ops_threefry2x32_0_p0, seg_threefry2x32_0_p0_0, ops_threefry2x32_0_p1, seg_threefry2x32_0_p1_0, ops_threefry2x32_0_p2, seg_threefry2x32_0_p2_0, ops_threefry2x32_0_p3, seg_threefry2x32_0_p3_0, after_append]
  after_results_simp

set_option maxRecDepth 100000 in
set_option maxHeartbeats 4000000 in
/-- This call of the generator does not write the buffer main_call1_v2. -/
theorem tfB_fr_main_call1_v2 (V : Valuation τ sig (Elt F)) :
    after (ops_threefry2x32_0 (F := F) (.of main_call1_v5) (.of main_call1_v7) (.of main_call1_v14) (.of main_call1_v13) main_call1_call0) V (main_call1_v2 : DevRef τ sig) = V (main_call1_v2 : DevRef τ sig) := by
  simp only [ops_threefry2x32_0, ops_threefry2x32_0_p0, seg_threefry2x32_0_p0_0, ops_threefry2x32_0_p1, seg_threefry2x32_0_p1_0, ops_threefry2x32_0_p2, seg_threefry2x32_0_p2_0, ops_threefry2x32_0_p3, seg_threefry2x32_0_p3_0, after_append]
  after_results_simp

set_option maxRecDepth 100000 in
set_option maxHeartbeats 4000000 in
/-- This call of the generator does not write the buffer main_call1_v3. -/
theorem tfB_fr_main_call1_v3 (V : Valuation τ sig (Elt F)) :
    after (ops_threefry2x32_0 (F := F) (.of main_call1_v5) (.of main_call1_v7) (.of main_call1_v14) (.of main_call1_v13) main_call1_call0) V (main_call1_v3 : DevRef τ sig) = V (main_call1_v3 : DevRef τ sig) := by
  simp only [ops_threefry2x32_0, ops_threefry2x32_0_p0, seg_threefry2x32_0_p0_0, ops_threefry2x32_0_p1, seg_threefry2x32_0_p1_0, ops_threefry2x32_0_p2, seg_threefry2x32_0_p2_0, ops_threefry2x32_0_p3, seg_threefry2x32_0_p3_0, after_append]
  after_results_simp

set_option maxRecDepth 100000 in
set_option maxHeartbeats 4000000 in
/-- This call of the generator does not write the buffer main_v11. -/
theorem tfB_fr_main_v11 (V : Valuation τ sig (Elt F)) :
    after (ops_threefry2x32_0 (F := F) (.of main_call1_v5) (.of main_call1_v7) (.of main_call1_v14) (.of main_call1_v13) main_call1_call0) V (main_v11 : DevRef τ sig) = V (main_v11 : DevRef τ sig) := by
  simp only [ops_threefry2x32_0, ops_threefry2x32_0_p0, seg_threefry2x32_0_p0_0, ops_threefry2x32_0_p1, seg_threefry2x32_0_p1_0, ops_threefry2x32_0_p2, seg_threefry2x32_0_p2_0, ops_threefry2x32_0_p3, seg_threefry2x32_0_p3_0, after_append]
  after_results_simp

end Cert.ReferenceIdeal.RefRun

end
-- ==== Proof.RefOpsValUniform.lean ====
/-
  The uniform draw (@main's call 1): its result as the function's term of its operands, and the buffers it leaves alone.
-/
import proofs.«209156_g27831388078850_cont_9to1_824_17_alg».proof.Proof.RefOpsUniform
import proofs.«209156_g27831388078850_cont_9to1_824_17_alg».proof.Proof.RefOpsValTfB
import proofs.«209156_g27831388078850_cont_9to1_824_17_alg».proof.Proof.RefOpsValTfBF
import proofs.«209156_g27831388078850_cont_9to1_824_17_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 1000000 in
/-- This call's result: the fold of its operations at the result buffer is the function's term of the operands' contents. -/
theorem unif_v30 (V : Valuation τ sig (Elt F)) :
    after (ops_uniform (F := F) (.of main_v9) (.of main_cst) (.of main_cst_2) main_call1) V (main_v12 : DevRef τ sig)
      = RefTerms.uniformVal (V (main_v9 : DevRef τ sig)) (V (main_cst : DevRef τ sig)) (V (main_cst_2 : DevRef τ sig)) := by
  simp only [ops_uniform, seg_uniform_0, seg_uniform_1, after_append]
  repeat (first | after_results_simp | rw [tfB_v171] | rw [tfB_v175] | rw [tfB_fr_main_arg0] | rw [tfB_fr_main_arg1] | rw [tfB_fr_main_call1_v2] | rw [tfB_fr_main_call1_v3] | rw [tfB_fr_main_v11] | after_results_step)
  all_goals (first | rfl | fail "term mismatch")

set_option maxRecDepth 100000 in
set_option maxHeartbeats 1000000 in
/-- This call does not write the buffer main_arg0. -/
theorem unif_fr_main_arg0 (V : Valuation τ sig (Elt F)) :
    after (ops_uniform (F := F) (.of main_v9) (.of main_cst) (.of main_cst_2) main_call1) V (main_arg0 : DevRef τ sig) = V (main_arg0 : DevRef τ sig) := by
  simp only [ops_uniform, seg_uniform_0, seg_uniform_1, after_append]
  repeat (first | after_results_simp | rw [tfB_v171] | rw [tfB_v175] | rw [tfB_fr_main_arg0] | rw [tfB_fr_main_arg1] | rw [tfB_fr_main_call1_v2] | rw [tfB_fr_main_call1_v3] | rw [tfB_fr_main_v11] | after_results_step)
  all_goals (first | rfl | fail "frame mismatch")

set_option maxRecDepth 100000 in
set_option maxHeartbeats 1000000 in
/-- This call does not write the buffer main_arg1. -/
theorem unif_fr_main_arg1 (V : Valuation τ sig (Elt F)) :
    after (ops_uniform (F := F) (.of main_v9) (.of main_cst) (.of main_cst_2) main_call1) V (main_arg1 : DevRef τ sig) = V (main_arg1 : DevRef τ sig) := by
  simp only [ops_uniform, seg_uniform_0, seg_uniform_1, after_append]
  repeat (first | after_results_simp | rw [tfB_v171] | rw [tfB_v175] | rw [tfB_fr_main_arg0] | rw [tfB_fr_main_arg1] | rw [tfB_fr_main_call1_v2] | rw [tfB_fr_main_call1_v3] | rw [tfB_fr_main_v11] | after_results_step)
  all_goals (first | rfl | fail "frame mismatch")

set_option maxRecDepth 100000 in
set_option maxHeartbeats 1000000 in
/-- This call does not write the buffer main_v11. -/
theorem unif_fr_main_v11 (V : Valuation τ sig (Elt F)) :
    after (ops_uniform (F := F) (.of main_v9) (.of main_cst) (.of main_cst_2) main_call1) V (main_v11 : DevRef τ sig) = V (main_v11 : DevRef τ sig) := by
  simp only [ops_uniform, seg_uniform_0, seg_uniform_1, after_append]
  repeat (first | after_results_simp | rw [tfB_v171] | rw [tfB_v175] | rw [tfB_fr_main_arg0] | rw [tfB_fr_main_arg1] | rw [tfB_fr_main_call1_v2] | rw [tfB_fr_main_call1_v3] | rw [tfB_fr_main_v11] | after_results_step)
  all_goals (first | rfl | fail "frame mismatch")

end Cert.ReferenceIdeal.RefRun

end
-- ==== Proof.RefOpsValTfA2W.lean ====
/-
  One call of the counter-based generator (buffer record main_call2_call0_call0): per printed window, the value of each buffer a later window or the caller reads, and the buffers the window leaves alone.
-/
import proofs.«209156_g27831388078850_cont_9to1_824_17_alg».proof.Proof.RefOpsTfA
import proofs.«209156_g27831388078850_cont_9to1_824_17_alg».proof.Proof.RefOpsTermTf

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 4000000 in
/-- Window 0, value %1: the fold of the window's operations at that buffer is the window's term of what the window reads. -/
theorem tfA2_p0_v1 (W : Valuation τ sig (Elt F)) :
    after (ops_threefry2x32_p0 (F := F) (.of main_call2_call0_v1) (.of main_call2_call0_v3) (.of main_call2_call0_v10) (.of main_call2_call0_v9) main_call2_call0_call0) W (main_call2_call0_call0_v1 : DevRef τ sig)
      = T.tfP0_v1 bcast_S_S2 (W (main_call2_call0_v1 : DevRef τ sig)) (W (main_call2_call0_v3 : DevRef τ sig)) (W (main_call2_call0_v10 : DevRef τ sig)) (W (main_call2_call0_v9 : DevRef τ sig)) := by
  simp only [ops_threefry2x32_p0, seg_threefry2x32_p0_0]
  after_results_simp
  first | rfl | fail "window term mismatch"

set_option maxRecDepth 100000 in
set_option maxHeartbeats 4000000 in
/-- Window 0, value %46: the fold of the window's operations at that buffer is the window's term of what the window reads. -/
theorem tfA2_p0_v46 (W : Valuation τ sig (Elt F)) :
    after (ops_threefry2x32_p0 (F := F) (.of main_call2_call0_v1) (.of main_call2_call0_v3) (.of main_call2_call0_v10) (.of main_call2_call0_v9) main_call2_call0_call0) W (main_call2_call0_call0_v46 : DevRef τ sig)
      = T.tfP0_v46 bcast_S_S2 (W (main_call2_call0_v1 : DevRef τ sig)) (W (main_call2_call0_v3 : DevRef τ sig)) (W (main_call2_call0_v10 : DevRef τ sig)) (W (main_call2_call0_v9 : DevRef τ sig)) := by
  simp only [ops_threefry2x32_p0, seg_threefry2x32_p0_0]
  after_results_simp
  first | rfl | fail "window term mismatch"

set_option maxRecDepth 100000 in
set_option maxHeartbeats 4000000 in
/-- Window 0, value %47: the fold of the window's operations at that buffer is the window's term of what the window reads. -/
theorem tfA2_p0_v47 (W : Valuation τ sig (Elt F)) :
    after (ops_threefry2x32_p0 (F := F) (.of main_call2_call0_v1) (.of main_call2_call0_v3) (.of main_call2_call0_v10) (.of main_call2_call0_v9) main_call2_call0_call0) W (main_call2_call0_call0_v47 : DevRef τ sig)
      = T.tfP0_v47 bcast_S_S2 (W (main_call2_call0_v1 : DevRef τ sig)) (W (main_call2_call0_v3 : DevRef τ sig)) (W (main_call2_call0_v10 : DevRef τ sig)) (W (main_call2_call0_v9 : DevRef τ sig)) := by
  simp only [ops_threefry2x32_p0, seg_threefry2x32_p0_0]
  after_results_simp
  first | rfl | fail "window term mismatch"

set_option maxRecDepth 100000 in
set_option maxHeartbeats 4000000 in
/-- Window 1, value %88: the fold of the window's operations at that buffer is the window's term of what the window reads. -/
theorem tfA2_p1_v88 (W : Valuation τ sig (Elt F)) :
    after (ops_threefry2x32_p1 (F := F) (.of main_call2_call0_v1) (.of main_call2_call0_v3) (.of main_call2_call0_v10) (.of main_call2_call0_v9) main_call2_call0_call0) W (main_call2_call0_call0_v88 : DevRef τ sig)
      = T.tfP1_v88 bcast_S_S2 (W (main_call2_call0_call0_v46 : DevRef τ sig)) (W (main_call2_call0_call0_v47 : DevRef τ sig)) (W (main_call2_call0_call0_v1 : DevRef τ sig)) (W (main_call2_call0_v1 : DevRef τ sig)) := by
  simp only [ops_threefry2x32_p1, seg_threefry2x32_p1_0]
  after_results_simp
  first | rfl | fail "window term mismatch"

set_option maxRecDepth 100000 in
set_option maxHeartbeats 4000000 in
/-- Window 1, value %94: the fold of the window's operations at that buffer is the window's term of what the window reads. -/
theorem tfA2_p1_v94 (W : Valuation τ sig (Elt F)) :
    after (ops_threefry2x32_p1 (F := F) (.of main_call2_call0_v1) (.of main_call2_call0_v3) (.of main_call2_call0_v10) (.of main_call2_call0_v9) main_call2_call0_call0) W (main_call2_call0_call0_v94 : DevRef τ sig)
      = T.tfP1_v94 bcast_S_S2 (W (main_call2_call0_call0_v46 : DevRef τ sig)) (W (main_call2_call0_call0_v47 : DevRef τ sig)) (W (main_call2_call0_call0_v1 : DevRef τ sig)) (W (main_call2_call0_v1 : DevRef τ sig)) := by
  simp only [ops_threefry2x32_p1, seg_threefry2x32_p1_0]
  after_results_simp
  first | rfl | fail "window term mismatch"

set_option maxRecDepth 100000 in
set_option maxHeartbeats 4000000 in
/-- Window 2, value %141: the fold of the window's operations at that buffer is the window's term of what the window reads. -/
theorem tfA2_p2_v141 (W : Valuation τ sig (Elt F)) :
    after (ops_threefry2x32_p2 (F := F) (.of main_call2_call0_v1) (.of main_call2_call0_v3) (.of main_call2_call0_v10) (.of main_call2_call0_v9) main_call2_call0_call0) W (main_call2_call0_call0_v141 : DevRef τ sig)
      = T.tfP2_v141 bcast_S_S2 (W (main_call2_call0_call0_v88 : DevRef τ sig)) (W (main_call2_call0_call0_v94 : DevRef τ sig)) (W (main_call2_call0_v1 : DevRef τ sig)) (W (main_call2_call0_v3 : DevRef τ sig)) (W (main_call2_call0_call0_v1 : DevRef τ sig)) := by
  simp only [ops_threefry2x32_p2, seg_threefry2x32_p2_0]
  after_results_simp
  first | rfl | fail "window term mismatch"

set_option maxRecDepth 100000 in
set_option maxHeartbeats 4000000 in
/-- Window 2, value %142: the fold of the window's operations at that buffer is the window's term of what the window reads. -/
theorem tfA2_p2_v142 (W : Valuation τ sig (Elt F)) :
    after (ops_threefry2x32_p2 (F := F) (.of main_call2_call0_v1) (.of main_call2_call0_v3) (.of main_call2_call0_v10) (.of main_call2_call0_v9) main_call2_call0_call0) W (main_call2_call0_call0_v142 : DevRef τ sig)
      = T.tfP2_v142 bcast_S_S2 (W (main_call2_call0_call0_v88 : DevRef τ sig)) (W (main_call2_call0_call0_v94 : DevRef τ sig)) (W (main_call2_call0_v1 : DevRef τ sig)) (W (main_call2_call0_v3 : DevRef τ sig)) (W (main_call2_call0_call0_v1 : DevRef τ sig)) := by
  simp only [ops_threefry2x32_p2, seg_threefry2x32_p2_0]
  after_results_simp
  first | rfl | fail "window term mismatch"

set_option maxRecDepth 100000 in
set_option maxHeartbeats 4000000 in
/-- Window 3, value %171: the fold of the window's operations at that buffer is the window's term of what the window reads. -/
theorem tfA2_p3_v171 (W : Valuation τ sig (Elt F)) :
    after (ops_threefry2x32_p3 (F := F) (.of main_call2_call0_v1) (.of main_call2_call0_v3) (.of main_call2_call0_v10) (.of main_call2_call0_v9) main_call2_call0_call0) W (main_call2_call0_v11_0 : DevRef τ sig)
      = T.tfP3_v171 bcast_S_S2 (W (main_call2_call0_call0_v141 : DevRef τ sig)) (W (main_call2_call0_call0_v142 : DevRef τ sig)) (W (main_call2_call0_call0_v1 : DevRef τ sig)) (W (main_call2_call0_v1 : DevRef τ sig)) := by
  simp only [ops_threefry2x32_p3, seg_threefry2x32_p3_0]
  after_results_simp
  first | rfl | fail "window term mismatch"

set_option maxRecDepth 100000 in
set_option maxHeartbeats 4000000 in
/-- Window 3, value %175: the fold of the window's operations at that buffer is the window's term of what the window reads. -/
theorem tfA2_p3_v175 (W : Valuation τ sig (Elt F)) :
    after (ops_threefry2x32_p3 (F := F) (.of main_call2_call0_v1) (.of main_call2_call0_v3) (.of main_call2_call0_v10) (.of main_call2_call0_v9) main_call2_call0_call0) W (main_call2_call0_v11_1 : DevRef τ sig)
      = T.tfP3_v175 bcast_S_S2 (W (main_call2_call0_call0_v141 : DevRef τ sig)) (W (main_call2_call0_call0_v142 : DevRef τ sig)) (W (main_call2_call0_call0_v1 : DevRef τ sig)) (W (main_call2_call0_v1 : DevRef τ sig)) := by
  simp only [ops_threefry2x32_p3, seg_threefry2x32_p3_0]
  after_results_simp
  first | rfl | fail "window term mismatch"

set_option maxRecDepth 100000 in
set_option maxHeartbeats 4000000 in
/-- Window 0 does not write the buffer of arg0. -/
theorem tfA2_p0_fr_arg0 (W : Valuation τ sig (Elt F)) :
    after (ops_threefry2x32_p0 (F := F) (.of main_call2_call0_v1) (.of main_call2_call0_v3) (.of main_call2_call0_v10) (.of main_call2_call0_v9) main_call2_call0_call0) W (main_call2_call0_v1 : DevRef τ sig) = W (main_call2_call0_v1 : DevRef τ sig) := by
  simp only [ops_threefry2x32_p0, seg_threefry2x32_p0_0]
  after_results_simp

set_option maxRecDepth 100000 in
set_option maxHeartbeats 4000000 in
/-- Window 0 does not write the buffer of arg1. -/
theorem tfA2_p0_fr_arg1 (W : Valuation τ sig (Elt F)) :
    after (ops_threefry2x32_p0 (F := F) (.of main_call2_call0_v1) (.of main_call2_call0_v3) (.of main_call2_call0_v10) (.of main_call2_call0_v9) main_call2_call0_call0) W (main_call2_call0_v3 : DevRef τ sig) = W (main_call2_call0_v3 : DevRef τ sig) := by
  simp only [ops_threefry2x32_p0, seg_threefry2x32_p0_0]
  after_results_simp

set_option maxRecDepth 100000 in
set_option maxHeartbeats 4000000 in
/-- Window 1 does not write the buffer of arg0. -/
theorem tfA2_p1_fr_arg0 (W : Valuation τ sig (Elt F)) :
    after (ops_threefry2x32_p1 (F := F) (.of main_call2_call0_v1) (.of main_call2_call0_v3) (.of main_call2_call0_v10) (.of main_call2_call0_v9) main_call2_call0_call0) W (main_call2_call0_v1 : DevRef τ sig) = W (main_call2_call0_v1 : DevRef τ sig) := by
  simp only [ops_threefry2x32_p1, seg_threefry2x32_p1_0]
  after_results_simp

set_option maxRecDepth 100000 in
set_option maxHeartbeats 4000000 in
/-- Window 1 does not write the buffer of arg1. -/
theorem tfA2_p1_fr_arg1 (W : Valuation τ sig (Elt F)) :
    after (ops_threefry2x32_p1 (F := F) (.of main_call2_call0_v1) (.of main_call2_call0_v3) (.of main_call2_call0_v10) (.of main_call2_call0_v9) main_call2_call0_call0) W (main_call2_call0_v3 : DevRef τ sig) = W (main_call2_call0_v3 : DevRef τ sig) := by
  simp only [ops_threefry2x32_p1, seg_threefry2x32_p1_0]
  after_results_simp

set_option maxRecDepth 100000 in
set_option maxHeartbeats 4000000 in
/-- Window 1 does not write the buffer of v1. -/
theorem tfA2_p1_fr_v1 (W : Valuation τ sig (Elt F)) :
    after (ops_threefry2x32_p1 (F := F) (.of main_call2_call0_v1) (.of main_call2_call0_v3) (.of main_call2_call0_v10) (.of main_call2_call0_v9) main_call2_call0_call0) W (main_call2_call0_call0_v1 : DevRef τ sig) = W (main_call2_call0_call0_v1 : DevRef τ sig) := by
  simp only [ops_threefry2x32_p1, seg_threefry2x32_p1_0]
  after_results_simp

set_option maxRecDepth 100000 in
set_option maxHeartbeats 4000000 in
/-- Window 2 does not write the buffer of v1. -/
theorem tfA2_p2_fr_v1 (W : Valuation τ sig (Elt F)) :
    after (ops_threefry2x32_p2 (F := F) (.of main_call2_call0_v1) (.of main_call2_call0_v3) (.of main_call2_call0_v10) (.of main_call2_call0_v9) main_call2_call0_call0) W (main_call2_call0_call0_v1 : DevRef τ sig) = W (main_call2_call0_call0_v1 : DevRef τ sig) := by
  simp only [ops_threefry2x32_p2, seg_threefry2x32_p2_0]
  after_results_simp

set_option maxRecDepth 100000 in
set_option maxHeartbeats 4000000 in
/-- Window 2 does not write the buffer of arg0. -/
theorem tfA2_p2_fr_arg0 (W : Valuation τ sig (Elt F)) :
    after (ops_threefry2x32_p2 (F := F) (.of main_call2_call0_v1) (.of main_call2_call0_v3) (.of main_call2_call0_v10) (.of main_call2_call0_v9) main_call2_call0_call0) W (main_call2_call0_v1 : DevRef τ sig) = W (main_call2_call0_v1 : DevRef τ sig) := by
  simp only [ops_threefry2x32_p2, seg_threefry2x32_p2_0]
  after_results_simp

end Cert.ReferenceIdeal.RefRun

end
-- ==== Proof.RefOpsValTfA2.lean ====
/-
  One call of the counter-based generator (buffer record main_call2_call0_call0): its two results as the composed window terms of its four operands.
-/
import proofs.«209156_g27831388078850_cont_9to1_824_17_alg».proof.Proof.RefOpsValTfA2W

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 1000000 in
/-- The generator's result %171 at this call: the four windows' terms composed (each window's fold read at what the next reads, the untouched buffers carried through). -/
theorem tfA2_v171 (V : Valuation τ sig (Elt F)) :
    after (ops_threefry2x32 (F := F) (.of main_call2_call0_v1) (.of main_call2_call0_v3) (.of main_call2_call0_v10) (.of main_call2_call0_v9) main_call2_call0_call0) V (main_call2_call0_v11_0 : DevRef τ sig)
      = (T.tfOut bcast_S_S2 (V (main_call2_call0_v1 : DevRef τ sig)) (V (main_call2_call0_v3 : DevRef τ sig)) (V (main_call2_call0_v10 : DevRef τ sig)) (V (main_call2_call0_v9 : DevRef τ sig))).1 := by
  simp only [ops_threefry2x32, after_append]
  repeat (first | rw [tfA2_p0_v1] | rw [tfA2_p0_v46] | rw [tfA2_p0_v47] | rw [tfA2_p1_v88] | rw [tfA2_p1_v94] | rw [tfA2_p2_v141] | rw [tfA2_p2_v142] | rw [tfA2_p3_v171] | rw [tfA2_p3_v175] | rw [tfA2_p0_fr_arg0] | rw [tfA2_p0_fr_arg1] | rw [tfA2_p1_fr_arg0] | rw [tfA2_p1_fr_arg1] | rw [tfA2_p1_fr_v1] | rw [tfA2_p2_fr_v1] | rw [tfA2_p2_fr_arg0])
  first | rfl | fail "composition mismatch"

set_option maxRecDepth 100000 in
set_option maxHeartbeats 1000000 in
/-- The generator's result %175 at this call: the four windows' terms composed (each window's fold read at what the next reads, the untouched buffers carried through). -/
theorem tfA2_v175 (V : Valuation τ sig (Elt F)) :
    after (ops_threefry2x32 (F := F) (.of main_call2_call0_v1) (.of main_call2_call0_v3) (.of main_call2_call0_v10) (.of main_call2_call0_v9) main_call2_call0_call0) V (main_call2_call0_v11_1 : DevRef τ sig)
      = (T.tfOut bcast_S_S2 (V (main_call2_call0_v1 : DevRef τ sig)) (V (main_call2_call0_v3 : DevRef τ sig)) (V (main_call2_call0_v10 : DevRef τ sig)) (V (main_call2_call0_v9 : DevRef τ sig))).2 := by
  simp only [ops_threefry2x32, after_append]
  repeat (first | rw [tfA2_p0_v1] | rw [tfA2_p0_v46] | rw [tfA2_p0_v47] | rw [tfA2_p1_v88] | rw [tfA2_p1_v94] | rw [tfA2_p2_v141] | rw [tfA2_p2_v142] | rw [tfA2_p3_v171] | rw [tfA2_p3_v175] | rw [tfA2_p0_fr_arg0] | rw [tfA2_p0_fr_arg1] | rw [tfA2_p1_fr_arg0] | rw [tfA2_p1_fr_arg1] | rw [tfA2_p1_fr_v1] | rw [tfA2_p2_fr_v1] | rw [tfA2_p2_fr_arg0])
  first | rfl | fail "composition mismatch"

end Cert.ReferenceIdeal.RefRun

end
-- ==== Proof.RefOpsValTfA2F.lean ====
/-
  One call of the counter-based generator (buffer record main_call2_call0_call0): the buffers written before it and read after it are unchanged by it.
-/
import proofs.«209156_g27831388078850_cont_9to1_824_17_alg».proof.Proof.RefOpsTfA

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 4000000 in
/-- This call of the generator does not write the buffer main_arg0. -/
theorem tfA2_fr_main_arg0 (V : Valuation τ sig (Elt F)) :
    after (ops_threefry2x32 (F := F) (.of main_call2_call0_v1) (.of main_call2_call0_v3) (.of main_call2_call0_v10) (.of main_call2_call0_v9) main_call2_call0_call0) V (main_arg0 : DevRef τ sig) = V (main_arg0 : DevRef τ sig) := by
  simp only [ops_threefry2x32, ops_threefry2x32_p0, seg_threefry2x32_p0_0, ops_threefry2x32_p1, seg_threefry2x32_p1_0, ops_threefry2x32_p2, seg_threefry2x32_p2_0, ops_threefry2x32_p3, seg_threefry2x32_p3_0, after_append]
  after_results_simp

set_option maxRecDepth 100000 in
set_option maxHeartbeats 4000000 in
/-- This call of the generator does not write the buffer main_arg1. -/
theorem tfA2_fr_main_arg1 (V : Valuation τ sig (Elt F)) :
    after (ops_threefry2x32 (F := F) (.of main_call2_call0_v1) (.of main_call2_call0_v3) (.of main_call2_call0_v10) (.of main_call2_call0_v9) main_call2_call0_call0) V (main_arg1 : DevRef τ sig) = V (main_arg1 : DevRef τ sig) := by
  simp only [ops_threefry2x32, ops_threefry2x32_p0, seg_threefry2x32_p0_0, ops_threefry2x32_p1, seg_threefry2x32_p1_0, ops_threefry2x32_p2, seg_threefry2x32_p2_0, ops_threefry2x32_p3, seg_threefry2x32_p3_0, after_append]
  after_results_simp

set_option maxRecDepth 100000 in
set_option maxHeartbeats 4000000 in
/-- This call of the generator does not write the buffer main_v14. -/
theorem tfA2_fr_main_v14 (V : Valuation τ sig (Elt F)) :
    after (ops_threefry2x32 (F := F) (.of main_call2_call0_v1) (.of main_call2_call0_v3) (.of main_call2_call0_v10) (.of main_call2_call0_v9) main_call2_call0_call0) V (main_v14 : DevRef τ sig) = V (main_v14 : DevRef τ sig) := by
  simp only [ops_threefry2x32, ops_threefry2x32_p0, seg_threefry2x32_p0_0, ops_threefry2x32_p1, seg_threefry2x32_p1_0, ops_threefry2x32_p2, seg_threefry2x32_p2_0, ops_threefry2x32_p3, seg_threefry2x32_p3_0, after_append]
  after_results_simp

set_option maxRecDepth 100000 in
set_option maxHeartbeats 4000000 in
/-- This call of the generator does not write the buffer main_v15. -/
theorem tfA2_fr_main_v15 (V : Valuation τ sig (Elt F)) :
    after (ops_threefry2x32 (F := F) (.of main_call2_call0_v1) (.of main_call2_call0_v3) (.of main_call2_call0_v10) (.of main_call2_call0_v9) main_call2_call0_call0) V (main_v15 : DevRef τ sig) = V (main_v15 : DevRef τ sig) := by
  simp only [ops_threefry2x32, ops_threefry2x32_p0, seg_threefry2x32_p0_0, ops_threefry2x32_p1, seg_threefry2x32_p1_0, ops_threefry2x32_p2, seg_threefry2x32_p2_0, ops_threefry2x32_p3, seg_threefry2x32_p3_0, after_append]
  after_results_simp

end Cert.ReferenceIdeal.RefRun

end
-- ==== Proof.RefOpsValSplitS.lean ====
/-
  The key split inside the shuffle: its result as the function's term of its operand, and the buffers it leaves alone.
-/
import proofs.«209156_g27831388078850_cont_9to1_824_17_alg».proof.Proof.RefOpsSplit
import proofs.«209156_g27831388078850_cont_9to1_824_17_alg».proof.Proof.RefOpsValTfA2
import proofs.«209156_g27831388078850_cont_9to1_824_17_alg».proof.Proof.RefOpsValTfA2F
import proofs.«209156_g27831388078850_cont_9to1_824_17_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 1000000 in
/-- This call's result: the fold of its operations at the result buffer is the function's term of the operands' contents. -/
theorem splitS_v14 (V : Valuation τ sig (Elt F)) :
    after (ops_threefry_split_1 (F := F) (.of main_v11) main_call2_call0) V (main_call2_v0 : DevRef τ sig)
      = RefTerms.splitVal (V (main_v11 : DevRef τ sig)) := by
  simp only [ops_threefry_split_1, seg_threefry_split_1_0, seg_threefry_split_1_1, after_append]
  repeat (first | after_results_simp | rw [tfA2_v171] | rw [tfA2_v175] | rw [tfA2_fr_main_arg0] | rw [tfA2_fr_main_arg1] | rw [tfA2_fr_main_v14] | rw [tfA2_fr_main_v15] | after_results_step)
  all_goals (first | rfl | fail "term mismatch")

set_option maxRecDepth 100000 in
set_option maxHeartbeats 1000000 in
/-- This call does not write the buffer main_arg0. -/
theorem splitS_fr_main_arg0 (V : Valuation τ sig (Elt F)) :
    after (ops_threefry_split_1 (F := F) (.of main_v11) main_call2_call0) V (main_arg0 : DevRef τ sig) = V (main_arg0 : DevRef τ sig) := by
  simp only [ops_threefry_split_1, seg_threefry_split_1_0, seg_threefry_split_1_1, after_append]
  repeat (first | after_results_simp | rw [tfA2_v171] | rw [tfA2_v175] | rw [tfA2_fr_main_arg0] | rw [tfA2_fr_main_arg1] | rw [tfA2_fr_main_v14] | rw [tfA2_fr_main_v15] | after_results_step)
  all_goals (first | rfl | fail "frame mismatch")

set_option maxRecDepth 100000 in
set_option maxHeartbeats 1000000 in
/-- This call does not write the buffer main_arg1. -/
theorem splitS_fr_main_arg1 (V : Valuation τ sig (Elt F)) :
    after (ops_threefry_split_1 (F := F) (.of main_v11) main_call2_call0) V (main_arg1 : DevRef τ sig) = V (main_arg1 : DevRef τ sig) := by
  simp only [ops_threefry_split_1, seg_threefry_split_1_0, seg_threefry_split_1_1, after_append]
  repeat (first | after_results_simp | rw [tfA2_v171] | rw [tfA2_v175] | rw [tfA2_fr_main_arg0] | rw [tfA2_fr_main_arg1] | rw [tfA2_fr_main_v14] | rw [tfA2_fr_main_v15] | after_results_step)
  all_goals (first | rfl | fail "frame mismatch")

set_option maxRecDepth 100000 in
set_option maxHeartbeats 1000000 in
/-- This call does not write the buffer main_v14. -/
theorem splitS_fr_main_v14 (V : Valuation τ sig (Elt F)) :
    after (ops_threefry_split_1 (F := F) (.of main_v11) main_call2_call0) V (main_v14 : DevRef τ sig) = V (main_v14 : DevRef τ sig) := by
  simp only [ops_threefry_split_1, seg_threefry_split_1_0, seg_threefry_split_1_1, after_append]
  repeat (first | after_results_simp | rw [tfA2_v171] | rw [tfA2_v175] | rw [tfA2_fr_main_arg0] | rw [tfA2_fr_main_arg1] | rw [tfA2_fr_main_v14] | rw [tfA2_fr_main_v15] | after_results_step)
  all_goals (first | rfl | fail "frame mismatch")

set_option maxRecDepth 100000 in
set_option maxHeartbeats 1000000 in
/-- This call does not write the buffer main_v15. -/
theorem splitS_fr_main_v15 (V : Valuation τ sig (Elt F)) :
    after (ops_threefry_split_1 (F := F) (.of main_v11) main_call2_call0) V (main_v15 : DevRef τ sig) = V (main_v15 : DevRef τ sig) := by
  simp only [ops_threefry_split_1, seg_threefry_split_1_0, seg_threefry_split_1_1, after_append]
  repeat (first | after_results_simp | rw [tfA2_v171] | rw [tfA2_v175] | rw [tfA2_fr_main_arg0] | rw [tfA2_fr_main_arg1] | rw [tfA2_fr_main_v14] | rw [tfA2_fr_main_v15] | after_results_step)
  all_goals (first | rfl | fail "frame mismatch")

end Cert.ReferenceIdeal.RefRun

end
-- ==== Proof.RefOpsValTfCW.lean ====
/-
  One call of the counter-based generator (buffer record main_call2_call1): per printed window, the value of each buffer a later window or the caller reads, and the buffers the window leaves alone.
-/
import proofs.«209156_g27831388078850_cont_9to1_824_17_alg».proof.Proof.RefOpsTfC
import proofs.«209156_g27831388078850_cont_9to1_824_17_alg».proof.Proof.RefOpsTermTf

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 4000000 in
/-- Window 0, value %1: the fold of the window's operations at that buffer is the window's term of what the window reads. -/
theorem tfC_p0_v1 (W : Valuation τ sig (Elt F)) :
    after (ops_threefry2x32_2_p0 (F := F) (.of main_call2_v6) (.of main_call2_v8) (.of main_call2_v15) (.of main_call2_v14) main_call2_call1) W (main_call2_call1_v1 : DevRef τ sig)
      = T.tfP0_v1 bcast_S_S128 (W (main_call2_v6 : DevRef τ sig)) (W (main_call2_v8 : DevRef τ sig)) (W (main_call2_v15 : DevRef τ sig)) (W (main_call2_v14 : DevRef τ sig)) := by
  simp only [ops_threefry2x32_2_p0, seg_threefry2x32_2_p0_0]
  after_results_simp
  first | rfl | fail "window term mismatch"

set_option maxRecDepth 100000 in
set_option maxHeartbeats 4000000 in
/-- Window 0, value %46: the fold of the window's operations at that buffer is the window's term of what the window reads. -/
theorem tfC_p0_v46 (W : Valuation τ sig (Elt F)) :
    after (ops_threefry2x32_2_p0 (F := F) (.of main_call2_v6) (.of main_call2_v8) (.of main_call2_v15) (.of main_call2_v14) main_call2_call1) W (main_call2_call1_v46 : DevRef τ sig)
      = T.tfP0_v46 bcast_S_S128 (W (main_call2_v6 : DevRef τ sig)) (W (main_call2_v8 : DevRef τ sig)) (W (main_call2_v15 : DevRef τ sig)) (W (main_call2_v14 : DevRef τ sig)) := by
  simp only [ops_threefry2x32_2_p0, seg_threefry2x32_2_p0_0]
  after_results_simp
  first | rfl | fail "window term mismatch"

set_option maxRecDepth 100000 in
set_option maxHeartbeats 4000000 in
/-- Window 0, value %47: the fold of the window's operations at that buffer is the window's term of what the window reads. -/
theorem tfC_p0_v47 (W : Valuation τ sig (Elt F)) :
    after (ops_threefry2x32_2_p0 (F := F) (.of main_call2_v6) (.of main_call2_v8) (.of main_call2_v15) (.of main_call2_v14) main_call2_call1) W (main_call2_call1_v47 : DevRef τ sig)
      = T.tfP0_v47 bcast_S_S128 (W (main_call2_v6 : DevRef τ sig)) (W (main_call2_v8 : DevRef τ sig)) (W (main_call2_v15 : DevRef τ sig)) (W (main_call2_v14 : DevRef τ sig)) := by
  simp only [ops_threefry2x32_2_p0, seg_threefry2x32_2_p0_0]
  after_results_simp
  first | rfl | fail "window term mismatch"

set_option maxRecDepth 100000 in
set_option maxHeartbeats 4000000 in
/-- Window 1, value %88: the fold of the window's operations at that buffer is the window's term of what the window reads. -/
theorem tfC_p1_v88 (W : Valuation τ sig (Elt F)) :
    after (ops_threefry2x32_2_p1 (F := F) (.of main_call2_v6) (.of main_call2_v8) (.of main_call2_v15) (.of main_call2_v14) main_call2_call1) W (main_call2_call1_v88 : DevRef τ sig)
      = T.tfP1_v88 bcast_S_S128 (W (main_call2_call1_v46 : DevRef τ sig)) (W (main_call2_call1_v47 : DevRef τ sig)) (W (main_call2_call1_v1 : DevRef τ sig)) (W (main_call2_v6 : DevRef τ sig)) := by
  simp only [ops_threefry2x32_2_p1, seg_threefry2x32_2_p1_0]
  after_results_simp
  first | rfl | fail "window term mismatch"

set_option maxRecDepth 100000 in
set_option maxHeartbeats 4000000 in
/-- Window 1, value %94: the fold of the window's operations at that buffer is the window's term of what the window reads. -/
theorem tfC_p1_v94 (W : Valuation τ sig (Elt F)) :
    after (ops_threefry2x32_2_p1 (F := F) (.of main_call2_v6) (.of main_call2_v8) (.of main_call2_v15) (.of main_call2_v14) main_call2_call1) W (main_call2_call1_v94 : DevRef τ sig)
      = T.tfP1_v94 bcast_S_S128 (W (main_call2_call1_v46 : DevRef τ sig)) (W (main_call2_call1_v47 : DevRef τ sig)) (W (main_call2_call1_v1 : DevRef τ sig)) (W (main_call2_v6 : DevRef τ sig)) := by
  simp only [ops_threefry2x32_2_p1, seg_threefry2x32_2_p1_0]
  after_results_simp
  first | rfl | fail "window term mismatch"

set_option maxRecDepth 100000 in
set_option maxHeartbeats 4000000 in
/-- Window 2, value %141: the fold of the window's operations at that buffer is the window's term of what the window reads. -/
theorem tfC_p2_v141 (W : Valuation τ sig (Elt F)) :
    after (ops_threefry2x32_2_p2 (F := F) (.of main_call2_v6) (.of main_call2_v8) (.of main_call2_v15) (.of main_call2_v14) main_call2_call1) W (main_call2_call1_v141 : DevRef τ sig)
      = T.tfP2_v141 bcast_S_S128 (W (main_call2_call1_v88 : DevRef τ sig)) (W (main_call2_call1_v94 : DevRef τ sig)) (W (main_call2_v6 : DevRef τ sig)) (W (main_call2_v8 : DevRef τ sig)) (W (main_call2_call1_v1 : DevRef τ sig)) := by
  simp only [ops_threefry2x32_2_p2, seg_threefry2x32_2_p2_0]
  after_results_simp
  first | rfl | fail "window term mismatch"

set_option maxRecDepth 100000 in
set_option maxHeartbeats 4000000 in
/-- Window 2, value %142: the fold of the window's operations at that buffer is the window's term of what the window reads. -/
theorem tfC_p2_v142 (W : Valuation τ sig (Elt F)) :
    after (ops_threefry2x32_2_p2 (F := F) (.of main_call2_v6) (.of main_call2_v8) (.of main_call2_v15) (.of main_call2_v14) main_call2_call1) W (main_call2_call1_v142 : DevRef τ sig)
      = T.tfP2_v142 bcast_S_S128 (W (main_call2_call1_v88 : DevRef τ sig)) (W (main_call2_call1_v94 : DevRef τ sig)) (W (main_call2_v6 : DevRef τ sig)) (W (main_call2_v8 : DevRef τ sig)) (W (main_call2_call1_v1 : DevRef τ sig)) := by
  simp only [ops_threefry2x32_2_p2, seg_threefry2x32_2_p2_0]
  after_results_simp
  first | rfl | fail "window term mismatch"

set_option maxRecDepth 100000 in
set_option maxHeartbeats 4000000 in
/-- Window 3, value %171: the fold of the window's operations at that buffer is the window's term of what the window reads. -/
theorem tfC_p3_v171 (W : Valuation τ sig (Elt F)) :
    after (ops_threefry2x32_2_p3 (F := F) (.of main_call2_v6) (.of main_call2_v8) (.of main_call2_v15) (.of main_call2_v14) main_call2_call1) W (main_call2_v16_0 : DevRef τ sig)
      = T.tfP3_v171 bcast_S_S128 (W (main_call2_call1_v141 : DevRef τ sig)) (W (main_call2_call1_v142 : DevRef τ sig)) (W (main_call2_call1_v1 : DevRef τ sig)) (W (main_call2_v6 : DevRef τ sig)) := by
  simp only [ops_threefry2x32_2_p3, seg_threefry2x32_2_p3_0]
  after_results_simp
  first | rfl | fail "window term mismatch"

set_option maxRecDepth 100000 in
set_option maxHeartbeats 4000000 in
/-- Window 3, value %175: the fold of the window's operations at that buffer is the window's term of what the window reads. -/
theorem tfC_p3_v175 (W : Valuation τ sig (Elt F)) :
    after (ops_threefry2x32_2_p3 (F := F) (.of main_call2_v6) (.of main_call2_v8) (.of main_call2_v15) (.of main_call2_v14) main_call2_call1) W (main_call2_v16_1 : DevRef τ sig)
      = T.tfP3_v175 bcast_S_S128 (W (main_call2_call1_v141 : DevRef τ sig)) (W (main_call2_call1_v142 : DevRef τ sig)) (W (main_call2_call1_v1 : DevRef τ sig)) (W (main_call2_v6 : DevRef τ sig)) := by
  simp only [ops_threefry2x32_2_p3, seg_threefry2x32_2_p3_0]
  after_results_simp
  first | rfl | fail "window term mismatch"

set_option maxRecDepth 100000 in
set_option maxHeartbeats 4000000 in
/-- Window 0 does not write the buffer of arg0. -/
theorem tfC_p0_fr_arg0 (W : Valuation τ sig (Elt F)) :
    after (ops_threefry2x32_2_p0 (F := F) (.of main_call2_v6) (.of main_call2_v8) (.of main_call2_v15) (.of main_call2_v14) main_call2_call1) W (main_call2_v6 : DevRef τ sig) = W (main_call2_v6 : DevRef τ sig) := by
  simp only [ops_threefry2x32_2_p0, seg_threefry2x32_2_p0_0]
  after_results_simp

set_option maxRecDepth 100000 in
set_option maxHeartbeats 4000000 in
/-- Window 0 does not write the buffer of arg1. -/
theorem tfC_p0_fr_arg1 (W : Valuation τ sig (Elt F)) :
    after (ops_threefry2x32_2_p0 (F := F) (.of main_call2_v6) (.of main_call2_v8) (.of main_call2_v15) (.of main_call2_v14) main_call2_call1) W (main_call2_v8 : DevRef τ sig) = W (main_call2_v8 : DevRef τ sig) := by
  simp only [ops_threefry2x32_2_p0, seg_threefry2x32_2_p0_0]
  after_results_simp

set_option maxRecDepth 100000 in
set_option maxHeartbeats 4000000 in
/-- Window 1 does not write the buffer of arg0. -/
theorem tfC_p1_fr_arg0 (W : Valuation τ sig (Elt F)) :
    after (ops_threefry2x32_2_p1 (F := F) (.of main_call2_v6) (.of main_call2_v8) (.of main_call2_v15) (.of main_call2_v14) main_call2_call1) W (main_call2_v6 : DevRef τ sig) = W (main_call2_v6 : DevRef τ sig) := by
  simp only [ops_threefry2x32_2_p1, seg_threefry2x32_2_p1_0]
  after_results_simp

set_option maxRecDepth 100000 in
set_option maxHeartbeats 4000000 in
/-- Window 1 does not write the buffer of arg1. -/
theorem tfC_p1_fr_arg1 (W : Valuation τ sig (Elt F)) :
    after (ops_threefry2x32_2_p1 (F := F) (.of main_call2_v6) (.of main_call2_v8) (.of main_call2_v15) (.of main_call2_v14) main_call2_call1) W (main_call2_v8 : DevRef τ sig) = W (main_call2_v8 : DevRef τ sig) := by
  simp only [ops_threefry2x32_2_p1, seg_threefry2x32_2_p1_0]
  after_results_simp

set_option maxRecDepth 100000 in
set_option maxHeartbeats 4000000 in
/-- Window 1 does not write the buffer of v1. -/
theorem tfC_p1_fr_v1 (W : Valuation τ sig (Elt F)) :
    after (ops_threefry2x32_2_p1 (F := F) (.of main_call2_v6) (.of main_call2_v8) (.of main_call2_v15) (.of main_call2_v14) main_call2_call1) W (main_call2_call1_v1 : DevRef τ sig) = W (main_call2_call1_v1 : DevRef τ sig) := by
  simp only [ops_threefry2x32_2_p1, seg_threefry2x32_2_p1_0]
  after_results_simp

set_option maxRecDepth 100000 in
set_option maxHeartbeats 4000000 in
/-- Window 2 does not write the buffer of v1. -/
theorem tfC_p2_fr_v1 (W : Valuation τ sig (Elt F)) :
    after (ops_threefry2x32_2_p2 (F := F) (.of main_call2_v6) (.of main_call2_v8) (.of main_call2_v15) (.of main_call2_v14) main_call2_call1) W (main_call2_call1_v1 : DevRef τ sig) = W (main_call2_call1_v1 : DevRef τ sig) := by
  simp only [ops_threefry2x32_2_p2, seg_threefry2x32_2_p2_0]
  after_results_simp

set_option maxRecDepth 100000 in
set_option maxHeartbeats 4000000 in
/-- Window 2 does not write the buffer of arg0. -/
theorem tfC_p2_fr_arg0 (W : Valuation τ sig (Elt F)) :
    after (ops_threefry2x32_2_p2 (F := F) (.of main_call2_v6) (.of main_call2_v8) (.of main_call2_v15) (.of main_call2_v14) main_call2_call1) W (main_call2_v6 : DevRef τ sig) = W (main_call2_v6 : DevRef τ sig) := by
  simp only [ops_threefry2x32_2_p2, seg_threefry2x32_2_p2_0]
  after_results_simp

end Cert.ReferenceIdeal.RefRun

end
-- ==== Proof.RefOpsValTfC.lean ====
/-
  One call of the counter-based generator (buffer record main_call2_call1): its two results as the composed window terms of its four operands.
-/
import proofs.«209156_g27831388078850_cont_9to1_824_17_alg».proof.Proof.RefOpsValTfCW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 1000000 in
/-- The generator's result %171 at this call: the four windows' terms composed (each window's fold read at what the next reads, the untouched buffers carried through). -/
theorem tfC_v171 (V : Valuation τ sig (Elt F)) :
    after (ops_threefry2x32_2 (F := F) (.of main_call2_v6) (.of main_call2_v8) (.of main_call2_v15) (.of main_call2_v14) main_call2_call1) V (main_call2_v16_0 : DevRef τ sig)
      = (T.tfOut bcast_S_S128 (V (main_call2_v6 : DevRef τ sig)) (V (main_call2_v8 : DevRef τ sig)) (V (main_call2_v15 : DevRef τ sig)) (V (main_call2_v14 : DevRef τ sig))).1 := by
  simp only [ops_threefry2x32_2, after_append]
  repeat (first | rw [tfC_p0_v1] | rw [tfC_p0_v46] | rw [tfC_p0_v47] | rw [tfC_p1_v88] | rw [tfC_p1_v94] | rw [tfC_p2_v141] | rw [tfC_p2_v142] | rw [tfC_p3_v171] | rw [tfC_p3_v175] | rw [tfC_p0_fr_arg0] | rw [tfC_p0_fr_arg1] | rw [tfC_p1_fr_arg0] | rw [tfC_p1_fr_arg1] | rw [tfC_p1_fr_v1] | rw [tfC_p2_fr_v1] | rw [tfC_p2_fr_arg0])
  first | rfl | fail "composition mismatch"

set_option maxRecDepth 100000 in
set_option maxHeartbeats 1000000 in
/-- The generator's result %175 at this call: the four windows' terms composed (each window's fold read at what the next reads, the untouched buffers carried through). -/
theorem tfC_v175 (V : Valuation τ sig (Elt F)) :
    after (ops_threefry2x32_2 (F := F) (.of main_call2_v6) (.of main_call2_v8) (.of main_call2_v15) (.of main_call2_v14) main_call2_call1) V (main_call2_v16_1 : DevRef τ sig)
      = (T.tfOut bcast_S_S128 (V (main_call2_v6 : DevRef τ sig)) (V (main_call2_v8 : DevRef τ sig)) (V (main_call2_v15 : DevRef τ sig)) (V (main_call2_v14 : DevRef τ sig))).2 := by
  simp only [ops_threefry2x32_2, after_append]
  repeat (first | rw [tfC_p0_v1] | rw [tfC_p0_v46] | rw [tfC_p0_v47] | rw [tfC_p1_v88] | rw [tfC_p1_v94] | rw [tfC_p2_v141] | rw [tfC_p2_v142] | rw [tfC_p3_v171] | rw [tfC_p3_v175] | rw [tfC_p0_fr_arg0] | rw [tfC_p0_fr_arg1] | rw [tfC_p1_fr_arg0] | rw [tfC_p1_fr_arg1] | rw [tfC_p1_fr_v1] | rw [tfC_p2_fr_v1] | rw [tfC_p2_fr_arg0])
  first | rfl | fail "composition mismatch"

end Cert.ReferenceIdeal.RefRun

end
-- ==== Proof.RefOpsValTfCF.lean ====
/-
  One call of the counter-based generator (buffer record main_call2_call1): the buffers written before it and read after it are unchanged by it.
-/
import proofs.«209156_g27831388078850_cont_9to1_824_17_alg».proof.Proof.RefOpsTfC

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 4000000 in
/-- This call of the generator does not write the buffer main_arg0. -/
theorem tfC_fr_main_arg0 (V : Valuation τ sig (Elt F)) :
    after (ops_threefry2x32_2 (F := F) (.of main_call2_v6) (.of main_call2_v8) (.of main_call2_v15) (.of main_call2_v14) main_call2_call1) V (main_arg0 : DevRef τ sig) = V (main_arg0 : DevRef τ sig) := by
  simp only [ops_threefry2x32_2, ops_threefry2x32_2_p0, seg_threefry2x32_2_p0_0, ops_threefry2x32_2_p1, seg_threefry2x32_2_p1_0, ops_threefry2x32_2_p2, seg_threefry2x32_2_p2_0, ops_threefry2x32_2_p3, seg_threefry2x32_2_p3_0, after_append]
  after_results_simp

set_option maxRecDepth 100000 in
set_option maxHeartbeats 4000000 in
/-- This call of the generator does not write the buffer main_arg1. -/
theorem tfC_fr_main_arg1 (V : Valuation τ sig (Elt F)) :
    after (ops_threefry2x32_2 (F := F) (.of main_call2_v6) (.of main_call2_v8) (.of main_call2_v15) (.of main_call2_v14) main_call2_call1) V (main_arg1 : DevRef τ sig) = V (main_arg1 : DevRef τ sig) := by
  simp only [ops_threefry2x32_2, ops_threefry2x32_2_p0, seg_threefry2x32_2_p0_0, ops_threefry2x32_2_p1, seg_threefry2x32_2_p1_0, ops_threefry2x32_2_p2, seg_threefry2x32_2_p2_0, ops_threefry2x32_2_p3, seg_threefry2x32_2_p3_0, after_append]
  after_results_simp

set_option maxRecDepth 100000 in
set_option maxHeartbeats 4000000 in
/-- This call of the generator does not write the buffer main_v14. -/
theorem tfC_fr_main_v14 (V : Valuation τ sig (Elt F)) :
    after (ops_threefry2x32_2 (F := F) (.of main_call2_v6) (.of main_call2_v8) (.of main_call2_v15) (.of main_call2_v14) main_call2_call1) V (main_v14 : DevRef τ sig) = V (main_v14 : DevRef τ sig) := by
  simp only [ops_threefry2x32_2, ops_threefry2x32_2_p0, seg_threefry2x32_2_p0_0, ops_threefry2x32_2_p1, seg_threefry2x32_2_p1_0, ops_threefry2x32_2_p2, seg_threefry2x32_2_p2_0, ops_threefry2x32_2_p3, seg_threefry2x32_2_p3_0, after_append]
  after_results_simp

set_option maxRecDepth 100000 in
set_option maxHeartbeats 4000000 in
/-- This call of the generator does not write the buffer main_v15. -/
theorem tfC_fr_main_v15 (V : Valuation τ sig (Elt F)) :
    after (ops_threefry2x32_2 (F := F) (.of main_call2_v6) (.of main_call2_v8) (.of main_call2_v15) (.of main_call2_v14) main_call2_call1) V (main_v15 : DevRef τ sig) = V (main_v15 : DevRef τ sig) := by
  simp only [ops_threefry2x32_2, ops_threefry2x32_2_p0, seg_threefry2x32_2_p0_0, ops_threefry2x32_2_p1, seg_threefry2x32_2_p1_0, ops_threefry2x32_2_p2, seg_threefry2x32_2_p2_0, ops_threefry2x32_2_p3, seg_threefry2x32_2_p3_0, after_append]
  after_results_simp

end Cert.ReferenceIdeal.RefRun

end
-- ==== Proof.RefOpsValShuffle.lean ====
/-
  The shuffle (@main's call 2): its result as the function's term of its operands, and the buffers it leaves alone.
-/
import proofs.«209156_g27831388078850_cont_9to1_824_17_alg».proof.Proof.RefOpsShuffle
import proofs.«209156_g27831388078850_cont_9to1_824_17_alg».proof.Proof.RefOpsValSplitS
import proofs.«209156_g27831388078850_cont_9to1_824_17_alg».proof.Proof.RefOpsValTfC
import proofs.«209156_g27831388078850_cont_9to1_824_17_alg».proof.Proof.RefOpsValTfCF
import proofs.«209156_g27831388078850_cont_9to1_824_17_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 1000000 in
/-- This call's result: the fold of its operations at the result buffer is the function's term of the operands' contents. -/
theorem shuf_v18_1 (V : Valuation τ sig (Elt F)) :
    after (ops_shuffle (F := F) (.of main_v11) (.of main_v15) main_call2) V (main_v16 : DevRef τ sig)
      = RefTerms.shuffleVal (V (main_v11 : DevRef τ sig)) (V (main_v15 : DevRef τ sig)) := by
  simp only [ops_shuffle, seg_shuffle_0, seg_shuffle_1, after_append]
  repeat (first | after_results_simp | rw [splitS_v14] | rw [splitS_fr_main_arg0] | rw [splitS_fr_main_arg1] | rw [splitS_fr_main_v14] | rw [splitS_fr_main_v15] | rw [tfC_v171] | rw [tfC_v175] | rw [tfC_fr_main_arg0] | rw [tfC_fr_main_arg1] | rw [tfC_fr_main_v14] | rw [tfC_fr_main_v15] | after_results_step)
  all_goals (first | rfl | fail "term mismatch")

set_option maxRecDepth 100000 in
set_option maxHeartbeats 1000000 in
/-- This call does not write the buffer main_arg0. -/
theorem shuf_fr_main_arg0 (V : Valuation τ sig (Elt F)) :
    after (ops_shuffle (F := F) (.of main_v11) (.of main_v15) main_call2) V (main_arg0 : DevRef τ sig) = V (main_arg0 : DevRef τ sig) := by
  simp only [ops_shuffle, seg_shuffle_0, seg_shuffle_1, after_append]
  repeat (first | after_results_simp | rw [splitS_v14] | rw [splitS_fr_main_arg0] | rw [splitS_fr_main_arg1] | rw [splitS_fr_main_v14] | rw [splitS_fr_main_v15] | rw [tfC_v171] | rw [tfC_v175] | rw [tfC_fr_main_arg0] | rw [tfC_fr_main_arg1] | rw [tfC_fr_main_v14] | rw [tfC_fr_main_v15] | after_results_step)
  all_goals (first | rfl | fail "frame mismatch")

set_option maxRecDepth 100000 in
set_option maxHeartbeats 1000000 in
/-- This call does not write the buffer main_arg1. -/
theorem shuf_fr_main_arg1 (V : Valuation τ sig (Elt F)) :
    after (ops_shuffle (F := F) (.of main_v11) (.of main_v15) main_call2) V (main_arg1 : DevRef τ sig) = V (main_arg1 : DevRef τ sig) := by
  simp only [ops_shuffle, seg_shuffle_0, seg_shuffle_1, after_append]
  repeat (first | after_results_simp | rw [splitS_v14] | rw [splitS_fr_main_arg0] | rw [splitS_fr_main_arg1] | rw [splitS_fr_main_v14] | rw [splitS_fr_main_v15] | rw [tfC_v171] | rw [tfC_v175] | rw [tfC_fr_main_arg0] | rw [tfC_fr_main_arg1] | rw [tfC_fr_main_v14] | rw [tfC_fr_main_v15] | after_results_step)
  all_goals (first | rfl | fail "frame mismatch")

set_option maxRecDepth 100000 in
set_option maxHeartbeats 1000000 in
/-- This call does not write the buffer main_v14. -/
theorem shuf_fr_main_v14 (V : Valuation τ sig (Elt F)) :
    after (ops_shuffle (F := F) (.of main_v11) (.of main_v15) main_call2) V (main_v14 : DevRef τ sig) = V (main_v14 : DevRef τ sig) := by
  simp only [ops_shuffle, seg_shuffle_0, seg_shuffle_1, after_append]
  repeat (first | after_results_simp | rw [splitS_v14] | rw [splitS_fr_main_arg0] | rw [splitS_fr_main_arg1] | rw [splitS_fr_main_v14] | rw [splitS_fr_main_v15] | rw [tfC_v171] | rw [tfC_v175] | rw [tfC_fr_main_arg0] | rw [tfC_fr_main_arg1] | rw [tfC_fr_main_v14] | rw [tfC_fr_main_v15] | after_results_step)
  all_goals (first | rfl | fail "frame mismatch")

end Cert.ReferenceIdeal.RefRun

end
-- ==== Proof.RefOpsValWhere.lean ====
/-
  The two selects (@main's calls 3 and 4): each result as the function's term of its operands, and the buffers each leaves alone.
-/
import proofs.«209156_g27831388078850_cont_9to1_824_17_alg».proof.Proof.RefOpsWhere
import proofs.«209156_g27831388078850_cont_9to1_824_17_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 1000000 in
/-- This call's result: the fold of its operations at the result buffer is the function's term of the operands' contents. -/
theorem whereA_v1 (V : Valuation τ sig (Elt F)) :
    after (ops_where (F := F) (.of main_v18) (.of main_v25) (.of main_arg0) main_call3) V (main_v26 : DevRef τ sig)
      = RefTerms.whereVal (V (main_v18 : DevRef τ sig)) (V (main_v25 : DevRef τ sig)) (V (main_arg0 : DevRef τ sig)) := by
  simp only [ops_where, seg_where_0, after_append]
  repeat (first | after_results_simp  | after_results_step)
  all_goals (first | rfl | fail "term mismatch")

set_option maxRecDepth 100000 in
set_option maxHeartbeats 1000000 in
/-- This call does not write the buffer main_arg0. -/
theorem whereA_fr_main_arg0 (V : Valuation τ sig (Elt F)) :
    after (ops_where (F := F) (.of main_v18) (.of main_v25) (.of main_arg0) main_call3) V (main_arg0 : DevRef τ sig) = V (main_arg0 : DevRef τ sig) := by
  simp only [ops_where, seg_where_0, after_append]
  repeat (first | after_results_simp  | after_results_step)
  all_goals (first | rfl | fail "frame mismatch")

set_option maxRecDepth 100000 in
set_option maxHeartbeats 1000000 in
/-- This call does not write the buffer main_arg1. -/
theorem whereA_fr_main_arg1 (V : Valuation τ sig (Elt F)) :
    after (ops_where (F := F) (.of main_v18) (.of main_v25) (.of main_arg0) main_call3) V (main_arg1 : DevRef τ sig) = V (main_arg1 : DevRef τ sig) := by
  simp only [ops_where, seg_where_0, after_append]
  repeat (first | after_results_simp  | after_results_step)
  all_goals (first | rfl | fail "frame mismatch")

set_option maxRecDepth 100000 in
set_option maxHeartbeats 1000000 in
/-- This call does not write the buffer main_v17. -/
theorem whereA_fr_main_v17 (V : Valuation τ sig (Elt F)) :
    after (ops_where (F := F) (.of main_v18) (.of main_v25) (.of main_arg0) main_call3) V (main_v17 : DevRef τ sig) = V (main_v17 : DevRef τ sig) := by
  simp only [ops_where, seg_where_0, after_append]
  repeat (first | after_results_simp  | after_results_step)
  all_goals (first | rfl | fail "frame mismatch")

set_option maxRecDepth 100000 in
set_option maxHeartbeats 1000000 in
/-- This call does not write the buffer main_v18. -/
theorem whereA_fr_main_v18 (V : Valuation τ sig (Elt F)) :
    after (ops_where (F := F) (.of main_v18) (.of main_v25) (.of main_arg0) main_call3) V (main_v18 : DevRef τ sig) = V (main_v18 : DevRef τ sig) := by
  simp only [ops_where, seg_where_0, after_append]
  repeat (first | after_results_simp  | after_results_step)
  all_goals (first | rfl | fail "frame mismatch")

set_option maxRecDepth 100000 in
set_option maxHeartbeats 1000000 in
/-- This call does not write the buffer main_v25. -/
theorem whereA_fr_main_v25 (V : Valuation τ sig (Elt F)) :
    after (ops_where (F := F) (.of main_v18) (.of main_v25) (.of main_arg0) main_call3) V (main_v25 : DevRef τ sig) = V (main_v25 : DevRef τ sig) := by
  simp only [ops_where, seg_where_0, after_append]
  repeat (first | after_results_simp  | after_results_step)
  all_goals (first | rfl | fail "frame mismatch")

set_option maxRecDepth 100000 in
set_option maxHeartbeats 1000000 in
/-- This call's result: the fold of its operations at the result buffer is the function's term of the operands' contents. -/
theorem whereB_v1 (V : Valuation τ sig (Elt F)) :
    after (ops_where_3 (F := F) (.of main_v18) (.of main_arg0) (.of main_v25) main_call4) V (main_v27 : DevRef τ sig)
      = RefTerms.whereVal (V (main_v18 : DevRef τ sig)) (V (main_arg0 : DevRef τ sig)) (V (main_v25 : DevRef τ sig)) := by
  simp only [ops_where_3, seg_where_3_0, after_append]
  repeat (first | after_results_simp  | after_results_step)
  all_goals (first | rfl | fail "term mismatch")

set_option maxRecDepth 100000 in
set_option maxHeartbeats 1000000 in
/-- This call does not write the buffer main_arg0. -/
theorem whereB_fr_main_arg0 (V : Valuation τ sig (Elt F)) :
    after (ops_where_3 (F := F) (.of main_v18) (.of main_arg0) (.of main_v25) main_call4) V (main_arg0 : DevRef τ sig) = V (main_arg0 : DevRef τ sig) := by
  simp only [ops_where_3, seg_where_3_0, after_append]
  repeat (first | after_results_simp  | after_results_step)
  all_goals (first | rfl | fail "frame mismatch")

set_option maxRecDepth 100000 in
set_option maxHeartbeats 1000000 in
/-- This call does not write the buffer main_arg1. -/
theorem whereB_fr_main_arg1 (V : Valuation τ sig (Elt F)) :
    after (ops_where_3 (F := F) (.of main_v18) (.of main_arg0) (.of main_v25) main_call4) V (main_arg1 : DevRef τ sig) = V (main_arg1 : DevRef τ sig) := by
  simp only [ops_where_3, seg_where_3_0, after_append]
  repeat (first | after_results_simp  | after_results_step)
  all_goals (first | rfl | fail "frame mismatch")

set_option maxRecDepth 100000 in
set_option maxHeartbeats 1000000 in
/-- This call does not write the buffer main_v17. -/
theorem whereB_fr_main_v17 (V : Valuation τ sig (Elt F)) :
    after (ops_where_3 (F := F) (.of main_v18) (.of main_arg0) (.of main_v25) main_call4) V (main_v17 : DevRef τ sig) = V (main_v17 : DevRef τ sig) := by
  simp only [ops_where_3, seg_where_3_0, after_append]
  repeat (first | after_results_simp  | after_results_step)
  all_goals (first | rfl | fail "frame mismatch")

set_option maxRecDepth 100000 in
set_option maxHeartbeats 1000000 in
/-- This call does not write the buffer main_v26. -/
theorem whereB_fr_main_v26 (V : Valuation τ sig (Elt F)) :
    after (ops_where_3 (F := F) (.of main_v18) (.of main_arg0) (.of main_v25) main_call4) V (main_v26 : DevRef τ sig) = V (main_v26 : DevRef τ sig) := by
  simp only [ops_where_3, seg_where_3_0, after_append]
  repeat (first | after_results_simp  | after_results_step)
  all_goals (first | rfl | fail "frame mismatch")

end Cert.ReferenceIdeal.RefRun

end
-- ==== Proof.RefRun.lean ====
/-
  The reference's run read back: every weakly fair execution of @main terminates with its two results at the
  reference's pure terms of the two argument arrays, and the arguments unchanged.  The fold of @main's operations is
  read chunk by chunk: each call's result is its function's term of its operands (sibling modules), @main's own
  lines are evaluated in place, and a buffer no operation in between writes is carried through.
-/
import proofs.«209156_g27831388078850_cont_9to1_824_17_alg».proof.Proof.RefOpsMain
import proofs.«209156_g27831388078850_cont_9to1_824_17_alg».proof.Proof.RefOpsValSplitM
import proofs.«209156_g27831388078850_cont_9to1_824_17_alg».proof.Proof.RefOpsValUniform
import proofs.«209156_g27831388078850_cont_9to1_824_17_alg».proof.Proof.RefOpsValShuffle
import proofs.«209156_g27831388078850_cont_9to1_824_17_alg».proof.Proof.RefOpsValWhere
import proofs.«209156_g27831388078850_cont_9to1_824_17_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
set_option maxRecDepth 100000 in
set_option maxHeartbeats 1000000 in
/-- The fold of @main's operations at the result main_v26 is the reference's term of the two arguments' contents. -/
theorem after_main_v26 (V : Valuation τ sig (Elt F)) :
    after (ops_main (F := F)) V (main_v26 : DevRef τ sig) = RefTerms.out26 (V (main_arg0 : DevRef τ sig)) (V (main_arg1 : DevRef τ sig)) := by
  simp only [ops_main, seg_main_0, seg_main_1, seg_main_2, seg_main_3, seg_main_4, after_append]
  repeat (first | after_results_simp | rw [splitM_v14] | rw [splitM_fr_main_arg0] | rw [splitM_fr_main_arg1] | rw [unif_v30] | rw [unif_fr_main_arg0] | rw [unif_fr_main_arg1] | rw [unif_fr_main_v11] | rw [shuf_v18_1] | rw [shuf_fr_main_arg0] | rw [shuf_fr_main_arg1] | rw [shuf_fr_main_v14] | rw [whereA_v1] | rw [whereA_fr_main_arg0] | rw [whereA_fr_main_arg1] | rw [whereA_fr_main_v17] | rw [whereA_fr_main_v18] | rw [whereA_fr_main_v25] | rw [whereB_v1] | rw [whereB_fr_main_arg0] | rw [whereB_fr_main_arg1] | rw [whereB_fr_main_v17] | rw [whereB_fr_main_v26] | after_results_step)
  all_goals (first | rfl | fail "term mismatch")

set_option maxRecDepth 100000 in
set_option maxHeartbeats 1000000 in
/-- The fold of @main's operations at the result main_v34 is the reference's term of the two arguments' contents. -/
theorem after_main_v34 (V : Valuation τ sig (Elt F)) :
    after (ops_main (F := F)) V (main_v34 : DevRef τ sig) = RefTerms.out34 (V (main_arg0 : DevRef τ sig)) (V (main_arg1 : DevRef τ sig)) := by
  simp only [ops_main, seg_main_0, seg_main_1, seg_main_2, seg_main_3, seg_main_4, after_append]
  repeat (first | after_results_simp | rw [splitM_v14] | rw [splitM_fr_main_arg0] | rw [splitM_fr_main_arg1] | rw [unif_v30] | rw [unif_fr_main_arg0] | rw [unif_fr_main_arg1] | rw [unif_fr_main_v11] | rw [shuf_v18_1] | rw [shuf_fr_main_arg0] | rw [shuf_fr_main_arg1] | rw [shuf_fr_main_v14] | rw [whereA_v1] | rw [whereA_fr_main_arg0] | rw [whereA_fr_main_arg1] | rw [whereA_fr_main_v17] | rw [whereA_fr_main_v18] | rw [whereA_fr_main_v25] | rw [whereB_v1] | rw [whereB_fr_main_arg0] | rw [whereB_fr_main_arg1] | rw [whereB_fr_main_v17] | rw [whereB_fr_main_v26] | after_results_step)
  all_goals (first | rfl | fail "term mismatch")

set_option maxRecDepth 100000 in
set_option maxHeartbeats 1000000 in
/-- No operation of @main writes the argument main_arg0. -/
theorem after_main_arg0 (V : Valuation τ sig (Elt F)) :
    after (ops_main (F := F)) V (main_arg0 : DevRef τ sig) = V (main_arg0 : DevRef τ sig) := by
  simp only [ops_main, seg_main_0, seg_main_1, seg_main_2, seg_main_3, seg_main_4, after_append]
  repeat (first | after_results_simp | rw [splitM_v14] | rw [splitM_fr_main_arg0] | rw [splitM_fr_main_arg1] | rw [unif_v30] | rw [unif_fr_main_arg0] | rw [unif_fr_main_arg1] | rw [unif_fr_main_v11] | rw [shuf_v18_1] | rw [shuf_fr_main_arg0] | rw [shuf_fr_main_arg1] | rw [shuf_fr_main_v14] | rw [whereA_v1] | rw [whereA_fr_main_arg0] | rw [whereA_fr_main_arg1] | rw [whereA_fr_main_v17] | rw [whereA_fr_main_v18] | rw [whereA_fr_main_v25] | rw [whereB_v1] | rw [whereB_fr_main_arg0] | rw [whereB_fr_main_arg1] | rw [whereB_fr_main_v17] | rw [whereB_fr_main_v26] | after_results_step)
  all_goals (first | rfl | fail "frame mismatch")

set_option maxRecDepth 100000 in
set_option maxHeartbeats 1000000 in
/-- No operation of @main writes the argument main_arg1. -/
theorem after_main_arg1 (V : Valuation τ sig (Elt F)) :
    after (ops_main (F := F)) V (main_arg1 : DevRef τ sig) = V (main_arg1 : DevRef τ sig) := by
  simp only [ops_main, seg_main_0, seg_main_1, seg_main_2, seg_main_3, seg_main_4, after_append]
  repeat (first | after_results_simp | rw [splitM_v14] | rw [splitM_fr_main_arg0] | rw [splitM_fr_main_arg1] | rw [unif_v30] | rw [unif_fr_main_arg0] | rw [unif_fr_main_arg1] | rw [unif_fr_main_v11] | rw [shuf_v18_1] | rw [shuf_fr_main_arg0] | rw [shuf_fr_main_arg1] | rw [shuf_fr_main_v14] | rw [whereA_v1] | rw [whereA_fr_main_arg0] | rw [whereA_fr_main_arg1] | rw [whereA_fr_main_v17] | rw [whereA_fr_main_v18] | rw [whereA_fr_main_v25] | rw [whereB_v1] | rw [whereB_fr_main_arg0] | rw [whereB_fr_main_arg1] | rw [whereB_fr_main_v17] | rw [whereB_fr_main_v26] | after_results_step)
  all_goals (first | rfl | fail "frame mismatch")

/-- At the compiled mesh, for any float values, from any memory with zero counters: every weakly fair execution of the
    reference terminates, each final state has the two results at the reference's terms of the launch contents of the
    two arguments, and the arguments are unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
        r.2.mem ((c.tc : Thread nD τ).loc main_v26) = RefTerms.out26 (m ((c.tc : Thread nD τ).loc main_arg0)) (m ((c.tc : Thread nD τ).loc main_arg1))
      ∧ r.2.mem ((c.tc : Thread nD τ).loc main_v34) = RefTerms.out34 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v26).trans (after_main_v26 _), (h c main_v34).trans (after_main_v34 _),
      (h c main_arg0).trans (after_main_arg0 _), (h c main_arg1).trans (after_main_arg1 _)⟩)
    (run_main m ρ)

end Cert.ReferenceIdeal.RefRun

end
-- ==== Proof.RefTfScalar.lean ====
/-
  @threefry2x32 on single words: the operations of the printed function, in program order, each at one element
  (a broadcast of a scalar is the scalar, an elementwise operation the operation on the words), cut where the
  printed body is cut into four parts: per part and per word a later part (or the caller) reads, the chain of the
  part's statements up to that word, as a function of the words the part reads from outside.  Definitions only.
-/
import Idealize.ShloMosaic.PureOps

set_option maxRecDepth 100000

namespace Cert.ReferenceIdeal.RefTerms

open Idealize.ShloMosaic

/-- Part 0 of @threefry2x32 at one element: the word %1 (its statements up to that one, in program order). -/
def sP0_v1 (arg0 arg1 arg2 arg3 : BitVec 32) : BitVec 32 :=
  let v0 : BitVec 32 := IntOp.xori arg0 arg1
  let c : BitVec 32 := 466688986#32
  let v1 : BitVec 32 := IntOp.xori v0 c
  v1

/-- Part 0 of @threefry2x32 at one element: the word %46 (its statements up to that one, in program order). -/
def sP0_v46 (arg0 arg1 arg2 arg3 : BitVec 32) : BitVec 32 :=
  let v0 : BitVec 32 := IntOp.xori arg0 arg1
  let c : BitVec 32 := 466688986#32
  let v1 : BitVec 32 := IntOp.xori v0 c
  let v2 : BitVec 32 := arg0
  let v3 : BitVec 32 := IntOp.addi arg2 v2
  let v4 : BitVec 32 := arg1
  let v5 : BitVec 32 := IntOp.addi arg3 v4
  let v6 : BitVec 32 := IntOp.addi v3 v5
  let c_0 : BitVec 32 := 13#32
  let v7 : BitVec 32 := c_0
  let v8 : BitVec 32 := IntOp.shli .host v5 v7
  let c_1 : BitVec 32 := 19#32
  let v9 : BitVec 32 := c_1
  let v10 : BitVec 32 := IntOp.shrui .host v5 v9
  let v11 : BitVec 32 := IntOp.ori v8 v10
  let v12 : BitVec 32 := IntOp.xori v6 v11
  let v13 : BitVec 32 := IntOp.addi v6 v12
  let c_2 : BitVec 32 := 15#32
  let v14 : BitVec 32 := c_2
  let v15 : BitVec 32 := IntOp.shli .host v12 v14
  let c_3 : BitVec 32 := 17#32
  let v16 : BitVec 32 := c_3
  let v17 : BitVec 32 := IntOp.shrui .host v12 v16
  let v18 : BitVec 32 := IntOp.ori v15 v17
  let v19 : BitVec 32 := IntOp.xori v13 v18
  let v20 : BitVec 32 := IntOp.addi v13 v19
  let c_4 : BitVec 32 := 26#32
  let v21 : BitVec 32 := c_4
  let v22 : BitVec 32 := IntOp.shli .host v19 v21
  let c_5 : BitVec 32 := 6#32
  let v23 : BitVec 32 := c_5
  let v24 : BitVec 32 := IntOp.shrui .host v19 v23
  let v25 : BitVec 32 := IntOp.ori v22 v24
  let v26 : BitVec 32 := IntOp.xori v20 v25
  let v27 : BitVec 32 := IntOp.addi v20 v26
  let c_6 : BitVec 32 := 6#32
  let v28 : BitVec 32 := c_6
  let v29 : BitVec 32 := IntOp.shli .host v26 v28
  let c_7 : BitVec 32 := 26#32
  let v30 : BitVec 32 := c_7
  let v31 : BitVec 32 := IntOp.shrui .host v26 v30
  let v32 : BitVec 32 := IntOp.ori v29 v31
  let v33 : BitVec 32 := IntOp.xori v27 v32
  let v34 : BitVec 32 := arg1
  let v35 : BitVec 32 := IntOp.addi v27 v34
  let v36 : BitVec 32 := v1
  let v37 : BitVec 32 := IntOp.addi v33 v36
  let c_8 : BitVec 32 := 1#32
  let v38 : BitVec 32 := c_8
  let v39 : BitVec 32 := IntOp.addi v37 v38
  let v40 : BitVec 32 := IntOp.addi v35 v39
  let c_9 : BitVec 32 := 17#32
  let v41 : BitVec 32 := c_9
  let v42 : BitVec 32 := IntOp.shli .host v39 v41
  let c_10 : BitVec 32 := 15#32
  let v43 : BitVec 32 := c_10
  let v44 : BitVec 32 := IntOp.shrui .host v39 v43
  let v45 : BitVec 32 := IntOp.ori v42 v44
  let v46 : BitVec 32 := IntOp.xori v40 v45
  v46

/-- Part 0 of @threefry2x32 at one element: the word %47 (its statements up to that one, in program order). -/
def sP0_v47 (arg0 arg1 arg2 arg3 : BitVec 32) : BitVec 32 :=
  let v0 : BitVec 32 := IntOp.xori arg0 arg1
  let c : BitVec 32 := 466688986#32
  let v1 : BitVec 32 := IntOp.xori v0 c
  let v2 : BitVec 32 := arg0
  let v3 : BitVec 32 := IntOp.addi arg2 v2
  let v4 : BitVec 32 := arg1
  let v5 : BitVec 32 := IntOp.addi arg3 v4
  let v6 : BitVec 32 := IntOp.addi v3 v5
  let c_0 : BitVec 32 := 13#32
  let v7 : BitVec 32 := c_0
  let v8 : BitVec 32 := IntOp.shli .host v5 v7
  let c_1 : BitVec 32 := 19#32
  let v9 : BitVec 32 := c_1
  let v10 : BitVec 32 := IntOp.shrui .host v5 v9
  let v11 : BitVec 32 := IntOp.ori v8 v10
  let v12 : BitVec 32 := IntOp.xori v6 v11
  let v13 : BitVec 32 := IntOp.addi v6 v12
  let c_2 : BitVec 32 := 15#32
  let v14 : BitVec 32 := c_2
  let v15 : BitVec 32 := IntOp.shli .host v12 v14
  let c_3 : BitVec 32 := 17#32
  let v16 : BitVec 32 := c_3
  let v17 : BitVec 32 := IntOp.shrui .host v12 v16
  let v18 : BitVec 32 := IntOp.ori v15 v17
  let v19 : BitVec 32 := IntOp.xori v13 v18
  let v20 : BitVec 32 := IntOp.addi v13 v19
  let c_4 : BitVec 32 := 26#32
  let v21 : BitVec 32 := c_4
  let v22 : BitVec 32 := IntOp.shli .host v19 v21
  let c_5 : BitVec 32 := 6#32
  let v23 : BitVec 32 := c_5
  let v24 : BitVec 32 := IntOp.shrui .host v19 v23
  let v25 : BitVec 32 := IntOp.ori v22 v24
  let v26 : BitVec 32 := IntOp.xori v20 v25
  let v27 : BitVec 32 := IntOp.addi v20 v26
  let c_6 : BitVec 32 := 6#32
  let v28 : BitVec 32 := c_6
  let v29 : BitVec 32 := IntOp.shli .host v26 v28
  let c_7 : BitVec 32 := 26#32
  let v30 : BitVec 32 := c_7
  let v31 : BitVec 32 := IntOp.shrui .host v26 v30
  let v32 : BitVec 32 := IntOp.ori v29 v31
  let v33 : BitVec 32 := IntOp.xori v27 v32
  let v34 : BitVec 32 := arg1
  let v35 : BitVec 32 := IntOp.addi v27 v34
  let v36 : BitVec 32 := v1
  let v37 : BitVec 32 := IntOp.addi v33 v36
  let c_8 : BitVec 32 := 1#32
  let v38 : BitVec 32 := c_8
  let v39 : BitVec 32 := IntOp.addi v37 v38
  let v40 : BitVec 32 := IntOp.addi v35 v39
  let c_9 : BitVec 32 := 17#32
  let v41 : BitVec 32 := c_9
  let v42 : BitVec 32 := IntOp.shli .host v39 v41
  let c_10 : BitVec 32 := 15#32
  let v43 : BitVec 32 := c_10
  let v44 : BitVec 32 := IntOp.shrui .host v39 v43
  let v45 : BitVec 32 := IntOp.ori v42 v44
  let v46 : BitVec 32 := IntOp.xori v40 v45
  let v47 : BitVec 32 := IntOp.addi v40 v46
  v47

/-- Part 1 of @threefry2x32 at one element: the word %88 (its statements up to that one, in program order). -/
def sP1_v88 (v46 v47 v1 arg0 : BitVec 32) : BitVec 32 :=
  let c_11 : BitVec 32 := 29#32
  let v48 : BitVec 32 := c_11
  let v49 : BitVec 32 := IntOp.shli .host v46 v48
  let c_12 : BitVec 32 := 3#32
  let v50 : BitVec 32 := c_12
  let v51 : BitVec 32 := IntOp.shrui .host v46 v50
  let v52 : BitVec 32 := IntOp.ori v49 v51
  let v53 : BitVec 32 := IntOp.xori v47 v52
  let v54 : BitVec 32 := IntOp.addi v47 v53
  let c_13 : BitVec 32 := 16#32
  let v55 : BitVec 32 := c_13
  let v56 : BitVec 32 := IntOp.shli .host v53 v55
  let c_14 : BitVec 32 := 16#32
  let v57 : BitVec 32 := c_14
  let v58 : BitVec 32 := IntOp.shrui .host v53 v57
  let v59 : BitVec 32 := IntOp.ori v56 v58
  let v60 : BitVec 32 := IntOp.xori v54 v59
  let v61 : BitVec 32 := IntOp.addi v54 v60
  let c_15 : BitVec 32 := 24#32
  let v62 : BitVec 32 := c_15
  let v63 : BitVec 32 := IntOp.shli .host v60 v62
  let c_16 : BitVec 32 := 8#32
  let v64 : BitVec 32 := c_16
  let v65 : BitVec 32 := IntOp.shrui .host v60 v64
  let v66 : BitVec 32 := IntOp.ori v63 v65
  let v67 : BitVec 32 := IntOp.xori v61 v66
  let v68 : BitVec 32 := v1
  let v69 : BitVec 32 := IntOp.addi v61 v68
  let v70 : BitVec 32 := arg0
  let v71 : BitVec 32 := IntOp.addi v67 v70
  let c_17 : BitVec 32 := 2#32
  let v72 : BitVec 32 := c_17
  let v73 : BitVec 32 := IntOp.addi v71 v72
  let v74 : BitVec 32 := IntOp.addi v69 v73
  let c_18 : BitVec 32 := 13#32
  let v75 : BitVec 32 := c_18
  let v76 : BitVec 32 := IntOp.shli .host v73 v75
  let c_19 : BitVec 32 := 19#32
  let v77 : BitVec 32 := c_19
  let v78 : BitVec 32 := IntOp.shrui .host v73 v77
  let v79 : BitVec 32 := IntOp.ori v76 v78
  let v80 : BitVec 32 := IntOp.xori v74 v79
  let v81 : BitVec 32 := IntOp.addi v74 v80
  let c_20 : BitVec 32 := 15#32
  let v82 : BitVec 32 := c_20
  let v83 : BitVec 32 := IntOp.shli .host v80 v82
  let c_21 : BitVec 32 := 17#32
  let v84 : BitVec 32 := c_21
  let v85 : BitVec 32 := IntOp.shrui .host v80 v84
  let v86 : BitVec 32 := IntOp.ori v83 v85
  let v87 : BitVec 32 := IntOp.xori v81 v86
  let v88 : BitVec 32 := IntOp.addi v81 v87
  v88

/-- Part 1 of @threefry2x32 at one element: the word %94 (its statements up to that one, in program order). -/
def sP1_v94 (v46 v47 v1 arg0 : BitVec 32) : BitVec 32 :=
  let c_11 : BitVec 32 := 29#32
  let v48 : BitVec 32 := c_11
  let v49 : BitVec 32 := IntOp.shli .host v46 v48
  let c_12 : BitVec 32 := 3#32
  let v50 : BitVec 32 := c_12
  let v51 : BitVec 32 := IntOp.shrui .host v46 v50
  let v52 : BitVec 32 := IntOp.ori v49 v51
  let v53 : BitVec 32 := IntOp.xori v47 v52
  let v54 : BitVec 32 := IntOp.addi v47 v53
  let c_13 : BitVec 32 := 16#32
  let v55 : BitVec 32 := c_13
  let v56 : BitVec 32 := IntOp.shli .host v53 v55
  let c_14 : BitVec 32 := 16#32
  let v57 : BitVec 32 := c_14
  let v58 : BitVec 32 := IntOp.shrui .host v53 v57
  let v59 : BitVec 32 := IntOp.ori v56 v58
  let v60 : BitVec 32 := IntOp.xori v54 v59
  let v61 : BitVec 32 := IntOp.addi v54 v60
  let c_15 : BitVec 32 := 24#32
  let v62 : BitVec 32 := c_15
  let v63 : BitVec 32 := IntOp.shli .host v60 v62
  let c_16 : BitVec 32 := 8#32
  let v64 : BitVec 32 := c_16
  let v65 : BitVec 32 := IntOp.shrui .host v60 v64
  let v66 : BitVec 32 := IntOp.ori v63 v65
  let v67 : BitVec 32 := IntOp.xori v61 v66
  let v68 : BitVec 32 := v1
  let v69 : BitVec 32 := IntOp.addi v61 v68
  let v70 : BitVec 32 := arg0
  let v71 : BitVec 32 := IntOp.addi v67 v70
  let c_17 : BitVec 32 := 2#32
  let v72 : BitVec 32 := c_17
  let v73 : BitVec 32 := IntOp.addi v71 v72
  let v74 : BitVec 32 := IntOp.addi v69 v73
  let c_18 : BitVec 32 := 13#32
  let v75 : BitVec 32 := c_18
  let v76 : BitVec 32 := IntOp.shli .host v73 v75
  let c_19 : BitVec 32 := 19#32
  let v77 : BitVec 32 := c_19
  let v78 : BitVec 32 := IntOp.shrui .host v73 v77
  let v79 : BitVec 32 := IntOp.ori v76 v78
  let v80 : BitVec 32 := IntOp.xori v74 v79
  let v81 : BitVec 32 := IntOp.addi v74 v80
  let c_20 : BitVec 32 := 15#32
  let v82 : BitVec 32 := c_20
  let v83 : BitVec 32 := IntOp.shli .host v80 v82
  let c_21 : BitVec 32 := 17#32
  let v84 : BitVec 32 := c_21
  let v85 : BitVec 32 := IntOp.shrui .host v80 v84
  let v86 : BitVec 32 := IntOp.ori v83 v85
  let v87 : BitVec 32 := IntOp.xori v81 v86
  let v88 : BitVec 32 := IntOp.addi v81 v87
  let c_22 : BitVec 32 := 26#32
  let v89 : BitVec 32 := c_22
  let v90 : BitVec 32 := IntOp.shli .host v87 v89
  let c_23 : BitVec 32 := 6#32
  let v91 : BitVec 32 := c_23
  let v92 : BitVec 32 := IntOp.shrui .host v87 v91
  let v93 : BitVec 32 := IntOp.ori v90 v92
  let v94 : BitVec 32 := IntOp.xori v88 v93
  v94

/-- Part 2 of @threefry2x32 at one element: the word %141 (its statements up to that one, in program order). -/
def sP2_v141 (v88 v94 arg0 arg1 v1 : BitVec 32) : BitVec 32 :=
  let v95 : BitVec 32 := IntOp.addi v88 v94
  let c_24 : BitVec 32 := 6#32
  let v96 : BitVec 32 := c_24
  let v97 : BitVec 32 := IntOp.shli .host v94 v96
  let c_25 : BitVec 32 := 26#32
  let v98 : BitVec 32 := c_25
  let v99 : BitVec 32 := IntOp.shrui .host v94 v98
  let v100 : BitVec 32 := IntOp.ori v97 v99
  let v101 : BitVec 32 := IntOp.xori v95 v100
  let v102 : BitVec 32 := arg0
  let v103 : BitVec 32 := IntOp.addi v95 v102
  let v104 : BitVec 32 := arg1
  let v105 : BitVec 32 := IntOp.addi v101 v104
  let c_26 : BitVec 32 := 3#32
  let v106 : BitVec 32 := c_26
  let v107 : BitVec 32 := IntOp.addi v105 v106
  let v108 : BitVec 32 := IntOp.addi v103 v107
  let c_27 : BitVec 32 := 17#32
  let v109 : BitVec 32 := c_27
  let v110 : BitVec 32 := IntOp.shli .host v107 v109
  let c_28 : BitVec 32 := 15#32
  let v111 : BitVec 32 := c_28
  let v112 : BitVec 32 := IntOp.shrui .host v107 v111
  let v113 : BitVec 32 := IntOp.ori v110 v112
  let v114 : BitVec 32 := IntOp.xori v108 v113
  let v115 : BitVec 32 := IntOp.addi v108 v114
  let c_29 : BitVec 32 := 29#32
  let v116 : BitVec 32 := c_29
  let v117 : BitVec 32 := IntOp.shli .host v114 v116
  let c_30 : BitVec 32 := 3#32
  let v118 : BitVec 32 := c_30
  let v119 : BitVec 32 := IntOp.shrui .host v114 v118
  let v120 : BitVec 32 := IntOp.ori v117 v119
  let v121 : BitVec 32 := IntOp.xori v115 v120
  let v122 : BitVec 32 := IntOp.addi v115 v121
  let c_31 : BitVec 32 := 16#32
  let v123 : BitVec 32 := c_31
  let v124 : BitVec 32 := IntOp.shli .host v121 v123
  let c_32 : BitVec 32 := 16#32
  let v125 : BitVec 32 := c_32
  let v126 : BitVec 32 := IntOp.shrui .host v121 v125
  let v127 : BitVec 32 := IntOp.ori v124 v126
  let v128 : BitVec 32 := IntOp.xori v122 v127
  let v129 : BitVec 32 := IntOp.addi v122 v128
  let c_33 : BitVec 32 := 24#32
  let v130 : BitVec 32 := c_33
  let v131 : BitVec 32 := IntOp.shli .host v128 v130
  let c_34 : BitVec 32 := 8#32
  let v132 : BitVec 32 := c_34
  let v133 : BitVec 32 := IntOp.shrui .host v128 v132
  let v134 : BitVec 32 := IntOp.ori v131 v133
  let v135 : BitVec 32 := IntOp.xori v129 v134
  let v136 : BitVec 32 := arg1
  let v137 : BitVec 32 := IntOp.addi v129 v136
  let v138 : BitVec 32 := v1
  let v139 : BitVec 32 := IntOp.addi v135 v138
  let c_35 : BitVec 32 := 4#32
  let v140 : BitVec 32 := c_35
  let v141 : BitVec 32 := IntOp.addi v139 v140
  v141

/-- Part 2 of @threefry2x32 at one element: the word %142 (its statements up to that one, in program order). -/
def sP2_v142 (v88 v94 arg0 arg1 v1 : BitVec 32) : BitVec 32 :=
  let v95 : BitVec 32 := IntOp.addi v88 v94
  let c_24 : BitVec 32 := 6#32
  let v96 : BitVec 32 := c_24
  let v97 : BitVec 32 := IntOp.shli .host v94 v96
  let c_25 : BitVec 32 := 26#32
  let v98 : BitVec 32 := c_25
  let v99 : BitVec 32 := IntOp.shrui .host v94 v98
  let v100 : BitVec 32 := IntOp.ori v97 v99
  let v101 : BitVec 32 := IntOp.xori v95 v100
  let v102 : BitVec 32 := arg0
  let v103 : BitVec 32 := IntOp.addi v95 v102
  let v104 : BitVec 32 := arg1
  let v105 : BitVec 32 := IntOp.addi v101 v104
  let c_26 : BitVec 32 := 3#32
  let v106 : BitVec 32 := c_26
  let v107 : BitVec 32 := IntOp.addi v105 v106
  let v108 : BitVec 32 := IntOp.addi v103 v107
  let c_27 : BitVec 32 := 17#32
  let v109 : BitVec 32 := c_27
  let v110 : BitVec 32 := IntOp.shli .host v107 v109
  let c_28 : BitVec 32 := 15#32
  let v111 : BitVec 32 := c_28
  let v112 : BitVec 32 := IntOp.shrui .host v107 v111
  let v113 : BitVec 32 := IntOp.ori v110 v112
  let v114 : BitVec 32 := IntOp.xori v108 v113
  let v115 : BitVec 32 := IntOp.addi v108 v114
  let c_29 : BitVec 32 := 29#32
  let v116 : BitVec 32 := c_29
  let v117 : BitVec 32 := IntOp.shli .host v114 v116
  let c_30 : BitVec 32 := 3#32
  let v118 : BitVec 32 := c_30
  let v119 : BitVec 32 := IntOp.shrui .host v114 v118
  let v120 : BitVec 32 := IntOp.ori v117 v119
  let v121 : BitVec 32 := IntOp.xori v115 v120
  let v122 : BitVec 32 := IntOp.addi v115 v121
  let c_31 : BitVec 32 := 16#32
  let v123 : BitVec 32 := c_31
  let v124 : BitVec 32 := IntOp.shli .host v121 v123
  let c_32 : BitVec 32 := 16#32
  let v125 : BitVec 32 := c_32
  let v126 : BitVec 32 := IntOp.shrui .host v121 v125
  let v127 : BitVec 32 := IntOp.ori v124 v126
  let v128 : BitVec 32 := IntOp.xori v122 v127
  let v129 : BitVec 32 := IntOp.addi v122 v128
  let c_33 : BitVec 32 := 24#32
  let v130 : BitVec 32 := c_33
  let v131 : BitVec 32 := IntOp.shli .host v128 v130
  let c_34 : BitVec 32 := 8#32
  let v132 : BitVec 32 := c_34
  let v133 : BitVec 32 := IntOp.shrui .host v128 v132
  let v134 : BitVec 32 := IntOp.ori v131 v133
  let v135 : BitVec 32 := IntOp.xori v129 v134
  let v136 : BitVec 32 := arg1
  let v137 : BitVec 32 := IntOp.addi v129 v136
  let v138 : BitVec 32 := v1
  let v139 : BitVec 32 := IntOp.addi v135 v138
  let c_35 : BitVec 32 := 4#32
  let v140 : BitVec 32 := c_35
  let v141 : BitVec 32 := IntOp.addi v139 v140
  let v142 : BitVec 32 := IntOp.addi v137 v141
  v142

/-- Part 3 of @threefry2x32 at one element: the word %171 (its statements up to that one, in program order). -/
def sP3_v171 (v141 v142 v1 arg0 : BitVec 32) : BitVec 32 :=
  let c_36 : BitVec 32 := 13#32
  let v143 : BitVec 32 := c_36
  let v144 : BitVec 32 := IntOp.shli .host v141 v143
  let c_37 : BitVec 32 := 19#32
  let v145 : BitVec 32 := c_37
  let v146 : BitVec 32 := IntOp.shrui .host v141 v145
  let v147 : BitVec 32 := IntOp.ori v144 v146
  let v148 : BitVec 32 := IntOp.xori v142 v147
  let v149 : BitVec 32 := IntOp.addi v142 v148
  let c_38 : BitVec 32 := 15#32
  let v150 : BitVec 32 := c_38
  let v151 : BitVec 32 := IntOp.shli .host v148 v150
  let c_39 : BitVec 32 := 17#32
  let v152 : BitVec 32 := c_39
  let v153 : BitVec 32 := IntOp.shrui .host v148 v152
  let v154 : BitVec 32 := IntOp.ori v151 v153
  let v155 : BitVec 32 := IntOp.xori v149 v154
  let v156 : BitVec 32 := IntOp.addi v149 v155
  let c_40 : BitVec 32 := 26#32
  let v157 : BitVec 32 := c_40
  let v158 : BitVec 32 := IntOp.shli .host v155 v157
  let c_41 : BitVec 32 := 6#32
  let v159 : BitVec 32 := c_41
  let v160 : BitVec 32 := IntOp.shrui .host v155 v159
  let v161 : BitVec 32 := IntOp.ori v158 v160
  let v162 : BitVec 32 := IntOp.xori v156 v161
  let v163 : BitVec 32 := IntOp.addi v156 v162
  let c_42 : BitVec 32 := 6#32
  let v164 : BitVec 32 := c_42
  let v165 : BitVec 32 := IntOp.shli .host v162 v164
  let c_43 : BitVec 32 := 26#32
  let v166 : BitVec 32 := c_43
  let v167 : BitVec 32 := IntOp.shrui .host v162 v166
  let v168 : BitVec 32 := IntOp.ori v165 v167
  let v169 : BitVec 32 := IntOp.xori v163 v168
  let v170 : BitVec 32 := v1
  let v171 : BitVec 32 := IntOp.addi v163 v170
  v171

/-- Part 3 of @threefry2x32 at one element: the word %175 (its statements up to that one, in program order). -/
def sP3_v175 (v141 v142 v1 arg0 : BitVec 32) : BitVec 32 :=
  let c_36 : BitVec 32 := 13#32
  let v143 : BitVec 32 := c_36
  let v144 : BitVec 32 := IntOp.shli .host v141 v143
  let c_37 : BitVec 32 := 19#32
  let v145 : BitVec 32 := c_37
  let v146 : BitVec 32 := IntOp.shrui .host v141 v145
  let v147 : BitVec 32 := IntOp.ori v144 v146
  let v148 : BitVec 32 := IntOp.xori v142 v147
  let v149 : BitVec 32 := IntOp.addi v142 v148
  let c_38 : BitVec 32 := 15#32
  let v150 : BitVec 32 := c_38
  let v151 : BitVec 32 := IntOp.shli .host v148 v150
  let c_39 : BitVec 32 := 17#32
  let v152 : BitVec 32 := c_39
  let v153 : BitVec 32 := IntOp.shrui .host v148 v152
  let v154 : BitVec 32 := IntOp.ori v151 v153
  let v155 : BitVec 32 := IntOp.xori v149 v154
  let v156 : BitVec 32 := IntOp.addi v149 v155
  let c_40 : BitVec 32 := 26#32
  let v157 : BitVec 32 := c_40
  let v158 : BitVec 32 := IntOp.shli .host v155 v157
  let c_41 : BitVec 32 := 6#32
  let v159 : BitVec 32 := c_41
  let v160 : BitVec 32 := IntOp.shrui .host v155 v159
  let v161 : BitVec 32 := IntOp.ori v158 v160
  let v162 : BitVec 32 := IntOp.xori v156 v161
  let v163 : BitVec 32 := IntOp.addi v156 v162
  let c_42 : BitVec 32 := 6#32
  let v164 : BitVec 32 := c_42
  let v165 : BitVec 32 := IntOp.shli .host v162 v164
  let c_43 : BitVec 32 := 26#32
  let v166 : BitVec 32 := c_43
  let v167 : BitVec 32 := IntOp.shrui .host v162 v166
  let v168 : BitVec 32 := IntOp.ori v165 v167
  let v169 : BitVec 32 := IntOp.xori v163 v168
  let v170 : BitVec 32 := v1
  let v171 : BitVec 32 := IntOp.addi v163 v170
  let v172 : BitVec 32 := arg0
  let v173 : BitVec 32 := IntOp.addi v169 v172
  let c_44 : BitVec 32 := 5#32
  let v174 : BitVec 32 := c_44
  let v175 : BitVec 32 := IntOp.addi v173 v174
  v175

/-- The two result words (%171, %175) of @threefry2x32 at one element: key words arg0, arg1, counter words arg2, arg3;
    the four parts composed in order. -/
def tfS (arg0 arg1 arg2 arg3 : BitVec 32) : BitVec 32 × BitVec 32 :=
  let v1 := sP0_v1 arg0 arg1 arg2 arg3
  let v46 := sP0_v46 arg0 arg1 arg2 arg3
  let v47 := sP0_v47 arg0 arg1 arg2 arg3
  let v88 := sP1_v88 v46 v47 v1 arg0
  let v94 := sP1_v94 v46 v47 v1 arg0
  let v141 := sP2_v141 v88 v94 arg0 arg1 v1
  let v142 := sP2_v142 v88 v94 arg0 arg1 v1
  (sP3_v171 v141 v142 v1 arg0, sP3_v175 v141 v142 v1 arg0)

end Cert.ReferenceIdeal.RefTerms
-- ==== Proof.RefEvalTf.lean ====
/-
  @threefry2x32 is elementwise: each of its operations is a broadcast of a rank-0 array or acts on the two
  operands' elements at one index.  Hence each part's terms, and so the two results, at an index are the same chains
  of operations applied to the key words and to the counter arrays' words at that index.
-/
import proofs.«209156_g27831388078850_cont_9to1_824_17_alg».proof.Proof.RefTerms
import proofs.«209156_g27831388078850_cont_9to1_824_17_alg».proof.Proof.RefTfScalar
import Idealize.ShloMosaic.Lib.ValueIdx

set_option maxRecDepth 100000

namespace Cert.ReferenceIdeal.RefTerms

open Idealize.ShloMosaic Idealize.ShloMosaic.ValueIdx Cert.ReferenceIdeal Cert.ReferenceIdeal.RefRun.T

/-- A broadcast of a rank-0 array reads its one element at every index. -/
theorem bcast0_apply {S : Shape} {α : Type} (hb : S_.BroadcastsInDim S (![] : Fin 0 → Fin S.rank))
    (x : S_.Idx → α) (i : S.Idx) : broadcastInDim S ![] hb x i = x ix0 :=
  congrArg x (funext fun a => a.elim0)

section
variable {S : Shape} (hb : S_.BroadcastsInDim S (![] : Fin 0 → Fin S.rank))

/-- Part 0's rank-0 word %1: the two key words and a constant, combined by exclusive or. -/
theorem tfP0_v1_apply (arg0 arg1 : IVec S_ 32) (arg2 arg3 : IVec S 32) (x y : BitVec 32) :
    tfP0_v1 hb arg0 arg1 arg2 arg3 ix0 = sP0_v1 (arg0 ix0) (arg1 ix0) x y := by
  simp only [tfP0_v1, sP0_v1, xori, constantI]

theorem tfP0_v46_apply (arg0 : IVec S_ 32) (arg1 : IVec S_ 32) (arg2 : IVec S 32) (arg3 : IVec S 32) (i : S.Idx) :
    tfP0_v46 hb arg0 arg1 arg2 arg3 i = sP0_v46 (arg0 ix0) (arg1 ix0) (arg2 i) (arg3 i) := by
  simp only [tfP0_v46, sP0_v46, addi, xori, ori, Host.shli, Host.shrui, constantI, bcast0_apply]

theorem tfP0_v47_apply (arg0 : IVec S_ 32) (arg1 : IVec S_ 32) (arg2 : IVec S 32) (arg3 : IVec S 32) (i : S.Idx) :
    tfP0_v47 hb arg0 arg1 arg2 arg3 i = sP0_v47 (arg0 ix0) (arg1 ix0) (arg2 i) (arg3 i) := by
  simp only [tfP0_v47, sP0_v47, addi, xori, ori, Host.shli, Host.shrui, constantI, bcast0_apply]

theorem tfP1_v88_apply (v46 : IVec S 32) (v47 : IVec S 32) (v1 : IVec S_ 32) (arg0 : IVec S_ 32) (i : S.Idx) :
    tfP1_v88 hb v46 v47 v1 arg0 i = sP1_v88 (v46 i) (v47 i) (v1 ix0) (arg0 ix0) := by
  simp only [tfP1_v88, sP1_v88, addi, xori, ori, Host.shli, Host.shrui, constantI, bcast0_apply]

theorem tfP1_v94_apply (v46 : IVec S 32) (v47 : IVec S 32) (v1 : IVec S_ 32) (arg0 : IVec S_ 32) (i : S.Idx) :
    tfP1_v94 hb v46 v47 v1 arg0 i = sP1_v94 (v46 i) (v47 i) (v1 ix0) (arg0 ix0) := by
  simp only [tfP1_v94, sP1_v94, addi, xori, ori, Host.shli, Host.shrui, constantI, bcast0_apply]

theorem tfP2_v141_apply (v88 : IVec S 32) (v94 : IVec S 32) (arg0 : IVec S_ 32) (arg1 : IVec S_ 32) (v1 : IVec S_ 32) (i : S.Idx) :
    tfP2_v141 hb v88 v94 arg0 arg1 v1 i = sP2_v141 (v88 i) (v94 i) (arg0 ix0) (arg1 ix0) (v1 ix0) := by
  simp only [tfP2_v141, sP2_v141, addi, xori, ori, Host.shli, Host.shrui, constantI, bcast0_apply]

theorem tfP2_v142_apply (v88 : IVec S 32) (v94 : IVec S 32) (arg0 : IVec S_ 32) (arg1 : IVec S_ 32) (v1 : IVec S_ 32) (i : S.Idx) :
    tfP2_v142 hb v88 v94 arg0 arg1 v1 i = sP2_v142 (v88 i) (v94 i) (arg0 ix0) (arg1 ix0) (v1 ix0) := by
  simp only [tfP2_v142, sP2_v142, addi, xori, ori, Host.shli, Host.shrui, constantI, bcast0_apply]

theorem tfP3_v171_apply (v141 : IVec S 32) (v142 : IVec S 32) (v1 : IVec S_ 32) (arg0 : IVec S_ 32) (i : S.Idx) :
    tfP3_v171 hb v141 v142 v1 arg0 i = sP3_v171 (v141 i) (v142 i) (v1 ix0) (arg0 ix0) := by
  simp only [tfP3_v171, sP3_v171, addi, xori, ori, Host.shli, Host.shrui, constantI, bcast0_apply]

theorem tfP3_v175_apply (v141 : IVec S 32) (v142 : IVec S 32) (v1 : IVec S_ 32) (arg0 : IVec S_ 32) (i : S.Idx) :
    tfP3_v175 hb v141 v142 v1 arg0 i = sP3_v175 (v141 i) (v142 i) (v1 ix0) (arg0 ix0) := by
  simp only [tfP3_v175, sP3_v175, addi, xori, ori, Host.shli, Host.shrui, constantI, bcast0_apply]

/-- The two results of @threefry2x32 at an index: the chain on words, at the operands' words there. -/
theorem tf2x32_apply [Facts] (a0 a1 : IVec S_ 32) (a2 a3 : IVec S 32) (i : S.Idx) :
    ((tf2x32 hb a0 a1 a2 a3).1 i, (tf2x32 hb a0 a1 a2 a3).2 i) = tfS (a0 ix0) (a1 ix0) (a2 i) (a3 i) := by
  simp only [tf2x32, tfOut, tfS, tfP3_v171_apply, tfP3_v175_apply, tfP2_v141_apply, tfP2_v142_apply,
    tfP1_v88_apply, tfP1_v94_apply, tfP0_v46_apply, tfP0_v47_apply,
    tfP0_v1_apply hb a0 a1 a2 a3 (a2 i) (a3 i)]

theorem tf2x32_fst_apply [Facts] (a0 a1 : IVec S_ 32) (a2 a3 : IVec S 32) (i : S.Idx) :
    (tf2x32 hb a0 a1 a2 a3).1 i = (tfS (a0 ix0) (a1 ix0) (a2 i) (a3 i)).1 :=
  congrArg Prod.fst (tf2x32_apply hb a0 a1 a2 a3 i)

theorem tf2x32_snd_apply [Facts] (a0 a1 : IVec S_ 32) (a2 a3 : IVec S 32) (i : S.Idx) :
    (tf2x32 hb a0 a1 a2 a3).2 i = (tfS (a0 ix0) (a1 ix0) (a2 i) (a3 i)).2 :=
  congrArg Prod.snd (tf2x32_apply hb a0 a1 a2 a3 i)

end

end Cert.ReferenceIdeal.RefTerms
-- ==== Proof.RefEvalWords.lean ====
/-
  The words the reference's counter-based generator yields from the constant key, as literal tables, and the facts
  about them that are computations on literals: the chain of operations on words (the scalar form of
  @threefry2x32) evaluated at the key words and counters of each call the reference makes.

  • the key (0, 42) at counters (0, 0), (0, 1): the two keys the reference splits it into;
  • the first key at counters (0, b), b < 32: the 32 random words of the uniform draw, whose 23 high bits, as the
    fraction of a float in [1, 2), decide the mask: entry b is set exactly when the fraction exceeds 2^22;
  • the second key at counters (0, 1): the key the permutation's sort keys are drawn under; that key at counters
    (0, k), k < 128: the 128 sort keys, pairwise distinct; the table `permTab` lists the positions in the strictly
    increasing order of their keys, and its first 32 entries are the paired pool rows.
-/
import proofs.«209156_g27831388078850_cont_9to1_824_17_alg».proof.Proof.RefTfScalar
import proofs.«209156_g27831388078850_cont_9to1_824_17_alg».proof.Proof.Spec

set_option maxRecDepth 100000

namespace Cert.ReferenceIdeal.RefTerms

open Idealize.ShloMosaic

/-- The high and the low 32-bit word of the 64-bit counter `1 · n`, as the reference computes them. -/
def hiWord (n : Nat) : BitVec 32 := (IntOp.shrui .host (IntOp.muli 1#64 (BitVec.ofNat 64 n)) 32#64).setWidth 32
def loWord (n : Nat) : BitVec 32 := (IntOp.muli 1#64 (BitVec.ofNat 64 n)).setWidth 32

/-- The 32 random words of the uniform draw. -/
def ubitsTab : Fin 32 → BitVec 32 :=
  ![
    2277453133#32, 1345880512#32, 3872043189#32, 2999317162#32, 2654571928#32, 2670834431#32, 3082699169#32, 900655211#32,
    100451196#32, 3172953514#32, 2517460570#32, 2151723416#32, 4088812187#32, 2493165615#32, 2110849038#32, 1057023421#32,
    2180421799#32, 2926548743#32, 859974928#32, 3634858851#32, 76670590#32, 2863719781#32, 1051672037#32, 3696190877#32,
    2481936614#32, 3446945018#32, 4146592489#32, 3274023810#32, 3887125962#32, 244416668#32, 2149981473#32, 1707812221#32]

/-- The 128 sort keys of the permutation. -/
def keysTab : Fin 128 → BitVec 32 :=
  ![
    639354893#32, 3013878472#32, 27235784#32, 2912284508#32, 750944403#32, 1611617508#32, 2706999241#32, 1818970346#32,
    3270650092#32, 1981336631#32, 194245196#32, 977544916#32, 1158140104#32, 2453395911#32, 2990073377#32, 191431764#32,
    1559899681#32, 1146808230#32, 1556855825#32, 1326199931#32, 986848871#32, 848248318#32, 1343175322#32, 1681460772#32,
    3792662226#32, 320557724#32, 1796735702#32, 1603603446#32, 577839162#32, 1853307729#32, 4066507290#32, 3434856918#32,
    149679724#32, 3362060035#32, 2693082683#32, 4191776928#32, 2582139882#32, 2614870032#32, 3364224986#32, 1689367950#32,
    3209970386#32, 2341067891#32, 828767630#32, 3972994911#32, 3226503153#32, 4119186948#32, 2799297761#32, 3350842898#32,
    278556260#32, 648472905#32, 4275990207#32, 3715221540#32, 2913994133#32, 2390534756#32, 1961035256#32, 3365711382#32,
    3846135769#32, 1117621540#32, 3332009812#32, 4106426928#32, 798756109#32, 3150381207#32, 2838528423#32, 3786906329#32,
    3657345768#32, 50747299#32, 3013066045#32, 1353908158#32, 3612509380#32, 681501414#32, 1913453660#32, 195473658#32,
    906951804#32, 76133016#32, 993115858#32, 734397999#32, 3106188705#32, 571795081#32, 145777432#32, 3744573294#32,
    2581645882#32, 2411294487#32, 639452713#32, 2104514#32, 828594693#32, 291457350#32, 1644109021#32, 712547119#32,
    2034427089#32, 716097314#32, 755641505#32, 3661644477#32, 638903123#32, 623156297#32, 4113157297#32, 2797653056#32,
    2037939950#32, 1429362202#32, 1889850791#32, 1662300742#32, 1691533604#32, 3491549023#32, 1828480748#32, 1094640812#32,
    723730241#32, 2549764541#32, 621949479#32, 3878156630#32, 2816515313#32, 409352176#32, 3187443148#32, 1694030587#32,
    891590654#32, 4122030265#32, 414328190#32, 478404074#32, 360323228#32, 1881697800#32, 3491598209#32, 3491329105#32,
    1940699139#32, 4068108834#32, 1798026913#32, 3017338625#32, 2458863327#32, 1188639298#32, 1862598732#32, 4033736249#32]

/-- The positions in increasing order of their sort keys. -/
def permTab : Fin 128 → Fin 128 :=
  ![
    83, 2, 65, 73, 78, 32, 15, 10, 71, 48, 85, 25, 116, 109, 114, 115,
    77, 28, 106, 93, 92, 0, 82, 49, 69, 87, 89, 104, 75, 4, 90, 60,
    84, 42, 21, 112, 72, 11, 20, 74, 103, 57, 17, 12, 125, 19, 22, 67,
    97, 18, 16, 27, 5, 86, 99, 23, 39, 100, 111, 26, 122, 7, 102, 29,
    126, 117, 98, 70, 120, 54, 9, 88, 96, 41, 53, 81, 13, 124, 105, 80,
    36, 37, 34, 6, 95, 46, 108, 62, 3, 52, 14, 66, 1, 123, 76, 61,
    110, 40, 44, 8, 58, 47, 33, 38, 55, 31, 119, 101, 118, 68, 64, 91,
    51, 79, 63, 24, 56, 107, 43, 127, 30, 121, 59, 94, 45, 113, 35, 50]

/-- The rank of each position's sort key: the inverse table. -/
def rankTab : Fin 128 → Fin 128 :=
  ![
    21, 92, 1, 88, 29, 52, 83, 61, 99, 70, 7, 37, 43, 76, 90, 6,
    50, 42, 49, 45, 38, 34, 46, 55, 115, 11, 59, 51, 17, 63, 120, 105,
    5, 102, 82, 126, 80, 81, 103, 56, 97, 73, 33, 118, 98, 124, 85, 101,
    9, 23, 127, 112, 89, 74, 69, 104, 116, 41, 100, 122, 31, 95, 87, 114,
    110, 2, 91, 47, 109, 24, 67, 8, 36, 3, 39, 28, 94, 16, 4, 113,
    79, 75, 22, 0, 32, 10, 53, 25, 71, 26, 30, 111, 20, 19, 123, 84,
    72, 48, 66, 54, 57, 107, 62, 40, 27, 78, 18, 117, 86, 13, 96, 58,
    35, 125, 14, 15, 12, 65, 108, 106, 68, 121, 60, 93, 77, 44, 64, 119]

theorem rankTab_permTab : ∀ k : Fin 128, rankTab (permTab k) = k := by decide +kernel
theorem permTab_rankTab : ∀ k : Fin 128, permTab (rankTab k) = k := by decide +kernel

/-- The permutation of the 128 positions that lists them in increasing order of their sort keys. -/
def sortPerm : Equiv.Perm (Fin 128) := ⟨permTab, rankTab, rankTab_permTab, permTab_rankTab⟩

/-- Consecutive entries of the listing have strictly increasing keys. -/
theorem keys_step : ∀ i : Fin 127, (keysTab (permTab i.castSucc)).toNat < (keysTab (permTab i.succ)).toNat := by
  decide +kernel

/-- The listing's keys increase strictly. -/
theorem keys_strictMono : ∀ i j : Fin 128, i < j → (keysTab (sortPerm i)).toNat < (keysTab (sortPerm j)).toNat := by
  have h : StrictMono fun i : Fin 128 => (keysTab (permTab i)).toNat := Fin.strictMono_iff_lt_succ.mpr keys_step
  exact fun i j hij => h hij

/-- The first 32 entries of the listing are the paired pool rows. -/
theorem permTab_index : ∀ b : Fin 32, permTab (b.castLE (by decide)) = Cert.Spec.index b := by decide +kernel

/-- The constant key (0, 42) splits into these two keys. -/
theorem split_key42 :
    tfS 0#32 42#32 (hiWord 0) (loWord 0) = (1832780943#32, 270669613#32)
    ∧ tfS 0#32 42#32 (hiWord 1) (loWord 1) = (64467757#32, 2916123636#32) := by decide +kernel

/-- The second key splits again; its second half is the key of the sort keys. -/
theorem split_rk2 :
    tfS 64467757#32 2916123636#32 (hiWord 1) (loWord 1) = (2350016172#32, 1168365246#32) := by decide +kernel

/-- The uniform draw's random words under the first key. -/
theorem ubits_eq : ∀ b : Fin 32,
    IntOp.xori (tfS 1832780943#32 270669613#32 (hiWord b.val) (loWord b.val)).1
      (tfS 1832780943#32 270669613#32 (hiWord b.val) (loWord b.val)).2 = ubitsTab b := by decide +kernel

/-- The float pattern of draw b: 23 high bits of its random word under the exponent of 1.0. -/
def drawBits (b : Fin 32) : BitVec 32 := IntOp.ori (IntOp.shrui .host (ubitsTab b) 9#32) 1065353216#32

/-- Each draw's pattern has sign 0 and exponent field 127, and its fraction exceeds 2^22 exactly on the mask. -/
theorem drawBits_fields : ∀ b : Fin 32,
    ((drawBits b).extractLsb' (8 + 23) 1 == 1#1) = false
    ∧ ((drawBits b).extractLsb' 23 8).toNat = 127
    ∧ decide (2 ^ 22 < ((drawBits b).extractLsb' 0 23).toNat) = Cert.Spec.prob b := by decide +kernel

/-- The sort keys under the sort's key. -/
theorem keys_eq : ∀ k : Fin 128,
    IntOp.xori (tfS 2350016172#32 1168365246#32 (hiWord k.val) (loWord k.val)).1
      (tfS 2350016172#32 1168365246#32 (hiWord k.val) (loWord k.val)).2 = keysTab k := by decide +kernel

end Cert.ReferenceIdeal.RefTerms
-- ==== Proof.RefEvalKeys.lean ====
/-
  The reference's keys, read at an index.

  @_threefry_split of a key (k₀, k₁) runs @threefry2x32 under that key on the counters (0, 0), (0, 1) — the high and
  low words of the 64-bit counters 1·0, 1·1 — and lays the two results out as a [2, 2] array: row r holds the two
  result words at counter r.  @main splits the constant key (0, 42) — its words are 42 >>> 32 and 42 &&& −1 — and
  takes the two rows as its two keys.
-/
import proofs.«209156_g27831388078850_cont_9to1_824_17_alg».proof.Proof.RefEvalTf
import proofs.«209156_g27831388078850_cont_9to1_824_17_alg».proof.Proof.RefEvalWords
import Idealize.ShloMosaic.Lib.Pipeline.Value

set_option maxRecDepth 100000

namespace Cert.ReferenceIdeal.RefTerms

open Idealize.ShloMosaic Idealize.ShloMosaic.ValueIdx Cert.ReferenceIdeal
open Cert.ReferenceIdeal.Facts₀ Cert.ReferenceIdeal.Facts

variable [Facts]

/-- A rank-1 index is the one with its coordinate. -/
theorem idx1_eq {n : Nat} (j : (⟨1, ![n]⟩ : Shape).Idx) (k : Fin n) (h : (j 0).val = k.val) : j = ix1 k :=
  (eq_ix1 j).trans (congrArg ix1 (Fin.ext h))

/-- A rank-2 index is the one with its two coordinates. -/
theorem idx2_eq {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- Element 0 of a [2] array through `slice [0:1]` and `reshape` to a scalar. -/
theorem slice0_scalar {α : Type} (x : S2.Idx → α) :
    shapeCast S_ (extractStridedSlice S1 ![0] x slices_S2_S1_0) shapeCasts_S1_S_ ix0 = x (ix1 0) := by
  unfold shapeCast extractStridedSlice
  exact congrArg x (idx1_eq _ 0 (by
    have := (Shape.reshapeEquiv (s := S1) (s' := S_) shapeCasts_S1_S_ ix0 0).isLt
    simp at this ⊢; omega))

/-- Element 1 of a [2] array through `slice [1:2]` and `reshape` to a scalar. -/
theorem slice1_scalar {α : Type} (x : S2.Idx → α) :
    shapeCast S_ (extractStridedSlice S1 ![1] x slices_S2_S1_1) shapeCasts_S1_S_ ix0 = x (ix1 1) := by
  unfold shapeCast extractStridedSlice
  exact congrArg x (idx1_eq _ 1 (by
    have := (Shape.reshapeEquiv (s := S1) (s' := S_) shapeCasts_S1_S_ ix0 0).isLt
    simp at this ⊢; omega))

/-- A [2] array broadcast along axis 0 to [2, 1], read at row r. -/
theorem bcast_S2_S2x1_apply {α : Type} (x : S2.Idx → α) (r : Fin 2) :
    broadcastInDim S2x1 ![0] bcast_S2_S2x1_0 x (ix2 r 0) = x (ix1 r) := by
  unfold broadcastInDim
  exact congrArg x (idx1_eq _ r (by simp))

/-- @_threefry_split of a key at row r, column c: result word c of @threefry2x32 under the key at counter r. -/
theorem splitVal_apply (k : IVec S2 32) (r c : Fin 2) :
    splitVal k (ix2 r c) =
      if c = 0 then (tfS (k (ix1 0)) (k (ix1 1)) (hiWord r.val) (loWord r.val)).1
      else (tfS (k (ix1 0)) (k (ix1 1)) (hiWord r.val) (loWord r.val)).2 := by
  simp only [splitVal]
  have hc : c = 0 ∨ c = 1 := by omega
  rcases hc with rfl | rfl
  · rw [if_pos rfl]
    refine Eq.trans (Idealize.ShloMosaic.concatenate_pair_apply_left (t := S2x2) (s₁ := S2x1) (s₂ := S2x1) (1 : Fin 2) _ _
      concatenates_S2x1_S2x1_S2x2_d1 (ix2 r 0) rfl (ix2 r 0) (fun b => by fin_cases b <;> rfl)) ?_
    rw [bcast_S2_S2x1_apply, tf2x32_fst_apply, slice0_scalar, slice1_scalar]
    rfl
  · rw [if_neg (by decide)]
    refine Eq.trans (Idealize.ShloMosaic.concatenate_pair_apply_right (t := S2x2) (s₁ := S2x1) (s₂ := S2x1) (1 : Fin 2) _ _
      concatenates_S2x1_S2x1_S2x2_d1 (ix2 r 1) rfl rfl (ix2 r 0)
      (fun b hb => by fin_cases b <;> first | rfl | exact absurd rfl hb) rfl) ?_
    rw [bcast_S2_S2x1_apply, tf2x32_snd_apply, slice0_scalar, slice1_scalar]
    rfl

/-- The two keys of @main, as the [2, 2] array: row r, column c is result word c of @threefry2x32 under the
    constant key (0, 42) at counter r. -/
theorem keyPair_apply (r c : Fin 2) :
    keyPair (ix2 r c) =
      if c = 0 then (tfS 0#32 42#32 (hiWord r.val) (loWord r.val)).1
      else (tfS 0#32 42#32 (hiWord r.val) (loWord r.val)).2 := by
  simp only [keyPair]
  rw [splitVal_apply,
    Idealize.ShloMosaic.concatenate_pair_apply_left (t := S2) (s₁ := S1) (s₂ := S1) (0 : Fin 1) _ _ concatenates_S1_S1_S2_d0
      (ix1 0) rfl (ix1 0) (fun b => by fin_cases b; rfl),
    Idealize.ShloMosaic.concatenate_pair_apply_right (t := S2) (s₁ := S1) (s₂ := S1) (0 : Fin 1) _ _ concatenates_S1_S1_S2_d0
      (ix1 1) rfl rfl (ix1 0) (fun b hb => by fin_cases b; exact absurd rfl hb) (by decide)]
  have h0 : broadcastInDim S1 ![] bcast_S_S1 (id (Host.shrui (constantI S_ 32 42#32) (constantI S_ 32 32#32))) (ix1 0) = 0#32 := by
    show IntOp.shrui .host 42#32 32#32 = 0#32
    decide
  have h1 : broadcastInDim S1 ![] bcast_S_S1 (id (andi (constantI S_ 32 42#32) (constantI S_ 32 4294967295#32))) (ix1 0) = 42#32 := by
    show IntOp.andi 42#32 4294967295#32 = 42#32
    decide
  rw [h0, h1]

/-- The [2] index c, as an index of a [1, 2] array in row-major order: (0, c). -/
theorem reshape_S1x2_S2 (c : Fin 2) :
    Shape.reshapeEquiv (s := S1x2) (s' := S2) shapeCasts_S1x2_S2 (ix1 c) = ix2 0 c :=
  Shape.reshapeEquiv_eq_of_rowMajor _ (by rw [Shape.rowMajor_val_two, Shape.rowMajor_val_one]; simp)

/-- Row 0 of a [2, 2] array through `slice [0:1, 0:2]` and `reshape` to [2]. -/
theorem row0_apply {α : Type} (x : S2x2.Idx → α) (c : Fin 2) :
    shapeCast S2 (extractStridedSlice S1x2 ![0, 0] x slices_S2x2_S1x2_0_0) shapeCasts_S1x2_S2 (ix1 c) = x (ix2 0 c) := by
  unfold shapeCast extractStridedSlice
  rw [reshape_S1x2_S2]
  exact congrArg x (idx2_eq _ 0 c (by simp) (by simp))

/-- Row 1 of a [2, 2] array through `slice [1:2, 0:2]` and `reshape` to [2]. -/
theorem row1_apply {α : Type} (x : S2x2.Idx → α) (c : Fin 2) :
    shapeCast S2 (extractStridedSlice S1x2 ![1, 0] x slices_S2x2_S1x2_1_0) shapeCasts_S1x2_S2 (ix1 c) = x (ix2 1 c) := by
  unfold shapeCast extractStridedSlice
  rw [reshape_S1x2_S2]
  exact congrArg x (idx2_eq _ 1 c (by simp) (by simp))

/-- The first key: row 0 of the pair. -/
theorem rk1_apply (c : Fin 2) : rk1 (ix1 c) = keyPair (ix2 0 c) := row0_apply keyPair c

/-- The second key: row 1 of the pair. -/
theorem rk2_apply (c : Fin 2) : rk2 (ix1 c) = keyPair (ix2 1 c) := row1_apply keyPair c

/-- The two keys' words. -/
theorem rk1_words : rk1 (ix1 0) = 1832780943#32 ∧ rk1 (ix1 1) = 270669613#32 := by
  rw [rk1_apply, rk1_apply, keyPair_apply, keyPair_apply, if_pos rfl, if_neg (by decide)]
  exact ⟨congrArg Prod.fst split_key42.1, congrArg Prod.snd split_key42.1⟩

theorem rk2_words : rk2 (ix1 0) = 64467757#32 ∧ rk2 (ix1 1) = 2916123636#32 := by
  rw [rk2_apply, rk2_apply, keyPair_apply, keyPair_apply, if_pos rfl, if_neg (by decide)]
  exact ⟨congrArg Prod.fst split_key42.2, congrArg Prod.snd split_key42.2⟩

end Cert.ReferenceIdeal.RefTerms
-- ==== Proof.RefEvalFloat.lean ====
/-
  The uniform draw of the reference at the ideal instance, as a fact about one 32-bit pattern.

  The reference builds a float in [1, 2) from 23 random bits (pattern: sign 0, exponent field 127, fraction the
  bits), subtracts 1, scales by (1 − 0), adds 0, takes the maximum with 0 and asks whether the result exceeds 1/2.
  A pattern with sign 0, exponent field 127 and fraction fr denotes (2^23 + fr) · 2^(−23) = 1 + fr / 2^23, so the
  draw is fr / 2^23, and it exceeds 1/2 exactly when fr > 2^22.
-/
import Idealize.ShloMosaic.PureOps.Ideal

namespace Cert.ReferenceIdeal.RefTerms

open Idealize.ShloMosaic

/-- A binary32 pattern with sign bit 0, exponent field 127 and fraction field fr denotes (2^23 + fr) · 2^(−23). -/
theorem ieee_of_fields (b : BitVec 32) (fr : ℕ)
    (hneg : (b.extractLsb' (8 + 23) 1 == 1#1) = false)
    (hex : (b.extractLsb' 23 8).toNat = 127)
    (hfr : (b.extractLsb' 0 23).toNat = fr) :
    Ideal.ofBits .f32 b = ((((2 ^ 23 + fr : ℕ) : ℝ) * (2 : ℝ) ^ (-23 : ℤ) : ℝ) : EReal) := by
  show Ideal.ieee 8 23 b = _
  unfold Ideal.ieee
  simp only [hneg, hex, hfr]
  norm_num

theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num
theorem ofBits_half : Ideal.ofBits .f32 0x3F000000#32 = (((1 / 2 : ℝ)) : EReal) := by
  simp [Ideal.ofBits, Ideal.ieee, -EReal.coe_mul]; norm_num

/-- The real comparison: 1/2 < max 0 ((2^23 + fr) · 2^(−23) − 1) exactly when 2^22 < fr. -/
theorem half_lt_draw_iff (fr : ℕ) :
    (1 / 2 : ℝ) < max 0 (((2 ^ 23 + fr : ℕ) : ℝ) * (2 : ℝ) ^ (-23 : ℤ) - 1) ↔ 2 ^ 22 < fr := by
  have h2 : ((2 ^ 23 + fr : ℕ) : ℝ) * (2 : ℝ) ^ (-23 : ℤ) - 1 = (fr : ℝ) / 2 ^ 23 := by
    push_cast
    field_simp
    ring
  rw [h2, lt_max_iff]
  constructor
  · rintro (h | h)
    · norm_num at h
    · rw [lt_div_iff₀ (by positivity)] at h
      have : ((2 ^ 22 : ℕ) : ℝ) < (fr : ℝ) := by push_cast; linarith
      exact_mod_cast this
  · intro h
    right
    rw [lt_div_iff₀ (by positivity)]
    have : ((2 ^ 22 : ℕ) : ℝ) < (fr : ℝ) := by exact_mod_cast h
    push_cast at this; linarith

/-- The mask bit of one draw: the pattern's value less 1, times (1 − 0), plus 0, at least 0, compared with 1/2. -/
theorem draw_gt_half (b : BitVec 32) (fr : ℕ)
    (hneg : (b.extractLsb' (8 + 23) 1 == 1#1) = false)
    (hex : (b.extractLsb' 23 8).toNat = 127)
    (hfr : (b.extractLsb' 0 23).toNat = fr) :
    Ideal.cmp .ogt
      (max (Ideal.ofBits .f32 0x00000000#32)
        ((Ideal.ofBits .f32 b - Ideal.ofBits .f32 0x3F800000#32)
            * (Ideal.ofBits .f32 0x3F800000#32 - Ideal.ofBits .f32 0x00000000#32)
          + Ideal.ofBits .f32 0x00000000#32))
      (Ideal.ofBits .f32 0x3F000000#32)
    = if 2 ^ 22 < fr then 1#1 else 0#1 := by
  rw [ieee_of_fields b fr hneg hex hfr, ofBits_zero, ofBits_one, ofBits_half]
  rw [sub_zero, mul_one, add_zero]
  rw [← EReal.coe_one, ← EReal.coe_sub, ← EReal.coe_zero, ← EReal.coe_strictMono.monotone.map_max]
  unfold Ideal.cmp
  simp only [EReal.coe_lt_coe_iff, half_lt_draw_iff]
  by_cases h : 2 ^ 22 < fr
  · rw [if_pos h, decide_eq_true h]; rfl
  · rw [if_neg h, decide_eq_false h]; rfl

end Cert.ReferenceIdeal.RefTerms
-- ==== Proof.RefEvalMask.lean ====
/-
  The reference's mask at the ideal instance: entry b is set exactly when `Spec.prob b`.

  @_uniform runs @threefry2x32 under the first key on the counters (0, b), b < 32, takes the exclusive or of the two
  result words, keeps its 23 high bits as the fraction of a float in [1, 2) (pattern: those bits under the exponent of
  1.0), subtracts 1, scales by (1 − 0), adds 0 and takes the maximum with 0; @main compares with 1/2.  The pattern of
  entry b is `drawBits b`; its fields and the comparison are computed in RefEvalWords and RefEvalFloat.
-/
import proofs.«209156_g27831388078850_cont_9to1_824_17_alg».proof.Proof.RefEvalKeys
import proofs.«209156_g27831388078850_cont_9to1_824_17_alg».proof.Proof.RefEvalFloat

set_option maxRecDepth 100000

namespace Cert.ReferenceIdeal.RefTerms

open Idealize.ShloMosaic Idealize.ShloMosaic.ValueIdx Cert.ReferenceIdeal
open Cert.ReferenceIdeal.Facts₀ Cert.ReferenceIdeal.Facts

variable [Facts]

/-- The call of @threefry2x32 that @_uniform makes in @main: under the first key, on the 32 counters. -/
noncomputable def unifCall : IVec S32 32 × IVec S32 32 :=
  tf2x32 bcast_S_S32
    (shapeCast S_ (extractStridedSlice S1 ![0] rk1 slices_S2_S1_0) shapeCasts_S1_S_)
    (shapeCast S_ (extractStridedSlice S1 ![1] rk1 slices_S2_S1_1) shapeCasts_S1_S_)
    (trunci 32 (Host.shrui (muli (broadcastInDim S32 ![] bcast_S_S32 (constantI S_ 64 1#64)) (iotaInDim S32 64 0))
      (broadcastInDim S32 ![] bcast_S_S32 (constantI S_ 64 32#64))) natLt_32_64)
    (trunci 32 (muli (broadcastInDim S32 ![] bcast_S_S32 (constantI S_ 64 1#64)) (iotaInDim S32 64 0)) natLt_32_64)

/-- Elementwise operations and constants, read at an index. -/
theorem bitcastToFloat_apply {s : Shape} (x : IVec s 32) (i : s.Idx) :
    bitcastToFloat (F := Ideal) .f32 x i = Ideal.ofBits .f32 (x i) := rfl
theorem ori_apply {s : Shape} {w : Nat} (x y : IVec s w) (i : s.Idx) : ori x y i = IntOp.ori (x i) (y i) := rfl
theorem xori_apply {s : Shape} {w : Nat} (x y : IVec s w) (i : s.Idx) : xori x y i = IntOp.xori (x i) (y i) := rfl
theorem hostShrui_apply {s : Shape} {w : Nat} (x y : IVec s w) (i : s.Idx) :
    Host.shrui x y i = IntOp.shrui .host (x i) (y i) := rfl
theorem constantI_apply {s : Shape} {w : Nat} (b : BitVec w) (i : s.Idx) : constantI s w b i = b := rfl

/-- A [1] array broadcast along axis 0 to [32] reads its one element at every index. -/
theorem bcast_S1_S32_apply {α : Type} (x : S1.Idx → α) (i : S32.Idx) :
    broadcastInDim S32 ![0] bcast_S1_S32_0 x i = x (ix1 0) := by
  unfold broadcastInDim
  exact congrArg x (idx1_eq _ 0 (by simp))

/-- The comparison of @main on the result of @_uniform's operations after its call of @threefry2x32, at an index, for
    any pair of result arrays of that call: every operation is a constant, a broadcast of one, or elementwise. -/
theorem maskOf_apply (C : IVec S32 32 × IVec S32 32) (i : S32.Idx) :
    cmpf .ogt
      (maximumf
        (broadcastInDim S32 ![0] bcast_S1_S32_0 (broadcastInDim S1 ![] bcast_S_S1 (id (constant (F := Ideal) S_ .f32 0x00000000#32))))
        (addf
          (mulf
            (subf
              (bitcastToFloat .f32
                (ori (Host.shrui (xori C.1 C.2) (broadcastInDim S32 ![] bcast_S_S32 (constantI S_ 32 9#32)))
                  (broadcastInDim S32 ![] bcast_S_S32 (constantI S_ 32 1065353216#32))))
              (broadcastInDim S32 ![] bcast_S_S32 (constant S_ .f32 0x3F800000#32)))
            (broadcastInDim S32 ![0] bcast_S1_S32_0
              (subf (broadcastInDim S1 ![] bcast_S_S1 (id (constant S_ .f32 0x3F800000#32)))
                (broadcastInDim S1 ![] bcast_S_S1 (id (constant S_ .f32 0x00000000#32))))))
          (broadcastInDim S32 ![0] bcast_S1_S32_0 (broadcastInDim S1 ![] bcast_S_S1 (id (constant S_ .f32 0x00000000#32))))))
      (broadcastInDim S32 ![] bcast_S_S32 (constant S_ .f32 0x3F000000#32)) i
    = Ideal.cmp .ogt
        (max (Ideal.ofBits .f32 0x00000000#32)
          ((Ideal.ofBits .f32 (IntOp.ori (IntOp.shrui .host (IntOp.xori (C.1 i) (C.2 i)) 9#32) 1065353216#32)
              - Ideal.ofBits .f32 0x3F800000#32)
            * (Ideal.ofBits .f32 0x3F800000#32 - Ideal.ofBits .f32 0x00000000#32)
          + Ideal.ofBits .f32 0x00000000#32))
        (Ideal.ofBits .f32 0x3F000000#32) := rfl

theorem unifCall_def : unifCall =
    tf2x32 bcast_S_S32
      (shapeCast S_ (extractStridedSlice S1 ![0] rk1 slices_S2_S1_0) shapeCasts_S1_S_)
      (shapeCast S_ (extractStridedSlice S1 ![1] rk1 slices_S2_S1_1) shapeCasts_S1_S_)
      (trunci 32 (Host.shrui (muli (broadcastInDim S32 ![] bcast_S_S32 (constantI S_ 64 1#64)) (iotaInDim S32 64 0))
        (broadcastInDim S32 ![] bcast_S_S32 (constantI S_ 64 32#64))) natLt_32_64)
      (trunci 32 (muli (broadcastInDim S32 ![] bcast_S_S32 (constantI S_ 64 1#64)) (iotaInDim S32 64 0)) natLt_32_64) := rfl

/-- The mask at an index, as the comparison on the float built from the call's two words there: every other
    operation of @_uniform and of @main's comparison is a constant, a broadcast of one, or elementwise. -/
theorem probMask_apply (i : S32.Idx) :
    probMask Ideal i =
      Ideal.cmp .ogt
        (max (Ideal.ofBits .f32 0x00000000#32)
          ((Ideal.ofBits .f32 (IntOp.ori (IntOp.shrui .host (IntOp.xori (unifCall.1 i) (unifCall.2 i)) 9#32) 1065353216#32)
              - Ideal.ofBits .f32 0x3F800000#32)
            * (Ideal.ofBits .f32 0x3F800000#32 - Ideal.ofBits .f32 0x00000000#32)
          + Ideal.ofBits .f32 0x00000000#32))
        (Ideal.ofBits .f32 0x3F000000#32) := by
  simp only [probMask, unif32, uniformVal]
  rw [← unifCall_def]
  exact maskOf_apply unifCall i

/-- The call's two words at entry b: the chain on words under the first key at counter b. -/
theorem unifCall_apply (i : S32.Idx) :
    IntOp.xori (unifCall.1 i) (unifCall.2 i) = ubitsTab (i 0) := by
  unfold unifCall
  rw [tf2x32_fst_apply, tf2x32_snd_apply, slice0_scalar, slice1_scalar, rk1_words.1, rk1_words.2]
  exact ubits_eq (i 0)

/-- The mask is the table. -/
theorem probMask_eq : probMask Ideal = fun i => if Cert.Spec.prob (i 0) then 1#1 else 0#1 := by
  funext i
  rw [probMask_apply, unifCall_apply]
  obtain ⟨hneg, hex, hfr⟩ := drawBits_fields (i 0)
  have h := draw_gt_half (drawBits (i 0)) _ hneg hex rfl
  rw [show IntOp.ori (IntOp.shrui .host (ubitsTab (i 0)) 9#32) 1065353216#32 = drawBits (i 0) from rfl, h]
  cases hp : Cert.Spec.prob (i 0)
  · rw [hp] at hfr
    rw [if_neg (of_decide_eq_false hfr)]
    rfl
  · rw [hp] at hfr
    rw [if_pos (of_decide_eq_true hfr)]
    rfl

end Cert.ReferenceIdeal.RefTerms
-- ==== Proof.RefEvalSort.lean ====
/-
  A stable two-operand sort of a rank-1 array by an unsigned comparison of the first operand's words, when those
  words are pairwise distinct: if a permutation σ of the positions lists the words in strictly increasing order,
  the sort reads position k from σ k.  (The stable insertion sort under a relation that agrees, on distinct
  positions, with "σ places k before k'" lists the positions in σ's order.)
-/
import Idealize.ShloMosaic.Lib.SortFacts

namespace Cert.ReferenceIdeal.RefTerms

open Idealize.ShloMosaic

/-- The stable sort under a relation that agrees off the diagonal with "σ places k before k'" reads k from σ k. -/
theorem sortedFrom_eq_of_perm {n : Nat} (B : Fin n → Fin n → Bool) (σ : Equiv.Perm (Fin n))
    (h : ∀ k k', k ≠ k' → B k k' = decide (σ.symm k < σ.symm k')) : sortedFrom B = σ := by
  rw [sortedFrom_congr B _ h]
  funext k
  unfold sortedFrom
  rw [List.get_of_eq (sortPositions_of_perm σ)]
  simp

/-- An unsigned "less than" on words, as the comparator's bit, is the comparison of the words as naturals. -/
theorem cmpi_ult_eq_one (a b : BitVec 32) : (IntOp.cmpi .ult a b == 1#1) = decide (a.toNat < b.toNat) := by
  unfold IntOp.cmpi
  by_cases h : a.toNat < b.toNat
  · have : a.ult b = true := by simp [BitVec.ult, h]
    simp [this, h]
  · have : a.ult b = false := by simp [BitVec.ult, h]
    simp [this, h]

/-- On a rank-1 shape the second result of the two-operand sort along axis 0 reads the second operand through ONE
    self-map of the positions: the stable sorting permutation of the comparator on the pairs of words. -/
theorem sort2_snd_rank1_sortedFrom {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' =>
          cmp (x (Shape.Idx.ofFin k), y (Shape.Idx.ofFin k)) (x (Shape.Idx.ofFin k'), y (Shape.Idx.ofFin k')) == 1#1) (j 0))) := by
  unfold Host.sort2
  simp

/-- The second result of the sort at position j: the second operand at σ (j 0). -/
theorem sort2_snd_rank1 {n : Nat} {β : Type} (cmp : BitVec 32 × β → BitVec 32 × β → BitVec 1)
    (hcmp : ∀ l r, cmp l r = IntOp.cmpi .ult l.1 r.1)
    (x : (⟨1, ![n]⟩ : Shape).Idx → BitVec 32) (y : (⟨1, ![n]⟩ : Shape).Idx → β) (σ : Equiv.Perm (Fin n))
    (hσ : ∀ i j : Fin n, i < j → (x (Shape.Idx.ofFin (σ i))).toNat < (x (Shape.Idx.ofFin (σ j))).toNat)
    (j : (⟨1, ![n]⟩ : Shape).Idx) :
    (Host.sort2 ⟨1, ![n]⟩ 0 cmp x y).2 j = y (Shape.Idx.ofFin (σ (j 0))) := by
  have hB : sortedFrom (fun k k' : Fin n =>
        cmp (x (Shape.Idx.ofFin k), y (Shape.Idx.ofFin k)) (x (Shape.Idx.ofFin k'), y (Shape.Idx.ofFin k')) == 1#1) = σ := by
    apply sortedFrom_eq_of_perm
    intro k k' hkk
    obtain ⟨i, rfl⟩ := σ.surjective k
    obtain ⟨i', rfl⟩ := σ.surjective k'
    have hii : i ≠ i' := fun e => hkk (congrArg σ e)
    simp only [hcmp, cmpi_ult_eq_one, Equiv.symm_apply_apply]
    rcases lt_or_gt_of_ne hii with hlt | hgt
    · simp [hlt, hσ i i' hlt]
    · have h1 := hσ i' i hgt
      have h2 : ¬ i < i' := not_lt.mpr (le_of_lt hgt)
      have h3 : ¬ (x (Shape.Idx.ofFin (σ i))).toNat < (x (Shape.Idx.ofFin (σ i'))).toNat := not_lt.mpr (le_of_lt h1)
      simp [h2, h3]
  rw [sort2_snd_rank1_sortedFrom, hB]

end Cert.ReferenceIdeal.RefTerms
-- ==== Proof.RefEvalPerm.lean ====
/-
  The reference's permutation: `idx32` is the table `Spec.index`.

  @_shuffle splits the second key, takes the second row as the sort's key, draws 128 sort keys — the exclusive or of
  the two result words of @threefry2x32 under that key on the counters (0, k), k < 128 — and sorts the pair
  (keys, iota) stably by an unsigned comparison of the keys.  The 128 keys are the literal table `keysTab`; they are
  pairwise distinct, and `sortPerm` lists the positions in the strictly increasing order of their keys, so the sorted
  iota at position k is `sortPerm k`.  @main keeps the first 32 positions.
-/
import proofs.«209156_g27831388078850_cont_9to1_824_17_alg».proof.Proof.RefEvalKeys
import proofs.«209156_g27831388078850_cont_9to1_824_17_alg».proof.Proof.RefEvalSort

set_option maxRecDepth 100000

namespace Cert.ReferenceIdeal.RefTerms

open Idealize.ShloMosaic Idealize.ShloMosaic.ValueIdx Cert.ReferenceIdeal
open Cert.ReferenceIdeal.Facts₀ Cert.ReferenceIdeal.Facts

variable [Facts]

/-- The key the sort keys are drawn under: the second row of the split of the second key. -/
noncomputable def sortKey : IVec S2 32 :=
  shapeCast S2 (extractStridedSlice S1x2 ![1, 0] (splitVal rk2) slices_S2x2_S1x2_1_0) shapeCasts_S1x2_S2

/-- The 128 sort keys: the call of @threefry2x32 that @_shuffle makes in @main, its two results combined. -/
noncomputable def sortKeys : IVec S128 32 :=
  let call1 := tf2x32 bcast_S_S128
    (shapeCast S_ (extractStridedSlice S1 ![0] sortKey slices_S2_S1_0) shapeCasts_S1_S_)
    (shapeCast S_ (extractStridedSlice S1 ![1] sortKey slices_S2_S1_1) shapeCasts_S1_S_)
    (trunci 32 (Host.shrui (muli (broadcastInDim S128 ![] bcast_S_S128 (constantI S_ 64 1#64)) (iotaInDim S128 64 0))
      (broadcastInDim S128 ![] bcast_S_S128 (constantI S_ 64 32#64))) natLt_32_64)
    (trunci 32 (muli (broadcastInDim S128 ![] bcast_S_S128 (constantI S_ 64 1#64)) (iotaInDim S128 64 0)) natLt_32_64)
  xori call1.1 call1.2

/-- The permutation is the second result of the sort of (keys, iota). -/
theorem perm128_eq_sort :
    perm128 = (Host.sort2 S128 0 comparator_i32_i32_d0 sortKeys (iotaInDim S128 32 0)).2 := rfl

/-- The sort's key, word by word. -/
theorem sortKey_words : sortKey (ix1 0) = 2350016172#32 ∧ sortKey (ix1 1) = 1168365246#32 := by
  have e : ∀ c : Fin 2, sortKey (ix1 c) = splitVal rk2 (ix2 1 c) := fun c => row1_apply (splitVal rk2) c
  rw [e, e, splitVal_apply, splitVal_apply, rk2_words.1, rk2_words.2, if_pos rfl, if_neg (by decide)]
  exact ⟨congrArg Prod.fst split_rk2, congrArg Prod.snd split_rk2⟩

/-- The sort keys are the table. -/
theorem sortKeys_apply (j : S128.Idx) : sortKeys j = keysTab (j 0) := by
  unfold sortKeys
  show IntOp.xori _ _ = _
  rw [tf2x32_fst_apply, tf2x32_snd_apply, slice0_scalar, slice1_scalar, sortKey_words.1, sortKey_words.2]
  exact keys_eq (j 0)

/-- The permutation at position j: the position listed at j in increasing order of the keys. -/
theorem perm128_apply (j : S128.Idx) : perm128 j = BitVec.ofNat 32 (permTab (j 0)).val := by
  rw [perm128_eq_sort,
    sort2_snd_rank1 comparator_i32_i32_d0 (fun _ _ => rfl) sortKeys (iotaInDim S128 32 0) sortPerm
      (fun a b hab => by
        rw [sortKeys_apply, sortKeys_apply]
        simpa using keys_strictMono a b hab) j]
  show BitVec.ofNat 32 ((Shape.Idx.ofFin (sortPerm (j 0))) 0).val = _
  rw [Shape.Idx.ofFin_zero]
  rfl

/-- The paired pool rows are the table. -/
theorem idx32_eq : idx32 = fun i => BitVec.ofNat 32 (Cert.Spec.index (i 0)).val := by
  funext i
  simp only [idx32]
  unfold extractStridedSlice
  rw [perm128_apply]
  have hk : ∀ (b : Fin 32) (k : Fin 128), k.val = b.val →
      BitVec.ofNat 32 (permTab k).val = BitVec.ofNat 32 (Cert.Spec.index b).val := by
    intro b k hk
    have : k = Fin.castLE (by decide : 32 ≤ 128) b := Fin.ext hk
    rw [this, permTab_index]
  exact hk (i 0) _ (Nat.zero_add _)

end Cert.ReferenceIdeal.RefTerms
-- ==== Proof.LibScatterSet.lean ====
/-
  A host scatter that OVERWRITES (the update replaces the element: jnp's `.at[idx].set`), read at one element of the
  result, for any dimension numbers.  The scatter is a left fold over the update elements in row-major order, each
  writing the element its result index names (or nothing when the index is outside the operand).  So an element that no
  update names keeps the operand's value, and an element named by exactly one update holds that update.
-/
import Idealize.ShloMosaic.PureOps

namespace Cert.ScatterSet

open Idealize.ShloMosaic

variable {α : Type} {s si u : Shape} {w : Nat}

/-- One step of the fold: update element `n` written where its result index says. -/
def step (d : ScatterDims s si u) (idx : IVec si w) (upd : u.Idx → α) (r : s.Idx → α) (n : Fin u.numel) : s.Idx → α :=
  match d.resultIdx? (u.rowMajor.symm n) idx with
  | some i => fun i' => if i' = i then (fun (_ : α) (b : α) => b) (r i) (upd (u.rowMajor.symm n)) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose update names another element leaves this one as it was. -/
theorem step_miss (d : ScatterDims s si u) (idx : IVec si w) (upd : u.Idx → α) (r : s.Idx → α) (n : Fin u.numel) (i : s.Idx)
    (h : d.resultIdx? (u.rowMajor.symm n) idx ≠ some i) : step d idx upd r n i = r i := by
  unfold step
  cases hr : d.resultIdx? (u.rowMajor.symm n) idx with
  | none => rfl
  | some i₀ =>
    have hne : i ≠ i₀ := fun e => h (hr.trans (congrArg some e.symm))
    show (if i = i₀ then _ else r i) = r i
    rw [if_neg hne]

/-- A step whose update names this element writes the update there. -/
theorem step_hit (d : ScatterDims s si u) (idx : IVec si w) (upd : u.Idx → α) (r : s.Idx → α) (n : Fin u.numel) (i : s.Idx)
    (h : d.resultIdx? (u.rowMajor.symm n) idx = some i) : step d idx upd r n i = upd (u.rowMajor.symm n) := by
  unfold step
  rw [h]
  show (if i = i then _ else r i) = _
  rw [if_pos rfl]

/-- Updates none of which names the element leave it as it was. -/
theorem foldl_miss (d : ScatterDims s si u) (idx : IVec si w) (upd : u.Idx → α) (i : s.Idx) :
    ∀ (L : List (Fin u.numel)) (r : s.Idx → α), (∀ n ∈ L, d.resultIdx? (u.rowMajor.symm n) idx ≠ some i) →
      L.foldl (step d idx upd) r i = r i
  | [], _, _ => rfl
  | n :: L, r, h => by
    rw [List.foldl_cons, foldl_miss d idx upd i L _ (fun n' hn' => h n' (List.mem_cons_of_mem _ hn')),
      step_miss d idx upd r n i (h n (List.mem_cons_self ..))]

/-- An element that no update names keeps the operand's value. -/
theorem scatter_set_miss (d : ScatterDims s si u) (x : s.Idx → α) (idx : IVec si w) (upd : u.Idx → α) (i : s.Idx)
    (h : ∀ j : u.Idx, d.resultIdx? j idx ≠ some i) : Host.scatter d (fun _ b => b) x idx upd i = x i := by
  rw [scatter_eq_foldl]
  exact foldl_miss d idx upd i _ x (fun n _ => h _)

/-- An element named by exactly one update holds that update. -/
theorem scatter_set_hit (d : ScatterDims s si u) (x : s.Idx → α) (idx : IVec si w) (upd : u.Idx → α) (i : s.Idx) (j : u.Idx)
    (hj : d.resultIdx? j idx = some i) (hu : ∀ j', d.resultIdx? j' idx = some i → j' = j) :
    Host.scatter d (fun _ b => b) x idx upd i = upd j := by
  rw [scatter_eq_foldl]
  obtain ⟨L₁, L₂, hL⟩ := List.append_of_mem (List.mem_finRange (u.rowMajor j))
  have hnd : (L₁ ++ u.rowMajor j :: L₂).Nodup := hL ▸ List.nodup_finRange _
  have hnot : u.rowMajor j ∉ L₂ := fun hm => by
    have := (List.nodup_append.mp hnd).2.1
    exact (List.nodup_cons.mp this).1 hm
  rw [hL, List.foldl_append, List.foldl_cons,
    foldl_miss d idx upd i L₂ _ (fun n hn hr => hnot (by
      have := hu _ hr
      rw [← this, Equiv.apply_symm_apply]; exact hn)),
    step_hit d idx upd _ _ i (by rw [Equiv.symm_apply_apply]; exact hj), Equiv.symm_apply_apply]

end Cert.ScatterSet
-- ==== Proof.RefDims.lean ====
/-
  The reference's gather and scatter read at an element.  The gather takes, for batch entry `a`, the whole pool row its
  start index names (clamped into the pool); the scatter overwrites, for batch entry `a`, the whole pool row its index
  names with update row `a`.  With the indices the list `Cert.Spec.index` of 32 distinct rows, a pool row named by entry
  `a` holds update row `a` and a row no entry names keeps the pool's.
-/
import proofs.«209156_g27831388078850_cont_9to1_824_17_alg».proof.ReferenceIdeal
import proofs.«209156_g27831388078850_cont_9to1_824_17_alg».proof.Proof.Gen.ReferenceIdeal
import proofs.«209156_g27831388078850_cont_9to1_824_17_alg».proof.Proof.Spec
import proofs.«209156_g27831388078850_cont_9to1_824_17_alg».proof.Proof.LibScatterSet
import Idealize.ShloMosaic.Lib.ValueIdx

namespace Cert.ReferenceIdeal.RefOut

open Idealize.ShloMosaic Idealize.ShloMosaic.ValueIdx Cert.ReferenceIdeal Cert.ReferenceIdeal.Gen

variable {α : Type}

abbrev gd := gather_S128x3x256x256_S32x1_S32x3x256x256_123_0_n_n_0_1_13256256
abbrev sd := scatter_S128x3x256x256_S32x1_S32x3x256x256_123_0_0_1

/-! ## The gather -/

theorem gather_siIdx (a : Fin 32) (b : Fin 3) (c e : Fin 256) (k : Fin gd.startIndexMap.length) : gd.siIdx (ix4 a b c e) k = ix2 a 0 := by
  funext b'
  have hk : k.val < 1 := k.isLt
  match b' with
  | ⟨0, _⟩ => exact Fin.ext rfl
  | ⟨1, _⟩ => exact Fin.ext (show k.val = 0 by omega)

theorem gather_axis0 (idx : IVec S32x1 32) (a : Fin 32) (b : Fin 3) (c e : Fin 256) :
    (gd.operandIdx (ix4 a b c e) idx 0).val = min (idx (ix2 a 0)).toInt.toNat 127 := by
  show gd.start (ix4 a b c e) idx 0 + gd.batchCoord (ix4 a b c e) 0 + gd.offCoord (ix4 a b c e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 4) ∈ gd.startIndexMap from List.mem_singleton.mpr rfl), gather_siIdx]
  rfl

theorem gather_axis1 (idx : IVec S32x1 32) (a : Fin 32) (b : Fin 3) (c e : Fin 256) :
    (gd.operandIdx (ix4 a b c e) idx 1).val = b.val := by
  show gd.start (ix4 a b c e) idx 1 + gd.batchCoord (ix4 a b c e) 1 + gd.offCoord (ix4 a b c e) 1 = _
  rw [GatherDims.batchCoord_eq_zero _ _ _ List.not_mem_nil]
  unfold GatherDims.start GatherDims.offCoord
  rw [dif_neg (by decide), dif_pos (by decide)]
  simp only [Nat.add_zero, Nat.zero_add]
  rfl

theorem gather_axis2 (idx : IVec S32x1 32) (a : Fin 32) (b : Fin 3) (c e : Fin 256) :
    (gd.operandIdx (ix4 a b c e) idx 2).val = c.val := by
  show gd.start (ix4 a b c e) idx 2 + gd.batchCoord (ix4 a b c e) 2 + gd.offCoord (ix4 a b c e) 2 = _
  rw [GatherDims.batchCoord_eq_zero _ _ _ List.not_mem_nil]
  unfold GatherDims.start GatherDims.offCoord
  rw [dif_neg (by decide), dif_pos (by decide)]
  simp only [Nat.add_zero, Nat.zero_add]
  rfl

theorem gather_axis3 (idx : IVec S32x1 32) (a : Fin 32) (b : Fin 3) (c e : Fin 256) :
    (gd.operandIdx (ix4 a b c e) idx 3).val = e.val := by
  show gd.start (ix4 a b c e) idx 3 + gd.batchCoord (ix4 a b c e) 3 + gd.offCoord (ix4 a b c e) 3 = _
  rw [GatherDims.batchCoord_eq_zero _ _ _ List.not_mem_nil]
  unfold GatherDims.start GatherDims.offCoord
  rw [dif_neg (by decide), dif_pos (by decide)]
  simp only [Nat.add_zero, Nat.zero_add]
  rfl

/-- The gather at element `(a, b, c, e)`: the pool row the start index of entry `a` names, same `(b, c, e)`. -/
theorem gather_apply (p : S128x3x256x256.Idx → α) (idx : IVec S32x1 32) (a : Fin 32) (b : Fin 3) (c e : Fin 256) (r : Fin 128)
    (hr : min (idx (ix2 a 0)).toInt.toNat 127 = r.val) :
    Host.gather gd p idx (ix4 a b c e) = p (ix4 r b c e) := by
  unfold Host.gather
  refine congrArg p ?_
  funext a'
  match a' with
  | ⟨0, _⟩ => exact Fin.ext ((gather_axis0 idx a b c e).trans hr)
  | ⟨1, _⟩ => exact Fin.ext (gather_axis1 idx a b c e)
  | ⟨2, _⟩ => exact Fin.ext (gather_axis2 idx a b c e)
  | ⟨3, _⟩ => exact Fin.ext (gather_axis3 idx a b c e)

/-! ## The scatter -/

theorem scatter_siIdx (a : Fin 32) (b : Fin 3) (c e : Fin 256) (k : Fin sd.scatterDimsToOperandDims.length) : sd.siIdx (ix4 a b c e) k = ix2 a 0 := by
  funext b'
  have hk : k.val < 1 := k.isLt
  match b' with
  | ⟨0, _⟩ => exact Fin.ext rfl
  | ⟨1, _⟩ => exact Fin.ext (show k.val = 0 by omega)

theorem scatter_axis0 (idx : IVec S32x1 32) (a : Fin 32) (b : Fin 3) (c e : Fin 256) :
    sd.start (ix4 a b c e) idx 0 + sd.window (ix4 a b c e) 0 = (idx (ix2 a 0)).toInt := by
  unfold ScatterDims.start ScatterDims.window
  rw [dif_pos (by decide), dif_neg (by decide), scatter_siIdx]
  simp

theorem scatter_axis1 (idx : IVec S32x1 32) (a : Fin 32) (b : Fin 3) (c e : Fin 256) :
    sd.start (ix4 a b c e) idx 1 + sd.window (ix4 a b c e) 1 = (b.val : Int) := by
  unfold ScatterDims.start ScatterDims.window
  rw [dif_neg (by decide), dif_pos (by decide), Int.zero_add]
  rfl

theorem scatter_axis2 (idx : IVec S32x1 32) (a : Fin 32) (b : Fin 3) (c e : Fin 256) :
    sd.start (ix4 a b c e) idx 2 + sd.window (ix4 a b c e) 2 = (c.val : Int) := by
  unfold ScatterDims.start ScatterDims.window
  rw [dif_neg (by decide), dif_pos (by decide), Int.zero_add]
  rfl

theorem scatter_axis3 (idx : IVec S32x1 32) (a : Fin 32) (b : Fin 3) (c e : Fin 256) :
    sd.start (ix4 a b c e) idx 3 + sd.window (ix4 a b c e) 3 = (e.val : Int) := by
  unfold ScatterDims.start ScatterDims.window
  rw [dif_neg (by decide), dif_pos (by decide), Int.zero_add]
  rfl

/-- Update element `(a, b, c, e)` lands at pool element `(r, b, c, e)`, `r` the row entry `a`'s index names. -/
theorem scatter_resultIdx (idx : IVec S32x1 32) (a : Fin 32) (b : Fin 3) (c e : Fin 256) (r : Fin 128)
    (hr : (idx (ix2 a 0)).toInt = (r.val : Int)) :
    sd.resultIdx? (ix4 a b c e) idx = some (ix4 r b c e) := by
  have h0 := scatter_axis0 idx a b c e
  have h1 := scatter_axis1 idx a b c e
  have h2 := scatter_axis2 idx a b c e
  have h3 := scatter_axis3 idx a b c e
  unfold ScatterDims.resultIdx?
  have hall : ∀ a', 0 ≤ sd.start (ix4 a b c e) idx a' + sd.window (ix4 a b c e) a' ∧ sd.start (ix4 a b c e) idx a' + sd.window (ix4 a b c e) a' < S128x3x256x256.size a' := by
    intro a'
    match a' with
    | ⟨0, _⟩ =>
      show 0 ≤ sd.start (ix4 a b c e) idx 0 + (sd.window (ix4 a b c e) 0 : Int) ∧ sd.start (ix4 a b c e) idx 0 + (sd.window (ix4 a b c e) 0 : Int) < (128 : Int)
      rw [h0, hr]; have := r.isLt; omega
    | ⟨1, _⟩ =>
      show 0 ≤ sd.start (ix4 a b c e) idx 1 + (sd.window (ix4 a b c e) 1 : Int) ∧ sd.start (ix4 a b c e) idx 1 + (sd.window (ix4 a b c e) 1 : Int) < (3 : Int)
      rw [h1]; have := b.isLt; omega
    | ⟨2, _⟩ =>
      show 0 ≤ sd.start (ix4 a b c e) idx 2 + (sd.window (ix4 a b c e) 2 : Int) ∧ sd.start (ix4 a b c e) idx 2 + (sd.window (ix4 a b c e) 2 : Int) < (256 : Int)
      rw [h2]; have := c.isLt; omega
    | ⟨3, _⟩ =>
      show 0 ≤ sd.start (ix4 a b c e) idx 3 + (sd.window (ix4 a b c e) 3 : Int) ∧ sd.start (ix4 a b c e) idx 3 + (sd.window (ix4 a b c e) 3 : Int) < (256 : Int)
      rw [h3]; have := e.isLt; omega
  rw [dif_pos hall]
  refine congrArg some ?_
  funext a'
  match a' with
  | ⟨0, _⟩ => exact Fin.ext (show (sd.start (ix4 a b c e) idx 0 + sd.window (ix4 a b c e) 0).toNat = r.val by rw [h0, hr]; simp)
  | ⟨1, _⟩ => exact Fin.ext (show (sd.start (ix4 a b c e) idx 1 + sd.window (ix4 a b c e) 1).toNat = b.val by rw [h1]; simp)
  | ⟨2, _⟩ => exact Fin.ext (show (sd.start (ix4 a b c e) idx 2 + sd.window (ix4 a b c e) 2).toNat = c.val by rw [h2]; simp)
  | ⟨3, _⟩ => exact Fin.ext (show (sd.start (ix4 a b c e) idx 3 + sd.window (ix4 a b c e) 3).toNat = e.val by rw [h3]; simp)

theorem ix4_inj {n0 n1 n2 n3 : Nat} {a a' : Fin n0} {b b' : Fin n1} {c c' : Fin n2} {e e' : Fin n3}
    (h : (ix4 a b c e : (⟨4, ![n0, n1, n2, n3]⟩ : Shape).Idx) = ix4 a' b' c' e') : a = a' ∧ b = b' ∧ c = c' ∧ e = e' :=
  ⟨congrFun h 0, congrFun h 1, congrFun h 2, congrFun h 3⟩

/-- With the scatter indices the list `Cert.Spec.index`: the pool row entry `a` names holds update row `a`. -/
theorem scatter_hit (p : S128x3x256x256.Idx → α) (idx : IVec S32x1 32) (upd : S32x3x256x256.Idx → α)
    (hidx : ∀ a : Fin 32, (idx (ix2 a 0)).toInt = ((Cert.Spec.index a).val : Int)) (a : Fin 32) (b : Fin 3) (c e : Fin 256) :
    Host.scatter sd (fun _ b => b) p idx upd (ix4 (Cert.Spec.index a) b c e) = upd (ix4 a b c e) := by
  refine Cert.ScatterSet.scatter_set_hit sd p idx upd _ (ix4 a b c e) (scatter_resultIdx idx a b c e _ (hidx a)) ?_
  intro j' hj'
  obtain ⟨a', b', c', e', rfl⟩ : ∃ (a' : Fin 32) (b' : Fin 3) (c' e' : Fin 256), j' = ix4 a' b' c' e' := ⟨j' 0, j' 1, j' 2, j' 3, eq_ix4 j'⟩
  rw [scatter_resultIdx idx a' b' c' e' _ (hidx a')] at hj'
  obtain ⟨hi, hb, hc, he⟩ := ix4_inj (Option.some.inj hj')
  rw [Cert.Spec.index_injective hi, hb, hc, he]

/-- A pool row no entry names keeps the pool's contents. -/
theorem scatter_miss (p : S128x3x256x256.Idx → α) (idx : IVec S32x1 32) (upd : S32x3x256x256.Idx → α)
    (hidx : ∀ a : Fin 32, (idx (ix2 a 0)).toInt = ((Cert.Spec.index a).val : Int)) (r : Fin 128) (hr : ∀ a : Fin 32, Cert.Spec.index a ≠ r)
    (b : Fin 3) (c e : Fin 256) :
    Host.scatter sd (fun _ b => b) p idx upd (ix4 r b c e) = p (ix4 r b c e) := by
  refine Cert.ScatterSet.scatter_set_miss sd p idx upd _ ?_
  intro j' hj'
  obtain ⟨a', b', c', e', rfl⟩ : ∃ (a' : Fin 32) (b' : Fin 3) (c' e' : Fin 256), j' = ix4 a' b' c' e' := ⟨j' 0, j' 1, j' 2, j' 3, eq_ix4 j'⟩
  rw [scatter_resultIdx idx a' b' c' e' _ (hidx a')] at hj'
  exact hr a' (ix4_inj (Option.some.inj hj')).1

end Cert.ReferenceIdeal.RefOut
-- ==== Proof.RefEvalOut.lean ====
/-
  The reference's two results as functions of its two arguments, GIVEN the values of its mask and of its index list:
  if the mask is the table `Cert.Spec.prob` and the index list the table `Cert.Spec.index`, then the first result
  (select by the mask between the gathered pool rows and the images) is `Cert.Spec.outImages` and the second (the pool
  overwritten at the listed rows by the select the other way round) is `Cert.Spec.outPool`: a listed row whose entry is
  masked receives that entry's image, a listed row whose entry is not masked receives its own old contents back, and
  the rows are distinct.
-/
import proofs.«209156_g27831388078850_cont_9to1_824_17_alg».proof.Proof.RefTerms
import proofs.«209156_g27831388078850_cont_9to1_824_17_alg».proof.Proof.RefDims
import Idealize.ShloMosaic.Lib.Pipeline.Value
import Idealize.ShloMosaic.Lib.ValueIdx

namespace Cert.ReferenceIdeal.RefTerms

open Idealize.ShloMosaic Idealize.ShloMosaic.ValueIdx Cert.ReferenceIdeal
open Cert.ReferenceIdeal.Facts₀ Cert.ReferenceIdeal.Facts
open Cert.ReferenceIdeal.RefOut

variable {F : FTy → Type} [FloatOps F] [Facts]

/-- The hypotheses: the mask and the index list are the tables. -/
def MaskIs (F : FTy → Type) [FloatOps F] : Prop := probMask F = fun i => if Cert.Spec.prob (i 0) then 1#1 else 0#1
def IndexIs : Prop := idx32 = fun i => BitVec.ofNat 32 (Cert.Spec.index (i 0)).val

theorem index_not_neg : ∀ a : Fin 32, IntOp.cmpi .slt (BitVec.ofNat 32 (Cert.Spec.index a).val) 0#32 = 0#1 := by decide
theorem index_toInt : ∀ a : Fin 32, (BitVec.ofNat 32 (Cert.Spec.index a).val).toInt = ((Cert.Spec.index a).val : Int) := by decide
theorem index_clamp : ∀ a : Fin 32, min (BitVec.ofNat 32 (Cert.Spec.index a).val).toInt.toNat 127 = (Cert.Spec.index a).val := by decide

/-- The index column the gather and the scatter read (a negative index would have 128 added: none is): entry `a`'s row. -/
theorem normIdx_apply (hi : IndexIs) (a : Fin 32) :
    broadcastInDim S32x1 ![0] bcast_S32_S32x1_0
        (select (cmpi .slt idx32 (broadcastInDim S32 ![] bcast_S_S32 (constantI S_ 32 0#32)))
          (addi idx32 (broadcastInDim S32 ![] bcast_S_S32 (constantI S_ 32 128#32))) idx32) (ix2 a 0)
      = BitVec.ofNat 32 (Cert.Spec.index a).val := by
  rw [broadcastInDim_apply _ _ _ _ (ix1 a) (fun a' => by match a' with | ⟨0, _⟩ => rfl), select_apply]
  unfold IndexIs at hi
  rw [hi]
  show Scalar.select (IntOp.cmpi .slt (BitVec.ofNat 32 (Cert.Spec.index a).val) 0#32) _ (BitVec.ofNat 32 (Cert.Spec.index a).val) = _
  rw [index_not_neg a, select_zero]

/-- The gathered rows: entry `a` gets pool row `index a`. -/
theorem gathered_apply (hi : IndexIs) (p : FVec F S128x3x256x256 .f32) (a : Fin 32) (b : Fin 3) (c e : Fin 256) :
    gathered p (ix4 a b c e) = p (ix4 (Cert.Spec.index a) b c e) := by
  unfold gathered
  exact gather_apply p _ a b c e (Cert.Spec.index a) (by rw [normIdx_apply hi a]; exact index_clamp a)

/-- The mask broadcast over an image: entry `a`'s bit. -/
theorem mask_apply (hp : MaskIs F) (a : Fin 32) (b : Fin 3) (c e : Fin 256) :
    broadcastInDim S32x3x256x256 ![0, 1, 2, 3] bcast_S32x1x1x1_S32x3x256x256_0_1_2_3 (mask4 F) (ix4 a b c e)
      = if Cert.Spec.prob a then 1#1 else 0#1 := by
  rw [broadcastInDim_apply _ _ _ _ (ix4 a 0 0 0) (fun a' => by
    match a' with
    | ⟨0, _⟩ => rfl
    | ⟨1, _⟩ => rfl
    | ⟨2, _⟩ => rfl
    | ⟨3, _⟩ => rfl)]
  unfold mask4
  rw [broadcastInDim_apply _ _ _ _ (ix1 a) (fun a' => by match a' with | ⟨0, _⟩ => rfl)]
  unfold MaskIs at hp
  rw [hp]

theorem whereVal_apply (hp : MaskIs F) (u v : FVec F S32x3x256x256 .f32) (a : Fin 32) (b : Fin 3) (c e : Fin 256) :
    whereVal (mask4 F) u v (ix4 a b c e) = if Cert.Spec.prob a then u (ix4 a b c e) else v (ix4 a b c e) := by
  unfold whereVal
  show select _ u v (ix4 a b c e) = _
  rw [select_apply, mask_apply hp]
  cases Cert.Spec.prob a
  · exact select_zero _ _
  · exact select_one _ _

/-- The first result is the returned batch. -/
theorem out26_of (hp : MaskIs F) (hi : IndexIs) (x : FVec F S32x3x256x256 .f32) (p : FVec F S128x3x256x256 .f32) :
    out26 x p = Cert.Spec.outImages x p := by
  funext i
  obtain ⟨a, b, c, e, rfl⟩ : ∃ (a : Fin 32) (b : Fin 3) (c e : Fin 256), i = ix4 a b c e := ⟨i 0, i 1, i 2, i 3, eq_ix4 i⟩
  unfold out26
  show whereVal (mask4 F) (gathered p) x (ix4 a b c e) = if Cert.Spec.prob a then p (ix4 (Cert.Spec.index a) b c e) else x (ix4 a b c e)
  rw [whereVal_apply hp, gathered_apply hi]

/-- The second result is the returned pool. -/
theorem out34_of (hp : MaskIs F) (hi : IndexIs) (x : FVec F S32x3x256x256 .f32) (p : FVec F S128x3x256x256 .f32) :
    out34 x p = Cert.Spec.outPool x p := by
  funext i
  obtain ⟨r, b, c, e, rfl⟩ : ∃ (r : Fin 128) (b : Fin 3) (c e : Fin 256), i = ix4 r b c e := ⟨i 0, i 1, i 2, i 3, eq_ix4 i⟩
  have hidx : ∀ a : Fin 32, ((broadcastInDim S32x1 ![0] bcast_S32_S32x1_0
        (select (cmpi .slt idx32 (broadcastInDim S32 ![] bcast_S_S32 (constantI S_ 32 0#32)))
          (addi idx32 (broadcastInDim S32 ![] bcast_S_S32 (constantI S_ 32 128#32))) idx32)) (ix2 a 0)).toInt
      = ((Cert.Spec.index a).val : Int) := fun a => by rw [normIdx_apply hi a]; exact index_toInt a
  unfold out34
  show Host.scatter sd (fun _ b => b) p _ (newRows x p) (ix4 r b c e) = match Cert.Spec.owner r with
    | some a => x (ix4 a b c e)
    | none => p (ix4 r b c e)
  by_cases h : ∃ a : Fin 32, Cert.Spec.index a = r
  · obtain ⟨a, rfl⟩ := h
    rw [scatter_hit p _ (newRows x p) hidx a b c e, Cert.Spec.owner_index a]
    unfold newRows
    show whereVal (mask4 F) x (gathered p) (ix4 a b c e) = _
    rw [whereVal_apply hp, gathered_apply hi]
    cases Cert.Spec.prob a <;> rfl
  · have hr : ∀ a : Fin 32, Cert.Spec.index a ≠ r := fun a e => h ⟨a, e⟩
    rw [scatter_miss p _ (newRows x p) hidx r hr b c e]
    cases ho : Cert.Spec.owner r with
    | none => rfl
    | some a => exact absurd (Cert.Spec.owner_eq_some r a ho).2 (hr a)

end Cert.ReferenceIdeal.RefTerms
-- ==== Proof.RefFinal.lean ====
/-
  The reference's run with its results named by the result functions: its run ends with the two results at the terms
  of its operations composed in order; its mask and its index list evaluate to the tables; so the first result is the
  returned batch and the second the returned pool.
-/
import proofs.«209156_g27831388078850_cont_9to1_824_17_alg».proof.Proof.RefRun
import proofs.«209156_g27831388078850_cont_9to1_824_17_alg».proof.Proof.RefEvalMask
import proofs.«209156_g27831388078850_cont_9to1_824_17_alg».proof.Proof.RefEvalPerm
import proofs.«209156_g27831388078850_cont_9to1_824_17_alg».proof.Proof.RefEvalOut
import proofs.«209156_g27831388078850_cont_9to1_824_17_alg».proof.Proof.Gen.ReferenceIdeal

noncomputable section

namespace Cert.ReferenceIdeal.RefFinal

open Idealize.ShloMosaic Idealize.SL.Sem Cert.ReferenceIdeal Cert.ReferenceIdeal.Gen

/-- Every weakly fair execution of the reference terminates, faulting nowhere; at the end the first result is the returned
    batch of its two arguments, the second the returned pool, and the arguments are unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
        r.2.mem ((c.tc : Thread nD τ).loc main_v26)
          = Cert.Spec.outImages (m ((c.tc : Thread nD τ).loc main_arg0)) (m ((c.tc : Thread nD τ).loc main_arg1))
      ∧ r.2.mem ((c.tc : Thread nD τ).loc main_v34)
          = Cert.Spec.outPool (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.ReferenceIdeal.defs (F := Ideal)) _ _).mono
    (fun _ h c => ⟨(h c).1.trans (RefTerms.out26_of RefTerms.probMask_eq RefTerms.idx32_eq _ _),
      (h c).2.1.trans (RefTerms.out34_of RefTerms.probMask_eq RefTerms.idx32_eq _ _), (h c).2.2.1, (h c).2.2.2⟩)
    (Cert.ReferenceIdeal.RefRun.run (F := Ideal) m ρ)

end Cert.ReferenceIdeal.RefFinal

end
-- ==== Proof.Bridge.lean ====
/-
  The two layouts of the same arrays: an image batch as `[32, 3, 256, 256]` and as `[49152, 128]` rows of lanes (and the
  pool as `[128, 3, 256, 256]` and `[196608, 128]`) hold the same elements in the same row-major order, so the result
  functions stated over rows of lanes, read back through the reshape, are the result functions stated over images.
  Element `(a, b, c, e)` sits at row-major position `((3a + b)·256 + c)·256 + e`, that is in row
  `1536 a + 512 b + 2 c + e / 128`, lane `e % 128`: the row's batch entry is `a` and its row within the entry does not
  depend on `a`.
-/
import proofs.«209156_g27831388078850_cont_9to1_824_17_alg».proof.Proof.Spec
import Idealize.ShloMosaic.Lib.Pipeline.Value

namespace Cert.Spec

open Idealize.ShloMosaic Idealize.ShloMosaic.ValueIdx

variable {α : Type}

/-- The row of lanes and the lane of element `(b, c, e)` of image `a` (of `n` images). -/
def row2 {n : Nat} (a : Fin n) (b : Fin 3) (c e : Fin 256) : Fin (n * 1536) :=
  ⟨a.val * 1536 + (b.val * 512 + c.val * 2 + e.val / 128), by
    have := a.isLt; have := b.isLt; have := c.isLt; have := e.isLt
    have : a.val * 1536 + 1536 ≤ n * 1536 := by
      have : (a.val + 1) * 1536 ≤ n * 1536 := Nat.mul_le_mul_right _ (by omega)
      omega
    omega⟩
def lane2 (e : Fin 256) : Fin 128 := ⟨e.val % 128, Nat.mod_lt _ (by decide)⟩

theorem reshape_img (x : SImg.Idx → α) (h : SImg.ShapeCasts SImg2) (a : Fin 32) (b : Fin 3) (c e : Fin 256) :
    shapeCast SImg2 x h (ix2 (row2 a b c e) (lane2 e)) = x (ix4 a b c e) := by
  refine shapeCast_apply x h _ _ ?_
  rw [Shape.rowMajor_val_two, Shape.rowMajor_val_four]
  show ((a.val * 3 + b.val) * 256 + c.val) * 256 + e.val = (a.val * 1536 + (b.val * 512 + c.val * 2 + e.val / 128)) * 128 + e.val % 128
  have := e.isLt; omega

theorem reshape_pool (p : SPool.Idx → α) (h : SPool.ShapeCasts SPool2) (a : Fin 128) (b : Fin 3) (c e : Fin 256) :
    shapeCast SPool2 p h (ix2 (row2 a b c e) (lane2 e)) = p (ix4 a b c e) := by
  refine shapeCast_apply p h _ _ ?_
  rw [Shape.rowMajor_val_two, Shape.rowMajor_val_four]
  show ((a.val * 3 + b.val) * 256 + c.val) * 256 + e.val = (a.val * 1536 + (b.val * 512 + c.val * 2 + e.val / 128)) * 128 + e.val % 128
  have := e.isLt; omega

theorem entryOf_row2 (a : Fin 32) (b : Fin 3) (c e : Fin 256) : entryOf (row2 a b c e) = a := by
  apply Fin.ext
  show (a.val * 1536 + (b.val * 512 + c.val * 2 + e.val / 128)) / 1536 = a.val
  have := b.isLt; have := c.isLt; have := e.isLt; omega

theorem poolRowOf_row2 (a : Fin 128) (b : Fin 3) (c e : Fin 256) : poolRowOf (row2 a b c e) = a := by
  apply Fin.ext
  show (a.val * 1536 + (b.val * 512 + c.val * 2 + e.val / 128)) / 1536 = a.val
  have := b.isLt; have := c.isLt; have := e.isLt; omega

theorem poolRow_row2 {n : Nat} (r : Fin 128) (a : Fin n) (b : Fin 3) (c e : Fin 256) :
    poolRow r (row2 a b c e).val = row2 r b c e := by
  apply Fin.ext
  show r.val * 1536 + (a.val * 1536 + (b.val * 512 + c.val * 2 + e.val / 128)) % 1536 = r.val * 1536 + (b.val * 512 + c.val * 2 + e.val / 128)
  have := b.isLt; have := c.isLt; have := e.isLt; omega

theorem imgRow_row2 {n : Nat} (r : Fin 32) (a : Fin n) (b : Fin 3) (c e : Fin 256) :
    imgRow r (row2 a b c e).val = row2 r b c e := by
  apply Fin.ext
  show r.val * 1536 + (a.val * 1536 + (b.val * 512 + c.val * 2 + e.val / 128)) % 1536 = r.val * 1536 + (b.val * 512 + c.val * 2 + e.val / 128)
  have := b.isLt; have := c.isLt; have := e.isLt; omega

/-- The returned batch over rows of lanes, read back as images, is the returned batch over images. -/
theorem outImages_reshape (x : SImg.Idx → α) (p : SPool.Idx → α) (h1 : SImg.ShapeCasts SImg2) (h2 : SPool.ShapeCasts SPool2)
    (h3 : SImg2.ShapeCasts SImg) :
    shapeCast SImg (outImages2 (shapeCast SImg2 x h1) (shapeCast SPool2 p h2)) h3 = outImages x p := by
  funext i
  obtain ⟨a, b, c, e, rfl⟩ : ∃ (a : Fin 32) (b : Fin 3) (c e : Fin 256), i = ix4 a b c e := ⟨i 0, i 1, i 2, i 3, eq_ix4 i⟩
  rw [shapeCast_apply _ h3 (ix4 a b c e) (ix2 (row2 a b c e) (lane2 e)) (by
    rw [Shape.rowMajor_val_two, Shape.rowMajor_val_four]
    show (a.val * 1536 + (b.val * 512 + c.val * 2 + e.val / 128)) * 128 + e.val % 128 = ((a.val * 3 + b.val) * 256 + c.val) * 256 + e.val
    have := e.isLt; omega)]
  show (if prob (entryOf (row2 a b c e)) then shapeCast SPool2 p h2 (ix2 (poolRow (index (entryOf (row2 a b c e))) (row2 a b c e).val) (lane2 e))
      else shapeCast SImg2 x h1 (ix2 (row2 a b c e) (lane2 e))) = if prob a then p (ix4 (index a) b c e) else x (ix4 a b c e)
  rw [entryOf_row2, poolRow_row2, reshape_img, reshape_pool]

/-- The returned pool over rows of lanes, read back as images, is the returned pool over images. -/
theorem outPool_reshape (x : SImg.Idx → α) (p : SPool.Idx → α) (h1 : SImg.ShapeCasts SImg2) (h2 : SPool.ShapeCasts SPool2)
    (h3 : SPool2.ShapeCasts SPool) :
    shapeCast SPool (outPool2 (shapeCast SImg2 x h1) (shapeCast SPool2 p h2)) h3 = outPool x p := by
  funext i
  obtain ⟨a, b, c, e, rfl⟩ : ∃ (a : Fin 128) (b : Fin 3) (c e : Fin 256), i = ix4 a b c e := ⟨i 0, i 1, i 2, i 3, eq_ix4 i⟩
  rw [shapeCast_apply _ h3 (ix4 a b c e) (ix2 (row2 a b c e) (lane2 e)) (by
    rw [Shape.rowMajor_val_two, Shape.rowMajor_val_four]
    show (a.val * 1536 + (b.val * 512 + c.val * 2 + e.val / 128)) * 128 + e.val % 128 = ((a.val * 3 + b.val) * 256 + c.val) * 256 + e.val
    have := e.isLt; omega)]
  show (match owner (poolRowOf (row2 a b c e)) with
      | some r => shapeCast SImg2 x h1 (ix2 (imgRow r (row2 a b c e).val) (lane2 e))
      | none => shapeCast SPool2 p h2 (ix2 (row2 a b c e) (lane2 e)))
    = match owner a with
      | some r => x (ix4 r b c e)
      | none => p (ix4 a b c e)
  rw [poolRowOf_row2]
  cases owner a with
  | none => exact reshape_pool p h2 a b c e
  | some r => show shapeCast SImg2 x h1 (ix2 (imgRow r (row2 a b c e).val) (lane2 e)) = x (ix4 r b c e); rw [imgRow_row2, reshape_img]

end Cert.Spec
-- ==== Proof.lean ====
/-
  The certificate.  A batch of 32 images and a pool of 128 images; a fixed mask over the batch and a fixed list of 32
  distinct pool rows (what the reference's counter-based random generator yields from its constant key).  Both
  programs return the batch with every masked entry replaced by its listed pool row, and the pool with every masked
  entry's listed row replaced by that entry's image (`Cert.Spec.outImages`, `Cert.Spec.outPool`).

  The kernel program moves rows only: a SparseCore kernel (32 vector subcores, each copying its 48 rows of every batch
  entry from the image rows or from the listed pool row, through four slots of its own memory) writes the batch result,
  and a TensorCore kernel (22 copies of 1536 rows through eight slots) writes the masked images over the listed rows of
  a copy of the pool.  Its run is proved once for any element type (the SparseCore launch theorem over the task of one
  vector subcore, the split of the arrays among the subcores, and the TensorCore kernel's region), so the word-level
  program's frame and the idealized program's frame and values are instances of it; nothing is computed on the elements,
  so no finiteness of the inputs is used and the idealization rewrote nothing.

  The reference's run is its thousand host operations in order; its mask and index list are evaluated (the generator's
  words by computation on 32-bit words, the uniform draws compared with 1/2 through their mantissas, the sort of 128
  distinct keys as the permutation that lists them increasingly), and its gather / select / scatter read at an element
  give the same two functions.
-/
import proofs.«209156_g27831388078850_cont_9to1_824_17_alg».proof.Defs
import proofs.«209156_g27831388078850_cont_9to1_824_17_alg».proof.Proof.Gen.Kernel
import proofs.«209156_g27831388078850_cont_9to1_824_17_alg».proof.Proof.Gen.KernelIdeal
import proofs.«209156_g27831388078850_cont_9to1_824_17_alg».proof.Proof.Gen.ReferenceIdeal
import proofs.«209156_g27831388078850_cont_9to1_824_17_alg».proof.Proof.Gen.Pre_finite_inputs
import proofs.«209156_g27831388078850_cont_9to1_824_17_alg».proof.Proof.KRunI
import proofs.«209156_g27831388078850_cont_9to1_824_17_alg».proof.Proof.KRunB
import proofs.«209156_g27831388078850_cont_9to1_824_17_alg».proof.Proof.RefFinal
import proofs.«209156_g27831388078850_cont_9to1_824_17_alg».proof.Proof.Bridge
import Idealize.ShloMosaic.Adequacy
import Idealize.ShloMosaic.Init

noncomputable section

namespace Cert.Proof

open Idealize.ShloMosaic Idealize.SL.Sem

/-- The word-level kernel program runs to the end, faults nowhere and leaves its arguments unchanged. -/
theorem frame_k : Cert.frame_Kernel := fun m ρ _ =>
  (θ_run (Cert.Kernel.defs (F := Bits)) _ _).mono (fun _ h c => ⟨(h c).1, (h c).2.1⟩) (Cert.Kernel.KP.run (F := Bits) m ρ)

/-- So does the idealized kernel program. -/
theorem frame_ki : Cert.frame_KernelIdeal := fun m ρ _ =>
  (θ_run (Cert.KernelIdeal.defs (F := Ideal)) _ _).mono (fun _ h c => ⟨(h c).1, (h c).2.1⟩) (Cert.KernelIdeal.KP.run (F := Ideal) m ρ)

/-- So does the reference. -/
theorem frame_r : Cert.frame_ReferenceIdeal := fun m ρ _ =>
  (θ_run (Cert.ReferenceIdeal.defs (F := Ideal)) _ _).mono (fun _ h c => ⟨(h c).2.2.1, (h c).2.2.2⟩) (Cert.ReferenceIdeal.RefFinal.run m ρ)

/-- Both idealized programs end with the returned batch and the returned pool of their (equal) arguments. -/
theorem algebraic : Cert.algebraic_KernelIdeal_ReferenceIdeal := by
  intro m ρ m' ρ' _ hagree
  refine ⟨fun c => Cert.Spec.outImages (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Spec.outPool (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run (Cert.KernelIdeal.defs (F := Ideal)) _ _).mono (fun _ h c => ⟨(h c).2.2.1.trans ?_, (h c).2.2.2.trans ?_, (h c).1, (h c).2.1⟩)
      (Cert.KernelIdeal.KP.run (F := Ideal) m ρ)
    · exact Cert.Spec.outImages_reshape _ _ _ _ _
    · exact Cert.Spec.outPool_reshape _ _ _ _ _
  · refine (θ_run (Cert.ReferenceIdeal.defs (F := Ideal)) _ _).mono (fun _ h c => ⟨?_, ?_, (h c).2.2.1, (h c).2.2.2⟩)
      (Cert.ReferenceIdeal.RefFinal.run m' ρ')
    · rw [(h c).1, (hagree c).1, (hagree c).2]
    · rw [(h c).2.1, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
